-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v353) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x300000 : Shape := ⟨2, ![2, 300000]⟩
abbrev S64x256 : Shape := ⟨2, ![64, 256]⟩
abbrev S256 : Shape := ⟨1, ![256]⟩
abbrev S3x3x256x256 : Shape := ⟨4, ![3, 3, 256, 256]⟩
abbrev S3x3x256 : Shape := ⟨3, ![3, 3, 256]⟩
abbrev S3x256 : Shape := ⟨2, ![3, 256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S3x3x256x256 : S_.BroadcastsInDim S3x3x256x256 (![] : Fin 0 → Fin S3x3x256x256.rank)
  reducesTo_S3x3x256x256_S_d0_1_2_3 : S3x3x256x256.ReducesTo [0, 1, 2, 3] S_
  bcast_S_S3x3x256 : S_.BroadcastsInDim S3x3x256 (![] : Fin 0 → Fin S3x3x256.rank)
  reducesTo_S3x3x256_S_d0_1_2 : S3x3x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part2 {F : FTy → Type} [FloatOps F] (main_arg8 : FVec F S3x256 .f32) (main_arg9 : FVec F S3x256 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg9
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  main_v43

def fn_part1 {F : FTy → Type} [FloatOps F] (main_arg5 : FVec F S3x3x256 .f32) (main_arg6 : FVec F S3x3x256x256 .f32) (main_arg7 : FVec F S3x3x256 .f32) (main_arg8 : FVec F S3x256 .f32) (main_arg9 : FVec F S3x256 .f32) (main_v13 : IVec S_ 1) (main_v16 : IVec S3x3x256x256 1) : IVec S_ 1 :=
  let main_c_5 : IVec S_ 1 := constantI S_ 1 1#1
  let main_v17 : IVec S_ 1 := (fun x v => Host.reduce IntOp.andi x v reducesTo_S3x3x256x256_S_d0_1_2_3 h_S_) main_v16 main_c_5
  let main_v18 : IVec S_ 1 := andi main_v13 main_v17
  let main_v19 : FVec F S3x3x256 .f32 := Host.absf main_arg5
  let main_cst_6 : FVec F S_ .f32 := constant S_ .f32 0x7F800000#32
  let main_v20 : FVec F S3x3x256 .f32 := broadcastInDim S3x3x256 ![] bcast_S_S3x3x256 main_cst_6
  let main_v21 : IVec S3x3x256 1 := cmpf .olt main_v19 main_v20
  let main_c_7 : IVec S_ 1 := constantI S_ 1 1#1
  let main_v22 : IVec S_ 1 := (fun x v => Host.reduce IntOp.andi x v reducesTo_S3x3x256_S_d0_1_2 h_S_) main_v21 main_c_7
  let main_v23 : IVec S_ 1 := andi main_v18 main_v22
  let main_v24 : FVec F S3x3x256x256 .f32 := Host.absf main_arg6
  let main_cst_8 : FVec F S_ .f32 := constant S_ .f32 0x7F800000#32
  let main_v25 : FVec F S3x3x256x256 .f32 := broadcastInDim S3x3x256x256 ![] bcast_S_S3x3x256x256 main_cst_8
  let main_v26 : IVec S3x3x256x256 1 := cmpf .olt main_v24 main_v25
  let main_c_9 : IVec S_ 1 := constantI S_ 1 1#1
  let main_v27 : IVec S_ 1 := (fun x v => Host.reduce IntOp.andi x v reducesTo_S3x3x256x256_S_d0_1_2_3 h_S_) main_v26 main_c_9
  let main_v28 : IVec S_ 1 := andi main_v23 main_v27
  let main_v29 : FVec F S3x3x256 .f32 := Host.absf main_arg7
  let main_cst_10 : FVec F S_ .f32 := constant S_ .f32 0x7F800000#32
  let main_v30 : FVec F S3x3x256 .f32 := broadcastInDim S3x3x256 ![] bcast_S_S3x3x256 main_cst_10
  let main_v31 : IVec S3x3x256 1 := cmpf .olt main_v29 main_v30
  let main_c_11 : IVec S_ 1 := constantI S_ 1 1#1
  let main_v32 : IVec S_ 1 := (fun x v => Host.reduce IntOp.andi x v reducesTo_S3x3x256_S_d0_1_2 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x300000 32) (main_arg2 : FVec F S64x256 .f32) (main_arg3 : FVec F S256 .f32) (main_arg4 : FVec F S3x3x256x256 .f32) (main_arg5 : FVec F S3x3x256 .f32) (main_arg6 : FVec F S3x3x256x256 .f32) (main_arg7 : FVec F S3x3x256 .f32) (main_arg8 : FVec F S3x256 .f32) (main_arg9 : FVec F S3x256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x3x256x256 .f32 := Host.absf main_arg4
  let main_cst_4 : FVec F S_ .f32 := constant S_ .f32 0x7F800000#32
  let main_v15 : FVec F S3x3x256x256 .f32 := broadcastInDim S3x3x256x256 ![] bcast_S_S3x3x256x256 main_cst_4
  let main_v16 : IVec S3x3x256x256 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x300000 : Shape := ⟨2, ![2, 300000]⟩
abbrev S64x256 : Shape := ⟨2, ![64, 256]⟩
abbrev S256 : Shape := ⟨1, ![256]⟩
abbrev S3x3x256x256 : Shape := ⟨4, ![3, 3, 256, 256]⟩
abbrev S3x3x256 : Shape := ⟨3, ![3, 3, 256]⟩
abbrev S3x256 : Shape := ⟨2, ![3, 256]⟩
abbrev S1x300000 : Shape := ⟨2, ![1, 300000]⟩
abbrev S300000 : Shape := ⟨1, ![300000]⟩
abbrev S1x256 : Shape := ⟨2, ![1, 256]⟩
abbrev S50000x256 : Shape := ⟨2, ![50000, 256]⟩
abbrev S2000x64 : Shape := ⟨2, ![2000, 64]⟩
abbrev S2000x256 : Shape := ⟨2, ![2000, 256]⟩
abbrev S_ : Shape := ⟨0, ![]⟩
abbrev S300000x1 : Shape := ⟨2, ![300000, 1]⟩
abbrev S300000x256 : Shape := ⟨2, ![300000, 256]⟩
abbrev S1x1x256x256 : Shape := ⟨4, ![1, 1, 256, 256]⟩
abbrev S256x256 : Shape := ⟨2, ![256, 256]⟩
abbrev S1x1x256 : Shape := ⟨3, ![1, 1, 256]⟩

abbrev nBuf : Space → Nat
  | .hbm => 295
  | .vmem => 138
  | .smem => 0
  | _ => 0

abbrev hbmTy0_0 (i : Nat) : BufTy := match i % 128 with
  | 0 => ⟨S50000x64, .f32⟩
  | 1 => ⟨S2x300000, .i32⟩
  | 2 => ⟨S64x256, .f32⟩
  | 3 => ⟨S256, .f32⟩
  | 4 => ⟨S3x3x256x256, .f32⟩
  | 5 => ⟨S3x3x256, .f32⟩
  | 6 => ⟨S3x3x256x256, .f32⟩
  | 7 => ⟨S3x3x256, .f32⟩
  | 8 => ⟨S3x256, .f32⟩
  | 9 => ⟨S3x256, .f32⟩
  | 10 => ⟨S1x300000, .i32⟩
  | 11 => ⟨S300000, .i32⟩
  | 12 => ⟨S1x300000, .i32⟩
  | 13 => ⟨S300000, .i32⟩
  | 14 => ⟨S1x256, .f32⟩
  | 15 => ⟨S50000x256, .f32⟩
  | 16 => ⟨S_, .i32⟩
  | 17 => ⟨S300000, .i32⟩
  | 18 => ⟨S300000, .i1⟩
  | 19 => ⟨S_, .i32⟩
  | 20 => ⟨S300000, .i32⟩
  | 21 => ⟨S300000, .i32⟩
  | 22 => ⟨S300000, .i32⟩
  | 23 => ⟨S300000x1, .i32⟩
  | 24 => ⟨S300000x256, .f32⟩
  | 25 => ⟨S_, .f32⟩
  | 26 => ⟨S50000x256, .f32⟩
  | 27 => ⟨S300000x1, .i32⟩
  | 28 => ⟨S50000x256, .f32⟩
  | 29 => ⟨S1x1x256x256, .f32⟩
  | 30 => ⟨S256x256, .f32⟩
  | 31 => ⟨S1x1x256, .f32⟩
  | 32 => ⟨S256, .f32⟩
  | 33 => ⟨S1x256, .f32⟩
  | 34 => ⟨S1x1x256x256, .f32⟩
  | 35 => ⟨S256x256, .f32⟩
  | 36 => ⟨S1x1x256, .f32⟩
  | 37 => ⟨S256, .f32⟩
  | 38 => ⟨S1x256, .f32⟩
  | 39 => ⟨S50000x256, .f32⟩
  | 40 => ⟨S_, .i32⟩
  | 41 => ⟨S300000, .i32⟩
  | 42 => ⟨S300000, .i1⟩
  | 43 => ⟨S_, .i32⟩
  | 44 => ⟨S300000, .i32⟩
  | 45 => ⟨S300000, .i32⟩
  | 46 => ⟨S300000, .i32⟩
  | 47 => ⟨S300000x1, .i32⟩
  | 48 => ⟨S300000x256, .f32⟩
  | 49 => ⟨S_, .f32⟩
  | 50 => ⟨S50000x256, .f32⟩
  | 51 => ⟨S300000x1, .i32⟩
  | 52 => ⟨S50000x256, .f32⟩
  | 53 => ⟨S1x1x256x256, .f32⟩
  | 54 => ⟨S256x256, .f32⟩
  | 55 => ⟨S1x1x256, .f32⟩
  | 56 => ⟨S256, .f32⟩
  | 57 => ⟨S1x256, .f32⟩
  | 58 => ⟨S1x1x256x256, .f32⟩
  | 59 => ⟨S256x256, .f32⟩
  | 60 => ⟨S1x1x256, .f32⟩
  | 61 => ⟨S256, .f32⟩
  | 62 => ⟨S1x256, .f32⟩
  | 63 => ⟨S50000x256, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x256, .f32⟩
  | 73 => ⟨S_, .f32⟩
  | 74 => ⟨S50000x256, .f32⟩
  | 75 => ⟨S300000x1, .i32⟩
  | 76 => ⟨S50000x256, .f32⟩
  | 77 => ⟨S1x1x256x256, .f32⟩
  | 78 => ⟨S256x256, .f32⟩
  | 79 => ⟨S1x1x256, .f32⟩
  | 80 => ⟨S256, .f32⟩
  | 81 => ⟨S1x256, .f32⟩
  | 82 => ⟨S1x1x256x256, .f32⟩
  | 83 => ⟨S256x256, .f32⟩
  | 84 => ⟨S1x1x256, .f32⟩
  | 85 => ⟨S256, .f32⟩
  | 86 => ⟨S1x256, .f32⟩
  | 87 => ⟨S50000x256, .f32⟩
  | 88 => ⟨S1x256, .f32⟩
  | 89 => ⟨S1x256, .f32⟩
  | 90 => ⟨S_, .f32⟩
  | 91 => ⟨S1x256, .f32⟩
  | 92 => ⟨S1x256, .f32⟩
  | 93 => ⟨S_, .f32⟩
  | 94 => ⟨S1x256, .f32⟩
  | 95 => ⟨S1x256, .f32⟩
  | 96 => ⟨S1x256, .f32⟩
  | 97 => ⟨S1x256, .f32⟩
  | 98 => ⟨S_, .f32⟩
  | 99 => ⟨S1x256, .f32⟩
  | 100 => ⟨S1x256, .f32⟩
  | 101 => ⟨S1x256, .f32⟩
  | 102 => ⟨S1x256, .f32⟩
  | 103 => ⟨S256, .f32⟩
  | 104 => ⟨S1x256, .f32⟩
  | 105 => ⟨S1x256, .f32⟩
  | 106 => ⟨S256, .f32⟩
  | 107 => ⟨S1x256, .f32⟩
  | 108 => ⟨S50000x256, .f32⟩
  | 109 => ⟨S_, .i32⟩
  | 110 => ⟨S300000, .i32⟩
  | 111 => ⟨S300000, .i1⟩
  | 112 => ⟨S_, .i32⟩
  | 113 => ⟨S300000, .i32⟩
  | 114 => ⟨S300000, .i32⟩
  | 115 => ⟨S300000, .i32⟩
  | 116 => ⟨S300000x1, .i32⟩
  | 117 => ⟨S300000x256, .f32⟩
  | 118 => ⟨S_, .f32⟩
  | 119 => ⟨S50000x256, .f32⟩
  | 120 => ⟨S300000x1, .i32⟩
  | 121 => ⟨S50000x256, .f32⟩
  | 122 => ⟨S1x1x256x256, .f32⟩
  | 123 => ⟨S256x256, .f32⟩
  | 124 => ⟨S1x1x256, .f32⟩
  | 125 => ⟨S256, .f32⟩
  | 126 => ⟨S1x256, .f32⟩
  | 127 => ⟨S1x1x256x256, .f32⟩
  | _ => ⟨S50000x64, .f32⟩

abbrev hbmTy0_1 (i : Nat) : BufTy := match i % 128 with
  | 0 => ⟨S256x256, .f32⟩
  | 1 => ⟨S1x1x256, .f32⟩
  | 2 => ⟨S256, .f32⟩
  | 3 => ⟨S1x256, .f32⟩
  | 4 => ⟨S50000x256, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x256, .f32⟩
  | 14 => ⟨S_, .f32⟩
  | 15 => ⟨S50000x256, .f32⟩
  | 16 => ⟨S300000x1, .i32⟩
  | 17 => ⟨S50000x256, .f32⟩
  | 18 => ⟨S1x1x256x256, .f32⟩
  | 19 => ⟨S256x256, .f32⟩
  | 20 => ⟨S1x1x256, .f32⟩
  | 21 => ⟨S256, .f32⟩
  | 22 => ⟨S1x256, .f32⟩
  | 23 => ⟨S1x1x256x256, .f32⟩
  | 24 => ⟨S256x256, .f32⟩
  | 25 => ⟨S1x1x256, .f32⟩
  | 26 => ⟨S256, .f32⟩
  | 27 => ⟨S1x256, .f32⟩
  | 28 => ⟨S50000x256, .f32⟩
  | 29 => ⟨S_, .i32⟩
  | 30 => ⟨S300000, .i32⟩
  | 31 => ⟨S300000, .i1⟩
  | 32 => ⟨S_, .i32⟩
  | 33 => ⟨S300000, .i32⟩
  | 34 => ⟨S300000, .i32⟩
  | 35 => ⟨S300000, .i32⟩
  | 36 => ⟨S300000x1, .i32⟩
  | 37 => ⟨S300000x256, .f32⟩
  | 38 => ⟨S_, .f32⟩
  | 39 => ⟨S50000x256, .f32⟩
  | 40 => ⟨S300000x1, .i32⟩
  | 41 => ⟨S50000x256, .f32⟩
  | 42 => ⟨S1x1x256x256, .f32⟩
  | 43 => ⟨S256x256, .f32⟩
  | 44 => ⟨S1x1x256, .f32⟩
  | 45 => ⟨S256, .f32⟩
  | 46 => ⟨S1x256, .f32⟩
  | 47 => ⟨S1x1x256x256, .f32⟩
  | 48 => ⟨S256x256, .f32⟩
  | 49 => ⟨S1x1x256, .f32⟩
  | 50 => ⟨S256, .f32⟩
  | 51 => ⟨S1x256, .f32⟩
  | 52 => ⟨S50000x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S_, .f32⟩
  | 59 => ⟨S1x256, .f32⟩
  | 60 => ⟨S1x256, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S1x256, .f32⟩
  | 67 => ⟨S1x256, .f32⟩
  | 68 => ⟨S256, .f32⟩
  | 69 => ⟨S1x256, .f32⟩
  | 70 => ⟨S1x256, .f32⟩
  | 71 => ⟨S256, .f32⟩
  | 72 => ⟨S1x256, .f32⟩
  | 73 => ⟨S50000x256, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x256, .f32⟩
  | 83 => ⟨S_, .f32⟩
  | 84 => ⟨S50000x256, .f32⟩
  | 85 => ⟨S300000x1, .i32⟩
  | 86 => ⟨S50000x256, .f32⟩
  | 87 => ⟨S1x1x256x256, .f32⟩
  | 88 => ⟨S256x256, .f32⟩
  | 89 => ⟨S1x1x256, .f32⟩
  | 90 => ⟨S256, .f32⟩
  | 91 => ⟨S1x256, .f32⟩
  | 92 => ⟨S1x1x256x256, .f32⟩
  | 93 => ⟨S256x256, .f32⟩
  | 94 => ⟨S1x1x256, .f32⟩
  | 95 => ⟨S256, .f32⟩
  | 96 => ⟨S1x256, .f32⟩
  | 97 => ⟨S50000x256, .f32⟩
  | 98 => ⟨S_, .i32⟩
  | 99 => ⟨S300000, .i32⟩
  | 100 => ⟨S300000, .i1⟩
  | 101 => ⟨S_, .i32⟩
  | 102 => ⟨S300000, .i32⟩
  | 103 => ⟨S300000, .i32⟩
  | 104 => ⟨S300000, .i32⟩
  | 105 => ⟨S300000x1, .i32⟩
  | 106 => ⟨S300000x256, .f32⟩
  | 107 => ⟨S_, .f32⟩
  | 108 => ⟨S50000x256, .f32⟩
  | 109 => ⟨S300000x1, .i32⟩
  | 110 => ⟨S50000x256, .f32⟩
  | 111 => ⟨S1x1x256x256, .f32⟩
  | 112 => ⟨S256x256, .f32⟩
  | 113 => ⟨S1x1x256, .f32⟩
  | 114 => ⟨S256, .f32⟩
  | 115 => ⟨S1x256, .f32⟩
  | 116 => ⟨S1x1x256x256, .f32⟩
  | 117 => ⟨S256x256, .f32⟩
  | 118 => ⟨S1x1x256, .f32⟩
  | 119 => ⟨S256, .f32⟩
  | 120 => ⟨S1x256, .f32⟩
  | 121 => ⟨S50000x256, .f32⟩
  | 122 => ⟨S_, .i32⟩
  | 123 => ⟨S300000, .i32⟩
  | 124 => ⟨S300000, .i1⟩
  | 125 => ⟨S_, .i32⟩
  | 126 => ⟨S300000, .i32⟩
  | 127 => ⟨S300000, .i32⟩
  | _ => ⟨S50000x64, .f32⟩

abbrev hbmTy0_2 (i : Nat) : BufTy := match i % 128 with
  | 0 => ⟨S300000, .i32⟩
  | 1 => ⟨S300000x1, .i32⟩
  | 2 => ⟨S300000x256, .f32⟩
  | 3 => ⟨S_, .f32⟩
  | 4 => ⟨S50000x256, .f32⟩
  | 5 => ⟨S300000x1, .i32⟩
  | 6 => ⟨S50000x256, .f32⟩
  | 7 => ⟨S1x1x256x256, .f32⟩
  | 8 => ⟨S256x256, .f32⟩
  | 9 => ⟨S1x1x256, .f32⟩
  | 10 => ⟨S256, .f32⟩
  | 11 => ⟨S1x256, .f32⟩
  | 12 => ⟨S1x1x256x256, .f32⟩
  | 13 => ⟨S256x256, .f32⟩
  | 14 => ⟨S1x1x256, .f32⟩
  | 15 => ⟨S256, .f32⟩
  | 16 => ⟨S1x256, .f32⟩
  | 17 => ⟨S50000x256, .f32⟩
  | 18 => ⟨S1x256, .f32⟩
  | 19 => ⟨S1x256, .f32⟩
  | 20 => ⟨S_, .f32⟩
  | 21 => ⟨S1x256, .f32⟩
  | 22 => ⟨S1x256, .f32⟩
  | 23 => ⟨S_, .f32⟩
  | 24 => ⟨S1x256, .f32⟩
  | 25 => ⟨S1x256, .f32⟩
  | 26 => ⟨S1x256, .f32⟩
  | 27 => ⟨S1x256, .f32⟩
  | 28 => ⟨S_, .f32⟩
  | 29 => ⟨S1x256, .f32⟩
  | 30 => ⟨S1x256, .f32⟩
  | 31 => ⟨S1x256, .f32⟩
  | 32 => ⟨S1x256, .f32⟩
  | 33 => ⟨S256, .f32⟩
  | 34 => ⟨S1x256, .f32⟩
  | 35 => ⟨S1x256, .f32⟩
  | 36 => ⟨S256, .f32⟩
  | 37 => ⟨S1x256, .f32⟩
  | 38 => ⟨S50000x256, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev vmemTy0_0 (i : Nat) : BufTy := match i % 128 with
  | 0 => ⟨S2000x64, .f32⟩
  | 1 => ⟨S2000x64, .f32⟩
  | 2 => ⟨S64x256, .f32⟩
  | 3 => ⟨S1x256, .f32⟩
  | 4 => ⟨S2000x256, .f32⟩
  | 5 => ⟨S2000x256, .f32⟩
  | 6 => ⟨S2000x256, .f32⟩
  | 7 => ⟨S2000x256, .f32⟩
  | 8 => ⟨S2000x256, .f32⟩
  | 9 => ⟨S2000x256, .f32⟩
  | 10 => ⟨S256x256, .f32⟩
  | 11 => ⟨S1x256, .f32⟩
  | 12 => ⟨S256x256, .f32⟩
  | 13 => ⟨S1x256, .f32⟩
  | 14 => ⟨S2000x256, .f32⟩
  | 15 => ⟨S2000x256, .f32⟩
  | 16 => ⟨S2000x256, .f32⟩
  | 17 => ⟨S2000x256, .f32⟩
  | 18 => ⟨S2000x256, .f32⟩
  | 19 => ⟨S2000x256, .f32⟩
  | 20 => ⟨S256x256, .f32⟩
  | 21 => ⟨S1x256, .f32⟩
  | 22 => ⟨S256x256, .f32⟩
  | 23 => ⟨S1x256, .f32⟩
  | 24 => ⟨S2000x256, .f32⟩
  | 25 => ⟨S2000x256, .f32⟩
  | 26 => ⟨S2000x256, .f32⟩
  | 27 => ⟨S2000x256, .f32⟩
  | 28 => ⟨S2000x256, .f32⟩
  | 29 => ⟨S2000x256, .f32⟩
  | 30 => ⟨S256x256, .f32⟩
  | 31 => ⟨S1x256, .f32⟩
  | 32 => ⟨S256x256, .f32⟩
  | 33 => ⟨S1x256, .f32⟩
  | 34 => ⟨S2000x256, .f32⟩
  | 35 => ⟨S2000x256, .f32⟩
  | 36 => ⟨S2000x256, .f32⟩
  | 37 => ⟨S2000x256, .f32⟩
  | 38 => ⟨S1x256, .f32⟩
  | 39 => ⟨S1x256, .f32⟩
  | 40 => ⟨S1x256, .f32⟩
  | 41 => ⟨S1x256, .f32⟩
  | 42 => ⟨S2000x256, .f32⟩
  | 43 => ⟨S2000x256, .f32⟩
  | 44 => ⟨S1x256, .f32⟩
  | 45 => ⟨S1x256, .f32⟩
  | 46 => ⟨S1x256, .f32⟩
  | 47 => ⟨S1x256, .f32⟩
  | 48 => ⟨S2000x256, .f32⟩
  | 49 => ⟨S2000x256, .f32⟩
  | 50 => ⟨S2000x256, .f32⟩
  | 51 => ⟨S2000x256, .f32⟩
  | 52 => ⟨S2000x256, .f32⟩
  | 53 => ⟨S2000x256, .f32⟩
  | 54 => ⟨S256x256, .f32⟩
  | 55 => ⟨S1x256, .f32⟩
  | 56 => ⟨S256x256, .f32⟩
  | 57 => ⟨S1x256, .f32⟩
  | 58 => ⟨S2000x256, .f32⟩
  | 59 => ⟨S2000x256, .f32⟩
  | 60 => ⟨S2000x256, .f32⟩
  | 61 => ⟨S2000x256, .f32⟩
  | 62 => ⟨S2000x256, .f32⟩
  | 63 => ⟨S2000x256, .f32⟩
  | 64 => ⟨S256x256, .f32⟩
  | 65 => ⟨S1x256, .f32⟩
  | 66 => ⟨S256x256, .f32⟩
  | 67 => ⟨S1x256, .f32⟩
  | 68 => ⟨S2000x256, .f32⟩
  | 69 => ⟨S2000x256, .f32⟩
  | 70 => ⟨S2000x256, .f32⟩
  | 71 => ⟨S2000x256, .f32⟩
  | 72 => ⟨S2000x256, .f32⟩
  | 73 => ⟨S2000x256, .f32⟩
  | 74 => ⟨S256x256, .f32⟩
  | 75 => ⟨S1x256, .f32⟩
  | 76 => ⟨S256x256, .f32⟩
  | 77 => ⟨S1x256, .f32⟩
  | 78 => ⟨S2000x256, .f32⟩
  | 79 => ⟨S2000x256, .f32⟩
  | 80 => ⟨S2000x256, .f32⟩
  | 81 => ⟨S2000x256, .f32⟩
  | 82 => ⟨S1x256, .f32⟩
  | 83 => ⟨S1x256, .f32⟩
  | 84 => ⟨S1x256, .f32⟩
  | 85 => ⟨S1x256, .f32⟩
  | 86 => ⟨S2000x256, .f32⟩
  | 87 => ⟨S2000x256, .f32⟩
  | 88 => ⟨S1x256, .f32⟩
  | 89 => ⟨S1x256, .f32⟩
  | 90 => ⟨S1x256, .f32⟩
  | 91 => ⟨S1x256, .f32⟩
  | 92 => ⟨S2000x256, .f32⟩
  | 93 => ⟨S2000x256, .f32⟩
  | 94 => ⟨S2000x256, .f32⟩
  | 95 => ⟨S2000x256, .f32⟩
  | 96 => ⟨S2000x256, .f32⟩
  | 97 => ⟨S2000x256, .f32⟩
  | 98 => ⟨S256x256, .f32⟩
  | 99 => ⟨S1x256, .f32⟩
  | 100 => ⟨S256x256, .f32⟩
  | 101 => ⟨S1x256, .f32⟩
  | 102 => ⟨S2000x256, .f32⟩
  | 103 => ⟨S2000x256, .f32⟩
  | 104 => ⟨S2000x256, .f32⟩
  | 105 => ⟨S2000x256, .f32⟩
  | 106 => ⟨S2000x256, .f32⟩
  | 107 => ⟨S2000x256, .f32⟩
  | 108 => ⟨S256x256, .f32⟩
  | 109 => ⟨S1x256, .f32⟩
  | 110 => ⟨S256x256, .f32⟩
  | 111 => ⟨S1x256, .f32⟩
  | 112 => ⟨S2000x256, .f32⟩
  | 113 => ⟨S2000x256, .f32⟩
  | 114 => ⟨S2000x256, .f32⟩
  | 115 => ⟨S2000x256, .f32⟩
  | 116 => ⟨S2000x256, .f32⟩
  | 117 => ⟨S2000x256, .f32⟩
  | 118 => ⟨S256x256, .f32⟩
  | 119 => ⟨S1x256, .f32⟩
  | 120 => ⟨S256x256, .f32⟩
  | 121 => ⟨S1x256, .f32⟩
  | 122 => ⟨S2000x256, .f32⟩
  | 123 => ⟨S2000x256, .f32⟩
  | 124 => ⟨S2000x256, .f32⟩
  | 125 => ⟨S2000x256, .f32⟩
  | 126 => ⟨S1x256, .f32⟩
  | 127 => ⟨S1x256, .f32⟩
  | _ => ⟨S50000x64, .f32⟩

abbrev vmemTy0_1 (i : Nat) : BufTy := match i % 128 with
  | 0 => ⟨S1x256, .f32⟩
  | 1 => ⟨S1x256, .f32⟩
  | 2 => ⟨S2000x256, .f32⟩
  | 3 => ⟨S2000x256, .f32⟩
  | 4 => ⟨S1x256, .f32⟩
  | 5 => ⟨S1x256, .f32⟩
  | 6 => ⟨S1x256, .f32⟩
  | 7 => ⟨S1x256, .f32⟩
  | 8 => ⟨S2000x256, .f32⟩
  | 9 => ⟨S2000x256, .f32⟩
  | _ => ⟨S50000x64, .f32⟩

abbrev vmemTy (i : Nat) : BufTy := match i / 128 with
  | 0 => vmemTy0_0 i
  | 1 => vmemTy0_1 i
  | _ => ⟨S50000x64, .f32⟩

abbrev bufTy : (tb : Table) → Fin (tcTables nBuf tb) → BufTy
  | .hbm, ⟨i, _⟩ => hbmTy i
  | .local _ .vmem, ⟨i, _⟩ => vmemTy i
  | _, _ => ⟨S50000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_4 : Ref sig .tc := ⟨.hbm, 64, rfl⟩
abbrev main_v48 : Ref sig .tc := ⟨.hbm, 65, rfl⟩
abbrev main_v49 : Ref sig .tc := ⟨.hbm, 66, rfl⟩
abbrev main_c_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69_0 : Ref sig .tc := ⟨.hbm, 88, rfl⟩
abbrev main_v69_1 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_cst_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_9 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_10 : Ref sig .tc := ⟨.hbm, 109, rfl⟩
abbrev main_v86 : Ref sig .tc := ⟨.hbm, 110, rfl⟩
abbrev main_v87 : Ref sig .tc := ⟨.hbm, 111, rfl⟩
abbrev main_c_11 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_13 : Ref sig .tc := ⟨.hbm, 133, rfl⟩
abbrev main_v107 : Ref sig .tc := ⟨.hbm, 134, rfl⟩
abbrev main_v108 : Ref sig .tc := ⟨.hbm, 135, rfl⟩
abbrev main_c_14 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_15 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_c_16 : Ref sig .tc := ⟨.hbm, 157, rfl⟩
abbrev main_v128 : Ref sig .tc := ⟨.hbm, 158, rfl⟩
abbrev main_v129 : Ref sig .tc := ⟨.hbm, 159, rfl⟩
abbrev main_c_17 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_18 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149_0 : Ref sig .tc := ⟨.hbm, 181, rfl⟩
abbrev main_v149_1 : Ref sig .tc := ⟨.hbm, 182, rfl⟩
abbrev main_cst_19 : Ref sig .tc := ⟨.hbm, 183, rfl⟩
abbrev main_v150 : Ref sig .tc := ⟨.hbm, 184, rfl⟩
abbrev main_v151 : Ref sig .tc := ⟨.hbm, 185, rfl⟩
abbrev main_cst_20 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_21 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_c_22 : Ref sig .tc := ⟨.hbm, 202, rfl⟩
abbrev main_v166 : Ref sig .tc := ⟨.hbm, 203, rfl⟩
abbrev main_v167 : Ref sig .tc := ⟨.hbm, 204, rfl⟩
abbrev main_c_23 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_24 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_c_25 : Ref sig .tc := ⟨.hbm, 226, rfl⟩
abbrev main_v187 : Ref sig .tc := ⟨.hbm, 227, rfl⟩
abbrev main_v188 : Ref sig .tc := ⟨.hbm, 228, rfl⟩
abbrev main_c_26 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_cst_27 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_c_28 : Ref sig .tc := ⟨.hbm, 250, rfl⟩
abbrev main_v208 : Ref sig .tc := ⟨.hbm, 251, rfl⟩
abbrev main_v209 : Ref sig .tc := ⟨.hbm, 252, rfl⟩
abbrev main_c_29 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_cst_30 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229_0 : Ref sig .tc := ⟨.hbm, 274, rfl⟩
abbrev main_v229_1 : Ref sig .tc := ⟨.hbm, 275, rfl⟩
abbrev main_cst_31 : Ref sig .tc := ⟨.hbm, 276, rfl⟩
abbrev main_v230 : Ref sig .tc := ⟨.hbm, 277, rfl⟩
abbrev main_v231 : Ref sig .tc := ⟨.hbm, 278, rfl⟩
abbrev main_cst_32 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_cst_33 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_scratch0 : Ref sig .tc := ⟨.vmem, 40, rfl⟩
abbrev cc4_scratch1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg6_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg6_0 : Ref sig .tc := ⟨.vmem, 68, rfl⟩
abbrev cc7_stg6_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg1_1 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg5_0 : Ref sig .tc := ⟨.vmem, 77, rfl⟩
abbrev cc8_stg6_0 : Ref sig .tc := ⟨.vmem, 78, rfl⟩
abbrev cc8_stg6_1 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg2_0 : Ref sig .tc := ⟨.vmem, 83, rfl⟩
abbrev cc9_scratch0 : Ref sig .tc := ⟨.vmem, 84, rfl⟩
abbrev cc9_scratch1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg4_0 : Ref sig .tc := ⟨.vmem, 91, rfl⟩
abbrev cc10_stg5_0 : Ref sig .tc := ⟨.vmem, 92, rfl⟩
abbrev cc10_stg5_1 : Ref sig .tc := ⟨.vmem, 93, rfl⟩
abbrev cc11_stg0_0 : Ref sig .tc := ⟨.vmem, 94, rfl⟩
abbrev cc11_stg0_1 : Ref sig .tc := ⟨.vmem, 95, rfl⟩
abbrev cc11_stg1_0 : Ref sig .tc := ⟨.vmem, 96, rfl⟩
abbrev cc11_stg1_1 : Ref sig .tc := ⟨.vmem, 97, rfl⟩
abbrev cc11_stg2_0 : Ref sig .tc := ⟨.vmem, 98, rfl⟩
abbrev cc11_stg3_0 : Ref sig .tc := ⟨.vmem, 99, rfl⟩
abbrev cc11_stg4_0 : Ref sig .tc := ⟨.vmem, 100, rfl⟩
abbrev cc11_stg5_0 : Ref sig .tc := ⟨.vmem, 101, rfl⟩
abbrev cc11_stg6_0 : Ref sig .tc := ⟨.vmem, 102, rfl⟩
abbrev cc11_stg6_1 : Ref sig .tc := ⟨.vmem, 103, rfl⟩
abbrev cc12_stg0_0 : Ref sig .tc := ⟨.vmem, 104, rfl⟩
abbrev cc12_stg0_1 : Ref sig .tc := ⟨.vmem, 105, rfl⟩
abbrev cc12_stg1_0 : Ref sig .tc := ⟨.vmem, 106, rfl⟩
abbrev cc12_stg1_1 : Ref sig .tc := ⟨.vmem, 107, rfl⟩
abbrev cc12_stg2_0 : Ref sig .tc := ⟨.vmem, 108, rfl⟩
abbrev cc12_stg3_0 : Ref sig .tc := ⟨.vmem, 109, rfl⟩
abbrev cc12_stg4_0 : Ref sig .tc := ⟨.vmem, 110, rfl⟩
abbrev cc12_stg5_0 : Ref sig .tc := ⟨.vmem, 111, rfl⟩
abbrev cc12_stg6_0 : Ref sig .tc := ⟨.vmem, 112, rfl⟩
abbrev cc12_stg6_1 : Ref sig .tc := ⟨.vmem, 113, rfl⟩
abbrev cc13_stg0_0 : Ref sig .tc := ⟨.vmem, 114, rfl⟩
abbrev cc13_stg0_1 : Ref sig .tc := ⟨.vmem, 115, rfl⟩
abbrev cc13_stg1_0 : Ref sig .tc := ⟨.vmem, 116, rfl⟩
abbrev cc13_stg1_1 : Ref sig .tc := ⟨.vmem, 117, rfl⟩
abbrev cc13_stg2_0 : Ref sig .tc := ⟨.vmem, 118, rfl⟩
abbrev cc13_stg3_0 : Ref sig .tc := ⟨.vmem, 119, rfl⟩
abbrev cc13_stg4_0 : Ref sig .tc := ⟨.vmem, 120, rfl⟩
abbrev cc13_stg5_0 : Ref sig .tc := ⟨.vmem, 121, rfl⟩
abbrev cc13_stg6_0 : Ref sig .tc := ⟨.vmem, 122, rfl⟩
abbrev cc13_stg6_1 : Ref sig .tc := ⟨.vmem, 123, rfl⟩
abbrev cc14_stg0_0 : Ref sig .tc := ⟨.vmem, 124, rfl⟩
abbrev cc14_stg0_1 : Ref sig .tc := ⟨.vmem, 125, rfl⟩
abbrev cc14_stg1_0 : Ref sig .tc := ⟨.vmem, 126, rfl⟩
abbrev cc14_stg2_0 : Ref sig .tc := ⟨.vmem, 127, rfl⟩
abbrev cc14_scratch0 : Ref sig .tc := ⟨.vmem, 128, rfl⟩
abbrev cc14_scratch1 : Ref sig .tc := ⟨.vmem, 129, rfl⟩
abbrev cc15_stg0_0 : Ref sig .tc := ⟨.vmem, 130, rfl⟩
abbrev cc15_stg0_1 : Ref sig .tc := ⟨.vmem, 131, rfl⟩
abbrev cc15_stg1_0 : Ref sig .tc := ⟨.vmem, 132, rfl⟩
abbrev cc15_stg2_0 : Ref sig .tc := ⟨.vmem, 133, rfl⟩
abbrev cc15_stg3_0 : Ref sig .tc := ⟨.vmem, 134, rfl⟩
abbrev cc15_stg4_0 : Ref sig .tc := ⟨.vmem, 135, rfl⟩
abbrev cc15_stg5_0 : Ref sig .tc := ⟨.vmem, 136, rfl⟩
abbrev cc15_stg5_1 : Ref sig .tc := ⟨.vmem, 137, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem6_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem6_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem6_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc10_sem0_0 : DmaSem sig := 82
abbrev cc10_sem0_1 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88
abbrev cc10_sem5_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem3_0 : DmaSem sig := 95
abbrev cc11_sem4_0 : DmaSem sig := 96
abbrev cc11_sem5_0 : DmaSem sig := 97
abbrev cc11_sem6_0 : DmaSem sig := 98
abbrev cc11_sem6_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem3_0 : DmaSem sig := 105
abbrev cc12_sem4_0 : DmaSem sig := 106
abbrev cc12_sem5_0 : DmaSem sig := 107
abbrev cc12_sem6_0 : DmaSem sig := 108
abbrev cc12_sem6_1 : DmaSem sig := 109
abbrev cc13_sem0_0 : DmaSem sig := 110
abbrev cc13_sem0_1 : DmaSem sig := 111
abbrev cc13_sem1_0 : DmaSem sig := 112
abbrev cc13_sem1_1 : DmaSem sig := 113
abbrev cc13_sem2_0 : DmaSem sig := 114
abbrev cc13_sem3_0 : DmaSem sig := 115
abbrev cc13_sem4_0 : DmaSem sig := 116
abbrev cc13_sem5_0 : DmaSem sig := 117
abbrev cc13_sem6_0 : DmaSem sig := 118
abbrev cc13_sem6_1 : DmaSem sig := 119
abbrev cc14_sem0_0 : DmaSem sig := 120
abbrev cc14_sem0_1 : DmaSem sig := 121
abbrev cc14_sem1_0 : DmaSem sig := 122
abbrev cc14_sem2_0 : DmaSem sig := 123
abbrev cc15_sem0_0 : DmaSem sig := 124
abbrev cc15_sem0_1 : DmaSem sig := 125
abbrev cc15_sem1_0 : DmaSem sig := 126
abbrev cc15_sem2_0 : DmaSem sig := 127
abbrev cc15_sem3_0 : DmaSem sig := 128
abbrev cc15_sem4_0 : DmaSem sig := 129
abbrev cc15_sem5_0 : DmaSem sig := 130
abbrev cc15_sem5_1 : DmaSem sig := 131

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![25], ![false]⟩

def k9_cond2 (i : grid9.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x256 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S256x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S256x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x256 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S2000x256 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S256x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S256x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S2000x256 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S256x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S256x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x256 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S2000x256 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![25], ![false]⟩

def k14_cond2 (i : grid14.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S2000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x256 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x256 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x256 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S2000x256 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  slices_S3x3x256x256_S1x1x256x256_0_0_0_0 : S3x3x256x256.Slices ![0, 0, 0, 0] S1x1x256x256
  shapeCasts_S1x1x256x256_S256x256 : S1x1x256x256.ShapeCasts S256x256
  slices_S3x3x256_S1x1x256_0_0_0 : S3x3x256.Slices ![0, 0, 0] S1x1x256
  shapeCasts_S1x1x256_S256 : S1x1x256.ShapeCasts S256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x3x256x256_S1x1x256x256_0_1_0_0 : S3x3x256x256.Slices ![0, 1, 0, 0] S1x1x256x256
  slices_S3x3x256_S1x1x256_0_1_0 : S3x3x256.Slices ![0, 1, 0] S1x1x256
  slices_S3x3x256x256_S1x1x256x256_0_2_0_0 : S3x3x256x256.Slices ![0, 2, 0, 0] S1x1x256x256
  slices_S3x3x256_S1x1x256_0_2_0 : S3x3x256.Slices ![0, 2, 0] S1x1x256
  reduces_S2000x256_S256 : S2000x256.Reduces [0] S256
  bcast_S_S1x256 : S_.BroadcastsInDim S1x256 (![] : Fin 0 → Fin S1x256.rank)
  slices_S3x256_S1x256_0_0 : S3x256.Slices ![0, 0] S1x256
  shapeCasts_S1x256_S256 : S1x256.ShapeCasts S256
  slices_S3x3x256x256_S1x1x256x256_1_0_0_0 : S3x3x256x256.Slices ![1, 0, 0, 0] S1x1x256x256
  slices_S3x3x256_S1x1x256_1_0_0 : S3x3x256.Slices ![1, 0, 0] S1x1x256
  slices_S3x3x256x256_S1x1x256x256_1_1_0_0 : S3x3x256x256.Slices ![1, 1, 0, 0] S1x1x256x256
  slices_S3x3x256_S1x1x256_1_1_0 : S3x3x256.Slices ![1, 1, 0] S1x1x256
  slices_S3x3x256x256_S1x1x256x256_1_2_0_0 : S3x3x256x256.Slices ![1, 2, 0, 0] S1x1x256x256
  slices_S3x3x256_S1x1x256_1_2_0 : S3x3x256.Slices ![1, 2, 0] S1x1x256
  slices_S3x256_S1x256_1_0 : S3x256.Slices ![1, 0] S1x256
  slices_S3x3x256x256_S1x1x256x256_2_0_0_0 : S3x3x256x256.Slices ![2, 0, 0, 0] S1x1x256x256
  slices_S3x3x256_S1x1x256_2_0_0 : S3x3x256.Slices ![2, 0, 0] S1x1x256
  slices_S3x3x256x256_S1x1x256x256_2_1_0_0 : S3x3x256x256.Slices ![2, 1, 0, 0] S1x1x256x256
  slices_S3x3x256_S1x1x256_2_1_0 : S3x3x256.Slices ![2, 1, 0] S1x1x256
  slices_S3x3x256x256_S1x1x256x256_2_2_0_0 : S3x3x256x256.Slices ![2, 2, 0, 0] S1x1x256x256
  slices_S3x3x256_S1x1x256_2_2_0 : S3x3x256.Slices ![2, 2, 0] S1x1x256
  slices_S3x256_S1x256_2_0 : S3x256.Slices ![2, 0] S1x256
  dot_S2000x64_S64x256_S2000x256_1_0_0_1_n_n_wf : DotDims.WF S2000x64 S64x256 S2000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S50000x256.size a
  hwx6_6 : ∀ i : grid6.Coords, EltTy.bits .f32 = 32 ∨ (Rect.block (s := S50000x256) S2000x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x256.size a ≤ S256x256.size a
  hwx7_4 : ∀ i : grid7.Coords, EltTy.bits .f32 = 32 ∨ (Rect.block (s := S256x256) S256x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x256.size a ≤ S50000x256.size a
  hwx7_6 : ∀ i : grid7.Coords, EltTy.bits .f32 = 32 ∨ (Rect.block (s := S50000x256) S2000x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x256.size a ≤ S50000x256.size a
  hwx8_1 : ∀ i : grid8.Coords, EltTy.bits .f32 = 32 ∨ (Rect.block (s := S50000x256) S2000x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S256x256.size a
  hwx8_2 : ∀ i : grid8.Coords, EltTy.bits .f32 = 32 ∨ (Rect.block (s := S256x256) S256x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256x256.size a ≤ S256x256.size a
  hwx8_4 : ∀ i : grid8.Coords, EltTy.bits .f32 = 32 ∨ (Rect.block (s := S256x256) S256x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x256.size a ≤ S50000x256.size a
  hwx8_6 : ∀ i : grid8.Coords, EltTy.bits .f32 = 32 ∨ (Rect.block (s := S50000x256) S2000x256.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S50000x256.size a
  hwx9_0 : ∀ i : grid9.Coords, EltTy.bits .f32 = 32 ∨ (Rect.block (s := S50000x256) S2000x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x256.size a ≤ S1x256.size a
  hwx9_1 : ∀ i : grid9.Coords, EltTy.bits .f32 = 32 ∨ (Rect.block (s := S1x256) S1x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x256.size a ≤ S50000x256.size a
  hwx10_5 : ∀ i : grid10.Coords, EltTy.bits .f32 = 32 ∨ (Rect.block (s := S50000x256) S2000x256.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S50000x256.size a
  hwx11_0 : ∀ i : grid11.Coords, EltTy.bits .f32 = 32 ∨ (Rect.block (s := S50000x256) S2000x256.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x256.size a ≤ S50000x256.size a
  hwx11_1 : ∀ i : grid11.Coords, EltTy.bits .f32 = 32 ∨ (Rect.block (s := S50000x256) S2000x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x256.size a ≤ S256x256.size a
  hwx11_2 : ∀ i : grid11.Coords, EltTy.bits .f32 = 32 ∨ (Rect.block (s := S256x256) S256x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S256x256.size a ≤ S256x256.size a
  hwx11_4 : ∀ i : grid11.Coords, EltTy.bits .f32 = 32 ∨ (Rect.block (s := S256x256) S256x256.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x256.size a ≤ S1x256.size a
  hwx11_5 : ∀ i : grid11.Coords, EltTy.bits .f32 = 32 ∨ (Rect.block (s := S1x256) S1x256.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S2000x256.size a ≤ S50000x256.size a
  hwx11_6 : ∀ i : grid11.Coords, EltTy.bits .f32 = 32 ∨ (Rect.block (s := S50000x256) S2000x256.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x256.size a ≤ S50000x256.size a
  hwx12_0 : ∀ i : grid12.Coords, EltTy.bits .f32 = 32 ∨ (Rect.block (s := S50000x256) S2000x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x256.size a ≤ S50000x256.size a
  hwx12_1 : ∀ i : grid12.Coords, EltTy.bits .f32 = 32 ∨ (Rect.block (s := S50000x256) S2000x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x256.size a ≤ S256x256.size a
  hwx12_2 : ∀ i : grid12.Coords, EltTy.bits .f32 = 32 ∨ (Rect.block (s := S256x256) S256x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S256x256.size a ≤ S256x256.size a
  hwx12_4 : ∀ i : grid12.Coords, EltTy.bits .f32 = 32 ∨ (Rect.block (s := S256x256) S256x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x256.size a ≤ S1x256.size a
  hwx12_5 : ∀ i : grid12.Coords, EltTy.bits .f32 = 32 ∨ (Rect.block (s := S1x256) S1x256.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S2000x256.size a ≤ S50000x256.size a
  hwx12_6 : ∀ i : grid12.Coords, EltTy.bits .f32 = 32 ∨ (Rect.block (s := S50000x256) S2000x256.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x256.size a ≤ S50000x256.size a
  hwx13_0 : ∀ i : grid13.Coords, EltTy.bits .f32 = 32 ∨ (Rect.block (s := S50000x256) S2000x256.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x256.size a ≤ S50000x256.size a
  hwx13_1 : ∀ i : grid13.Coords, EltTy.bits .f32 = 32 ∨ (Rect.block (s := S50000x256) S2000x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S256x256.size a ≤ S256x256.size a
  hwx13_2 : ∀ i : grid13.Coords, EltTy.bits .f32 = 32 ∨ (Rect.block (s := S256x256) S256x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S256x256.size a ≤ S256x256.size a
  hwx13_4 : ∀ i : grid13.Coords, EltTy.bits .f32 = 32 ∨ (Rect.block (s := S256x256) S256x256.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x256.size a ≤ S1x256.size a
  hwx13_5 : ∀ i : grid13.Coords, EltTy.bits .f32 = 32 ∨ (Rect.block (s := S1x256) S1x256.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S2000x256.size a ≤ S50000x256.size a
  hwx13_6 : ∀ i : grid13.Coords, EltTy.bits .f32 = 32 ∨ (Rect.block (s := S50000x256) S2000x256.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x256.size a ≤ S50000x256.size a
  hwx14_0 : ∀ i : grid14.Coords, EltTy.bits .f32 = 32 ∨ (Rect.block (s := S50000x256) S2000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x256.size a ≤ S50000x256.size a
  hwx15_0 : ∀ i : grid15.Coords, EltTy.bits .f32 = 32 ∨ (Rect.block (s := S50000x256) S2000x256.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x256.size a ≤ S1x256.size a
  hwx15_1 : ∀ i : grid15.Coords, EltTy.bits .f32 = 32 ∨ (Rect.block (s := S1x256) S1x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x256.size a ≤ S1x256.size a
  hwx15_2 : ∀ i : grid15.Coords, EltTy.bits .f32 = 32 ∨ (Rect.block (s := S1x256) S1x256.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x256.size a ≤ S1x256.size a
  hwx15_3 : ∀ i : grid15.Coords, EltTy.bits .f32 = 32 ∨ (Rect.block (s := S1x256) S1x256.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x256.size a ≤ S1x256.size a
  hwx15_4 : ∀ i : grid15.Coords, EltTy.bits .f32 = 32 ∨ (Rect.block (s := S1x256) S1x256.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S2000x256.size a ≤ S50000x256.size a
  hwx15_5 : ∀ i : grid15.Coords, EltTy.bits .f32 = 32 ∨ (Rect.block (s := S50000x256) S2000x256.size (cc15_transform_5 i) (hinb15_5 i)).WholeWords (EltTy.packing .f32)

variable [Facts₀]

def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69_0) S1x256.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69_1) S1x256.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v68) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v97) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v102) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v105) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v106) S2000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v106) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v116) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v118) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v123) S256x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v126) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v127) S2000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v127) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v137) S2000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v139) S256x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v142) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v144) S256x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v147) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v148) S2000x256.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v148) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v149_0) S1x256.size cc9_transform_1 reads9_1 true true 1 stage9_1 sem9_1
    hrank9 hreads9_1 hinb9_1 nbuf9_1 (Memref.isWhole_whole _) hwx9_1 hstage9_1

abbrev win9_2 : Pipeline.Window sig grid9 :=
  Pipeline.Window.ofSpec (Memref.whole main_v149_1) S1x256.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun i => !(k9_cond2 i == 1#1) | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v148) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v151) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v158) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v161) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v164) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v165) S2000x256.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v165) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v175) S2000x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v177) S256x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v180) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v182) S256x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v185) S1x256.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v186) S2000x256.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v186) S2000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v196) S2000x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v198) S256x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v201) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v203) S256x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v206) S1x256.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v207) S2000x256.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v207) S2000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v217) S2000x256.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v219) S256x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v222) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v224) S256x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v227) S1x256.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v228) S2000x256.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v228) S2000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v229_0) S1x256.size cc14_transform_1 reads14_1 true true 1 stage14_1 sem14_1
    hrank14 hreads14_1 hinb14_1 nbuf14_1 (Memref.isWhole_whole _) hwx14_1 hstage14_1

abbrev win14_2 : Pipeline.Window sig grid14 :=
  Pipeline.Window.ofSpec (Memref.whole main_v229_1) S1x256.size cc14_transform_2 reads14_2 true true 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun i => !(k14_cond2 i == 1#1) | 2 => fun i => !(k14_cond2 i == 1#1) | ⟨_ + 3, h⟩ => absurd h (Nat.not_lt.2 (Nat.le_add_left _ _))

abbrev win15_0 : Pipeline.Window sig grid15 :=
  Pipeline.Window.ofSpec (Memref.whole main_v228) S2000x256.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v231) S1x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v238) S1x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v241) S1x256.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v244) S1x256.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v245) S2000x256.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

class Facts : Prop extends Facts₀ where

variable [Facts]
-- ==== ReferenceIdeal.lean ====
abbrev S50000x64 : Shape := ⟨2, ![50000, 64]⟩
abbrev S2x300000 : Shape := ⟨2, ![2, 300000]⟩
abbrev S64x256 : Shape := ⟨2, ![64, 256]⟩
abbrev S256 : Shape := ⟨1, ![256]⟩
abbrev S3x3x256x256 : Shape := ⟨4, ![3, 3, 256, 256]⟩
abbrev S3x3x256 : Shape := ⟨3, ![3, 3, 256]⟩
abbrev S3x256 : Shape := ⟨2, ![3, 256]⟩
abbrev S1x300000 : Shape := ⟨2, ![1, 300000]⟩
abbrev S300000 : Shape := ⟨1, ![300000]⟩
abbrev S50000x256 : Shape := ⟨2, ![50000, 256]⟩
abbrev S1x256 : Shape := ⟨2, ![1, 256]⟩
abbrev S_ : Shape := ⟨0, ![]⟩
abbrev S300000x1 : Shape := ⟨2, ![300000, 1]⟩
abbrev S300000x256 : Shape := ⟨2, ![300000, 256]⟩
abbrev S1x1x256x256 : Shape := ⟨4, ![1, 1, 256, 256]⟩
abbrev S256x256 : Shape := ⟨2, ![256, 256]⟩
abbrev S1x1x256 : Shape := ⟨3, ![1, 1, 256]⟩

abbrev nBuf : Space → Nat
  | .hbm => 483
  | .vmem => 0
  | .smem => 0
  | _ => 0

abbrev hbmTy0_0 (i : Nat) : BufTy := match i % 128 with
  | 0 => ⟨S50000x64, .f32⟩
  | 1 => ⟨S2x300000, .i32⟩
  | 2 => ⟨S64x256, .f32⟩
  | 3 => ⟨S256, .f32⟩
  | 4 => ⟨S3x3x256x256, .f32⟩
  | 5 => ⟨S3x3x256, .f32⟩
  | 6 => ⟨S3x3x256x256, .f32⟩
  | 7 => ⟨S3x3x256, .f32⟩
  | 8 => ⟨S3x256, .f32⟩
  | 9 => ⟨S3x256, .f32⟩
  | 10 => ⟨S1x300000, .i32⟩
  | 11 => ⟨S300000, .i32⟩
  | 12 => ⟨S1x300000, .i32⟩
  | 13 => ⟨S300000, .i32⟩
  | 14 => ⟨S50000x256, .f32⟩
  | 15 => ⟨S1x256, .f32⟩
  | 16 => ⟨S50000x256, .f32⟩
  | 17 => ⟨S50000x256, .f32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S300000x256, .f32⟩
  | 27 => ⟨S_, .f32⟩
  | 28 => ⟨S50000x256, .f32⟩
  | 29 => ⟨S300000x1, .i32⟩
  | 30 => ⟨S50000x256, .f32⟩
  | 31 => ⟨S50000x256, .f32⟩
  | 32 => ⟨S1x1x256x256, .f32⟩
  | 33 => ⟨S256x256, .f32⟩
  | 34 => ⟨S50000x256, .f32⟩
  | 35 => ⟨S1x1x256, .f32⟩
  | 36 => ⟨S256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S1x1x256x256, .f32⟩
  | 44 => ⟨S256x256, .f32⟩
  | 45 => ⟨S50000x256, .f32⟩
  | 46 => ⟨S1x1x256, .f32⟩
  | 47 => ⟨S256, .f32⟩
  | 48 => ⟨S1x256, .f32⟩
  | 49 => ⟨S50000x256, .f32⟩
  | 50 => ⟨S50000x256, .f32⟩
  | 51 => ⟨S_, .f32⟩
  | 52 => ⟨S50000x256, .f32⟩
  | 53 => ⟨S50000x256, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x256, .f32⟩
  | 63 => ⟨S_, .f32⟩
  | 64 => ⟨S50000x256, .f32⟩
  | 65 => ⟨S300000x1, .i32⟩
  | 66 => ⟨S50000x256, .f32⟩
  | 67 => ⟨S50000x256, .f32⟩
  | 68 => ⟨S1x1x256x256, .f32⟩
  | 69 => ⟨S256x256, .f32⟩
  | 70 => ⟨S50000x256, .f32⟩
  | 71 => ⟨S1x1x256, .f32⟩
  | 72 => ⟨S256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S1x1x256x256, .f32⟩
  | 80 => ⟨S256x256, .f32⟩
  | 81 => ⟨S50000x256, .f32⟩
  | 82 => ⟨S1x1x256, .f32⟩
  | 83 => ⟨S256, .f32⟩
  | 84 => ⟨S1x256, .f32⟩
  | 85 => ⟨S50000x256, .f32⟩
  | 86 => ⟨S50000x256, .f32⟩
  | 87 => ⟨S_, .f32⟩
  | 88 => ⟨S50000x256, .f32⟩
  | 89 => ⟨S50000x256, .f32⟩
  | 90 => ⟨S_, .i32⟩
  | 91 => ⟨S300000, .i32⟩
  | 92 => ⟨S300000, .i1⟩
  | 93 => ⟨S_, .i32⟩
  | 94 => ⟨S300000, .i32⟩
  | 95 => ⟨S300000, .i32⟩
  | 96 => ⟨S300000, .i32⟩
  | 97 => ⟨S300000x1, .i32⟩
  | 98 => ⟨S300000x256, .f32⟩
  | 99 => ⟨S_, .f32⟩
  | 100 => ⟨S50000x256, .f32⟩
  | 101 => ⟨S300000x1, .i32⟩
  | 102 => ⟨S50000x256, .f32⟩
  | 103 => ⟨S50000x256, .f32⟩
  | 104 => ⟨S1x1x256x256, .f32⟩
  | 105 => ⟨S256x256, .f32⟩
  | 106 => ⟨S50000x256, .f32⟩
  | 107 => ⟨S1x1x256, .f32⟩
  | 108 => ⟨S256, .f32⟩
  | 109 => ⟨S1x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S1x1x256x256, .f32⟩
  | 116 => ⟨S256x256, .f32⟩
  | 117 => ⟨S50000x256, .f32⟩
  | 118 => ⟨S1x1x256, .f32⟩
  | 119 => ⟨S256, .f32⟩
  | 120 => ⟨S1x256, .f32⟩
  | 121 => ⟨S50000x256, .f32⟩
  | 122 => ⟨S50000x256, .f32⟩
  | 123 => ⟨S_, .f32⟩
  | 124 => ⟨S256, .f32⟩
  | 125 => ⟨S_, .f32⟩
  | 126 => ⟨S256, .f32⟩
  | 127 => ⟨S256, .f32⟩
  | _ => ⟨S50000x64, .f32⟩

abbrev hbmTy0_1 (i : Nat) : BufTy := match i % 128 with
  | 0 => ⟨S_, .i32⟩
  | 1 => ⟨S_, .f32⟩
  | 2 => ⟨S256, .f32⟩
  | 3 => ⟨S1x256, .f32⟩
  | 4 => ⟨S_, .f32⟩
  | 5 => ⟨S1x256, .f32⟩
  | 6 => ⟨S1x256, .f32⟩
  | 7 => ⟨S50000x256, .f32⟩
  | 8 => ⟨S50000x256, .f32⟩
  | 9 => ⟨S50000x256, .f32⟩
  | 10 => ⟨S_, .f32⟩
  | 11 => ⟨S_, .f32⟩
  | 12 => ⟨S_, .f32⟩
  | 13 => ⟨S_, .f32⟩
  | 14 => ⟨S256, .f32⟩
  | 15 => ⟨S256, .f32⟩
  | 16 => ⟨S256, .f32⟩
  | 17 => ⟨S_, .f32⟩
  | 18 => ⟨S_, .i1⟩
  | 19 => ⟨S_, .f32⟩
  | 20 => ⟨S_, .f32⟩
  | 21 => ⟨S256, .f32⟩
  | 22 => ⟨S256, .f32⟩
  | 23 => ⟨S1x256, .f32⟩
  | 24 => ⟨S50000x256, .f32⟩
  | 25 => ⟨S50000x256, .f32⟩
  | 26 => ⟨S_, .f32⟩
  | 27 => ⟨S256, .f32⟩
  | 28 => ⟨S256, .f32⟩
  | 29 => ⟨S256, .f32⟩
  | 30 => ⟨S1x256, .f32⟩
  | 31 => ⟨S50000x256, .f32⟩
  | 32 => ⟨S50000x256, .f32⟩
  | 33 => ⟨S1x256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S256, .f32⟩
  | 40 => ⟨S1x256, .f32⟩
  | 41 => ⟨S50000x256, .f32⟩
  | 42 => ⟨S50000x256, .f32⟩
  | 43 => ⟨S_, .f32⟩
  | 44 => ⟨S50000x256, .f32⟩
  | 45 => ⟨S50000x256, .f32⟩
  | 46 => ⟨S_, .i32⟩
  | 47 => ⟨S300000, .i32⟩
  | 48 => ⟨S300000, .i1⟩
  | 49 => ⟨S_, .i32⟩
  | 50 => ⟨S300000, .i32⟩
  | 51 => ⟨S300000, .i32⟩
  | 52 => ⟨S300000, .i32⟩
  | 53 => ⟨S300000x1, .i32⟩
  | 54 => ⟨S300000x256, .f32⟩
  | 55 => ⟨S_, .f32⟩
  | 56 => ⟨S50000x256, .f32⟩
  | 57 => ⟨S300000x1, .i32⟩
  | 58 => ⟨S50000x256, .f32⟩
  | 59 => ⟨S50000x256, .f32⟩
  | 60 => ⟨S1x1x256x256, .f32⟩
  | 61 => ⟨S256x256, .f32⟩
  | 62 => ⟨S50000x256, .f32⟩
  | 63 => ⟨S1x1x256, .f32⟩
  | 64 => ⟨S256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S1x1x256x256, .f32⟩
  | 72 => ⟨S256x256, .f32⟩
  | 73 => ⟨S50000x256, .f32⟩
  | 74 => ⟨S1x1x256, .f32⟩
  | 75 => ⟨S256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x256, .f32⟩
  | 91 => ⟨S_, .f32⟩
  | 92 => ⟨S50000x256, .f32⟩
  | 93 => ⟨S300000x1, .i32⟩
  | 94 => ⟨S50000x256, .f32⟩
  | 95 => ⟨S50000x256, .f32⟩
  | 96 => ⟨S1x1x256x256, .f32⟩
  | 97 => ⟨S256x256, .f32⟩
  | 98 => ⟨S50000x256, .f32⟩
  | 99 => ⟨S1x1x256, .f32⟩
  | 100 => ⟨S256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S1x1x256x256, .f32⟩
  | 108 => ⟨S256x256, .f32⟩
  | 109 => ⟨S50000x256, .f32⟩
  | 110 => ⟨S1x1x256, .f32⟩
  | 111 => ⟨S256, .f32⟩
  | 112 => ⟨S1x256, .f32⟩
  | 113 => ⟨S50000x256, .f32⟩
  | 114 => ⟨S50000x256, .f32⟩
  | 115 => ⟨S_, .f32⟩
  | 116 => ⟨S50000x256, .f32⟩
  | 117 => ⟨S50000x256, .f32⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000x256, .f32⟩
  | 127 => ⟨S_, .f32⟩
  | _ => ⟨S50000x64, .f32⟩

abbrev hbmTy0_2 (i : Nat) : BufTy := match i % 128 with
  | 0 => ⟨S50000x256, .f32⟩
  | 1 => ⟨S300000x1, .i32⟩
  | 2 => ⟨S50000x256, .f32⟩
  | 3 => ⟨S50000x256, .f32⟩
  | 4 => ⟨S1x1x256x256, .f32⟩
  | 5 => ⟨S256x256, .f32⟩
  | 6 => ⟨S50000x256, .f32⟩
  | 7 => ⟨S1x1x256, .f32⟩
  | 8 => ⟨S256, .f32⟩
  | 9 => ⟨S1x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S1x1x256x256, .f32⟩
  | 16 => ⟨S256x256, .f32⟩
  | 17 => ⟨S50000x256, .f32⟩
  | 18 => ⟨S1x1x256, .f32⟩
  | 19 => ⟨S256, .f32⟩
  | 20 => ⟨S1x256, .f32⟩
  | 21 => ⟨S50000x256, .f32⟩
  | 22 => ⟨S50000x256, .f32⟩
  | 23 => ⟨S_, .f32⟩
  | 24 => ⟨S256, .f32⟩
  | 25 => ⟨S_, .f32⟩
  | 26 => ⟨S256, .f32⟩
  | 27 => ⟨S256, .f32⟩
  | 28 => ⟨S_, .i32⟩
  | 29 => ⟨S_, .f32⟩
  | 30 => ⟨S256, .f32⟩
  | 31 => ⟨S1x256, .f32⟩
  | 32 => ⟨S_, .f32⟩
  | 33 => ⟨S1x256, .f32⟩
  | 34 => ⟨S1x256, .f32⟩
  | 35 => ⟨S50000x256, .f32⟩
  | 36 => ⟨S50000x256, .f32⟩
  | 37 => ⟨S50000x256, .f32⟩
  | 38 => ⟨S_, .f32⟩
  | 39 => ⟨S_, .f32⟩
  | 40 => ⟨S_, .f32⟩
  | 41 => ⟨S_, .f32⟩
  | 42 => ⟨S256, .f32⟩
  | 43 => ⟨S256, .f32⟩
  | 44 => ⟨S256, .f32⟩
  | 45 => ⟨S_, .f32⟩
  | 46 => ⟨S_, .i1⟩
  | 47 => ⟨S_, .f32⟩
  | 48 => ⟨S_, .f32⟩
  | 49 => ⟨S256, .f32⟩
  | 50 => ⟨S256, .f32⟩
  | 51 => ⟨S1x256, .f32⟩
  | 52 => ⟨S50000x256, .f32⟩
  | 53 => ⟨S50000x256, .f32⟩
  | 54 => ⟨S_, .f32⟩
  | 55 => ⟨S256, .f32⟩
  | 56 => ⟨S256, .f32⟩
  | 57 => ⟨S256, .f32⟩
  | 58 => ⟨S1x256, .f32⟩
  | 59 => ⟨S50000x256, .f32⟩
  | 60 => ⟨S50000x256, .f32⟩
  | 61 => ⟨S1x256, .f32⟩
  | 62 => ⟨S256, .f32⟩
  | 63 => ⟨S1x256, .f32⟩
  | 64 => ⟨S50000x256, .f32⟩
  | 65 => ⟨S50000x256, .f32⟩
  | 66 => ⟨S1x256, .f32⟩
  | 67 => ⟨S256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x256, .f32⟩
  | 83 => ⟨S_, .f32⟩
  | 84 => ⟨S50000x256, .f32⟩
  | 85 => ⟨S300000x1, .i32⟩
  | 86 => ⟨S50000x256, .f32⟩
  | 87 => ⟨S50000x256, .f32⟩
  | 88 => ⟨S1x1x256x256, .f32⟩
  | 89 => ⟨S256x256, .f32⟩
  | 90 => ⟨S50000x256, .f32⟩
  | 91 => ⟨S1x1x256, .f32⟩
  | 92 => ⟨S256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | 99 => ⟨S1x1x256x256, .f32⟩
  | 100 => ⟨S256x256, .f32⟩
  | 101 => ⟨S50000x256, .f32⟩
  | 102 => ⟨S1x1x256, .f32⟩
  | 103 => ⟨S256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S_, .i32⟩
  | 111 => ⟨S300000, .i32⟩
  | 112 => ⟨S300000, .i1⟩
  | 113 => ⟨S_, .i32⟩
  | 114 => ⟨S300000, .i32⟩
  | 115 => ⟨S300000, .i32⟩
  | 116 => ⟨S300000, .i32⟩
  | 117 => ⟨S300000x1, .i32⟩
  | 118 => ⟨S300000x256, .f32⟩
  | 119 => ⟨S_, .f32⟩
  | 120 => ⟨S50000x256, .f32⟩
  | 121 => ⟨S300000x1, .i32⟩
  | 122 => ⟨S50000x256, .f32⟩
  | 123 => ⟨S50000x256, .f32⟩
  | 124 => ⟨S1x1x256x256, .f32⟩
  | 125 => ⟨S256x256, .f32⟩
  | 126 => ⟨S50000x256, .f32⟩
  | 127 => ⟨S1x1x256, .f32⟩
  | _ => ⟨S50000x64, .f32⟩

abbrev hbmTy0_3 (i : Nat) : BufTy := match i % 128 with
  | 0 => ⟨S256, .f32⟩
  | 1 => ⟨S1x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S1x1x256x256, .f32⟩
  | 8 => ⟨S256x256, .f32⟩
  | 9 => ⟨S50000x256, .f32⟩
  | 10 => ⟨S1x1x256, .f32⟩
  | 11 => ⟨S256, .f32⟩
  | 12 => ⟨S1x256, .f32⟩
  | 13 => ⟨S50000x256, .f32⟩
  | 14 => ⟨S50000x256, .f32⟩
  | 15 => ⟨S_, .f32⟩
  | 16 => ⟨S50000x256, .f32⟩
  | 17 => ⟨S50000x256, .f32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S300000x256, .f32⟩
  | 27 => ⟨S_, .f32⟩
  | 28 => ⟨S50000x256, .f32⟩
  | 29 => ⟨S300000x1, .i32⟩
  | 30 => ⟨S50000x256, .f32⟩
  | 31 => ⟨S50000x256, .f32⟩
  | 32 => ⟨S1x1x256x256, .f32⟩
  | 33 => ⟨S256x256, .f32⟩
  | 34 => ⟨S50000x256, .f32⟩
  | 35 => ⟨S1x1x256, .f32⟩
  | 36 => ⟨S256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S1x1x256x256, .f32⟩
  | 44 => ⟨S256x256, .f32⟩
  | 45 => ⟨S50000x256, .f32⟩
  | 46 => ⟨S1x1x256, .f32⟩
  | 47 => ⟨S256, .f32⟩
  | 48 => ⟨S1x256, .f32⟩
  | 49 => ⟨S50000x256, .f32⟩
  | 50 => ⟨S50000x256, .f32⟩
  | 51 => ⟨S_, .f32⟩
  | 52 => ⟨S256, .f32⟩
  | 53 => ⟨S_, .f32⟩
  | 54 => ⟨S256, .f32⟩
  | 55 => ⟨S256, .f32⟩
  | 56 => ⟨S_, .i32⟩
  | 57 => ⟨S_, .f32⟩
  | 58 => ⟨S256, .f32⟩
  | 59 => ⟨S1x256, .f32⟩
  | 60 => ⟨S_, .f32⟩
  | 61 => ⟨S1x256, .f32⟩
  | 62 => ⟨S1x256, .f32⟩
  | 63 => ⟨S50000x256, .f32⟩
  | 64 => ⟨S50000x256, .f32⟩
  | 65 => ⟨S50000x256, .f32⟩
  | 66 => ⟨S_, .f32⟩
  | 67 => ⟨S_, .f32⟩
  | 68 => ⟨S_, .f32⟩
  | 69 => ⟨S_, .f32⟩
  | 70 => ⟨S256, .f32⟩
  | 71 => ⟨S256, .f32⟩
  | 72 => ⟨S256, .f32⟩
  | 73 => ⟨S_, .f32⟩
  | 74 => ⟨S_, .i1⟩
  | 75 => ⟨S_, .f32⟩
  | 76 => ⟨S_, .f32⟩
  | 77 => ⟨S256, .f32⟩
  | 78 => ⟨S256, .f32⟩
  | 79 => ⟨S1x256, .f32⟩
  | 80 => ⟨S50000x256, .f32⟩
  | 81 => ⟨S50000x256, .f32⟩
  | 82 => ⟨S_, .f32⟩
  | 83 => ⟨S256, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S1x256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S256, .f32⟩
  | 96 => ⟨S1x256, .f32⟩
  | 97 => ⟨S50000x256, .f32⟩
  | 98 => ⟨S50000x256, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_c_3 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_c_8 : Ref sig .tc := ⟨.hbm, 90, rfl⟩
abbrev main_v70 : Ref sig .tc := ⟨.hbm, 91, rfl⟩
abbrev main_v71 : Ref sig .tc := ⟨.hbm, 92, rfl⟩
abbrev main_c_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_11 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_12 : Ref sig .tc := ⟨.hbm, 123, rfl⟩
abbrev main_v99 : Ref sig .tc := ⟨.hbm, 124, rfl⟩
abbrev main_cst_13 : Ref sig .tc := ⟨.hbm, 125, rfl⟩
abbrev main_v100 : Ref sig .tc := ⟨.hbm, 126, rfl⟩
abbrev main_v101 : Ref sig .tc := ⟨.hbm, 127, rfl⟩
abbrev main_c_14 : Ref sig .tc := ⟨.hbm, 128, rfl⟩
abbrev main_call0_cst : Ref sig .tc := ⟨.hbm, 129, rfl⟩
abbrev main_call0_v0 : Ref sig .tc := ⟨.hbm, 130, rfl⟩
abbrev main_call0_v1 : Ref sig .tc := ⟨.hbm, 131, rfl⟩
abbrev main_call0_cst_0 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_call0_v5 : Ref sig .tc := ⟨.hbm, 136, rfl⟩
abbrev main_call0_v6 : Ref sig .tc := ⟨.hbm, 137, rfl⟩
abbrev main_call0_v7 : Ref sig .tc := ⟨.hbm, 138, rfl⟩
abbrev main_call0_cst_1 : Ref sig .tc := ⟨.hbm, 139, rfl⟩
abbrev main_call0_v8 : Ref sig .tc := ⟨.hbm, 140, rfl⟩
abbrev main_call0_cst_2 : Ref sig .tc := ⟨.hbm, 141, rfl⟩
abbrev main_call0_v9 : Ref sig .tc := ⟨.hbm, 142, rfl⟩
abbrev main_call0_v10 : Ref sig .tc := ⟨.hbm, 143, rfl⟩
abbrev main_call0_v11 : Ref sig .tc := ⟨.hbm, 144, rfl⟩
abbrev main_call0_cst_3 : Ref sig .tc := ⟨.hbm, 145, rfl⟩
abbrev main_call0_v12 : Ref sig .tc := ⟨.hbm, 146, rfl⟩
abbrev main_call0_cst_4 : Ref sig .tc := ⟨.hbm, 147, rfl⟩
abbrev main_call0_call0_v0 : Ref sig .tc := ⟨.hbm, 148, rfl⟩
abbrev main_call0_call0_v1 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_15 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_16 : Ref sig .tc := ⟨.hbm, 171, rfl⟩
abbrev main_v122 : Ref sig .tc := ⟨.hbm, 172, rfl⟩
abbrev main_v123 : Ref sig .tc := ⟨.hbm, 173, rfl⟩
abbrev main_c_17 : Ref sig .tc := ⟨.hbm, 174, rfl⟩
abbrev main_v124 : Ref sig .tc := ⟨.hbm, 175, rfl⟩
abbrev main_v125 : Ref sig .tc := ⟨.hbm, 176, rfl⟩
abbrev main_c_18 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_19 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_20 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_21 : Ref sig .tc := ⟨.hbm, 207, rfl⟩
abbrev main_v153 : Ref sig .tc := ⟨.hbm, 208, rfl⟩
abbrev main_v154 : Ref sig .tc := ⟨.hbm, 209, rfl⟩
abbrev main_c_22 : Ref sig .tc := ⟨.hbm, 210, rfl⟩
abbrev main_v155 : Ref sig .tc := ⟨.hbm, 211, rfl⟩
abbrev main_v156 : Ref sig .tc := ⟨.hbm, 212, rfl⟩
abbrev main_c_23 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_24 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_cst_25 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_26 : Ref sig .tc := ⟨.hbm, 243, rfl⟩
abbrev main_v184 : Ref sig .tc := ⟨.hbm, 244, rfl⟩
abbrev main_v185 : Ref sig .tc := ⟨.hbm, 245, rfl⟩
abbrev main_c_27 : Ref sig .tc := ⟨.hbm, 246, rfl⟩
abbrev main_v186 : Ref sig .tc := ⟨.hbm, 247, rfl⟩
abbrev main_v187 : Ref sig .tc := ⟨.hbm, 248, rfl⟩
abbrev main_c_28 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_cst_29 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_cst_30 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_31 : Ref sig .tc := ⟨.hbm, 279, rfl⟩
abbrev main_v215 : Ref sig .tc := ⟨.hbm, 280, rfl⟩
abbrev main_cst_32 : Ref sig .tc := ⟨.hbm, 281, rfl⟩
abbrev main_v216 : Ref sig .tc := ⟨.hbm, 282, rfl⟩
abbrev main_v217 : Ref sig .tc := ⟨.hbm, 283, rfl⟩
abbrev main_c_33 : Ref sig .tc := ⟨.hbm, 284, rfl⟩
abbrev main_call1_cst : Ref sig .tc := ⟨.hbm, 285, rfl⟩
abbrev main_call1_v0 : Ref sig .tc := ⟨.hbm, 286, rfl⟩
abbrev main_call1_v1 : Ref sig .tc := ⟨.hbm, 287, rfl⟩
abbrev main_call1_cst_0 : Ref sig .tc := ⟨.hbm, 288, rfl⟩
abbrev main_call1_v2 : Ref sig .tc := ⟨.hbm, 289, rfl⟩
abbrev main_call1_v3 : Ref sig .tc := ⟨.hbm, 290, rfl⟩
abbrev main_call1_v4 : Ref sig .tc := ⟨.hbm, 291, rfl⟩
abbrev main_call1_v5 : Ref sig .tc := ⟨.hbm, 292, rfl⟩
abbrev main_call1_v6 : Ref sig .tc := ⟨.hbm, 293, rfl⟩
abbrev main_call1_v7 : Ref sig .tc := ⟨.hbm, 294, rfl⟩
abbrev main_call1_cst_1 : Ref sig .tc := ⟨.hbm, 295, rfl⟩
abbrev main_call1_v8 : Ref sig .tc := ⟨.hbm, 296, rfl⟩
abbrev main_call1_cst_2 : Ref sig .tc := ⟨.hbm, 297, rfl⟩
abbrev main_call1_v9 : Ref sig .tc := ⟨.hbm, 298, rfl⟩
abbrev main_call1_v10 : Ref sig .tc := ⟨.hbm, 299, rfl⟩
abbrev main_call1_v11 : Ref sig .tc := ⟨.hbm, 300, rfl⟩
abbrev main_call1_cst_3 : Ref sig .tc := ⟨.hbm, 301, rfl⟩
abbrev main_call1_v12 : Ref sig .tc := ⟨.hbm, 302, rfl⟩
abbrev main_call1_cst_4 : Ref sig .tc := ⟨.hbm, 303, rfl⟩
abbrev main_call1_call0_v0 : Ref sig .tc := ⟨.hbm, 304, rfl⟩
abbrev main_call1_call0_v1 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_cst_34 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_cst_35 : Ref sig .tc := ⟨.hbm, 327, rfl⟩
abbrev main_v238 : Ref sig .tc := ⟨.hbm, 328, rfl⟩
abbrev main_v239 : Ref sig .tc := ⟨.hbm, 329, rfl⟩
abbrev main_c_36 : Ref sig .tc := ⟨.hbm, 330, rfl⟩
abbrev main_v240 : Ref sig .tc := ⟨.hbm, 331, rfl⟩
abbrev main_v241 : Ref sig .tc := ⟨.hbm, 332, rfl⟩
abbrev main_c_37 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_cst_38 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_cst_39 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_cst_40 : Ref sig .tc := ⟨.hbm, 363, rfl⟩
abbrev main_v269 : Ref sig .tc := ⟨.hbm, 364, rfl⟩
abbrev main_v270 : Ref sig .tc := ⟨.hbm, 365, rfl⟩
abbrev main_c_41 : Ref sig .tc := ⟨.hbm, 366, rfl⟩
abbrev main_v271 : Ref sig .tc := ⟨.hbm, 367, rfl⟩
abbrev main_v272 : Ref sig .tc := ⟨.hbm, 368, rfl⟩
abbrev main_c_42 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_cst_43 : Ref sig .tc := ⟨.hbm, 375, rfl⟩
abbrev main_v278 : Ref sig .tc := ⟨.hbm, 376, rfl⟩
abbrev main_v279 : Ref sig .tc := ⟨.hbm, 377, rfl⟩
abbrev main_v280 : Ref sig .tc := ⟨.hbm, 378, rfl⟩
abbrev main_v281 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_cst_44 : Ref sig .tc := ⟨.hbm, 388, rfl⟩
abbrev main_v290 : Ref sig .tc := ⟨.hbm, 389, rfl⟩
abbrev main_v291 : Ref sig .tc := ⟨.hbm, 390, rfl⟩
abbrev main_v292 : Ref sig .tc := ⟨.hbm, 391, rfl⟩
abbrev main_v293 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_cst_45 : Ref sig .tc := ⟨.hbm, 399, rfl⟩
abbrev main_v300 : Ref sig .tc := ⟨.hbm, 400, rfl⟩
abbrev main_v301 : Ref sig .tc := ⟨.hbm, 401, rfl⟩
abbrev main_c_46 : Ref sig .tc := ⟨.hbm, 402, rfl⟩
abbrev main_v302 : Ref sig .tc := ⟨.hbm, 403, rfl⟩
abbrev main_v303 : Ref sig .tc := ⟨.hbm, 404, rfl⟩
abbrev main_c_47 : Ref sig .tc := ⟨.hbm, 405, rfl⟩
abbrev main_v304 : Ref sig .tc := ⟨.hbm, 406, rfl⟩
abbrev main_v305 : Ref sig .tc := ⟨.hbm, 407, rfl⟩
abbrev main_v306 : Ref sig .tc := ⟨.hbm, 408, rfl⟩
abbrev main_v307 : Ref sig .tc := ⟨.hbm, 409, rfl⟩
abbrev main_v308 : Ref sig .tc := ⟨.hbm, 410, rfl⟩
abbrev main_cst_48 : Ref sig .tc := ⟨.hbm, 411, rfl⟩
abbrev main_v309 : Ref sig .tc := ⟨.hbm, 412, rfl⟩
abbrev main_v310 : Ref sig .tc := ⟨.hbm, 413, rfl⟩
abbrev main_v311 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_v318 : Ref sig .tc := ⟨.hbm, 421, rfl⟩
abbrev main_v319 : Ref sig .tc := ⟨.hbm, 422, rfl⟩
abbrev main_v320 : Ref sig .tc := ⟨.hbm, 423, rfl⟩
abbrev main_cst_49 : Ref sig .tc := ⟨.hbm, 424, rfl⟩
abbrev main_v321 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_v329 : Ref sig .tc := ⟨.hbm, 433, rfl⟩
abbrev main_v330 : Ref sig .tc := ⟨.hbm, 434, rfl⟩
abbrev main_cst_50 : Ref sig .tc := ⟨.hbm, 435, rfl⟩
abbrev main_v331 : Ref sig .tc := ⟨.hbm, 436, rfl⟩
abbrev main_cst_51 : Ref sig .tc := ⟨.hbm, 437, rfl⟩
abbrev main_v332 : Ref sig .tc := ⟨.hbm, 438, rfl⟩
abbrev main_v333 : Ref sig .tc := ⟨.hbm, 439, rfl⟩
abbrev main_c_52 : Ref sig .tc := ⟨.hbm, 440, rfl⟩
abbrev main_call2_cst : Ref sig .tc := ⟨.hbm, 441, rfl⟩
abbrev main_call2_v0 : Ref sig .tc := ⟨.hbm, 442, rfl⟩
abbrev main_call2_v1 : Ref sig .tc := ⟨.hbm, 443, rfl⟩
abbrev main_call2_cst_0 : Ref sig .tc := ⟨.hbm, 444, rfl⟩
abbrev main_call2_v2 : Ref sig .tc := ⟨.hbm, 445, rfl⟩
abbrev main_call2_v3 : Ref sig .tc := ⟨.hbm, 446, rfl⟩
abbrev main_call2_v4 : Ref sig .tc := ⟨.hbm, 447, rfl⟩
abbrev main_call2_v5 : Ref sig .tc := ⟨.hbm, 448, rfl⟩
abbrev main_call2_v6 : Ref sig .tc := ⟨.hbm, 449, rfl⟩
abbrev main_call2_v7 : Ref sig .tc := ⟨.hbm, 450, rfl⟩
abbrev main_call2_cst_1 : Ref sig .tc := ⟨.hbm, 451, rfl⟩
abbrev main_call2_v8 : Ref sig .tc := ⟨.hbm, 452, rfl⟩
abbrev main_call2_cst_2 : Ref sig .tc := ⟨.hbm, 453, rfl⟩
abbrev main_call2_v9 : Ref sig .tc := ⟨.hbm, 454, rfl⟩
abbrev main_call2_v10 : Ref sig .tc := ⟨.hbm, 455, rfl⟩
abbrev main_call2_v11 : Ref sig .tc := ⟨.hbm, 456, rfl⟩
abbrev main_call2_cst_3 : Ref sig .tc := ⟨.hbm, 457, rfl⟩
abbrev main_call2_v12 : Ref sig .tc := ⟨.hbm, 458, rfl⟩
abbrev main_call2_cst_4 : Ref sig .tc := ⟨.hbm, 459, rfl⟩
abbrev main_call2_call0_v0 : Ref sig .tc := ⟨.hbm, 460, rfl⟩
abbrev main_call2_call0_v1 : Ref sig .tc := ⟨.hbm, 461, rfl⟩
abbrev main_v334 : Ref sig .tc := ⟨.hbm, 462, rfl⟩
abbrev main_v335 : Ref sig .tc := ⟨.hbm, 463, rfl⟩
abbrev main_v336 : Ref sig .tc := ⟨.hbm, 464, rfl⟩
abbrev main_v337 : Ref sig .tc := ⟨.hbm, 465, rfl⟩
abbrev main_cst_53 : Ref sig .tc := ⟨.hbm, 466, rfl⟩
abbrev main_v338 : Ref sig .tc := ⟨.hbm, 467, rfl⟩
abbrev main_v339 : Ref sig .tc := ⟨.hbm, 468, rfl⟩
abbrev main_v340 : Ref sig .tc := ⟨.hbm, 469, rfl⟩
abbrev main_v341 : Ref sig .tc := ⟨.hbm, 470, rfl⟩
abbrev main_v342 : Ref sig .tc := ⟨.hbm, 471, rfl⟩
abbrev main_v343 : Ref sig .tc := ⟨.hbm, 472, rfl⟩
abbrev main_v344 : Ref sig .tc := ⟨.hbm, 473, rfl⟩
abbrev main_v345 : Ref sig .tc := ⟨.hbm, 474, rfl⟩
abbrev main_v346 : Ref sig .tc := ⟨.hbm, 475, rfl⟩
abbrev main_v347 : Ref sig .tc := ⟨.hbm, 476, rfl⟩
abbrev main_v348 : Ref sig .tc := ⟨.hbm, 477, rfl⟩
abbrev main_v349 : Ref sig .tc := ⟨.hbm, 478, rfl⟩
abbrev main_v350 : Ref sig .tc := ⟨.hbm, 479, rfl⟩
abbrev main_v351 : Ref sig .tc := ⟨.hbm, 480, rfl⟩
abbrev main_v352 : Ref sig .tc := ⟨.hbm, 481, rfl⟩
abbrev main_v353 : Ref sig .tc := ⟨.hbm, 482, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  slices_S3x3x256x256_S1x1x256x256_0_0_0_0 : S3x3x256x256.Slices ![0, 0, 0, 0] S1x1x256x256
  shapeCasts_S1x1x256x256_S256x256 : S1x1x256x256.ShapeCasts S256x256
  slices_S3x3x256_S1x1x256_0_0_0 : S3x3x256.Slices ![0, 0, 0] S1x1x256
  shapeCasts_S1x1x256_S256 : S1x1x256.ShapeCasts S256
  slices_S3x3x256x256_S1x1x256x256_0_1_0_0 : S3x3x256x256.Slices ![0, 1, 0, 0] S1x1x256x256
  slices_S3x3x256_S1x1x256_0_1_0 : S3x3x256.Slices ![0, 1, 0] S1x1x256
  slices_S3x3x256x256_S1x1x256x256_0_2_0_0 : S3x3x256x256.Slices ![0, 2, 0, 0] S1x1x256x256
  slices_S3x3x256_S1x1x256_0_2_0 : S3x3x256.Slices ![0, 2, 0] S1x1x256
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S3x256_S1x256_0_0 : S3x256.Slices ![0, 0] S1x256
  shapeCasts_S1x256_S256 : S1x256.ShapeCasts S256
  slices_S3x3x256x256_S1x1x256x256_1_0_0_0 : S3x3x256x256.Slices ![1, 0, 0, 0] S1x1x256x256
  slices_S3x3x256_S1x1x256_1_0_0 : S3x3x256.Slices ![1, 0, 0] S1x1x256
  slices_S3x3x256x256_S1x1x256x256_1_1_0_0 : S3x3x256x256.Slices ![1, 1, 0, 0] S1x1x256x256
  slices_S3x3x256_S1x1x256_1_1_0 : S3x3x256.Slices ![1, 1, 0] S1x1x256
  slices_S3x3x256x256_S1x1x256x256_1_2_0_0 : S3x3x256x256.Slices ![1, 2, 0, 0] S1x1x256x256
  slices_S3x3x256_S1x1x256_1_2_0 : S3x3x256.Slices ![1, 2, 0] S1x1x256
  slices_S3x256_S1x256_1_0 : S3x256.Slices ![1, 0] S1x256
  slices_S3x3x256x256_S1x1x256x256_2_0_0_0 : S3x3x256x256.Slices ![2, 0, 0, 0] S1x1x256x256
  slices_S3x3x256_S1x1x256_2_0_0 : S3x3x256.Slices ![2, 0, 0] S1x1x256
  slices_S3x3x256x256_S1x1x256x256_2_1_0_0 : S3x3x256x256.Slices ![2, 1, 0, 0] S1x1x256x256
  slices_S3x3x256_S1x1x256_2_1_0 : S3x3x256.Slices ![2, 1, 0] S1x1x256
  slices_S3x3x256x256_S1x1x256x256_2_2_0_0 : S3x3x256x256.Slices ![2, 2, 0, 0] S1x1x256x256
  slices_S3x3x256_S1x1x256_2_2_0 : S3x3x256.Slices ![2, 2, 0] S1x1x256
  slices_S3x256_S1x256_2_0 : S3x256.Slices ![2, 0] S1x256
  dot_S50000x64_S64x256_S50000x256_1_0_0_1_n_n_wf : DotDims.WF S50000x64 S64x256 S50000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []

variable [Facts₀]

def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Region0.lean ====
/-
  The encoder on one block of 2000 node rows: the block's features times the 64 x 256 weight, accumulated from zero, plus the bias row repeated down the rows.
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x64 .f32) (x1 : Vec F S64x256 .f32) (x2 : Vec F S1x256 .f32) : Vec F S2000x256 .f32 :=
  View.canon [⟨rO, k0_pay1 (View.ld x0 (Rect.unit (s := S2000x64) ![0, 0] S2000x64.size inb_S2000x64_S2000x64_0_0)) (View.ld x1 (Rect.unit (s := S64x256) ![0, 0] S64x256.size inb_S64x256_S64x256_0_0)) (View.ld x2 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid0.Coords)
    (arg1 : Memref sig .tc .vmem S2000x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: a point that does not fetch finds
    the same block index as the point before, and the body left the block in place. -/
theorem held0 {c : Dev nD} (dat : Dat τ (Elt F) Unit ℕ (Pipeline.UD sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by dsimp only [dat]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = out (blk V c 0 t) (blk V c 1 t) (blk V c 2 t) := by dsimp only [dat]
theorem before0 (c : Dev nD) (t : Fin cfg0.N) (d) : (dat V c).before 0 t d = blk V c 0 t :=
  held0 V (dat V c) (dat_A V c 0) (after0 V c) t d
theorem before1 (c : Dev nD) (t : Fin cfg0.N) (d) : (dat V c).before 1 t d = blk V c 1 t :=
  held1 V (dat V c) (dat_A V c 1) (after1 V c) t d
theorem before2 (c : Dev nD) (t : Fin cfg0.N) (d) : (dat V c).before 2 t d = blk V c 2 t :=
  held2 V (dat V c) (dat_A V c 2) (after2 V c) t d

/-- What the body is called with at point t: the invariant, the core's dues, and each window's current buffer, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's dues pass through untouched. -/
theorem soundBody (c : Dev nD) (t : Fin cfg0.N) :
    pre V c t ⊢ wp frame (wpE (defs₀ (F := F)) Variants.none c none) Set.univ (bodyAt0 t) (fun _ => post V c t) := by
  unfold pre post bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (triple c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation (c : Dev nD) : BodyObligation (dat (F := F) V c) (defs₀ (F := F)) Variants.none () Set.univ := fun t => by
  rw [bigSep_W0, bigSep_W0]
  exact soundBody V c t

end Cert.KernelIdeal.R0

end
-- ==== Proof.Region1.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k1_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid1.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: a point that does not fetch finds
    the same block index as the point before, and the body left the block in place. -/
theorem held0 {c : Dev nD} (dat : Dat τ (Elt F) Unit ℕ (Pipeline.UD sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by dsimp only [dat]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = out (blk V c 0 t) (blk V c 1 t) (blk V c 2 t) (blk V c 3 t) (blk V c 4 t) (blk V c 5 t) := by dsimp only [dat]
theorem before0 (c : Dev nD) (t : Fin cfg1.N) (d) : (dat V c).before 0 t d = blk V c 0 t :=
  held0 V (dat V c) (dat_A V c 0) (after0 V c) t d
theorem before1 (c : Dev nD) (t : Fin cfg1.N) (d) : (dat V c).before 1 t d = blk V c 1 t :=
  held1 V (dat V c) (dat_A V c 1) (after1 V c) t d
theorem before2 (c : Dev nD) (t : Fin cfg1.N) (d) : (dat V c).before 2 t d = blk V c 2 t :=
  held2 V (dat V c) (dat_A V c 2) (after2 V c) t d
theorem before3 (c : Dev nD) (t : Fin cfg1.N) (d) : (dat V c).before 3 t d = blk V c 3 t :=
  held3 V (dat V c) (dat_A V c 3) (after3 V c) t d
theorem before4 (c : Dev nD) (t : Fin cfg1.N) (d) : (dat V c).before 4 t d = blk V c 4 t :=
  held4 V (dat V c) (dat_A V c 4) (after4 V c) t d
theorem before5 (c : Dev nD) (t : Fin cfg1.N) (d) : (dat V c).before 5 t d = blk V c 5 t :=
  held5 V (dat V c) (dat_A V c 5) (after5 V c) t d

/-- What the body is called with at point t: the invariant, the core's dues, and each window's current buffer, -/
def pre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def post (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the body's triple applies; the invariant and the
    core's dues pass through untouched. -/
theorem soundBody (c : Dev nD) (t : Fin cfg1.N) :
    pre V c t ⊢ wp frame (wpE (defs₀ (F := F)) Variants.none c none) Set.univ (bodyAt1 t) (fun _ => post V c t) := by
  unfold pre post bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid1.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W1, bigSep_W1]
  exact soundBody V c t

end Cert.KernelIdeal.R1

end
-- ==== Proof.Region2.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k2_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid2.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, fetched there or not: a point that does not fetch finds
    the same block index as the point before, and the body left the block in place. -/
theorem held0 {c : Dev nD} (dat : Dat τ (Elt F) Unit ℕ (Pipeline.UD sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec2 c
  q _ := fullShare
  owed _ := 0

theorem dat_A (c : Dev nD) (w : Fin cfg2.W) : (dat V c).A w = V c (Pipeline.arrRef spec2 w) := by dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) : (dat V c).after 6 t = out (blk V c 0 t) (blk V c 1 t) (blk V c 2 t) (blk V c 3 t) (blk V c 4 t) (blk V c 5 t) := by dsimp only [dat]
theorem before0 (c : Dev nD) (t : Fin cfg2.N) (d) : (dat V c).before 0 t d = blk V c 0 t :=
  held0 V (dat V c) (dat_A V c 0) (after0 V c) t d
theorem before1 (c : Dev nD) (t : Fin cfg2.N) (d) : (dat V c).before 1 t d = blk V c 1 t :=
  held1 V (dat V c) (dat_A V c 1) (after1 V c) t d
theorem before2 (c : Dev nD) (t : Fin cfg2.N) (d) : (dat V c).before 2 t d = blk V c 2 t :=
  held2 V (dat V c) (dat_A V c 2) (after2 V c) t d
theorem before3 (c : Dev nD) (t : Fin cfg2.N) (d) : (dat V c).before 3 t d = blk V c 3 t :=
  held3 V (dat V c) (dat_A V c 3) (after3 V c) t d
theorem before4 (c : Dev nD) (t : Fin cfg2.N) (d) : (dat V c).before 4 t d = blk V c 4 t :=
  held4 V (dat V c) (dat_A V c 4) (after4 V c) t d
theorem before5 (c : Dev nD) (t : Fin cfg2.N) (d) : (dat V c).before 5 t d = blk V c 5 t :=
  held5 V (dat V c) (dat_A V c 5) (after5 V c) t d

/-- What the body is called with at point t: the invariant, the core's dues, and each window's current buffer, -/
def pre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def post (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' buffers hold their blocks, so the body's triple applies; the invariant and the
    core's dues pass through untouched. -/
theorem soundBody (c : Dev nD) (t : Fin cfg2.N) :
    pre V c t ⊢ wp frame (wpE (defs₀ (F := F)) Variants.none c none) Set.univ (bodyAt2 t) (fun _ => post V c t) := by
  unfold pre post bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid2.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W2, bigSep_W2]
  exact soundBody V c t

end Cert.KernelIdeal.R2

end
-- ==== Proof.Region3.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k3_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid3.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc3__mlp_kernel i arg1 harg1 arg2 harg2 arg3 harg3 arg4 harg4 arg5 harg5 arg6 harg6 arg7 harg7) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, fetched there or not: a point that does not fetch finds
    the same block index as the point before, and the body left the block in place. -/
theorem held0 {c : Dev nD} (dat : Dat τ (Elt F) Unit ℕ (Pipeline.UD sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec3 c
  q _ := fullShare
  owed _ := 0

theorem dat_A (c : Dev nD) (w : Fin cfg3.W) : (dat V c).A w = V c (Pipeline.arrRef spec3 w) := by dsimp only [dat]
theorem after0 (c : Dev nD) (t : Fin cfg3.N) : (dat V c).after 0 t = blk V c 0 t := by dsimp only [dat]
theorem after1 (c : Dev nD) (t : Fin cfg3.N) : (dat V c).after 1 t = blk V c 1 t := by dsimp only [dat]
theorem after2 (c : Dev nD) (t : Fin cfg3.N) : (dat V c).after 2 t = blk V c 2 t := by dsimp only [dat]
theorem after3 (c : Dev nD) (t : Fin cfg3.N) : (dat V c).after 3 t = blk V c 3 t := by dsimp only [dat]
theorem after4 (c : Dev nD) (t : Fin cfg3.N) : (dat V c).after 4 t = blk V c 4 t := by dsimp only [dat]
theorem after5 (c : Dev nD) (t : Fin cfg3.N) : (dat V c).after 5 t = blk V c 5 t := by dsimp only [dat]
theorem after6 (c : Dev nD) (t : Fin cfg3.N) : (dat V c).after 6 t = out (blk V c 0 t) (blk V c 1 t) (blk V c 2 t) (blk V c 3 t) (blk V c 4 t) (blk V c 5 t) := by dsimp only [dat]
theorem before0 (c : Dev nD) (t : Fin cfg3.N) (d) : (dat V c).before 0 t d = blk V c 0 t :=
  held0 V (dat V c) (dat_A V c 0) (after0 V c) t d
theorem before1 (c : Dev nD) (t : Fin cfg3.N) (d) : (dat V c).before 1 t d = blk V c 1 t :=
  held1 V (dat V c) (dat_A V c 1) (after1 V c) t d
theorem before2 (c : Dev nD) (t : Fin cfg3.N) (d) : (dat V c).before 2 t d = blk V c 2 t :=
  held2 V (dat V c) (dat_A V c 2) (after2 V c) t d
theorem before3 (c : Dev nD) (t : Fin cfg3.N) (d) : (dat V c).before 3 t d = blk V c 3 t :=
  held3 V (dat V c) (dat_A V c 3) (after3 V c) t d
theorem before4 (c : Dev nD) (t : Fin cfg3.N) (d) : (dat V c).before 4 t d = blk V c 4 t :=
  held4 V (dat V c) (dat_A V c 4) (after4 V c) t d
theorem before5 (c : Dev nD) (t : Fin cfg3.N) (d) : (dat V c).before 5 t d = blk V c 5 t :=
  held5 V (dat V c) (dat_A V c 5) (after5 V c) t d

/-- What the body is called with at point t: the invariant, the core's dues, and each window's current buffer, -/
def pre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

/-- and what it returns. -/
def post (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

/-- The body at any point: the inputs' buffers hold their blocks, so the body's triple applies; the invariant and the
    core's dues pass through untouched. -/
theorem soundBody (c : Dev nD) (t : Fin cfg3.N) :
    pre V c t ⊢ wp frame (wpE (defs₀ (F := F)) Variants.none c none) Set.univ (bodyAt3 t) (fun _ => post V c t) := by
  unfold pre post bodyAt3
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid3.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W3, bigSep_W3]
  exact soundBody V c t

end Cert.KernelIdeal.R3

end
-- ==== Proof.Reduce4Body.lean ====
/-
  The column sums of a 50000 x 256 array and of its squares, block by block of 2000 rows. Two 1 x 256 scratch rows
  carry the running sums from one grid point to the next: at the first point they are reset to zero, at every point
  the block's column sums (of the entries, and of their squares) are added to them, and at the last point they are
  copied into the two output rows. Here: the body on whole buffers, in each of the three situations a point can be in
  (the first, the last, or neither; with 25 points the first is not the last).
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A whole 1 x 256 row as a rectangle, and the origin of a rank-2 block. -/
abbrev rR : Rect S1x256 := Rect.unit (s := S1x256) ![0, 0] S1x256.size inb_S1x256_S1x256_0_0
theorem hz : (![0, 0] : Fin 2 → Nat) = fun _ => 0 := funext fun a => by fin_cases a <;> rfl

/-- One store of a whole row covers the row. -/
theorem cover (p : Vec F S1x256 .f32) (y : S1x256.Idx) :
    ∃ pc ∈ ([⟨rR, p⟩] : List (View.Piece (Elt F) S1x256 .f32)), y ∈ pc.1.set :=
  View.cover_of_tiled [⟨rR, p⟩] S1x256.size (by rfl) y

/-- A whole-row store at the head of a list of stores covers the row, whatever follows it. -/
theorem coverCons (p : Vec F S1x256 .f32) (L : List (View.Piece (Elt F) S1x256 .f32)) (y : S1x256.Idx) :
    ∃ pc ∈ ((⟨rR, p⟩ : View.Piece (Elt F) S1x256 .f32) :: L), y ∈ pc.1.set := by
  obtain ⟨pc, hm, hy⟩ := cover p y
  rw [List.mem_singleton] at hm
  exact ⟨pc, hm ▸ List.mem_cons_self, hy⟩

/-- The test "this is the first grid point", as the body computes it from the point's coordinate. -/
def isFirst (i : grid4.Coords) : BitVec 1 :=
  Scalar.cmpi .ne (Scalar.extui (Scalar.cmpi .eq (BitVec.ofNat 32 (i 0).val) 0#32) : BitVec 32) 0#32

/-- The running column sum after a block x, from the sum s before it; and the same for the squares. -/
abbrev addSum (x : Vec F S2000x256 .f32) (s : Vec F S1x256 .f32) : Vec F S1x256 .f32 := k4_pay4 x s
abbrev addSq (x : Vec F S2000x256 .f32) (q : Vec F S1x256 .f32) : Vec F S1x256 .f32 := k4_pay5 x q

set_option maxHeartbeats 1000000 in
/-- At the first point: whatever the scratch rows held, they end at the first block's sums from zero; the output rows are not touched. -/
theorem first (c : Dev nD) (E : Set ℕ) (i : grid4.Coords) (h1 : isFirst i = 1#1) (h2 : ¬ k4_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x k4_pay1) ∗ owns (c : Thread nD τ) arg5 fullShare (addSq x k4_pay2)) -∗ K ⟨⟩))
      ⊢ wp frame (wpE (defs₀ (F := F)) Variants.none c none) E (cc4__bn_reduce_kernel i arg1 harg1 arg2 harg2 arg3 harg3 arg4 harg4 arg5 harg5) K := by
  simp only [cc4__bn_reduce_kernel_eq_skeleton]; unfold cc4__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At a point that is neither first nor last: the block's sums are added to the scratch rows; the output rows are not touched. -/
theorem middle (c : Dev nD) (E : Set ℕ) (i : grid4.Coords) (h1 : ¬ isFirst i = 1#1) (h2 : ¬ k4_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x s) ∗ owns (c : Thread nD τ) arg5 fullShare (addSq x q)) -∗ K ⟨⟩))
      ⊢ wp frame (wpE (defs₀ (F := F)) Variants.none c none) E (cc4__bn_reduce_kernel i arg1 harg1 arg2 harg2 arg3 harg3 arg4 harg4 arg5 harg5) K := by
  simp only [cc4__bn_reduce_kernel_eq_skeleton]; unfold cc4__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At the last point: the block's sums are added to the scratch rows, and the totals are copied into the output rows. -/
theorem last (c : Dev nD) (E : Set ℕ) (i : grid4.Coords) (h1 : ¬ isFirst i = 1#1) (h2 : k4_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare (addSum x s) ∗ owns (c : Thread nD τ) arg3 fullShare (addSq x q)
            ∗ owns (c : Thread nD τ) arg4 fullShare (addSum x s) ∗ owns (c : Thread nD τ) arg5 fullShare (addSq x q)) -∗ K ⟨⟩))
      ⊢ wp frame (wpE (defs₀ (F := F)) Variants.none c none) E (cc4__bn_reduce_kernel i arg1 harg1 arg2 harg2 arg3 harg3 arg4 harg4 arg5 harg5) K := by
  simp only [cc4__bn_reduce_kernel_eq_skeleton]; unfold cc4__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

end Cert.KernelIdeal.R4

end
-- ==== Proof.Reduce4Region.lean ====
/-
  The proof data of the column-sum region. After the first n blocks the two scratch rows hold the column sums of the
  first 2000·n rows (`sumTo n`) and of their squares (`sqTo n`), built up from zero one block at a time. Between
  points the invariant keeps the two scratch rows: before the first point at anything, after point t at the sums over
  blocks 0 … t. The two output rows are left alone until the last point, where they receive the totals and are
  written back.
-/
import proofs.«162580_j71794673320191_1_alg».proof.Proof.Reduce4Body

set_option maxRecDepth 16384

noncomputable section

namespace Cert.KernelIdeal.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The two tests in closed form over the 25 grid points. -/
theorem first_iff : ∀ t : Fin cfg4.N, isFirst (grid4.coords t) = 1#1 ↔ t.val = 0 :=
  (by decide +kernel : ∀ t : Fin grid4.N, isFirst (grid4.coords t) = 1#1 ↔ t.val = 0)
theorem last_iff : ∀ t : Fin cfg4.N, k4_cond2 (grid4.coords t) = 1#1 ↔ t.val = 24 :=
  (by decide +kernel : ∀ t : Fin grid4.N, k4_cond2 (grid4.coords t) = 1#1 ↔ t.val = 24)

variable (V : (c : Dev nD) → (b : Ref sig .tc) → Buf (Elt F) ((c : Thread nD τ).loc b))

/-- Window w's block at point t, read off its array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's buffer holds its block at every point. -/
theorem held0 {c : Dev nD} (dat : Dat τ (Elt F) Unit ℕ (Pipeline.UD sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column sums over the first n blocks, from zero; and of the squares. -/
def sumTo (c : Dev nD) : ℕ → Vec F S1x256 .f32
  | 0 => k4_pay1
  | n + 1 => if h : n < cfg4.N then addSum (blk V c 0 ⟨n, h⟩) (sumTo c n) else sumTo c n
def sqTo (c : Dev nD) : ℕ → Vec F S1x256 .f32
  | 0 => k4_pay2
  | n + 1 => if h : n < cfg4.N then addSq (blk V c 0 ⟨n, h⟩) (sqTo c n) else sqTo c n

theorem sumTo_succ (c : Dev nD) (t : Fin cfg4.N) : sumTo V c (t.val + 1) = addSum (blk V c 0 t) (sumTo V c t.val) := by
  rw [sumTo, dif_pos t.isLt]
theorem sqTo_succ (c : Dev nD) (t : Fin cfg4.N) : sqTo V c (t.val + 1) = addSq (blk V c 0 t) (sqTo V c t.val) := by
  rw [sqTo, dif_pos t.isLt]

/-- What is kept between points: the two scratch rows — at the sums over the blocks done so far once a point has run —,
    the rest of the core's scoped buffers unopened, and the generator register. -/
def inv (c : Dev nD) (n : ℕ) : sProp 𝕄 :=
  iprop((∃ s q, owns (c : Thread nD τ) (Memref.whole cc4_scratch0 : Memref sig .tc .vmem S1x256 .f32) fullShare s ∗ owns (c : Thread nD τ) (Memref.whole cc4_scratch1 : Memref sig .tc .vmem S1x256 .f32) fullShare q ∗ ⌜n ≠ 0 → s = sumTo V c n ∧ q = sqTo V c n⌝)
    ∗ Pipeline.scopedRestBut (Ix := Unit) (Name := ℕ) (U := Pipeline.UD sig nD τ) (Lvl := ℕ) (Val := Elt F) spec4 c [cc4_scratch0, cc4_scratch1]
    ∗ ∃ r, prngReg c r)

/-- Entering the region: the scratch rows come out of the core's scoped buffers, at anything. -/
theorem inv_in (c : Dev nD) :
    iprop(Pipeline.scopedRest (Ix := Unit) (Name := ℕ) (U := Pipeline.UD sig nD τ) (Lvl := ℕ) (Val := Elt F) spec4 c ∗ ∃ r, prngReg c r)
      ⊢ inv V c 0 := by
  rw [scopedRest4_split]; unfold inv; simp only [owns_whole]
  iintro ⟨⟨⟨⟨%f0, H0⟩, ⟨%f1, H1⟩⟩, Hrest⟩, Hg⟩
  isplitl [H0 H1]
  · iexists f0, f1
    isplitl [H0]; · iexact H0
    isplitl [H1]; · iexact H1
    ipureintro; intro h; exact absurd rfl h
  isplitl [Hrest]; · iexact Hrest
  iexact Hg

/-- Leaving it: they go back, their contents forgotten. -/
theorem inv_out (c : Dev nD) (n : ℕ) :
    inv V c n ⊢ iprop(Pipeline.scopedRest (Ix := Unit) (Name := ℕ) (U := Pipeline.UD sig nD τ) (Lvl := ℕ) (Val := Elt F) spec4 c ∗ ∃ r, prngReg c r) := by
  rw [scopedRest4_split]; unfold inv; simp only [owns_whole]
  iintro ⟨⟨%f0, %f1, H0, H1, -⟩, Hrest, Hg⟩
  isplitl [H0 H1 Hrest]
  · isplitl [H0 H1]
    · isplitl [H0]; · iexists f0; iexact H0
      iexists f1; iexact H1
    iexact Hrest
  iexact Hg

/-- The region's proof data on core c. -/
def dat (c : Dev nD) : Dat τ (Elt F) Unit ℕ (Pipeline.UD sig nD τ) ℕ cfg4 c where
  A w := V c (Pipeline.arrRef spec4 w)
  after w t := match w with
    | ⟨0, _⟩ => blk V c 0 t
    | ⟨1, _⟩ => sumTo V c (t.val + 1)
    | ⟨2, _⟩ => sqTo V c (t.val + 1)
  Φ j := inv V c j.val
  q _ := fullShare
  owed _ := 0

theorem dat_A (c : Dev nD) (w : Fin cfg4.W) : (dat V c).A w = V c (Pipeline.arrRef spec4 w) := by dsimp only [dat]
theorem after0 (c : Dev nD) (t : Fin cfg4.N) : (dat V c).after 0 t = blk V c 0 t := by dsimp only [dat]
theorem after1 (c : Dev nD) (t : Fin cfg4.N) : (dat V c).after 1 t = sumTo V c (t.val + 1) := by dsimp only [dat]
theorem after2 (c : Dev nD) (t : Fin cfg4.N) : (dat V c).after 2 t = sqTo V c (t.val + 1) := by dsimp only [dat]
theorem before0 (c : Dev nD) (t : Fin cfg4.N) (d) : (dat V c).before 0 t d = blk V c 0 t :=
  held0 V (dat V c) (dat_A V c 0) (after0 V c) t d

/-- What the body is called with at point t, -/
def pre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

/-- what it returns at a point other than the last (the output rows as they were found), -/
def postKept (c : Dev nD) (t : Fin cfg4.N) : sProp 𝕄 :=
  iprop((dat V c).Φ t.succ ∗ (dat V c).owesAt () t.succ
    ∗ owns (c : Thread nD τ) (st4_0 t) fullShare ((dat V c).after 0 t)
    ∗ (∃ d, owns (c : Thread nD τ) (st4_1 t) fullShare ((dat V c).before 1 t d))
    ∗ (∃ d, owns (c : Thread nD τ) (st4_2 t) fullShare ((dat V c).before 2 t d)))

/-- and what it returns at the last point (the output rows at the totals). -/
def postLast (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t))

/-- The body at a point other than the last: the first point resets the scratch rows, every point adds its block. -/
theorem soundKept (c : Dev nD) (t : Fin cfg4.N) (hl : t.val ≠ 24) :
    pre V c t ⊢ wp frame (wpE (defs₀ (F := F)) Variants.none c none) Set.univ (bodyAt4 t) (fun _ => postKept V c t) := by
  unfold pre postKept bodyAt4
  simp only [before0]
  rw [show (dat V c).Φ t.castSucc = inv V c t.val from rfl, show (dat V c).Φ t.succ = inv V c (t.val + 1) from rfl,
    show (dat V c).owesAt () t.succ = (dat V c).owesAt () t.castSucc from rfl, after0]
  unfold inv
  iintro ⟨⟨⟨%s, %q, Hs, Hq, %hsq⟩, Hrest, Hg⟩, Ho, ⟨%d0, H0⟩, ⟨%d1, H1⟩, ⟨%d2, H2⟩⟩
  have hnl : ¬ k4_cond2 (grid4.coords t) = 1#1 := fun h => hl ((last_iff t).mp h)
  by_cases h0 : t.val = 0
  · iapply (first c Set.univ (grid4.coords t) ((first_iff t).mpr h0) hnl _ _ _ _ _ _ _ _ _ _ (blk V c 0 t) s q _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨by rw [sumTo_succ, h0]; rfl, by rw [sqTo_succ, h0]; rfl⟩
      isplitl [Hrest]; · iexact Hrest
      iexact Hg
    isplitl [Ho]; · iexact Ho
    isplitl [H0]; · iexact H0
    isplitl [H1]; · iexists _; iexact H1
    iexists _; iexact H2
  · obtain ⟨rfl, rfl⟩ := hsq h0
    iapply (middle c Set.univ (grid4.coords t) (fun h => h0 ((first_iff t).mp h)) hnl _ _ _ _ _ _ _ _ _ _ (blk V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨(sumTo_succ V c t).symm, (sqTo_succ V c t).symm⟩
      isplitl [Hrest]; · iexact Hrest
      iexact Hg
    isplitl [Ho]; · iexact Ho
    isplitl [H0]; · iexact H0
    isplitl [H1]; · iexists _; iexact H1
    iexists _; iexact H2

/-- The body at the last point: its block is added and the totals go to the output rows. -/
theorem soundLast (c : Dev nD) (t : Fin cfg4.N) (hl : t.val = 24) :
    pre V c t ⊢ wp frame (wpE (defs₀ (F := F)) Variants.none c none) Set.univ (bodyAt4 t) (fun _ => postLast V c t) := by
  unfold pre postLast bodyAt4
  simp only [before0]
  rw [show (dat V c).Φ t.castSucc = inv V c t.val from rfl, show (dat V c).Φ t.succ = inv V c (t.val + 1) from rfl,
    show (dat V c).owesAt () t.succ = (dat V c).owesAt () t.castSucc from rfl, after0, after1, after2]
  unfold inv
  iintro ⟨⟨⟨%s, %q, Hs, Hq, %hsq⟩, Hrest, Hg⟩, Ho, ⟨%d0, H0⟩, ⟨%d1, H1⟩, ⟨%d2, H2⟩⟩
  have h0 : t.val ≠ 0 := by omega
  obtain ⟨rfl, rfl⟩ := hsq h0
  iapply (last c Set.univ (grid4.coords t) (fun h => h0 ((first_iff t).mp h)) ((last_iff t).mpr hl) _ _ _ _ _ _ _ _ _ _ (blk V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  rw [sumTo_succ, sqTo_succ]
  isplitl [Hs Hq Hrest Hg]
  · isplitl [Hs Hq]
    · iexists _, _
      isplitl [Hs]; · iexact Hs
      isplitl [Hq]; · iexact Hq
      ipureintro; intro _
      exact ⟨rfl, rfl⟩
    isplitl [Hrest]; · iexact Hrest
    iexact Hg
  isplitl [Ho]; · iexact Ho
  isplitl [H0]; · iexact H0
  isplitl [H1]; · iexact H1
  iexact H2

/-- The pipeline's body obligation, at every point: the output rows count as untouched except at the last point,
    which is also the only point that writes them back. -/
theorem obligation (c : Dev nD) : BodyObligation (dat (F := F) V c) (defs₀ (F := F)) Variants.none () Set.univ := fun t => by
  rw [bigSep_W4, bigSep_W4]
  by_cases hl : t.val = 24
  · have hc : k4_cond2 (grid4.coords t) = 1#1 := (last_iff t).mpr hl
    have hi1 : idle4 1 (grid4.coords t) = false := by
      show (!(k4_cond2 (grid4.coords t) == 1#1)) = false
      rw [hc]; rfl
    have hi2 : idle4 2 (grid4.coords t) = false := by
      show (!(k4_cond2 (grid4.coords t) == 1#1)) = false
      rw [hc]; rfl
    simp only [hi1, hi2]
    exact soundLast V c t hl
  · have hc : ¬ k4_cond2 (grid4.coords t) = 1#1 := fun h => hl ((last_iff t).mp h)
    have hi1 : idle4 1 (grid4.coords t) = true := by
      show (!(k4_cond2 (grid4.coords t) == 1#1)) = true
      simp only [beq_iff_eq, hc, Bool.not_eq_true', Bool.not_false, decide_false, beq_eq_false_iff_ne, ne_eq, not_false_eq_true]
    have hi2 : idle4 2 (grid4.coords t) = true := by
      show (!(k4_cond2 (grid4.coords t) == 1#1)) = true
      simp only [beq_iff_eq, hc, Bool.not_eq_true', Bool.not_false, decide_false, beq_eq_false_iff_ne, ne_eq, not_false_eq_true]
    have hf1 : (cfg4.win 1).flush t = false := by
      have := flush4_1 t; have hm : ¬ t.val % 25 = 24 := by have := t.isLt; have : cfg4.N = 25 := N_4; omega
      exact Bool.eq_false_iff.mpr fun h => hm (this.mp h)
    have hf2 : (cfg4.win 2).flush t = false := by
      have := flush4_2 t; have hm : ¬ t.val % 25 = 24 := by have := t.isLt; have : cfg4.N = 25 := N_4; omega
      exact Bool.eq_false_iff.mpr fun h => hm (this.mp h)
    simp only [hi1, hi2, hf1, hf2]
    exact soundKept V c t hl

end Cert.KernelIdeal.R4

end
-- ==== Proof.Region5.lean ====
/-
  Batch normalisation applied to a block of 2000 node rows: (row - mean) times the inverse standard deviation times the scale plus the shift, the four 1 x 256 rows repeated down the block (and, in the layers that have it, clipped below at zero).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S1x256 .f32) (x2 : Vec F S1x256 .f32) (x3 : Vec F S1x256 .f32) (x4 : Vec F S1x256 .f32) : Vec F S2000x256 .f32 :=
  View.canon [⟨rO, k5_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid5.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc5__bn_norm_kernel i arg1 harg1 arg2 harg2 arg3 harg3 arg4 harg4 arg5 harg5 arg6 harg6) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's buffer holds its block at every point, fetched there or not: a point that does not fetch finds
    the same block index as the point before, and the body left the block in place. -/
theorem held0 {c : Dev nD} (dat : Dat τ (Elt F) Unit ℕ (Pipeline.UD sig nD τ) ℕ cfg5 c) (hA : dat.A 0 = V c (Pipeline.arrRef spec5 0))
    (hafter : ∀ t, dat.after 0 t = blk V c 0 t) (t : Fin cfg5.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg5 c) (hA : dat.A 1 = V c (Pipeline.arrRef spec5 1))
    (hafter : ∀ t, dat.after 1 t = blk V c 1 t) (t : Fin cfg5.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg5 c) (hA : dat.A 2 = V c (Pipeline.arrRef spec5 2))
    (hafter : ∀ t, dat.after 2 t = blk V c 2 t) (t : Fin cfg5.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg5 c) (hA : dat.A 3 = V c (Pipeline.arrRef spec5 3))
    (hafter : ∀ t, dat.after 3 t = blk V c 3 t) (t : Fin cfg5.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg5 c) (hA : dat.A 4 = V c (Pipeline.arrRef spec5 4))
    (hafter : ∀ t, dat.after 4 t = blk V c 4 t) (t : Fin cfg5.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec5 c
  q _ := fullShare
  owed _ := 0

theorem dat_A (c : Dev nD) (w : Fin cfg5.W) : (dat V c).A w = V c (Pipeline.arrRef spec5 w) := by dsimp only [dat]
theorem after0 (c : Dev nD) (t : Fin cfg5.N) : (dat V c).after 0 t = blk V c 0 t := by dsimp only [dat]
theorem after1 (c : Dev nD) (t : Fin cfg5.N) : (dat V c).after 1 t = blk V c 1 t := by dsimp only [dat]
theorem after2 (c : Dev nD) (t : Fin cfg5.N) : (dat V c).after 2 t = blk V c 2 t := by dsimp only [dat]
theorem after3 (c : Dev nD) (t : Fin cfg5.N) : (dat V c).after 3 t = blk V c 3 t := by dsimp only [dat]
theorem after4 (c : Dev nD) (t : Fin cfg5.N) : (dat V c).after 4 t = blk V c 4 t := by dsimp only [dat]
theorem after5 (c : Dev nD) (t : Fin cfg5.N) : (dat V c).after 5 t = out (blk V c 0 t) (blk V c 1 t) (blk V c 2 t) (blk V c 3 t) (blk V c 4 t) := by dsimp only [dat]
theorem before0 (c : Dev nD) (t : Fin cfg5.N) (d) : (dat V c).before 0 t d = blk V c 0 t :=
  held0 V (dat V c) (dat_A V c 0) (after0 V c) t d
theorem before1 (c : Dev nD) (t : Fin cfg5.N) (d) : (dat V c).before 1 t d = blk V c 1 t :=
  held1 V (dat V c) (dat_A V c 1) (after1 V c) t d
theorem before2 (c : Dev nD) (t : Fin cfg5.N) (d) : (dat V c).before 2 t d = blk V c 2 t :=
  held2 V (dat V c) (dat_A V c 2) (after2 V c) t d
theorem before3 (c : Dev nD) (t : Fin cfg5.N) (d) : (dat V c).before 3 t d = blk V c 3 t :=
  held3 V (dat V c) (dat_A V c 3) (after3 V c) t d
theorem before4 (c : Dev nD) (t : Fin cfg5.N) (d) : (dat V c).before 4 t d = blk V c 4 t :=
  held4 V (dat V c) (dat_A V c 4) (after4 V c) t d

/-- What the body is called with at point t: the invariant, the core's dues, and each window's current buffer, -/
def pre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it returns. -/
def post (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

/-- The body at any point: the inputs' buffers hold their blocks, so the body's triple applies; the invariant and the
    core's dues pass through untouched. -/
theorem soundBody (c : Dev nD) (t : Fin cfg5.N) :
    pre V c t ⊢ wp frame (wpE (defs₀ (F := F)) Variants.none c none) Set.univ (bodyAt5 t) (fun _ => post V c t) := by
  unfold pre post bodyAt5
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid5.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation (c : Dev nD) : BodyObligation (dat (F := F) V c) (defs₀ (F := F)) Variants.none () Set.univ := fun t => by
  rw [bigSep_W5, bigSep_W5]
  exact soundBody V c t

end Cert.KernelIdeal.R5

end
-- ==== Proof.Region6.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k6_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid6.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc6__mlp_kernel i arg1 harg1 arg2 harg2 arg3 harg3 arg4 harg4 arg5 harg5 arg6 harg6 arg7 harg7) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's buffer holds its block at every point, fetched there or not: a point that does not fetch finds
    the same block index as the point before, and the body left the block in place. -/
theorem held0 {c : Dev nD} (dat : Dat τ (Elt F) Unit ℕ (Pipeline.UD sig nD τ) ℕ cfg6 c) (hA : dat.A 0 = V c (Pipeline.arrRef spec6 0))
    (hafter : ∀ t, dat.after 0 t = blk V c 0 t) (t : Fin cfg6.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg6 c) (hA : dat.A 1 = V c (Pipeline.arrRef spec6 1))
    (hafter : ∀ t, dat.after 1 t = blk V c 1 t) (t : Fin cfg6.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg6 c) (hA : dat.A 2 = V c (Pipeline.arrRef spec6 2))
    (hafter : ∀ t, dat.after 2 t = blk V c 2 t) (t : Fin cfg6.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg6 c) (hA : dat.A 3 = V c (Pipeline.arrRef spec6 3))
    (hafter : ∀ t, dat.after 3 t = blk V c 3 t) (t : Fin cfg6.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg6 c) (hA : dat.A 4 = V c (Pipeline.arrRef spec6 4))
    (hafter : ∀ t, dat.after 4 t = blk V c 4 t) (t : Fin cfg6.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg6 c) (hA : dat.A 5 = V c (Pipeline.arrRef spec6 5))
    (hafter : ∀ t, dat.after 5 t = blk V c 5 t) (t : Fin cfg6.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec6 c
  q _ := fullShare
  owed _ := 0

theorem dat_A (c : Dev nD) (w : Fin cfg6.W) : (dat V c).A w = V c (Pipeline.arrRef spec6 w) := by dsimp only [dat]
theorem after0 (c : Dev nD) (t : Fin cfg6.N) : (dat V c).after 0 t = blk V c 0 t := by dsimp only [dat]
theorem after1 (c : Dev nD) (t : Fin cfg6.N) : (dat V c).after 1 t = blk V c 1 t := by dsimp only [dat]
theorem after2 (c : Dev nD) (t : Fin cfg6.N) : (dat V c).after 2 t = blk V c 2 t := by dsimp only [dat]
theorem after3 (c : Dev nD) (t : Fin cfg6.N) : (dat V c).after 3 t = blk V c 3 t := by dsimp only [dat]
theorem after4 (c : Dev nD) (t : Fin cfg6.N) : (dat V c).after 4 t = blk V c 4 t := by dsimp only [dat]
theorem after5 (c : Dev nD) (t : Fin cfg6.N) : (dat V c).after 5 t = blk V c 5 t := by dsimp only [dat]
theorem after6 (c : Dev nD) (t : Fin cfg6.N) : (dat V c).after 6 t = out (blk V c 0 t) (blk V c 1 t) (blk V c 2 t) (blk V c 3 t) (blk V c 4 t) (blk V c 5 t) := by dsimp only [dat]
theorem before0 (c : Dev nD) (t : Fin cfg6.N) (d) : (dat V c).before 0 t d = blk V c 0 t :=
  held0 V (dat V c) (dat_A V c 0) (after0 V c) t d
theorem before1 (c : Dev nD) (t : Fin cfg6.N) (d) : (dat V c).before 1 t d = blk V c 1 t :=
  held1 V (dat V c) (dat_A V c 1) (after1 V c) t d
theorem before2 (c : Dev nD) (t : Fin cfg6.N) (d) : (dat V c).before 2 t d = blk V c 2 t :=
  held2 V (dat V c) (dat_A V c 2) (after2 V c) t d
theorem before3 (c : Dev nD) (t : Fin cfg6.N) (d) : (dat V c).before 3 t d = blk V c 3 t :=
  held3 V (dat V c) (dat_A V c 3) (after3 V c) t d
theorem before4 (c : Dev nD) (t : Fin cfg6.N) (d) : (dat V c).before 4 t d = blk V c 4 t :=
  held4 V (dat V c) (dat_A V c 4) (after4 V c) t d
theorem before5 (c : Dev nD) (t : Fin cfg6.N) (d) : (dat V c).before 5 t d = blk V c 5 t :=
  held5 V (dat V c) (dat_A V c 5) (after5 V c) t d

/-- What the body is called with at point t: the invariant, the core's dues, and each window's current buffer, -/
def pre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d)))

/-- and what it returns. -/
def post (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t)
    ∗ owns (c : Thread nD τ) (st6_6 t) fullShare ((dat V c).after 6 t))

/-- The body at any point: the inputs' buffers hold their blocks, so the body's triple applies; the invariant and the
    core's dues pass through untouched. -/
theorem soundBody (c : Dev nD) (t : Fin cfg6.N) :
    pre V c t ⊢ wp frame (wpE (defs₀ (F := F)) Variants.none c none) Set.univ (bodyAt6 t) (fun _ => post V c t) := by
  unfold pre post bodyAt6
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid6.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W6, bigSep_W6]
  exact soundBody V c t

end Cert.KernelIdeal.R6

end
-- ==== Proof.Region7.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k7_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid7.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc7__mlp_kernel i arg1 harg1 arg2 harg2 arg3 harg3 arg4 harg4 arg5 harg5 arg6 harg6 arg7 harg7) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's buffer holds its block at every point, fetched there or not: a point that does not fetch finds
    the same block index as the point before, and the body left the block in place. -/
theorem held0 {c : Dev nD} (dat : Dat τ (Elt F) Unit ℕ (Pipeline.UD sig nD τ) ℕ cfg7 c) (hA : dat.A 0 = V c (Pipeline.arrRef spec7 0))
    (hafter : ∀ t, dat.after 0 t = blk V c 0 t) (t : Fin cfg7.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg7 c) (hA : dat.A 1 = V c (Pipeline.arrRef spec7 1))
    (hafter : ∀ t, dat.after 1 t = blk V c 1 t) (t : Fin cfg7.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg7 c) (hA : dat.A 2 = V c (Pipeline.arrRef spec7 2))
    (hafter : ∀ t, dat.after 2 t = blk V c 2 t) (t : Fin cfg7.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg7 c) (hA : dat.A 3 = V c (Pipeline.arrRef spec7 3))
    (hafter : ∀ t, dat.after 3 t = blk V c 3 t) (t : Fin cfg7.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg7 c) (hA : dat.A 4 = V c (Pipeline.arrRef spec7 4))
    (hafter : ∀ t, dat.after 4 t = blk V c 4 t) (t : Fin cfg7.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg7 c) (hA : dat.A 5 = V c (Pipeline.arrRef spec7 5))
    (hafter : ∀ t, dat.after 5 t = blk V c 5 t) (t : Fin cfg7.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec7 c
  q _ := fullShare
  owed _ := 0

theorem dat_A (c : Dev nD) (w : Fin cfg7.W) : (dat V c).A w = V c (Pipeline.arrRef spec7 w) := by dsimp only [dat]
theorem after0 (c : Dev nD) (t : Fin cfg7.N) : (dat V c).after 0 t = blk V c 0 t := by dsimp only [dat]
theorem after1 (c : Dev nD) (t : Fin cfg7.N) : (dat V c).after 1 t = blk V c 1 t := by dsimp only [dat]
theorem after2 (c : Dev nD) (t : Fin cfg7.N) : (dat V c).after 2 t = blk V c 2 t := by dsimp only [dat]
theorem after3 (c : Dev nD) (t : Fin cfg7.N) : (dat V c).after 3 t = blk V c 3 t := by dsimp only [dat]
theorem after4 (c : Dev nD) (t : Fin cfg7.N) : (dat V c).after 4 t = blk V c 4 t := by dsimp only [dat]
theorem after5 (c : Dev nD) (t : Fin cfg7.N) : (dat V c).after 5 t = blk V c 5 t := by dsimp only [dat]
theorem after6 (c : Dev nD) (t : Fin cfg7.N) : (dat V c).after 6 t = out (blk V c 0 t) (blk V c 1 t) (blk V c 2 t) (blk V c 3 t) (blk V c 4 t) (blk V c 5 t) := by dsimp only [dat]
theorem before0 (c : Dev nD) (t : Fin cfg7.N) (d) : (dat V c).before 0 t d = blk V c 0 t :=
  held0 V (dat V c) (dat_A V c 0) (after0 V c) t d
theorem before1 (c : Dev nD) (t : Fin cfg7.N) (d) : (dat V c).before 1 t d = blk V c 1 t :=
  held1 V (dat V c) (dat_A V c 1) (after1 V c) t d
theorem before2 (c : Dev nD) (t : Fin cfg7.N) (d) : (dat V c).before 2 t d = blk V c 2 t :=
  held2 V (dat V c) (dat_A V c 2) (after2 V c) t d
theorem before3 (c : Dev nD) (t : Fin cfg7.N) (d) : (dat V c).before 3 t d = blk V c 3 t :=
  held3 V (dat V c) (dat_A V c 3) (after3 V c) t d
theorem before4 (c : Dev nD) (t : Fin cfg7.N) (d) : (dat V c).before 4 t d = blk V c 4 t :=
  held4 V (dat V c) (dat_A V c 4) (after4 V c) t d
theorem before5 (c : Dev nD) (t : Fin cfg7.N) (d) : (dat V c).before 5 t d = blk V c 5 t :=
  held5 V (dat V c) (dat_A V c 5) (after5 V c) t d

/-- What the body is called with at point t: the invariant, the core's dues, and each window's current buffer, -/
def pre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d))
    ∗ (∃ d, owns (c : Thread nD τ) (st7_6 t) fullShare ((dat V c).before 6 t d)))

/-- and what it returns. -/
def post (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t)
    ∗ owns (c : Thread nD τ) (st7_6 t) fullShare ((dat V c).after 6 t))

/-- The body at any point: the inputs' buffers hold their blocks, so the body's triple applies; the invariant and the
    core's dues pass through untouched. -/
theorem soundBody (c : Dev nD) (t : Fin cfg7.N) :
    pre V c t ⊢ wp frame (wpE (defs₀ (F := F)) Variants.none c none) Set.univ (bodyAt7 t) (fun _ => post V c t) := by
  unfold pre post bodyAt7
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid7.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W7, bigSep_W7]
  exact soundBody V c t

end Cert.KernelIdeal.R7

end
-- ==== Proof.Region8.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k8_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid8.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc8__mlp_kernel i arg1 harg1 arg2 harg2 arg3 harg3 arg4 harg4 arg5 harg5 arg6 harg6 arg7 harg7) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's buffer holds its block at every point, fetched there or not: a point that does not fetch finds
    the same block index as the point before, and the body left the block in place. -/
theorem held0 {c : Dev nD} (dat : Dat τ (Elt F) Unit ℕ (Pipeline.UD sig nD τ) ℕ cfg8 c) (hA : dat.A 0 = V c (Pipeline.arrRef spec8 0))
    (hafter : ∀ t, dat.after 0 t = blk V c 0 t) (t : Fin cfg8.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg8 c) (hA : dat.A 1 = V c (Pipeline.arrRef spec8 1))
    (hafter : ∀ t, dat.after 1 t = blk V c 1 t) (t : Fin cfg8.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg8 c) (hA : dat.A 2 = V c (Pipeline.arrRef spec8 2))
    (hafter : ∀ t, dat.after 2 t = blk V c 2 t) (t : Fin cfg8.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg8 c) (hA : dat.A 3 = V c (Pipeline.arrRef spec8 3))
    (hafter : ∀ t, dat.after 3 t = blk V c 3 t) (t : Fin cfg8.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg8 c) (hA : dat.A 4 = V c (Pipeline.arrRef spec8 4))
    (hafter : ∀ t, dat.after 4 t = blk V c 4 t) (t : Fin cfg8.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg8 c) (hA : dat.A 5 = V c (Pipeline.arrRef spec8 5))
    (hafter : ∀ t, dat.after 5 t = blk V c 5 t) (t : Fin cfg8.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec8 c
  q _ := fullShare
  owed _ := 0

theorem dat_A (c : Dev nD) (w : Fin cfg8.W) : (dat V c).A w = V c (Pipeline.arrRef spec8 w) := by dsimp only [dat]
theorem after0 (c : Dev nD) (t : Fin cfg8.N) : (dat V c).after 0 t = blk V c 0 t := by dsimp only [dat]
theorem after1 (c : Dev nD) (t : Fin cfg8.N) : (dat V c).after 1 t = blk V c 1 t := by dsimp only [dat]
theorem after2 (c : Dev nD) (t : Fin cfg8.N) : (dat V c).after 2 t = blk V c 2 t := by dsimp only [dat]
theorem after3 (c : Dev nD) (t : Fin cfg8.N) : (dat V c).after 3 t = blk V c 3 t := by dsimp only [dat]
theorem after4 (c : Dev nD) (t : Fin cfg8.N) : (dat V c).after 4 t = blk V c 4 t := by dsimp only [dat]
theorem after5 (c : Dev nD) (t : Fin cfg8.N) : (dat V c).after 5 t = blk V c 5 t := by dsimp only [dat]
theorem after6 (c : Dev nD) (t : Fin cfg8.N) : (dat V c).after 6 t = out (blk V c 0 t) (blk V c 1 t) (blk V c 2 t) (blk V c 3 t) (blk V c 4 t) (blk V c 5 t) := by dsimp only [dat]
theorem before0 (c : Dev nD) (t : Fin cfg8.N) (d) : (dat V c).before 0 t d = blk V c 0 t :=
  held0 V (dat V c) (dat_A V c 0) (after0 V c) t d
theorem before1 (c : Dev nD) (t : Fin cfg8.N) (d) : (dat V c).before 1 t d = blk V c 1 t :=
  held1 V (dat V c) (dat_A V c 1) (after1 V c) t d
theorem before2 (c : Dev nD) (t : Fin cfg8.N) (d) : (dat V c).before 2 t d = blk V c 2 t :=
  held2 V (dat V c) (dat_A V c 2) (after2 V c) t d
theorem before3 (c : Dev nD) (t : Fin cfg8.N) (d) : (dat V c).before 3 t d = blk V c 3 t :=
  held3 V (dat V c) (dat_A V c 3) (after3 V c) t d
theorem before4 (c : Dev nD) (t : Fin cfg8.N) (d) : (dat V c).before 4 t d = blk V c 4 t :=
  held4 V (dat V c) (dat_A V c 4) (after4 V c) t d
theorem before5 (c : Dev nD) (t : Fin cfg8.N) (d) : (dat V c).before 5 t d = blk V c 5 t :=
  held5 V (dat V c) (dat_A V c 5) (after5 V c) t d

/-- What the body is called with at point t: the invariant, the core's dues, and each window's current buffer, -/
def pre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d))
    ∗ (∃ d, owns (c : Thread nD τ) (st8_3 t) fullShare ((dat V c).before 3 t d))
    ∗ (∃ d, owns (c : Thread nD τ) (st8_4 t) fullShare ((dat V c).before 4 t d))
    ∗ (∃ d, owns (c : Thread nD τ) (st8_5 t) fullShare ((dat V c).before 5 t d))
    ∗ (∃ d, owns (c : Thread nD τ) (st8_6 t) fullShare ((dat V c).before 6 t d)))

/-- and what it returns. -/
def post (c : Dev nD) (t : Fin cfg8.N) : sProp 𝕄 :=
  iprop((dat V c).Φ t.succ ∗ (dat V c).owesAt () t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t)
    ∗ owns (c : Thread nD τ) (st8_3 t) fullShare ((dat V c).after 3 t)
    ∗ owns (c : Thread nD τ) (st8_4 t) fullShare ((dat V c).after 4 t)
    ∗ owns (c : Thread nD τ) (st8_5 t) fullShare ((dat V c).after 5 t)
    ∗ owns (c : Thread nD τ) (st8_6 t) fullShare ((dat V c).after 6 t))

/-- The body at any point: the inputs' buffers hold their blocks, so the body's triple applies; the invariant and the
    core's dues pass through untouched. -/
theorem soundBody (c : Dev nD) (t : Fin cfg8.N) :
    pre V c t ⊢ wp frame (wpE (defs₀ (F := F)) Variants.none c none) Set.univ (bodyAt8 t) (fun _ => post V c t) := by
  unfold pre post bodyAt8
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid8.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W8, bigSep_W8]
  exact soundBody V c t

end Cert.KernelIdeal.R8

end
-- ==== Proof.Reduce9Body.lean ====
/-
  The column sums of a 50000 x 256 array and of its squares, block by block of 2000 rows. Two 1 x 256 scratch rows
  carry the running sums from one grid point to the next: at the first point they are reset to zero, at every point
  the block's column sums (of the entries, and of their squares) are added to them, and at the last point they are
  copied into the two output rows. Here: the body on whole buffers, in each of the three situations a point can be in
  (the first, the last, or neither; with 25 points the first is not the last).
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.R9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A whole 1 x 256 row as a rectangle, and the origin of a rank-2 block. -/
abbrev rR : Rect S1x256 := Rect.unit (s := S1x256) ![0, 0] S1x256.size inb_S1x256_S1x256_0_0
theorem hz : (![0, 0] : Fin 2 → Nat) = fun _ => 0 := funext fun a => by fin_cases a <;> rfl

/-- One store of a whole row covers the row. -/
theorem cover (p : Vec F S1x256 .f32) (y : S1x256.Idx) :
    ∃ pc ∈ ([⟨rR, p⟩] : List (View.Piece (Elt F) S1x256 .f32)), y ∈ pc.1.set :=
  View.cover_of_tiled [⟨rR, p⟩] S1x256.size (by rfl) y

/-- A whole-row store at the head of a list of stores covers the row, whatever follows it. -/
theorem coverCons (p : Vec F S1x256 .f32) (L : List (View.Piece (Elt F) S1x256 .f32)) (y : S1x256.Idx) :
    ∃ pc ∈ ((⟨rR, p⟩ : View.Piece (Elt F) S1x256 .f32) :: L), y ∈ pc.1.set := by
  obtain ⟨pc, hm, hy⟩ := cover p y
  rw [List.mem_singleton] at hm
  exact ⟨pc, hm ▸ List.mem_cons_self, hy⟩

/-- The test "this is the first grid point", as the body computes it from the point's coordinate. -/
def isFirst (i : grid9.Coords) : BitVec 1 :=
  Scalar.cmpi .ne (Scalar.extui (Scalar.cmpi .eq (BitVec.ofNat 32 (i 0).val) 0#32) : BitVec 32) 0#32

/-- The running column sum after a block x, from the sum s before it; and the same for the squares. -/
abbrev addSum (x : Vec F S2000x256 .f32) (s : Vec F S1x256 .f32) : Vec F S1x256 .f32 := k9_pay4 x s
abbrev addSq (x : Vec F S2000x256 .f32) (q : Vec F S1x256 .f32) : Vec F S1x256 .f32 := k9_pay5 x q

set_option maxHeartbeats 1000000 in
/-- At the first point: whatever the scratch rows held, they end at the first block's sums from zero; the output rows are not touched. -/
theorem first (c : Dev nD) (E : Set ℕ) (i : grid9.Coords) (h1 : isFirst i = 1#1) (h2 : ¬ k9_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x k9_pay1) ∗ owns (c : Thread nD τ) arg5 fullShare (addSq x k9_pay2)) -∗ K ⟨⟩))
      ⊢ wp frame (wpE (defs₀ (F := F)) Variants.none c none) E (cc9__bn_reduce_kernel i arg1 harg1 arg2 harg2 arg3 harg3 arg4 harg4 arg5 harg5) K := by
  simp only [cc9__bn_reduce_kernel_eq_skeleton]; unfold cc9__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At a point that is neither first nor last: the block's sums are added to the scratch rows; the output rows are not touched. -/
theorem middle (c : Dev nD) (E : Set ℕ) (i : grid9.Coords) (h1 : ¬ isFirst i = 1#1) (h2 : ¬ k9_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x s) ∗ owns (c : Thread nD τ) arg5 fullShare (addSq x q)) -∗ K ⟨⟩))
      ⊢ wp frame (wpE (defs₀ (F := F)) Variants.none c none) E (cc9__bn_reduce_kernel i arg1 harg1 arg2 harg2 arg3 harg3 arg4 harg4 arg5 harg5) K := by
  simp only [cc9__bn_reduce_kernel_eq_skeleton]; unfold cc9__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At the last point: the block's sums are added to the scratch rows, and the totals are copied into the output rows. -/
theorem last (c : Dev nD) (E : Set ℕ) (i : grid9.Coords) (h1 : ¬ isFirst i = 1#1) (h2 : k9_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare (addSum x s) ∗ owns (c : Thread nD τ) arg3 fullShare (addSq x q)
            ∗ owns (c : Thread nD τ) arg4 fullShare (addSum x s) ∗ owns (c : Thread nD τ) arg5 fullShare (addSq x q)) -∗ K ⟨⟩))
      ⊢ wp frame (wpE (defs₀ (F := F)) Variants.none c none) E (cc9__bn_reduce_kernel i arg1 harg1 arg2 harg2 arg3 harg3 arg4 harg4 arg5 harg5) K := by
  simp only [cc9__bn_reduce_kernel_eq_skeleton]; unfold cc9__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

end Cert.KernelIdeal.R9

end
-- ==== Proof.Reduce9Region.lean ====
/-
  The proof data of the column-sum region. After the first n blocks the two scratch rows hold the column sums of the
  first 2000·n rows (`sumTo n`) and of their squares (`sqTo n`), built up from zero one block at a time. Between
  points the invariant keeps the two scratch rows: before the first point at anything, after point t at the sums over
  blocks 0 … t. The two output rows are left alone until the last point, where they receive the totals and are
  written back.
-/
import proofs.«162580_j71794673320191_1_alg».proof.Proof.Reduce9Body

set_option maxRecDepth 16384

noncomputable section

namespace Cert.KernelIdeal.R9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The two tests in closed form over the 25 grid points. -/
theorem first_iff : ∀ t : Fin cfg9.N, isFirst (grid9.coords t) = 1#1 ↔ t.val = 0 :=
  (by decide +kernel : ∀ t : Fin grid9.N, isFirst (grid9.coords t) = 1#1 ↔ t.val = 0)
theorem last_iff : ∀ t : Fin cfg9.N, k9_cond2 (grid9.coords t) = 1#1 ↔ t.val = 24 :=
  (by decide +kernel : ∀ t : Fin grid9.N, k9_cond2 (grid9.coords t) = 1#1 ↔ t.val = 24)

variable (V : (c : Dev nD) → (b : Ref sig .tc) → Buf (Elt F) ((c : Thread nD τ).loc b))

/-- Window w's block at point t, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's buffer holds its block at every point. -/
theorem held0 {c : Dev nD} (dat : Dat τ (Elt F) Unit ℕ (Pipeline.UD sig nD τ) ℕ cfg9 c) (hA : dat.A 0 = V c (Pipeline.arrRef spec9 0))
    (hafter : ∀ t, dat.after 0 t = blk V c 0 t) (t : Fin cfg9.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column sums over the first n blocks, from zero; and of the squares. -/
def sumTo (c : Dev nD) : ℕ → Vec F S1x256 .f32
  | 0 => k9_pay1
  | n + 1 => if h : n < cfg9.N then addSum (blk V c 0 ⟨n, h⟩) (sumTo c n) else sumTo c n
def sqTo (c : Dev nD) : ℕ → Vec F S1x256 .f32
  | 0 => k9_pay2
  | n + 1 => if h : n < cfg9.N then addSq (blk V c 0 ⟨n, h⟩) (sqTo c n) else sqTo c n

theorem sumTo_succ (c : Dev nD) (t : Fin cfg9.N) : sumTo V c (t.val + 1) = addSum (blk V c 0 t) (sumTo V c t.val) := by
  rw [sumTo, dif_pos t.isLt]
theorem sqTo_succ (c : Dev nD) (t : Fin cfg9.N) : sqTo V c (t.val + 1) = addSq (blk V c 0 t) (sqTo V c t.val) := by
  rw [sqTo, dif_pos t.isLt]

/-- What is kept between points: the two scratch rows — at the sums over the blocks done so far once a point has run —,
    the rest of the core's scoped buffers unopened, and the generator register. -/
def inv (c : Dev nD) (n : ℕ) : sProp 𝕄 :=
  iprop((∃ s q, owns (c : Thread nD τ) (Memref.whole cc9_scratch0 : Memref sig .tc .vmem S1x256 .f32) fullShare s ∗ owns (c : Thread nD τ) (Memref.whole cc9_scratch1 : Memref sig .tc .vmem S1x256 .f32) fullShare q ∗ ⌜n ≠ 0 → s = sumTo V c n ∧ q = sqTo V c n⌝)
    ∗ Pipeline.scopedRestBut (Ix := Unit) (Name := ℕ) (U := Pipeline.UD sig nD τ) (Lvl := ℕ) (Val := Elt F) spec9 c [cc9_scratch0, cc9_scratch1]
    ∗ ∃ r, prngReg c r)

/-- Entering the region: the scratch rows come out of the core's scoped buffers, at anything. -/
theorem inv_in (c : Dev nD) :
    iprop(Pipeline.scopedRest (Ix := Unit) (Name := ℕ) (U := Pipeline.UD sig nD τ) (Lvl := ℕ) (Val := Elt F) spec9 c ∗ ∃ r, prngReg c r)
      ⊢ inv V c 0 := by
  rw [scopedRest9_split]; unfold inv; simp only [owns_whole]
  iintro ⟨⟨⟨⟨%f0, H0⟩, ⟨%f1, H1⟩⟩, Hrest⟩, Hg⟩
  isplitl [H0 H1]
  · iexists f0, f1
    isplitl [H0]; · iexact H0
    isplitl [H1]; · iexact H1
    ipureintro; intro h; exact absurd rfl h
  isplitl [Hrest]; · iexact Hrest
  iexact Hg

/-- Leaving it: they go back, their contents forgotten. -/
theorem inv_out (c : Dev nD) (n : ℕ) :
    inv V c n ⊢ iprop(Pipeline.scopedRest (Ix := Unit) (Name := ℕ) (U := Pipeline.UD sig nD τ) (Lvl := ℕ) (Val := Elt F) spec9 c ∗ ∃ r, prngReg c r) := by
  rw [scopedRest9_split]; unfold inv; simp only [owns_whole]
  iintro ⟨⟨%f0, %f1, H0, H1, -⟩, Hrest, Hg⟩
  isplitl [H0 H1 Hrest]
  · isplitl [H0 H1]
    · isplitl [H0]; · iexists f0; iexact H0
      iexists f1; iexact H1
    iexact Hrest
  iexact Hg

/-- The region's proof data on core c. -/
def dat (c : Dev nD) : Dat τ (Elt F) Unit ℕ (Pipeline.UD sig nD τ) ℕ cfg9 c where
  A w := V c (Pipeline.arrRef spec9 w)
  after w t := match w with
    | ⟨0, _⟩ => blk V c 0 t
    | ⟨1, _⟩ => sumTo V c (t.val + 1)
    | ⟨2, _⟩ => sqTo V c (t.val + 1)
  Φ j := inv V c j.val
  q _ := fullShare
  owed _ := 0

theorem dat_A (c : Dev nD) (w : Fin cfg9.W) : (dat V c).A w = V c (Pipeline.arrRef spec9 w) := by dsimp only [dat]
theorem after0 (c : Dev nD) (t : Fin cfg9.N) : (dat V c).after 0 t = blk V c 0 t := by dsimp only [dat]
theorem after1 (c : Dev nD) (t : Fin cfg9.N) : (dat V c).after 1 t = sumTo V c (t.val + 1) := by dsimp only [dat]
theorem after2 (c : Dev nD) (t : Fin cfg9.N) : (dat V c).after 2 t = sqTo V c (t.val + 1) := by dsimp only [dat]
theorem before0 (c : Dev nD) (t : Fin cfg9.N) (d) : (dat V c).before 0 t d = blk V c 0 t :=
  held0 V (dat V c) (dat_A V c 0) (after0 V c) t d

/-- What the body is called with at point t, -/
def pre (c : Dev nD) (t : Fin cfg9.N) : sProp 𝕄 :=
  iprop((dat V c).Φ t.castSucc ∗ (dat V c).owesAt () t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d)))

/-- what it returns at a point other than the last (the output rows as they were found), -/
def postKept (c : Dev nD) (t : Fin cfg9.N) : sProp 𝕄 :=
  iprop((dat V c).Φ t.succ ∗ (dat V c).owesAt () t.succ
    ∗ owns (c : Thread nD τ) (st9_0 t) fullShare ((dat V c).after 0 t)
    ∗ (∃ d, owns (c : Thread nD τ) (st9_1 t) fullShare ((dat V c).before 1 t d))
    ∗ (∃ d, owns (c : Thread nD τ) (st9_2 t) fullShare ((dat V c).before 2 t d)))

/-- and what it returns at the last point (the output rows at the totals). -/
def postLast (c : Dev nD) (t : Fin cfg9.N) : sProp 𝕄 :=
  iprop((dat V c).Φ t.succ ∗ (dat V c).owesAt () t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t))

/-- The body at a point other than the last: the first point resets the scratch rows, every point adds its block. -/
theorem soundKept (c : Dev nD) (t : Fin cfg9.N) (hl : t.val ≠ 24) :
    pre V c t ⊢ wp frame (wpE (defs₀ (F := F)) Variants.none c none) Set.univ (bodyAt9 t) (fun _ => postKept V c t) := by
  unfold pre postKept bodyAt9
  simp only [before0]
  rw [show (dat V c).Φ t.castSucc = inv V c t.val from rfl, show (dat V c).Φ t.succ = inv V c (t.val + 1) from rfl,
    show (dat V c).owesAt () t.succ = (dat V c).owesAt () t.castSucc from rfl, after0]
  unfold inv
  iintro ⟨⟨⟨%s, %q, Hs, Hq, %hsq⟩, Hrest, Hg⟩, Ho, ⟨%d0, H0⟩, ⟨%d1, H1⟩, ⟨%d2, H2⟩⟩
  have hnl : ¬ k9_cond2 (grid9.coords t) = 1#1 := fun h => hl ((last_iff t).mp h)
  by_cases h0 : t.val = 0
  · iapply (first c Set.univ (grid9.coords t) ((first_iff t).mpr h0) hnl _ _ _ _ _ _ _ _ _ _ (blk V c 0 t) s q _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨by rw [sumTo_succ, h0]; rfl, by rw [sqTo_succ, h0]; rfl⟩
      isplitl [Hrest]; · iexact Hrest
      iexact Hg
    isplitl [Ho]; · iexact Ho
    isplitl [H0]; · iexact H0
    isplitl [H1]; · iexists _; iexact H1
    iexists _; iexact H2
  · obtain ⟨rfl, rfl⟩ := hsq h0
    iapply (middle c Set.univ (grid9.coords t) (fun h => h0 ((first_iff t).mp h)) hnl _ _ _ _ _ _ _ _ _ _ (blk V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨(sumTo_succ V c t).symm, (sqTo_succ V c t).symm⟩
      isplitl [Hrest]; · iexact Hrest
      iexact Hg
    isplitl [Ho]; · iexact Ho
    isplitl [H0]; · iexact H0
    isplitl [H1]; · iexists _; iexact H1
    iexists _; iexact H2

/-- The body at the last point: its block is added and the totals go to the output rows. -/
theorem soundLast (c : Dev nD) (t : Fin cfg9.N) (hl : t.val = 24) :
    pre V c t ⊢ wp frame (wpE (defs₀ (F := F)) Variants.none c none) Set.univ (bodyAt9 t) (fun _ => postLast V c t) := by
  unfold pre postLast bodyAt9
  simp only [before0]
  rw [show (dat V c).Φ t.castSucc = inv V c t.val from rfl, show (dat V c).Φ t.succ = inv V c (t.val + 1) from rfl,
    show (dat V c).owesAt () t.succ = (dat V c).owesAt () t.castSucc from rfl, after0, after1, after2]
  unfold inv
  iintro ⟨⟨⟨%s, %q, Hs, Hq, %hsq⟩, Hrest, Hg⟩, Ho, ⟨%d0, H0⟩, ⟨%d1, H1⟩, ⟨%d2, H2⟩⟩
  have h0 : t.val ≠ 0 := by omega
  obtain ⟨rfl, rfl⟩ := hsq h0
  iapply (last c Set.univ (grid9.coords t) (fun h => h0 ((first_iff t).mp h)) ((last_iff t).mpr hl) _ _ _ _ _ _ _ _ _ _ (blk V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  rw [sumTo_succ, sqTo_succ]
  isplitl [Hs Hq Hrest Hg]
  · isplitl [Hs Hq]
    · iexists _, _
      isplitl [Hs]; · iexact Hs
      isplitl [Hq]; · iexact Hq
      ipureintro; intro _
      exact ⟨rfl, rfl⟩
    isplitl [Hrest]; · iexact Hrest
    iexact Hg
  isplitl [Ho]; · iexact Ho
  isplitl [H0]; · iexact H0
  isplitl [H1]; · iexact H1
  iexact H2

/-- The pipeline's body obligation, at every point: the output rows count as untouched except at the last point,
    which is also the only point that writes them back. -/
theorem obligation (c : Dev nD) : BodyObligation (dat (F := F) V c) (defs₀ (F := F)) Variants.none () Set.univ := fun t => by
  rw [bigSep_W9, bigSep_W9]
  by_cases hl : t.val = 24
  · have hc : k9_cond2 (grid9.coords t) = 1#1 := (last_iff t).mpr hl
    have hi1 : idle9 1 (grid9.coords t) = false := by
      show (!(k9_cond2 (grid9.coords t) == 1#1)) = false
      rw [hc]; rfl
    have hi2 : idle9 2 (grid9.coords t) = false := by
      show (!(k9_cond2 (grid9.coords t) == 1#1)) = false
      rw [hc]; rfl
    simp only [hi1, hi2]
    exact soundLast V c t hl
  · have hc : ¬ k9_cond2 (grid9.coords t) = 1#1 := fun h => hl ((last_iff t).mp h)
    have hi1 : idle9 1 (grid9.coords t) = true := by
      show (!(k9_cond2 (grid9.coords t) == 1#1)) = true
      simp only [beq_iff_eq, hc, Bool.not_eq_true', Bool.not_false, decide_false, beq_eq_false_iff_ne, ne_eq, not_false_eq_true]
    have hi2 : idle9 2 (grid9.coords t) = true := by
      show (!(k9_cond2 (grid9.coords t) == 1#1)) = true
      simp only [beq_iff_eq, hc, Bool.not_eq_true', Bool.not_false, decide_false, beq_eq_false_iff_ne, ne_eq, not_false_eq_true]
    have hf1 : (cfg9.win 1).flush t = false := by
      have := flush9_1 t; have hm : ¬ t.val % 25 = 24 := by have := t.isLt; have : cfg9.N = 25 := N_9; omega
      exact Bool.eq_false_iff.mpr fun h => hm (this.mp h)
    have hf2 : (cfg9.win 2).flush t = false := by
      have := flush9_2 t; have hm : ¬ t.val % 25 = 24 := by have := t.isLt; have : cfg9.N = 25 := N_9; omega
      exact Bool.eq_false_iff.mpr fun h => hm (this.mp h)
    simp only [hi1, hi2, hf1, hf2]
    exact soundKept V c t hl

end Cert.KernelIdeal.R9

end
-- ==== Proof.Region10.lean ====
/-
  Batch normalisation applied to a block of 2000 node rows: (row - mean) times the inverse standard deviation times the scale plus the shift, the four 1 x 256 rows repeated down the block (and, in the layers that have it, clipped below at zero).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R10

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S1x256 .f32) (x2 : Vec F S1x256 .f32) (x3 : Vec F S1x256 .f32) (x4 : Vec F S1x256 .f32) : Vec F S2000x256 .f32 :=
  View.canon [⟨rO, k10_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid10.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc10__bn_norm_kernel i arg1 harg1 arg2 harg2 arg3 harg3 arg4 harg4 arg5 harg5 arg6 harg6) K := by
  simp only [cc10__bn_norm_kernel_eq_skeleton]; unfold cc10__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's buffer holds its block at every point, fetched there or not: a point that does not fetch finds
    the same block index as the point before, and the body left the block in place. -/
theorem held0 {c : Dev nD} (dat : Dat τ (Elt F) Unit ℕ (Pipeline.UD sig nD τ) ℕ cfg10 c) (hA : dat.A 0 = V c (Pipeline.arrRef spec10 0))
    (hafter : ∀ t, dat.after 0 t = blk V c 0 t) (t : Fin cfg10.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg10 c) (hA : dat.A 1 = V c (Pipeline.arrRef spec10 1))
    (hafter : ∀ t, dat.after 1 t = blk V c 1 t) (t : Fin cfg10.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg10 c) (hA : dat.A 2 = V c (Pipeline.arrRef spec10 2))
    (hafter : ∀ t, dat.after 2 t = blk V c 2 t) (t : Fin cfg10.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg10 c) (hA : dat.A 3 = V c (Pipeline.arrRef spec10 3))
    (hafter : ∀ t, dat.after 3 t = blk V c 3 t) (t : Fin cfg10.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg10 c) (hA : dat.A 4 = V c (Pipeline.arrRef spec10 4))
    (hafter : ∀ t, dat.after 4 t = blk V c 4 t) (t : Fin cfg10.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg10 c where
  A w := V c (Pipeline.arrRef spec10 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec10 c
  q _ := fullShare
  owed _ := 0

theorem dat_A (c : Dev nD) (w : Fin cfg10.W) : (dat V c).A w = V c (Pipeline.arrRef spec10 w) := by dsimp only [dat]
theorem after0 (c : Dev nD) (t : Fin cfg10.N) : (dat V c).after 0 t = blk V c 0 t := by dsimp only [dat]
theorem after1 (c : Dev nD) (t : Fin cfg10.N) : (dat V c).after 1 t = blk V c 1 t := by dsimp only [dat]
theorem after2 (c : Dev nD) (t : Fin cfg10.N) : (dat V c).after 2 t = blk V c 2 t := by dsimp only [dat]
theorem after3 (c : Dev nD) (t : Fin cfg10.N) : (dat V c).after 3 t = blk V c 3 t := by dsimp only [dat]
theorem after4 (c : Dev nD) (t : Fin cfg10.N) : (dat V c).after 4 t = blk V c 4 t := by dsimp only [dat]
theorem after5 (c : Dev nD) (t : Fin cfg10.N) : (dat V c).after 5 t = out (blk V c 0 t) (blk V c 1 t) (blk V c 2 t) (blk V c 3 t) (blk V c 4 t) := by dsimp only [dat]
theorem before0 (c : Dev nD) (t : Fin cfg10.N) (d) : (dat V c).before 0 t d = blk V c 0 t :=
  held0 V (dat V c) (dat_A V c 0) (after0 V c) t d
theorem before1 (c : Dev nD) (t : Fin cfg10.N) (d) : (dat V c).before 1 t d = blk V c 1 t :=
  held1 V (dat V c) (dat_A V c 1) (after1 V c) t d
theorem before2 (c : Dev nD) (t : Fin cfg10.N) (d) : (dat V c).before 2 t d = blk V c 2 t :=
  held2 V (dat V c) (dat_A V c 2) (after2 V c) t d
theorem before3 (c : Dev nD) (t : Fin cfg10.N) (d) : (dat V c).before 3 t d = blk V c 3 t :=
  held3 V (dat V c) (dat_A V c 3) (after3 V c) t d
theorem before4 (c : Dev nD) (t : Fin cfg10.N) (d) : (dat V c).before 4 t d = blk V c 4 t :=
  held4 V (dat V c) (dat_A V c 4) (after4 V c) t d

/-- What the body is called with at point t: the invariant, the core's dues, and each window's current buffer, -/
def pre (c : Dev nD) (t : Fin cfg10.N) : sProp 𝕄 :=
  iprop((dat V c).Φ t.castSucc ∗ (dat V c).owesAt () t.castSucc
    ∗ (∃ d, owns (c : Thread nD τ) (st10_0 t) fullShare ((dat V c).before 0 t d))
    ∗ (∃ d, owns (c : Thread nD τ) (st10_1 t) fullShare ((dat V c).before 1 t d))
    ∗ (∃ d, owns (c : Thread nD τ) (st10_2 t) fullShare ((dat V c).before 2 t d))
    ∗ (∃ d, owns (c : Thread nD τ) (st10_3 t) fullShare ((dat V c).before 3 t d))
    ∗ (∃ d, owns (c : Thread nD τ) (st10_4 t) fullShare ((dat V c).before 4 t d))
    ∗ (∃ d, owns (c : Thread nD τ) (st10_5 t) fullShare ((dat V c).before 5 t d)))

/-- and what it returns. -/
def post (c : Dev nD) (t : Fin cfg10.N) : sProp 𝕄 :=
  iprop((dat V c).Φ t.succ ∗ (dat V c).owesAt () t.succ
    ∗ owns (c : Thread nD τ) (st10_0 t) fullShare ((dat V c).after 0 t)
    ∗ owns (c : Thread nD τ) (st10_1 t) fullShare ((dat V c).after 1 t)
    ∗ owns (c : Thread nD τ) (st10_2 t) fullShare ((dat V c).after 2 t)
    ∗ owns (c : Thread nD τ) (st10_3 t) fullShare ((dat V c).after 3 t)
    ∗ owns (c : Thread nD τ) (st10_4 t) fullShare ((dat V c).after 4 t)
    ∗ owns (c : Thread nD τ) (st10_5 t) fullShare ((dat V c).after 5 t))

/-- The body at any point: the inputs' buffers hold their blocks, so the body's triple applies; the invariant and the
    core's dues pass through untouched. -/
theorem soundBody (c : Dev nD) (t : Fin cfg10.N) :
    pre V c t ⊢ wp frame (wpE (defs₀ (F := F)) Variants.none c none) Set.univ (bodyAt10 t) (fun _ => post V c t) := by
  unfold pre post bodyAt10
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid10.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation (c : Dev nD) : BodyObligation (dat (F := F) V c) (defs₀ (F := F)) Variants.none () Set.univ := fun t => by
  rw [bigSep_W10, bigSep_W10]
  exact soundBody V c t

end Cert.KernelIdeal.R10

end
-- ==== Proof.Region11.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k11_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid11.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc11__mlp_kernel i arg1 harg1 arg2 harg2 arg3 harg3 arg4 harg4 arg5 harg5 arg6 harg6 arg7 harg7) K := by
  simp only [cc11__mlp_kernel_eq_skeleton]; unfold cc11__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's buffer holds its block at every point, fetched there or not: a point that does not fetch finds
    the same block index as the point before, and the body left the block in place. -/
theorem held0 {c : Dev nD} (dat : Dat τ (Elt F) Unit ℕ (Pipeline.UD sig nD τ) ℕ cfg11 c) (hA : dat.A 0 = V c (Pipeline.arrRef spec11 0))
    (hafter : ∀ t, dat.after 0 t = blk V c 0 t) (t : Fin cfg11.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg11 c) (hA : dat.A 1 = V c (Pipeline.arrRef spec11 1))
    (hafter : ∀ t, dat.after 1 t = blk V c 1 t) (t : Fin cfg11.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg11 c) (hA : dat.A 2 = V c (Pipeline.arrRef spec11 2))
    (hafter : ∀ t, dat.after 2 t = blk V c 2 t) (t : Fin cfg11.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg11 c) (hA : dat.A 3 = V c (Pipeline.arrRef spec11 3))
    (hafter : ∀ t, dat.after 3 t = blk V c 3 t) (t : Fin cfg11.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg11 c) (hA : dat.A 4 = V c (Pipeline.arrRef spec11 4))
    (hafter : ∀ t, dat.after 4 t = blk V c 4 t) (t : Fin cfg11.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg11 c) (hA : dat.A 5 = V c (Pipeline.arrRef spec11 5))
    (hafter : ∀ t, dat.after 5 t = blk V c 5 t) (t : Fin cfg11.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg11 c where
  A w := V c (Pipeline.arrRef spec11 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec11 c
  q _ := fullShare
  owed _ := 0

theorem dat_A (c : Dev nD) (w : Fin cfg11.W) : (dat V c).A w = V c (Pipeline.arrRef spec11 w) := by dsimp only [dat]
theorem after0 (c : Dev nD) (t : Fin cfg11.N) : (dat V c).after 0 t = blk V c 0 t := by dsimp only [dat]
theorem after1 (c : Dev nD) (t : Fin cfg11.N) : (dat V c).after 1 t = blk V c 1 t := by dsimp only [dat]
theorem after2 (c : Dev nD) (t : Fin cfg11.N) : (dat V c).after 2 t = blk V c 2 t := by dsimp only [dat]
theorem after3 (c : Dev nD) (t : Fin cfg11.N) : (dat V c).after 3 t = blk V c 3 t := by dsimp only [dat]
theorem after4 (c : Dev nD) (t : Fin cfg11.N) : (dat V c).after 4 t = blk V c 4 t := by dsimp only [dat]
theorem after5 (c : Dev nD) (t : Fin cfg11.N) : (dat V c).after 5 t = blk V c 5 t := by dsimp only [dat]
theorem after6 (c : Dev nD) (t : Fin cfg11.N) : (dat V c).after 6 t = out (blk V c 0 t) (blk V c 1 t) (blk V c 2 t) (blk V c 3 t) (blk V c 4 t) (blk V c 5 t) := by dsimp only [dat]
theorem before0 (c : Dev nD) (t : Fin cfg11.N) (d) : (dat V c).before 0 t d = blk V c 0 t :=
  held0 V (dat V c) (dat_A V c 0) (after0 V c) t d
theorem before1 (c : Dev nD) (t : Fin cfg11.N) (d) : (dat V c).before 1 t d = blk V c 1 t :=
  held1 V (dat V c) (dat_A V c 1) (after1 V c) t d
theorem before2 (c : Dev nD) (t : Fin cfg11.N) (d) : (dat V c).before 2 t d = blk V c 2 t :=
  held2 V (dat V c) (dat_A V c 2) (after2 V c) t d
theorem before3 (c : Dev nD) (t : Fin cfg11.N) (d) : (dat V c).before 3 t d = blk V c 3 t :=
  held3 V (dat V c) (dat_A V c 3) (after3 V c) t d
theorem before4 (c : Dev nD) (t : Fin cfg11.N) (d) : (dat V c).before 4 t d = blk V c 4 t :=
  held4 V (dat V c) (dat_A V c 4) (after4 V c) t d
theorem before5 (c : Dev nD) (t : Fin cfg11.N) (d) : (dat V c).before 5 t d = blk V c 5 t :=
  held5 V (dat V c) (dat_A V c 5) (after5 V c) t d

/-- What the body is called with at point t: the invariant, the core's dues, and each window's current buffer, -/
def pre (c : Dev nD) (t : Fin cfg11.N) : sProp 𝕄 :=
  iprop((dat V c).Φ t.castSucc ∗ (dat V c).owesAt () t.castSucc
    ∗ (∃ d, owns (c : Thread nD τ) (st11_0 t) fullShare ((dat V c).before 0 t d))
    ∗ (∃ d, owns (c : Thread nD τ) (st11_1 t) fullShare ((dat V c).before 1 t d))
    ∗ (∃ d, owns (c : Thread nD τ) (st11_2 t) fullShare ((dat V c).before 2 t d))
    ∗ (∃ d, owns (c : Thread nD τ) (st11_3 t) fullShare ((dat V c).before 3 t d))
    ∗ (∃ d, owns (c : Thread nD τ) (st11_4 t) fullShare ((dat V c).before 4 t d))
    ∗ (∃ d, owns (c : Thread nD τ) (st11_5 t) fullShare ((dat V c).before 5 t d))
    ∗ (∃ d, owns (c : Thread nD τ) (st11_6 t) fullShare ((dat V c).before 6 t d)))

/-- and what it returns. -/
def post (c : Dev nD) (t : Fin cfg11.N) : sProp 𝕄 :=
  iprop((dat V c).Φ t.succ ∗ (dat V c).owesAt () t.succ
    ∗ owns (c : Thread nD τ) (st11_0 t) fullShare ((dat V c).after 0 t)
    ∗ owns (c : Thread nD τ) (st11_1 t) fullShare ((dat V c).after 1 t)
    ∗ owns (c : Thread nD τ) (st11_2 t) fullShare ((dat V c).after 2 t)
    ∗ owns (c : Thread nD τ) (st11_3 t) fullShare ((dat V c).after 3 t)
    ∗ owns (c : Thread nD τ) (st11_4 t) fullShare ((dat V c).after 4 t)
    ∗ owns (c : Thread nD τ) (st11_5 t) fullShare ((dat V c).after 5 t)
    ∗ owns (c : Thread nD τ) (st11_6 t) fullShare ((dat V c).after 6 t))

/-- The body at any point: the inputs' buffers hold their blocks, so the body's triple applies; the invariant and the
    core's dues pass through untouched. -/
theorem soundBody (c : Dev nD) (t : Fin cfg11.N) :
    pre V c t ⊢ wp frame (wpE (defs₀ (F := F)) Variants.none c none) Set.univ (bodyAt11 t) (fun _ => post V c t) := by
  unfold pre post bodyAt11
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid11.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W11, bigSep_W11]
  exact soundBody V c t

end Cert.KernelIdeal.R11

end
-- ==== Proof.Region12.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R12

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k12_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid12.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc12__mlp_kernel i arg1 harg1 arg2 harg2 arg3 harg3 arg4 harg4 arg5 harg5 arg6 harg6 arg7 harg7) K := by
  simp only [cc12__mlp_kernel_eq_skeleton]; unfold cc12__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's buffer holds its block at every point, fetched there or not: a point that does not fetch finds
    the same block index as the point before, and the body left the block in place. -/
theorem held0 {c : Dev nD} (dat : Dat τ (Elt F) Unit ℕ (Pipeline.UD sig nD τ) ℕ cfg12 c) (hA : dat.A 0 = V c (Pipeline.arrRef spec12 0))
    (hafter : ∀ t, dat.after 0 t = blk V c 0 t) (t : Fin cfg12.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg12 c) (hA : dat.A 1 = V c (Pipeline.arrRef spec12 1))
    (hafter : ∀ t, dat.after 1 t = blk V c 1 t) (t : Fin cfg12.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg12 c) (hA : dat.A 2 = V c (Pipeline.arrRef spec12 2))
    (hafter : ∀ t, dat.after 2 t = blk V c 2 t) (t : Fin cfg12.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg12 c) (hA : dat.A 3 = V c (Pipeline.arrRef spec12 3))
    (hafter : ∀ t, dat.after 3 t = blk V c 3 t) (t : Fin cfg12.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg12 c) (hA : dat.A 4 = V c (Pipeline.arrRef spec12 4))
    (hafter : ∀ t, dat.after 4 t = blk V c 4 t) (t : Fin cfg12.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg12 c) (hA : dat.A 5 = V c (Pipeline.arrRef spec12 5))
    (hafter : ∀ t, dat.after 5 t = blk V c 5 t) (t : Fin cfg12.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg12 c where
  A w := V c (Pipeline.arrRef spec12 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec12 c
  q _ := fullShare
  owed _ := 0

theorem dat_A (c : Dev nD) (w : Fin cfg12.W) : (dat V c).A w = V c (Pipeline.arrRef spec12 w) := by dsimp only [dat]
theorem after0 (c : Dev nD) (t : Fin cfg12.N) : (dat V c).after 0 t = blk V c 0 t := by dsimp only [dat]
theorem after1 (c : Dev nD) (t : Fin cfg12.N) : (dat V c).after 1 t = blk V c 1 t := by dsimp only [dat]
theorem after2 (c : Dev nD) (t : Fin cfg12.N) : (dat V c).after 2 t = blk V c 2 t := by dsimp only [dat]
theorem after3 (c : Dev nD) (t : Fin cfg12.N) : (dat V c).after 3 t = blk V c 3 t := by dsimp only [dat]
theorem after4 (c : Dev nD) (t : Fin cfg12.N) : (dat V c).after 4 t = blk V c 4 t := by dsimp only [dat]
theorem after5 (c : Dev nD) (t : Fin cfg12.N) : (dat V c).after 5 t = blk V c 5 t := by dsimp only [dat]
theorem after6 (c : Dev nD) (t : Fin cfg12.N) : (dat V c).after 6 t = out (blk V c 0 t) (blk V c 1 t) (blk V c 2 t) (blk V c 3 t) (blk V c 4 t) (blk V c 5 t) := by dsimp only [dat]
theorem before0 (c : Dev nD) (t : Fin cfg12.N) (d) : (dat V c).before 0 t d = blk V c 0 t :=
  held0 V (dat V c) (dat_A V c 0) (after0 V c) t d
theorem before1 (c : Dev nD) (t : Fin cfg12.N) (d) : (dat V c).before 1 t d = blk V c 1 t :=
  held1 V (dat V c) (dat_A V c 1) (after1 V c) t d
theorem before2 (c : Dev nD) (t : Fin cfg12.N) (d) : (dat V c).before 2 t d = blk V c 2 t :=
  held2 V (dat V c) (dat_A V c 2) (after2 V c) t d
theorem before3 (c : Dev nD) (t : Fin cfg12.N) (d) : (dat V c).before 3 t d = blk V c 3 t :=
  held3 V (dat V c) (dat_A V c 3) (after3 V c) t d
theorem before4 (c : Dev nD) (t : Fin cfg12.N) (d) : (dat V c).before 4 t d = blk V c 4 t :=
  held4 V (dat V c) (dat_A V c 4) (after4 V c) t d
theorem before5 (c : Dev nD) (t : Fin cfg12.N) (d) : (dat V c).before 5 t d = blk V c 5 t :=
  held5 V (dat V c) (dat_A V c 5) (after5 V c) t d

/-- What the body is called with at point t: the invariant, the core's dues, and each window's current buffer, -/
def pre (c : Dev nD) (t : Fin cfg12.N) : sProp 𝕄 :=
  iprop((dat V c).Φ t.castSucc ∗ (dat V c).owesAt () t.castSucc
    ∗ (∃ d, owns (c : Thread nD τ) (st12_0 t) fullShare ((dat V c).before 0 t d))
    ∗ (∃ d, owns (c : Thread nD τ) (st12_1 t) fullShare ((dat V c).before 1 t d))
    ∗ (∃ d, owns (c : Thread nD τ) (st12_2 t) fullShare ((dat V c).before 2 t d))
    ∗ (∃ d, owns (c : Thread nD τ) (st12_3 t) fullShare ((dat V c).before 3 t d))
    ∗ (∃ d, owns (c : Thread nD τ) (st12_4 t) fullShare ((dat V c).before 4 t d))
    ∗ (∃ d, owns (c : Thread nD τ) (st12_5 t) fullShare ((dat V c).before 5 t d))
    ∗ (∃ d, owns (c : Thread nD τ) (st12_6 t) fullShare ((dat V c).before 6 t d)))

/-- and what it returns. -/
def post (c : Dev nD) (t : Fin cfg12.N) : sProp 𝕄 :=
  iprop((dat V c).Φ t.succ ∗ (dat V c).owesAt () t.succ
    ∗ owns (c : Thread nD τ) (st12_0 t) fullShare ((dat V c).after 0 t)
    ∗ owns (c : Thread nD τ) (st12_1 t) fullShare ((dat V c).after 1 t)
    ∗ owns (c : Thread nD τ) (st12_2 t) fullShare ((dat V c).after 2 t)
    ∗ owns (c : Thread nD τ) (st12_3 t) fullShare ((dat V c).after 3 t)
    ∗ owns (c : Thread nD τ) (st12_4 t) fullShare ((dat V c).after 4 t)
    ∗ owns (c : Thread nD τ) (st12_5 t) fullShare ((dat V c).after 5 t)
    ∗ owns (c : Thread nD τ) (st12_6 t) fullShare ((dat V c).after 6 t))

/-- The body at any point: the inputs' buffers hold their blocks, so the body's triple applies; the invariant and the
    core's dues pass through untouched. -/
theorem soundBody (c : Dev nD) (t : Fin cfg12.N) :
    pre V c t ⊢ wp frame (wpE (defs₀ (F := F)) Variants.none c none) Set.univ (bodyAt12 t) (fun _ => post V c t) := by
  unfold pre post bodyAt12
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid12.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W12, bigSep_W12]
  exact soundBody V c t

end Cert.KernelIdeal.R12

end
-- ==== Proof.Region13.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R13

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k13_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid13.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc13__mlp_kernel i arg1 harg1 arg2 harg2 arg3 harg3 arg4 harg4 arg5 harg5 arg6 harg6 arg7 harg7) K := by
  simp only [cc13__mlp_kernel_eq_skeleton]; unfold cc13__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's buffer holds its block at every point, fetched there or not: a point that does not fetch finds
    the same block index as the point before, and the body left the block in place. -/
theorem held0 {c : Dev nD} (dat : Dat τ (Elt F) Unit ℕ (Pipeline.UD sig nD τ) ℕ cfg13 c) (hA : dat.A 0 = V c (Pipeline.arrRef spec13 0))
    (hafter : ∀ t, dat.after 0 t = blk V c 0 t) (t : Fin cfg13.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg13 c) (hA : dat.A 1 = V c (Pipeline.arrRef spec13 1))
    (hafter : ∀ t, dat.after 1 t = blk V c 1 t) (t : Fin cfg13.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg13 c) (hA : dat.A 2 = V c (Pipeline.arrRef spec13 2))
    (hafter : ∀ t, dat.after 2 t = blk V c 2 t) (t : Fin cfg13.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg13 c) (hA : dat.A 3 = V c (Pipeline.arrRef spec13 3))
    (hafter : ∀ t, dat.after 3 t = blk V c 3 t) (t : Fin cfg13.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg13 c) (hA : dat.A 4 = V c (Pipeline.arrRef spec13 4))
    (hafter : ∀ t, dat.after 4 t = blk V c 4 t) (t : Fin cfg13.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg13 c) (hA : dat.A 5 = V c (Pipeline.arrRef spec13 5))
    (hafter : ∀ t, dat.after 5 t = blk V c 5 t) (t : Fin cfg13.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg13 c where
  A w := V c (Pipeline.arrRef spec13 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec13 c
  q _ := fullShare
  owed _ := 0

theorem dat_A (c : Dev nD) (w : Fin cfg13.W) : (dat V c).A w = V c (Pipeline.arrRef spec13 w) := by dsimp only [dat]
theorem after0 (c : Dev nD) (t : Fin cfg13.N) : (dat V c).after 0 t = blk V c 0 t := by dsimp only [dat]
theorem after1 (c : Dev nD) (t : Fin cfg13.N) : (dat V c).after 1 t = blk V c 1 t := by dsimp only [dat]
theorem after2 (c : Dev nD) (t : Fin cfg13.N) : (dat V c).after 2 t = blk V c 2 t := by dsimp only [dat]
theorem after3 (c : Dev nD) (t : Fin cfg13.N) : (dat V c).after 3 t = blk V c 3 t := by dsimp only [dat]
theorem after4 (c : Dev nD) (t : Fin cfg13.N) : (dat V c).after 4 t = blk V c 4 t := by dsimp only [dat]
theorem after5 (c : Dev nD) (t : Fin cfg13.N) : (dat V c).after 5 t = blk V c 5 t := by dsimp only [dat]
theorem after6 (c : Dev nD) (t : Fin cfg13.N) : (dat V c).after 6 t = out (blk V c 0 t) (blk V c 1 t) (blk V c 2 t) (blk V c 3 t) (blk V c 4 t) (blk V c 5 t) := by dsimp only [dat]
theorem before0 (c : Dev nD) (t : Fin cfg13.N) (d) : (dat V c).before 0 t d = blk V c 0 t :=
  held0 V (dat V c) (dat_A V c 0) (after0 V c) t d
theorem before1 (c : Dev nD) (t : Fin cfg13.N) (d) : (dat V c).before 1 t d = blk V c 1 t :=
  held1 V (dat V c) (dat_A V c 1) (after1 V c) t d
theorem before2 (c : Dev nD) (t : Fin cfg13.N) (d) : (dat V c).before 2 t d = blk V c 2 t :=
  held2 V (dat V c) (dat_A V c 2) (after2 V c) t d
theorem before3 (c : Dev nD) (t : Fin cfg13.N) (d) : (dat V c).before 3 t d = blk V c 3 t :=
  held3 V (dat V c) (dat_A V c 3) (after3 V c) t d
theorem before4 (c : Dev nD) (t : Fin cfg13.N) (d) : (dat V c).before 4 t d = blk V c 4 t :=
  held4 V (dat V c) (dat_A V c 4) (after4 V c) t d
theorem before5 (c : Dev nD) (t : Fin cfg13.N) (d) : (dat V c).before 5 t d = blk V c 5 t :=
  held5 V (dat V c) (dat_A V c 5) (after5 V c) t d

/-- What the body is called with at point t: the invariant, the core's dues, and each window's current buffer, -/
def pre (c : Dev nD) (t : Fin cfg13.N) : sProp 𝕄 :=
  iprop((dat V c).Φ t.castSucc ∗ (dat V c).owesAt () t.castSucc
    ∗ (∃ d, owns (c : Thread nD τ) (st13_0 t) fullShare ((dat V c).before 0 t d))
    ∗ (∃ d, owns (c : Thread nD τ) (st13_1 t) fullShare ((dat V c).before 1 t d))
    ∗ (∃ d, owns (c : Thread nD τ) (st13_2 t) fullShare ((dat V c).before 2 t d))
    ∗ (∃ d, owns (c : Thread nD τ) (st13_3 t) fullShare ((dat V c).before 3 t d))
    ∗ (∃ d, owns (c : Thread nD τ) (st13_4 t) fullShare ((dat V c).before 4 t d))
    ∗ (∃ d, owns (c : Thread nD τ) (st13_5 t) fullShare ((dat V c).before 5 t d))
    ∗ (∃ d, owns (c : Thread nD τ) (st13_6 t) fullShare ((dat V c).before 6 t d)))

/-- and what it returns. -/
def post (c : Dev nD) (t : Fin cfg13.N) : sProp 𝕄 :=
  iprop((dat V c).Φ t.succ ∗ (dat V c).owesAt () t.succ
    ∗ owns (c : Thread nD τ) (st13_0 t) fullShare ((dat V c).after 0 t)
    ∗ owns (c : Thread nD τ) (st13_1 t) fullShare ((dat V c).after 1 t)
    ∗ owns (c : Thread nD τ) (st13_2 t) fullShare ((dat V c).after 2 t)
    ∗ owns (c : Thread nD τ) (st13_3 t) fullShare ((dat V c).after 3 t)
    ∗ owns (c : Thread nD τ) (st13_4 t) fullShare ((dat V c).after 4 t)
    ∗ owns (c : Thread nD τ) (st13_5 t) fullShare ((dat V c).after 5 t)
    ∗ owns (c : Thread nD τ) (st13_6 t) fullShare ((dat V c).after 6 t))

/-- The body at any point: the inputs' buffers hold their blocks, so the body's triple applies; the invariant and the
    core's dues pass through untouched. -/
theorem soundBody (c : Dev nD) (t : Fin cfg13.N) :
    pre V c t ⊢ wp frame (wpE (defs₀ (F := F)) Variants.none c none) Set.univ (bodyAt13 t) (fun _ => post V c t) := by
  unfold pre post bodyAt13
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid13.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W13, bigSep_W13]
  exact soundBody V c t

end Cert.KernelIdeal.R13

end
-- ==== Proof.Reduce14Body.lean ====
/-
  The column sums of a 50000 x 256 array and of its squares, block by block of 2000 rows. Two 1 x 256 scratch rows
  carry the running sums from one grid point to the next: at the first point they are reset to zero, at every point
  the block's column sums (of the entries, and of their squares) are added to them, and at the last point they are
  copied into the two output rows. Here: the body on whole buffers, in each of the three situations a point can be in
  (the first, the last, or neither; with 25 points the first is not the last).
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.R14

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A whole 1 x 256 row as a rectangle, and the origin of a rank-2 block. -/
abbrev rR : Rect S1x256 := Rect.unit (s := S1x256) ![0, 0] S1x256.size inb_S1x256_S1x256_0_0
theorem hz : (![0, 0] : Fin 2 → Nat) = fun _ => 0 := funext fun a => by fin_cases a <;> rfl

/-- One store of a whole row covers the row. -/
theorem cover (p : Vec F S1x256 .f32) (y : S1x256.Idx) :
    ∃ pc ∈ ([⟨rR, p⟩] : List (View.Piece (Elt F) S1x256 .f32)), y ∈ pc.1.set :=
  View.cover_of_tiled [⟨rR, p⟩] S1x256.size (by rfl) y

/-- A whole-row store at the head of a list of stores covers the row, whatever follows it. -/
theorem coverCons (p : Vec F S1x256 .f32) (L : List (View.Piece (Elt F) S1x256 .f32)) (y : S1x256.Idx) :
    ∃ pc ∈ ((⟨rR, p⟩ : View.Piece (Elt F) S1x256 .f32) :: L), y ∈ pc.1.set := by
  obtain ⟨pc, hm, hy⟩ := cover p y
  rw [List.mem_singleton] at hm
  exact ⟨pc, hm ▸ List.mem_cons_self, hy⟩

/-- The test "this is the first grid point", as the body computes it from the point's coordinate. -/
def isFirst (i : grid14.Coords) : BitVec 1 :=
  Scalar.cmpi .ne (Scalar.extui (Scalar.cmpi .eq (BitVec.ofNat 32 (i 0).val) 0#32) : BitVec 32) 0#32

/-- The running column sum after a block x, from the sum s before it; and the same for the squares. -/
abbrev addSum (x : Vec F S2000x256 .f32) (s : Vec F S1x256 .f32) : Vec F S1x256 .f32 := k14_pay4 x s
abbrev addSq (x : Vec F S2000x256 .f32) (q : Vec F S1x256 .f32) : Vec F S1x256 .f32 := k14_pay5 x q

set_option maxHeartbeats 1000000 in
/-- At the first point: whatever the scratch rows held, they end at the first block's sums from zero; the output rows are not touched. -/
theorem first (c : Dev nD) (E : Set ℕ) (i : grid14.Coords) (h1 : isFirst i = 1#1) (h2 : ¬ k14_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x k14_pay1) ∗ owns (c : Thread nD τ) arg5 fullShare (addSq x k14_pay2)) -∗ K ⟨⟩))
      ⊢ wp frame (wpE (defs₀ (F := F)) Variants.none c none) E (cc14__bn_reduce_kernel i arg1 harg1 arg2 harg2 arg3 harg3 arg4 harg4 arg5 harg5) K := by
  simp only [cc14__bn_reduce_kernel_eq_skeleton]; unfold cc14__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At a point that is neither first nor last: the block's sums are added to the scratch rows; the output rows are not touched. -/
theorem middle (c : Dev nD) (E : Set ℕ) (i : grid14.Coords) (h1 : ¬ isFirst i = 1#1) (h2 : ¬ k14_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x s) ∗ owns (c : Thread nD τ) arg5 fullShare (addSq x q)) -∗ K ⟨⟩))
      ⊢ wp frame (wpE (defs₀ (F := F)) Variants.none c none) E (cc14__bn_reduce_kernel i arg1 harg1 arg2 harg2 arg3 harg3 arg4 harg4 arg5 harg5) K := by
  simp only [cc14__bn_reduce_kernel_eq_skeleton]; unfold cc14__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At the last point: the block's sums are added to the scratch rows, and the totals are copied into the output rows. -/
theorem last (c : Dev nD) (E : Set ℕ) (i : grid14.Coords) (h1 : ¬ isFirst i = 1#1) (h2 : k14_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare (addSum x s) ∗ owns (c : Thread nD τ) arg3 fullShare (addSq x q)
            ∗ owns (c : Thread nD τ) arg4 fullShare (addSum x s) ∗ owns (c : Thread nD τ) arg5 fullShare (addSq x q)) -∗ K ⟨⟩))
      ⊢ wp frame (wpE (defs₀ (F := F)) Variants.none c none) E (cc14__bn_reduce_kernel i arg1 harg1 arg2 harg2 arg3 harg3 arg4 harg4 arg5 harg5) K := by
  simp only [cc14__bn_reduce_kernel_eq_skeleton]; unfold cc14__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

end Cert.KernelIdeal.R14

end
-- ==== Proof.Reduce14Region.lean ====
/-
  The proof data of the column-sum region. After the first n blocks the two scratch rows hold the column sums of the
  first 2000·n rows (`sumTo n`) and of their squares (`sqTo n`), built up from zero one block at a time. Between
  points the invariant keeps the two scratch rows: before the first point at anything, after point t at the sums over
  blocks 0 … t. The two output rows are left alone until the last point, where they receive the totals and are
  written back.
-/
import proofs.«162580_j71794673320191_1_alg».proof.Proof.Reduce14Body

set_option maxRecDepth 16384

noncomputable section

namespace Cert.KernelIdeal.R14

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The two tests in closed form over the 25 grid points. -/
theorem first_iff : ∀ t : Fin cfg14.N, isFirst (grid14.coords t) = 1#1 ↔ t.val = 0 :=
  (by decide +kernel : ∀ t : Fin grid14.N, isFirst (grid14.coords t) = 1#1 ↔ t.val = 0)
theorem last_iff : ∀ t : Fin cfg14.N, k14_cond2 (grid14.coords t) = 1#1 ↔ t.val = 24 :=
  (by decide +kernel : ∀ t : Fin grid14.N, k14_cond2 (grid14.coords t) = 1#1 ↔ t.val = 24)

variable (V : (c : Dev nD) → (b : Ref sig .tc) → Buf (Elt F) ((c : Thread nD τ).loc b))

/-- Window w's block at point t, read off its array as the region finds it. -/
def blk (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The input window's buffer holds its block at every point. -/
theorem held0 {c : Dev nD} (dat : Dat τ (Elt F) Unit ℕ (Pipeline.UD sig nD τ) ℕ cfg14 c) (hA : dat.A 0 = V c (Pipeline.arrRef spec14 0))
    (hafter : ∀ t, dat.after 0 t = blk V c 0 t) (t : Fin cfg14.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column sums over the first n blocks, from zero; and of the squares. -/
def sumTo (c : Dev nD) : ℕ → Vec F S1x256 .f32
  | 0 => k14_pay1
  | n + 1 => if h : n < cfg14.N then addSum (blk V c 0 ⟨n, h⟩) (sumTo c n) else sumTo c n
def sqTo (c : Dev nD) : ℕ → Vec F S1x256 .f32
  | 0 => k14_pay2
  | n + 1 => if h : n < cfg14.N then addSq (blk V c 0 ⟨n, h⟩) (sqTo c n) else sqTo c n

theorem sumTo_succ (c : Dev nD) (t : Fin cfg14.N) : sumTo V c (t.val + 1) = addSum (blk V c 0 t) (sumTo V c t.val) := by
  rw [sumTo, dif_pos t.isLt]
theorem sqTo_succ (c : Dev nD) (t : Fin cfg14.N) : sqTo V c (t.val + 1) = addSq (blk V c 0 t) (sqTo V c t.val) := by
  rw [sqTo, dif_pos t.isLt]

/-- What is kept between points: the two scratch rows — at the sums over the blocks done so far once a point has run —,
    the rest of the core's scoped buffers unopened, and the generator register. -/
def inv (c : Dev nD) (n : ℕ) : sProp 𝕄 :=
  iprop((∃ s q, owns (c : Thread nD τ) (Memref.whole cc14_scratch0 : Memref sig .tc .vmem S1x256 .f32) fullShare s ∗ owns (c : Thread nD τ) (Memref.whole cc14_scratch1 : Memref sig .tc .vmem S1x256 .f32) fullShare q ∗ ⌜n ≠ 0 → s = sumTo V c n ∧ q = sqTo V c n⌝)
    ∗ Pipeline.scopedRestBut (Ix := Unit) (Name := ℕ) (U := Pipeline.UD sig nD τ) (Lvl := ℕ) (Val := Elt F) spec14 c [cc14_scratch0, cc14_scratch1]
    ∗ ∃ r, prngReg c r)

/-- Entering the region: the scratch rows come out of the core's scoped buffers, at anything. -/
theorem inv_in (c : Dev nD) :
    iprop(Pipeline.scopedRest (Ix := Unit) (Name := ℕ) (U := Pipeline.UD sig nD τ) (Lvl := ℕ) (Val := Elt F) spec14 c ∗ ∃ r, prngReg c r)
      ⊢ inv V c 0 := by
  rw [scopedRest14_split]; unfold inv; simp only [owns_whole]
  iintro ⟨⟨⟨⟨%f0, H0⟩, ⟨%f1, H1⟩⟩, Hrest⟩, Hg⟩
  isplitl [H0 H1]
  · iexists f0, f1
    isplitl [H0]; · iexact H0
    isplitl [H1]; · iexact H1
    ipureintro; intro h; exact absurd rfl h
  isplitl [Hrest]; · iexact Hrest
  iexact Hg

/-- Leaving it: they go back, their contents forgotten. -/
theorem inv_out (c : Dev nD) (n : ℕ) :
    inv V c n ⊢ iprop(Pipeline.scopedRest (Ix := Unit) (Name := ℕ) (U := Pipeline.UD sig nD τ) (Lvl := ℕ) (Val := Elt F) spec14 c ∗ ∃ r, prngReg c r) := by
  rw [scopedRest14_split]; unfold inv; simp only [owns_whole]
  iintro ⟨⟨%f0, %f1, H0, H1, -⟩, Hrest, Hg⟩
  isplitl [H0 H1 Hrest]
  · isplitl [H0 H1]
    · isplitl [H0]; · iexists f0; iexact H0
      iexists f1; iexact H1
    iexact Hrest
  iexact Hg

/-- The region's proof data on core c. -/
def dat (c : Dev nD) : Dat τ (Elt F) Unit ℕ (Pipeline.UD sig nD τ) ℕ cfg14 c where
  A w := V c (Pipeline.arrRef spec14 w)
  after w t := match w with
    | ⟨0, _⟩ => blk V c 0 t
    | ⟨1, _⟩ => sumTo V c (t.val + 1)
    | ⟨2, _⟩ => sqTo V c (t.val + 1)
  Φ j := inv V c j.val
  q _ := fullShare
  owed _ := 0

theorem dat_A (c : Dev nD) (w : Fin cfg14.W) : (dat V c).A w = V c (Pipeline.arrRef spec14 w) := by dsimp only [dat]
theorem after0 (c : Dev nD) (t : Fin cfg14.N) : (dat V c).after 0 t = blk V c 0 t := by dsimp only [dat]
theorem after1 (c : Dev nD) (t : Fin cfg14.N) : (dat V c).after 1 t = sumTo V c (t.val + 1) := by dsimp only [dat]
theorem after2 (c : Dev nD) (t : Fin cfg14.N) : (dat V c).after 2 t = sqTo V c (t.val + 1) := by dsimp only [dat]
theorem before0 (c : Dev nD) (t : Fin cfg14.N) (d) : (dat V c).before 0 t d = blk V c 0 t :=
  held0 V (dat V c) (dat_A V c 0) (after0 V c) t d

/-- What the body is called with at point t, -/
def pre (c : Dev nD) (t : Fin cfg14.N) : sProp 𝕄 :=
  iprop((dat V c).Φ t.castSucc ∗ (dat V c).owesAt () t.castSucc
    ∗ (∃ d, owns (c : Thread nD τ) (st14_0 t) fullShare ((dat V c).before 0 t d))
    ∗ (∃ d, owns (c : Thread nD τ) (st14_1 t) fullShare ((dat V c).before 1 t d))
    ∗ (∃ d, owns (c : Thread nD τ) (st14_2 t) fullShare ((dat V c).before 2 t d)))

/-- what it returns at a point other than the last (the output rows as they were found), -/
def postKept (c : Dev nD) (t : Fin cfg14.N) : sProp 𝕄 :=
  iprop((dat V c).Φ t.succ ∗ (dat V c).owesAt () t.succ
    ∗ owns (c : Thread nD τ) (st14_0 t) fullShare ((dat V c).after 0 t)
    ∗ (∃ d, owns (c : Thread nD τ) (st14_1 t) fullShare ((dat V c).before 1 t d))
    ∗ (∃ d, owns (c : Thread nD τ) (st14_2 t) fullShare ((dat V c).before 2 t d)))

/-- and what it returns at the last point (the output rows at the totals). -/
def postLast (c : Dev nD) (t : Fin cfg14.N) : sProp 𝕄 :=
  iprop((dat V c).Φ t.succ ∗ (dat V c).owesAt () t.succ
    ∗ owns (c : Thread nD τ) (st14_0 t) fullShare ((dat V c).after 0 t)
    ∗ owns (c : Thread nD τ) (st14_1 t) fullShare ((dat V c).after 1 t)
    ∗ owns (c : Thread nD τ) (st14_2 t) fullShare ((dat V c).after 2 t))

/-- The body at a point other than the last: the first point resets the scratch rows, every point adds its block. -/
theorem soundKept (c : Dev nD) (t : Fin cfg14.N) (hl : t.val ≠ 24) :
    pre V c t ⊢ wp frame (wpE (defs₀ (F := F)) Variants.none c none) Set.univ (bodyAt14 t) (fun _ => postKept V c t) := by
  unfold pre postKept bodyAt14
  simp only [before0]
  rw [show (dat V c).Φ t.castSucc = inv V c t.val from rfl, show (dat V c).Φ t.succ = inv V c (t.val + 1) from rfl,
    show (dat V c).owesAt () t.succ = (dat V c).owesAt () t.castSucc from rfl, after0]
  unfold inv
  iintro ⟨⟨⟨%s, %q, Hs, Hq, %hsq⟩, Hrest, Hg⟩, Ho, ⟨%d0, H0⟩, ⟨%d1, H1⟩, ⟨%d2, H2⟩⟩
  have hnl : ¬ k14_cond2 (grid14.coords t) = 1#1 := fun h => hl ((last_iff t).mp h)
  by_cases h0 : t.val = 0
  · iapply (first c Set.univ (grid14.coords t) ((first_iff t).mpr h0) hnl _ _ _ _ _ _ _ _ _ _ (blk V c 0 t) s q _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨by rw [sumTo_succ, h0]; rfl, by rw [sqTo_succ, h0]; rfl⟩
      isplitl [Hrest]; · iexact Hrest
      iexact Hg
    isplitl [Ho]; · iexact Ho
    isplitl [H0]; · iexact H0
    isplitl [H1]; · iexists _; iexact H1
    iexists _; iexact H2
  · obtain ⟨rfl, rfl⟩ := hsq h0
    iapply (middle c Set.univ (grid14.coords t) (fun h => h0 ((first_iff t).mp h)) hnl _ _ _ _ _ _ _ _ _ _ (blk V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨(sumTo_succ V c t).symm, (sqTo_succ V c t).symm⟩
      isplitl [Hrest]; · iexact Hrest
      iexact Hg
    isplitl [Ho]; · iexact Ho
    isplitl [H0]; · iexact H0
    isplitl [H1]; · iexists _; iexact H1
    iexists _; iexact H2

/-- The body at the last point: its block is added and the totals go to the output rows. -/
theorem soundLast (c : Dev nD) (t : Fin cfg14.N) (hl : t.val = 24) :
    pre V c t ⊢ wp frame (wpE (defs₀ (F := F)) Variants.none c none) Set.univ (bodyAt14 t) (fun _ => postLast V c t) := by
  unfold pre postLast bodyAt14
  simp only [before0]
  rw [show (dat V c).Φ t.castSucc = inv V c t.val from rfl, show (dat V c).Φ t.succ = inv V c (t.val + 1) from rfl,
    show (dat V c).owesAt () t.succ = (dat V c).owesAt () t.castSucc from rfl, after0, after1, after2]
  unfold inv
  iintro ⟨⟨⟨%s, %q, Hs, Hq, %hsq⟩, Hrest, Hg⟩, Ho, ⟨%d0, H0⟩, ⟨%d1, H1⟩, ⟨%d2, H2⟩⟩
  have h0 : t.val ≠ 0 := by omega
  obtain ⟨rfl, rfl⟩ := hsq h0
  iapply (last c Set.univ (grid14.coords t) (fun h => h0 ((first_iff t).mp h)) ((last_iff t).mpr hl) _ _ _ _ _ _ _ _ _ _ (blk V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  rw [sumTo_succ, sqTo_succ]
  isplitl [Hs Hq Hrest Hg]
  · isplitl [Hs Hq]
    · iexists _, _
      isplitl [Hs]; · iexact Hs
      isplitl [Hq]; · iexact Hq
      ipureintro; intro _
      exact ⟨rfl, rfl⟩
    isplitl [Hrest]; · iexact Hrest
    iexact Hg
  isplitl [Ho]; · iexact Ho
  isplitl [H0]; · iexact H0
  isplitl [H1]; · iexact H1
  iexact H2

/-- The pipeline's body obligation, at every point: the output rows count as untouched except at the last point,
    which is also the only point that writes them back. -/
theorem obligation (c : Dev nD) : BodyObligation (dat (F := F) V c) (defs₀ (F := F)) Variants.none () Set.univ := fun t => by
  rw [bigSep_W14, bigSep_W14]
  by_cases hl : t.val = 24
  · have hc : k14_cond2 (grid14.coords t) = 1#1 := (last_iff t).mpr hl
    have hi1 : idle14 1 (grid14.coords t) = false := by
      show (!(k14_cond2 (grid14.coords t) == 1#1)) = false
      rw [hc]; rfl
    have hi2 : idle14 2 (grid14.coords t) = false := by
      show (!(k14_cond2 (grid14.coords t) == 1#1)) = false
      rw [hc]; rfl
    simp only [hi1, hi2]
    exact soundLast V c t hl
  · have hc : ¬ k14_cond2 (grid14.coords t) = 1#1 := fun h => hl ((last_iff t).mp h)
    have hi1 : idle14 1 (grid14.coords t) = true := by
      show (!(k14_cond2 (grid14.coords t) == 1#1)) = true
      simp only [beq_iff_eq, hc, Bool.not_eq_true', Bool.not_false, decide_false, beq_eq_false_iff_ne, ne_eq, not_false_eq_true]
    have hi2 : idle14 2 (grid14.coords t) = true := by
      show (!(k14_cond2 (grid14.coords t) == 1#1)) = true
      simp only [beq_iff_eq, hc, Bool.not_eq_true', Bool.not_false, decide_false, beq_eq_false_iff_ne, ne_eq, not_false_eq_true]
    have hf1 : (cfg14.win 1).flush t = false := by
      have := flush14_1 t; have hm : ¬ t.val % 25 = 24 := by have := t.isLt; have : cfg14.N = 25 := N_14; omega
      exact Bool.eq_false_iff.mpr fun h => hm (this.mp h)
    have hf2 : (cfg14.win 2).flush t = false := by
      have := flush14_2 t; have hm : ¬ t.val % 25 = 24 := by have := t.isLt; have : cfg14.N = 25 := N_14; omega
      exact Bool.eq_false_iff.mpr fun h => hm (this.mp h)
    simp only [hi1, hi2, hf1, hf2]
    exact soundKept V c t hl

end Cert.KernelIdeal.R14

end
-- ==== Proof.Region15.lean ====
/-
  Batch normalisation applied to a block of 2000 node rows: (row - mean) times the inverse standard deviation times the scale plus the shift, the four 1 x 256 rows repeated down the block (and, in the layers that have it, clipped below at zero).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.KernelIdeal.Launch
import proofs.«162580_j71794673320191_1_alg».proof.Proof.Gen.KernelIdeal.Skeleton
import proofs.«162580_j71794673320191_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.R15

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S1x256 .f32) (x2 : Vec F S1x256 .f32) (x3 : Vec F S1x256 .f32) (x4 : Vec F S1x256 .f32) : Vec F S2000x256 .f32 :=
  View.canon [⟨rO, k15_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid15.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc15__bn_norm_kernel i arg1 harg1 arg2 harg2 arg3 harg3 arg4 harg4 arg5 harg5 arg6 harg6) K := by
  simp only [cc15__bn_norm_kernel_eq_skeleton]; unfold cc15__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's buffer holds its block at every point, fetched there or not: a point that does not fetch finds
    the same block index as the point before, and the body left the block in place. -/
theorem held0 {c : Dev nD} (dat : Dat τ (Elt F) Unit ℕ (Pipeline.UD sig nD τ) ℕ cfg15 c) (hA : dat.A 0 = V c (Pipeline.arrRef spec15 0))
    (hafter : ∀ t, dat.after 0 t = blk V c 0 t) (t : Fin cfg15.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg15 c) (hA : dat.A 1 = V c (Pipeline.arrRef spec15 1))
    (hafter : ∀ t, dat.after 1 t = blk V c 1 t) (t : Fin cfg15.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg15 c) (hA : dat.A 2 = V c (Pipeline.arrRef spec15 2))
    (hafter : ∀ t, dat.after 2 t = blk V c 2 t) (t : Fin cfg15.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg15 c) (hA : dat.A 3 = V c (Pipeline.arrRef spec15 3))
    (hafter : ∀ t, dat.after 3 t = blk V c 3 t) (t : Fin cfg15.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg15 c) (hA : dat.A 4 = V c (Pipeline.arrRef spec15 4))
    (hafter : ∀ t, dat.after 4 t = blk V c 4 t) (t : Fin cfg15.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg15 c where
  A w := V c (Pipeline.arrRef spec15 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec15 c
  q _ := fullShare
  owed _ := 0

theorem dat_A (c : Dev nD) (w : Fin cfg15.W) : (dat V c).A w = V c (Pipeline.arrRef spec15 w) := by dsimp only [dat]
theorem after0 (c : Dev nD) (t : Fin cfg15.N) : (dat V c).after 0 t = blk V c 0 t := by dsimp only [dat]
theorem after1 (c : Dev nD) (t : Fin cfg15.N) : (dat V c).after 1 t = blk V c 1 t := by dsimp only [dat]
theorem after2 (c : Dev nD) (t : Fin cfg15.N) : (dat V c).after 2 t = blk V c 2 t := by dsimp only [dat]
theorem after3 (c : Dev nD) (t : Fin cfg15.N) : (dat V c).after 3 t = blk V c 3 t := by dsimp only [dat]
theorem after4 (c : Dev nD) (t : Fin cfg15.N) : (dat V c).after 4 t = blk V c 4 t := by dsimp only [dat]
theorem after5 (c : Dev nD) (t : Fin cfg15.N) : (dat V c).after 5 t = out (blk V c 0 t) (blk V c 1 t) (blk V c 2 t) (blk V c 3 t) (blk V c 4 t) := by dsimp only [dat]
theorem before0 (c : Dev nD) (t : Fin cfg15.N) (d) : (dat V c).before 0 t d = blk V c 0 t :=
  held0 V (dat V c) (dat_A V c 0) (after0 V c) t d
theorem before1 (c : Dev nD) (t : Fin cfg15.N) (d) : (dat V c).before 1 t d = blk V c 1 t :=
  held1 V (dat V c) (dat_A V c 1) (after1 V c) t d
theorem before2 (c : Dev nD) (t : Fin cfg15.N) (d) : (dat V c).before 2 t d = blk V c 2 t :=
  held2 V (dat V c) (dat_A V c 2) (after2 V c) t d
theorem before3 (c : Dev nD) (t : Fin cfg15.N) (d) : (dat V c).before 3 t d = blk V c 3 t :=
  held3 V (dat V c) (dat_A V c 3) (after3 V c) t d
theorem before4 (c : Dev nD) (t : Fin cfg15.N) (d) : (dat V c).before 4 t d = blk V c 4 t :=
  held4 V (dat V c) (dat_A V c 4) (after4 V c) t d

/-- What the body is called with at point t: the invariant, the core's dues, and each window's current buffer, -/
def pre (c : Dev nD) (t : Fin cfg15.N) : sProp 𝕄 :=
  iprop((dat V c).Φ t.castSucc ∗ (dat V c).owesAt () t.castSucc
    ∗ (∃ d, owns (c : Thread nD τ) (st15_0 t) fullShare ((dat V c).before 0 t d))
    ∗ (∃ d, owns (c : Thread nD τ) (st15_1 t) fullShare ((dat V c).before 1 t d))
    ∗ (∃ d, owns (c : Thread nD τ) (st15_2 t) fullShare ((dat V c).before 2 t d))
    ∗ (∃ d, owns (c : Thread nD τ) (st15_3 t) fullShare ((dat V c).before 3 t d))
    ∗ (∃ d, owns (c : Thread nD τ) (st15_4 t) fullShare ((dat V c).before 4 t d))
    ∗ (∃ d, owns (c : Thread nD τ) (st15_5 t) fullShare ((dat V c).before 5 t d)))

/-- and what it returns. -/
def post (c : Dev nD) (t : Fin cfg15.N) : sProp 𝕄 :=
  iprop((dat V c).Φ t.succ ∗ (dat V c).owesAt () t.succ
    ∗ owns (c : Thread nD τ) (st15_0 t) fullShare ((dat V c).after 0 t)
    ∗ owns (c : Thread nD τ) (st15_1 t) fullShare ((dat V c).after 1 t)
    ∗ owns (c : Thread nD τ) (st15_2 t) fullShare ((dat V c).after 2 t)
    ∗ owns (c : Thread nD τ) (st15_3 t) fullShare ((dat V c).after 3 t)
    ∗ owns (c : Thread nD τ) (st15_4 t) fullShare ((dat V c).after 4 t)
    ∗ owns (c : Thread nD τ) (st15_5 t) fullShare ((dat V c).after 5 t))

/-- The body at any point: the inputs' buffers hold their blocks, so the body's triple applies; the invariant and the
    core's dues pass through untouched. -/
theorem soundBody (c : Dev nD) (t : Fin cfg15.N) :
    pre V c t ⊢ wp frame (wpE (defs₀ (F := F)) Variants.none c none) Set.univ (bodyAt15 t) (fun _ => post V c t) := by
  unfold pre post bodyAt15
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid15.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation (c : Dev nD) : BodyObligation (dat (F := F) V c) (defs₀ (F := F)) Variants.none () Set.univ := fun t => by
  rw [bigSep_W15, bigSep_W15]
  exact soundBody V c t

end Cert.KernelIdeal.R15

end
-- ==== Proof.Bounds.lean ====
/-
  The contents of the core's buffers at each of the 29 boundaries between the items of the program (host stretches and
  kernel regions, in program order): a host stretch leaves the fold of its operations over what it found; a region
  leaves its windows' arrays at what its write-backs add up to and every other buffer as it found it. No item writes
  an argument array, so each argument is, at the end, what it was at the start.
-/
import proofs.«162580_j71794673320191_1_alg».proof.Proof.Region0
import proofs.«162580_j71794673320191_1_alg».proof.Proof.Region1
import proofs.«162580_j71794673320191_1_alg».proof.Proof.Region2
import proofs.«162580_j71794673320191_1_alg».proof.Proof.Region3
import proofs.«162580_j71794673320191_1_alg».proof.Proof.Reduce4Region
import proofs.«162580_j71794673320191_1_alg».proof.Proof.Region5
import proofs.«162580_j71794673320191_1_alg».proof.Proof.Region6
import proofs.«162580_j71794673320191_1_alg».proof.Proof.Region7
import proofs.«162580_j71794673320191_1_alg».proof.Proof.Region8
import proofs.«162580_j71794673320191_1_alg».proof.Proof.Reduce9Region
import proofs.«162580_j71794673320191_1_alg».proof.Proof.Region10
import proofs.«162580_j71794673320191_1_alg».proof.Proof.Region11
import proofs.«162580_j71794673320191_1_alg».proof.Proof.Region12
import proofs.«162580_j71794673320191_1_alg».proof.Proof.Region13
import proofs.«162580_j71794673320191_1_alg».proof.Proof.Reduce14Region
import proofs.«162580_j71794673320191_1_alg».proof.Proof.Region15
import proofs.«162580_j71794673320191_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch hostOps0. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After region 0. -/
def W2 (c : Dev nD) : Valuation τ sig (Elt F) :=
  Pipeline.withArrays spec0 c (W1 m ρ c) fun w => (R0.dat (V1 m ρ) c).arrAt w cfg0.N
abbrev V2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch hostOps1. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After region 1. -/
def W4 (c : Dev nD) : Valuation τ sig (Elt F) :=
  Pipeline.withArrays spec1 c (W3 m ρ c) fun w => (R1.dat (V3 m ρ) c).arrAt w cfg1.N
abbrev V4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch hostOps2. -/
def W5 (c : Dev nD) : Valuation τ sig (Elt F) := StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After region 2. -/
def W6 (c : Dev nD) : Valuation τ sig (Elt F) :=
  Pipeline.withArrays spec2 c (W5 m ρ c) fun w => (R2.dat (V5 m ρ) c).arrAt w cfg2.N
abbrev V6 : (c : Dev nD) → (b : Ref sig .tc) → Buf (Elt F) ((c : Thread nD τ).loc b) := fun c b => W6 m ρ c b
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (R2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch hostOps3. -/
def W7 (c : Dev nD) : Valuation τ sig (Elt F) := StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After region 3. -/
def W8 (c : Dev nD) : Valuation τ sig (Elt F) :=
  Pipeline.withArrays spec3 c (W7 m ρ c) fun w => (R3.dat (V7 m ρ) c).arrAt w cfg3.N
abbrev V8 : (c : Dev nD) → (b : Ref sig .tc) → Buf (Elt F) ((c : Thread nD τ).loc b) := fun c b => W8 m ρ c b
theorem W8_arr (c : Dev nD) (w : Fin cfg3.W) :
    W8 m ρ c (Proc.devRef .tc (Pipeline.arrRef spec3 w)) = (R3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem hF3 (c : Dev nD) (w : Fin cfg3.W) : (R3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After region 4. -/
def W9 (c : Dev nD) : Valuation τ sig (Elt F) :=
  Pipeline.withArrays spec4 c (W8 m ρ c) fun w => (R4.dat (V8 m ρ) c).arrAt w cfg4.N
abbrev V9 : (c : Dev nD) → (b : Ref sig .tc) → Buf (Elt F) ((c : Thread nD τ).loc b) := fun c b => W9 m ρ c b
theorem W9_arr (c : Dev nD) (w : Fin cfg4.W) :
    W9 m ρ c (Proc.devRef .tc (Pipeline.arrRef spec4 w)) = (R4.dat (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
theorem hF4 (c : Dev nD) (w : Fin cfg4.W) : (R4.dat (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch hostOps5. -/
def W10 (c : Dev nD) : Valuation τ sig (Elt F) := StableHlo.after hostOps5 (W9 m ρ c)
abbrev V10 : (c : Dev nD) → (b : Ref sig .tc) → Buf (Elt F) ((c : Thread nD τ).loc b) := fun c b => W10 m ρ c b
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h

/-- After region 5. -/
def W11 (c : Dev nD) : Valuation τ sig (Elt F) :=
  Pipeline.withArrays spec5 c (W10 m ρ c) fun w => (R5.dat (V10 m ρ) c).arrAt w cfg5.N
abbrev V11 : (c : Dev nD) → (b : Ref sig .tc) → Buf (Elt F) ((c : Thread nD τ).loc b) := fun c b => W11 m ρ c b
theorem W11_arr (c : Dev nD) (w : Fin cfg5.W) :
    W11 m ρ c (Proc.devRef .tc (Pipeline.arrRef spec5 w)) = (R5.dat (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
theorem hF5 (c : Dev nD) (w : Fin cfg5.W) : (R5.dat (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the host stretch hostOps6. -/
def W12 (c : Dev nD) : Valuation τ sig (Elt F) := StableHlo.after hostOps6 (W11 m ρ c)
abbrev V12 : (c : Dev nD) → (b : Ref sig .tc) → Buf (Elt F) ((c : Thread nD τ).loc b) := fun c b => W12 m ρ c b
theorem W12_of (c : Dev nD) (r : Ref sig .tc) (h : r ∉ hostOps6_W) : W12 m ρ c (Proc.devRef .tc r) = W11 m ρ c (Proc.devRef .tc r) :=
  StableHlo.after_of_writes_sub hostOps6 _ hostOps6_writes h

/-- After region 6. -/
def W13 (c : Dev nD) : Valuation τ sig (Elt F) :=
  Pipeline.withArrays spec6 c (W12 m ρ c) fun w => (R6.dat (V12 m ρ) c).arrAt w cfg6.N
abbrev V13 : (c : Dev nD) → (b : Ref sig .tc) → Buf (Elt F) ((c : Thread nD τ).loc b) := fun c b => W13 m ρ c b
theorem W13_arr (c : Dev nD) (w : Fin cfg6.W) :
    W13 m ρ c (Proc.devRef .tc (Pipeline.arrRef spec6 w)) = (R6.dat (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
theorem hF6 (c : Dev nD) (w : Fin cfg6.W) : (R6.dat (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- After the host stretch hostOps7. -/
def W14 (c : Dev nD) : Valuation τ sig (Elt F) := StableHlo.after hostOps7 (W13 m ρ c)
abbrev V14 : (c : Dev nD) → (b : Ref sig .tc) → Buf (Elt F) ((c : Thread nD τ).loc b) := fun c b => W14 m ρ c b
theorem W14_of (c : Dev nD) (r : Ref sig .tc) (h : r ∉ hostOps7_W) : W14 m ρ c (Proc.devRef .tc r) = W13 m ρ c (Proc.devRef .tc r) :=
  StableHlo.after_of_writes_sub hostOps7 _ hostOps7_writes h

/-- After region 7. -/
def W15 (c : Dev nD) : Valuation τ sig (Elt F) :=
  Pipeline.withArrays spec7 c (W14 m ρ c) fun w => (R7.dat (V14 m ρ) c).arrAt w cfg7.N
abbrev V15 : (c : Dev nD) → (b : Ref sig .tc) → Buf (Elt F) ((c : Thread nD τ).loc b) := fun c b => W15 m ρ c b
theorem W15_arr (c : Dev nD) (w : Fin cfg7.W) :
    W15 m ρ c (Proc.devRef .tc (Pipeline.arrRef spec7 w)) = (R7.dat (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
theorem hF7 (c : Dev nD) (w : Fin cfg7.W) : (R7.dat (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

/-- After the host stretch hostOps8. -/
def W16 (c : Dev nD) : Valuation τ sig (Elt F) := StableHlo.after hostOps8 (W15 m ρ c)
abbrev V16 : (c : Dev nD) → (b : Ref sig .tc) → Buf (Elt F) ((c : Thread nD τ).loc b) := fun c b => W16 m ρ c b
theorem W16_of (c : Dev nD) (r : Ref sig .tc) (h : r ∉ hostOps8_W) : W16 m ρ c (Proc.devRef .tc r) = W15 m ρ c (Proc.devRef .tc r) :=
  StableHlo.after_of_writes_sub hostOps8 _ hostOps8_writes h

/-- After region 8. -/
def W17 (c : Dev nD) : Valuation τ sig (Elt F) :=
  Pipeline.withArrays spec8 c (W16 m ρ c) fun w => (R8.dat (V16 m ρ) c).arrAt w cfg8.N
abbrev V17 : (c : Dev nD) → (b : Ref sig .tc) → Buf (Elt F) ((c : Thread nD τ).loc b) := fun c b => W17 m ρ c b
theorem W17_arr (c : Dev nD) (w : Fin cfg8.W) :
    W17 m ρ c (Proc.devRef .tc (Pipeline.arrRef spec8 w)) = (R8.dat (V16 m ρ) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb
theorem hF8 (c : Dev nD) (w : Fin cfg8.W) : (R8.dat (V16 m ρ) c).arrAt w cfg8.N = V17 m ρ c (Pipeline.arrRef spec8 w) :=
  (W17_arr m ρ c w).symm
theorem hrest8 (c : Dev nD) : ∀ b, b ∉ Finset.univ.image (Pipeline.arrRef spec8) → V17 m ρ c b = V16 m ρ c b :=
  fun b hb => W17_of_ne m ρ c b fun w e => hb (Finset.mem_image.mpr ⟨w, Finset.mem_univ _, e⟩)

/-- After region 9. -/
def W18 (c : Dev nD) : Valuation τ sig (Elt F) :=
  Pipeline.withArrays spec9 c (W17 m ρ c) fun w => (R9.dat (V17 m ρ) c).arrAt w cfg9.N
abbrev V18 : (c : Dev nD) → (b : Ref sig .tc) → Buf (Elt F) ((c : Thread nD τ).loc b) := fun c b => W18 m ρ c b
theorem W18_arr (c : Dev nD) (w : Fin cfg9.W) :
    W18 m ρ c (Proc.devRef .tc (Pipeline.arrRef spec9 w)) = (R9.dat (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb
theorem hF9 (c : Dev nD) (w : Fin cfg9.W) : (R9.dat (V17 m ρ) c).arrAt w cfg9.N = V18 m ρ c (Pipeline.arrRef spec9 w) :=
  (W18_arr m ρ c w).symm
theorem hrest9 (c : Dev nD) : ∀ b, b ∉ Finset.univ.image (Pipeline.arrRef spec9) → V18 m ρ c b = V17 m ρ c b :=
  fun b hb => W18_of_ne m ρ c b fun w e => hb (Finset.mem_image.mpr ⟨w, Finset.mem_univ _, e⟩)

/-- After the host stretch hostOps10. -/
def W19 (c : Dev nD) : Valuation τ sig (Elt F) := StableHlo.after hostOps10 (W18 m ρ c)
abbrev V19 : (c : Dev nD) → (b : Ref sig .tc) → Buf (Elt F) ((c : Thread nD τ).loc b) := fun c b => W19 m ρ c b
theorem W19_of (c : Dev nD) (r : Ref sig .tc) (h : r ∉ hostOps10_W) : W19 m ρ c (Proc.devRef .tc r) = W18 m ρ c (Proc.devRef .tc r) :=
  StableHlo.after_of_writes_sub hostOps10 _ hostOps10_writes h

/-- After region 10. -/
def W20 (c : Dev nD) : Valuation τ sig (Elt F) :=
  Pipeline.withArrays spec10 c (W19 m ρ c) fun w => (R10.dat (V19 m ρ) c).arrAt w cfg10.N
abbrev V20 : (c : Dev nD) → (b : Ref sig .tc) → Buf (Elt F) ((c : Thread nD τ).loc b) := fun c b => W20 m ρ c b
theorem W20_arr (c : Dev nD) (w : Fin cfg10.W) :
    W20 m ρ c (Proc.devRef .tc (Pipeline.arrRef spec10 w)) = (R10.dat (V19 m ρ) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 m ρ c (Proc.devRef .tc b) = W19 m ρ c (Proc.devRef .tc b) := by
  unfold W20; exact Pipeline.withArrays_of_ne spec10 c _ _ b hb
theorem hF10 (c : Dev nD) (w : Fin cfg10.W) : (R10.dat (V19 m ρ) c).arrAt w cfg10.N = V20 m ρ c (Pipeline.arrRef spec10 w) :=
  (W20_arr m ρ c w).symm
theorem hrest10 (c : Dev nD) : ∀ b, b ∉ Finset.univ.image (Pipeline.arrRef spec10) → V20 m ρ c b = V19 m ρ c b :=
  fun b hb => W20_of_ne m ρ c b fun w e => hb (Finset.mem_image.mpr ⟨w, Finset.mem_univ _, e⟩)

/-- After the host stretch hostOps11. -/
def W21 (c : Dev nD) : Valuation τ sig (Elt F) := StableHlo.after hostOps11 (W20 m ρ c)
abbrev V21 : (c : Dev nD) → (b : Ref sig .tc) → Buf (Elt F) ((c : Thread nD τ).loc b) := fun c b => W21 m ρ c b
theorem W21_of (c : Dev nD) (r : Ref sig .tc) (h : r ∉ hostOps11_W) : W21 m ρ c (Proc.devRef .tc r) = W20 m ρ c (Proc.devRef .tc r) :=
  StableHlo.after_of_writes_sub hostOps11 _ hostOps11_writes h

/-- After region 11. -/
def W22 (c : Dev nD) : Valuation τ sig (Elt F) :=
  Pipeline.withArrays spec11 c (W21 m ρ c) fun w => (R11.dat (V21 m ρ) c).arrAt w cfg11.N
abbrev V22 : (c : Dev nD) → (b : Ref sig .tc) → Buf (Elt F) ((c : Thread nD τ).loc b) := fun c b => W22 m ρ c b
theorem W22_arr (c : Dev nD) (w : Fin cfg11.W) :
    W22 m ρ c (Proc.devRef .tc (Pipeline.arrRef spec11 w)) = (R11.dat (V21 m ρ) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 m ρ c (Proc.devRef .tc b) = W21 m ρ c (Proc.devRef .tc b) := by
  unfold W22; exact Pipeline.withArrays_of_ne spec11 c _ _ b hb
theorem hF11 (c : Dev nD) (w : Fin cfg11.W) : (R11.dat (V21 m ρ) c).arrAt w cfg11.N = V22 m ρ c (Pipeline.arrRef spec11 w) :=
  (W22_arr m ρ c w).symm
theorem hrest11 (c : Dev nD) : ∀ b, b ∉ Finset.univ.image (Pipeline.arrRef spec11) → V22 m ρ c b = V21 m ρ c b :=
  fun b hb => W22_of_ne m ρ c b fun w e => hb (Finset.mem_image.mpr ⟨w, Finset.mem_univ _, e⟩)

/-- After the host stretch hostOps12. -/
def W23 (c : Dev nD) : Valuation τ sig (Elt F) := StableHlo.after hostOps12 (W22 m ρ c)
abbrev V23 : (c : Dev nD) → (b : Ref sig .tc) → Buf (Elt F) ((c : Thread nD τ).loc b) := fun c b => W23 m ρ c b
theorem W23_of (c : Dev nD) (r : Ref sig .tc) (h : r ∉ hostOps12_W) : W23 m ρ c (Proc.devRef .tc r) = W22 m ρ c (Proc.devRef .tc r) :=
  StableHlo.after_of_writes_sub hostOps12 _ hostOps12_writes h

/-- After region 12. -/
def W24 (c : Dev nD) : Valuation τ sig (Elt F) :=
  Pipeline.withArrays spec12 c (W23 m ρ c) fun w => (R12.dat (V23 m ρ) c).arrAt w cfg12.N
abbrev V24 : (c : Dev nD) → (b : Ref sig .tc) → Buf (Elt F) ((c : Thread nD τ).loc b) := fun c b => W24 m ρ c b
theorem W24_arr (c : Dev nD) (w : Fin cfg12.W) :
    W24 m ρ c (Proc.devRef .tc (Pipeline.arrRef spec12 w)) = (R12.dat (V23 m ρ) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 m ρ c (Proc.devRef .tc b) = W23 m ρ c (Proc.devRef .tc b) := by
  unfold W24; exact Pipeline.withArrays_of_ne spec12 c _ _ b hb
theorem hF12 (c : Dev nD) (w : Fin cfg12.W) : (R12.dat (V23 m ρ) c).arrAt w cfg12.N = V24 m ρ c (Pipeline.arrRef spec12 w) :=
  (W24_arr m ρ c w).symm
theorem hrest12 (c : Dev nD) : ∀ b, b ∉ Finset.univ.image (Pipeline.arrRef spec12) → V24 m ρ c b = V23 m ρ c b :=
  fun b hb => W24_of_ne m ρ c b fun w e => hb (Finset.mem_image.mpr ⟨w, Finset.mem_univ _, e⟩)

/-- After the host stretch hostOps13. -/
def W25 (c : Dev nD) : Valuation τ sig (Elt F) := StableHlo.after hostOps13 (W24 m ρ c)
abbrev V25 : (c : Dev nD) → (b : Ref sig .tc) → Buf (Elt F) ((c : Thread nD τ).loc b) := fun c b => W25 m ρ c b
theorem W25_of (c : Dev nD) (r : Ref sig .tc) (h : r ∉ hostOps13_W) : W25 m ρ c (Proc.devRef .tc r) = W24 m ρ c (Proc.devRef .tc r) :=
  StableHlo.after_of_writes_sub hostOps13 _ hostOps13_writes h

/-- After region 13. -/
def W26 (c : Dev nD) : Valuation τ sig (Elt F) :=
  Pipeline.withArrays spec13 c (W25 m ρ c) fun w => (R13.dat (V25 m ρ) c).arrAt w cfg13.N
abbrev V26 : (c : Dev nD) → (b : Ref sig .tc) → Buf (Elt F) ((c : Thread nD τ).loc b) := fun c b => W26 m ρ c b
theorem W26_arr (c : Dev nD) (w : Fin cfg13.W) :
    W26 m ρ c (Proc.devRef .tc (Pipeline.arrRef spec13 w)) = (R13.dat (V25 m ρ) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 m ρ c (Proc.devRef .tc b) = W25 m ρ c (Proc.devRef .tc b) := by
  unfold W26; exact Pipeline.withArrays_of_ne spec13 c _ _ b hb
theorem hF13 (c : Dev nD) (w : Fin cfg13.W) : (R13.dat (V25 m ρ) c).arrAt w cfg13.N = V26 m ρ c (Pipeline.arrRef spec13 w) :=
  (W26_arr m ρ c w).symm
theorem hrest13 (c : Dev nD) : ∀ b, b ∉ Finset.univ.image (Pipeline.arrRef spec13) → V26 m ρ c b = V25 m ρ c b :=
  fun b hb => W26_of_ne m ρ c b fun w e => hb (Finset.mem_image.mpr ⟨w, Finset.mem_univ _, e⟩)

/-- After region 14. -/
def W27 (c : Dev nD) : Valuation τ sig (Elt F) :=
  Pipeline.withArrays spec14 c (W26 m ρ c) fun w => (R14.dat (V26 m ρ) c).arrAt w cfg14.N
abbrev V27 : (c : Dev nD) → (b : Ref sig .tc) → Buf (Elt F) ((c : Thread nD τ).loc b) := fun c b => W27 m ρ c b
theorem W27_arr (c : Dev nD) (w : Fin cfg14.W) :
    W27 m ρ c (Proc.devRef .tc (Pipeline.arrRef spec14 w)) = (R14.dat (V26 m ρ) c).arrAt w cfg14.N := by
  unfold W27; exact Pipeline.withArrays_arr spec14 launch14.win.arr_inj c _ _ w
theorem W27_of_ne (c : Dev nD) (b : Ref sig .tc) (hb : ∀ w, Pipeline.arrRef spec14 w ≠ b) :
    W27 m ρ c (Proc.devRef .tc b) = W26 m ρ c (Proc.devRef .tc b) := by
  unfold W27; exact Pipeline.withArrays_of_ne spec14 c _ _ b hb
theorem hF14 (c : Dev nD) (w : Fin cfg14.W) : (R14.dat (V26 m ρ) c).arrAt w cfg14.N = V27 m ρ c (Pipeline.arrRef spec14 w) :=
  (W27_arr m ρ c w).symm
theorem hrest14 (c : Dev nD) : ∀ b, b ∉ Finset.univ.image (Pipeline.arrRef spec14) → V27 m ρ c b = V26 m ρ c b :=
  fun b hb => W27_of_ne m ρ c b fun w e => hb (Finset.mem_image.mpr ⟨w, Finset.mem_univ _, e⟩)

/-- After the host stretch hostOps15. -/
def W28 (c : Dev nD) : Valuation τ sig (Elt F) := StableHlo.after hostOps15 (W27 m ρ c)
abbrev V28 : (c : Dev nD) → (b : Ref sig .tc) → Buf (Elt F) ((c : Thread nD τ).loc b) := fun c b => W28 m ρ c b
theorem W28_of (c : Dev nD) (r : Ref sig .tc) (h : r ∉ hostOps15_W) : W28 m ρ c (Proc.devRef .tc r) = W27 m ρ c (Proc.devRef .tc r) :=
  StableHlo.after_of_writes_sub hostOps15 _ hostOps15_writes h

/-- After region 15. -/
def W29 (c : Dev nD) : Valuation τ sig (Elt F) :=
  Pipeline.withArrays spec15 c (W28 m ρ c) fun w => (R15.dat (V28 m ρ) c).arrAt w cfg15.N
abbrev V29 : (c : Dev nD) → (b : Ref sig .tc) → Buf (Elt F) ((c : Thread nD τ).loc b) := fun c b => W29 m ρ c b
theorem W29_arr (c : Dev nD) (w : Fin cfg15.W) :
    W29 m ρ c (Proc.devRef .tc (Pipeline.arrRef spec15 w)) = (R15.dat (V28 m ρ) c).arrAt w cfg15.N := by
  unfold W29; exact Pipeline.withArrays_arr spec15 launch15.win.arr_inj c _ _ w
theorem W29_of_ne (c : Dev nD) (b : Ref sig .tc) (hb : ∀ w, Pipeline.arrRef spec15 w ≠ b) :
    W29 m ρ c (Proc.devRef .tc b) = W28 m ρ c (Proc.devRef .tc b) := by
  unfold W29; exact Pipeline.withArrays_of_ne spec15 c _ _ b hb
theorem hF15 (c : Dev nD) (w : Fin cfg15.W) : (R15.dat (V28 m ρ) c).arrAt w cfg15.N = V29 m ρ c (Pipeline.arrRef spec15 w) :=
  (W29_arr m ρ c w).symm
theorem hrest15 (c : Dev nD) : ∀ b, b ∉ Finset.univ.image (Pipeline.arrRef spec15) → V29 m ρ c b = V28 m ρ c b :=
  fun b hb => W29_of_ne m ρ c b fun w e => hb (Finset.mem_image.mpr ⟨w, Finset.mem_univ _, e⟩)

/-! The arguments end as launched. -/
theorem end_main_arg0 (c : Dev nD) : W29 m ρ c (Proc.devRef .tc main_arg0) = m ((c : Thread nD τ).loc main_arg0) :=
  (W29_of_ne m ρ c main_arg0 (by decide)).trans <|
  (W28_of m ρ c main_arg0 (by decide)).trans <|
  (W27_of_ne m ρ c main_arg0 (by decide)).trans <|
  (W26_of_ne m ρ c main_arg0 (by decide)).trans <|
  (W25_of m ρ c main_arg0 (by decide)).trans <|
  (W24_of_ne m ρ c main_arg0 (by decide)).trans <|
  (W23_of m ρ c main_arg0 (by decide)).trans <|
  (W22_of_ne m ρ c main_arg0 (by decide)).trans <|
  (W21_of m ρ c main_arg0 (by decide)).trans <|
  (W20_of_ne m ρ c main_arg0 (by decide)).trans <|
  (W19_of m ρ c main_arg0 (by decide)).trans <|
  (W18_of_ne m ρ c main_arg0 (by decide)).trans <|
  (W17_of_ne m ρ c main_arg0 (by decide)).trans <|
  (W16_of m ρ c main_arg0 (by decide)).trans <|
  (W15_of_ne m ρ c main_arg0 (by decide)).trans <|
  (W14_of m ρ c main_arg0 (by decide)).trans <|
  (W13_of_ne m ρ c main_arg0 (by decide)).trans <|
  (W12_of m ρ c main_arg0 (by decide)).trans <|
  (W11_of_ne m ρ c main_arg0 (by decide)).trans <|
  (W10_of m ρ c main_arg0 (by decide)).trans <|
  (W9_of_ne m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  ((W2_arr m ρ c 0).trans (((R0.dat (V1 m ρ) c).arrAt_in 0 rfl _).trans (R0.dat_A (V1 m ρ) c 0))).trans <|
  (W1_of m ρ c main_arg0 (by decide)).trans rfl
theorem end_main_arg1 (c : Dev nD) : W29 m ρ c (Proc.devRef .tc main_arg1) = m ((c : Thread nD τ).loc main_arg1) :=
  (W29_of_ne m ρ c main_arg1 (by decide)).trans <|
  (W28_of m ρ c main_arg1 (by decide)).trans <|
  (W27_of_ne m ρ c main_arg1 (by decide)).trans <|
  (W26_of_ne m ρ c main_arg1 (by decide)).trans <|
  (W25_of m ρ c main_arg1 (by decide)).trans <|
  (W24_of_ne m ρ c main_arg1 (by decide)).trans <|
  (W23_of m ρ c main_arg1 (by decide)).trans <|
  (W22_of_ne m ρ c main_arg1 (by decide)).trans <|
  (W21_of m ρ c main_arg1 (by decide)).trans <|
  (W20_of_ne m ρ c main_arg1 (by decide)).trans <|
  (W19_of m ρ c main_arg1 (by decide)).trans <|
  (W18_of_ne m ρ c main_arg1 (by decide)).trans <|
  (W17_of_ne m ρ c main_arg1 (by decide)).trans <|
  (W16_of m ρ c main_arg1 (by decide)).trans <|
  (W15_of_ne m ρ c main_arg1 (by decide)).trans <|
  (W14_of m ρ c main_arg1 (by decide)).trans <|
  (W13_of_ne m ρ c main_arg1 (by decide)).trans <|
  (W12_of m ρ c main_arg1 (by decide)).trans <|
  (W11_of_ne m ρ c main_arg1 (by decide)).trans <|
  (W10_of m ρ c main_arg1 (by decide)).trans <|
  (W9_of_ne m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem end_main_arg2 (c : Dev nD) : W29 m ρ c (Proc.devRef .tc main_arg2) = m ((c : Thread nD τ).loc main_arg2) :=
  (W29_of_ne m ρ c main_arg2 (by decide)).trans <|
  (W28_of m ρ c main_arg2 (by decide)).trans <|
  (W27_of_ne m ρ c main_arg2 (by decide)).trans <|
  (W26_of_ne m ρ c main_arg2 (by decide)).trans <|
  (W25_of m ρ c main_arg2 (by decide)).trans <|
  (W24_of_ne m ρ c main_arg2 (by decide)).trans <|
  (W23_of m ρ c main_arg2 (by decide)).trans <|
  (W22_of_ne m ρ c main_arg2 (by decide)).trans <|
  (W21_of m ρ c main_arg2 (by decide)).trans <|
  (W20_of_ne m ρ c main_arg2 (by decide)).trans <|
  (W19_of m ρ c main_arg2 (by decide)).trans <|
  (W18_of_ne m ρ c main_arg2 (by decide)).trans <|
  (W17_of_ne m ρ c main_arg2 (by decide)).trans <|
  (W16_of m ρ c main_arg2 (by decide)).trans <|
  (W15_of_ne m ρ c main_arg2 (by decide)).trans <|
  (W14_of m ρ c main_arg2 (by decide)).trans <|
  (W13_of_ne m ρ c main_arg2 (by decide)).trans <|
  (W12_of m ρ c main_arg2 (by decide)).trans <|
  (W11_of_ne m ρ c main_arg2 (by decide)).trans <|
  (W10_of m ρ c main_arg2 (by decide)).trans <|
  (W9_of_ne m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  ((W2_arr m ρ c 1).trans (((R0.dat (V1 m ρ) c).arrAt_in 1 rfl _).trans (R0.dat_A (V1 m ρ) c 1))).trans <|
  (W1_of m ρ c main_arg2 (by decide)).trans rfl
theorem end_main_arg3 (c : Dev nD) : W29 m ρ c (Proc.devRef .tc main_arg3) = m ((c : Thread nD τ).loc main_arg3) :=
  (W29_of_ne m ρ c main_arg3 (by decide)).trans <|
  (W28_of m ρ c main_arg3 (by decide)).trans <|
  (W27_of_ne m ρ c main_arg3 (by decide)).trans <|
  (W26_of_ne m ρ c main_arg3 (by decide)).trans <|
  (W25_of m ρ c main_arg3 (by decide)).trans <|
  (W24_of_ne m ρ c main_arg3 (by decide)).trans <|
  (W23_of m ρ c main_arg3 (by decide)).trans <|
  (W22_of_ne m ρ c main_arg3 (by decide)).trans <|
  (W21_of m ρ c main_arg3 (by decide)).trans <|
  (W20_of_ne m ρ c main_arg3 (by decide)).trans <|
  (W19_of m ρ c main_arg3 (by decide)).trans <|
  (W18_of_ne m ρ c main_arg3 (by decide)).trans <|
  (W17_of_ne m ρ c main_arg3 (by decide)).trans <|
  (W16_of m ρ c main_arg3 (by decide)).trans <|
  (W15_of_ne m ρ c main_arg3 (by decide)).trans <|
  (W14_of m ρ c main_arg3 (by decide)).trans <|
  (W13_of_ne m ρ c main_arg3 (by decide)).trans <|
  (W12_of m ρ c main_arg3 (by decide)).trans <|
  (W11_of_ne m ρ c main_arg3 (by decide)).trans <|
  (W10_of m ρ c main_arg3 (by decide)).trans <|
  (W9_of_ne m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem end_main_arg4 (c : Dev nD) : W29 m ρ c (Proc.devRef .tc main_arg4) = m ((c : Thread nD τ).loc main_arg4) :=
  (W29_of_ne m ρ c main_arg4 (by decide)).trans <|
  (W28_of m ρ c main_arg4 (by decide)).trans <|
  (W27_of_ne m ρ c main_arg4 (by decide)).trans <|
  (W26_of_ne m ρ c main_arg4 (by decide)).trans <|
  (W25_of m ρ c main_arg4 (by decide)).trans <|
  (W24_of_ne m ρ c main_arg4 (by decide)).trans <|
  (W23_of m ρ c main_arg4 (by decide)).trans <|
  (W22_of_ne m ρ c main_arg4 (by decide)).trans <|
  (W21_of m ρ c main_arg4 (by decide)).trans <|
  (W20_of_ne m ρ c main_arg4 (by decide)).trans <|
  (W19_of m ρ c main_arg4 (by decide)).trans <|
  (W18_of_ne m ρ c main_arg4 (by decide)).trans <|
  (W17_of_ne m ρ c main_arg4 (by decide)).trans <|
  (W16_of m ρ c main_arg4 (by decide)).trans <|
  (W15_of_ne m ρ c main_arg4 (by decide)).trans <|
  (W14_of m ρ c main_arg4 (by decide)).trans <|
  (W13_of_ne m ρ c main_arg4 (by decide)).trans <|
  (W12_of m ρ c main_arg4 (by decide)).trans <|
  (W11_of_ne m ρ c main_arg4 (by decide)).trans <|
  (W10_of m ρ c main_arg4 (by decide)).trans <|
  (W9_of_ne m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans rfl
theorem end_main_arg5 (c : Dev nD) : W29 m ρ c (Proc.devRef .tc main_arg5) = m ((c : Thread nD τ).loc main_arg5) :=
  (W29_of_ne m ρ c main_arg5 (by decide)).trans <|
  (W28_of m ρ c main_arg5 (by decide)).trans <|
  (W27_of_ne m ρ c main_arg5 (by decide)).trans <|
  (W26_of_ne m ρ c main_arg5 (by decide)).trans <|
  (W25_of m ρ c main_arg5 (by decide)).trans <|
  (W24_of_ne m ρ c main_arg5 (by decide)).trans <|
  (W23_of m ρ c main_arg5 (by decide)).trans <|
  (W22_of_ne m ρ c main_arg5 (by decide)).trans <|
  (W21_of m ρ c main_arg5 (by decide)).trans <|
  (W20_of_ne m ρ c main_arg5 (by decide)).trans <|
  (W19_of m ρ c main_arg5 (by decide)).trans <|
  (W18_of_ne m ρ c main_arg5 (by decide)).trans <|
  (W17_of_ne m ρ c main_arg5 (by decide)).trans <|
  (W16_of m ρ c main_arg5 (by decide)).trans <|
  (W15_of_ne m ρ c main_arg5 (by decide)).trans <|
  (W14_of m ρ c main_arg5 (by decide)).trans <|
  (W13_of_ne m ρ c main_arg5 (by decide)).trans <|
  (W12_of m ρ c main_arg5 (by decide)).trans <|
  (W11_of_ne m ρ c main_arg5 (by decide)).trans <|
  (W10_of m ρ c main_arg5 (by decide)).trans <|
  (W9_of_ne m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem end_main_arg6 (c : Dev nD) : W29 m ρ c (Proc.devRef .tc main_arg6) = m ((c : Thread nD τ).loc main_arg6) :=
  (W29_of_ne m ρ c main_arg6 (by decide)).trans <|
  (W28_of m ρ c main_arg6 (by decide)).trans <|
  (W27_of_ne m ρ c main_arg6 (by decide)).trans <|
  (W26_of_ne m ρ c main_arg6 (by decide)).trans <|
  (W25_of m ρ c main_arg6 (by decide)).trans <|
  (W24_of_ne m ρ c main_arg6 (by decide)).trans <|
  (W23_of m ρ c main_arg6 (by decide)).trans <|
  (W22_of_ne m ρ c main_arg6 (by decide)).trans <|
  (W21_of m ρ c main_arg6 (by decide)).trans <|
  (W20_of_ne m ρ c main_arg6 (by decide)).trans <|
  (W19_of m ρ c main_arg6 (by decide)).trans <|
  (W18_of_ne m ρ c main_arg6 (by decide)).trans <|
  (W17_of_ne m ρ c main_arg6 (by decide)).trans <|
  (W16_of m ρ c main_arg6 (by decide)).trans <|
  (W15_of_ne m ρ c main_arg6 (by decide)).trans <|
  (W14_of m ρ c main_arg6 (by decide)).trans <|
  (W13_of_ne m ρ c main_arg6 (by decide)).trans <|
  (W12_of m ρ c main_arg6 (by decide)).trans <|
  (W11_of_ne m ρ c main_arg6 (by decide)).trans <|
  (W10_of m ρ c main_arg6 (by decide)).trans <|
  (W9_of_ne m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans rfl
theorem end_main_arg7 (c : Dev nD) : W29 m ρ c (Proc.devRef .tc main_arg7) = m ((c : Thread nD τ).loc main_arg7) :=
  (W29_of_ne m ρ c main_arg7 (by decide)).trans <|
  (W28_of m ρ c main_arg7 (by decide)).trans <|
  (W27_of_ne m ρ c main_arg7 (by decide)).trans <|
  (W26_of_ne m ρ c main_arg7 (by decide)).trans <|
  (W25_of m ρ c main_arg7 (by decide)).trans <|
  (W24_of_ne m ρ c main_arg7 (by decide)).trans <|
  (W23_of m ρ c main_arg7 (by decide)).trans <|
  (W22_of_ne m ρ c main_arg7 (by decide)).trans <|
  (W21_of m ρ c main_arg7 (by decide)).trans <|
  (W20_of_ne m ρ c main_arg7 (by decide)).trans <|
  (W19_of m ρ c main_arg7 (by decide)).trans <|
  (W18_of_ne m ρ c main_arg7 (by decide)).trans <|
  (W17_of_ne m ρ c main_arg7 (by decide)).trans <|
  (W16_of m ρ c main_arg7 (by decide)).trans <|
  (W15_of_ne m ρ c main_arg7 (by decide)).trans <|
  (W14_of m ρ c main_arg7 (by decide)).trans <|
  (W13_of_ne m ρ c main_arg7 (by decide)).trans <|
  (W12_of m ρ c main_arg7 (by decide)).trans <|
  (W11_of_ne m ρ c main_arg7 (by decide)).trans <|
  (W10_of m ρ c main_arg7 (by decide)).trans <|
  (W9_of_ne m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem end_main_arg8 (c : Dev nD) : W29 m ρ c (Proc.devRef .tc main_arg8) = m ((c : Thread nD τ).loc main_arg8) :=
  (W29_of_ne m ρ c main_arg8 (by decide)).trans <|
  (W28_of m ρ c main_arg8 (by decide)).trans <|
  (W27_of_ne m ρ c main_arg8 (by decide)).trans <|
  (W26_of_ne m ρ c main_arg8 (by decide)).trans <|
  (W25_of m ρ c main_arg8 (by decide)).trans <|
  (W24_of_ne m ρ c main_arg8 (by decide)).trans <|
  (W23_of m ρ c main_arg8 (by decide)).trans <|
  (W22_of_ne m ρ c main_arg8 (by decide)).trans <|
  (W21_of m ρ c main_arg8 (by decide)).trans <|
  (W20_of_ne m ρ c main_arg8 (by decide)).trans <|
  (W19_of m ρ c main_arg8 (by decide)).trans <|
  (W18_of_ne m ρ c main_arg8 (by decide)).trans <|
  (W17_of_ne m ρ c main_arg8 (by decide)).trans <|
  (W16_of m ρ c main_arg8 (by decide)).trans <|
  (W15_of_ne m ρ c main_arg8 (by decide)).trans <|
  (W14_of m ρ c main_arg8 (by decide)).trans <|
  (W13_of_ne m ρ c main_arg8 (by decide)).trans <|
  (W12_of m ρ c main_arg8 (by decide)).trans <|
  (W11_of_ne m ρ c main_arg8 (by decide)).trans <|
  (W10_of m ρ c main_arg8 (by decide)).trans <|
  (W9_of_ne m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem end_main_arg9 (c : Dev nD) : W29 m ρ c (Proc.devRef .tc main_arg9) = m ((c : Thread nD τ).loc main_arg9) :=
  (W29_of_ne m ρ c main_arg9 (by decide)).trans <|
  (W28_of m ρ c main_arg9 (by decide)).trans <|
  (W27_of_ne m ρ c main_arg9 (by decide)).trans <|
  (W26_of_ne m ρ c main_arg9 (by decide)).trans <|
  (W25_of m ρ c main_arg9 (by decide)).trans <|
  (W24_of_ne m ρ c main_arg9 (by decide)).trans <|
  (W23_of m ρ c main_arg9 (by decide)).trans <|
  (W22_of_ne m ρ c main_arg9 (by decide)).trans <|
  (W21_of m ρ c main_arg9 (by decide)).trans <|
  (W20_of_ne m ρ c main_arg9 (by decide)).trans <|
  (W19_of m ρ c main_arg9 (by decide)).trans <|
  (W18_of_ne m ρ c main_arg9 (by decide)).trans <|
  (W17_of_ne m ρ c main_arg9 (by decide)).trans <|
  (W16_of m ρ c main_arg9 (by decide)).trans <|
  (W15_of_ne m ρ c main_arg9 (by decide)).trans <|
  (W14_of m ρ c main_arg9 (by decide)).trans <|
  (W13_of_ne m ρ c main_arg9 (by decide)).trans <|
  (W12_of m ρ c main_arg9 (by decide)).trans <|
  (W11_of_ne m ρ c main_arg9 (by decide)).trans <|
  (W10_of m ρ c main_arg9 (by decide)).trans <|
  (W9_of_ne m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl

/-- Every region's proof data, each at its region's entry contents. -/
def pdats : (p : Fin 16) → (c : Dev nD) → Dat τ (Elt F) Unit ℕ (Pipeline.UD sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
  | ⟨3, _⟩ => fun c => R3.dat (V7 m ρ) c
  | ⟨4, _⟩ => fun c => R4.dat (V8 m ρ) c
  | ⟨5, _⟩ => fun c => R5.dat (V10 m ρ) c
  | ⟨6, _⟩ => fun c => R6.dat (V12 m ρ) c
  | ⟨7, _⟩ => fun c => R7.dat (V14 m ρ) c
  | ⟨8, _⟩ => fun c => R8.dat (V16 m ρ) c
  | ⟨9, _⟩ => fun c => R9.dat (V17 m ρ) c
  | ⟨10, _⟩ => fun c => R10.dat (V19 m ρ) c
  | ⟨11, _⟩ => fun c => R11.dat (V21 m ρ) c
  | ⟨12, _⟩ => fun c => R12.dat (V23 m ρ) c
  | ⟨13, _⟩ => fun c => R13.dat (V25 m ρ) c
  | ⟨14, _⟩ => fun c => R14.dat (V26 m ρ) c
  | ⟨15, _⟩ => fun c => R15.dat (V28 m ρ) c
  | ⟨_ + 16, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Run

end
-- ==== Proof.Seg0.lean ====
/-
  Region 0 as one item of the program: it is entered with every unscoped buffer of the core at the contents of
  boundary 1 and left with them at the contents of boundary 2. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg1.lean ====
/-
  Region 1 as one item of the program: it is entered with every unscoped buffer of the core at the contents of
  boundary 3 and left with them at the contents of boundary 4. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg2.lean ====
/-
  Region 2 as one item of the program: it is entered with every unscoped buffer of the core at the contents of
  boundary 5 and left with them at the contents of boundary 6. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg3.lean ====
/-
  Region 3 as one item of the program: it is entered with every unscoped buffer of the core at the contents of
  boundary 7 and left with them at the contents of boundary 8. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg4.lean ====
/-
  Region 4 as one item of the program: it is entered with every unscoped buffer of the core at the contents of
  boundary 8 and left with them at the contents of boundary 9. On entry the region's arrays are taken out of the
  unscoped buffers and the rest rides past the region untouched; on exit the arrays go back at what the write-backs
  left. The generator register goes into the region's invariant and comes back, and so do the two scratch rows (taken out of the scoped buffers at anything, given back with their contents forgotten); the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (R4.obligation (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = R4.inv (V8 m ρ) c 0 from rfl]
    iintro ⟨Hp, -, Hr⟩
    iapply (R4.inv_in (V8 m ρ) c)
    isplitl [Hr]; · iexact Hr
    iexact Hp
  hout c := by
    rw [Pipeline.ownSems0_none, show (pdats m ρ 4 c).Φ (Fin.last _) = R4.inv (V8 m ρ) c 25 from rfl]
    iintro H
    ihave H' := (R4.inv_out (V8 m ρ) c 25) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg5.lean ====
/-
  Region 5 as one item of the program: it is entered with every unscoped buffer of the core at the contents of
  boundary 10 and left with them at the contents of boundary 11. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (R5.obligation (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg6.lean ====
/-
  Region 6 as one item of the program: it is entered with every unscoped buffer of the core at the contents of
  boundary 12 and left with them at the contents of boundary 13. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (R6.obligation (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg7.lean ====
/-
  Region 7 as one item of the program: it is entered with every unscoped buffer of the core at the contents of
  boundary 14 and left with them at the contents of boundary 15. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (R7.obligation (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg8.lean ====
/-
  Region 8 as one item of the program: it is entered with every unscoped buffer of the core at the contents of
  boundary 16 and left with them at the contents of boundary 17. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (R8.obligation (V16 m ρ) c).loose
  hwaits := Pipeline.hwaits_of_owed_zero _ _ _ _ L lv 8 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (V16 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (V16 m ρ c) (V17 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg9.lean ====
/-
  Region 9 as one item of the program: it is entered with every unscoped buffer of the core at the contents of
  boundary 17 and left with them at the contents of boundary 18. On entry the region's arrays are taken out of the
  unscoped buffers and the rest rides past the region untouched; on exit the arrays go back at what the write-backs
  left. The generator register goes into the region's invariant and comes back, and so do the two scratch rows (taken out of the scoped buffers at anything, given back with their contents forgotten); the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (R9.obligation (V17 m ρ) c).loose
  hwaits := Pipeline.hwaits_of_owed_zero _ _ _ _ L lv 9 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (V17 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = R9.inv (V17 m ρ) c 0 from rfl]
    iintro ⟨Hp, -, Hr⟩
    iapply (R9.inv_in (V17 m ρ) c)
    isplitl [Hr]; · iexact Hr
    iexact Hp
  hout c := by
    rw [Pipeline.ownSems0_none, show (pdats m ρ 9 c).Φ (Fin.last _) = R9.inv (V17 m ρ) c 25 from rfl]
    iintro H
    ihave H' := (R9.inv_out (V17 m ρ) c 25) $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (V17 m ρ c) (V18 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg10.lean ====
/-
  Region 10 as one item of the program: it is entered with every unscoped buffer of the core at the contents of
  boundary 19 and left with them at the contents of boundary 20. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (R10.obligation (V19 m ρ) c).loose
  hwaits := Pipeline.hwaits_of_owed_zero _ _ _ _ L lv 10 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := Pipeline.UD sig nD τ) (Lvl := ℕ) spec10 c (V19 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m ρ) ((pdats m ρ 10 c).share_full fun _ => rfl)
      (V19 m ρ c) (V20 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg11.lean ====
/-
  Region 11 as one item of the program: it is entered with every unscoped buffer of the core at the contents of
  boundary 21 and left with them at the contents of boundary 22. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (R11.obligation (V21 m ρ) c).loose
  hwaits := Pipeline.hwaits_of_owed_zero _ _ _ _ L lv 11 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := Pipeline.UD sig nD τ) (Lvl := ℕ) spec11 c (V21 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m ρ) ((pdats m ρ 11 c).share_full fun _ => rfl)
      (V21 m ρ c) (V22 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg12.lean ====
/-
  Region 12 as one item of the program: it is entered with every unscoped buffer of the core at the contents of
  boundary 23 and left with them at the contents of boundary 24. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (R12.obligation (V23 m ρ) c).loose
  hwaits := Pipeline.hwaits_of_owed_zero _ _ _ _ L lv 12 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := Pipeline.UD sig nD τ) (Lvl := ℕ) spec12 c (V23 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m ρ) ((pdats m ρ 12 c).share_full fun _ => rfl)
      (V23 m ρ c) (V24 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg13.lean ====
/-
  Region 13 as one item of the program: it is entered with every unscoped buffer of the core at the contents of
  boundary 25 and left with them at the contents of boundary 26. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (R13.obligation (V25 m ρ) c).loose
  hwaits := Pipeline.hwaits_of_owed_zero _ _ _ _ L lv 13 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := Pipeline.UD sig nD τ) (Lvl := ℕ) spec13 c (V25 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := Pipeline.UD sig nD τ) (Lvl := ℕ)
      launch13.win launch13.arr_whole c (pdats m ρ) ((pdats m ρ 13 c).share_full fun _ => rfl)
      (V25 m ρ c) (V26 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg14.lean ====
/-
  Region 14 as one item of the program: it is entered with every unscoped buffer of the core at the contents of
  boundary 26 and left with them at the contents of boundary 27. On entry the region's arrays are taken out of the
  unscoped buffers and the rest rides past the region untouched; on exit the arrays go back at what the write-backs
  left. The generator register goes into the region's invariant and comes back, and so do the two scratch rows (taken out of the scoped buffers at anything, given back with their contents forgotten); the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (R14.obligation (V26 m ρ) c).loose
  hwaits := Pipeline.hwaits_of_owed_zero _ _ _ _ L lv 14 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := Pipeline.UD sig nD τ) (Lvl := ℕ) spec14 c (V26 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = R14.inv (V26 m ρ) c 0 from rfl]
    iintro ⟨Hp, -, Hr⟩
    iapply (R14.inv_in (V26 m ρ) c)
    isplitl [Hr]; · iexact Hr
    iexact Hp
  hout c := by
    rw [Pipeline.ownSems0_none, show (pdats m ρ 14 c).Φ (Fin.last _) = R14.inv (V26 m ρ) c 25 from rfl]
    iintro H
    ihave H' := (R14.inv_out (V26 m ρ) c 25) $$ H
    icases H' with ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := Pipeline.UD sig nD τ) (Lvl := ℕ)
      launch14.win launch14.arr_whole c (pdats m ρ) ((pdats m ρ 14 c).share_full fun _ => rfl)
      (V26 m ρ c) (V27 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg15.lean ====
/-
  Region 15 as one item of the program: it is entered with every unscoped buffer of the core at the contents of
  boundary 28 and left with them at the contents of boundary 29. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.Bounds

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (R15.obligation (V28 m ρ) c).loose
  hwaits := Pipeline.hwaits_of_owed_zero _ _ _ _ L lv 15 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := Pipeline.UD sig nD τ) (Lvl := ℕ) spec15 c (V28 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := Pipeline.UD sig nD τ) (Lvl := ℕ)
      launch15.win launch15.arr_whole c (pdats m ρ) ((pdats m ρ 15 c).share_full fun _ => rfl)
      (V28 m ρ c) (V29 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.lean ====
/-
  The whole program as its 29 items in order, and its run: from any memory with all counters at zero every weakly fair
  execution ends, nothing faults, and at the end the result buffer holds the contents of the last boundary while each
  of the ten argument arrays holds what it held at the start.
-/
import proofs.«162580_j71794673320191_1_alg».proof.Proof.Seg0
import proofs.«162580_j71794673320191_1_alg».proof.Proof.Seg1
import proofs.«162580_j71794673320191_1_alg».proof.Proof.Seg2
import proofs.«162580_j71794673320191_1_alg».proof.Proof.Seg3
import proofs.«162580_j71794673320191_1_alg».proof.Proof.Seg4
import proofs.«162580_j71794673320191_1_alg».proof.Proof.Seg5
import proofs.«162580_j71794673320191_1_alg».proof.Proof.Seg6
import proofs.«162580_j71794673320191_1_alg».proof.Proof.Seg7
import proofs.«162580_j71794673320191_1_alg».proof.Proof.Seg8
import proofs.«162580_j71794673320191_1_alg».proof.Proof.Seg9
import proofs.«162580_j71794673320191_1_alg».proof.Proof.Seg10
import proofs.«162580_j71794673320191_1_alg».proof.Proof.Seg11
import proofs.«162580_j71794673320191_1_alg».proof.Proof.Seg12
import proofs.«162580_j71794673320191_1_alg».proof.Proof.Seg13
import proofs.«162580_j71794673320191_1_alg».proof.Proof.Seg14
import proofs.«162580_j71794673320191_1_alg».proof.Proof.Seg15

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program's items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .region (reg9 m ρ),
    .host (hseg hostOps10 hostOps10_sub hostOps10_fresh (W18 m ρ)),
    .region (reg10 m ρ),
    .host (hseg hostOps11 hostOps11_sub hostOps11_fresh (W20 m ρ)),
    .region (reg11 m ρ),
    .host (hseg hostOps12 hostOps12_sub hostOps12_fresh (W22 m ρ)),
    .region (reg12 m ρ),
    .host (hseg hostOps13 hostOps13_sub hostOps13_fresh (W24 m ρ)),
    .region (reg13 m ρ),
    .region (reg14 m ρ),
    .host (hseg hostOps15 hostOps15_sub hostOps15_fresh (W27 m ρ)),
    .region (reg15 m ρ) ]

/-- The program is the run of its items. -/
theorem main_run (c : Dev nD) : main (F := F) c = Pipeline.Seg.run (segs m ρ) := (main_chain c).trans (by chain_rfl)

/-- The last thread state beside the core owing nothing. -/
abbrev Tₙ (c : Dev nD) : sProp 𝕄 := iprop(StableHlo.held (c : Thread nD τ) (Pipeline.ucRefs τ sig) (W29 m ρ c) ∗ ∃ r, prngReg c r)

set_option backward.isDefEq.respectTransparency.types false in
theorem run : θ_run defs (onTc (τ := τ) (main (F := F))) ⟨m, fun _ => 0, ρ⟩ (fun r => ∀ c : Dev nD,
      r.2.mem ((c.tc : Thread nD τ).loc main_v245) = W29 m ρ c (Proc.devRef .tc main_v245)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        show iprop(StableHlo.held (c : Thread nD τ) (Pipeline.ucRefs τ sig) (W29 m ρ c) ∗ (∃ r, prngReg c r) ∗ ∃ W, owes (c : Thread nD τ) (0 : CellTallies nD τ sig Unit) W)
          ⊢ iprop((StableHlo.held (c : Thread nD τ) (Pipeline.ucRefs τ sig) (W29 m ρ c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h c =>
      ⟨h c _ (mem_uc main_v245 (by decide)),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c),
       (h c _ (mem_uc main_arg6 (by decide))).trans (end_main_arg6 m ρ c),
       (h c _ (mem_uc main_arg7 (by decide))).trans (end_main_arg7 m ρ c),
       (h c _ (mem_uc main_arg8 (by decide))).trans (end_main_arg8 m ρ c),
       (h c _ (mem_uc main_arg9 (by decide))).trans (end_main_arg9 m ρ c)⟩)

end Cert.KernelIdeal.Run

end
-- ==== Proof.BRegion0.lean ====
/-
  The encoder on one block of 2000 node rows: the block's features times the 64 x 256 weight, accumulated from zero, plus the bias row repeated down the rows.
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x64 .f32) (x1 : Vec F S64x256 .f32) (x2 : Vec F S1x256 .f32) : Vec F S2000x256 .f32 :=
  View.canon [⟨rO, k0_pay1 (View.ld x0 (Rect.unit (s := S2000x64) ![0, 0] S2000x64.size inb_S2000x64_S2000x64_0_0)) (View.ld x1 (Rect.unit (s := S64x256) ![0, 0] S64x256.size inb_S64x256_S64x256_0_0)) (View.ld x2 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid0.Coords)
    (arg1 : Memref sig .tc .vmem S2000x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc0__encode_kernel i arg1 harg1 arg2 harg2 arg3 harg3 arg4 harg4) K := by
  simp only [cc0__encode_kernel_eq_skeleton]; unfold cc0__encode_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: a point that does not fetch finds
    the same block index as the point before, and the body left the block in place. -/
theorem held0 {c : Dev nD} (dat : Dat τ (Elt F) Unit ℕ (Pipeline.UD sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by dsimp only [dat]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = out (blk V c 0 t) (blk V c 1 t) (blk V c 2 t) := by dsimp only [dat]
theorem before0 (c : Dev nD) (t : Fin cfg0.N) (d) : (dat V c).before 0 t d = blk V c 0 t :=
  held0 V (dat V c) (dat_A V c 0) (after0 V c) t d
theorem before1 (c : Dev nD) (t : Fin cfg0.N) (d) : (dat V c).before 1 t d = blk V c 1 t :=
  held1 V (dat V c) (dat_A V c 1) (after1 V c) t d
theorem before2 (c : Dev nD) (t : Fin cfg0.N) (d) : (dat V c).before 2 t d = blk V c 2 t :=
  held2 V (dat V c) (dat_A V c 2) (after2 V c) t d

/-- What the body is called with at point t: the invariant, the core's dues, and each window's current buffer, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's dues pass through untouched. -/
theorem soundBody (c : Dev nD) (t : Fin cfg0.N) :
    pre V c t ⊢ wp frame (wpE (defs₀ (F := F)) Variants.none c none) Set.univ (bodyAt0 t) (fun _ => post V c t) := by
  unfold pre post bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (triple c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation (c : Dev nD) : BodyObligation (dat (F := F) V c) (defs₀ (F := F)) Variants.none () Set.univ := fun t => by
  rw [bigSep_W0, bigSep_W0]
  exact soundBody V c t

end Cert.Kernel.R0

end
-- ==== Proof.BRegion1.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k1_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid1.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: a point that does not fetch finds
    the same block index as the point before, and the body left the block in place. -/
theorem held0 {c : Dev nD} (dat : Dat τ (Elt F) Unit ℕ (Pipeline.UD sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec1 c
  q _ := fullShare
  owed _ := 0

theorem dat_A (c : Dev nD) (w : Fin cfg1.W) : (dat V c).A w = V c (Pipeline.arrRef spec1 w) := by dsimp only [dat]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = out (blk V c 0 t) (blk V c 1 t) (blk V c 2 t) (blk V c 3 t) (blk V c 4 t) (blk V c 5 t) := by dsimp only [dat]
theorem before0 (c : Dev nD) (t : Fin cfg1.N) (d) : (dat V c).before 0 t d = blk V c 0 t :=
  held0 V (dat V c) (dat_A V c 0) (after0 V c) t d
theorem before1 (c : Dev nD) (t : Fin cfg1.N) (d) : (dat V c).before 1 t d = blk V c 1 t :=
  held1 V (dat V c) (dat_A V c 1) (after1 V c) t d
theorem before2 (c : Dev nD) (t : Fin cfg1.N) (d) : (dat V c).before 2 t d = blk V c 2 t :=
  held2 V (dat V c) (dat_A V c 2) (after2 V c) t d
theorem before3 (c : Dev nD) (t : Fin cfg1.N) (d) : (dat V c).before 3 t d = blk V c 3 t :=
  held3 V (dat V c) (dat_A V c 3) (after3 V c) t d
theorem before4 (c : Dev nD) (t : Fin cfg1.N) (d) : (dat V c).before 4 t d = blk V c 4 t :=
  held4 V (dat V c) (dat_A V c 4) (after4 V c) t d
theorem before5 (c : Dev nD) (t : Fin cfg1.N) (d) : (dat V c).before 5 t d = blk V c 5 t :=
  held5 V (dat V c) (dat_A V c 5) (after5 V c) t d

/-- What the body is called with at point t: the invariant, the core's dues, and each window's current buffer, -/
def pre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def post (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the body's triple applies; the invariant and the
    core's dues pass through untouched. -/
theorem soundBody (c : Dev nD) (t : Fin cfg1.N) :
    pre V c t ⊢ wp frame (wpE (defs₀ (F := F)) Variants.none c none) Set.univ (bodyAt1 t) (fun _ => post V c t) := by
  unfold pre post bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid1.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W1, bigSep_W1]
  exact soundBody V c t

end Cert.Kernel.R1

end
-- ==== Proof.BRegion2.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k2_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid2.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, fetched there or not: a point that does not fetch finds
    the same block index as the point before, and the body left the block in place. -/
theorem held0 {c : Dev nD} (dat : Dat τ (Elt F) Unit ℕ (Pipeline.UD sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec2 c
  q _ := fullShare
  owed _ := 0

theorem dat_A (c : Dev nD) (w : Fin cfg2.W) : (dat V c).A w = V c (Pipeline.arrRef spec2 w) := by dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) : (dat V c).after 6 t = out (blk V c 0 t) (blk V c 1 t) (blk V c 2 t) (blk V c 3 t) (blk V c 4 t) (blk V c 5 t) := by dsimp only [dat]
theorem before0 (c : Dev nD) (t : Fin cfg2.N) (d) : (dat V c).before 0 t d = blk V c 0 t :=
  held0 V (dat V c) (dat_A V c 0) (after0 V c) t d
theorem before1 (c : Dev nD) (t : Fin cfg2.N) (d) : (dat V c).before 1 t d = blk V c 1 t :=
  held1 V (dat V c) (dat_A V c 1) (after1 V c) t d
theorem before2 (c : Dev nD) (t : Fin cfg2.N) (d) : (dat V c).before 2 t d = blk V c 2 t :=
  held2 V (dat V c) (dat_A V c 2) (after2 V c) t d
theorem before3 (c : Dev nD) (t : Fin cfg2.N) (d) : (dat V c).before 3 t d = blk V c 3 t :=
  held3 V (dat V c) (dat_A V c 3) (after3 V c) t d
theorem before4 (c : Dev nD) (t : Fin cfg2.N) (d) : (dat V c).before 4 t d = blk V c 4 t :=
  held4 V (dat V c) (dat_A V c 4) (after4 V c) t d
theorem before5 (c : Dev nD) (t : Fin cfg2.N) (d) : (dat V c).before 5 t d = blk V c 5 t :=
  held5 V (dat V c) (dat_A V c 5) (after5 V c) t d

/-- What the body is called with at point t: the invariant, the core's dues, and each window's current buffer, -/
def pre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def post (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' buffers hold their blocks, so the body's triple applies; the invariant and the
    core's dues pass through untouched. -/
theorem soundBody (c : Dev nD) (t : Fin cfg2.N) :
    pre V c t ⊢ wp frame (wpE (defs₀ (F := F)) Variants.none c none) Set.univ (bodyAt2 t) (fun _ => post V c t) := by
  unfold pre post bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid2.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W2, bigSep_W2]
  exact soundBody V c t

end Cert.Kernel.R2

end
-- ==== Proof.BRegion3.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k3_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid3.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc3__mlp_kernel i arg1 harg1 arg2 harg2 arg3 harg3 arg4 harg4 arg5 harg5 arg6 harg6 arg7 harg7) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, fetched there or not: a point that does not fetch finds
    the same block index as the point before, and the body left the block in place. -/
theorem held0 {c : Dev nD} (dat : Dat τ (Elt F) Unit ℕ (Pipeline.UD sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec3 c
  q _ := fullShare
  owed _ := 0

theorem dat_A (c : Dev nD) (w : Fin cfg3.W) : (dat V c).A w = V c (Pipeline.arrRef spec3 w) := by dsimp only [dat]
theorem after0 (c : Dev nD) (t : Fin cfg3.N) : (dat V c).after 0 t = blk V c 0 t := by dsimp only [dat]
theorem after1 (c : Dev nD) (t : Fin cfg3.N) : (dat V c).after 1 t = blk V c 1 t := by dsimp only [dat]
theorem after2 (c : Dev nD) (t : Fin cfg3.N) : (dat V c).after 2 t = blk V c 2 t := by dsimp only [dat]
theorem after3 (c : Dev nD) (t : Fin cfg3.N) : (dat V c).after 3 t = blk V c 3 t := by dsimp only [dat]
theorem after4 (c : Dev nD) (t : Fin cfg3.N) : (dat V c).after 4 t = blk V c 4 t := by dsimp only [dat]
theorem after5 (c : Dev nD) (t : Fin cfg3.N) : (dat V c).after 5 t = blk V c 5 t := by dsimp only [dat]
theorem after6 (c : Dev nD) (t : Fin cfg3.N) : (dat V c).after 6 t = out (blk V c 0 t) (blk V c 1 t) (blk V c 2 t) (blk V c 3 t) (blk V c 4 t) (blk V c 5 t) := by dsimp only [dat]
theorem before0 (c : Dev nD) (t : Fin cfg3.N) (d) : (dat V c).before 0 t d = blk V c 0 t :=
  held0 V (dat V c) (dat_A V c 0) (after0 V c) t d
theorem before1 (c : Dev nD) (t : Fin cfg3.N) (d) : (dat V c).before 1 t d = blk V c 1 t :=
  held1 V (dat V c) (dat_A V c 1) (after1 V c) t d
theorem before2 (c : Dev nD) (t : Fin cfg3.N) (d) : (dat V c).before 2 t d = blk V c 2 t :=
  held2 V (dat V c) (dat_A V c 2) (after2 V c) t d
theorem before3 (c : Dev nD) (t : Fin cfg3.N) (d) : (dat V c).before 3 t d = blk V c 3 t :=
  held3 V (dat V c) (dat_A V c 3) (after3 V c) t d
theorem before4 (c : Dev nD) (t : Fin cfg3.N) (d) : (dat V c).before 4 t d = blk V c 4 t :=
  held4 V (dat V c) (dat_A V c 4) (after4 V c) t d
theorem before5 (c : Dev nD) (t : Fin cfg3.N) (d) : (dat V c).before 5 t d = blk V c 5 t :=
  held5 V (dat V c) (dat_A V c 5) (after5 V c) t d

/-- What the body is called with at point t: the invariant, the core's dues, and each window's current buffer, -/
def pre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

/-- and what it returns. -/
def post (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

/-- The body at any point: the inputs' buffers hold their blocks, so the body's triple applies; the invariant and the
    core's dues pass through untouched. -/
theorem soundBody (c : Dev nD) (t : Fin cfg3.N) :
    pre V c t ⊢ wp frame (wpE (defs₀ (F := F)) Variants.none c none) Set.univ (bodyAt3 t) (fun _ => post V c t) := by
  unfold pre post bodyAt3
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid3.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W3, bigSep_W3]
  exact soundBody V c t

end Cert.Kernel.R3

end
-- ==== Proof.BReduce4Body.lean ====
/-
  The column sums of a 50000 x 256 array and of its squares, block by block of 2000 rows. Two 1 x 256 scratch rows
  carry the running sums from one grid point to the next: at the first point they are reset to zero, at every point
  the block's column sums (of the entries, and of their squares) are added to them, and at the last point they are
  copied into the two output rows. Here: the body on whole buffers, in each of the three situations a point can be in
  (the first, the last, or neither; with 25 points the first is not the last).
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- A whole 1 x 256 row as a rectangle, and the origin of a rank-2 block. -/
abbrev rR : Rect S1x256 := Rect.unit (s := S1x256) ![0, 0] S1x256.size inb_S1x256_S1x256_0_0
theorem hz : (![0, 0] : Fin 2 → Nat) = fun _ => 0 := funext fun a => by fin_cases a <;> rfl

/-- One store of a whole row covers the row. -/
theorem cover (p : Vec F S1x256 .f32) (y : S1x256.Idx) :
    ∃ pc ∈ ([⟨rR, p⟩] : List (View.Piece (Elt F) S1x256 .f32)), y ∈ pc.1.set :=
  View.cover_of_tiled [⟨rR, p⟩] S1x256.size (by rfl) y

/-- A whole-row store at the head of a list of stores covers the row, whatever follows it. -/
theorem coverCons (p : Vec F S1x256 .f32) (L : List (View.Piece (Elt F) S1x256 .f32)) (y : S1x256.Idx) :
    ∃ pc ∈ ((⟨rR, p⟩ : View.Piece (Elt F) S1x256 .f32) :: L), y ∈ pc.1.set := by
  obtain ⟨pc, hm, hy⟩ := cover p y
  rw [List.mem_singleton] at hm
  exact ⟨pc, hm ▸ List.mem_cons_self, hy⟩

/-- The test "this is the first grid point", as the body computes it from the point's coordinate. -/
def isFirst (i : grid4.Coords) : BitVec 1 :=
  Scalar.cmpi .ne (Scalar.extui (Scalar.cmpi .eq (BitVec.ofNat 32 (i 0).val) 0#32) : BitVec 32) 0#32

/-- The running column sum after a block x, from the sum s before it; and the same for the squares. -/
abbrev addSum (x : Vec F S2000x256 .f32) (s : Vec F S1x256 .f32) : Vec F S1x256 .f32 := k4_pay4 x s
abbrev addSq (x : Vec F S2000x256 .f32) (q : Vec F S1x256 .f32) : Vec F S1x256 .f32 := k4_pay5 x q

set_option maxHeartbeats 1000000 in
/-- At the first point: whatever the scratch rows held, they end at the first block's sums from zero; the output rows are not touched. -/
theorem first (c : Dev nD) (E : Set ℕ) (i : grid4.Coords) (h1 : isFirst i = 1#1) (h2 : ¬ k4_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x k4_pay1) ∗ owns (c : Thread nD τ) arg5 fullShare (addSq x k4_pay2)) -∗ K ⟨⟩))
      ⊢ wp frame (wpE (defs₀ (F := F)) Variants.none c none) E (cc4__bn_reduce_kernel i arg1 harg1 arg2 harg2 arg3 harg3 arg4 harg4 arg5 harg5) K := by
  simp only [cc4__bn_reduce_kernel_eq_skeleton]; unfold cc4__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At a point that is neither first nor last: the block's sums are added to the scratch rows; the output rows are not touched. -/
theorem middle (c : Dev nD) (E : Set ℕ) (i : grid4.Coords) (h1 : ¬ isFirst i = 1#1) (h2 : ¬ k4_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x s) ∗ owns (c : Thread nD τ) arg5 fullShare (addSq x q)) -∗ K ⟨⟩))
      ⊢ wp frame (wpE (defs₀ (F := F)) Variants.none c none) E (cc4__bn_reduce_kernel i arg1 harg1 arg2 harg2 arg3 harg3 arg4 harg4 arg5 harg5) K := by
  simp only [cc4__bn_reduce_kernel_eq_skeleton]; unfold cc4__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At the last point: the block's sums are added to the scratch rows, and the totals are copied into the output rows. -/
theorem last (c : Dev nD) (E : Set ℕ) (i : grid4.Coords) (h1 : ¬ isFirst i = 1#1) (h2 : k4_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare (addSum x s) ∗ owns (c : Thread nD τ) arg3 fullShare (addSq x q)
            ∗ owns (c : Thread nD τ) arg4 fullShare (addSum x s) ∗ owns (c : Thread nD τ) arg5 fullShare (addSq x q)) -∗ K ⟨⟩))
      ⊢ wp frame (wpE (defs₀ (F := F)) Variants.none c none) E (cc4__bn_reduce_kernel i arg1 harg1 arg2 harg2 arg3 harg3 arg4 harg4 arg5 harg5) K := by
  simp only [cc4__bn_reduce_kernel_eq_skeleton]; unfold cc4__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

end Cert.Kernel.R4

end
-- ==== Proof.BReduce4Region.lean ====
/-
  The proof data of the column-sum region. After the first n blocks the two scratch rows hold the column sums of the
  first 2000·n rows (`sumTo n`) and of their squares (`sqTo n`), built up from zero one block at a time. Between
  points the invariant keeps the two scratch rows: before the first point at anything, after point t at the sums over
  blocks 0 … t. The two output rows are left alone until the last point, where they receive the totals and are
  written back.
-/
import proofs.«162580_j71794673320191_1_alg».proof.Proof.BReduce4Body

set_option maxRecDepth 16384

noncomputable section

namespace Cert.Kernel.R4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The two tests in closed form over the 25 grid points. -/
theorem first_iff : ∀ t : Fin cfg4.N, isFirst (grid4.coords t) = 1#1 ↔ t.val = 0 :=
  (by decide +kernel : ∀ t : Fin grid4.N, isFirst (grid4.coords t) = 1#1 ↔ t.val = 0)
theorem last_iff : ∀ t : Fin cfg4.N, k4_cond2 (grid4.coords t) = 1#1 ↔ t.val = 24 :=
  (by decide +kernel : ∀ t : Fin grid4.N, k4_cond2 (grid4.coords t) = 1#1 ↔ t.val = 24)

variable (V : (c : Dev nD) → (b : Ref sig .tc) → Buf (Elt F) ((c : Thread nD τ).loc b))

/-- Window w's block at point t, read off its array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's buffer holds its block at every point. -/
theorem held0 {c : Dev nD} (dat : Dat τ (Elt F) Unit ℕ (Pipeline.UD sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column sums over the first n blocks, from zero; and of the squares. -/
def sumTo (c : Dev nD) : ℕ → Vec F S1x256 .f32
  | 0 => k4_pay1
  | n + 1 => if h : n < cfg4.N then addSum (blk V c 0 ⟨n, h⟩) (sumTo c n) else sumTo c n
def sqTo (c : Dev nD) : ℕ → Vec F S1x256 .f32
  | 0 => k4_pay2
  | n + 1 => if h : n < cfg4.N then addSq (blk V c 0 ⟨n, h⟩) (sqTo c n) else sqTo c n

theorem sumTo_succ (c : Dev nD) (t : Fin cfg4.N) : sumTo V c (t.val + 1) = addSum (blk V c 0 t) (sumTo V c t.val) := by
  rw [sumTo, dif_pos t.isLt]
theorem sqTo_succ (c : Dev nD) (t : Fin cfg4.N) : sqTo V c (t.val + 1) = addSq (blk V c 0 t) (sqTo V c t.val) := by
  rw [sqTo, dif_pos t.isLt]

/-- What is kept between points: the two scratch rows — at the sums over the blocks done so far once a point has run —,
    the rest of the core's scoped buffers unopened, and the generator register. -/
def inv (c : Dev nD) (n : ℕ) : sProp 𝕄 :=
  iprop((∃ s q, owns (c : Thread nD τ) (Memref.whole cc4_scratch0 : Memref sig .tc .vmem S1x256 .f32) fullShare s ∗ owns (c : Thread nD τ) (Memref.whole cc4_scratch1 : Memref sig .tc .vmem S1x256 .f32) fullShare q ∗ ⌜n ≠ 0 → s = sumTo V c n ∧ q = sqTo V c n⌝)
    ∗ Pipeline.scopedRestBut (Ix := Unit) (Name := ℕ) (U := Pipeline.UD sig nD τ) (Lvl := ℕ) (Val := Elt F) spec4 c [cc4_scratch0, cc4_scratch1]
    ∗ ∃ r, prngReg c r)

/-- Entering the region: the scratch rows come out of the core's scoped buffers, at anything. -/
theorem inv_in (c : Dev nD) :
    iprop(Pipeline.scopedRest (Ix := Unit) (Name := ℕ) (U := Pipeline.UD sig nD τ) (Lvl := ℕ) (Val := Elt F) spec4 c ∗ ∃ r, prngReg c r)
      ⊢ inv V c 0 := by
  rw [scopedRest4_split]; unfold inv; simp only [owns_whole]
  iintro ⟨⟨⟨⟨%f0, H0⟩, ⟨%f1, H1⟩⟩, Hrest⟩, Hg⟩
  isplitl [H0 H1]
  · iexists f0, f1
    isplitl [H0]; · iexact H0
    isplitl [H1]; · iexact H1
    ipureintro; intro h; exact absurd rfl h
  isplitl [Hrest]; · iexact Hrest
  iexact Hg

/-- Leaving it: they go back, their contents forgotten. -/
theorem inv_out (c : Dev nD) (n : ℕ) :
    inv V c n ⊢ iprop(Pipeline.scopedRest (Ix := Unit) (Name := ℕ) (U := Pipeline.UD sig nD τ) (Lvl := ℕ) (Val := Elt F) spec4 c ∗ ∃ r, prngReg c r) := by
  rw [scopedRest4_split]; unfold inv; simp only [owns_whole]
  iintro ⟨⟨%f0, %f1, H0, H1, -⟩, Hrest, Hg⟩
  isplitl [H0 H1 Hrest]
  · isplitl [H0 H1]
    · isplitl [H0]; · iexists f0; iexact H0
      iexists f1; iexact H1
    iexact Hrest
  iexact Hg

/-- The region's proof data on core c. -/
def dat (c : Dev nD) : Dat τ (Elt F) Unit ℕ (Pipeline.UD sig nD τ) ℕ cfg4 c where
  A w := V c (Pipeline.arrRef spec4 w)
  after w t := match w with
    | ⟨0, _⟩ => blk V c 0 t
    | ⟨1, _⟩ => sumTo V c (t.val + 1)
    | ⟨2, _⟩ => sqTo V c (t.val + 1)
  Φ j := inv V c j.val
  q _ := fullShare
  owed _ := 0

theorem dat_A (c : Dev nD) (w : Fin cfg4.W) : (dat V c).A w = V c (Pipeline.arrRef spec4 w) := by dsimp only [dat]
theorem after0 (c : Dev nD) (t : Fin cfg4.N) : (dat V c).after 0 t = blk V c 0 t := by dsimp only [dat]
theorem after1 (c : Dev nD) (t : Fin cfg4.N) : (dat V c).after 1 t = sumTo V c (t.val + 1) := by dsimp only [dat]
theorem after2 (c : Dev nD) (t : Fin cfg4.N) : (dat V c).after 2 t = sqTo V c (t.val + 1) := by dsimp only [dat]
theorem before0 (c : Dev nD) (t : Fin cfg4.N) (d) : (dat V c).before 0 t d = blk V c 0 t :=
  held0 V (dat V c) (dat_A V c 0) (after0 V c) t d

/-- What the body is called with at point t, -/
def pre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

/-- what it returns at a point other than the last (the output rows as they were found), -/
def postKept (c : Dev nD) (t : Fin cfg4.N) : sProp 𝕄 :=
  iprop((dat V c).Φ t.succ ∗ (dat V c).owesAt () t.succ
    ∗ owns (c : Thread nD τ) (st4_0 t) fullShare ((dat V c).after 0 t)
    ∗ (∃ d, owns (c : Thread nD τ) (st4_1 t) fullShare ((dat V c).before 1 t d))
    ∗ (∃ d, owns (c : Thread nD τ) (st4_2 t) fullShare ((dat V c).before 2 t d)))

/-- and what it returns at the last point (the output rows at the totals). -/
def postLast (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t))

/-- The body at a point other than the last: the first point resets the scratch rows, every point adds its block. -/
theorem soundKept (c : Dev nD) (t : Fin cfg4.N) (hl : t.val ≠ 24) :
    pre V c t ⊢ wp frame (wpE (defs₀ (F := F)) Variants.none c none) Set.univ (bodyAt4 t) (fun _ => postKept V c t) := by
  unfold pre postKept bodyAt4
  simp only [before0]
  rw [show (dat V c).Φ t.castSucc = inv V c t.val from rfl, show (dat V c).Φ t.succ = inv V c (t.val + 1) from rfl,
    show (dat V c).owesAt () t.succ = (dat V c).owesAt () t.castSucc from rfl, after0]
  unfold inv
  iintro ⟨⟨⟨%s, %q, Hs, Hq, %hsq⟩, Hrest, Hg⟩, Ho, ⟨%d0, H0⟩, ⟨%d1, H1⟩, ⟨%d2, H2⟩⟩
  have hnl : ¬ k4_cond2 (grid4.coords t) = 1#1 := fun h => hl ((last_iff t).mp h)
  by_cases h0 : t.val = 0
  · iapply (first c Set.univ (grid4.coords t) ((first_iff t).mpr h0) hnl _ _ _ _ _ _ _ _ _ _ (blk V c 0 t) s q _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨by rw [sumTo_succ, h0]; rfl, by rw [sqTo_succ, h0]; rfl⟩
      isplitl [Hrest]; · iexact Hrest
      iexact Hg
    isplitl [Ho]; · iexact Ho
    isplitl [H0]; · iexact H0
    isplitl [H1]; · iexists _; iexact H1
    iexists _; iexact H2
  · obtain ⟨rfl, rfl⟩ := hsq h0
    iapply (middle c Set.univ (grid4.coords t) (fun h => h0 ((first_iff t).mp h)) hnl _ _ _ _ _ _ _ _ _ _ (blk V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨(sumTo_succ V c t).symm, (sqTo_succ V c t).symm⟩
      isplitl [Hrest]; · iexact Hrest
      iexact Hg
    isplitl [Ho]; · iexact Ho
    isplitl [H0]; · iexact H0
    isplitl [H1]; · iexists _; iexact H1
    iexists _; iexact H2

/-- The body at the last point: its block is added and the totals go to the output rows. -/
theorem soundLast (c : Dev nD) (t : Fin cfg4.N) (hl : t.val = 24) :
    pre V c t ⊢ wp frame (wpE (defs₀ (F := F)) Variants.none c none) Set.univ (bodyAt4 t) (fun _ => postLast V c t) := by
  unfold pre postLast bodyAt4
  simp only [before0]
  rw [show (dat V c).Φ t.castSucc = inv V c t.val from rfl, show (dat V c).Φ t.succ = inv V c (t.val + 1) from rfl,
    show (dat V c).owesAt () t.succ = (dat V c).owesAt () t.castSucc from rfl, after0, after1, after2]
  unfold inv
  iintro ⟨⟨⟨%s, %q, Hs, Hq, %hsq⟩, Hrest, Hg⟩, Ho, ⟨%d0, H0⟩, ⟨%d1, H1⟩, ⟨%d2, H2⟩⟩
  have h0 : t.val ≠ 0 := by omega
  obtain ⟨rfl, rfl⟩ := hsq h0
  iapply (last c Set.univ (grid4.coords t) (fun h => h0 ((first_iff t).mp h)) ((last_iff t).mpr hl) _ _ _ _ _ _ _ _ _ _ (blk V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  rw [sumTo_succ, sqTo_succ]
  isplitl [Hs Hq Hrest Hg]
  · isplitl [Hs Hq]
    · iexists _, _
      isplitl [Hs]; · iexact Hs
      isplitl [Hq]; · iexact Hq
      ipureintro; intro _
      exact ⟨rfl, rfl⟩
    isplitl [Hrest]; · iexact Hrest
    iexact Hg
  isplitl [Ho]; · iexact Ho
  isplitl [H0]; · iexact H0
  isplitl [H1]; · iexact H1
  iexact H2

/-- The pipeline's body obligation, at every point: the output rows count as untouched except at the last point,
    which is also the only point that writes them back. -/
theorem obligation (c : Dev nD) : BodyObligation (dat (F := F) V c) (defs₀ (F := F)) Variants.none () Set.univ := fun t => by
  rw [bigSep_W4, bigSep_W4]
  by_cases hl : t.val = 24
  · have hc : k4_cond2 (grid4.coords t) = 1#1 := (last_iff t).mpr hl
    have hi1 : idle4 1 (grid4.coords t) = false := by
      show (!(k4_cond2 (grid4.coords t) == 1#1)) = false
      rw [hc]; rfl
    have hi2 : idle4 2 (grid4.coords t) = false := by
      show (!(k4_cond2 (grid4.coords t) == 1#1)) = false
      rw [hc]; rfl
    simp only [hi1, hi2]
    exact soundLast V c t hl
  · have hc : ¬ k4_cond2 (grid4.coords t) = 1#1 := fun h => hl ((last_iff t).mp h)
    have hi1 : idle4 1 (grid4.coords t) = true := by
      show (!(k4_cond2 (grid4.coords t) == 1#1)) = true
      simp only [beq_iff_eq, hc, Bool.not_eq_true', Bool.not_false, decide_false, beq_eq_false_iff_ne, ne_eq, not_false_eq_true]
    have hi2 : idle4 2 (grid4.coords t) = true := by
      show (!(k4_cond2 (grid4.coords t) == 1#1)) = true
      simp only [beq_iff_eq, hc, Bool.not_eq_true', Bool.not_false, decide_false, beq_eq_false_iff_ne, ne_eq, not_false_eq_true]
    have hf1 : (cfg4.win 1).flush t = false := by
      have := flush4_1 t; have hm : ¬ t.val % 25 = 24 := by have := t.isLt; have : cfg4.N = 25 := N_4; omega
      exact Bool.eq_false_iff.mpr fun h => hm (this.mp h)
    have hf2 : (cfg4.win 2).flush t = false := by
      have := flush4_2 t; have hm : ¬ t.val % 25 = 24 := by have := t.isLt; have : cfg4.N = 25 := N_4; omega
      exact Bool.eq_false_iff.mpr fun h => hm (this.mp h)
    simp only [hi1, hi2, hf1, hf2]
    exact soundKept V c t hl

end Cert.Kernel.R4

end
-- ==== Proof.BRegion5.lean ====
/-
  Batch normalisation applied to a block of 2000 node rows: (row - mean) times the inverse standard deviation times the scale plus the shift, the four 1 x 256 rows repeated down the block (and, in the layers that have it, clipped below at zero).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S1x256 .f32) (x2 : Vec F S1x256 .f32) (x3 : Vec F S1x256 .f32) (x4 : Vec F S1x256 .f32) : Vec F S2000x256 .f32 :=
  View.canon [⟨rO, k5_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid5.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc5__bn_norm_kernel i arg1 harg1 arg2 harg2 arg3 harg3 arg4 harg4 arg5 harg5 arg6 harg6) K := by
  simp only [cc5__bn_norm_kernel_eq_skeleton]; unfold cc5__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's buffer holds its block at every point, fetched there or not: a point that does not fetch finds
    the same block index as the point before, and the body left the block in place. -/
theorem held0 {c : Dev nD} (dat : Dat τ (Elt F) Unit ℕ (Pipeline.UD sig nD τ) ℕ cfg5 c) (hA : dat.A 0 = V c (Pipeline.arrRef spec5 0))
    (hafter : ∀ t, dat.after 0 t = blk V c 0 t) (t : Fin cfg5.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg5 c) (hA : dat.A 1 = V c (Pipeline.arrRef spec5 1))
    (hafter : ∀ t, dat.after 1 t = blk V c 1 t) (t : Fin cfg5.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg5 c) (hA : dat.A 2 = V c (Pipeline.arrRef spec5 2))
    (hafter : ∀ t, dat.after 2 t = blk V c 2 t) (t : Fin cfg5.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg5 c) (hA : dat.A 3 = V c (Pipeline.arrRef spec5 3))
    (hafter : ∀ t, dat.after 3 t = blk V c 3 t) (t : Fin cfg5.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg5 c) (hA : dat.A 4 = V c (Pipeline.arrRef spec5 4))
    (hafter : ∀ t, dat.after 4 t = blk V c 4 t) (t : Fin cfg5.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec5 c
  q _ := fullShare
  owed _ := 0

theorem dat_A (c : Dev nD) (w : Fin cfg5.W) : (dat V c).A w = V c (Pipeline.arrRef spec5 w) := by dsimp only [dat]
theorem after0 (c : Dev nD) (t : Fin cfg5.N) : (dat V c).after 0 t = blk V c 0 t := by dsimp only [dat]
theorem after1 (c : Dev nD) (t : Fin cfg5.N) : (dat V c).after 1 t = blk V c 1 t := by dsimp only [dat]
theorem after2 (c : Dev nD) (t : Fin cfg5.N) : (dat V c).after 2 t = blk V c 2 t := by dsimp only [dat]
theorem after3 (c : Dev nD) (t : Fin cfg5.N) : (dat V c).after 3 t = blk V c 3 t := by dsimp only [dat]
theorem after4 (c : Dev nD) (t : Fin cfg5.N) : (dat V c).after 4 t = blk V c 4 t := by dsimp only [dat]
theorem after5 (c : Dev nD) (t : Fin cfg5.N) : (dat V c).after 5 t = out (blk V c 0 t) (blk V c 1 t) (blk V c 2 t) (blk V c 3 t) (blk V c 4 t) := by dsimp only [dat]
theorem before0 (c : Dev nD) (t : Fin cfg5.N) (d) : (dat V c).before 0 t d = blk V c 0 t :=
  held0 V (dat V c) (dat_A V c 0) (after0 V c) t d
theorem before1 (c : Dev nD) (t : Fin cfg5.N) (d) : (dat V c).before 1 t d = blk V c 1 t :=
  held1 V (dat V c) (dat_A V c 1) (after1 V c) t d
theorem before2 (c : Dev nD) (t : Fin cfg5.N) (d) : (dat V c).before 2 t d = blk V c 2 t :=
  held2 V (dat V c) (dat_A V c 2) (after2 V c) t d
theorem before3 (c : Dev nD) (t : Fin cfg5.N) (d) : (dat V c).before 3 t d = blk V c 3 t :=
  held3 V (dat V c) (dat_A V c 3) (after3 V c) t d
theorem before4 (c : Dev nD) (t : Fin cfg5.N) (d) : (dat V c).before 4 t d = blk V c 4 t :=
  held4 V (dat V c) (dat_A V c 4) (after4 V c) t d

/-- What the body is called with at point t: the invariant, the core's dues, and each window's current buffer, -/
def pre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it returns. -/
def post (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

/-- The body at any point: the inputs' buffers hold their blocks, so the body's triple applies; the invariant and the
    core's dues pass through untouched. -/
theorem soundBody (c : Dev nD) (t : Fin cfg5.N) :
    pre V c t ⊢ wp frame (wpE (defs₀ (F := F)) Variants.none c none) Set.univ (bodyAt5 t) (fun _ => post V c t) := by
  unfold pre post bodyAt5
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid5.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation (c : Dev nD) : BodyObligation (dat (F := F) V c) (defs₀ (F := F)) Variants.none () Set.univ := fun t => by
  rw [bigSep_W5, bigSep_W5]
  exact soundBody V c t

end Cert.Kernel.R5

end
-- ==== Proof.BRegion6.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k6_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid6.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc6__mlp_kernel i arg1 harg1 arg2 harg2 arg3 harg3 arg4 harg4 arg5 harg5 arg6 harg6 arg7 harg7) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's buffer holds its block at every point, fetched there or not: a point that does not fetch finds
    the same block index as the point before, and the body left the block in place. -/
theorem held0 {c : Dev nD} (dat : Dat τ (Elt F) Unit ℕ (Pipeline.UD sig nD τ) ℕ cfg6 c) (hA : dat.A 0 = V c (Pipeline.arrRef spec6 0))
    (hafter : ∀ t, dat.after 0 t = blk V c 0 t) (t : Fin cfg6.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg6 c) (hA : dat.A 1 = V c (Pipeline.arrRef spec6 1))
    (hafter : ∀ t, dat.after 1 t = blk V c 1 t) (t : Fin cfg6.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg6 c) (hA : dat.A 2 = V c (Pipeline.arrRef spec6 2))
    (hafter : ∀ t, dat.after 2 t = blk V c 2 t) (t : Fin cfg6.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg6 c) (hA : dat.A 3 = V c (Pipeline.arrRef spec6 3))
    (hafter : ∀ t, dat.after 3 t = blk V c 3 t) (t : Fin cfg6.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg6 c) (hA : dat.A 4 = V c (Pipeline.arrRef spec6 4))
    (hafter : ∀ t, dat.after 4 t = blk V c 4 t) (t : Fin cfg6.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg6 c) (hA : dat.A 5 = V c (Pipeline.arrRef spec6 5))
    (hafter : ∀ t, dat.after 5 t = blk V c 5 t) (t : Fin cfg6.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec6 c
  q _ := fullShare
  owed _ := 0

theorem dat_A (c : Dev nD) (w : Fin cfg6.W) : (dat V c).A w = V c (Pipeline.arrRef spec6 w) := by dsimp only [dat]
theorem after0 (c : Dev nD) (t : Fin cfg6.N) : (dat V c).after 0 t = blk V c 0 t := by dsimp only [dat]
theorem after1 (c : Dev nD) (t : Fin cfg6.N) : (dat V c).after 1 t = blk V c 1 t := by dsimp only [dat]
theorem after2 (c : Dev nD) (t : Fin cfg6.N) : (dat V c).after 2 t = blk V c 2 t := by dsimp only [dat]
theorem after3 (c : Dev nD) (t : Fin cfg6.N) : (dat V c).after 3 t = blk V c 3 t := by dsimp only [dat]
theorem after4 (c : Dev nD) (t : Fin cfg6.N) : (dat V c).after 4 t = blk V c 4 t := by dsimp only [dat]
theorem after5 (c : Dev nD) (t : Fin cfg6.N) : (dat V c).after 5 t = blk V c 5 t := by dsimp only [dat]
theorem after6 (c : Dev nD) (t : Fin cfg6.N) : (dat V c).after 6 t = out (blk V c 0 t) (blk V c 1 t) (blk V c 2 t) (blk V c 3 t) (blk V c 4 t) (blk V c 5 t) := by dsimp only [dat]
theorem before0 (c : Dev nD) (t : Fin cfg6.N) (d) : (dat V c).before 0 t d = blk V c 0 t :=
  held0 V (dat V c) (dat_A V c 0) (after0 V c) t d
theorem before1 (c : Dev nD) (t : Fin cfg6.N) (d) : (dat V c).before 1 t d = blk V c 1 t :=
  held1 V (dat V c) (dat_A V c 1) (after1 V c) t d
theorem before2 (c : Dev nD) (t : Fin cfg6.N) (d) : (dat V c).before 2 t d = blk V c 2 t :=
  held2 V (dat V c) (dat_A V c 2) (after2 V c) t d
theorem before3 (c : Dev nD) (t : Fin cfg6.N) (d) : (dat V c).before 3 t d = blk V c 3 t :=
  held3 V (dat V c) (dat_A V c 3) (after3 V c) t d
theorem before4 (c : Dev nD) (t : Fin cfg6.N) (d) : (dat V c).before 4 t d = blk V c 4 t :=
  held4 V (dat V c) (dat_A V c 4) (after4 V c) t d
theorem before5 (c : Dev nD) (t : Fin cfg6.N) (d) : (dat V c).before 5 t d = blk V c 5 t :=
  held5 V (dat V c) (dat_A V c 5) (after5 V c) t d

/-- What the body is called with at point t: the invariant, the core's dues, and each window's current buffer, -/
def pre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d)))

/-- and what it returns. -/
def post (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t)
    ∗ owns (c : Thread nD τ) (st6_6 t) fullShare ((dat V c).after 6 t))

/-- The body at any point: the inputs' buffers hold their blocks, so the body's triple applies; the invariant and the
    core's dues pass through untouched. -/
theorem soundBody (c : Dev nD) (t : Fin cfg6.N) :
    pre V c t ⊢ wp frame (wpE (defs₀ (F := F)) Variants.none c none) Set.univ (bodyAt6 t) (fun _ => post V c t) := by
  unfold pre post bodyAt6
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid6.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W6, bigSep_W6]
  exact soundBody V c t

end Cert.Kernel.R6

end
-- ==== Proof.BRegion7.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k7_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid7.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc7__mlp_kernel i arg1 harg1 arg2 harg2 arg3 harg3 arg4 harg4 arg5 harg5 arg6 harg6 arg7 harg7) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's buffer holds its block at every point, fetched there or not: a point that does not fetch finds
    the same block index as the point before, and the body left the block in place. -/
theorem held0 {c : Dev nD} (dat : Dat τ (Elt F) Unit ℕ (Pipeline.UD sig nD τ) ℕ cfg7 c) (hA : dat.A 0 = V c (Pipeline.arrRef spec7 0))
    (hafter : ∀ t, dat.after 0 t = blk V c 0 t) (t : Fin cfg7.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg7 c) (hA : dat.A 1 = V c (Pipeline.arrRef spec7 1))
    (hafter : ∀ t, dat.after 1 t = blk V c 1 t) (t : Fin cfg7.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg7 c) (hA : dat.A 2 = V c (Pipeline.arrRef spec7 2))
    (hafter : ∀ t, dat.after 2 t = blk V c 2 t) (t : Fin cfg7.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg7 c) (hA : dat.A 3 = V c (Pipeline.arrRef spec7 3))
    (hafter : ∀ t, dat.after 3 t = blk V c 3 t) (t : Fin cfg7.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg7 c) (hA : dat.A 4 = V c (Pipeline.arrRef spec7 4))
    (hafter : ∀ t, dat.after 4 t = blk V c 4 t) (t : Fin cfg7.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg7 c) (hA : dat.A 5 = V c (Pipeline.arrRef spec7 5))
    (hafter : ∀ t, dat.after 5 t = blk V c 5 t) (t : Fin cfg7.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec7 c
  q _ := fullShare
  owed _ := 0

theorem dat_A (c : Dev nD) (w : Fin cfg7.W) : (dat V c).A w = V c (Pipeline.arrRef spec7 w) := by dsimp only [dat]
theorem after0 (c : Dev nD) (t : Fin cfg7.N) : (dat V c).after 0 t = blk V c 0 t := by dsimp only [dat]
theorem after1 (c : Dev nD) (t : Fin cfg7.N) : (dat V c).after 1 t = blk V c 1 t := by dsimp only [dat]
theorem after2 (c : Dev nD) (t : Fin cfg7.N) : (dat V c).after 2 t = blk V c 2 t := by dsimp only [dat]
theorem after3 (c : Dev nD) (t : Fin cfg7.N) : (dat V c).after 3 t = blk V c 3 t := by dsimp only [dat]
theorem after4 (c : Dev nD) (t : Fin cfg7.N) : (dat V c).after 4 t = blk V c 4 t := by dsimp only [dat]
theorem after5 (c : Dev nD) (t : Fin cfg7.N) : (dat V c).after 5 t = blk V c 5 t := by dsimp only [dat]
theorem after6 (c : Dev nD) (t : Fin cfg7.N) : (dat V c).after 6 t = out (blk V c 0 t) (blk V c 1 t) (blk V c 2 t) (blk V c 3 t) (blk V c 4 t) (blk V c 5 t) := by dsimp only [dat]
theorem before0 (c : Dev nD) (t : Fin cfg7.N) (d) : (dat V c).before 0 t d = blk V c 0 t :=
  held0 V (dat V c) (dat_A V c 0) (after0 V c) t d
theorem before1 (c : Dev nD) (t : Fin cfg7.N) (d) : (dat V c).before 1 t d = blk V c 1 t :=
  held1 V (dat V c) (dat_A V c 1) (after1 V c) t d
theorem before2 (c : Dev nD) (t : Fin cfg7.N) (d) : (dat V c).before 2 t d = blk V c 2 t :=
  held2 V (dat V c) (dat_A V c 2) (after2 V c) t d
theorem before3 (c : Dev nD) (t : Fin cfg7.N) (d) : (dat V c).before 3 t d = blk V c 3 t :=
  held3 V (dat V c) (dat_A V c 3) (after3 V c) t d
theorem before4 (c : Dev nD) (t : Fin cfg7.N) (d) : (dat V c).before 4 t d = blk V c 4 t :=
  held4 V (dat V c) (dat_A V c 4) (after4 V c) t d
theorem before5 (c : Dev nD) (t : Fin cfg7.N) (d) : (dat V c).before 5 t d = blk V c 5 t :=
  held5 V (dat V c) (dat_A V c 5) (after5 V c) t d

/-- What the body is called with at point t: the invariant, the core's dues, and each window's current buffer, -/
def pre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d))
    ∗ (∃ d, owns (c : Thread nD τ) (st7_4 t) fullShare ((dat V c).before 4 t d))
    ∗ (∃ d, owns (c : Thread nD τ) (st7_5 t) fullShare ((dat V c).before 5 t d))
    ∗ (∃ d, owns (c : Thread nD τ) (st7_6 t) fullShare ((dat V c).before 6 t d)))

/-- and what it returns. -/
def post (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t)
    ∗ owns (c : Thread nD τ) (st7_4 t) fullShare ((dat V c).after 4 t)
    ∗ owns (c : Thread nD τ) (st7_5 t) fullShare ((dat V c).after 5 t)
    ∗ owns (c : Thread nD τ) (st7_6 t) fullShare ((dat V c).after 6 t))

/-- The body at any point: the inputs' buffers hold their blocks, so the body's triple applies; the invariant and the
    core's dues pass through untouched. -/
theorem soundBody (c : Dev nD) (t : Fin cfg7.N) :
    pre V c t ⊢ wp frame (wpE (defs₀ (F := F)) Variants.none c none) Set.univ (bodyAt7 t) (fun _ => post V c t) := by
  unfold pre post bodyAt7
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid7.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W7, bigSep_W7]
  exact soundBody V c t

end Cert.Kernel.R7

end
-- ==== Proof.BRegion8.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k8_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid8.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc8__mlp_kernel i arg1 harg1 arg2 harg2 arg3 harg3 arg4 harg4 arg5 harg5 arg6 harg6 arg7 harg7) K := by
  simp only [cc8__mlp_kernel_eq_skeleton]; unfold cc8__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's buffer holds its block at every point, fetched there or not: a point that does not fetch finds
    the same block index as the point before, and the body left the block in place. -/
theorem held0 {c : Dev nD} (dat : Dat τ (Elt F) Unit ℕ (Pipeline.UD sig nD τ) ℕ cfg8 c) (hA : dat.A 0 = V c (Pipeline.arrRef spec8 0))
    (hafter : ∀ t, dat.after 0 t = blk V c 0 t) (t : Fin cfg8.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg8 c) (hA : dat.A 1 = V c (Pipeline.arrRef spec8 1))
    (hafter : ∀ t, dat.after 1 t = blk V c 1 t) (t : Fin cfg8.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg8 c) (hA : dat.A 2 = V c (Pipeline.arrRef spec8 2))
    (hafter : ∀ t, dat.after 2 t = blk V c 2 t) (t : Fin cfg8.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg8 c) (hA : dat.A 3 = V c (Pipeline.arrRef spec8 3))
    (hafter : ∀ t, dat.after 3 t = blk V c 3 t) (t : Fin cfg8.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg8 c) (hA : dat.A 4 = V c (Pipeline.arrRef spec8 4))
    (hafter : ∀ t, dat.after 4 t = blk V c 4 t) (t : Fin cfg8.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg8 c) (hA : dat.A 5 = V c (Pipeline.arrRef spec8 5))
    (hafter : ∀ t, dat.after 5 t = blk V c 5 t) (t : Fin cfg8.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec8 c
  q _ := fullShare
  owed _ := 0

theorem dat_A (c : Dev nD) (w : Fin cfg8.W) : (dat V c).A w = V c (Pipeline.arrRef spec8 w) := by dsimp only [dat]
theorem after0 (c : Dev nD) (t : Fin cfg8.N) : (dat V c).after 0 t = blk V c 0 t := by dsimp only [dat]
theorem after1 (c : Dev nD) (t : Fin cfg8.N) : (dat V c).after 1 t = blk V c 1 t := by dsimp only [dat]
theorem after2 (c : Dev nD) (t : Fin cfg8.N) : (dat V c).after 2 t = blk V c 2 t := by dsimp only [dat]
theorem after3 (c : Dev nD) (t : Fin cfg8.N) : (dat V c).after 3 t = blk V c 3 t := by dsimp only [dat]
theorem after4 (c : Dev nD) (t : Fin cfg8.N) : (dat V c).after 4 t = blk V c 4 t := by dsimp only [dat]
theorem after5 (c : Dev nD) (t : Fin cfg8.N) : (dat V c).after 5 t = blk V c 5 t := by dsimp only [dat]
theorem after6 (c : Dev nD) (t : Fin cfg8.N) : (dat V c).after 6 t = out (blk V c 0 t) (blk V c 1 t) (blk V c 2 t) (blk V c 3 t) (blk V c 4 t) (blk V c 5 t) := by dsimp only [dat]
theorem before0 (c : Dev nD) (t : Fin cfg8.N) (d) : (dat V c).before 0 t d = blk V c 0 t :=
  held0 V (dat V c) (dat_A V c 0) (after0 V c) t d
theorem before1 (c : Dev nD) (t : Fin cfg8.N) (d) : (dat V c).before 1 t d = blk V c 1 t :=
  held1 V (dat V c) (dat_A V c 1) (after1 V c) t d
theorem before2 (c : Dev nD) (t : Fin cfg8.N) (d) : (dat V c).before 2 t d = blk V c 2 t :=
  held2 V (dat V c) (dat_A V c 2) (after2 V c) t d
theorem before3 (c : Dev nD) (t : Fin cfg8.N) (d) : (dat V c).before 3 t d = blk V c 3 t :=
  held3 V (dat V c) (dat_A V c 3) (after3 V c) t d
theorem before4 (c : Dev nD) (t : Fin cfg8.N) (d) : (dat V c).before 4 t d = blk V c 4 t :=
  held4 V (dat V c) (dat_A V c 4) (after4 V c) t d
theorem before5 (c : Dev nD) (t : Fin cfg8.N) (d) : (dat V c).before 5 t d = blk V c 5 t :=
  held5 V (dat V c) (dat_A V c 5) (after5 V c) t d

/-- What the body is called with at point t: the invariant, the core's dues, and each window's current buffer, -/
def pre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d))
    ∗ (∃ d, owns (c : Thread nD τ) (st8_3 t) fullShare ((dat V c).before 3 t d))
    ∗ (∃ d, owns (c : Thread nD τ) (st8_4 t) fullShare ((dat V c).before 4 t d))
    ∗ (∃ d, owns (c : Thread nD τ) (st8_5 t) fullShare ((dat V c).before 5 t d))
    ∗ (∃ d, owns (c : Thread nD τ) (st8_6 t) fullShare ((dat V c).before 6 t d)))

/-- and what it returns. -/
def post (c : Dev nD) (t : Fin cfg8.N) : sProp 𝕄 :=
  iprop((dat V c).Φ t.succ ∗ (dat V c).owesAt () t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t)
    ∗ owns (c : Thread nD τ) (st8_3 t) fullShare ((dat V c).after 3 t)
    ∗ owns (c : Thread nD τ) (st8_4 t) fullShare ((dat V c).after 4 t)
    ∗ owns (c : Thread nD τ) (st8_5 t) fullShare ((dat V c).after 5 t)
    ∗ owns (c : Thread nD τ) (st8_6 t) fullShare ((dat V c).after 6 t))

/-- The body at any point: the inputs' buffers hold their blocks, so the body's triple applies; the invariant and the
    core's dues pass through untouched. -/
theorem soundBody (c : Dev nD) (t : Fin cfg8.N) :
    pre V c t ⊢ wp frame (wpE (defs₀ (F := F)) Variants.none c none) Set.univ (bodyAt8 t) (fun _ => post V c t) := by
  unfold pre post bodyAt8
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid8.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W8, bigSep_W8]
  exact soundBody V c t

end Cert.Kernel.R8

end
-- ==== Proof.BReduce9Body.lean ====
/-
  The column sums of a 50000 x 256 array and of its squares, block by block of 2000 rows. Two 1 x 256 scratch rows
  carry the running sums from one grid point to the next: at the first point they are reset to zero, at every point
  the block's column sums (of the entries, and of their squares) are added to them, and at the last point they are
  copied into the two output rows. Here: the body on whole buffers, in each of the three situations a point can be in
  (the first, the last, or neither; with 25 points the first is not the last).
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.R9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- A whole 1 x 256 row as a rectangle, and the origin of a rank-2 block. -/
abbrev rR : Rect S1x256 := Rect.unit (s := S1x256) ![0, 0] S1x256.size inb_S1x256_S1x256_0_0
theorem hz : (![0, 0] : Fin 2 → Nat) = fun _ => 0 := funext fun a => by fin_cases a <;> rfl

/-- One store of a whole row covers the row. -/
theorem cover (p : Vec F S1x256 .f32) (y : S1x256.Idx) :
    ∃ pc ∈ ([⟨rR, p⟩] : List (View.Piece (Elt F) S1x256 .f32)), y ∈ pc.1.set :=
  View.cover_of_tiled [⟨rR, p⟩] S1x256.size (by rfl) y

/-- A whole-row store at the head of a list of stores covers the row, whatever follows it. -/
theorem coverCons (p : Vec F S1x256 .f32) (L : List (View.Piece (Elt F) S1x256 .f32)) (y : S1x256.Idx) :
    ∃ pc ∈ ((⟨rR, p⟩ : View.Piece (Elt F) S1x256 .f32) :: L), y ∈ pc.1.set := by
  obtain ⟨pc, hm, hy⟩ := cover p y
  rw [List.mem_singleton] at hm
  exact ⟨pc, hm ▸ List.mem_cons_self, hy⟩

/-- The test "this is the first grid point", as the body computes it from the point's coordinate. -/
def isFirst (i : grid9.Coords) : BitVec 1 :=
  Scalar.cmpi .ne (Scalar.extui (Scalar.cmpi .eq (BitVec.ofNat 32 (i 0).val) 0#32) : BitVec 32) 0#32

/-- The running column sum after a block x, from the sum s before it; and the same for the squares. -/
abbrev addSum (x : Vec F S2000x256 .f32) (s : Vec F S1x256 .f32) : Vec F S1x256 .f32 := k9_pay4 x s
abbrev addSq (x : Vec F S2000x256 .f32) (q : Vec F S1x256 .f32) : Vec F S1x256 .f32 := k9_pay5 x q

set_option maxHeartbeats 1000000 in
/-- At the first point: whatever the scratch rows held, they end at the first block's sums from zero; the output rows are not touched. -/
theorem first (c : Dev nD) (E : Set ℕ) (i : grid9.Coords) (h1 : isFirst i = 1#1) (h2 : ¬ k9_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x k9_pay1) ∗ owns (c : Thread nD τ) arg5 fullShare (addSq x k9_pay2)) -∗ K ⟨⟩))
      ⊢ wp frame (wpE (defs₀ (F := F)) Variants.none c none) E (cc9__bn_reduce_kernel i arg1 harg1 arg2 harg2 arg3 harg3 arg4 harg4 arg5 harg5) K := by
  simp only [cc9__bn_reduce_kernel_eq_skeleton]; unfold cc9__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At a point that is neither first nor last: the block's sums are added to the scratch rows; the output rows are not touched. -/
theorem middle (c : Dev nD) (E : Set ℕ) (i : grid9.Coords) (h1 : ¬ isFirst i = 1#1) (h2 : ¬ k9_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x s) ∗ owns (c : Thread nD τ) arg5 fullShare (addSq x q)) -∗ K ⟨⟩))
      ⊢ wp frame (wpE (defs₀ (F := F)) Variants.none c none) E (cc9__bn_reduce_kernel i arg1 harg1 arg2 harg2 arg3 harg3 arg4 harg4 arg5 harg5) K := by
  simp only [cc9__bn_reduce_kernel_eq_skeleton]; unfold cc9__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At the last point: the block's sums are added to the scratch rows, and the totals are copied into the output rows. -/
theorem last (c : Dev nD) (E : Set ℕ) (i : grid9.Coords) (h1 : ¬ isFirst i = 1#1) (h2 : k9_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare (addSum x s) ∗ owns (c : Thread nD τ) arg3 fullShare (addSq x q)
            ∗ owns (c : Thread nD τ) arg4 fullShare (addSum x s) ∗ owns (c : Thread nD τ) arg5 fullShare (addSq x q)) -∗ K ⟨⟩))
      ⊢ wp frame (wpE (defs₀ (F := F)) Variants.none c none) E (cc9__bn_reduce_kernel i arg1 harg1 arg2 harg2 arg3 harg3 arg4 harg4 arg5 harg5) K := by
  simp only [cc9__bn_reduce_kernel_eq_skeleton]; unfold cc9__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

end Cert.Kernel.R9

end
-- ==== Proof.BReduce9Region.lean ====
/-
  The proof data of the column-sum region. After the first n blocks the two scratch rows hold the column sums of the
  first 2000·n rows (`sumTo n`) and of their squares (`sqTo n`), built up from zero one block at a time. Between
  points the invariant keeps the two scratch rows: before the first point at anything, after point t at the sums over
  blocks 0 … t. The two output rows are left alone until the last point, where they receive the totals and are
  written back.
-/
import proofs.«162580_j71794673320191_1_alg».proof.Proof.BReduce9Body

set_option maxRecDepth 16384

noncomputable section

namespace Cert.Kernel.R9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The two tests in closed form over the 25 grid points. -/
theorem first_iff : ∀ t : Fin cfg9.N, isFirst (grid9.coords t) = 1#1 ↔ t.val = 0 :=
  (by decide +kernel : ∀ t : Fin grid9.N, isFirst (grid9.coords t) = 1#1 ↔ t.val = 0)
theorem last_iff : ∀ t : Fin cfg9.N, k9_cond2 (grid9.coords t) = 1#1 ↔ t.val = 24 :=
  (by decide +kernel : ∀ t : Fin grid9.N, k9_cond2 (grid9.coords t) = 1#1 ↔ t.val = 24)

variable (V : (c : Dev nD) → (b : Ref sig .tc) → Buf (Elt F) ((c : Thread nD τ).loc b))

/-- Window w's block at point t, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's buffer holds its block at every point. -/
theorem held0 {c : Dev nD} (dat : Dat τ (Elt F) Unit ℕ (Pipeline.UD sig nD τ) ℕ cfg9 c) (hA : dat.A 0 = V c (Pipeline.arrRef spec9 0))
    (hafter : ∀ t, dat.after 0 t = blk V c 0 t) (t : Fin cfg9.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column sums over the first n blocks, from zero; and of the squares. -/
def sumTo (c : Dev nD) : ℕ → Vec F S1x256 .f32
  | 0 => k9_pay1
  | n + 1 => if h : n < cfg9.N then addSum (blk V c 0 ⟨n, h⟩) (sumTo c n) else sumTo c n
def sqTo (c : Dev nD) : ℕ → Vec F S1x256 .f32
  | 0 => k9_pay2
  | n + 1 => if h : n < cfg9.N then addSq (blk V c 0 ⟨n, h⟩) (sqTo c n) else sqTo c n

theorem sumTo_succ (c : Dev nD) (t : Fin cfg9.N) : sumTo V c (t.val + 1) = addSum (blk V c 0 t) (sumTo V c t.val) := by
  rw [sumTo, dif_pos t.isLt]
theorem sqTo_succ (c : Dev nD) (t : Fin cfg9.N) : sqTo V c (t.val + 1) = addSq (blk V c 0 t) (sqTo V c t.val) := by
  rw [sqTo, dif_pos t.isLt]

/-- What is kept between points: the two scratch rows — at the sums over the blocks done so far once a point has run —,
    the rest of the core's scoped buffers unopened, and the generator register. -/
def inv (c : Dev nD) (n : ℕ) : sProp 𝕄 :=
  iprop((∃ s q, owns (c : Thread nD τ) (Memref.whole cc9_scratch0 : Memref sig .tc .vmem S1x256 .f32) fullShare s ∗ owns (c : Thread nD τ) (Memref.whole cc9_scratch1 : Memref sig .tc .vmem S1x256 .f32) fullShare q ∗ ⌜n ≠ 0 → s = sumTo V c n ∧ q = sqTo V c n⌝)
    ∗ Pipeline.scopedRestBut (Ix := Unit) (Name := ℕ) (U := Pipeline.UD sig nD τ) (Lvl := ℕ) (Val := Elt F) spec9 c [cc9_scratch0, cc9_scratch1]
    ∗ ∃ r, prngReg c r)

/-- Entering the region: the scratch rows come out of the core's scoped buffers, at anything. -/
theorem inv_in (c : Dev nD) :
    iprop(Pipeline.scopedRest (Ix := Unit) (Name := ℕ) (U := Pipeline.UD sig nD τ) (Lvl := ℕ) (Val := Elt F) spec9 c ∗ ∃ r, prngReg c r)
      ⊢ inv V c 0 := by
  rw [scopedRest9_split]; unfold inv; simp only [owns_whole]
  iintro ⟨⟨⟨⟨%f0, H0⟩, ⟨%f1, H1⟩⟩, Hrest⟩, Hg⟩
  isplitl [H0 H1]
  · iexists f0, f1
    isplitl [H0]; · iexact H0
    isplitl [H1]; · iexact H1
    ipureintro; intro h; exact absurd rfl h
  isplitl [Hrest]; · iexact Hrest
  iexact Hg

/-- Leaving it: they go back, their contents forgotten. -/
theorem inv_out (c : Dev nD) (n : ℕ) :
    inv V c n ⊢ iprop(Pipeline.scopedRest (Ix := Unit) (Name := ℕ) (U := Pipeline.UD sig nD τ) (Lvl := ℕ) (Val := Elt F) spec9 c ∗ ∃ r, prngReg c r) := by
  rw [scopedRest9_split]; unfold inv; simp only [owns_whole]
  iintro ⟨⟨%f0, %f1, H0, H1, -⟩, Hrest, Hg⟩
  isplitl [H0 H1 Hrest]
  · isplitl [H0 H1]
    · isplitl [H0]; · iexists f0; iexact H0
      iexists f1; iexact H1
    iexact Hrest
  iexact Hg

/-- The region's proof data on core c. -/
def dat (c : Dev nD) : Dat τ (Elt F) Unit ℕ (Pipeline.UD sig nD τ) ℕ cfg9 c where
  A w := V c (Pipeline.arrRef spec9 w)
  after w t := match w with
    | ⟨0, _⟩ => blk V c 0 t
    | ⟨1, _⟩ => sumTo V c (t.val + 1)
    | ⟨2, _⟩ => sqTo V c (t.val + 1)
  Φ j := inv V c j.val
  q _ := fullShare
  owed _ := 0

theorem dat_A (c : Dev nD) (w : Fin cfg9.W) : (dat V c).A w = V c (Pipeline.arrRef spec9 w) := by dsimp only [dat]
theorem after0 (c : Dev nD) (t : Fin cfg9.N) : (dat V c).after 0 t = blk V c 0 t := by dsimp only [dat]
theorem after1 (c : Dev nD) (t : Fin cfg9.N) : (dat V c).after 1 t = sumTo V c (t.val + 1) := by dsimp only [dat]
theorem after2 (c : Dev nD) (t : Fin cfg9.N) : (dat V c).after 2 t = sqTo V c (t.val + 1) := by dsimp only [dat]
theorem before0 (c : Dev nD) (t : Fin cfg9.N) (d) : (dat V c).before 0 t d = blk V c 0 t :=
  held0 V (dat V c) (dat_A V c 0) (after0 V c) t d

/-- What the body is called with at point t, -/
def pre (c : Dev nD) (t : Fin cfg9.N) : sProp 𝕄 :=
  iprop((dat V c).Φ t.castSucc ∗ (dat V c).owesAt () t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d)))

/-- what it returns at a point other than the last (the output rows as they were found), -/
def postKept (c : Dev nD) (t : Fin cfg9.N) : sProp 𝕄 :=
  iprop((dat V c).Φ t.succ ∗ (dat V c).owesAt () t.succ
    ∗ owns (c : Thread nD τ) (st9_0 t) fullShare ((dat V c).after 0 t)
    ∗ (∃ d, owns (c : Thread nD τ) (st9_1 t) fullShare ((dat V c).before 1 t d))
    ∗ (∃ d, owns (c : Thread nD τ) (st9_2 t) fullShare ((dat V c).before 2 t d)))

/-- and what it returns at the last point (the output rows at the totals). -/
def postLast (c : Dev nD) (t : Fin cfg9.N) : sProp 𝕄 :=
  iprop((dat V c).Φ t.succ ∗ (dat V c).owesAt () t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t))

/-- The body at a point other than the last: the first point resets the scratch rows, every point adds its block. -/
theorem soundKept (c : Dev nD) (t : Fin cfg9.N) (hl : t.val ≠ 24) :
    pre V c t ⊢ wp frame (wpE (defs₀ (F := F)) Variants.none c none) Set.univ (bodyAt9 t) (fun _ => postKept V c t) := by
  unfold pre postKept bodyAt9
  simp only [before0]
  rw [show (dat V c).Φ t.castSucc = inv V c t.val from rfl, show (dat V c).Φ t.succ = inv V c (t.val + 1) from rfl,
    show (dat V c).owesAt () t.succ = (dat V c).owesAt () t.castSucc from rfl, after0]
  unfold inv
  iintro ⟨⟨⟨%s, %q, Hs, Hq, %hsq⟩, Hrest, Hg⟩, Ho, ⟨%d0, H0⟩, ⟨%d1, H1⟩, ⟨%d2, H2⟩⟩
  have hnl : ¬ k9_cond2 (grid9.coords t) = 1#1 := fun h => hl ((last_iff t).mp h)
  by_cases h0 : t.val = 0
  · iapply (first c Set.univ (grid9.coords t) ((first_iff t).mpr h0) hnl _ _ _ _ _ _ _ _ _ _ (blk V c 0 t) s q _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨by rw [sumTo_succ, h0]; rfl, by rw [sqTo_succ, h0]; rfl⟩
      isplitl [Hrest]; · iexact Hrest
      iexact Hg
    isplitl [Ho]; · iexact Ho
    isplitl [H0]; · iexact H0
    isplitl [H1]; · iexists _; iexact H1
    iexists _; iexact H2
  · obtain ⟨rfl, rfl⟩ := hsq h0
    iapply (middle c Set.univ (grid9.coords t) (fun h => h0 ((first_iff t).mp h)) hnl _ _ _ _ _ _ _ _ _ _ (blk V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨(sumTo_succ V c t).symm, (sqTo_succ V c t).symm⟩
      isplitl [Hrest]; · iexact Hrest
      iexact Hg
    isplitl [Ho]; · iexact Ho
    isplitl [H0]; · iexact H0
    isplitl [H1]; · iexists _; iexact H1
    iexists _; iexact H2

/-- The body at the last point: its block is added and the totals go to the output rows. -/
theorem soundLast (c : Dev nD) (t : Fin cfg9.N) (hl : t.val = 24) :
    pre V c t ⊢ wp frame (wpE (defs₀ (F := F)) Variants.none c none) Set.univ (bodyAt9 t) (fun _ => postLast V c t) := by
  unfold pre postLast bodyAt9
  simp only [before0]
  rw [show (dat V c).Φ t.castSucc = inv V c t.val from rfl, show (dat V c).Φ t.succ = inv V c (t.val + 1) from rfl,
    show (dat V c).owesAt () t.succ = (dat V c).owesAt () t.castSucc from rfl, after0, after1, after2]
  unfold inv
  iintro ⟨⟨⟨%s, %q, Hs, Hq, %hsq⟩, Hrest, Hg⟩, Ho, ⟨%d0, H0⟩, ⟨%d1, H1⟩, ⟨%d2, H2⟩⟩
  have h0 : t.val ≠ 0 := by omega
  obtain ⟨rfl, rfl⟩ := hsq h0
  iapply (last c Set.univ (grid9.coords t) (fun h => h0 ((first_iff t).mp h)) ((last_iff t).mpr hl) _ _ _ _ _ _ _ _ _ _ (blk V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  rw [sumTo_succ, sqTo_succ]
  isplitl [Hs Hq Hrest Hg]
  · isplitl [Hs Hq]
    · iexists _, _
      isplitl [Hs]; · iexact Hs
      isplitl [Hq]; · iexact Hq
      ipureintro; intro _
      exact ⟨rfl, rfl⟩
    isplitl [Hrest]; · iexact Hrest
    iexact Hg
  isplitl [Ho]; · iexact Ho
  isplitl [H0]; · iexact H0
  isplitl [H1]; · iexact H1
  iexact H2

/-- The pipeline's body obligation, at every point: the output rows count as untouched except at the last point,
    which is also the only point that writes them back. -/
theorem obligation (c : Dev nD) : BodyObligation (dat (F := F) V c) (defs₀ (F := F)) Variants.none () Set.univ := fun t => by
  rw [bigSep_W9, bigSep_W9]
  by_cases hl : t.val = 24
  · have hc : k9_cond2 (grid9.coords t) = 1#1 := (last_iff t).mpr hl
    have hi1 : idle9 1 (grid9.coords t) = false := by
      show (!(k9_cond2 (grid9.coords t) == 1#1)) = false
      rw [hc]; rfl
    have hi2 : idle9 2 (grid9.coords t) = false := by
      show (!(k9_cond2 (grid9.coords t) == 1#1)) = false
      rw [hc]; rfl
    simp only [hi1, hi2]
    exact soundLast V c t hl
  · have hc : ¬ k9_cond2 (grid9.coords t) = 1#1 := fun h => hl ((last_iff t).mp h)
    have hi1 : idle9 1 (grid9.coords t) = true := by
      show (!(k9_cond2 (grid9.coords t) == 1#1)) = true
      simp only [beq_iff_eq, hc, Bool.not_eq_true', Bool.not_false, decide_false, beq_eq_false_iff_ne, ne_eq, not_false_eq_true]
    have hi2 : idle9 2 (grid9.coords t) = true := by
      show (!(k9_cond2 (grid9.coords t) == 1#1)) = true
      simp only [beq_iff_eq, hc, Bool.not_eq_true', Bool.not_false, decide_false, beq_eq_false_iff_ne, ne_eq, not_false_eq_true]
    have hf1 : (cfg9.win 1).flush t = false := by
      have := flush9_1 t; have hm : ¬ t.val % 25 = 24 := by have := t.isLt; have : cfg9.N = 25 := N_9; omega
      exact Bool.eq_false_iff.mpr fun h => hm (this.mp h)
    have hf2 : (cfg9.win 2).flush t = false := by
      have := flush9_2 t; have hm : ¬ t.val % 25 = 24 := by have := t.isLt; have : cfg9.N = 25 := N_9; omega
      exact Bool.eq_false_iff.mpr fun h => hm (this.mp h)
    simp only [hi1, hi2, hf1, hf2]
    exact soundKept V c t hl

end Cert.Kernel.R9

end
-- ==== Proof.BRegion10.lean ====
/-
  Batch normalisation applied to a block of 2000 node rows: (row - mean) times the inverse standard deviation times the scale plus the shift, the four 1 x 256 rows repeated down the block (and, in the layers that have it, clipped below at zero).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R10

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S1x256 .f32) (x2 : Vec F S1x256 .f32) (x3 : Vec F S1x256 .f32) (x4 : Vec F S1x256 .f32) : Vec F S2000x256 .f32 :=
  View.canon [⟨rO, k10_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid10.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc10__bn_norm_kernel i arg1 harg1 arg2 harg2 arg3 harg3 arg4 harg4 arg5 harg5 arg6 harg6) K := by
  simp only [cc10__bn_norm_kernel_eq_skeleton]; unfold cc10__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's buffer holds its block at every point, fetched there or not: a point that does not fetch finds
    the same block index as the point before, and the body left the block in place. -/
theorem held0 {c : Dev nD} (dat : Dat τ (Elt F) Unit ℕ (Pipeline.UD sig nD τ) ℕ cfg10 c) (hA : dat.A 0 = V c (Pipeline.arrRef spec10 0))
    (hafter : ∀ t, dat.after 0 t = blk V c 0 t) (t : Fin cfg10.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg10 c) (hA : dat.A 1 = V c (Pipeline.arrRef spec10 1))
    (hafter : ∀ t, dat.after 1 t = blk V c 1 t) (t : Fin cfg10.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg10 c) (hA : dat.A 2 = V c (Pipeline.arrRef spec10 2))
    (hafter : ∀ t, dat.after 2 t = blk V c 2 t) (t : Fin cfg10.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg10 c) (hA : dat.A 3 = V c (Pipeline.arrRef spec10 3))
    (hafter : ∀ t, dat.after 3 t = blk V c 3 t) (t : Fin cfg10.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg10 c) (hA : dat.A 4 = V c (Pipeline.arrRef spec10 4))
    (hafter : ∀ t, dat.after 4 t = blk V c 4 t) (t : Fin cfg10.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg10 c where
  A w := V c (Pipeline.arrRef spec10 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec10 c
  q _ := fullShare
  owed _ := 0

theorem dat_A (c : Dev nD) (w : Fin cfg10.W) : (dat V c).A w = V c (Pipeline.arrRef spec10 w) := by dsimp only [dat]
theorem after0 (c : Dev nD) (t : Fin cfg10.N) : (dat V c).after 0 t = blk V c 0 t := by dsimp only [dat]
theorem after1 (c : Dev nD) (t : Fin cfg10.N) : (dat V c).after 1 t = blk V c 1 t := by dsimp only [dat]
theorem after2 (c : Dev nD) (t : Fin cfg10.N) : (dat V c).after 2 t = blk V c 2 t := by dsimp only [dat]
theorem after3 (c : Dev nD) (t : Fin cfg10.N) : (dat V c).after 3 t = blk V c 3 t := by dsimp only [dat]
theorem after4 (c : Dev nD) (t : Fin cfg10.N) : (dat V c).after 4 t = blk V c 4 t := by dsimp only [dat]
theorem after5 (c : Dev nD) (t : Fin cfg10.N) : (dat V c).after 5 t = out (blk V c 0 t) (blk V c 1 t) (blk V c 2 t) (blk V c 3 t) (blk V c 4 t) := by dsimp only [dat]
theorem before0 (c : Dev nD) (t : Fin cfg10.N) (d) : (dat V c).before 0 t d = blk V c 0 t :=
  held0 V (dat V c) (dat_A V c 0) (after0 V c) t d
theorem before1 (c : Dev nD) (t : Fin cfg10.N) (d) : (dat V c).before 1 t d = blk V c 1 t :=
  held1 V (dat V c) (dat_A V c 1) (after1 V c) t d
theorem before2 (c : Dev nD) (t : Fin cfg10.N) (d) : (dat V c).before 2 t d = blk V c 2 t :=
  held2 V (dat V c) (dat_A V c 2) (after2 V c) t d
theorem before3 (c : Dev nD) (t : Fin cfg10.N) (d) : (dat V c).before 3 t d = blk V c 3 t :=
  held3 V (dat V c) (dat_A V c 3) (after3 V c) t d
theorem before4 (c : Dev nD) (t : Fin cfg10.N) (d) : (dat V c).before 4 t d = blk V c 4 t :=
  held4 V (dat V c) (dat_A V c 4) (after4 V c) t d

/-- What the body is called with at point t: the invariant, the core's dues, and each window's current buffer, -/
def pre (c : Dev nD) (t : Fin cfg10.N) : sProp 𝕄 :=
  iprop((dat V c).Φ t.castSucc ∗ (dat V c).owesAt () t.castSucc
    ∗ (∃ d, owns (c : Thread nD τ) (st10_0 t) fullShare ((dat V c).before 0 t d))
    ∗ (∃ d, owns (c : Thread nD τ) (st10_1 t) fullShare ((dat V c).before 1 t d))
    ∗ (∃ d, owns (c : Thread nD τ) (st10_2 t) fullShare ((dat V c).before 2 t d))
    ∗ (∃ d, owns (c : Thread nD τ) (st10_3 t) fullShare ((dat V c).before 3 t d))
    ∗ (∃ d, owns (c : Thread nD τ) (st10_4 t) fullShare ((dat V c).before 4 t d))
    ∗ (∃ d, owns (c : Thread nD τ) (st10_5 t) fullShare ((dat V c).before 5 t d)))

/-- and what it returns. -/
def post (c : Dev nD) (t : Fin cfg10.N) : sProp 𝕄 :=
  iprop((dat V c).Φ t.succ ∗ (dat V c).owesAt () t.succ
    ∗ owns (c : Thread nD τ) (st10_0 t) fullShare ((dat V c).after 0 t)
    ∗ owns (c : Thread nD τ) (st10_1 t) fullShare ((dat V c).after 1 t)
    ∗ owns (c : Thread nD τ) (st10_2 t) fullShare ((dat V c).after 2 t)
    ∗ owns (c : Thread nD τ) (st10_3 t) fullShare ((dat V c).after 3 t)
    ∗ owns (c : Thread nD τ) (st10_4 t) fullShare ((dat V c).after 4 t)
    ∗ owns (c : Thread nD τ) (st10_5 t) fullShare ((dat V c).after 5 t))

/-- The body at any point: the inputs' buffers hold their blocks, so the body's triple applies; the invariant and the
    core's dues pass through untouched. -/
theorem soundBody (c : Dev nD) (t : Fin cfg10.N) :
    pre V c t ⊢ wp frame (wpE (defs₀ (F := F)) Variants.none c none) Set.univ (bodyAt10 t) (fun _ => post V c t) := by
  unfold pre post bodyAt10
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid10.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation (c : Dev nD) : BodyObligation (dat (F := F) V c) (defs₀ (F := F)) Variants.none () Set.univ := fun t => by
  rw [bigSep_W10, bigSep_W10]
  exact soundBody V c t

end Cert.Kernel.R10

end
-- ==== Proof.BRegion11.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R11

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k11_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid11.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc11__mlp_kernel i arg1 harg1 arg2 harg2 arg3 harg3 arg4 harg4 arg5 harg5 arg6 harg6 arg7 harg7) K := by
  simp only [cc11__mlp_kernel_eq_skeleton]; unfold cc11__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's buffer holds its block at every point, fetched there or not: a point that does not fetch finds
    the same block index as the point before, and the body left the block in place. -/
theorem held0 {c : Dev nD} (dat : Dat τ (Elt F) Unit ℕ (Pipeline.UD sig nD τ) ℕ cfg11 c) (hA : dat.A 0 = V c (Pipeline.arrRef spec11 0))
    (hafter : ∀ t, dat.after 0 t = blk V c 0 t) (t : Fin cfg11.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg11 c) (hA : dat.A 1 = V c (Pipeline.arrRef spec11 1))
    (hafter : ∀ t, dat.after 1 t = blk V c 1 t) (t : Fin cfg11.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg11 c) (hA : dat.A 2 = V c (Pipeline.arrRef spec11 2))
    (hafter : ∀ t, dat.after 2 t = blk V c 2 t) (t : Fin cfg11.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg11 c) (hA : dat.A 3 = V c (Pipeline.arrRef spec11 3))
    (hafter : ∀ t, dat.after 3 t = blk V c 3 t) (t : Fin cfg11.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg11 c) (hA : dat.A 4 = V c (Pipeline.arrRef spec11 4))
    (hafter : ∀ t, dat.after 4 t = blk V c 4 t) (t : Fin cfg11.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg11 c) (hA : dat.A 5 = V c (Pipeline.arrRef spec11 5))
    (hafter : ∀ t, dat.after 5 t = blk V c 5 t) (t : Fin cfg11.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg11 c where
  A w := V c (Pipeline.arrRef spec11 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec11 c
  q _ := fullShare
  owed _ := 0

theorem dat_A (c : Dev nD) (w : Fin cfg11.W) : (dat V c).A w = V c (Pipeline.arrRef spec11 w) := by dsimp only [dat]
theorem after0 (c : Dev nD) (t : Fin cfg11.N) : (dat V c).after 0 t = blk V c 0 t := by dsimp only [dat]
theorem after1 (c : Dev nD) (t : Fin cfg11.N) : (dat V c).after 1 t = blk V c 1 t := by dsimp only [dat]
theorem after2 (c : Dev nD) (t : Fin cfg11.N) : (dat V c).after 2 t = blk V c 2 t := by dsimp only [dat]
theorem after3 (c : Dev nD) (t : Fin cfg11.N) : (dat V c).after 3 t = blk V c 3 t := by dsimp only [dat]
theorem after4 (c : Dev nD) (t : Fin cfg11.N) : (dat V c).after 4 t = blk V c 4 t := by dsimp only [dat]
theorem after5 (c : Dev nD) (t : Fin cfg11.N) : (dat V c).after 5 t = blk V c 5 t := by dsimp only [dat]
theorem after6 (c : Dev nD) (t : Fin cfg11.N) : (dat V c).after 6 t = out (blk V c 0 t) (blk V c 1 t) (blk V c 2 t) (blk V c 3 t) (blk V c 4 t) (blk V c 5 t) := by dsimp only [dat]
theorem before0 (c : Dev nD) (t : Fin cfg11.N) (d) : (dat V c).before 0 t d = blk V c 0 t :=
  held0 V (dat V c) (dat_A V c 0) (after0 V c) t d
theorem before1 (c : Dev nD) (t : Fin cfg11.N) (d) : (dat V c).before 1 t d = blk V c 1 t :=
  held1 V (dat V c) (dat_A V c 1) (after1 V c) t d
theorem before2 (c : Dev nD) (t : Fin cfg11.N) (d) : (dat V c).before 2 t d = blk V c 2 t :=
  held2 V (dat V c) (dat_A V c 2) (after2 V c) t d
theorem before3 (c : Dev nD) (t : Fin cfg11.N) (d) : (dat V c).before 3 t d = blk V c 3 t :=
  held3 V (dat V c) (dat_A V c 3) (after3 V c) t d
theorem before4 (c : Dev nD) (t : Fin cfg11.N) (d) : (dat V c).before 4 t d = blk V c 4 t :=
  held4 V (dat V c) (dat_A V c 4) (after4 V c) t d
theorem before5 (c : Dev nD) (t : Fin cfg11.N) (d) : (dat V c).before 5 t d = blk V c 5 t :=
  held5 V (dat V c) (dat_A V c 5) (after5 V c) t d

/-- What the body is called with at point t: the invariant, the core's dues, and each window's current buffer, -/
def pre (c : Dev nD) (t : Fin cfg11.N) : sProp 𝕄 :=
  iprop((dat V c).Φ t.castSucc ∗ (dat V c).owesAt () t.castSucc
    ∗ (∃ d, owns (c : Thread nD τ) (st11_0 t) fullShare ((dat V c).before 0 t d))
    ∗ (∃ d, owns (c : Thread nD τ) (st11_1 t) fullShare ((dat V c).before 1 t d))
    ∗ (∃ d, owns (c : Thread nD τ) (st11_2 t) fullShare ((dat V c).before 2 t d))
    ∗ (∃ d, owns (c : Thread nD τ) (st11_3 t) fullShare ((dat V c).before 3 t d))
    ∗ (∃ d, owns (c : Thread nD τ) (st11_4 t) fullShare ((dat V c).before 4 t d))
    ∗ (∃ d, owns (c : Thread nD τ) (st11_5 t) fullShare ((dat V c).before 5 t d))
    ∗ (∃ d, owns (c : Thread nD τ) (st11_6 t) fullShare ((dat V c).before 6 t d)))

/-- and what it returns. -/
def post (c : Dev nD) (t : Fin cfg11.N) : sProp 𝕄 :=
  iprop((dat V c).Φ t.succ ∗ (dat V c).owesAt () t.succ
    ∗ owns (c : Thread nD τ) (st11_0 t) fullShare ((dat V c).after 0 t)
    ∗ owns (c : Thread nD τ) (st11_1 t) fullShare ((dat V c).after 1 t)
    ∗ owns (c : Thread nD τ) (st11_2 t) fullShare ((dat V c).after 2 t)
    ∗ owns (c : Thread nD τ) (st11_3 t) fullShare ((dat V c).after 3 t)
    ∗ owns (c : Thread nD τ) (st11_4 t) fullShare ((dat V c).after 4 t)
    ∗ owns (c : Thread nD τ) (st11_5 t) fullShare ((dat V c).after 5 t)
    ∗ owns (c : Thread nD τ) (st11_6 t) fullShare ((dat V c).after 6 t))

/-- The body at any point: the inputs' buffers hold their blocks, so the body's triple applies; the invariant and the
    core's dues pass through untouched. -/
theorem soundBody (c : Dev nD) (t : Fin cfg11.N) :
    pre V c t ⊢ wp frame (wpE (defs₀ (F := F)) Variants.none c none) Set.univ (bodyAt11 t) (fun _ => post V c t) := by
  unfold pre post bodyAt11
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid11.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W11, bigSep_W11]
  exact soundBody V c t

end Cert.Kernel.R11

end
-- ==== Proof.BRegion12.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R12

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k12_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid12.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc12__mlp_kernel i arg1 harg1 arg2 harg2 arg3 harg3 arg4 harg4 arg5 harg5 arg6 harg6 arg7 harg7) K := by
  simp only [cc12__mlp_kernel_eq_skeleton]; unfold cc12__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's buffer holds its block at every point, fetched there or not: a point that does not fetch finds
    the same block index as the point before, and the body left the block in place. -/
theorem held0 {c : Dev nD} (dat : Dat τ (Elt F) Unit ℕ (Pipeline.UD sig nD τ) ℕ cfg12 c) (hA : dat.A 0 = V c (Pipeline.arrRef spec12 0))
    (hafter : ∀ t, dat.after 0 t = blk V c 0 t) (t : Fin cfg12.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg12 c) (hA : dat.A 1 = V c (Pipeline.arrRef spec12 1))
    (hafter : ∀ t, dat.after 1 t = blk V c 1 t) (t : Fin cfg12.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg12 c) (hA : dat.A 2 = V c (Pipeline.arrRef spec12 2))
    (hafter : ∀ t, dat.after 2 t = blk V c 2 t) (t : Fin cfg12.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg12 c) (hA : dat.A 3 = V c (Pipeline.arrRef spec12 3))
    (hafter : ∀ t, dat.after 3 t = blk V c 3 t) (t : Fin cfg12.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg12 c) (hA : dat.A 4 = V c (Pipeline.arrRef spec12 4))
    (hafter : ∀ t, dat.after 4 t = blk V c 4 t) (t : Fin cfg12.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg12 c) (hA : dat.A 5 = V c (Pipeline.arrRef spec12 5))
    (hafter : ∀ t, dat.after 5 t = blk V c 5 t) (t : Fin cfg12.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg12 c where
  A w := V c (Pipeline.arrRef spec12 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec12 c
  q _ := fullShare
  owed _ := 0

theorem dat_A (c : Dev nD) (w : Fin cfg12.W) : (dat V c).A w = V c (Pipeline.arrRef spec12 w) := by dsimp only [dat]
theorem after0 (c : Dev nD) (t : Fin cfg12.N) : (dat V c).after 0 t = blk V c 0 t := by dsimp only [dat]
theorem after1 (c : Dev nD) (t : Fin cfg12.N) : (dat V c).after 1 t = blk V c 1 t := by dsimp only [dat]
theorem after2 (c : Dev nD) (t : Fin cfg12.N) : (dat V c).after 2 t = blk V c 2 t := by dsimp only [dat]
theorem after3 (c : Dev nD) (t : Fin cfg12.N) : (dat V c).after 3 t = blk V c 3 t := by dsimp only [dat]
theorem after4 (c : Dev nD) (t : Fin cfg12.N) : (dat V c).after 4 t = blk V c 4 t := by dsimp only [dat]
theorem after5 (c : Dev nD) (t : Fin cfg12.N) : (dat V c).after 5 t = blk V c 5 t := by dsimp only [dat]
theorem after6 (c : Dev nD) (t : Fin cfg12.N) : (dat V c).after 6 t = out (blk V c 0 t) (blk V c 1 t) (blk V c 2 t) (blk V c 3 t) (blk V c 4 t) (blk V c 5 t) := by dsimp only [dat]
theorem before0 (c : Dev nD) (t : Fin cfg12.N) (d) : (dat V c).before 0 t d = blk V c 0 t :=
  held0 V (dat V c) (dat_A V c 0) (after0 V c) t d
theorem before1 (c : Dev nD) (t : Fin cfg12.N) (d) : (dat V c).before 1 t d = blk V c 1 t :=
  held1 V (dat V c) (dat_A V c 1) (after1 V c) t d
theorem before2 (c : Dev nD) (t : Fin cfg12.N) (d) : (dat V c).before 2 t d = blk V c 2 t :=
  held2 V (dat V c) (dat_A V c 2) (after2 V c) t d
theorem before3 (c : Dev nD) (t : Fin cfg12.N) (d) : (dat V c).before 3 t d = blk V c 3 t :=
  held3 V (dat V c) (dat_A V c 3) (after3 V c) t d
theorem before4 (c : Dev nD) (t : Fin cfg12.N) (d) : (dat V c).before 4 t d = blk V c 4 t :=
  held4 V (dat V c) (dat_A V c 4) (after4 V c) t d
theorem before5 (c : Dev nD) (t : Fin cfg12.N) (d) : (dat V c).before 5 t d = blk V c 5 t :=
  held5 V (dat V c) (dat_A V c 5) (after5 V c) t d

/-- What the body is called with at point t: the invariant, the core's dues, and each window's current buffer, -/
def pre (c : Dev nD) (t : Fin cfg12.N) : sProp 𝕄 :=
  iprop((dat V c).Φ t.castSucc ∗ (dat V c).owesAt () t.castSucc
    ∗ (∃ d, owns (c : Thread nD τ) (st12_0 t) fullShare ((dat V c).before 0 t d))
    ∗ (∃ d, owns (c : Thread nD τ) (st12_1 t) fullShare ((dat V c).before 1 t d))
    ∗ (∃ d, owns (c : Thread nD τ) (st12_2 t) fullShare ((dat V c).before 2 t d))
    ∗ (∃ d, owns (c : Thread nD τ) (st12_3 t) fullShare ((dat V c).before 3 t d))
    ∗ (∃ d, owns (c : Thread nD τ) (st12_4 t) fullShare ((dat V c).before 4 t d))
    ∗ (∃ d, owns (c : Thread nD τ) (st12_5 t) fullShare ((dat V c).before 5 t d))
    ∗ (∃ d, owns (c : Thread nD τ) (st12_6 t) fullShare ((dat V c).before 6 t d)))

/-- and what it returns. -/
def post (c : Dev nD) (t : Fin cfg12.N) : sProp 𝕄 :=
  iprop((dat V c).Φ t.succ ∗ (dat V c).owesAt () t.succ
    ∗ owns (c : Thread nD τ) (st12_0 t) fullShare ((dat V c).after 0 t)
    ∗ owns (c : Thread nD τ) (st12_1 t) fullShare ((dat V c).after 1 t)
    ∗ owns (c : Thread nD τ) (st12_2 t) fullShare ((dat V c).after 2 t)
    ∗ owns (c : Thread nD τ) (st12_3 t) fullShare ((dat V c).after 3 t)
    ∗ owns (c : Thread nD τ) (st12_4 t) fullShare ((dat V c).after 4 t)
    ∗ owns (c : Thread nD τ) (st12_5 t) fullShare ((dat V c).after 5 t)
    ∗ owns (c : Thread nD τ) (st12_6 t) fullShare ((dat V c).after 6 t))

/-- The body at any point: the inputs' buffers hold their blocks, so the body's triple applies; the invariant and the
    core's dues pass through untouched. -/
theorem soundBody (c : Dev nD) (t : Fin cfg12.N) :
    pre V c t ⊢ wp frame (wpE (defs₀ (F := F)) Variants.none c none) Set.univ (bodyAt12 t) (fun _ => post V c t) := by
  unfold pre post bodyAt12
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid12.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W12, bigSep_W12]
  exact soundBody V c t

end Cert.Kernel.R12

end
-- ==== Proof.BRegion13.lean ====
/-
  One graph-convolution update on a block of 2000 node rows: the rows plus their neighbour sums, times the first 256 x 256 weight plus its bias row, clipped below at zero, times the second weight plus its bias row (and, in the rounds that have it, clipped below at zero again).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R13

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S2000x256 .f32) (x2 : Vec F S256x256 .f32) (x3 : Vec F S1x256 .f32) (x4 : Vec F S256x256 .f32) (x5 : Vec F S1x256 .f32) : Vec F S2000x256 .f32 :=
  View.canon [⟨rO, k13_pay1 (View.ld x0 (Rect.unit (s := S2000x256) ![0, 0] S2000x256.size inb_S2000x256_S2000x256_0_0)) (View.ld x1 (Rect.unit (s := S2000x256) ![0, 0] S2000x256.size inb_S2000x256_S2000x256_0_0)) (View.ld x2 (Rect.unit (s := S256x256) ![0, 0] S256x256.size inb_S256x256_S256x256_0_0)) (View.ld x3 (Rect.unit (s := S1x256) ![0, 0] S1x256.size inb_S1x256_S1x256_0_0)) (View.ld x4 (Rect.unit (s := S256x256) ![0, 0] S256x256.size inb_S256x256_S256x256_0_0)) (View.ld x5 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid13.Coords)
    (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2000x256 .f32) (harg7 : arg7.IsWhole)
    (x0 : Vec F S2000x256 .f32) (x1 : Vec F S2000x256 .f32) (x2 : Vec F S256x256 .f32) (x3 : Vec F S1x256 .f32) (x4 : Vec F S256x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc13__mlp_kernel i arg1 harg1 arg2 harg2 arg3 harg3 arg4 harg4 arg5 harg5 arg6 harg6 arg7 harg7) K := by
  simp only [cc13__mlp_kernel_eq_skeleton]; unfold cc13__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's buffer holds its block at every point, fetched there or not: a point that does not fetch finds
    the same block index as the point before, and the body left the block in place. -/
theorem held0 {c : Dev nD} (dat : Dat τ (Elt F) Unit ℕ (Pipeline.UD sig nD τ) ℕ cfg13 c) (hA : dat.A 0 = V c (Pipeline.arrRef spec13 0))
    (hafter : ∀ t, dat.after 0 t = blk V c 0 t) (t : Fin cfg13.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg13 c) (hA : dat.A 1 = V c (Pipeline.arrRef spec13 1))
    (hafter : ∀ t, dat.after 1 t = blk V c 1 t) (t : Fin cfg13.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg13 c) (hA : dat.A 2 = V c (Pipeline.arrRef spec13 2))
    (hafter : ∀ t, dat.after 2 t = blk V c 2 t) (t : Fin cfg13.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg13 c) (hA : dat.A 3 = V c (Pipeline.arrRef spec13 3))
    (hafter : ∀ t, dat.after 3 t = blk V c 3 t) (t : Fin cfg13.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg13 c) (hA : dat.A 4 = V c (Pipeline.arrRef spec13 4))
    (hafter : ∀ t, dat.after 4 t = blk V c 4 t) (t : Fin cfg13.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem held5 {c : Dev nD} (dat : Dat τ (Elt F) Unit ℕ (Pipeline.UD sig nD τ) ℕ cfg13 c) (hA : dat.A 5 = V c (Pipeline.arrRef spec13 5))
    (hafter : ∀ t, dat.after 5 t = blk V c 5 t) (t : Fin cfg13.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg13 c where
  A w := V c (Pipeline.arrRef spec13 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out (blk V c 0 t) (blk V c 1 t) (blk V c 2 t) (blk V c 3 t) (blk V c 4 t) (blk V c 5 t)
  Φ _ := Pipeline.ΦA spec13 c
  q _ := fullShare
  owed _ := 0

theorem dat_A (c : Dev nD) (w : Fin cfg13.W) : (dat V c).A w = V c (Pipeline.arrRef spec13 w) := by dsimp only [dat]
theorem after0 (c : Dev nD) (t : Fin cfg13.N) : (dat V c).after 0 t = blk V c 0 t := by dsimp only [dat]
theorem after1 (c : Dev nD) (t : Fin cfg13.N) : (dat V c).after 1 t = blk V c 1 t := by dsimp only [dat]
theorem after2 (c : Dev nD) (t : Fin cfg13.N) : (dat V c).after 2 t = blk V c 2 t := by dsimp only [dat]
theorem after3 (c : Dev nD) (t : Fin cfg13.N) : (dat V c).after 3 t = blk V c 3 t := by dsimp only [dat]
theorem after4 (c : Dev nD) (t : Fin cfg13.N) : (dat V c).after 4 t = blk V c 4 t := by dsimp only [dat]
theorem after5 (c : Dev nD) (t : Fin cfg13.N) : (dat V c).after 5 t = blk V c 5 t := by dsimp only [dat]
theorem after6 (c : Dev nD) (t : Fin cfg13.N) : (dat V c).after 6 t = out (blk V c 0 t) (blk V c 1 t) (blk V c 2 t) (blk V c 3 t) (blk V c 4 t) (blk V c 5 t) := by dsimp only [dat]
theorem before0 (c : Dev nD) (t : Fin cfg13.N) (d) : (dat V c).before 0 t d = blk V c 0 t :=
  held0 V (dat V c) (dat_A V c 0) (after0 V c) t d
theorem before1 (c : Dev nD) (t : Fin cfg13.N) (d) : (dat V c).before 1 t d = blk V c 1 t :=
  held1 V (dat V c) (dat_A V c 1) (after1 V c) t d
theorem before2 (c : Dev nD) (t : Fin cfg13.N) (d) : (dat V c).before 2 t d = blk V c 2 t :=
  held2 V (dat V c) (dat_A V c 2) (after2 V c) t d
theorem before3 (c : Dev nD) (t : Fin cfg13.N) (d) : (dat V c).before 3 t d = blk V c 3 t :=
  held3 V (dat V c) (dat_A V c 3) (after3 V c) t d
theorem before4 (c : Dev nD) (t : Fin cfg13.N) (d) : (dat V c).before 4 t d = blk V c 4 t :=
  held4 V (dat V c) (dat_A V c 4) (after4 V c) t d
theorem before5 (c : Dev nD) (t : Fin cfg13.N) (d) : (dat V c).before 5 t d = blk V c 5 t :=
  held5 V (dat V c) (dat_A V c 5) (after5 V c) t d

/-- What the body is called with at point t: the invariant, the core's dues, and each window's current buffer, -/
def pre (c : Dev nD) (t : Fin cfg13.N) : sProp 𝕄 :=
  iprop((dat V c).Φ t.castSucc ∗ (dat V c).owesAt () t.castSucc
    ∗ (∃ d, owns (c : Thread nD τ) (st13_0 t) fullShare ((dat V c).before 0 t d))
    ∗ (∃ d, owns (c : Thread nD τ) (st13_1 t) fullShare ((dat V c).before 1 t d))
    ∗ (∃ d, owns (c : Thread nD τ) (st13_2 t) fullShare ((dat V c).before 2 t d))
    ∗ (∃ d, owns (c : Thread nD τ) (st13_3 t) fullShare ((dat V c).before 3 t d))
    ∗ (∃ d, owns (c : Thread nD τ) (st13_4 t) fullShare ((dat V c).before 4 t d))
    ∗ (∃ d, owns (c : Thread nD τ) (st13_5 t) fullShare ((dat V c).before 5 t d))
    ∗ (∃ d, owns (c : Thread nD τ) (st13_6 t) fullShare ((dat V c).before 6 t d)))

/-- and what it returns. -/
def post (c : Dev nD) (t : Fin cfg13.N) : sProp 𝕄 :=
  iprop((dat V c).Φ t.succ ∗ (dat V c).owesAt () t.succ
    ∗ owns (c : Thread nD τ) (st13_0 t) fullShare ((dat V c).after 0 t)
    ∗ owns (c : Thread nD τ) (st13_1 t) fullShare ((dat V c).after 1 t)
    ∗ owns (c : Thread nD τ) (st13_2 t) fullShare ((dat V c).after 2 t)
    ∗ owns (c : Thread nD τ) (st13_3 t) fullShare ((dat V c).after 3 t)
    ∗ owns (c : Thread nD τ) (st13_4 t) fullShare ((dat V c).after 4 t)
    ∗ owns (c : Thread nD τ) (st13_5 t) fullShare ((dat V c).after 5 t)
    ∗ owns (c : Thread nD τ) (st13_6 t) fullShare ((dat V c).after 6 t))

/-- The body at any point: the inputs' buffers hold their blocks, so the body's triple applies; the invariant and the
    core's dues pass through untouched. -/
theorem soundBody (c : Dev nD) (t : Fin cfg13.N) :
    pre V c t ⊢ wp frame (wpE (defs₀ (F := F)) Variants.none c none) Set.univ (bodyAt13 t) (fun _ => post V c t) := by
  unfold pre post bodyAt13
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple c Set.univ (grid13.coords t) _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation (c : Dev nD) : BodyObligation (dat (F := F) V c) (defs₀ (F := F)) Variants.none () Set.univ := fun t => by
  rw [bigSep_W13, bigSep_W13]
  exact soundBody V c t

end Cert.Kernel.R13

end
-- ==== Proof.BReduce14Body.lean ====
/-
  The column sums of a 50000 x 256 array and of its squares, block by block of 2000 rows. Two 1 x 256 scratch rows
  carry the running sums from one grid point to the next: at the first point they are reset to zero, at every point
  the block's column sums (of the entries, and of their squares) are added to them, and at the last point they are
  copied into the two output rows. Here: the body on whole buffers, in each of the three situations a point can be in
  (the first, the last, or neither; with 25 points the first is not the last).
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.R14

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- A whole 1 x 256 row as a rectangle, and the origin of a rank-2 block. -/
abbrev rR : Rect S1x256 := Rect.unit (s := S1x256) ![0, 0] S1x256.size inb_S1x256_S1x256_0_0
theorem hz : (![0, 0] : Fin 2 → Nat) = fun _ => 0 := funext fun a => by fin_cases a <;> rfl

/-- One store of a whole row covers the row. -/
theorem cover (p : Vec F S1x256 .f32) (y : S1x256.Idx) :
    ∃ pc ∈ ([⟨rR, p⟩] : List (View.Piece (Elt F) S1x256 .f32)), y ∈ pc.1.set :=
  View.cover_of_tiled [⟨rR, p⟩] S1x256.size (by rfl) y

/-- A whole-row store at the head of a list of stores covers the row, whatever follows it. -/
theorem coverCons (p : Vec F S1x256 .f32) (L : List (View.Piece (Elt F) S1x256 .f32)) (y : S1x256.Idx) :
    ∃ pc ∈ ((⟨rR, p⟩ : View.Piece (Elt F) S1x256 .f32) :: L), y ∈ pc.1.set := by
  obtain ⟨pc, hm, hy⟩ := cover p y
  rw [List.mem_singleton] at hm
  exact ⟨pc, hm ▸ List.mem_cons_self, hy⟩

/-- The test "this is the first grid point", as the body computes it from the point's coordinate. -/
def isFirst (i : grid14.Coords) : BitVec 1 :=
  Scalar.cmpi .ne (Scalar.extui (Scalar.cmpi .eq (BitVec.ofNat 32 (i 0).val) 0#32) : BitVec 32) 0#32

/-- The running column sum after a block x, from the sum s before it; and the same for the squares. -/
abbrev addSum (x : Vec F S2000x256 .f32) (s : Vec F S1x256 .f32) : Vec F S1x256 .f32 := k14_pay4 x s
abbrev addSq (x : Vec F S2000x256 .f32) (q : Vec F S1x256 .f32) : Vec F S1x256 .f32 := k14_pay5 x q

set_option maxHeartbeats 1000000 in
/-- At the first point: whatever the scratch rows held, they end at the first block's sums from zero; the output rows are not touched. -/
theorem first (c : Dev nD) (E : Set ℕ) (i : grid14.Coords) (h1 : isFirst i = 1#1) (h2 : ¬ k14_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x k14_pay1) ∗ owns (c : Thread nD τ) arg5 fullShare (addSq x k14_pay2)) -∗ K ⟨⟩))
      ⊢ wp frame (wpE (defs₀ (F := F)) Variants.none c none) E (cc14__bn_reduce_kernel i arg1 harg1 arg2 harg2 arg3 harg3 arg4 harg4 arg5 harg5) K := by
  simp only [cc14__bn_reduce_kernel_eq_skeleton]; unfold cc14__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At a point that is neither first nor last: the block's sums are added to the scratch rows; the output rows are not touched. -/
theorem middle (c : Dev nD) (E : Set ℕ) (i : grid14.Coords) (h1 : ¬ isFirst i = 1#1) (h2 : ¬ k14_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare o1 ∗ owns (c : Thread nD τ) arg3 fullShare o2
            ∗ owns (c : Thread nD τ) arg4 fullShare (addSum x s) ∗ owns (c : Thread nD τ) arg5 fullShare (addSq x q)) -∗ K ⟨⟩))
      ⊢ wp frame (wpE (defs₀ (F := F)) Variants.none c none) E (cc14__bn_reduce_kernel i arg1 harg1 arg2 harg2 arg3 harg3 arg4 harg4 arg5 harg5) K := by
  simp only [cc14__bn_reduce_kernel_eq_skeleton]; unfold cc14__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

set_option maxHeartbeats 1000000 in
/-- At the last point: the block's sums are added to the scratch rows, and the totals are copied into the output rows. -/
theorem last (c : Dev nD) (E : Set ℕ) (i : grid14.Coords) (h1 : ¬ isFirst i = 1#1) (h2 : k14_cond2 i = 1#1)
    (arg1 : Memref sig .tc .vmem S2000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x256 .f32) (harg5 : arg5.IsWhole)
    (x : Vec F S2000x256 .f32) (s q o1 o2 : Vec F S1x256 .f32) (K : PUnit → sProp 𝕄) :
    iprop(owns (c : Thread nD τ) arg1 fullShare x ∗ owns (c : Thread nD τ) arg2 fullShare o1 ∗ owns (c : Thread nD τ) arg3 fullShare o2 ∗ owns (c : Thread nD τ) arg4 fullShare s ∗ owns (c : Thread nD τ) arg5 fullShare q
        ∗ (iprop(owns (c : Thread nD τ) arg1 fullShare x ∗ owns (c : Thread nD τ) arg2 fullShare (addSum x s) ∗ owns (c : Thread nD τ) arg3 fullShare (addSq x q)
            ∗ owns (c : Thread nD τ) arg4 fullShare (addSum x s) ∗ owns (c : Thread nD τ) arg5 fullShare (addSq x q)) -∗ K ⟨⟩))
      ⊢ wp frame (wpE (defs₀ (F := F)) Variants.none c none) E (cc14__bn_reduce_kernel i arg1 harg1 arg2 harg2 arg3 harg3 arg4 harg4 arg5 harg5) K := by
  simp only [cc14__bn_reduce_kernel_eq_skeleton]; unfold cc14__bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists _; isplitr
    swap; · iexact H2
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H3]
  · iexists _; isplitr
    swap; · iexact H3
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  isplitl [H4]
  · iexists _; isplitr
    swap; · iexact H4
    ipureintro
    first
      | rfl
      | (try sl_unfold_words
         simp only [View.readAt_eq_ld]
         repeat rw [View.read_writes_eq_canon _ _ _ (coverCons _ _)]
         simp only [View.canon_cons_unit_zero (S := S1x256) hz, View.ld_unit_zero (S := S2000x256) hz, View.ld_unit_zero (S := S1x256) hz,
           View.readCov_unit_zero (S := S1x256) arg4.view hz, View.readCov_unit_zero (S := S1x256) arg5.view hz])
  iexists _; isplitr
  swap; · iexact H5
  ipureintro
  first
    | rfl
    | (try sl_unfold_words
       simp only [View.readAt_eq_ld]
       repeat rw [View.read_writes_eq_canon _ _ _ (coverCons _ _)]
       simp only [View.canon_cons_unit_zero (S := S1x256) hz, View.ld_unit_zero (S := S2000x256) hz, View.ld_unit_zero (S := S1x256) hz,
         View.readCov_unit_zero (S := S1x256) arg4.view hz, View.readCov_unit_zero (S := S1x256) arg5.view hz])

end Cert.Kernel.R14

end
-- ==== Proof.BReduce14Region.lean ====
/-
  The proof data of the column-sum region. After the first n blocks the two scratch rows hold the column sums of the
  first 2000·n rows (`sumTo n`) and of their squares (`sqTo n`), built up from zero one block at a time. Between
  points the invariant keeps the two scratch rows: before the first point at anything, after point t at the sums over
  blocks 0 … t. The two output rows are left alone until the last point, where they receive the totals and are
  written back.
-/
import proofs.«162580_j71794673320191_1_alg».proof.Proof.BReduce14Body

set_option maxRecDepth 16384

noncomputable section

namespace Cert.Kernel.R14

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The two tests in closed form over the 25 grid points. -/
theorem first_iff : ∀ t : Fin cfg14.N, isFirst (grid14.coords t) = 1#1 ↔ t.val = 0 :=
  (by decide +kernel : ∀ t : Fin grid14.N, isFirst (grid14.coords t) = 1#1 ↔ t.val = 0)
theorem last_iff : ∀ t : Fin cfg14.N, k14_cond2 (grid14.coords t) = 1#1 ↔ t.val = 24 :=
  (by decide +kernel : ∀ t : Fin grid14.N, k14_cond2 (grid14.coords t) = 1#1 ↔ t.val = 24)

variable (V : (c : Dev nD) → (b : Ref sig .tc) → Buf (Elt F) ((c : Thread nD τ).loc b))

/-- Window w's block at point t, read off its array as the region finds it. -/
def blk (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The input window's buffer holds its block at every point. -/
theorem held0 {c : Dev nD} (dat : Dat τ (Elt F) Unit ℕ (Pipeline.UD sig nD τ) ℕ cfg14 c) (hA : dat.A 0 = V c (Pipeline.arrRef spec14 0))
    (hafter : ∀ t, dat.after 0 t = blk V c 0 t) (t : Fin cfg14.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column sums over the first n blocks, from zero; and of the squares. -/
def sumTo (c : Dev nD) : ℕ → Vec F S1x256 .f32
  | 0 => k14_pay1
  | n + 1 => if h : n < cfg14.N then addSum (blk V c 0 ⟨n, h⟩) (sumTo c n) else sumTo c n
def sqTo (c : Dev nD) : ℕ → Vec F S1x256 .f32
  | 0 => k14_pay2
  | n + 1 => if h : n < cfg14.N then addSq (blk V c 0 ⟨n, h⟩) (sqTo c n) else sqTo c n

theorem sumTo_succ (c : Dev nD) (t : Fin cfg14.N) : sumTo V c (t.val + 1) = addSum (blk V c 0 t) (sumTo V c t.val) := by
  rw [sumTo, dif_pos t.isLt]
theorem sqTo_succ (c : Dev nD) (t : Fin cfg14.N) : sqTo V c (t.val + 1) = addSq (blk V c 0 t) (sqTo V c t.val) := by
  rw [sqTo, dif_pos t.isLt]

/-- What is kept between points: the two scratch rows — at the sums over the blocks done so far once a point has run —,
    the rest of the core's scoped buffers unopened, and the generator register. -/
def inv (c : Dev nD) (n : ℕ) : sProp 𝕄 :=
  iprop((∃ s q, owns (c : Thread nD τ) (Memref.whole cc14_scratch0 : Memref sig .tc .vmem S1x256 .f32) fullShare s ∗ owns (c : Thread nD τ) (Memref.whole cc14_scratch1 : Memref sig .tc .vmem S1x256 .f32) fullShare q ∗ ⌜n ≠ 0 → s = sumTo V c n ∧ q = sqTo V c n⌝)
    ∗ Pipeline.scopedRestBut (Ix := Unit) (Name := ℕ) (U := Pipeline.UD sig nD τ) (Lvl := ℕ) (Val := Elt F) spec14 c [cc14_scratch0, cc14_scratch1]
    ∗ ∃ r, prngReg c r)

/-- Entering the region: the scratch rows come out of the core's scoped buffers, at anything. -/
theorem inv_in (c : Dev nD) :
    iprop(Pipeline.scopedRest (Ix := Unit) (Name := ℕ) (U := Pipeline.UD sig nD τ) (Lvl := ℕ) (Val := Elt F) spec14 c ∗ ∃ r, prngReg c r)
      ⊢ inv V c 0 := by
  rw [scopedRest14_split]; unfold inv; simp only [owns_whole]
  iintro ⟨⟨⟨⟨%f0, H0⟩, ⟨%f1, H1⟩⟩, Hrest⟩, Hg⟩
  isplitl [H0 H1]
  · iexists f0, f1
    isplitl [H0]; · iexact H0
    isplitl [H1]; · iexact H1
    ipureintro; intro h; exact absurd rfl h
  isplitl [Hrest]; · iexact Hrest
  iexact Hg

/-- Leaving it: they go back, their contents forgotten. -/
theorem inv_out (c : Dev nD) (n : ℕ) :
    inv V c n ⊢ iprop(Pipeline.scopedRest (Ix := Unit) (Name := ℕ) (U := Pipeline.UD sig nD τ) (Lvl := ℕ) (Val := Elt F) spec14 c ∗ ∃ r, prngReg c r) := by
  rw [scopedRest14_split]; unfold inv; simp only [owns_whole]
  iintro ⟨⟨%f0, %f1, H0, H1, -⟩, Hrest, Hg⟩
  isplitl [H0 H1 Hrest]
  · isplitl [H0 H1]
    · isplitl [H0]; · iexists f0; iexact H0
      iexists f1; iexact H1
    iexact Hrest
  iexact Hg

/-- The region's proof data on core c. -/
def dat (c : Dev nD) : Dat τ (Elt F) Unit ℕ (Pipeline.UD sig nD τ) ℕ cfg14 c where
  A w := V c (Pipeline.arrRef spec14 w)
  after w t := match w with
    | ⟨0, _⟩ => blk V c 0 t
    | ⟨1, _⟩ => sumTo V c (t.val + 1)
    | ⟨2, _⟩ => sqTo V c (t.val + 1)
  Φ j := inv V c j.val
  q _ := fullShare
  owed _ := 0

theorem dat_A (c : Dev nD) (w : Fin cfg14.W) : (dat V c).A w = V c (Pipeline.arrRef spec14 w) := by dsimp only [dat]
theorem after0 (c : Dev nD) (t : Fin cfg14.N) : (dat V c).after 0 t = blk V c 0 t := by dsimp only [dat]
theorem after1 (c : Dev nD) (t : Fin cfg14.N) : (dat V c).after 1 t = sumTo V c (t.val + 1) := by dsimp only [dat]
theorem after2 (c : Dev nD) (t : Fin cfg14.N) : (dat V c).after 2 t = sqTo V c (t.val + 1) := by dsimp only [dat]
theorem before0 (c : Dev nD) (t : Fin cfg14.N) (d) : (dat V c).before 0 t d = blk V c 0 t :=
  held0 V (dat V c) (dat_A V c 0) (after0 V c) t d

/-- What the body is called with at point t, -/
def pre (c : Dev nD) (t : Fin cfg14.N) : sProp 𝕄 :=
  iprop((dat V c).Φ t.castSucc ∗ (dat V c).owesAt () t.castSucc
    ∗ (∃ d, owns (c : Thread nD τ) (st14_0 t) fullShare ((dat V c).before 0 t d))
    ∗ (∃ d, owns (c : Thread nD τ) (st14_1 t) fullShare ((dat V c).before 1 t d))
    ∗ (∃ d, owns (c : Thread nD τ) (st14_2 t) fullShare ((dat V c).before 2 t d)))

/-- what it returns at a point other than the last (the output rows as they were found), -/
def postKept (c : Dev nD) (t : Fin cfg14.N) : sProp 𝕄 :=
  iprop((dat V c).Φ t.succ ∗ (dat V c).owesAt () t.succ
    ∗ owns (c : Thread nD τ) (st14_0 t) fullShare ((dat V c).after 0 t)
    ∗ (∃ d, owns (c : Thread nD τ) (st14_1 t) fullShare ((dat V c).before 1 t d))
    ∗ (∃ d, owns (c : Thread nD τ) (st14_2 t) fullShare ((dat V c).before 2 t d)))

/-- and what it returns at the last point (the output rows at the totals). -/
def postLast (c : Dev nD) (t : Fin cfg14.N) : sProp 𝕄 :=
  iprop((dat V c).Φ t.succ ∗ (dat V c).owesAt () t.succ
    ∗ owns (c : Thread nD τ) (st14_0 t) fullShare ((dat V c).after 0 t)
    ∗ owns (c : Thread nD τ) (st14_1 t) fullShare ((dat V c).after 1 t)
    ∗ owns (c : Thread nD τ) (st14_2 t) fullShare ((dat V c).after 2 t))

/-- The body at a point other than the last: the first point resets the scratch rows, every point adds its block. -/
theorem soundKept (c : Dev nD) (t : Fin cfg14.N) (hl : t.val ≠ 24) :
    pre V c t ⊢ wp frame (wpE (defs₀ (F := F)) Variants.none c none) Set.univ (bodyAt14 t) (fun _ => postKept V c t) := by
  unfold pre postKept bodyAt14
  simp only [before0]
  rw [show (dat V c).Φ t.castSucc = inv V c t.val from rfl, show (dat V c).Φ t.succ = inv V c (t.val + 1) from rfl,
    show (dat V c).owesAt () t.succ = (dat V c).owesAt () t.castSucc from rfl, after0]
  unfold inv
  iintro ⟨⟨⟨%s, %q, Hs, Hq, %hsq⟩, Hrest, Hg⟩, Ho, ⟨%d0, H0⟩, ⟨%d1, H1⟩, ⟨%d2, H2⟩⟩
  have hnl : ¬ k14_cond2 (grid14.coords t) = 1#1 := fun h => hl ((last_iff t).mp h)
  by_cases h0 : t.val = 0
  · iapply (first c Set.univ (grid14.coords t) ((first_iff t).mpr h0) hnl _ _ _ _ _ _ _ _ _ _ (blk V c 0 t) s q _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨by rw [sumTo_succ, h0]; rfl, by rw [sqTo_succ, h0]; rfl⟩
      isplitl [Hrest]; · iexact Hrest
      iexact Hg
    isplitl [Ho]; · iexact Ho
    isplitl [H0]; · iexact H0
    isplitl [H1]; · iexists _; iexact H1
    iexists _; iexact H2
  · obtain ⟨rfl, rfl⟩ := hsq h0
    iapply (middle c Set.univ (grid14.coords t) (fun h => h0 ((first_iff t).mp h)) hnl _ _ _ _ _ _ _ _ _ _ (blk V c 0 t) _ _ _ _ _)
    isplitl [H0]; · iexact H0
    isplitl [H1]; · iexact H1
    isplitl [H2]; · iexact H2
    isplitl [Hs]; · iexact Hs
    isplitl [Hq]; · iexact Hq
    iintro ⟨H0, H1, H2, Hs, Hq⟩
    isplitl [Hs Hq Hrest Hg]
    · isplitl [Hs Hq]
      · iexists _, _
        isplitl [Hs]; · iexact Hs
        isplitl [Hq]; · iexact Hq
        ipureintro; intro _
        exact ⟨(sumTo_succ V c t).symm, (sqTo_succ V c t).symm⟩
      isplitl [Hrest]; · iexact Hrest
      iexact Hg
    isplitl [Ho]; · iexact Ho
    isplitl [H0]; · iexact H0
    isplitl [H1]; · iexists _; iexact H1
    iexists _; iexact H2

/-- The body at the last point: its block is added and the totals go to the output rows. -/
theorem soundLast (c : Dev nD) (t : Fin cfg14.N) (hl : t.val = 24) :
    pre V c t ⊢ wp frame (wpE (defs₀ (F := F)) Variants.none c none) Set.univ (bodyAt14 t) (fun _ => postLast V c t) := by
  unfold pre postLast bodyAt14
  simp only [before0]
  rw [show (dat V c).Φ t.castSucc = inv V c t.val from rfl, show (dat V c).Φ t.succ = inv V c (t.val + 1) from rfl,
    show (dat V c).owesAt () t.succ = (dat V c).owesAt () t.castSucc from rfl, after0, after1, after2]
  unfold inv
  iintro ⟨⟨⟨%s, %q, Hs, Hq, %hsq⟩, Hrest, Hg⟩, Ho, ⟨%d0, H0⟩, ⟨%d1, H1⟩, ⟨%d2, H2⟩⟩
  have h0 : t.val ≠ 0 := by omega
  obtain ⟨rfl, rfl⟩ := hsq h0
  iapply (last c Set.univ (grid14.coords t) (fun h => h0 ((first_iff t).mp h)) ((last_iff t).mpr hl) _ _ _ _ _ _ _ _ _ _ (blk V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  rw [sumTo_succ, sqTo_succ]
  isplitl [Hs Hq Hrest Hg]
  · isplitl [Hs Hq]
    · iexists _, _
      isplitl [Hs]; · iexact Hs
      isplitl [Hq]; · iexact Hq
      ipureintro; intro _
      exact ⟨rfl, rfl⟩
    isplitl [Hrest]; · iexact Hrest
    iexact Hg
  isplitl [Ho]; · iexact Ho
  isplitl [H0]; · iexact H0
  isplitl [H1]; · iexact H1
  iexact H2

/-- The pipeline's body obligation, at every point: the output rows count as untouched except at the last point,
    which is also the only point that writes them back. -/
theorem obligation (c : Dev nD) : BodyObligation (dat (F := F) V c) (defs₀ (F := F)) Variants.none () Set.univ := fun t => by
  rw [bigSep_W14, bigSep_W14]
  by_cases hl : t.val = 24
  · have hc : k14_cond2 (grid14.coords t) = 1#1 := (last_iff t).mpr hl
    have hi1 : idle14 1 (grid14.coords t) = false := by
      show (!(k14_cond2 (grid14.coords t) == 1#1)) = false
      rw [hc]; rfl
    have hi2 : idle14 2 (grid14.coords t) = false := by
      show (!(k14_cond2 (grid14.coords t) == 1#1)) = false
      rw [hc]; rfl
    simp only [hi1, hi2]
    exact soundLast V c t hl
  · have hc : ¬ k14_cond2 (grid14.coords t) = 1#1 := fun h => hl ((last_iff t).mp h)
    have hi1 : idle14 1 (grid14.coords t) = true := by
      show (!(k14_cond2 (grid14.coords t) == 1#1)) = true
      simp only [beq_iff_eq, hc, Bool.not_eq_true', Bool.not_false, decide_false, beq_eq_false_iff_ne, ne_eq, not_false_eq_true]
    have hi2 : idle14 2 (grid14.coords t) = true := by
      show (!(k14_cond2 (grid14.coords t) == 1#1)) = true
      simp only [beq_iff_eq, hc, Bool.not_eq_true', Bool.not_false, decide_false, beq_eq_false_iff_ne, ne_eq, not_false_eq_true]
    have hf1 : (cfg14.win 1).flush t = false := by
      have := flush14_1 t; have hm : ¬ t.val % 25 = 24 := by have := t.isLt; have : cfg14.N = 25 := N_14; omega
      exact Bool.eq_false_iff.mpr fun h => hm (this.mp h)
    have hf2 : (cfg14.win 2).flush t = false := by
      have := flush14_2 t; have hm : ¬ t.val % 25 = 24 := by have := t.isLt; have : cfg14.N = 25 := N_14; omega
      exact Bool.eq_false_iff.mpr fun h => hm (this.mp h)
    simp only [hi1, hi2, hf1, hf2]
    exact soundKept V c t hl

end Cert.Kernel.R14

end
-- ==== Proof.BRegion15.lean ====
/-
  Batch normalisation applied to a block of 2000 node rows: (row - mean) times the inverse standard deviation times the scale plus the shift, the four 1 x 256 rows repeated down the block (and, in the layers that have it, clipped below at zero).
  A grid point t works on rows 2000·t … 2000·t+1999; the weights and the 1 x 256 rows are the same block at every
  point. The body reads its output buffer once before overwriting all of it, so what that buffer held does not matter.
  After the body each input buffer still holds its block and the output buffer holds the function `out` of the input
  blocks. Nothing is kept between points and no core owes another anything.
-/
import proofs.«162580_j71794673320191_1_alg».proof.Proof.Gen.Kernel.Launch
import proofs.«162580_j71794673320191_1_alg».proof.Proof.Gen.Kernel.Skeleton
import proofs.«162580_j71794673320191_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.R15

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole output block as a rectangle. -/
abbrev rO : Rect S2000x256 := (Rect.unit (s := S2000x256) ![0, 0] S2000x256.size inb_S2000x256_S2000x256_0_0)

/-- What the body leaves in the output block: its one store, over the whole block, of the body's arithmetic on the
    whole input blocks. -/
def out (x0 : Vec F S2000x256 .f32) (x1 : Vec F S1x256 .f32) (x2 : Vec F S1x256 .f32) (x3 : Vec F S1x256 .f32) (x4 : Vec F S1x256 .f32) : Vec F S2000x256 .f32 :=
  View.canon [⟨rO, k15_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers every entry of the block. -/
theorem cover (p : Vec F S2000x256 .f32) (y : S2000x256.Idx) :
    ∃ pc ∈ ([⟨rO, p⟩] : List (View.Piece (Elt F) S2000x256 .f32)), y ∈ pc.1.set :=
  View.cover_of_tiled [⟨rO, p⟩] S2000x256.size (by rfl) y

set_option maxHeartbeats 1000000 in
/-- The body on whole buffers: the inputs keep their contents and the output block ends at `out` of them, whatever it
    held before. -/
theorem triple (c : Dev nD) (E : Set ℕ) (i : grid15.Coords)
    (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc15__bn_norm_kernel i arg1 harg1 arg2 harg2 arg3 harg3 arg4 harg4 arg5 harg5 arg6 harg6) K := by
  simp only [cc15__bn_norm_kernel_eq_skeleton]; unfold cc15__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover _)

variable (V : (c : Dev nD) → (b : Ref sig .tc) → Buf (Elt F) ((c : Thread nD τ).loc b))

/-- Window w's block at point t, read off its array as the region finds it. -/
def blk (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's buffer holds its block at every point, fetched there or not: a point that does not fetch finds
    the same block index as the point before, and the body left the block in place. -/
theorem held0 {c : Dev nD} (dat : Dat τ (Elt F) Unit ℕ (Pipeline.UD sig nD τ) ℕ cfg15 c) (hA : dat.A 0 = V c (Pipeline.arrRef spec15 0))
    (hafter : ∀ t, dat.after 0 t = blk V c 0 t) (t : Fin cfg15.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (Pipeline.UD sig nD τ) ℕ cfg15 c) (hA : dat.A 1 = V c (Pipeline.arrRef spec15 1))
    (hafter : ∀ t, dat.after 1 t = blk V c 1 t) (t : Fin cfg15.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (Pipeline.UD sig nD τ) ℕ cfg15 c) (hA : dat.A 2 = V c (Pipeline.arrRef spec15 2))
    (hafter : ∀ t, dat.after 2 t = blk V c 2 t) (t : Fin cfg15.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3 {c : Dev nD} (dat : Dat τ (Elt F) Unit ℕ (Pipeline.UD sig nD τ) ℕ cfg15 c) (hA : dat.A 3 = V c (Pipeline.arrRef spec15 3))
    (hafter : ∀ t, dat.after 3 t = blk V c 3 t) (t : Fin cfg15.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4 {c : Dev nD} (dat : Dat τ (Elt F) Unit ℕ (Pipeline.UD sig nD τ) ℕ cfg15 c) (hA : dat.A 4 = V c (Pipeline.arrRef spec15 4))
    (hafter : ∀ t, dat.after 4 t = blk V c 4 t) (t : Fin cfg15.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The region's proof data on core c. -/
def dat (c : Dev nD) : Dat τ (Elt F) Unit ℕ (Pipeline.UD sig nD τ) ℕ cfg15 c where
  A w := V c (Pipeline.arrRef spec15 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out (blk V c 0 t) (blk V c 1 t) (blk V c 2 t) (blk V c 3 t) (blk V c 4 t)
  Φ _ := Pipeline.ΦA spec15 c
  q _ := fullShare
  owed _ := 0

theorem dat_A (c : Dev nD) (w : Fin cfg15.W) : (dat V c).A w = V c (Pipeline.arrRef spec15 w) := by dsimp only [dat]
theorem after0 (c : Dev nD) (t : Fin cfg15.N) : (dat V c).after 0 t = blk V c 0 t := by dsimp only [dat]
theorem after1 (c : Dev nD) (t : Fin cfg15.N) : (dat V c).after 1 t = blk V c 1 t := by dsimp only [dat]
theorem after2 (c : Dev nD) (t : Fin cfg15.N) : (dat V c).after 2 t = blk V c 2 t := by dsimp only [dat]
theorem after3 (c : Dev nD) (t : Fin cfg15.N) : (dat V c).after 3 t = blk V c 3 t := by dsimp only [dat]
theorem after4 (c : Dev nD) (t : Fin cfg15.N) : (dat V c).after 4 t = blk V c 4 t := by dsimp only [dat]
theorem after5 (c : Dev nD) (t : Fin cfg15.N) : (dat V c).after 5 t = out (blk V c 0 t) (blk V c 1 t) (blk V c 2 t) (blk V c 3 t) (blk V c 4 t) := by dsimp only [dat]
theorem before0 (c : Dev nD) (t : Fin cfg15.N) (d) : (dat V c).before 0 t d = blk V c 0 t :=
  held0 V (dat V c) (dat_A V c 0) (after0 V c) t d
theorem before1 (c : Dev nD) (t : Fin cfg15.N) (d) : (dat V c).before 1 t d = blk V c 1 t :=
  held1 V (dat V c) (dat_A V c 1) (after1 V c) t d
theorem before2 (c : Dev nD) (t : Fin cfg15.N) (d) : (dat V c).before 2 t d = blk V c 2 t :=
  held2 V (dat V c) (dat_A V c 2) (after2 V c) t d
theorem before3 (c : Dev nD) (t : Fin cfg15.N) (d) : (dat V c).before 3 t d = blk V c 3 t :=
  held3 V (dat V c) (dat_A V c 3) (after3 V c) t d
theorem before4 (c : Dev nD) (t : Fin cfg15.N) (d) : (dat V c).before 4 t d = blk V c 4 t :=
  held4 V (dat V c) (dat_A V c 4) (after4 V c) t d

/-- What the body is called with at point t: the invariant, the core's dues, and each window's current buffer, -/
def pre (c : Dev nD) (t : Fin cfg15.N) : sProp 𝕄 :=
  iprop((dat V c).Φ t.castSucc ∗ (dat V c).owesAt () t.castSucc
    ∗ (∃ d, owns (c : Thread nD τ) (st15_0 t) fullShare ((dat V c).before 0 t d))
    ∗ (∃ d, owns (c : Thread nD τ) (st15_1 t) fullShare ((dat V c).before 1 t d))
    ∗ (∃ d, owns (c : Thread nD τ) (st15_2 t) fullShare ((dat V c).before 2 t d))
    ∗ (∃ d, owns (c : Thread nD τ) (st15_3 t) fullShare ((dat V c).before 3 t d))
    ∗ (∃ d, owns (c : Thread nD τ) (st15_4 t) fullShare ((dat V c).before 4 t d))
    ∗ (∃ d, owns (c : Thread nD τ) (st15_5 t) fullShare ((dat V c).before 5 t d)))

/-- and what it returns. -/
def post (c : Dev nD) (t : Fin cfg15.N) : sProp 𝕄 :=
  iprop((dat V c).Φ t.succ ∗ (dat V c).owesAt () t.succ
    ∗ owns (c : Thread nD τ) (st15_0 t) fullShare ((dat V c).after 0 t)
    ∗ owns (c : Thread nD τ) (st15_1 t) fullShare ((dat V c).after 1 t)
    ∗ owns (c : Thread nD τ) (st15_2 t) fullShare ((dat V c).after 2 t)
    ∗ owns (c : Thread nD τ) (st15_3 t) fullShare ((dat V c).after 3 t)
    ∗ owns (c : Thread nD τ) (st15_4 t) fullShare ((dat V c).after 4 t)
    ∗ owns (c : Thread nD τ) (st15_5 t) fullShare ((dat V c).after 5 t))

/-- The body at any point: the inputs' buffers hold their blocks, so the body's triple applies; the invariant and the
    core's dues pass through untouched. -/
theorem soundBody (c : Dev nD) (t : Fin cfg15.N) :
    pre V c t ⊢ wp frame (wpE (defs₀ (F := F)) Variants.none c none) Set.univ (bodyAt15 t) (fun _ => post V c t) := by
  unfold pre post bodyAt15
  simp only [before0, before1, before2, before3, before4]
  rw [show (dat V c).Φ t.succ = (dat V c).Φ t.castSucc from rfl,
    show (dat V c).owesAt () t.succ = (dat V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (triple c Set.univ (grid15.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem obligation (c : Dev nD) : BodyObligation (dat (F := F) V c) (defs₀ (F := F)) Variants.none () Set.univ := fun t => by
  rw [bigSep_W15, bigSep_W15]
  exact soundBody V c t

end Cert.Kernel.R15

end
-- ==== Proof.BBounds.lean ====
/-
  The contents of the core's buffers at each of the 29 boundaries between the items of the program (host stretches and
  kernel regions, in program order): a host stretch leaves the fold of its operations over what it found; a region
  leaves its windows' arrays at what its write-backs add up to and every other buffer as it found it. No item writes
  an argument array, so each argument is, at the end, what it was at the start.
-/
import proofs.«162580_j71794673320191_1_alg».proof.Proof.BRegion0
import proofs.«162580_j71794673320191_1_alg».proof.Proof.BRegion1
import proofs.«162580_j71794673320191_1_alg».proof.Proof.BRegion2
import proofs.«162580_j71794673320191_1_alg».proof.Proof.BRegion3
import proofs.«162580_j71794673320191_1_alg».proof.Proof.BReduce4Region
import proofs.«162580_j71794673320191_1_alg».proof.Proof.BRegion5
import proofs.«162580_j71794673320191_1_alg».proof.Proof.BRegion6
import proofs.«162580_j71794673320191_1_alg».proof.Proof.BRegion7
import proofs.«162580_j71794673320191_1_alg».proof.Proof.BRegion8
import proofs.«162580_j71794673320191_1_alg».proof.Proof.BReduce9Region
import proofs.«162580_j71794673320191_1_alg».proof.Proof.BRegion10
import proofs.«162580_j71794673320191_1_alg».proof.Proof.BRegion11
import proofs.«162580_j71794673320191_1_alg».proof.Proof.BRegion12
import proofs.«162580_j71794673320191_1_alg».proof.Proof.BRegion13
import proofs.«162580_j71794673320191_1_alg».proof.Proof.BReduce14Region
import proofs.«162580_j71794673320191_1_alg».proof.Proof.BRegion15
import proofs.«162580_j71794673320191_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch hostOps0. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After region 0. -/
def W2 (c : Dev nD) : Valuation τ sig (Elt F) :=
  Pipeline.withArrays spec0 c (W1 m ρ c) fun w => (R0.dat (V1 m ρ) c).arrAt w cfg0.N
abbrev V2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch hostOps1. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After region 1. -/
def W4 (c : Dev nD) : Valuation τ sig (Elt F) :=
  Pipeline.withArrays spec1 c (W3 m ρ c) fun w => (R1.dat (V3 m ρ) c).arrAt w cfg1.N
abbrev V4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch hostOps2. -/
def W5 (c : Dev nD) : Valuation τ sig (Elt F) := StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After region 2. -/
def W6 (c : Dev nD) : Valuation τ sig (Elt F) :=
  Pipeline.withArrays spec2 c (W5 m ρ c) fun w => (R2.dat (V5 m ρ) c).arrAt w cfg2.N
abbrev V6 : (c : Dev nD) → (b : Ref sig .tc) → Buf (Elt F) ((c : Thread nD τ).loc b) := fun c b => W6 m ρ c b
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (R2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch hostOps3. -/
def W7 (c : Dev nD) : Valuation τ sig (Elt F) := StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After region 3. -/
def W8 (c : Dev nD) : Valuation τ sig (Elt F) :=
  Pipeline.withArrays spec3 c (W7 m ρ c) fun w => (R3.dat (V7 m ρ) c).arrAt w cfg3.N
abbrev V8 : (c : Dev nD) → (b : Ref sig .tc) → Buf (Elt F) ((c : Thread nD τ).loc b) := fun c b => W8 m ρ c b
theorem W8_arr (c : Dev nD) (w : Fin cfg3.W) :
    W8 m ρ c (Proc.devRef .tc (Pipeline.arrRef spec3 w)) = (R3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem hF3 (c : Dev nD) (w : Fin cfg3.W) : (R3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After region 4. -/
def W9 (c : Dev nD) : Valuation τ sig (Elt F) :=
  Pipeline.withArrays spec4 c (W8 m ρ c) fun w => (R4.dat (V8 m ρ) c).arrAt w cfg4.N
abbrev V9 : (c : Dev nD) → (b : Ref sig .tc) → Buf (Elt F) ((c : Thread nD τ).loc b) := fun c b => W9 m ρ c b
theorem W9_arr (c : Dev nD) (w : Fin cfg4.W) :
    W9 m ρ c (Proc.devRef .tc (Pipeline.arrRef spec4 w)) = (R4.dat (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
theorem hF4 (c : Dev nD) (w : Fin cfg4.W) : (R4.dat (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch hostOps5. -/
def W10 (c : Dev nD) : Valuation τ sig (Elt F) := StableHlo.after hostOps5 (W9 m ρ c)
abbrev V10 : (c : Dev nD) → (b : Ref sig .tc) → Buf (Elt F) ((c : Thread nD τ).loc b) := fun c b => W10 m ρ c b
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h

/-- After region 5. -/
def W11 (c : Dev nD) : Valuation τ sig (Elt F) :=
  Pipeline.withArrays spec5 c (W10 m ρ c) fun w => (R5.dat (V10 m ρ) c).arrAt w cfg5.N
abbrev V11 : (c : Dev nD) → (b : Ref sig .tc) → Buf (Elt F) ((c : Thread nD τ).loc b) := fun c b => W11 m ρ c b
theorem W11_arr (c : Dev nD) (w : Fin cfg5.W) :
    W11 m ρ c (Proc.devRef .tc (Pipeline.arrRef spec5 w)) = (R5.dat (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
theorem hF5 (c : Dev nD) (w : Fin cfg5.W) : (R5.dat (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the host stretch hostOps6. -/
def W12 (c : Dev nD) : Valuation τ sig (Elt F) := StableHlo.after hostOps6 (W11 m ρ c)
abbrev V12 : (c : Dev nD) → (b : Ref sig .tc) → Buf (Elt F) ((c : Thread nD τ).loc b) := fun c b => W12 m ρ c b
theorem W12_of (c : Dev nD) (r : Ref sig .tc) (h : r ∉ hostOps6_W) : W12 m ρ c (Proc.devRef .tc r) = W11 m ρ c (Proc.devRef .tc r) :=
  StableHlo.after_of_writes_sub hostOps6 _ hostOps6_writes h

/-- After region 6. -/
def W13 (c : Dev nD) : Valuation τ sig (Elt F) :=
  Pipeline.withArrays spec6 c (W12 m ρ c) fun w => (R6.dat (V12 m ρ) c).arrAt w cfg6.N
abbrev V13 : (c : Dev nD) → (b : Ref sig .tc) → Buf (Elt F) ((c : Thread nD τ).loc b) := fun c b => W13 m ρ c b
theorem W13_arr (c : Dev nD) (w : Fin cfg6.W) :
    W13 m ρ c (Proc.devRef .tc (Pipeline.arrRef spec6 w)) = (R6.dat (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
theorem hF6 (c : Dev nD) (w : Fin cfg6.W) : (R6.dat (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- After the host stretch hostOps7. -/
def W14 (c : Dev nD) : Valuation τ sig (Elt F) := StableHlo.after hostOps7 (W13 m ρ c)
abbrev V14 : (c : Dev nD) → (b : Ref sig .tc) → Buf (Elt F) ((c : Thread nD τ).loc b) := fun c b => W14 m ρ c b
theorem W14_of (c : Dev nD) (r : Ref sig .tc) (h : r ∉ hostOps7_W) : W14 m ρ c (Proc.devRef .tc r) = W13 m ρ c (Proc.devRef .tc r) :=
  StableHlo.after_of_writes_sub hostOps7 _ hostOps7_writes h

/-- After region 7. -/
def W15 (c : Dev nD) : Valuation τ sig (Elt F) :=
  Pipeline.withArrays spec7 c (W14 m ρ c) fun w => (R7.dat (V14 m ρ) c).arrAt w cfg7.N
abbrev V15 : (c : Dev nD) → (b : Ref sig .tc) → Buf (Elt F) ((c : Thread nD τ).loc b) := fun c b => W15 m ρ c b
theorem W15_arr (c : Dev nD) (w : Fin cfg7.W) :
    W15 m ρ c (Proc.devRef .tc (Pipeline.arrRef spec7 w)) = (R7.dat (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
theorem hF7 (c : Dev nD) (w : Fin cfg7.W) : (R7.dat (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

/-- After the host stretch hostOps8. -/
def W16 (c : Dev nD) : Valuation τ sig (Elt F) := StableHlo.after hostOps8 (W15 m ρ c)
abbrev V16 : (c : Dev nD) → (b : Ref sig .tc) → Buf (Elt F) ((c : Thread nD τ).loc b) := fun c b => W16 m ρ c b
theorem W16_of (c : Dev nD) (r : Ref sig .tc) (h : r ∉ hostOps8_W) : W16 m ρ c (Proc.devRef .tc r) = W15 m ρ c (Proc.devRef .tc r) :=
  StableHlo.after_of_writes_sub hostOps8 _ hostOps8_writes h

/-- After region 8. -/
def W17 (c : Dev nD) : Valuation τ sig (Elt F) :=
  Pipeline.withArrays spec8 c (W16 m ρ c) fun w => (R8.dat (V16 m ρ) c).arrAt w cfg8.N
abbrev V17 : (c : Dev nD) → (b : Ref sig .tc) → Buf (Elt F) ((c : Thread nD τ).loc b) := fun c b => W17 m ρ c b
theorem W17_arr (c : Dev nD) (w : Fin cfg8.W) :
    W17 m ρ c (Proc.devRef .tc (Pipeline.arrRef spec8 w)) = (R8.dat (V16 m ρ) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb
theorem hF8 (c : Dev nD) (w : Fin cfg8.W) : (R8.dat (V16 m ρ) c).arrAt w cfg8.N = V17 m ρ c (Pipeline.arrRef spec8 w) :=
  (W17_arr m ρ c w).symm
theorem hrest8 (c : Dev nD) : ∀ b, b ∉ Finset.univ.image (Pipeline.arrRef spec8) → V17 m ρ c b = V16 m ρ c b :=
  fun b hb => W17_of_ne m ρ c b fun w e => hb (Finset.mem_image.mpr ⟨w, Finset.mem_univ _, e⟩)

/-- After region 9. -/
def W18 (c : Dev nD) : Valuation τ sig (Elt F) :=
  Pipeline.withArrays spec9 c (W17 m ρ c) fun w => (R9.dat (V17 m ρ) c).arrAt w cfg9.N
abbrev V18 : (c : Dev nD) → (b : Ref sig .tc) → Buf (Elt F) ((c : Thread nD τ).loc b) := fun c b => W18 m ρ c b
theorem W18_arr (c : Dev nD) (w : Fin cfg9.W) :
    W18 m ρ c (Proc.devRef .tc (Pipeline.arrRef spec9 w)) = (R9.dat (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb
theorem hF9 (c : Dev nD) (w : Fin cfg9.W) : (R9.dat (V17 m ρ) c).arrAt w cfg9.N = V18 m ρ c (Pipeline.arrRef spec9 w) :=
  (W18_arr m ρ c w).symm
theorem hrest9 (c : Dev nD) : ∀ b, b ∉ Finset.univ.image (Pipeline.arrRef spec9) → V18 m ρ c b = V17 m ρ c b :=
  fun b hb => W18_of_ne m ρ c b fun w e => hb (Finset.mem_image.mpr ⟨w, Finset.mem_univ _, e⟩)

/-- After the host stretch hostOps10. -/
def W19 (c : Dev nD) : Valuation τ sig (Elt F) := StableHlo.after hostOps10 (W18 m ρ c)
abbrev V19 : (c : Dev nD) → (b : Ref sig .tc) → Buf (Elt F) ((c : Thread nD τ).loc b) := fun c b => W19 m ρ c b
theorem W19_of (c : Dev nD) (r : Ref sig .tc) (h : r ∉ hostOps10_W) : W19 m ρ c (Proc.devRef .tc r) = W18 m ρ c (Proc.devRef .tc r) :=
  StableHlo.after_of_writes_sub hostOps10 _ hostOps10_writes h

/-- After region 10. -/
def W20 (c : Dev nD) : Valuation τ sig (Elt F) :=
  Pipeline.withArrays spec10 c (W19 m ρ c) fun w => (R10.dat (V19 m ρ) c).arrAt w cfg10.N
abbrev V20 : (c : Dev nD) → (b : Ref sig .tc) → Buf (Elt F) ((c : Thread nD τ).loc b) := fun c b => W20 m ρ c b
theorem W20_arr (c : Dev nD) (w : Fin cfg10.W) :
    W20 m ρ c (Proc.devRef .tc (Pipeline.arrRef spec10 w)) = (R10.dat (V19 m ρ) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 m ρ c (Proc.devRef .tc b) = W19 m ρ c (Proc.devRef .tc b) := by
  unfold W20; exact Pipeline.withArrays_of_ne spec10 c _ _ b hb
theorem hF10 (c : Dev nD) (w : Fin cfg10.W) : (R10.dat (V19 m ρ) c).arrAt w cfg10.N = V20 m ρ c (Pipeline.arrRef spec10 w) :=
  (W20_arr m ρ c w).symm
theorem hrest10 (c : Dev nD) : ∀ b, b ∉ Finset.univ.image (Pipeline.arrRef spec10) → V20 m ρ c b = V19 m ρ c b :=
  fun b hb => W20_of_ne m ρ c b fun w e => hb (Finset.mem_image.mpr ⟨w, Finset.mem_univ _, e⟩)

/-- After the host stretch hostOps11. -/
def W21 (c : Dev nD) : Valuation τ sig (Elt F) := StableHlo.after hostOps11 (W20 m ρ c)
abbrev V21 : (c : Dev nD) → (b : Ref sig .tc) → Buf (Elt F) ((c : Thread nD τ).loc b) := fun c b => W21 m ρ c b
theorem W21_of (c : Dev nD) (r : Ref sig .tc) (h : r ∉ hostOps11_W) : W21 m ρ c (Proc.devRef .tc r) = W20 m ρ c (Proc.devRef .tc r) :=
  StableHlo.after_of_writes_sub hostOps11 _ hostOps11_writes h

/-- After region 11. -/
def W22 (c : Dev nD) : Valuation τ sig (Elt F) :=
  Pipeline.withArrays spec11 c (W21 m ρ c) fun w => (R11.dat (V21 m ρ) c).arrAt w cfg11.N
abbrev V22 : (c : Dev nD) → (b : Ref sig .tc) → Buf (Elt F) ((c : Thread nD τ).loc b) := fun c b => W22 m ρ c b
theorem W22_arr (c : Dev nD) (w : Fin cfg11.W) :
    W22 m ρ c (Proc.devRef .tc (Pipeline.arrRef spec11 w)) = (R11.dat (V21 m ρ) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 m ρ c (Proc.devRef .tc b) = W21 m ρ c (Proc.devRef .tc b) := by
  unfold W22; exact Pipeline.withArrays_of_ne spec11 c _ _ b hb
theorem hF11 (c : Dev nD) (w : Fin cfg11.W) : (R11.dat (V21 m ρ) c).arrAt w cfg11.N = V22 m ρ c (Pipeline.arrRef spec11 w) :=
  (W22_arr m ρ c w).symm
theorem hrest11 (c : Dev nD) : ∀ b, b ∉ Finset.univ.image (Pipeline.arrRef spec11) → V22 m ρ c b = V21 m ρ c b :=
  fun b hb => W22_of_ne m ρ c b fun w e => hb (Finset.mem_image.mpr ⟨w, Finset.mem_univ _, e⟩)

/-- After the host stretch hostOps12. -/
def W23 (c : Dev nD) : Valuation τ sig (Elt F) := StableHlo.after hostOps12 (W22 m ρ c)
abbrev V23 : (c : Dev nD) → (b : Ref sig .tc) → Buf (Elt F) ((c : Thread nD τ).loc b) := fun c b => W23 m ρ c b
theorem W23_of (c : Dev nD) (r : Ref sig .tc) (h : r ∉ hostOps12_W) : W23 m ρ c (Proc.devRef .tc r) = W22 m ρ c (Proc.devRef .tc r) :=
  StableHlo.after_of_writes_sub hostOps12 _ hostOps12_writes h

/-- After region 12. -/
def W24 (c : Dev nD) : Valuation τ sig (Elt F) :=
  Pipeline.withArrays spec12 c (W23 m ρ c) fun w => (R12.dat (V23 m ρ) c).arrAt w cfg12.N
abbrev V24 : (c : Dev nD) → (b : Ref sig .tc) → Buf (Elt F) ((c : Thread nD τ).loc b) := fun c b => W24 m ρ c b
theorem W24_arr (c : Dev nD) (w : Fin cfg12.W) :
    W24 m ρ c (Proc.devRef .tc (Pipeline.arrRef spec12 w)) = (R12.dat (V23 m ρ) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 m ρ c (Proc.devRef .tc b) = W23 m ρ c (Proc.devRef .tc b) := by
  unfold W24; exact Pipeline.withArrays_of_ne spec12 c _ _ b hb
theorem hF12 (c : Dev nD) (w : Fin cfg12.W) : (R12.dat (V23 m ρ) c).arrAt w cfg12.N = V24 m ρ c (Pipeline.arrRef spec12 w) :=
  (W24_arr m ρ c w).symm
theorem hrest12 (c : Dev nD) : ∀ b, b ∉ Finset.univ.image (Pipeline.arrRef spec12) → V24 m ρ c b = V23 m ρ c b :=
  fun b hb => W24_of_ne m ρ c b fun w e => hb (Finset.mem_image.mpr ⟨w, Finset.mem_univ _, e⟩)

/-- After the host stretch hostOps13. -/
def W25 (c : Dev nD) : Valuation τ sig (Elt F) := StableHlo.after hostOps13 (W24 m ρ c)
abbrev V25 : (c : Dev nD) → (b : Ref sig .tc) → Buf (Elt F) ((c : Thread nD τ).loc b) := fun c b => W25 m ρ c b
theorem W25_of (c : Dev nD) (r : Ref sig .tc) (h : r ∉ hostOps13_W) : W25 m ρ c (Proc.devRef .tc r) = W24 m ρ c (Proc.devRef .tc r) :=
  StableHlo.after_of_writes_sub hostOps13 _ hostOps13_writes h

/-- After region 13. -/
def W26 (c : Dev nD) : Valuation τ sig (Elt F) :=
  Pipeline.withArrays spec13 c (W25 m ρ c) fun w => (R13.dat (V25 m ρ) c).arrAt w cfg13.N
abbrev V26 : (c : Dev nD) → (b : Ref sig .tc) → Buf (Elt F) ((c : Thread nD τ).loc b) := fun c b => W26 m ρ c b
theorem W26_arr (c : Dev nD) (w : Fin cfg13.W) :
    W26 m ρ c (Proc.devRef .tc (Pipeline.arrRef spec13 w)) = (R13.dat (V25 m ρ) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 m ρ c (Proc.devRef .tc b) = W25 m ρ c (Proc.devRef .tc b) := by
  unfold W26; exact Pipeline.withArrays_of_ne spec13 c _ _ b hb
theorem hF13 (c : Dev nD) (w : Fin cfg13.W) : (R13.dat (V25 m ρ) c).arrAt w cfg13.N = V26 m ρ c (Pipeline.arrRef spec13 w) :=
  (W26_arr m ρ c w).symm
theorem hrest13 (c : Dev nD) : ∀ b, b ∉ Finset.univ.image (Pipeline.arrRef spec13) → V26 m ρ c b = V25 m ρ c b :=
  fun b hb => W26_of_ne m ρ c b fun w e => hb (Finset.mem_image.mpr ⟨w, Finset.mem_univ _, e⟩)

/-- After region 14. -/
def W27 (c : Dev nD) : Valuation τ sig (Elt F) :=
  Pipeline.withArrays spec14 c (W26 m ρ c) fun w => (R14.dat (V26 m ρ) c).arrAt w cfg14.N
abbrev V27 : (c : Dev nD) → (b : Ref sig .tc) → Buf (Elt F) ((c : Thread nD τ).loc b) := fun c b => W27 m ρ c b
theorem W27_arr (c : Dev nD) (w : Fin cfg14.W) :
    W27 m ρ c (Proc.devRef .tc (Pipeline.arrRef spec14 w)) = (R14.dat (V26 m ρ) c).arrAt w cfg14.N := by
  unfold W27; exact Pipeline.withArrays_arr spec14 launch14.win.arr_inj c _ _ w
theorem W27_of_ne (c : Dev nD) (b : Ref sig .tc) (hb : ∀ w, Pipeline.arrRef spec14 w ≠ b) :
    W27 m ρ c (Proc.devRef .tc b) = W26 m ρ c (Proc.devRef .tc b) := by
  unfold W27; exact Pipeline.withArrays_of_ne spec14 c _ _ b hb
theorem hF14 (c : Dev nD) (w : Fin cfg14.W) : (R14.dat (V26 m ρ) c).arrAt w cfg14.N = V27 m ρ c (Pipeline.arrRef spec14 w) :=
  (W27_arr m ρ c w).symm
theorem hrest14 (c : Dev nD) : ∀ b, b ∉ Finset.univ.image (Pipeline.arrRef spec14) → V27 m ρ c b = V26 m ρ c b :=
  fun b hb => W27_of_ne m ρ c b fun w e => hb (Finset.mem_image.mpr ⟨w, Finset.mem_univ _, e⟩)

/-- After the host stretch hostOps15. -/
def W28 (c : Dev nD) : Valuation τ sig (Elt F) := StableHlo.after hostOps15 (W27 m ρ c)
abbrev V28 : (c : Dev nD) → (b : Ref sig .tc) → Buf (Elt F) ((c : Thread nD τ).loc b) := fun c b => W28 m ρ c b
theorem W28_of (c : Dev nD) (r : Ref sig .tc) (h : r ∉ hostOps15_W) : W28 m ρ c (Proc.devRef .tc r) = W27 m ρ c (Proc.devRef .tc r) :=
  StableHlo.after_of_writes_sub hostOps15 _ hostOps15_writes h

/-- After region 15. -/
def W29 (c : Dev nD) : Valuation τ sig (Elt F) :=
  Pipeline.withArrays spec15 c (W28 m ρ c) fun w => (R15.dat (V28 m ρ) c).arrAt w cfg15.N
abbrev V29 : (c : Dev nD) → (b : Ref sig .tc) → Buf (Elt F) ((c : Thread nD τ).loc b) := fun c b => W29 m ρ c b
theorem W29_arr (c : Dev nD) (w : Fin cfg15.W) :
    W29 m ρ c (Proc.devRef .tc (Pipeline.arrRef spec15 w)) = (R15.dat (V28 m ρ) c).arrAt w cfg15.N := by
  unfold W29; exact Pipeline.withArrays_arr spec15 launch15.win.arr_inj c _ _ w
theorem W29_of_ne (c : Dev nD) (b : Ref sig .tc) (hb : ∀ w, Pipeline.arrRef spec15 w ≠ b) :
    W29 m ρ c (Proc.devRef .tc b) = W28 m ρ c (Proc.devRef .tc b) := by
  unfold W29; exact Pipeline.withArrays_of_ne spec15 c _ _ b hb
theorem hF15 (c : Dev nD) (w : Fin cfg15.W) : (R15.dat (V28 m ρ) c).arrAt w cfg15.N = V29 m ρ c (Pipeline.arrRef spec15 w) :=
  (W29_arr m ρ c w).symm
theorem hrest15 (c : Dev nD) : ∀ b, b ∉ Finset.univ.image (Pipeline.arrRef spec15) → V29 m ρ c b = V28 m ρ c b :=
  fun b hb => W29_of_ne m ρ c b fun w e => hb (Finset.mem_image.mpr ⟨w, Finset.mem_univ _, e⟩)

/-! The arguments end as launched. -/
theorem end_main_arg0 (c : Dev nD) : W29 m ρ c (Proc.devRef .tc main_arg0) = m ((c : Thread nD τ).loc main_arg0) :=
  (W29_of_ne m ρ c main_arg0 (by decide)).trans <|
  (W28_of m ρ c main_arg0 (by decide)).trans <|
  (W27_of_ne m ρ c main_arg0 (by decide)).trans <|
  (W26_of_ne m ρ c main_arg0 (by decide)).trans <|
  (W25_of m ρ c main_arg0 (by decide)).trans <|
  (W24_of_ne m ρ c main_arg0 (by decide)).trans <|
  (W23_of m ρ c main_arg0 (by decide)).trans <|
  (W22_of_ne m ρ c main_arg0 (by decide)).trans <|
  (W21_of m ρ c main_arg0 (by decide)).trans <|
  (W20_of_ne m ρ c main_arg0 (by decide)).trans <|
  (W19_of m ρ c main_arg0 (by decide)).trans <|
  (W18_of_ne m ρ c main_arg0 (by decide)).trans <|
  (W17_of_ne m ρ c main_arg0 (by decide)).trans <|
  (W16_of m ρ c main_arg0 (by decide)).trans <|
  (W15_of_ne m ρ c main_arg0 (by decide)).trans <|
  (W14_of m ρ c main_arg0 (by decide)).trans <|
  (W13_of_ne m ρ c main_arg0 (by decide)).trans <|
  (W12_of m ρ c main_arg0 (by decide)).trans <|
  (W11_of_ne m ρ c main_arg0 (by decide)).trans <|
  (W10_of m ρ c main_arg0 (by decide)).trans <|
  (W9_of_ne m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  ((W2_arr m ρ c 0).trans (((R0.dat (V1 m ρ) c).arrAt_in 0 rfl _).trans (R0.dat_A (V1 m ρ) c 0))).trans <|
  (W1_of m ρ c main_arg0 (by decide)).trans rfl
theorem end_main_arg1 (c : Dev nD) : W29 m ρ c (Proc.devRef .tc main_arg1) = m ((c : Thread nD τ).loc main_arg1) :=
  (W29_of_ne m ρ c main_arg1 (by decide)).trans <|
  (W28_of m ρ c main_arg1 (by decide)).trans <|
  (W27_of_ne m ρ c main_arg1 (by decide)).trans <|
  (W26_of_ne m ρ c main_arg1 (by decide)).trans <|
  (W25_of m ρ c main_arg1 (by decide)).trans <|
  (W24_of_ne m ρ c main_arg1 (by decide)).trans <|
  (W23_of m ρ c main_arg1 (by decide)).trans <|
  (W22_of_ne m ρ c main_arg1 (by decide)).trans <|
  (W21_of m ρ c main_arg1 (by decide)).trans <|
  (W20_of_ne m ρ c main_arg1 (by decide)).trans <|
  (W19_of m ρ c main_arg1 (by decide)).trans <|
  (W18_of_ne m ρ c main_arg1 (by decide)).trans <|
  (W17_of_ne m ρ c main_arg1 (by decide)).trans <|
  (W16_of m ρ c main_arg1 (by decide)).trans <|
  (W15_of_ne m ρ c main_arg1 (by decide)).trans <|
  (W14_of m ρ c main_arg1 (by decide)).trans <|
  (W13_of_ne m ρ c main_arg1 (by decide)).trans <|
  (W12_of m ρ c main_arg1 (by decide)).trans <|
  (W11_of_ne m ρ c main_arg1 (by decide)).trans <|
  (W10_of m ρ c main_arg1 (by decide)).trans <|
  (W9_of_ne m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem end_main_arg2 (c : Dev nD) : W29 m ρ c (Proc.devRef .tc main_arg2) = m ((c : Thread nD τ).loc main_arg2) :=
  (W29_of_ne m ρ c main_arg2 (by decide)).trans <|
  (W28_of m ρ c main_arg2 (by decide)).trans <|
  (W27_of_ne m ρ c main_arg2 (by decide)).trans <|
  (W26_of_ne m ρ c main_arg2 (by decide)).trans <|
  (W25_of m ρ c main_arg2 (by decide)).trans <|
  (W24_of_ne m ρ c main_arg2 (by decide)).trans <|
  (W23_of m ρ c main_arg2 (by decide)).trans <|
  (W22_of_ne m ρ c main_arg2 (by decide)).trans <|
  (W21_of m ρ c main_arg2 (by decide)).trans <|
  (W20_of_ne m ρ c main_arg2 (by decide)).trans <|
  (W19_of m ρ c main_arg2 (by decide)).trans <|
  (W18_of_ne m ρ c main_arg2 (by decide)).trans <|
  (W17_of_ne m ρ c main_arg2 (by decide)).trans <|
  (W16_of m ρ c main_arg2 (by decide)).trans <|
  (W15_of_ne m ρ c main_arg2 (by decide)).trans <|
  (W14_of m ρ c main_arg2 (by decide)).trans <|
  (W13_of_ne m ρ c main_arg2 (by decide)).trans <|
  (W12_of m ρ c main_arg2 (by decide)).trans <|
  (W11_of_ne m ρ c main_arg2 (by decide)).trans <|
  (W10_of m ρ c main_arg2 (by decide)).trans <|
  (W9_of_ne m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  ((W2_arr m ρ c 1).trans (((R0.dat (V1 m ρ) c).arrAt_in 1 rfl _).trans (R0.dat_A (V1 m ρ) c 1))).trans <|
  (W1_of m ρ c main_arg2 (by decide)).trans rfl
theorem end_main_arg3 (c : Dev nD) : W29 m ρ c (Proc.devRef .tc main_arg3) = m ((c : Thread nD τ).loc main_arg3) :=
  (W29_of_ne m ρ c main_arg3 (by decide)).trans <|
  (W28_of m ρ c main_arg3 (by decide)).trans <|
  (W27_of_ne m ρ c main_arg3 (by decide)).trans <|
  (W26_of_ne m ρ c main_arg3 (by decide)).trans <|
  (W25_of m ρ c main_arg3 (by decide)).trans <|
  (W24_of_ne m ρ c main_arg3 (by decide)).trans <|
  (W23_of m ρ c main_arg3 (by decide)).trans <|
  (W22_of_ne m ρ c main_arg3 (by decide)).trans <|
  (W21_of m ρ c main_arg3 (by decide)).trans <|
  (W20_of_ne m ρ c main_arg3 (by decide)).trans <|
  (W19_of m ρ c main_arg3 (by decide)).trans <|
  (W18_of_ne m ρ c main_arg3 (by decide)).trans <|
  (W17_of_ne m ρ c main_arg3 (by decide)).trans <|
  (W16_of m ρ c main_arg3 (by decide)).trans <|
  (W15_of_ne m ρ c main_arg3 (by decide)).trans <|
  (W14_of m ρ c main_arg3 (by decide)).trans <|
  (W13_of_ne m ρ c main_arg3 (by decide)).trans <|
  (W12_of m ρ c main_arg3 (by decide)).trans <|
  (W11_of_ne m ρ c main_arg3 (by decide)).trans <|
  (W10_of m ρ c main_arg3 (by decide)).trans <|
  (W9_of_ne m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans rfl
theorem end_main_arg4 (c : Dev nD) : W29 m ρ c (Proc.devRef .tc main_arg4) = m ((c : Thread nD τ).loc main_arg4) :=
  (W29_of_ne m ρ c main_arg4 (by decide)).trans <|
  (W28_of m ρ c main_arg4 (by decide)).trans <|
  (W27_of_ne m ρ c main_arg4 (by decide)).trans <|
  (W26_of_ne m ρ c main_arg4 (by decide)).trans <|
  (W25_of m ρ c main_arg4 (by decide)).trans <|
  (W24_of_ne m ρ c main_arg4 (by decide)).trans <|
  (W23_of m ρ c main_arg4 (by decide)).trans <|
  (W22_of_ne m ρ c main_arg4 (by decide)).trans <|
  (W21_of m ρ c main_arg4 (by decide)).trans <|
  (W20_of_ne m ρ c main_arg4 (by decide)).trans <|
  (W19_of m ρ c main_arg4 (by decide)).trans <|
  (W18_of_ne m ρ c main_arg4 (by decide)).trans <|
  (W17_of_ne m ρ c main_arg4 (by decide)).trans <|
  (W16_of m ρ c main_arg4 (by decide)).trans <|
  (W15_of_ne m ρ c main_arg4 (by decide)).trans <|
  (W14_of m ρ c main_arg4 (by decide)).trans <|
  (W13_of_ne m ρ c main_arg4 (by decide)).trans <|
  (W12_of m ρ c main_arg4 (by decide)).trans <|
  (W11_of_ne m ρ c main_arg4 (by decide)).trans <|
  (W10_of m ρ c main_arg4 (by decide)).trans <|
  (W9_of_ne m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans rfl
theorem end_main_arg5 (c : Dev nD) : W29 m ρ c (Proc.devRef .tc main_arg5) = m ((c : Thread nD τ).loc main_arg5) :=
  (W29_of_ne m ρ c main_arg5 (by decide)).trans <|
  (W28_of m ρ c main_arg5 (by decide)).trans <|
  (W27_of_ne m ρ c main_arg5 (by decide)).trans <|
  (W26_of_ne m ρ c main_arg5 (by decide)).trans <|
  (W25_of m ρ c main_arg5 (by decide)).trans <|
  (W24_of_ne m ρ c main_arg5 (by decide)).trans <|
  (W23_of m ρ c main_arg5 (by decide)).trans <|
  (W22_of_ne m ρ c main_arg5 (by decide)).trans <|
  (W21_of m ρ c main_arg5 (by decide)).trans <|
  (W20_of_ne m ρ c main_arg5 (by decide)).trans <|
  (W19_of m ρ c main_arg5 (by decide)).trans <|
  (W18_of_ne m ρ c main_arg5 (by decide)).trans <|
  (W17_of_ne m ρ c main_arg5 (by decide)).trans <|
  (W16_of m ρ c main_arg5 (by decide)).trans <|
  (W15_of_ne m ρ c main_arg5 (by decide)).trans <|
  (W14_of m ρ c main_arg5 (by decide)).trans <|
  (W13_of_ne m ρ c main_arg5 (by decide)).trans <|
  (W12_of m ρ c main_arg5 (by decide)).trans <|
  (W11_of_ne m ρ c main_arg5 (by decide)).trans <|
  (W10_of m ρ c main_arg5 (by decide)).trans <|
  (W9_of_ne m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans rfl
theorem end_main_arg6 (c : Dev nD) : W29 m ρ c (Proc.devRef .tc main_arg6) = m ((c : Thread nD τ).loc main_arg6) :=
  (W29_of_ne m ρ c main_arg6 (by decide)).trans <|
  (W28_of m ρ c main_arg6 (by decide)).trans <|
  (W27_of_ne m ρ c main_arg6 (by decide)).trans <|
  (W26_of_ne m ρ c main_arg6 (by decide)).trans <|
  (W25_of m ρ c main_arg6 (by decide)).trans <|
  (W24_of_ne m ρ c main_arg6 (by decide)).trans <|
  (W23_of m ρ c main_arg6 (by decide)).trans <|
  (W22_of_ne m ρ c main_arg6 (by decide)).trans <|
  (W21_of m ρ c main_arg6 (by decide)).trans <|
  (W20_of_ne m ρ c main_arg6 (by decide)).trans <|
  (W19_of m ρ c main_arg6 (by decide)).trans <|
  (W18_of_ne m ρ c main_arg6 (by decide)).trans <|
  (W17_of_ne m ρ c main_arg6 (by decide)).trans <|
  (W16_of m ρ c main_arg6 (by decide)).trans <|
  (W15_of_ne m ρ c main_arg6 (by decide)).trans <|
  (W14_of m ρ c main_arg6 (by decide)).trans <|
  (W13_of_ne m ρ c main_arg6 (by decide)).trans <|
  (W12_of m ρ c main_arg6 (by decide)).trans <|
  (W11_of_ne m ρ c main_arg6 (by decide)).trans <|
  (W10_of m ρ c main_arg6 (by decide)).trans <|
  (W9_of_ne m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans rfl
theorem end_main_arg7 (c : Dev nD) : W29 m ρ c (Proc.devRef .tc main_arg7) = m ((c : Thread nD τ).loc main_arg7) :=
  (W29_of_ne m ρ c main_arg7 (by decide)).trans <|
  (W28_of m ρ c main_arg7 (by decide)).trans <|
  (W27_of_ne m ρ c main_arg7 (by decide)).trans <|
  (W26_of_ne m ρ c main_arg7 (by decide)).trans <|
  (W25_of m ρ c main_arg7 (by decide)).trans <|
  (W24_of_ne m ρ c main_arg7 (by decide)).trans <|
  (W23_of m ρ c main_arg7 (by decide)).trans <|
  (W22_of_ne m ρ c main_arg7 (by decide)).trans <|
  (W21_of m ρ c main_arg7 (by decide)).trans <|
  (W20_of_ne m ρ c main_arg7 (by decide)).trans <|
  (W19_of m ρ c main_arg7 (by decide)).trans <|
  (W18_of_ne m ρ c main_arg7 (by decide)).trans <|
  (W17_of_ne m ρ c main_arg7 (by decide)).trans <|
  (W16_of m ρ c main_arg7 (by decide)).trans <|
  (W15_of_ne m ρ c main_arg7 (by decide)).trans <|
  (W14_of m ρ c main_arg7 (by decide)).trans <|
  (W13_of_ne m ρ c main_arg7 (by decide)).trans <|
  (W12_of m ρ c main_arg7 (by decide)).trans <|
  (W11_of_ne m ρ c main_arg7 (by decide)).trans <|
  (W10_of m ρ c main_arg7 (by decide)).trans <|
  (W9_of_ne m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem end_main_arg8 (c : Dev nD) : W29 m ρ c (Proc.devRef .tc main_arg8) = m ((c : Thread nD τ).loc main_arg8) :=
  (W29_of_ne m ρ c main_arg8 (by decide)).trans <|
  (W28_of m ρ c main_arg8 (by decide)).trans <|
  (W27_of_ne m ρ c main_arg8 (by decide)).trans <|
  (W26_of_ne m ρ c main_arg8 (by decide)).trans <|
  (W25_of m ρ c main_arg8 (by decide)).trans <|
  (W24_of_ne m ρ c main_arg8 (by decide)).trans <|
  (W23_of m ρ c main_arg8 (by decide)).trans <|
  (W22_of_ne m ρ c main_arg8 (by decide)).trans <|
  (W21_of m ρ c main_arg8 (by decide)).trans <|
  (W20_of_ne m ρ c main_arg8 (by decide)).trans <|
  (W19_of m ρ c main_arg8 (by decide)).trans <|
  (W18_of_ne m ρ c main_arg8 (by decide)).trans <|
  (W17_of_ne m ρ c main_arg8 (by decide)).trans <|
  (W16_of m ρ c main_arg8 (by decide)).trans <|
  (W15_of_ne m ρ c main_arg8 (by decide)).trans <|
  (W14_of m ρ c main_arg8 (by decide)).trans <|
  (W13_of_ne m ρ c main_arg8 (by decide)).trans <|
  (W12_of m ρ c main_arg8 (by decide)).trans <|
  (W11_of_ne m ρ c main_arg8 (by decide)).trans <|
  (W10_of m ρ c main_arg8 (by decide)).trans <|
  (W9_of_ne m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem end_main_arg9 (c : Dev nD) : W29 m ρ c (Proc.devRef .tc main_arg9) = m ((c : Thread nD τ).loc main_arg9) :=
  (W29_of_ne m ρ c main_arg9 (by decide)).trans <|
  (W28_of m ρ c main_arg9 (by decide)).trans <|
  (W27_of_ne m ρ c main_arg9 (by decide)).trans <|
  (W26_of_ne m ρ c main_arg9 (by decide)).trans <|
  (W25_of m ρ c main_arg9 (by decide)).trans <|
  (W24_of_ne m ρ c main_arg9 (by decide)).trans <|
  (W23_of m ρ c main_arg9 (by decide)).trans <|
  (W22_of_ne m ρ c main_arg9 (by decide)).trans <|
  (W21_of m ρ c main_arg9 (by decide)).trans <|
  (W20_of_ne m ρ c main_arg9 (by decide)).trans <|
  (W19_of m ρ c main_arg9 (by decide)).trans <|
  (W18_of_ne m ρ c main_arg9 (by decide)).trans <|
  (W17_of_ne m ρ c main_arg9 (by decide)).trans <|
  (W16_of m ρ c main_arg9 (by decide)).trans <|
  (W15_of_ne m ρ c main_arg9 (by decide)).trans <|
  (W14_of m ρ c main_arg9 (by decide)).trans <|
  (W13_of_ne m ρ c main_arg9 (by decide)).trans <|
  (W12_of m ρ c main_arg9 (by decide)).trans <|
  (W11_of_ne m ρ c main_arg9 (by decide)).trans <|
  (W10_of m ρ c main_arg9 (by decide)).trans <|
  (W9_of_ne m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl

/-- Every region's proof data, each at its region's entry contents. -/
def pdats : (p : Fin 16) → (c : Dev nD) → Dat τ (Elt F) Unit ℕ (Pipeline.UD sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
  | ⟨3, _⟩ => fun c => R3.dat (V7 m ρ) c
  | ⟨4, _⟩ => fun c => R4.dat (V8 m ρ) c
  | ⟨5, _⟩ => fun c => R5.dat (V10 m ρ) c
  | ⟨6, _⟩ => fun c => R6.dat (V12 m ρ) c
  | ⟨7, _⟩ => fun c => R7.dat (V14 m ρ) c
  | ⟨8, _⟩ => fun c => R8.dat (V16 m ρ) c
  | ⟨9, _⟩ => fun c => R9.dat (V17 m ρ) c
  | ⟨10, _⟩ => fun c => R10.dat (V19 m ρ) c
  | ⟨11, _⟩ => fun c => R11.dat (V21 m ρ) c
  | ⟨12, _⟩ => fun c => R12.dat (V23 m ρ) c
  | ⟨13, _⟩ => fun c => R13.dat (V25 m ρ) c
  | ⟨14, _⟩ => fun c => R14.dat (V26 m ρ) c
  | ⟨15, _⟩ => fun c => R15.dat (V28 m ρ) c
  | ⟨_ + 16, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Run

end
-- ==== Proof.BSeg0.lean ====
/-
  Region 0 as one item of the program: it is entered with every unscoped buffer of the core at the contents of
  boundary 1 and left with them at the contents of boundary 2. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg1.lean ====
/-
  Region 1 as one item of the program: it is entered with every unscoped buffer of the core at the contents of
  boundary 3 and left with them at the contents of boundary 4. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg2.lean ====
/-
  Region 2 as one item of the program: it is entered with every unscoped buffer of the core at the contents of
  boundary 5 and left with them at the contents of boundary 6. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg3.lean ====
/-
  Region 3 as one item of the program: it is entered with every unscoped buffer of the core at the contents of
  boundary 7 and left with them at the contents of boundary 8. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg4.lean ====
/-
  Region 4 as one item of the program: it is entered with every unscoped buffer of the core at the contents of
  boundary 8 and left with them at the contents of boundary 9. On entry the region's arrays are taken out of the
  unscoped buffers and the rest rides past the region untouched; on exit the arrays go back at what the write-backs
  left. The generator register goes into the region's invariant and comes back, and so do the two scratch rows (taken out of the scoped buffers at anything, given back with their contents forgotten); the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (R4.obligation (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = R4.inv (V8 m ρ) c 0 from rfl]
    iintro ⟨Hp, -, Hr⟩
    iapply (R4.inv_in (V8 m ρ) c)
    isplitl [Hr]; · iexact Hr
    iexact Hp
  hout c := by
    rw [Pipeline.ownSems0_none, show (pdats m ρ 4 c).Φ (Fin.last _) = R4.inv (V8 m ρ) c 25 from rfl]
    iintro H
    ihave H' := (R4.inv_out (V8 m ρ) c 25) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg5.lean ====
/-
  Region 5 as one item of the program: it is entered with every unscoped buffer of the core at the contents of
  boundary 10 and left with them at the contents of boundary 11. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (R5.obligation (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg6.lean ====
/-
  Region 6 as one item of the program: it is entered with every unscoped buffer of the core at the contents of
  boundary 12 and left with them at the contents of boundary 13. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (R6.obligation (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg7.lean ====
/-
  Region 7 as one item of the program: it is entered with every unscoped buffer of the core at the contents of
  boundary 14 and left with them at the contents of boundary 15. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (R7.obligation (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg8.lean ====
/-
  Region 8 as one item of the program: it is entered with every unscoped buffer of the core at the contents of
  boundary 16 and left with them at the contents of boundary 17. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (R8.obligation (V16 m ρ) c).loose
  hwaits := Pipeline.hwaits_of_owed_zero _ _ _ _ L lv 8 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (V16 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (V16 m ρ c) (V17 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg9.lean ====
/-
  Region 9 as one item of the program: it is entered with every unscoped buffer of the core at the contents of
  boundary 17 and left with them at the contents of boundary 18. On entry the region's arrays are taken out of the
  unscoped buffers and the rest rides past the region untouched; on exit the arrays go back at what the write-backs
  left. The generator register goes into the region's invariant and comes back, and so do the two scratch rows (taken out of the scoped buffers at anything, given back with their contents forgotten); the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (R9.obligation (V17 m ρ) c).loose
  hwaits := Pipeline.hwaits_of_owed_zero _ _ _ _ L lv 9 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (V17 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = R9.inv (V17 m ρ) c 0 from rfl]
    iintro ⟨Hp, -, Hr⟩
    iapply (R9.inv_in (V17 m ρ) c)
    isplitl [Hr]; · iexact Hr
    iexact Hp
  hout c := by
    rw [Pipeline.ownSems0_none, show (pdats m ρ 9 c).Φ (Fin.last _) = R9.inv (V17 m ρ) c 25 from rfl]
    iintro H
    ihave H' := (R9.inv_out (V17 m ρ) c 25) $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (V17 m ρ c) (V18 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg10.lean ====
/-
  Region 10 as one item of the program: it is entered with every unscoped buffer of the core at the contents of
  boundary 19 and left with them at the contents of boundary 20. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (R10.obligation (V19 m ρ) c).loose
  hwaits := Pipeline.hwaits_of_owed_zero _ _ _ _ L lv 10 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := Pipeline.UD sig nD τ) (Lvl := ℕ) spec10 c (V19 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m ρ) ((pdats m ρ 10 c).share_full fun _ => rfl)
      (V19 m ρ c) (V20 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg11.lean ====
/-
  Region 11 as one item of the program: it is entered with every unscoped buffer of the core at the contents of
  boundary 21 and left with them at the contents of boundary 22. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (R11.obligation (V21 m ρ) c).loose
  hwaits := Pipeline.hwaits_of_owed_zero _ _ _ _ L lv 11 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := Pipeline.UD sig nD τ) (Lvl := ℕ) spec11 c (V21 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m ρ) ((pdats m ρ 11 c).share_full fun _ => rfl)
      (V21 m ρ c) (V22 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg12.lean ====
/-
  Region 12 as one item of the program: it is entered with every unscoped buffer of the core at the contents of
  boundary 23 and left with them at the contents of boundary 24. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (R12.obligation (V23 m ρ) c).loose
  hwaits := Pipeline.hwaits_of_owed_zero _ _ _ _ L lv 12 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := Pipeline.UD sig nD τ) (Lvl := ℕ) spec12 c (V23 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m ρ) ((pdats m ρ 12 c).share_full fun _ => rfl)
      (V23 m ρ c) (V24 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg13.lean ====
/-
  Region 13 as one item of the program: it is entered with every unscoped buffer of the core at the contents of
  boundary 25 and left with them at the contents of boundary 26. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (R13.obligation (V25 m ρ) c).loose
  hwaits := Pipeline.hwaits_of_owed_zero _ _ _ _ L lv 13 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := Pipeline.UD sig nD τ) (Lvl := ℕ) spec13 c (V25 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := Pipeline.UD sig nD τ) (Lvl := ℕ)
      launch13.win launch13.arr_whole c (pdats m ρ) ((pdats m ρ 13 c).share_full fun _ => rfl)
      (V25 m ρ c) (V26 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg14.lean ====
/-
  Region 14 as one item of the program: it is entered with every unscoped buffer of the core at the contents of
  boundary 26 and left with them at the contents of boundary 27. On entry the region's arrays are taken out of the
  unscoped buffers and the rest rides past the region untouched; on exit the arrays go back at what the write-backs
  left. The generator register goes into the region's invariant and comes back, and so do the two scratch rows (taken out of the scoped buffers at anything, given back with their contents forgotten); the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (R14.obligation (V26 m ρ) c).loose
  hwaits := Pipeline.hwaits_of_owed_zero _ _ _ _ L lv 14 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := Pipeline.UD sig nD τ) (Lvl := ℕ) spec14 c (V26 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = R14.inv (V26 m ρ) c 0 from rfl]
    iintro ⟨Hp, -, Hr⟩
    iapply (R14.inv_in (V26 m ρ) c)
    isplitl [Hr]; · iexact Hr
    iexact Hp
  hout c := by
    rw [Pipeline.ownSems0_none, show (pdats m ρ 14 c).Φ (Fin.last _) = R14.inv (V26 m ρ) c 25 from rfl]
    iintro H
    ihave H' := (R14.inv_out (V26 m ρ) c 25) $$ H
    icases H' with ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := Pipeline.UD sig nD τ) (Lvl := ℕ)
      launch14.win launch14.arr_whole c (pdats m ρ) ((pdats m ρ 14 c).share_full fun _ => rfl)
      (V26 m ρ c) (V27 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg15.lean ====
/-
  Region 15 as one item of the program: it is entered with every unscoped buffer of the core at the contents of
  boundary 28 and left with them at the contents of boundary 29. On entry the region's arrays are taken out of the
  unscoped buffers and the rest rides past the region untouched; on exit the arrays go back at what the write-backs
  left. The generator register goes into the region's invariant and comes back; the core owes nothing before or after,
  and the kernel has no semaphore of its own.
-/
import proofs.«162580_j71794673320191_1_alg».proof.Proof.BBounds

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (R15.obligation (V28 m ρ) c).loose
  hwaits := Pipeline.hwaits_of_owed_zero _ _ _ _ L lv 15 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := Pipeline.UD sig nD τ) (Lvl := ℕ) spec15 c (V28 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := Pipeline.UD sig nD τ) (Lvl := ℕ)
      launch15.win launch15.arr_whole c (pdats m ρ) ((pdats m ρ 15 c).share_full fun _ => rfl)
      (V28 m ρ c) (V29 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BRun.lean ====
/-
  The whole program as its 29 items in order, and its run: from any memory with all counters at zero every weakly fair
  execution ends, nothing faults, and at the end the result buffer holds the contents of the last boundary while each
  of the ten argument arrays holds what it held at the start.
-/
import proofs.«162580_j71794673320191_1_alg».proof.Proof.BSeg0
import proofs.«162580_j71794673320191_1_alg».proof.Proof.BSeg1
import proofs.«162580_j71794673320191_1_alg».proof.Proof.BSeg2
import proofs.«162580_j71794673320191_1_alg».proof.Proof.BSeg3
import proofs.«162580_j71794673320191_1_alg».proof.Proof.BSeg4
import proofs.«162580_j71794673320191_1_alg».proof.Proof.BSeg5
import proofs.«162580_j71794673320191_1_alg».proof.Proof.BSeg6
import proofs.«162580_j71794673320191_1_alg».proof.Proof.BSeg7
import proofs.«162580_j71794673320191_1_alg».proof.Proof.BSeg8
import proofs.«162580_j71794673320191_1_alg».proof.Proof.BSeg9
import proofs.«162580_j71794673320191_1_alg».proof.Proof.BSeg10
import proofs.«162580_j71794673320191_1_alg».proof.Proof.BSeg11
import proofs.«162580_j71794673320191_1_alg».proof.Proof.BSeg12
import proofs.«162580_j71794673320191_1_alg».proof.Proof.BSeg13
import proofs.«162580_j71794673320191_1_alg».proof.Proof.BSeg14
import proofs.«162580_j71794673320191_1_alg».proof.Proof.BSeg15

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program's items in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .host (hseg hostOps7 hostOps7_sub hostOps7_fresh (W13 m ρ)),
    .region (reg7 m ρ),
    .host (hseg hostOps8 hostOps8_sub hostOps8_fresh (W15 m ρ)),
    .region (reg8 m ρ),
    .region (reg9 m ρ),
    .host (hseg hostOps10 hostOps10_sub hostOps10_fresh (W18 m ρ)),
    .region (reg10 m ρ),
    .host (hseg hostOps11 hostOps11_sub hostOps11_fresh (W20 m ρ)),
    .region (reg11 m ρ),
    .host (hseg hostOps12 hostOps12_sub hostOps12_fresh (W22 m ρ)),
    .region (reg12 m ρ),
    .host (hseg hostOps13 hostOps13_sub hostOps13_fresh (W24 m ρ)),
    .region (reg13 m ρ),
    .region (reg14 m ρ),
    .host (hseg hostOps15 hostOps15_sub hostOps15_fresh (W27 m ρ)),
    .region (reg15 m ρ) ]

/-- The program is the run of its items. -/
theorem main_run (c : Dev nD) : main (F := F) c = Pipeline.Seg.run (segs m ρ) := (main_chain c).trans (by chain_rfl)

/-- The last thread state beside the core owing nothing. -/
abbrev Tₙ (c : Dev nD) : sProp 𝕄 := iprop(StableHlo.held (c : Thread nD τ) (Pipeline.ucRefs τ sig) (W29 m ρ c) ∗ ∃ r, prngReg c r)

set_option backward.isDefEq.respectTransparency.types false in
theorem run : θ_run defs (onTc (τ := τ) (main (F := F))) ⟨m, fun _ => 0, ρ⟩ (fun r => ∀ c : Dev nD,
      r.2.mem ((c.tc : Thread nD τ).loc main_v245) = W29 m ρ c (Proc.devRef .tc main_v245)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        show iprop(StableHlo.held (c : Thread nD τ) (Pipeline.ucRefs τ sig) (W29 m ρ c) ∗ (∃ r, prngReg c r) ∗ ∃ W, owes (c : Thread nD τ) (0 : CellTallies nD τ sig Unit) W)
          ⊢ iprop((StableHlo.held (c : Thread nD τ) (Pipeline.ucRefs τ sig) (W29 m ρ c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h c =>
      ⟨h c _ (mem_uc main_v245 (by decide)),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c),
       (h c _ (mem_uc main_arg5 (by decide))).trans (end_main_arg5 m ρ c),
       (h c _ (mem_uc main_arg6 (by decide))).trans (end_main_arg6 m ρ c),
       (h c _ (mem_uc main_arg7 (by decide))).trans (end_main_arg7 m ρ c),
       (h c _ (mem_uc main_arg8 (by decide))).trans (end_main_arg8 m ρ c),
       (h c _ (mem_uc main_arg9 (by decide))).trans (end_main_arg9 m ρ c)⟩)

end Cert.Kernel.Run

end
-- ==== Proof.RefFold.lean ====
/- Reading the contents of the buffers after a line of host operations that writes its buffers in order.
   The operations of a straight-line program in single-assignment form each write one new buffer, and the buffers are
   numbered in the order in which they are written (operation number i writes the buffer at place n + i of the table).
   For such a line the contents of a buffer after the whole line are what its own operation computed from the contents,
   after the whole line, of its operands: the operands are written earlier and nothing later overwrites them, and nothing
   later overwrites the result. A buffer placed before every written one keeps its contents. -/
import Idealize.ShloMosaic.Lib.StableHlo.Run

noncomputable section

namespace Cert.ReferenceIdeal.Hand

open Idealize.ShloMosaic Idealize.ShloMosaic.StableHlo

variable {τ : Topo} {sig : RefSig} {Val : EltTy → Type}

/-- A property of every member of two lists holds of every member of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- A buffer's place in its table. -/
def key (b : DevRef τ sig) : Nat := b.idx.val

/-- The line writes its buffers in order: its operation number `i` writes only buffers at place `n + i`. -/
def KeyChain : Nat → List (HloOp τ sig Val) → Prop
  | _, [] => True
  | n, o :: l => (∀ b ∈ o.writes, key b = n) ∧ KeyChain (n + 1) l

/-- An operation whose one written buffer is at place `n`. -/
theorem key_single {o : HloOp τ sig Val} {n : Nat} (y : Ref sig .tc) (hw : o.writes = {Proc.devRef .tc y})
    (hk : key (Proc.devRef (τ := τ) .tc y) = n) : ∀ b ∈ o.writes, key b = n := fun b hb => by
  rw [hw, Finset.mem_singleton] at hb; rw [hb, hk]

/-- Two lines in order, the second starting where the first ends, are one line in order. -/
theorem KeyChain.append {n : Nat} : ∀ {l₁ l₂ : List (HloOp τ sig Val)}, KeyChain n l₁ → KeyChain (n + l₁.length) l₂ →
    KeyChain n (l₁ ++ l₂)
  | [], _, _, h => by simpa using h
  | o :: l, l₂, ⟨ho, hl⟩, h => by
    refine ⟨ho, KeyChain.append hl ?_⟩
    rw [List.length_cons] at h
    rwa [show n + 1 + l.length = n + (l.length + 1) by omega]

/-- A buffer placed before everything the line writes keeps its contents. -/
theorem after_below {n : Nat} : ∀ (ops : List (HloOp τ sig Val)) (V : Valuation τ sig Val) (a : DevRef τ sig),
    KeyChain n ops → key a < n → after ops V a = V a
  | [], _, _, _, _ => rfl
  | o :: l, V, a, ⟨ho, hl⟩, ha => by
    rw [after_cons, after_below l _ a hl (Nat.lt_succ_of_lt ha),
      o.result_of_not_mem V fun hw => (Nat.ne_of_lt ha) (ho a hw)]

/-- A buffer written by operation `i` holds, after the line, what that operation computed over the contents after the
    operations before it. -/
theorem read_core {n : Nat} : ∀ (ops : List (HloOp τ sig Val)) (_ : KeyChain n ops) (i : Nat) (hi : i < ops.length)
    (V : Valuation τ sig Val) (b : DevRef τ sig), b ∈ ops[i].writes →
    after ops V b = ops[i].result (after (ops.take i) V) b
  | o :: l, ⟨ho, hl⟩, 0, _, V, b, hb => by
    have hb' : b ∈ o.writes := hb
    rw [after_cons, after_below l _ b hl (by rw [ho b hb']; exact Nat.lt_succ_self n)]
    rfl
  | o :: l, ⟨_, hl⟩, i + 1, hi, V, b, hb => by
    have h := read_core l hl i (Nat.lt_of_succ_lt_succ hi) (o.result V) b hb
    simp only [List.getElem_cons_succ, List.take_succ_cons, after_cons]
    exact h

/-- A buffer placed before what operation `i` writes holds after the operations before `i` what it holds after the line. -/
theorem stable_core {n : Nat} : ∀ (ops : List (HloOp τ sig Val)) (_ : KeyChain n ops) (i : Nat)
    (V : Valuation τ sig Val) (a : DevRef τ sig), key a < n + i → after (ops.take i) V a = after ops V a
  | [], _, i, V, a, _ => by simp
  | o :: l, hc, 0, V, a, ha => by
    simpa using (after_below (o :: l) V a hc (by simpa using ha)).symm
  | o :: l, ⟨_, hl⟩, i + 1, V, a, ha => by
    simp only [List.take_succ_cons, after_cons]
    exact stable_core l hl i _ a (by omega)

section Reads

variable {n : Nat} {ops : List (HloOp τ sig Val)} (hc : KeyChain n ops) (i : Nat) (hi : i < ops.length)
include hc

/-- The result of a constant. -/
theorem nullary_read (y : Ref sig .tc) {v : y.ty.Contents Val}
    (hy : y.space ≠ .host ∧ (Proc.devRef (τ := τ) .tc y).isScoped = false := by exact ⟨by decide, rfl⟩)
    (hop : ops[i] = nullary y v hy) (V : Valuation τ sig Val) :
    after ops V (Proc.devRef .tc y) = v := by
  have hy' : (Proc.devRef .tc y : DevRef τ sig) ∈ ops[i].writes := by rw [hop]; exact Finset.mem_singleton_self _
  rw [read_core ops hc i hi V _ hy', hop, nullary_result]

/-- The result of an operation of one operand, over the operand's contents after the line. -/
theorem unary_read (x y : Ref sig .tc) {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hop : ops[i] = unary x y f hx hy)
    (hkx : key (Proc.devRef (τ := τ) .tc x) < n + i) (V : Valuation τ sig Val) :
    after ops V (Proc.devRef .tc y) = f (after ops V (Proc.devRef .tc x)) := by
  have hy' : (Proc.devRef .tc y : DevRef τ sig) ∈ ops[i].writes := by rw [hop]; exact Finset.mem_singleton_self _
  rw [read_core ops hc i hi V _ hy', hop, unary_result, stable_core ops hc i V _ hkx]

/-- The result of an operation of two operands. -/
theorem binary_read (a b y : Ref sig .tc) {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hop : ops[i] = binary a b y f ha hb hy) (hka : key (Proc.devRef (τ := τ) .tc a) < n + i)
    (hkb : key (Proc.devRef (τ := τ) .tc b) < n + i) (V : Valuation τ sig Val) :
    after ops V (Proc.devRef .tc y) = f (after ops V (Proc.devRef .tc a)) (after ops V (Proc.devRef .tc b)) := by
  have hy' : (Proc.devRef .tc y : DevRef τ sig) ∈ ops[i].writes := by rw [hop]; exact Finset.mem_singleton_self _
  rw [read_core ops hc i hi V _ hy', hop, binary_result, stable_core ops hc i V _ hka, stable_core ops hc i V _ hkb]

/-- The result of an operation of three operands. -/
theorem ternary_read (c a b y : Ref sig .tc)
    {f : c.ty.Contents Val → a.ty.Contents Val → b.ty.Contents Val → y.ty.Contents Val}
    (hc' : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hop : ops[i] = ternary c a b y f hc' ha hb hy) (hkc : key (Proc.devRef (τ := τ) .tc c) < n + i)
    (hka : key (Proc.devRef (τ := τ) .tc a) < n + i) (hkb : key (Proc.devRef (τ := τ) .tc b) < n + i)
    (V : Valuation τ sig Val) :
    after ops V (Proc.devRef .tc y)
      = f (after ops V (Proc.devRef .tc c)) (after ops V (Proc.devRef .tc a)) (after ops V (Proc.devRef .tc b)) := by
  have hy' : (Proc.devRef .tc y : DevRef τ sig) ∈ ops[i].writes := by rw [hop]; exact Finset.mem_singleton_self _
  rw [read_core ops hc i hi V _ hy', hop, ternary_result, stable_core ops hc i V _ hkc, stable_core ops hc i V _ hka,
    stable_core ops hc i V _ hkb]

/-- The result of a change of shape. -/
theorem reshape_read (x y : Ref sig .tc) (hn : x.ty.shape.ShapeCasts y.ty.shape) (he : x.ty.elt = y.ty.elt := by rfl)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hop : ops[i] = reshape (Val := Val) x y he hn hx hy) (hkx : key (Proc.devRef (τ := τ) .tc x) < n + i)
    (V : Valuation τ sig Val) :
    after ops V (Proc.devRef .tc y) = fun j => he ▸ shapeCast y.ty.shape (after ops V (Proc.devRef .tc x)) hn j := by
  have hy' : (Proc.devRef .tc y : DevRef τ sig) ∈ ops[i].writes := by rw [hop]; exact Finset.mem_singleton_self _
  rw [read_core ops hc i hi V _ hy', hop, reshape_result, stable_core ops hc i V _ hkx]

end Reads

end Cert.ReferenceIdeal.Hand

end
-- ==== Proof.RefOps0.lean ====
/- The reference network's host operations, window 0 of seven, as a list in program order (the operations of the
   variance helper and of the selection helper it calls written out at the place of the call, over the call's own
   buffers), with the three facts the run of a straight line asks of a list: the window's program text is the
   sequencing of the list, every operation touches only buffers of the core, every operation determines its result, and the operations write the table's buffers one after the other in order
   (the window's first at place 10). -/
import proofs.«162580_j71794673320191_1_alg».proof.Proof.Gen.ReferenceIdeal
import Idealize.ShloMosaic.Lib.StableHlo.Run
import proofs.«162580_j71794673320191_1_alg».proof.Proof.RefFold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0's 60 operations, in order. -/
abbrev ops0 : List (HloOp τ sig (Elt F)) :=
  [ StableHlo.unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v2 main_v3 rfl shapeCasts_S1x300000_S300000,
    StableHlo.binary main_arg0 main_arg2 main_v4 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg3 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.nullary main_c (constantI S_ 32 0#32),
    StableHlo.unary main_c main_v8 (broadcastInDim S300000 ![] bcast_S_S300000 : (⟨S_, .i32⟩ : BufTy).Contents (Elt F) → (⟨S300000, .i32⟩ : BufTy).Contents (Elt F)),
    StableHlo.binary main_v1 main_v8 main_v9 (cmpi .slt : (⟨S300000, .i32⟩ : BufTy).Contents (Elt F) → (⟨S300000, .i32⟩ : BufTy).Contents (Elt F) → (⟨S300000, .i1⟩ : BufTy).Contents (Elt F)),
    StableHlo.nullary main_c_0 (constantI S_ 32 50000#32),
    StableHlo.unary main_c_0 main_v10 (broadcastInDim S300000 ![] bcast_S_S300000 : (⟨S_, .i32⟩ : BufTy).Contents (Elt F) → (⟨S300000, .i32⟩ : BufTy).Contents (Elt F)),
    StableHlo.binary main_v1 main_v10 main_v11 (addi : (⟨S300000, .i32⟩ : BufTy).Contents (Elt F) → (⟨S300000, .i32⟩ : BufTy).Contents (Elt F) → (⟨S300000, .i32⟩ : BufTy).Contents (Elt F)),
    StableHlo.ternary main_v9 main_v11 main_v1 main_v12 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v12 main_v13 (broadcastInDim S300000x1 ![0] bcast_S300000_S300000x1_0 : (⟨S300000, .i32⟩ : BufTy).Contents (Elt F) → (⟨S300000x1, .i32⟩ : BufTy).Contents (Elt F)),
    StableHlo.binary main_v7 main_v13 main_v14 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst (constant S_ .f32 0x00000000#32),
    StableHlo.unary main_cst main_v15 (broadcastInDim S50000x256 ![] bcast_S_S50000x256 : (⟨S_, .f32⟩ : BufTy).Contents (Elt F) → (⟨S50000x256, .f32⟩ : BufTy).Contents (Elt F)),
    StableHlo.unary main_v3 main_v16 (broadcastInDim S300000x1 ![0] bcast_S300000_S300000x1_0 : (⟨S300000, .i32⟩ : BufTy).Contents (Elt F) → (⟨S300000x1, .i32⟩ : BufTy).Contents (Elt F)),
    StableHlo.ternary main_v15 main_v16 main_v14 main_v17 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v7 main_v17 main_v18 (addf : (⟨S50000x256, .f32⟩ : BufTy).Contents (Elt F) → (⟨S50000x256, .f32⟩ : BufTy).Contents (Elt F) → (⟨S50000x256, .f32⟩ : BufTy).Contents (Elt F)),
    StableHlo.unary main_arg4 main_v19 ((extractStridedSlice S1x1x256x256 ![0, 0, 0, 0] · slices_S3x3x256x256_S1x1x256x256_0_0_0_0) : (⟨S3x3x256x256, .f32⟩ : BufTy).Contents (Elt F) → (⟨S1x1x256x256, .f32⟩ : BufTy).Contents (Elt F)),
    StableHlo.reshape main_v19 main_v20 rfl shapeCasts_S1x1x256x256_S256x256,
    StableHlo.binary main_v18 main_v20 main_v21 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v22 ((extractStridedSlice S1x1x256 ![0, 0, 0] · slices_S3x3x256_S1x1x256_0_0_0) : (⟨S3x3x256, .f32⟩ : BufTy).Contents (Elt F) → (⟨S1x1x256, .f32⟩ : BufTy).Contents (Elt F)),
    StableHlo.reshape main_v22 main_v23 rfl shapeCasts_S1x1x256_S256,
    StableHlo.unary main_v23 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v21 main_v25 main_v26 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.unary main_cst_1 main_v27 (broadcastInDim S50000x256 ![] bcast_S_S50000x256 : (⟨S_, .f32⟩ : BufTy).Contents (Elt F) → (⟨S50000x256, .f32⟩ : BufTy).Contents (Elt F)),
    StableHlo.binary main_v26 main_v27 main_v28 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v29 ((extractStridedSlice S1x1x256x256 ![0, 0, 0, 0] · slices_S3x3x256x256_S1x1x256x256_0_0_0_0) : (⟨S3x3x256x256, .f32⟩ : BufTy).Contents (Elt F) → (⟨S1x1x256x256, .f32⟩ : BufTy).Contents (Elt F)),
    StableHlo.reshape main_v29 main_v30 rfl shapeCasts_S1x1x256x256_S256x256,
    StableHlo.binary main_v28 main_v30 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v32 ((extractStridedSlice S1x1x256 ![0, 0, 0] · slices_S3x3x256_S1x1x256_0_0_0) : (⟨S3x3x256, .f32⟩ : BufTy).Contents (Elt F) → (⟨S1x1x256, .f32⟩ : BufTy).Contents (Elt F)),
    StableHlo.reshape main_v32 main_v33 rfl shapeCasts_S1x1x256_S256,
    StableHlo.unary main_v33 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S50000x256 ![0, 1] bcast_S1x256_S50000x256_0_1 : (⟨S1x256, .f32⟩ : BufTy).Contents (Elt F) → (⟨S50000x256, .f32⟩ : BufTy).Contents (Elt F)),
    StableHlo.binary main_v31 main_v35 main_v36 (addf : (⟨S50000x256, .f32⟩ : BufTy).Contents (Elt F) → (⟨S50000x256, .f32⟩ : BufTy).Contents (Elt F) → (⟨S50000x256, .f32⟩ : BufTy).Contents (Elt F)),
    StableHlo.nullary main_cst_2 (constant S_ .f32 0x00000000#32),
    StableHlo.unary main_cst_2 main_v37 (broadcastInDim S50000x256 ![] bcast_S_S50000x256 : (⟨S_, .f32⟩ : BufTy).Contents (Elt F) → (⟨S50000x256, .f32⟩ : BufTy).Contents (Elt F)),
    StableHlo.binary main_v36 main_v37 main_v38 (maximumf : (⟨S50000x256, .f32⟩ : BufTy).Contents (Elt F) → (⟨S50000x256, .f32⟩ : BufTy).Contents (Elt F) → (⟨S50000x256, .f32⟩ : BufTy).Contents (Elt F)),
    StableHlo.nullary main_c_3 (constantI S_ 32 0#32),
    StableHlo.unary main_c_3 main_v39 (broadcastInDim S300000 ![] bcast_S_S300000 : (⟨S_, .i32⟩ : BufTy).Contents (Elt F) → (⟨S300000, .i32⟩ : BufTy).Contents (Elt F)),
    StableHlo.binary main_v1 main_v39 main_v40 (cmpi .slt : (⟨S300000, .i32⟩ : BufTy).Contents (Elt F) → (⟨S300000, .i32⟩ : BufTy).Contents (Elt F) → (⟨S300000, .i1⟩ : BufTy).Contents (Elt F)),
    StableHlo.nullary main_c_4 (constantI S_ 32 50000#32),
    StableHlo.unary main_c_4 main_v41 (broadcastInDim S300000 ![] bcast_S_S300000 : (⟨S_, .i32⟩ : BufTy).Contents (Elt F) → (⟨S300000, .i32⟩ : BufTy).Contents (Elt F)),
    StableHlo.binary main_v1 main_v41 main_v42 (addi : (⟨S300000, .i32⟩ : BufTy).Contents (Elt F) → (⟨S300000, .i32⟩ : BufTy).Contents (Elt F) → (⟨S300000, .i32⟩ : BufTy).Contents (Elt F)),
    StableHlo.ternary main_v40 main_v42 main_v1 main_v43 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v43 main_v44 (broadcastInDim S300000x1 ![0] bcast_S300000_S300000x1_0 : (⟨S300000, .i32⟩ : BufTy).Contents (Elt F) → (⟨S300000x1, .i32⟩ : BufTy).Contents (Elt F)),
    StableHlo.binary main_v38 main_v44 main_v45 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_5 (constant S_ .f32 0x00000000#32),
    StableHlo.unary main_cst_5 main_v46 (broadcastInDim S50000x256 ![] bcast_S_S50000x256 : (⟨S_, .f32⟩ : BufTy).Contents (Elt F) → (⟨S50000x256, .f32⟩ : BufTy).Contents (Elt F)),
    StableHlo.unary main_v3 main_v47 (broadcastInDim S300000x1 ![0] bcast_S300000_S300000x1_0 : (⟨S300000, .i32⟩ : BufTy).Contents (Elt F) → (⟨S300000x1, .i32⟩ : BufTy).Contents (Elt F)),
    StableHlo.ternary main_v46 main_v47 main_v45 main_v48 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v38 main_v48 main_v49 (addf : (⟨S50000x256, .f32⟩ : BufTy).Contents (Elt F) → (⟨S50000x256, .f32⟩ : BufTy).Contents (Elt F) → (⟨S50000x256, .f32⟩ : BufTy).Contents (Elt F)),
    StableHlo.unary main_arg4 main_v50 ((extractStridedSlice S1x1x256x256 ![0, 1, 0, 0] · slices_S3x3x256x256_S1x1x256x256_0_1_0_0) : (⟨S3x3x256x256, .f32⟩ : BufTy).Contents (Elt F) → (⟨S1x1x256x256, .f32⟩ : BufTy).Contents (Elt F)),
    StableHlo.reshape main_v50 main_v51 rfl shapeCasts_S1x1x256x256_S256x256 ]

/-- The window's text is the list run in order. -/
theorem part0_eq (c : Dev nD) : main_part0 (F := F) c = seq ops0 := rfl

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window writes the buffers at places 10 … 69, one per operation, in order. -/
theorem ops0_chain : KeyChain 10 (ops0 : List (HloOp τ sig (Elt F))) :=
  ⟨key_single main_v0 rfl rfl,
   key_single main_v1 rfl rfl,
   key_single main_v2 rfl rfl,
   key_single main_v3 rfl rfl,
   key_single main_v4 rfl rfl,
   key_single main_v5 rfl rfl,
   key_single main_v6 rfl rfl,
   key_single main_v7 rfl rfl,
   key_single main_c rfl rfl,
   key_single main_v8 rfl rfl,
   key_single main_v9 rfl rfl,
   key_single main_c_0 rfl rfl,
   key_single main_v10 rfl rfl,
   key_single main_v11 rfl rfl,
   key_single main_v12 rfl rfl,
   key_single main_v13 rfl rfl,
   key_single main_v14 rfl rfl,
   key_single main_cst rfl rfl,
   key_single main_v15 rfl rfl,
   key_single main_v16 rfl rfl,
   key_single main_v17 rfl rfl,
   key_single main_v18 rfl rfl,
   key_single main_v19 rfl rfl,
   key_single main_v20 rfl rfl,
   key_single main_v21 rfl rfl,
   key_single main_v22 rfl rfl,
   key_single main_v23 rfl rfl,
   key_single main_v24 rfl rfl,
   key_single main_v25 rfl rfl,
   key_single main_v26 rfl rfl,
   key_single main_cst_1 rfl rfl,
   key_single main_v27 rfl rfl,
   key_single main_v28 rfl rfl,
   key_single main_v29 rfl rfl,
   key_single main_v30 rfl rfl,
   key_single main_v31 rfl rfl,
   key_single main_v32 rfl rfl,
   key_single main_v33 rfl rfl,
   key_single main_v34 rfl rfl,
   key_single main_v35 rfl rfl,
   key_single main_v36 rfl rfl,
   key_single main_cst_2 rfl rfl,
   key_single main_v37 rfl rfl,
   key_single main_v38 rfl rfl,
   key_single main_c_3 rfl rfl,
   key_single main_v39 rfl rfl,
   key_single main_v40 rfl rfl,
   key_single main_c_4 rfl rfl,
   key_single main_v41 rfl rfl,
   key_single main_v42 rfl rfl,
   key_single main_v43 rfl rfl,
   key_single main_v44 rfl rfl,
   key_single main_v45 rfl rfl,
   key_single main_cst_5 rfl rfl,
   key_single main_v46 rfl rfl,
   key_single main_v47 rfl rfl,
   key_single main_v48 rfl rfl,
   key_single main_v49 rfl rfl,
   key_single main_v50 rfl rfl,
   key_single main_v51 rfl rfl,
   trivial⟩

theorem ops0_length : (ops0 : List (HloOp τ sig (Elt F))).length = 60 := rfl

end Cert.ReferenceIdeal.Hand

end
-- ==== Proof.RefOps1.lean ====
/- The reference network's host operations, window 1 of seven, as a list in program order (the operations of the
   variance helper and of the selection helper it calls written out at the place of the call, over the call's own
   buffers), with the three facts the run of a straight line asks of a list: the window's program text is the
   sequencing of the list, every operation touches only buffers of the core, every operation determines its result, and the operations write the table's buffers one after the other in order
   (the window's first at place 70). -/
import proofs.«162580_j71794673320191_1_alg».proof.Proof.Gen.ReferenceIdeal
import Idealize.ShloMosaic.Lib.StableHlo.Run
import proofs.«162580_j71794673320191_1_alg».proof.Proof.RefFold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 1's 81 operations, in order. -/
abbrev ops1 : List (HloOp τ sig (Elt F)) :=
  [ StableHlo.binary main_v49 main_v51 main_v52 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v53 ((extractStridedSlice S1x1x256 ![0, 1, 0] · slices_S3x3x256_S1x1x256_0_1_0) : (⟨S3x3x256, .f32⟩ : BufTy).Contents (Elt F) → (⟨S1x1x256, .f32⟩ : BufTy).Contents (Elt F)),
    StableHlo.reshape main_v53 main_v54 rfl shapeCasts_S1x1x256_S256,
    StableHlo.unary main_v54 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v52 main_v56 main_v57 (addf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x00000000#32),
    StableHlo.unary main_cst_6 main_v58 (broadcastInDim S50000x256 ![] bcast_S_S50000x256 : (⟨S_, .f32⟩ : BufTy).Contents (Elt F) → (⟨S50000x256, .f32⟩ : BufTy).Contents (Elt F)),
    StableHlo.binary main_v57 main_v58 main_v59 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v60 ((extractStridedSlice S1x1x256x256 ![0, 1, 0, 0] · slices_S3x3x256x256_S1x1x256x256_0_1_0_0) : (⟨S3x3x256x256, .f32⟩ : BufTy).Contents (Elt F) → (⟨S1x1x256x256, .f32⟩ : BufTy).Contents (Elt F)),
    StableHlo.reshape main_v60 main_v61 rfl shapeCasts_S1x1x256x256_S256x256,
    StableHlo.binary main_v59 main_v61 main_v62 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v63 ((extractStridedSlice S1x1x256 ![0, 1, 0] · slices_S3x3x256_S1x1x256_0_1_0) : (⟨S3x3x256, .f32⟩ : BufTy).Contents (Elt F) → (⟨S1x1x256, .f32⟩ : BufTy).Contents (Elt F)),
    StableHlo.reshape main_v63 main_v64 rfl shapeCasts_S1x1x256_S256,
    StableHlo.unary main_v64 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v62 main_v66 main_v67 (addf : (⟨S50000x256, .f32⟩ : BufTy).Contents (Elt F) → (⟨S50000x256, .f32⟩ : BufTy).Contents (Elt F) → (⟨S50000x256, .f32⟩ : BufTy).Contents (Elt F)),
    StableHlo.nullary main_cst_7 (constant S_ .f32 0x00000000#32),
    StableHlo.unary main_cst_7 main_v68 (broadcastInDim S50000x256 ![] bcast_S_S50000x256 : (⟨S_, .f32⟩ : BufTy).Contents (Elt F) → (⟨S50000x256, .f32⟩ : BufTy).Contents (Elt F)),
    StableHlo.binary main_v67 main_v68 main_v69 (maximumf : (⟨S50000x256, .f32⟩ : BufTy).Contents (Elt F) → (⟨S50000x256, .f32⟩ : BufTy).Contents (Elt F) → (⟨S50000x256, .f32⟩ : BufTy).Contents (Elt F)),
    StableHlo.nullary main_c_8 (constantI S_ 32 0#32),
    StableHlo.unary main_c_8 main_v70 (broadcastInDim S300000 ![] bcast_S_S300000 : (⟨S_, .i32⟩ : BufTy).Contents (Elt F) → (⟨S300000, .i32⟩ : BufTy).Contents (Elt F)),
    StableHlo.binary main_v1 main_v70 main_v71 (cmpi .slt : (⟨S300000, .i32⟩ : BufTy).Contents (Elt F) → (⟨S300000, .i32⟩ : BufTy).Contents (Elt F) → (⟨S300000, .i1⟩ : BufTy).Contents (Elt F)),
    StableHlo.nullary main_c_9 (constantI S_ 32 50000#32),
    StableHlo.unary main_c_9 main_v72 (broadcastInDim S300000 ![] bcast_S_S300000 : (⟨S_, .i32⟩ : BufTy).Contents (Elt F) → (⟨S300000, .i32⟩ : BufTy).Contents (Elt F)),
    StableHlo.binary main_v1 main_v72 main_v73 (addi : (⟨S300000, .i32⟩ : BufTy).Contents (Elt F) → (⟨S300000, .i32⟩ : BufTy).Contents (Elt F) → (⟨S300000, .i32⟩ : BufTy).Contents (Elt F)),
    StableHlo.ternary main_v71 main_v73 main_v1 main_v74 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v74 main_v75 (broadcastInDim S300000x1 ![0] bcast_S300000_S300000x1_0 : (⟨S300000, .i32⟩ : BufTy).Contents (Elt F) → (⟨S300000x1, .i32⟩ : BufTy).Contents (Elt F)),
    StableHlo.binary main_v69 main_v75 main_v76 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_10 (constant S_ .f32 0x00000000#32),
    StableHlo.unary main_cst_10 main_v77 (broadcastInDim S50000x256 ![] bcast_S_S50000x256 : (⟨S_, .f32⟩ : BufTy).Contents (Elt F) → (⟨S50000x256, .f32⟩ : BufTy).Contents (Elt F)),
    StableHlo.unary main_v3 main_v78 (broadcastInDim S300000x1 ![0] bcast_S300000_S300000x1_0 : (⟨S300000, .i32⟩ : BufTy).Contents (Elt F) → (⟨S300000x1, .i32⟩ : BufTy).Contents (Elt F)),
    StableHlo.ternary main_v77 main_v78 main_v76 main_v79 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v69 main_v79 main_v80 (addf : (⟨S50000x256, .f32⟩ : BufTy).Contents (Elt F) → (⟨S50000x256, .f32⟩ : BufTy).Contents (Elt F) → (⟨S50000x256, .f32⟩ : BufTy).Contents (Elt F)),
    StableHlo.unary main_arg4 main_v81 ((extractStridedSlice S1x1x256x256 ![0, 2, 0, 0] · slices_S3x3x256x256_S1x1x256x256_0_2_0_0) : (⟨S3x3x256x256, .f32⟩ : BufTy).Contents (Elt F) → (⟨S1x1x256x256, .f32⟩ : BufTy).Contents (Elt F)),
    StableHlo.reshape main_v81 main_v82 rfl shapeCasts_S1x1x256x256_S256x256,
    StableHlo.binary main_v80 main_v82 main_v83 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v84 ((extractStridedSlice S1x1x256 ![0, 2, 0] · slices_S3x3x256_S1x1x256_0_2_0) : (⟨S3x3x256, .f32⟩ : BufTy).Contents (Elt F) → (⟨S1x1x256, .f32⟩ : BufTy).Contents (Elt F)),
    StableHlo.reshape main_v84 main_v85 rfl shapeCasts_S1x1x256_S256,
    StableHlo.unary main_v85 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S50000x256 ![0, 1] bcast_S1x256_S50000x256_0_1 : (⟨S1x256, .f32⟩ : BufTy).Contents (Elt F) → (⟨S50000x256, .f32⟩ : BufTy).Contents (Elt F)),
    StableHlo.binary main_v83 main_v87 main_v88 (addf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x00000000#32),
    StableHlo.unary main_cst_11 main_v89 (broadcastInDim S50000x256 ![] bcast_S_S50000x256 : (⟨S_, .f32⟩ : BufTy).Contents (Elt F) → (⟨S50000x256, .f32⟩ : BufTy).Contents (Elt F)),
    StableHlo.binary main_v88 main_v89 main_v90 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v91 ((extractStridedSlice S1x1x256x256 ![0, 2, 0, 0] · slices_S3x3x256x256_S1x1x256x256_0_2_0_0) : (⟨S3x3x256x256, .f32⟩ : BufTy).Contents (Elt F) → (⟨S1x1x256x256, .f32⟩ : BufTy).Contents (Elt F)),
    StableHlo.reshape main_v91 main_v92 rfl shapeCasts_S1x1x256x256_S256x256,
    StableHlo.binary main_v90 main_v92 main_v93 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v94 ((extractStridedSlice S1x1x256 ![0, 2, 0] · slices_S3x3x256_S1x1x256_0_2_0) : (⟨S3x3x256, .f32⟩ : BufTy).Contents (Elt F) → (⟨S1x1x256, .f32⟩ : BufTy).Contents (Elt F)),
    StableHlo.reshape main_v94 main_v95 rfl shapeCasts_S1x1x256_S256,
    StableHlo.unary main_v95 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v97 main_v98 (addf : (⟨S50000x256, .f32⟩ : BufTy).Contents (Elt F) → (⟨S50000x256, .f32⟩ : BufTy).Contents (Elt F) → (⟨S50000x256, .f32⟩ : BufTy).Contents (Elt F)),
    StableHlo.nullary main_cst_12 (constant S_ .f32 0x00000000#32),
    StableHlo.binary main_v98 main_cst_12 main_v99 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v100 (broadcastInDim S256 ![] bcast_S_S256 : (⟨S_, .f32⟩ : BufTy).Contents (Elt F) → (⟨S256, .f32⟩ : BufTy).Contents (Elt F)),
    StableHlo.binary main_v99 main_v100 main_v101 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.TRef.nullary main_call0.cst (constant S_ .f32 0x00000000#32),
    StableHlo.TRef.binary (.of main_v98 : TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v98 : TRef sig ⟨S50000x256, .f32⟩) main_call0.v4 main_call0.v5 subf,
    StableHlo.TRef.binary main_call0.v5 main_call0.v5 main_call0.v6 mulf,
    StableHlo.TRef.unary (.of main_c_14 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

set_option maxRecDepth 4096 in
/-- The window's text is the list run in order: the helper functions' definitions opened at the call, the sequencing reassociated. -/
theorem part1_eq (c : Dev nD) : main_part1 (F := F) c = seq ops1 := by
  simp only [main_part1, fn_var.body, fn_where.body, seq, bind_assoc, pure_bind] <;> rfl

theorem ops1_sub : (ops1 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window writes the buffers at places 70 … 150, one per operation, in order. -/
theorem ops1_chain : KeyChain 70 (ops1 : List (HloOp τ sig (Elt F))) :=
  ⟨key_single main_v52 rfl rfl,
   key_single main_v53 rfl rfl,
   key_single main_v54 rfl rfl,
   key_single main_v55 rfl rfl,
   key_single main_v56 rfl rfl,
   key_single main_v57 rfl rfl,
   key_single main_cst_6 rfl rfl,
   key_single main_v58 rfl rfl,
   key_single main_v59 rfl rfl,
   key_single main_v60 rfl rfl,
   key_single main_v61 rfl rfl,
   key_single main_v62 rfl rfl,
   key_single main_v63 rfl rfl,
   key_single main_v64 rfl rfl,
   key_single main_v65 rfl rfl,
   key_single main_v66 rfl rfl,
   key_single main_v67 rfl rfl,
   key_single main_cst_7 rfl rfl,
   key_single main_v68 rfl rfl,
   key_single main_v69 rfl rfl,
   key_single main_c_8 rfl rfl,
   key_single main_v70 rfl rfl,
   key_single main_v71 rfl rfl,
   key_single main_c_9 rfl rfl,
   key_single main_v72 rfl rfl,
   key_single main_v73 rfl rfl,
   key_single main_v74 rfl rfl,
   key_single main_v75 rfl rfl,
   key_single main_v76 rfl rfl,
   key_single main_cst_10 rfl rfl,
   key_single main_v77 rfl rfl,
   key_single main_v78 rfl rfl,
   key_single main_v79 rfl rfl,
   key_single main_v80 rfl rfl,
   key_single main_v81 rfl rfl,
   key_single main_v82 rfl rfl,
   key_single main_v83 rfl rfl,
   key_single main_v84 rfl rfl,
   key_single main_v85 rfl rfl,
   key_single main_v86 rfl rfl,
   key_single main_v87 rfl rfl,
   key_single main_v88 rfl rfl,
   key_single main_cst_11 rfl rfl,
   key_single main_v89 rfl rfl,
   key_single main_v90 rfl rfl,
   key_single main_v91 rfl rfl,
   key_single main_v92 rfl rfl,
   key_single main_v93 rfl rfl,
   key_single main_v94 rfl rfl,
   key_single main_v95 rfl rfl,
   key_single main_v96 rfl rfl,
   key_single main_v97 rfl rfl,
   key_single main_v98 rfl rfl,
   key_single main_cst_12 rfl rfl,
   key_single main_v99 rfl rfl,
   key_single main_cst_13 rfl rfl,
   key_single main_v100 rfl rfl,
   key_single main_v101 rfl rfl,
   key_single main_c_14 rfl rfl,
   key_single main_call0_cst rfl rfl,
   key_single main_call0_v0 rfl rfl,
   key_single main_call0_v1 rfl rfl,
   key_single main_call0_cst_0 rfl rfl,
   key_single main_call0_v2 rfl rfl,
   key_single main_call0_v3 rfl rfl,
   key_single main_call0_v4 rfl rfl,
   key_single main_call0_v5 rfl rfl,
   key_single main_call0_v6 rfl rfl,
   key_single main_call0_v7 rfl rfl,
   key_single main_call0_cst_1 rfl rfl,
   key_single main_call0_v8 rfl rfl,
   key_single main_call0_cst_2 rfl rfl,
   key_single main_call0_v9 rfl rfl,
   key_single main_call0_v10 rfl rfl,
   key_single main_call0_v11 rfl rfl,
   key_single main_call0_cst_3 rfl rfl,
   key_single main_call0_v12 rfl rfl,
   key_single main_call0_cst_4 rfl rfl,
   key_single main_call0_call0_v0 rfl rfl,
   key_single main_call0_call0_v1 rfl rfl,
   key_single main_v102 rfl rfl,
   trivial⟩

theorem ops1_length : (ops1 : List (HloOp τ sig (Elt F))).length = 81 := rfl

end Cert.ReferenceIdeal.Hand

end
-- ==== Proof.RefOps2.lean ====
/- The reference network's host operations, window 2 of seven, as a list in program order (the operations of the
   variance helper and of the selection helper it calls written out at the place of the call, over the call's own
   buffers), with the three facts the run of a straight line asks of a list: the window's program text is the
   sequencing of the list, every operation touches only buffers of the core, every operation determines its result, and the operations write the table's buffers one after the other in order
   (the window's first at place 151). -/
import proofs.«162580_j71794673320191_1_alg».proof.Proof.Gen.ReferenceIdeal
import Idealize.ShloMosaic.Lib.StableHlo.Run
import proofs.«162580_j71794673320191_1_alg».proof.Proof.RefFold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 2's 60 operations, in order. -/
abbrev ops2 : List (HloOp τ sig (Elt F)) :=
  [ StableHlo.unary main_v101 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v104 main_v105 (subf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v106 (broadcastInDim S256 ![] bcast_S_S256 : (⟨S_, .f32⟩ : BufTy).Contents (Elt F) → (⟨S256, .f32⟩ : BufTy).Contents (Elt F)),
    StableHlo.binary main_v102 main_v106 main_v107 (addf : (⟨S256, .f32⟩ : BufTy).Contents (Elt F) → (⟨S256, .f32⟩ : BufTy).Contents (Elt F) → (⟨S256, .f32⟩ : BufTy).Contents (Elt F)),
    StableHlo.unary main_v107 main_v108 (Host.rsqrt : (⟨S256, .f32⟩ : BufTy).Contents (Elt F) → (⟨S256, .f32⟩ : BufTy).Contents (Elt F)),
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v105 main_v110 main_v111 (mulf : (⟨S50000x256, .f32⟩ : BufTy).Contents (Elt F) → (⟨S50000x256, .f32⟩ : BufTy).Contents (Elt F) → (⟨S50000x256, .f32⟩ : BufTy).Contents (Elt F)),
    StableHlo.unary main_arg8 main_v112 ((extractStridedSlice S1x256 ![0, 0] · slices_S3x256_S1x256_0_0) : (⟨S3x256, .f32⟩ : BufTy).Contents (Elt F) → (⟨S1x256, .f32⟩ : BufTy).Contents (Elt F)),
    StableHlo.reshape main_v112 main_v113 rfl shapeCasts_S1x256_S256,
    StableHlo.unary main_v113 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v115 main_v116 (mulf : (⟨S50000x256, .f32⟩ : BufTy).Contents (Elt F) → (⟨S50000x256, .f32⟩ : BufTy).Contents (Elt F) → (⟨S50000x256, .f32⟩ : BufTy).Contents (Elt F)),
    StableHlo.unary main_arg9 main_v117 ((extractStridedSlice S1x256 ![0, 0] · slices_S3x256_S1x256_0_0) : (⟨S3x256, .f32⟩ : BufTy).Contents (Elt F) → (⟨S1x256, .f32⟩ : BufTy).Contents (Elt F)),
    StableHlo.reshape main_v117 main_v118 rfl shapeCasts_S1x256_S256,
    StableHlo.unary main_v118 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S50000x256 ![0, 1] bcast_S1x256_S50000x256_0_1 : (⟨S1x256, .f32⟩ : BufTy).Contents (Elt F) → (⟨S50000x256, .f32⟩ : BufTy).Contents (Elt F)),
    StableHlo.binary main_v116 main_v120 main_v121 (addf : (⟨S50000x256, .f32⟩ : BufTy).Contents (Elt F) → (⟨S50000x256, .f32⟩ : BufTy).Contents (Elt F) → (⟨S50000x256, .f32⟩ : BufTy).Contents (Elt F)),
    StableHlo.nullary main_cst_16 (constant S_ .f32 0x00000000#32),
    StableHlo.unary main_cst_16 main_v122 (broadcastInDim S50000x256 ![] bcast_S_S50000x256 : (⟨S_, .f32⟩ : BufTy).Contents (Elt F) → (⟨S50000x256, .f32⟩ : BufTy).Contents (Elt F)),
    StableHlo.binary main_v121 main_v122 main_v123 (maximumf : (⟨S50000x256, .f32⟩ : BufTy).Contents (Elt F) → (⟨S50000x256, .f32⟩ : BufTy).Contents (Elt F) → (⟨S50000x256, .f32⟩ : BufTy).Contents (Elt F)),
    StableHlo.nullary main_c_17 (constantI S_ 32 0#32),
    StableHlo.unary main_c_17 main_v124 (broadcastInDim S300000 ![] bcast_S_S300000 : (⟨S_, .i32⟩ : BufTy).Contents (Elt F) → (⟨S300000, .i32⟩ : BufTy).Contents (Elt F)),
    StableHlo.binary main_v1 main_v124 main_v125 (cmpi .slt : (⟨S300000, .i32⟩ : BufTy).Contents (Elt F) → (⟨S300000, .i32⟩ : BufTy).Contents (Elt F) → (⟨S300000, .i1⟩ : BufTy).Contents (Elt F)),
    StableHlo.nullary main_c_18 (constantI S_ 32 50000#32),
    StableHlo.unary main_c_18 main_v126 (broadcastInDim S300000 ![] bcast_S_S300000 : (⟨S_, .i32⟩ : BufTy).Contents (Elt F) → (⟨S300000, .i32⟩ : BufTy).Contents (Elt F)),
    StableHlo.binary main_v1 main_v126 main_v127 (addi : (⟨S300000, .i32⟩ : BufTy).Contents (Elt F) → (⟨S300000, .i32⟩ : BufTy).Contents (Elt F) → (⟨S300000, .i32⟩ : BufTy).Contents (Elt F)),
    StableHlo.ternary main_v125 main_v127 main_v1 main_v128 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v128 main_v129 (broadcastInDim S300000x1 ![0] bcast_S300000_S300000x1_0 : (⟨S300000, .i32⟩ : BufTy).Contents (Elt F) → (⟨S300000x1, .i32⟩ : BufTy).Contents (Elt F)),
    StableHlo.binary main_v123 main_v129 main_v130 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_19 (constant S_ .f32 0x00000000#32),
    StableHlo.unary main_cst_19 main_v131 (broadcastInDim S50000x256 ![] bcast_S_S50000x256 : (⟨S_, .f32⟩ : BufTy).Contents (Elt F) → (⟨S50000x256, .f32⟩ : BufTy).Contents (Elt F)),
    StableHlo.unary main_v3 main_v132 (broadcastInDim S300000x1 ![0] bcast_S300000_S300000x1_0 : (⟨S300000, .i32⟩ : BufTy).Contents (Elt F) → (⟨S300000x1, .i32⟩ : BufTy).Contents (Elt F)),
    StableHlo.ternary main_v131 main_v132 main_v130 main_v133 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v123 main_v133 main_v134 (addf : (⟨S50000x256, .f32⟩ : BufTy).Contents (Elt F) → (⟨S50000x256, .f32⟩ : BufTy).Contents (Elt F) → (⟨S50000x256, .f32⟩ : BufTy).Contents (Elt F)),
    StableHlo.unary main_arg4 main_v135 ((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F)),
    StableHlo.reshape main_v135 main_v136 rfl shapeCasts_S1x1x256x256_S256x256,
    StableHlo.binary main_v134 main_v136 main_v137 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v138 ((extractStridedSlice S1x1x256 ![1, 0, 0] · slices_S3x3x256_S1x1x256_1_0_0) : (⟨S3x3x256, .f32⟩ : BufTy).Contents (Elt F) → (⟨S1x1x256, .f32⟩ : BufTy).Contents (Elt F)),
    StableHlo.reshape main_v138 main_v139 rfl shapeCasts_S1x1x256_S256,
    StableHlo.unary main_v139 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S50000x256 ![0, 1] bcast_S1x256_S50000x256_0_1 : (⟨S1x256, .f32⟩ : BufTy).Contents (Elt F) → (⟨S50000x256, .f32⟩ : BufTy).Contents (Elt F)),
    StableHlo.binary main_v137 main_v141 main_v142 (addf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x00000000#32),
    StableHlo.unary main_cst_20 main_v143 (broadcastInDim S50000x256 ![] bcast_S_S50000x256 : (⟨S_, .f32⟩ : BufTy).Contents (Elt F) → (⟨S50000x256, .f32⟩ : BufTy).Contents (Elt F)),
    StableHlo.binary main_v142 main_v143 main_v144 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v145 ((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F)),
    StableHlo.reshape main_v145 main_v146 rfl shapeCasts_S1x1x256x256_S256x256,
    StableHlo.binary main_v144 main_v146 main_v147 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v148 ((extractStridedSlice S1x1x256 ![1, 0, 0] · slices_S3x3x256_S1x1x256_1_0_0) : (⟨S3x3x256, .f32⟩ : BufTy).Contents (Elt F) → (⟨S1x1x256, .f32⟩ : BufTy).Contents (Elt F)),
    StableHlo.reshape main_v148 main_v149 rfl shapeCasts_S1x1x256_S256,
    StableHlo.unary main_v149 main_v150 (broadcastInDim S1x256 ![1] bcast_S256_S1x256_1 : (⟨S256, .f32⟩ : BufTy).Contents (Elt F) → (⟨S1x256, .f32⟩ : BufTy).Contents (Elt F)),
    StableHlo.unary main_v150 main_v151 (broadcastInDim S50000x256 ![0, 1] bcast_S1x256_S50000x256_0_1 : (⟨S1x256, .f32⟩ : BufTy).Contents (Elt F) → (⟨S50000x256, .f32⟩ : BufTy).Contents (Elt F)),
    StableHlo.binary main_v147 main_v151 main_v152 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x00000000#32),
    StableHlo.unary main_cst_21 main_v153 (broadcastInDim S50000x256 ![] bcast_S_S50000x256 : (⟨S_, .f32⟩ : BufTy).Contents (Elt F) → (⟨S50000x256, .f32⟩ : BufTy).Contents (Elt F)),
    StableHlo.binary main_v152 main_v153 main_v154 (maximumf : (⟨S50000x256, .f32⟩ : BufTy).Contents (Elt F) → (⟨S50000x256, .f32⟩ : BufTy).Contents (Elt F) → (⟨S50000x256, .f32⟩ : BufTy).Contents (Elt F)),
    StableHlo.nullary main_c_22 (constantI S_ 32 0#32) ]

/-- The window's text is the list run in order. -/
theorem part2_eq (c : Dev nD) : main_part2 (F := F) c = seq ops2 := rfl

theorem ops2_sub : (ops2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window writes the buffers at places 151 … 210, one per operation, in order. -/
theorem ops2_chain : KeyChain 151 (ops2 : List (HloOp τ sig (Elt F))) :=
  ⟨key_single main_v103 rfl rfl,
   key_single main_v104 rfl rfl,
   key_single main_v105 rfl rfl,
   key_single main_cst_15 rfl rfl,
   key_single main_v106 rfl rfl,
   key_single main_v107 rfl rfl,
   key_single main_v108 rfl rfl,
   key_single main_v109 rfl rfl,
   key_single main_v110 rfl rfl,
   key_single main_v111 rfl rfl,
   key_single main_v112 rfl rfl,
   key_single main_v113 rfl rfl,
   key_single main_v114 rfl rfl,
   key_single main_v115 rfl rfl,
   key_single main_v116 rfl rfl,
   key_single main_v117 rfl rfl,
   key_single main_v118 rfl rfl,
   key_single main_v119 rfl rfl,
   key_single main_v120 rfl rfl,
   key_single main_v121 rfl rfl,
   key_single main_cst_16 rfl rfl,
   key_single main_v122 rfl rfl,
   key_single main_v123 rfl rfl,
   key_single main_c_17 rfl rfl,
   key_single main_v124 rfl rfl,
   key_single main_v125 rfl rfl,
   key_single main_c_18 rfl rfl,
   key_single main_v126 rfl rfl,
   key_single main_v127 rfl rfl,
   key_single main_v128 rfl rfl,
   key_single main_v129 rfl rfl,
   key_single main_v130 rfl rfl,
   key_single main_cst_19 rfl rfl,
   key_single main_v131 rfl rfl,
   key_single main_v132 rfl rfl,
   key_single main_v133 rfl rfl,
   key_single main_v134 rfl rfl,
   key_single main_v135 rfl rfl,
   key_single main_v136 rfl rfl,
   key_single main_v137 rfl rfl,
   key_single main_v138 rfl rfl,
   key_single main_v139 rfl rfl,
   key_single main_v140 rfl rfl,
   key_single main_v141 rfl rfl,
   key_single main_v142 rfl rfl,
   key_single main_cst_20 rfl rfl,
   key_single main_v143 rfl rfl,
   key_single main_v144 rfl rfl,
   key_single main_v145 rfl rfl,
   key_single main_v146 rfl rfl,
   key_single main_v147 rfl rfl,
   key_single main_v148 rfl rfl,
   key_single main_v149 rfl rfl,
   key_single main_v150 rfl rfl,
   key_single main_v151 rfl rfl,
   key_single main_v152 rfl rfl,
   key_single main_cst_21 rfl rfl,
   key_single main_v153 rfl rfl,
   key_single main_v154 rfl rfl,
   key_single main_c_22 rfl rfl,
   trivial⟩

theorem ops2_length : (ops2 : List (HloOp τ sig (Elt F))).length = 60 := rfl

end Cert.ReferenceIdeal.Hand

end
-- ==== Proof.RefOps3.lean ====
/- The reference network's host operations, window 3 of seven, as a list in program order (the operations of the
   variance helper and of the selection helper it calls written out at the place of the call, over the call's own
   buffers), with the three facts the run of a straight line asks of a list: the window's program text is the
   sequencing of the list, every operation touches only buffers of the core, every operation determines its result, and the operations write the table's buffers one after the other in order
   (the window's first at place 211). -/
import proofs.«162580_j71794673320191_1_alg».proof.Proof.Gen.ReferenceIdeal
import Idealize.ShloMosaic.Lib.StableHlo.Run
import proofs.«162580_j71794673320191_1_alg».proof.Proof.RefFold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 3's 60 operations, in order. -/
abbrev ops3 : List (HloOp τ sig (Elt F)) :=
  [ StableHlo.unary main_c_22 main_v155 (broadcastInDim S300000 ![] bcast_S_S300000 : (⟨S_, .i32⟩ : BufTy).Contents (Elt F) → (⟨S300000, .i32⟩ : BufTy).Contents (Elt F)),
    StableHlo.binary main_v1 main_v155 main_v156 (cmpi .slt : (⟨S300000, .i32⟩ : BufTy).Contents (Elt F) → (⟨S300000, .i32⟩ : BufTy).Contents (Elt F) → (⟨S300000, .i1⟩ : BufTy).Contents (Elt F)),
    StableHlo.nullary main_c_23 (constantI S_ 32 50000#32),
    StableHlo.unary main_c_23 main_v157 (broadcastInDim S300000 ![] bcast_S_S300000 : (⟨S_, .i32⟩ : BufTy).Contents (Elt F) → (⟨S300000, .i32⟩ : BufTy).Contents (Elt F)),
    StableHlo.binary main_v1 main_v157 main_v158 (addi : (⟨S300000, .i32⟩ : BufTy).Contents (Elt F) → (⟨S300000, .i32⟩ : BufTy).Contents (Elt F) → (⟨S300000, .i32⟩ : BufTy).Contents (Elt F)),
    StableHlo.ternary main_v156 main_v158 main_v1 main_v159 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v159 main_v160 (broadcastInDim S300000x1 ![0] bcast_S300000_S300000x1_0 : (⟨S300000, .i32⟩ : BufTy).Contents (Elt F) → (⟨S300000x1, .i32⟩ : BufTy).Contents (Elt F)),
    StableHlo.binary main_v154 main_v160 main_v161 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_24 (constant S_ .f32 0x00000000#32),
    StableHlo.unary main_cst_24 main_v162 (broadcastInDim S50000x256 ![] bcast_S_S50000x256 : (⟨S_, .f32⟩ : BufTy).Contents (Elt F) → (⟨S50000x256, .f32⟩ : BufTy).Contents (Elt F)),
    StableHlo.unary main_v3 main_v163 (broadcastInDim S300000x1 ![0] bcast_S300000_S300000x1_0 : (⟨S300000, .i32⟩ : BufTy).Contents (Elt F) → (⟨S300000x1, .i32⟩ : BufTy).Contents (Elt F)),
    StableHlo.ternary main_v162 main_v163 main_v161 main_v164 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v154 main_v164 main_v165 (addf : (⟨S50000x256, .f32⟩ : BufTy).Contents (Elt F) → (⟨S50000x256, .f32⟩ : BufTy).Contents (Elt F) → (⟨S50000x256, .f32⟩ : BufTy).Contents (Elt F)),
    StableHlo.unary main_arg4 main_v166 ((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F)),
    StableHlo.reshape main_v166 main_v167 rfl shapeCasts_S1x1x256x256_S256x256,
    StableHlo.binary main_v165 main_v167 main_v168 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v169 ((extractStridedSlice S1x1x256 ![1, 1, 0] · slices_S3x3x256_S1x1x256_1_1_0) : (⟨S3x3x256, .f32⟩ : BufTy).Contents (Elt F) → (⟨S1x1x256, .f32⟩ : BufTy).Contents (Elt F)),
    StableHlo.reshape main_v169 main_v170 rfl shapeCasts_S1x1x256_S256,
    StableHlo.unary main_v170 main_v171 (broadcastInDim S1x256 ![1] bcast_S256_S1x256_1 : (⟨S256, .f32⟩ : BufTy).Contents (Elt F) → (⟨S1x256, .f32⟩ : BufTy).Contents (Elt F)),
    StableHlo.unary main_v171 main_v172 (broadcastInDim S50000x256 ![0, 1] bcast_S1x256_S50000x256_0_1 : (⟨S1x256, .f32⟩ : BufTy).Contents (Elt F) → (⟨S50000x256, .f32⟩ : BufTy).Contents (Elt F)),
    StableHlo.binary main_v168 main_v172 main_v173 (addf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x00000000#32),
    StableHlo.unary main_cst_25 main_v174 (broadcastInDim S50000x256 ![] bcast_S_S50000x256 : (⟨S_, .f32⟩ : BufTy).Contents (Elt F) → (⟨S50000x256, .f32⟩ : BufTy).Contents (Elt F)),
    StableHlo.binary main_v173 main_v174 main_v175 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v176 ((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F)),
    StableHlo.reshape main_v176 main_v177 rfl shapeCasts_S1x1x256x256_S256x256,
    StableHlo.binary main_v175 main_v177 main_v178 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v179 ((extractStridedSlice S1x1x256 ![1, 1, 0] · slices_S3x3x256_S1x1x256_1_1_0) : (⟨S3x3x256, .f32⟩ : BufTy).Contents (Elt F) → (⟨S1x1x256, .f32⟩ : BufTy).Contents (Elt F)),
    StableHlo.reshape main_v179 main_v180 rfl shapeCasts_S1x1x256_S256,
    StableHlo.unary main_v180 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S50000x256 ![0, 1] bcast_S1x256_S50000x256_0_1 : (⟨S1x256, .f32⟩ : BufTy).Contents (Elt F) → (⟨S50000x256, .f32⟩ : BufTy).Contents (Elt F)),
    StableHlo.binary main_v178 main_v182 main_v183 (addf : (⟨S50000x256, .f32⟩ : BufTy).Contents (Elt F) → (⟨S50000x256, .f32⟩ : BufTy).Contents (Elt F) → (⟨S50000x256, .f32⟩ : BufTy).Contents (Elt F)),
    StableHlo.nullary main_cst_26 (constant S_ .f32 0x00000000#32),
    StableHlo.unary main_cst_26 main_v184 (broadcastInDim S50000x256 ![] bcast_S_S50000x256 : (⟨S_, .f32⟩ : BufTy).Contents (Elt F) → (⟨S50000x256, .f32⟩ : BufTy).Contents (Elt F)),
    StableHlo.binary main_v183 main_v184 main_v185 (maximumf : (⟨S50000x256, .f32⟩ : BufTy).Contents (Elt F) → (⟨S50000x256, .f32⟩ : BufTy).Contents (Elt F) → (⟨S50000x256, .f32⟩ : BufTy).Contents (Elt F)),
    StableHlo.nullary main_c_27 (constantI S_ 32 0#32),
    StableHlo.unary main_c_27 main_v186 (broadcastInDim S300000 ![] bcast_S_S300000 : (⟨S_, .i32⟩ : BufTy).Contents (Elt F) → (⟨S300000, .i32⟩ : BufTy).Contents (Elt F)),
    StableHlo.binary main_v1 main_v186 main_v187 (cmpi .slt : (⟨S300000, .i32⟩ : BufTy).Contents (Elt F) → (⟨S300000, .i32⟩ : BufTy).Contents (Elt F) → (⟨S300000, .i1⟩ : BufTy).Contents (Elt F)),
    StableHlo.nullary main_c_28 (constantI S_ 32 50000#32),
    StableHlo.unary main_c_28 main_v188 (broadcastInDim S300000 ![] bcast_S_S300000 : (⟨S_, .i32⟩ : BufTy).Contents (Elt F) → (⟨S300000, .i32⟩ : BufTy).Contents (Elt F)),
    StableHlo.binary main_v1 main_v188 main_v189 (addi : (⟨S300000, .i32⟩ : BufTy).Contents (Elt F) → (⟨S300000, .i32⟩ : BufTy).Contents (Elt F) → (⟨S300000, .i32⟩ : BufTy).Contents (Elt F)),
    StableHlo.ternary main_v187 main_v189 main_v1 main_v190 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v190 main_v191 (broadcastInDim S300000x1 ![0] bcast_S300000_S300000x1_0 : (⟨S300000, .i32⟩ : BufTy).Contents (Elt F) → (⟨S300000x1, .i32⟩ : BufTy).Contents (Elt F)),
    StableHlo.binary main_v185 main_v191 main_v192 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_29 (constant S_ .f32 0x00000000#32),
    StableHlo.unary main_cst_29 main_v193 (broadcastInDim S50000x256 ![] bcast_S_S50000x256 : (⟨S_, .f32⟩ : BufTy).Contents (Elt F) → (⟨S50000x256, .f32⟩ : BufTy).Contents (Elt F)),
    StableHlo.unary main_v3 main_v194 (broadcastInDim S300000x1 ![0] bcast_S300000_S300000x1_0 : (⟨S300000, .i32⟩ : BufTy).Contents (Elt F) → (⟨S300000x1, .i32⟩ : BufTy).Contents (Elt F)),
    StableHlo.ternary main_v193 main_v194 main_v192 main_v195 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v185 main_v195 main_v196 (addf : (⟨S50000x256, .f32⟩ : BufTy).Contents (Elt F) → (⟨S50000x256, .f32⟩ : BufTy).Contents (Elt F) → (⟨S50000x256, .f32⟩ : BufTy).Contents (Elt F)),
    StableHlo.unary main_arg4 main_v197 ((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F)),
    StableHlo.reshape main_v197 main_v198 rfl shapeCasts_S1x1x256x256_S256x256,
    StableHlo.binary main_v196 main_v198 main_v199 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v200 ((extractStridedSlice S1x1x256 ![1, 2, 0] · slices_S3x3x256_S1x1x256_1_2_0) : (⟨S3x3x256, .f32⟩ : BufTy).Contents (Elt F) → (⟨S1x1x256, .f32⟩ : BufTy).Contents (Elt F)),
    StableHlo.reshape main_v200 main_v201 rfl shapeCasts_S1x1x256_S256,
    StableHlo.unary main_v201 main_v202 (broadcastInDim S1x256 ![1] bcast_S256_S1x256_1 : (⟨S256, .f32⟩ : BufTy).Contents (Elt F) → (⟨S1x256, .f32⟩ : BufTy).Contents (Elt F)),
    StableHlo.unary main_v202 main_v203 (broadcastInDim S50000x256 ![0, 1] bcast_S1x256_S50000x256_0_1 : (⟨S1x256, .f32⟩ : BufTy).Contents (Elt F) → (⟨S50000x256, .f32⟩ : BufTy).Contents (Elt F)),
    StableHlo.binary main_v199 main_v203 main_v204 (addf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.unary main_cst_30 main_v205 (broadcastInDim S50000x256 ![] bcast_S_S50000x256 : (⟨S_, .f32⟩ : BufTy).Contents (Elt F) → (⟨S50000x256, .f32⟩ : BufTy).Contents (Elt F)),
    StableHlo.binary main_v204 main_v205 main_v206 (maximumf : (⟨S50000x256, .f32⟩ : BufTy).Contents (Elt F) → (⟨S50000x256, .f32⟩ : BufTy).Contents (Elt F) → (⟨S50000x256, .f32⟩ : BufTy).Contents (Elt F)) ]

/-- The window's text is the list run in order. -/
theorem part3_eq (c : Dev nD) : main_part3 (F := F) c = seq ops3 := rfl

theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window writes the buffers at places 211 … 270, one per operation, in order. -/
theorem ops3_chain : KeyChain 211 (ops3 : List (HloOp τ sig (Elt F))) :=
  ⟨key_single main_v155 rfl rfl,
   key_single main_v156 rfl rfl,
   key_single main_c_23 rfl rfl,
   key_single main_v157 rfl rfl,
   key_single main_v158 rfl rfl,
   key_single main_v159 rfl rfl,
   key_single main_v160 rfl rfl,
   key_single main_v161 rfl rfl,
   key_single main_cst_24 rfl rfl,
   key_single main_v162 rfl rfl,
   key_single main_v163 rfl rfl,
   key_single main_v164 rfl rfl,
   key_single main_v165 rfl rfl,
   key_single main_v166 rfl rfl,
   key_single main_v167 rfl rfl,
   key_single main_v168 rfl rfl,
   key_single main_v169 rfl rfl,
   key_single main_v170 rfl rfl,
   key_single main_v171 rfl rfl,
   key_single main_v172 rfl rfl,
   key_single main_v173 rfl rfl,
   key_single main_cst_25 rfl rfl,
   key_single main_v174 rfl rfl,
   key_single main_v175 rfl rfl,
   key_single main_v176 rfl rfl,
   key_single main_v177 rfl rfl,
   key_single main_v178 rfl rfl,
   key_single main_v179 rfl rfl,
   key_single main_v180 rfl rfl,
   key_single main_v181 rfl rfl,
   key_single main_v182 rfl rfl,
   key_single main_v183 rfl rfl,
   key_single main_cst_26 rfl rfl,
   key_single main_v184 rfl rfl,
   key_single main_v185 rfl rfl,
   key_single main_c_27 rfl rfl,
   key_single main_v186 rfl rfl,
   key_single main_v187 rfl rfl,
   key_single main_c_28 rfl rfl,
   key_single main_v188 rfl rfl,
   key_single main_v189 rfl rfl,
   key_single main_v190 rfl rfl,
   key_single main_v191 rfl rfl,
   key_single main_v192 rfl rfl,
   key_single main_cst_29 rfl rfl,
   key_single main_v193 rfl rfl,
   key_single main_v194 rfl rfl,
   key_single main_v195 rfl rfl,
   key_single main_v196 rfl rfl,
   key_single main_v197 rfl rfl,
   key_single main_v198 rfl rfl,
   key_single main_v199 rfl rfl,
   key_single main_v200 rfl rfl,
   key_single main_v201 rfl rfl,
   key_single main_v202 rfl rfl,
   key_single main_v203 rfl rfl,
   key_single main_v204 rfl rfl,
   key_single main_cst_30 rfl rfl,
   key_single main_v205 rfl rfl,
   key_single main_v206 rfl rfl,
   trivial⟩

theorem ops3_length : (ops3 : List (HloOp τ sig (Elt F))).length = 60 := rfl

end Cert.ReferenceIdeal.Hand

end
-- ==== Proof.RefOps4.lean ====
/- The reference network's host operations, window 4 of seven, as a list in program order (the operations of the
   variance helper and of the selection helper it calls written out at the place of the call, over the call's own
   buffers), with the three facts the run of a straight line asks of a list: the window's program text is the
   sequencing of the list, every operation touches only buffers of the core, every operation determines its result, and the operations write the table's buffers one after the other in order
   (the window's first at place 271). -/
import proofs.«162580_j71794673320191_1_alg».proof.Proof.Gen.ReferenceIdeal
import Idealize.ShloMosaic.Lib.StableHlo.Run
import proofs.«162580_j71794673320191_1_alg».proof.Proof.RefFold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 4's 81 operations, in order. -/
abbrev ops4 : List (HloOp τ sig (Elt F)) :=
  [ StableHlo.unary main_arg6 main_v207 ((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F)),
    StableHlo.reshape main_v207 main_v208 rfl shapeCasts_S1x1x256x256_S256x256,
    StableHlo.binary main_v206 main_v208 main_v209 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v210 ((extractStridedSlice S1x1x256 ![1, 2, 0] · slices_S3x3x256_S1x1x256_1_2_0) : (⟨S3x3x256, .f32⟩ : BufTy).Contents (Elt F) → (⟨S1x1x256, .f32⟩ : BufTy).Contents (Elt F)),
    StableHlo.reshape main_v210 main_v211 rfl shapeCasts_S1x1x256_S256,
    StableHlo.unary main_v211 main_v212 (broadcastInDim S1x256 ![1] bcast_S256_S1x256_1 : (⟨S256, .f32⟩ : BufTy).Contents (Elt F) → (⟨S1x256, .f32⟩ : BufTy).Contents (Elt F)),
    StableHlo.unary main_v212 main_v213 (broadcastInDim S50000x256 ![0, 1] bcast_S1x256_S50000x256_0_1 : (⟨S1x256, .f32⟩ : BufTy).Contents (Elt F) → (⟨S50000x256, .f32⟩ : BufTy).Contents (Elt F)),
    StableHlo.binary main_v209 main_v213 main_v214 (addf : (⟨S50000x256, .f32⟩ : BufTy).Contents (Elt F) → (⟨S50000x256, .f32⟩ : BufTy).Contents (Elt F) → (⟨S50000x256, .f32⟩ : BufTy).Contents (Elt F)),
    StableHlo.nullary main_cst_31 (constant S_ .f32 0x00000000#32),
    StableHlo.binary main_v214 main_cst_31 main_v215 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_32 (constant S_ .f32 0x47435000#32),
    StableHlo.unary main_cst_32 main_v216 (broadcastInDim S256 ![] bcast_S_S256 : (⟨S_, .f32⟩ : BufTy).Contents (Elt F) → (⟨S256, .f32⟩ : BufTy).Contents (Elt F)),
    StableHlo.binary main_v215 main_v216 main_v217 (Host.divf : (⟨S256, .f32⟩ : BufTy).Contents (Elt F) → (⟨S256, .f32⟩ : BufTy).Contents (Elt F) → (⟨S256, .f32⟩ : BufTy).Contents (Elt F)),
    StableHlo.nullary main_c_33 (constantI S_ 32 0#32),
    StableHlo.TRef.nullary main_call1.cst (constant S_ .f32 0x00000000#32),
    StableHlo.TRef.binary (.of main_v214 : TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (.of main_v214 : TRef sig ⟨S50000x256, .f32⟩) main_call1.v4 main_call1.v5 subf,
    StableHlo.TRef.binary main_call1.v5 main_call1.v5 main_call1.v6 mulf,
    StableHlo.TRef.unary (.of main_c_33 : TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v217 main_v219 (broadcastInDim S1x256 ![1] bcast_S256_S1x256_1 : (⟨S256, .f32⟩ : BufTy).Contents (Elt F) → (⟨S1x256, .f32⟩ : BufTy).Contents (Elt F)),
    StableHlo.unary main_v219 main_v220 (broadcastInDim S50000x256 ![0, 1] bcast_S1x256_S50000x256_0_1 : (⟨S1x256, .f32⟩ : BufTy).Contents (Elt F) → (⟨S50000x256, .f32⟩ : BufTy).Contents (Elt F)),
    StableHlo.binary main_v214 main_v220 main_v221 (subf : (⟨S50000x256, .f32⟩ : BufTy).Contents (Elt F) → (⟨S50000x256, .f32⟩ : BufTy).Contents (Elt F) → (⟨S50000x256, .f32⟩ : BufTy).Contents (Elt F)),
    StableHlo.nullary main_cst_34 (constant S_ .f32 0x3727C5AC#32),
    StableHlo.unary main_cst_34 main_v222 (broadcastInDim S256 ![] bcast_S_S256 : (⟨S_, .f32⟩ : BufTy).Contents (Elt F) → (⟨S256, .f32⟩ : BufTy).Contents (Elt F)),
    StableHlo.binary main_v218 main_v222 main_v223 (addf : (⟨S256, .f32⟩ : BufTy).Contents (Elt F) → (⟨S256, .f32⟩ : BufTy).Contents (Elt F) → (⟨S256, .f32⟩ : BufTy).Contents (Elt F)),
    StableHlo.unary main_v223 main_v224 (Host.rsqrt : (⟨S256, .f32⟩ : BufTy).Contents (Elt F) → (⟨S256, .f32⟩ : BufTy).Contents (Elt F)),
    StableHlo.unary main_v224 main_v225 (broadcastInDim S1x256 ![1] bcast_S256_S1x256_1 : (⟨S256, .f32⟩ : BufTy).Contents (Elt F) → (⟨S1x256, .f32⟩ : BufTy).Contents (Elt F)),
    StableHlo.unary main_v225 main_v226 (broadcastInDim S50000x256 ![0, 1] bcast_S1x256_S50000x256_0_1 : (⟨S1x256, .f32⟩ : BufTy).Contents (Elt F) → (⟨S50000x256, .f32⟩ : BufTy).Contents (Elt F)),
    StableHlo.binary main_v221 main_v226 main_v227 (mulf : (⟨S50000x256, .f32⟩ : BufTy).Contents (Elt F) → (⟨S50000x256, .f32⟩ : BufTy).Contents (Elt F) → (⟨S50000x256, .f32⟩ : BufTy).Contents (Elt F)),
    StableHlo.unary main_arg8 main_v228 ((extractStridedSlice S1x256 ![1, 0] · slices_S3x256_S1x256_1_0) : (⟨S3x256, .f32⟩ : BufTy).Contents (Elt F) → (⟨S1x256, .f32⟩ : BufTy).Contents (Elt F)),
    StableHlo.reshape main_v228 main_v229 rfl shapeCasts_S1x256_S256,
    StableHlo.unary main_v229 main_v230 (broadcastInDim S1x256 ![1] bcast_S256_S1x256_1 : (⟨S256, .f32⟩ : BufTy).Contents (Elt F) → (⟨S1x256, .f32⟩ : BufTy).Contents (Elt F)),
    StableHlo.unary main_v230 main_v231 (broadcastInDim S50000x256 ![0, 1] bcast_S1x256_S50000x256_0_1 : (⟨S1x256, .f32⟩ : BufTy).Contents (Elt F) → (⟨S50000x256, .f32⟩ : BufTy).Contents (Elt F)),
    StableHlo.binary main_v227 main_v231 main_v232 (mulf : (⟨S50000x256, .f32⟩ : BufTy).Contents (Elt F) → (⟨S50000x256, .f32⟩ : BufTy).Contents (Elt F) → (⟨S50000x256, .f32⟩ : BufTy).Contents (Elt F)),
    StableHlo.unary main_arg9 main_v233 ((extractStridedSlice S1x256 ![1, 0] · slices_S3x256_S1x256_1_0) : (⟨S3x256, .f32⟩ : BufTy).Contents (Elt F) → (⟨S1x256, .f32⟩ : BufTy).Contents (Elt F)),
    StableHlo.reshape main_v233 main_v234 rfl shapeCasts_S1x256_S256,
    StableHlo.unary main_v234 main_v235 (broadcastInDim S1x256 ![1] bcast_S256_S1x256_1 : (⟨S256, .f32⟩ : BufTy).Contents (Elt F) → (⟨S1x256, .f32⟩ : BufTy).Contents (Elt F)),
    StableHlo.unary main_v235 main_v236 (broadcastInDim S50000x256 ![0, 1] bcast_S1x256_S50000x256_0_1 : (⟨S1x256, .f32⟩ : BufTy).Contents (Elt F) → (⟨S50000x256, .f32⟩ : BufTy).Contents (Elt F)),
    StableHlo.binary main_v232 main_v236 main_v237 (addf : (⟨S50000x256, .f32⟩ : BufTy).Contents (Elt F) → (⟨S50000x256, .f32⟩ : BufTy).Contents (Elt F) → (⟨S50000x256, .f32⟩ : BufTy).Contents (Elt F)),
    StableHlo.nullary main_cst_35 (constant S_ .f32 0x00000000#32),
    StableHlo.unary main_cst_35 main_v238 (broadcastInDim S50000x256 ![] bcast_S_S50000x256 : (⟨S_, .f32⟩ : BufTy).Contents (Elt F) → (⟨S50000x256, .f32⟩ : BufTy).Contents (Elt F)),
    StableHlo.binary main_v237 main_v238 main_v239 (maximumf : (⟨S50000x256, .f32⟩ : BufTy).Contents (Elt F) → (⟨S50000x256, .f32⟩ : BufTy).Contents (Elt F) → (⟨S50000x256, .f32⟩ : BufTy).Contents (Elt F)),
    StableHlo.nullary main_c_36 (constantI S_ 32 0#32),
    StableHlo.unary main_c_36 main_v240 (broadcastInDim S300000 ![] bcast_S_S300000 : (⟨S_, .i32⟩ : BufTy).Contents (Elt F) → (⟨S300000, .i32⟩ : BufTy).Contents (Elt F)),
    StableHlo.binary main_v1 main_v240 main_v241 (cmpi .slt : (⟨S300000, .i32⟩ : BufTy).Contents (Elt F) → (⟨S300000, .i32⟩ : BufTy).Contents (Elt F) → (⟨S300000, .i1⟩ : BufTy).Contents (Elt F)),
    StableHlo.nullary main_c_37 (constantI S_ 32 50000#32),
    StableHlo.unary main_c_37 main_v242 (broadcastInDim S300000 ![] bcast_S_S300000 : (⟨S_, .i32⟩ : BufTy).Contents (Elt F) → (⟨S300000, .i32⟩ : BufTy).Contents (Elt F)),
    StableHlo.binary main_v1 main_v242 main_v243 (addi : (⟨S300000, .i32⟩ : BufTy).Contents (Elt F) → (⟨S300000, .i32⟩ : BufTy).Contents (Elt F) → (⟨S300000, .i32⟩ : BufTy).Contents (Elt F)),
    StableHlo.ternary main_v241 main_v243 main_v1 main_v244 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v244 main_v245 (broadcastInDim S300000x1 ![0] bcast_S300000_S300000x1_0 : (⟨S300000, .i32⟩ : BufTy).Contents (Elt F) → (⟨S300000x1, .i32⟩ : BufTy).Contents (Elt F)),
    StableHlo.binary main_v239 main_v245 main_v246 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_38 (constant S_ .f32 0x00000000#32),
    StableHlo.unary main_cst_38 main_v247 (broadcastInDim S50000x256 ![] bcast_S_S50000x256 : (⟨S_, .f32⟩ : BufTy).Contents (Elt F) → (⟨S50000x256, .f32⟩ : BufTy).Contents (Elt F)),
    StableHlo.unary main_v3 main_v248 (broadcastInDim S300000x1 ![0] bcast_S300000_S300000x1_0 : (⟨S300000, .i32⟩ : BufTy).Contents (Elt F) → (⟨S300000x1, .i32⟩ : BufTy).Contents (Elt F)),
    StableHlo.ternary main_v247 main_v248 main_v246 main_v249 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v239 main_v249 main_v250 (addf : (⟨S50000x256, .f32⟩ : BufTy).Contents (Elt F) → (⟨S50000x256, .f32⟩ : BufTy).Contents (Elt F) → (⟨S50000x256, .f32⟩ : BufTy).Contents (Elt F)),
    StableHlo.unary main_arg4 main_v251 ((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F)),
    StableHlo.reshape main_v251 main_v252 rfl shapeCasts_S1x1x256x256_S256x256,
    StableHlo.binary main_v250 main_v252 main_v253 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v254 ((extractStridedSlice S1x1x256 ![2, 0, 0] · slices_S3x3x256_S1x1x256_2_0_0) : (⟨S3x3x256, .f32⟩ : BufTy).Contents (Elt F) → (⟨S1x1x256, .f32⟩ : BufTy).Contents (Elt F)),
    StableHlo.reshape main_v254 main_v255 rfl shapeCasts_S1x1x256_S256,
    StableHlo.unary main_v255 main_v256 (broadcastInDim S1x256 ![1] bcast_S256_S1x256_1 : (⟨S256, .f32⟩ : BufTy).Contents (Elt F) → (⟨S1x256, .f32⟩ : BufTy).Contents (Elt F)),
    StableHlo.unary main_v256 main_v257 (broadcastInDim S50000x256 ![0, 1] bcast_S1x256_S50000x256_0_1 : (⟨S1x256, .f32⟩ : BufTy).Contents (Elt F) → (⟨S50000x256, .f32⟩ : BufTy).Contents (Elt F)),
    StableHlo.binary main_v253 main_v257 main_v258 (addf : (⟨S50000x256, .f32⟩ : BufTy).Contents (Elt F) → (⟨S50000x256, .f32⟩ : BufTy).Contents (Elt F) → (⟨S50000x256, .f32⟩ : BufTy).Contents (Elt F)) ]

set_option maxRecDepth 4096 in
/-- The window's text is the list run in order: the helper functions' definitions opened at the call, the sequencing reassociated. -/
theorem part4_eq (c : Dev nD) : main_part4 (F := F) c = seq ops4 := by
  simp only [main_part4, fn_var.body, fn_where.body, seq, bind_assoc, pure_bind] <;> rfl

theorem ops4_sub : (ops4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window writes the buffers at places 271 … 351, one per operation, in order. -/
theorem ops4_chain : KeyChain 271 (ops4 : List (HloOp τ sig (Elt F))) :=
  ⟨key_single main_v207 rfl rfl,
   key_single main_v208 rfl rfl,
   key_single main_v209 rfl rfl,
   key_single main_v210 rfl rfl,
   key_single main_v211 rfl rfl,
   key_single main_v212 rfl rfl,
   key_single main_v213 rfl rfl,
   key_single main_v214 rfl rfl,
   key_single main_cst_31 rfl rfl,
   key_single main_v215 rfl rfl,
   key_single main_cst_32 rfl rfl,
   key_single main_v216 rfl rfl,
   key_single main_v217 rfl rfl,
   key_single main_c_33 rfl rfl,
   key_single main_call1_cst rfl rfl,
   key_single main_call1_v0 rfl rfl,
   key_single main_call1_v1 rfl rfl,
   key_single main_call1_cst_0 rfl rfl,
   key_single main_call1_v2 rfl rfl,
   key_single main_call1_v3 rfl rfl,
   key_single main_call1_v4 rfl rfl,
   key_single main_call1_v5 rfl rfl,
   key_single main_call1_v6 rfl rfl,
   key_single main_call1_v7 rfl rfl,
   key_single main_call1_cst_1 rfl rfl,
   key_single main_call1_v8 rfl rfl,
   key_single main_call1_cst_2 rfl rfl,
   key_single main_call1_v9 rfl rfl,
   key_single main_call1_v10 rfl rfl,
   key_single main_call1_v11 rfl rfl,
   key_single main_call1_cst_3 rfl rfl,
   key_single main_call1_v12 rfl rfl,
   key_single main_call1_cst_4 rfl rfl,
   key_single main_call1_call0_v0 rfl rfl,
   key_single main_call1_call0_v1 rfl rfl,
   key_single main_v218 rfl rfl,
   key_single main_v219 rfl rfl,
   key_single main_v220 rfl rfl,
   key_single main_v221 rfl rfl,
   key_single main_cst_34 rfl rfl,
   key_single main_v222 rfl rfl,
   key_single main_v223 rfl rfl,
   key_single main_v224 rfl rfl,
   key_single main_v225 rfl rfl,
   key_single main_v226 rfl rfl,
   key_single main_v227 rfl rfl,
   key_single main_v228 rfl rfl,
   key_single main_v229 rfl rfl,
   key_single main_v230 rfl rfl,
   key_single main_v231 rfl rfl,
   key_single main_v232 rfl rfl,
   key_single main_v233 rfl rfl,
   key_single main_v234 rfl rfl,
   key_single main_v235 rfl rfl,
   key_single main_v236 rfl rfl,
   key_single main_v237 rfl rfl,
   key_single main_cst_35 rfl rfl,
   key_single main_v238 rfl rfl,
   key_single main_v239 rfl rfl,
   key_single main_c_36 rfl rfl,
   key_single main_v240 rfl rfl,
   key_single main_v241 rfl rfl,
   key_single main_c_37 rfl rfl,
   key_single main_v242 rfl rfl,
   key_single main_v243 rfl rfl,
   key_single main_v244 rfl rfl,
   key_single main_v245 rfl rfl,
   key_single main_v246 rfl rfl,
   key_single main_cst_38 rfl rfl,
   key_single main_v247 rfl rfl,
   key_single main_v248 rfl rfl,
   key_single main_v249 rfl rfl,
   key_single main_v250 rfl rfl,
   key_single main_v251 rfl rfl,
   key_single main_v252 rfl rfl,
   key_single main_v253 rfl rfl,
   key_single main_v254 rfl rfl,
   key_single main_v255 rfl rfl,
   key_single main_v256 rfl rfl,
   key_single main_v257 rfl rfl,
   key_single main_v258 rfl rfl,
   trivial⟩

theorem ops4_length : (ops4 : List (HloOp τ sig (Elt F))).length = 81 := rfl

end Cert.ReferenceIdeal.Hand

end
-- ==== Proof.RefOps5.lean ====
/- The reference network's host operations, window 5 of seven, as a list in program order (the operations of the
   variance helper and of the selection helper it calls written out at the place of the call, over the call's own
   buffers), with the three facts the run of a straight line asks of a list: the window's program text is the
   sequencing of the list, every operation touches only buffers of the core, every operation determines its result, and the operations write the table's buffers one after the other in order
   (the window's first at place 352). -/
import proofs.«162580_j71794673320191_1_alg».proof.Proof.Gen.ReferenceIdeal
import Idealize.ShloMosaic.Lib.StableHlo.Run
import proofs.«162580_j71794673320191_1_alg».proof.Proof.RefFold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 5's 60 operations, in order. -/
abbrev ops5 : List (HloOp τ sig (Elt F)) :=
  [ StableHlo.nullary main_cst_39 (constant S_ .f32 0x00000000#32),
    StableHlo.unary main_cst_39 main_v259 (broadcastInDim S50000x256 ![] bcast_S_S50000x256 : (⟨S_, .f32⟩ : BufTy).Contents (Elt F) → (⟨S50000x256, .f32⟩ : BufTy).Contents (Elt F)),
    StableHlo.binary main_v258 main_v259 main_v260 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v261 ((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F)),
    StableHlo.reshape main_v261 main_v262 rfl shapeCasts_S1x1x256x256_S256x256,
    StableHlo.binary main_v260 main_v262 main_v263 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v264 ((extractStridedSlice S1x1x256 ![2, 0, 0] · slices_S3x3x256_S1x1x256_2_0_0) : (⟨S3x3x256, .f32⟩ : BufTy).Contents (Elt F) → (⟨S1x1x256, .f32⟩ : BufTy).Contents (Elt F)),
    StableHlo.reshape main_v264 main_v265 rfl shapeCasts_S1x1x256_S256,
    StableHlo.unary main_v265 main_v266 (broadcastInDim S1x256 ![1] bcast_S256_S1x256_1 : (⟨S256, .f32⟩ : BufTy).Contents (Elt F) → (⟨S1x256, .f32⟩ : BufTy).Contents (Elt F)),
    StableHlo.unary main_v266 main_v267 (broadcastInDim S50000x256 ![0, 1] bcast_S1x256_S50000x256_0_1 : (⟨S1x256, .f32⟩ : BufTy).Contents (Elt F) → (⟨S50000x256, .f32⟩ : BufTy).Contents (Elt F)),
    StableHlo.binary main_v263 main_v267 main_v268 (addf : (⟨S50000x256, .f32⟩ : BufTy).Contents (Elt F) → (⟨S50000x256, .f32⟩ : BufTy).Contents (Elt F) → (⟨S50000x256, .f32⟩ : BufTy).Contents (Elt F)),
    StableHlo.nullary main_cst_40 (constant S_ .f32 0x00000000#32),
    StableHlo.unary main_cst_40 main_v269 (broadcastInDim S50000x256 ![] bcast_S_S50000x256 : (⟨S_, .f32⟩ : BufTy).Contents (Elt F) → (⟨S50000x256, .f32⟩ : BufTy).Contents (Elt F)),
    StableHlo.binary main_v268 main_v269 main_v270 (maximumf : (⟨S50000x256, .f32⟩ : BufTy).Contents (Elt F) → (⟨S50000x256, .f32⟩ : BufTy).Contents (Elt F) → (⟨S50000x256, .f32⟩ : BufTy).Contents (Elt F)),
    StableHlo.nullary main_c_41 (constantI S_ 32 0#32),
    StableHlo.unary main_c_41 main_v271 (broadcastInDim S300000 ![] bcast_S_S300000 : (⟨S_, .i32⟩ : BufTy).Contents (Elt F) → (⟨S300000, .i32⟩ : BufTy).Contents (Elt F)),
    StableHlo.binary main_v1 main_v271 main_v272 (cmpi .slt : (⟨S300000, .i32⟩ : BufTy).Contents (Elt F) → (⟨S300000, .i32⟩ : BufTy).Contents (Elt F) → (⟨S300000, .i1⟩ : BufTy).Contents (Elt F)),
    StableHlo.nullary main_c_42 (constantI S_ 32 50000#32),
    StableHlo.unary main_c_42 main_v273 (broadcastInDim S300000 ![] bcast_S_S300000 : (⟨S_, .i32⟩ : BufTy).Contents (Elt F) → (⟨S300000, .i32⟩ : BufTy).Contents (Elt F)),
    StableHlo.binary main_v1 main_v273 main_v274 (addi : (⟨S300000, .i32⟩ : BufTy).Contents (Elt F) → (⟨S300000, .i32⟩ : BufTy).Contents (Elt F) → (⟨S300000, .i32⟩ : BufTy).Contents (Elt F)),
    StableHlo.ternary main_v272 main_v274 main_v1 main_v275 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v275 main_v276 (broadcastInDim S300000x1 ![0] bcast_S300000_S300000x1_0 : (⟨S300000, .i32⟩ : BufTy).Contents (Elt F) → (⟨S300000x1, .i32⟩ : BufTy).Contents (Elt F)),
    StableHlo.binary main_v270 main_v276 main_v277 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_43 (constant S_ .f32 0x00000000#32),
    StableHlo.unary main_cst_43 main_v278 (broadcastInDim S50000x256 ![] bcast_S_S50000x256 : (⟨S_, .f32⟩ : BufTy).Contents (Elt F) → (⟨S50000x256, .f32⟩ : BufTy).Contents (Elt F)),
    StableHlo.unary main_v3 main_v279 (broadcastInDim S300000x1 ![0] bcast_S300000_S300000x1_0 : (⟨S300000, .i32⟩ : BufTy).Contents (Elt F) → (⟨S300000x1, .i32⟩ : BufTy).Contents (Elt F)),
    StableHlo.ternary main_v278 main_v279 main_v277 main_v280 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v270 main_v280 main_v281 (addf : (⟨S50000x256, .f32⟩ : BufTy).Contents (Elt F) → (⟨S50000x256, .f32⟩ : BufTy).Contents (Elt F) → (⟨S50000x256, .f32⟩ : BufTy).Contents (Elt F)),
    StableHlo.unary main_arg4 main_v282 ((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F)),
    StableHlo.reshape main_v282 main_v283 rfl shapeCasts_S1x1x256x256_S256x256,
    StableHlo.binary main_v281 main_v283 main_v284 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v285 ((extractStridedSlice S1x1x256 ![2, 1, 0] · slices_S3x3x256_S1x1x256_2_1_0) : (⟨S3x3x256, .f32⟩ : BufTy).Contents (Elt F) → (⟨S1x1x256, .f32⟩ : BufTy).Contents (Elt F)),
    StableHlo.reshape main_v285 main_v286 rfl shapeCasts_S1x1x256_S256,
    StableHlo.unary main_v286 main_v287 (broadcastInDim S1x256 ![1] bcast_S256_S1x256_1 : (⟨S256, .f32⟩ : BufTy).Contents (Elt F) → (⟨S1x256, .f32⟩ : BufTy).Contents (Elt F)),
    StableHlo.unary main_v287 main_v288 (broadcastInDim S50000x256 ![0, 1] bcast_S1x256_S50000x256_0_1 : (⟨S1x256, .f32⟩ : BufTy).Contents (Elt F) → (⟨S50000x256, .f32⟩ : BufTy).Contents (Elt F)),
    StableHlo.binary main_v284 main_v288 main_v289 (addf : (⟨S50000x256, .f32⟩ : BufTy).Contents (Elt F) → (⟨S50000x256, .f32⟩ : BufTy).Contents (Elt F) → (⟨S50000x256, .f32⟩ : BufTy).Contents (Elt F)),
    StableHlo.nullary main_cst_44 (constant S_ .f32 0x00000000#32),
    StableHlo.unary main_cst_44 main_v290 (broadcastInDim S50000x256 ![] bcast_S_S50000x256 : (⟨S_, .f32⟩ : BufTy).Contents (Elt F) → (⟨S50000x256, .f32⟩ : BufTy).Contents (Elt F)),
    StableHlo.binary main_v289 main_v290 main_v291 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v292 ((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F)),
    StableHlo.reshape main_v292 main_v293 rfl shapeCasts_S1x1x256x256_S256x256,
    StableHlo.binary main_v291 main_v293 main_v294 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v295 ((extractStridedSlice S1x1x256 ![2, 1, 0] · slices_S3x3x256_S1x1x256_2_1_0) : (⟨S3x3x256, .f32⟩ : BufTy).Contents (Elt F) → (⟨S1x1x256, .f32⟩ : BufTy).Contents (Elt F)),
    StableHlo.reshape main_v295 main_v296 rfl shapeCasts_S1x1x256_S256,
    StableHlo.unary main_v296 main_v297 (broadcastInDim S1x256 ![1] bcast_S256_S1x256_1 : (⟨S256, .f32⟩ : BufTy).Contents (Elt F) → (⟨S1x256, .f32⟩ : BufTy).Contents (Elt F)),
    StableHlo.unary main_v297 main_v298 (broadcastInDim S50000x256 ![0, 1] bcast_S1x256_S50000x256_0_1 : (⟨S1x256, .f32⟩ : BufTy).Contents (Elt F) → (⟨S50000x256, .f32⟩ : BufTy).Contents (Elt F)),
    StableHlo.binary main_v294 main_v298 main_v299 (addf : (⟨S50000x256, .f32⟩ : BufTy).Contents (Elt F) → (⟨S50000x256, .f32⟩ : BufTy).Contents (Elt F) → (⟨S50000x256, .f32⟩ : BufTy).Contents (Elt F)),
    StableHlo.nullary main_cst_45 (constant S_ .f32 0x00000000#32),
    StableHlo.unary main_cst_45 main_v300 (broadcastInDim S50000x256 ![] bcast_S_S50000x256 : (⟨S_, .f32⟩ : BufTy).Contents (Elt F) → (⟨S50000x256, .f32⟩ : BufTy).Contents (Elt F)),
    StableHlo.binary main_v299 main_v300 main_v301 (maximumf : (⟨S50000x256, .f32⟩ : BufTy).Contents (Elt F) → (⟨S50000x256, .f32⟩ : BufTy).Contents (Elt F) → (⟨S50000x256, .f32⟩ : BufTy).Contents (Elt F)),
    StableHlo.nullary main_c_46 (constantI S_ 32 0#32),
    StableHlo.unary main_c_46 main_v302 (broadcastInDim S300000 ![] bcast_S_S300000 : (⟨S_, .i32⟩ : BufTy).Contents (Elt F) → (⟨S300000, .i32⟩ : BufTy).Contents (Elt F)),
    StableHlo.binary main_v1 main_v302 main_v303 (cmpi .slt : (⟨S300000, .i32⟩ : BufTy).Contents (Elt F) → (⟨S300000, .i32⟩ : BufTy).Contents (Elt F) → (⟨S300000, .i1⟩ : BufTy).Contents (Elt F)),
    StableHlo.nullary main_c_47 (constantI S_ 32 50000#32),
    StableHlo.unary main_c_47 main_v304 (broadcastInDim S300000 ![] bcast_S_S300000 : (⟨S_, .i32⟩ : BufTy).Contents (Elt F) → (⟨S300000, .i32⟩ : BufTy).Contents (Elt F)),
    StableHlo.binary main_v1 main_v304 main_v305 (addi : (⟨S300000, .i32⟩ : BufTy).Contents (Elt F) → (⟨S300000, .i32⟩ : BufTy).Contents (Elt F) → (⟨S300000, .i32⟩ : BufTy).Contents (Elt F)),
    StableHlo.ternary main_v303 main_v305 main_v1 main_v306 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v306 main_v307 (broadcastInDim S300000x1 ![0] bcast_S300000_S300000x1_0 : (⟨S300000, .i32⟩ : BufTy).Contents (Elt F) → (⟨S300000x1, .i32⟩ : BufTy).Contents (Elt F)),
    StableHlo.binary main_v301 main_v307 main_v308 ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)),
    StableHlo.nullary main_cst_48 (constant S_ .f32 0x00000000#32) ]

/-- The window's text is the list run in order. -/
theorem part5_eq (c : Dev nD) : main_part5 (F := F) c = seq ops5 := rfl

theorem ops5_sub : (ops5 : List (HloOp τ sig (Elt F))).Forall fun op => op.bufs ⊆ tcRefs τ sig :=
  ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window writes the buffers at places 352 … 411, one per operation, in order. -/
theorem ops5_chain : KeyChain 352 (ops5 : List (HloOp τ sig (Elt F))) :=
  ⟨key_single main_cst_39 rfl rfl,
   key_single main_v259 rfl rfl,
   key_single main_v260 rfl rfl,
   key_single main_v261 rfl rfl,
   key_single main_v262 rfl rfl,
   key_single main_v263 rfl rfl,
   key_single main_v264 rfl rfl,
   key_single main_v265 rfl rfl,
   key_single main_v266 rfl rfl,
   key_single main_v267 rfl rfl,
   key_single main_v268 rfl rfl,
   key_single main_cst_40 rfl rfl,
   key_single main_v269 rfl rfl,
   key_single main_v270 rfl rfl,
   key_single main_c_41 rfl rfl,
   key_single main_v271 rfl rfl,
   key_single main_v272 rfl rfl,
   key_single main_c_42 rfl rfl,
   key_single main_v273 rfl rfl,
   key_single main_v274 rfl rfl,
   key_single main_v275 rfl rfl,
   key_single main_v276 rfl rfl,
   key_single main_v277 rfl rfl,
   key_single main_cst_43 rfl rfl,
   key_single main_v278 rfl rfl,
   key_single main_v279 rfl rfl,
   key_single main_v280 rfl rfl,
   key_single main_v281 rfl rfl,
   key_single main_v282 rfl rfl,
   key_single main_v283 rfl rfl,
   key_single main_v284 rfl rfl,
   key_single main_v285 rfl rfl,
   key_single main_v286 rfl rfl,
   key_single main_v287 rfl rfl,
   key_single main_v288 rfl rfl,
   key_single main_v289 rfl rfl,
   key_single main_cst_44 rfl rfl,
   key_single main_v290 rfl rfl,
   key_single main_v291 rfl rfl,
   key_single main_v292 rfl rfl,
   key_single main_v293 rfl rfl,
   key_single main_v294 rfl rfl,
   key_single main_v295 rfl rfl,
   key_single main_v296 rfl rfl,
   key_single main_v297 rfl rfl,
   key_single main_v298 rfl rfl,
   key_single main_v299 rfl rfl,
   key_single main_cst_45 rfl rfl,
   key_single main_v300 rfl rfl,
   key_single main_v301 rfl rfl,
   key_single main_c_46 rfl rfl,
   key_single main_v302 rfl rfl,
   key_single main_v303 rfl rfl,
   key_single main_c_47 rfl rfl,
   key_single main_v304 rfl rfl,
   key_single main_v305 rfl rfl,
   key_single main_v306 rfl rfl,
   key_single main_v307 rfl rfl,
   key_single main_v308 rfl rfl,
   key_single main_cst_48 rfl rfl,
   trivial⟩

theorem ops5_length : (ops5 : List (HloOp τ sig (Elt F))).length = 60 := rfl

end Cert.ReferenceIdeal.Hand

end
-- ==== Proof.RefOps6.lean ====
/- The reference network's host operations, window 6 of seven, as a list in program order (the operations of the
   variance helper and of the selection helper it calls written out at the place of the call, over the call's own
   buffers), with the three facts the run of a straight line asks of a list: the window's program text is the
   sequencing of the list, every operation touches only buffers of the core, every operation determines its result, and the operations write the table's buffers one after the other in order
   (the window's first at place 412). -/
import proofs.«162580_j71794673320191_1_alg».proof.Proof.Gen.ReferenceIdeal
import Idealize.ShloMosaic.Lib.StableHlo.Run
import proofs.«162580_j71794673320191_1_alg».proof.Proof.RefFold

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 6's 71 operations, in order. -/
abbrev ops6 : List (HloOp τ sig (Elt F)) :=
  [ StableHlo.unary main_cst_48 main_v309 (broadcastInDim S50000x256 ![] bcast_S_S50000x256 : (⟨S_, .f32⟩ : BufTy).Contents (Elt F) → (⟨S50000x256, .f32⟩ : BufTy).Contents (Elt F)),
    StableHlo.unary main_v3 main_v310 (broadcastInDim S300000x1 ![0] bcast_S300000_S300000x1_0 : (⟨S300000, .i32⟩ : BufTy).Contents (Elt F) → (⟨S300000x1, .i32⟩ : BufTy).Contents (Elt F)),
    StableHlo.ternary main_v309 main_v310 main_v308 main_v311 ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)),
    StableHlo.binary main_v301 main_v311 main_v312 (addf : (⟨S50000x256, .f32⟩ : BufTy).Contents (Elt F) → (⟨S50000x256, .f32⟩ : BufTy).Contents (Elt F) → (⟨S50000x256, .f32⟩ : BufTy).Contents (Elt F)),
    StableHlo.unary main_arg4 main_v313 ((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F)),
    StableHlo.reshape main_v313 main_v314 rfl shapeCasts_S1x1x256x256_S256x256,
    StableHlo.binary main_v312 main_v314 main_v315 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v316 ((extractStridedSlice S1x1x256 ![2, 2, 0] · slices_S3x3x256_S1x1x256_2_2_0) : (⟨S3x3x256, .f32⟩ : BufTy).Contents (Elt F) → (⟨S1x1x256, .f32⟩ : BufTy).Contents (Elt F)),
    StableHlo.reshape main_v316 main_v317 rfl shapeCasts_S1x1x256_S256,
    StableHlo.unary main_v317 main_v318 (broadcastInDim S1x256 ![1] bcast_S256_S1x256_1 : (⟨S256, .f32⟩ : BufTy).Contents (Elt F) → (⟨S1x256, .f32⟩ : BufTy).Contents (Elt F)),
    StableHlo.unary main_v318 main_v319 (broadcastInDim S50000x256 ![0, 1] bcast_S1x256_S50000x256_0_1 : (⟨S1x256, .f32⟩ : BufTy).Contents (Elt F) → (⟨S50000x256, .f32⟩ : BufTy).Contents (Elt F)),
    StableHlo.binary main_v315 main_v319 main_v320 (addf : (⟨S50000x256, .f32⟩ : BufTy).Contents (Elt F) → (⟨S50000x256, .f32⟩ : BufTy).Contents (Elt F) → (⟨S50000x256, .f32⟩ : BufTy).Contents (Elt F)),
    StableHlo.nullary main_cst_49 (constant S_ .f32 0x00000000#32),
    StableHlo.unary main_cst_49 main_v321 (broadcastInDim S50000x256 ![] bcast_S_S50000x256 : (⟨S_, .f32⟩ : BufTy).Contents (Elt F) → (⟨S50000x256, .f32⟩ : BufTy).Contents (Elt F)),
    StableHlo.binary main_v320 main_v321 main_v322 (maximumf : (⟨S50000x256, .f32⟩ : BufTy).Contents (Elt F) → (⟨S50000x256, .f32⟩ : BufTy).Contents (Elt F) → (⟨S50000x256, .f32⟩ : BufTy).Contents (Elt F)),
    StableHlo.unary main_arg6 main_v323 ((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F)),
    StableHlo.reshape main_v323 main_v324 rfl shapeCasts_S1x1x256x256_S256x256,
    StableHlo.binary main_v322 main_v324 main_v325 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v326 ((extractStridedSlice S1x1x256 ![2, 2, 0] · slices_S3x3x256_S1x1x256_2_2_0) : (⟨S3x3x256, .f32⟩ : BufTy).Contents (Elt F) → (⟨S1x1x256, .f32⟩ : BufTy).Contents (Elt F)),
    StableHlo.reshape main_v326 main_v327 rfl shapeCasts_S1x1x256_S256,
    StableHlo.unary main_v327 main_v328 (broadcastInDim S1x256 ![1] bcast_S256_S1x256_1 : (⟨S256, .f32⟩ : BufTy).Contents (Elt F) → (⟨S1x256, .f32⟩ : BufTy).Contents (Elt F)),
    StableHlo.unary main_v328 main_v329 (broadcastInDim S50000x256 ![0, 1] bcast_S1x256_S50000x256_0_1 : (⟨S1x256, .f32⟩ : BufTy).Contents (Elt F) → (⟨S50000x256, .f32⟩ : BufTy).Contents (Elt F)),
    StableHlo.binary main_v325 main_v329 main_v330 (addf : (⟨S50000x256, .f32⟩ : BufTy).Contents (Elt F) → (⟨S50000x256, .f32⟩ : BufTy).Contents (Elt F) → (⟨S50000x256, .f32⟩ : BufTy).Contents (Elt F)),
    StableHlo.nullary main_cst_50 (constant S_ .f32 0x00000000#32),
    StableHlo.binary main_v330 main_cst_50 main_v331 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_51 (constant S_ .f32 0x47435000#32),
    StableHlo.unary main_cst_51 main_v332 (broadcastInDim S256 ![] bcast_S_S256 : (⟨S_, .f32⟩ : BufTy).Contents (Elt F) → (⟨S256, .f32⟩ : BufTy).Contents (Elt F)),
    StableHlo.binary main_v331 main_v332 main_v333 (Host.divf : (⟨S256, .f32⟩ : BufTy).Contents (Elt F) → (⟨S256, .f32⟩ : BufTy).Contents (Elt F) → (⟨S256, .f32⟩ : BufTy).Contents (Elt F)),
    StableHlo.nullary main_c_52 (constantI S_ 32 0#32),
    StableHlo.TRef.nullary main_call2.cst (constant S_ .f32 0x00000000#32),
    StableHlo.TRef.binary (.of main_v330 : TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v330 : TRef sig ⟨S50000x256, .f32⟩) main_call2.v4 main_call2.v5 subf,
    StableHlo.TRef.binary main_call2.v5 main_call2.v5 main_call2.v6 mulf,
    StableHlo.TRef.unary (.of main_c_52 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v333 main_v335 (broadcastInDim S1x256 ![1] bcast_S256_S1x256_1 : (⟨S256, .f32⟩ : BufTy).Contents (Elt F) → (⟨S1x256, .f32⟩ : BufTy).Contents (Elt F)),
    StableHlo.unary main_v335 main_v336 (broadcastInDim S50000x256 ![0, 1] bcast_S1x256_S50000x256_0_1 : (⟨S1x256, .f32⟩ : BufTy).Contents (Elt F) → (⟨S50000x256, .f32⟩ : BufTy).Contents (Elt F)),
    StableHlo.binary main_v330 main_v336 main_v337 (subf : (⟨S50000x256, .f32⟩ : BufTy).Contents (Elt F) → (⟨S50000x256, .f32⟩ : BufTy).Contents (Elt F) → (⟨S50000x256, .f32⟩ : BufTy).Contents (Elt F)),
    StableHlo.nullary main_cst_53 (constant S_ .f32 0x3727C5AC#32),
    StableHlo.unary main_cst_53 main_v338 (broadcastInDim S256 ![] bcast_S_S256 : (⟨S_, .f32⟩ : BufTy).Contents (Elt F) → (⟨S256, .f32⟩ : BufTy).Contents (Elt F)),
    StableHlo.binary main_v334 main_v338 main_v339 (addf : (⟨S256, .f32⟩ : BufTy).Contents (Elt F) → (⟨S256, .f32⟩ : BufTy).Contents (Elt F) → (⟨S256, .f32⟩ : BufTy).Contents (Elt F)),
    StableHlo.unary main_v339 main_v340 (Host.rsqrt : (⟨S256, .f32⟩ : BufTy).Contents (Elt F) → (⟨S256, .f32⟩ : BufTy).Contents (Elt F)),
    StableHlo.unary main_v340 main_v341 (broadcastInDim S1x256 ![1] bcast_S256_S1x256_1 : (⟨S256, .f32⟩ : BufTy).Contents (Elt F) → (⟨S1x256, .f32⟩ : BufTy).Contents (Elt F)),
    StableHlo.unary main_v341 main_v342 (broadcastInDim S50000x256 ![0, 1] bcast_S1x256_S50000x256_0_1 : (⟨S1x256, .f32⟩ : BufTy).Contents (Elt F) → (⟨S50000x256, .f32⟩ : BufTy).Contents (Elt F)),
    StableHlo.binary main_v337 main_v342 main_v343 (mulf : (⟨S50000x256, .f32⟩ : BufTy).Contents (Elt F) → (⟨S50000x256, .f32⟩ : BufTy).Contents (Elt F) → (⟨S50000x256, .f32⟩ : BufTy).Contents (Elt F)),
    StableHlo.unary main_arg8 main_v344 ((extractStridedSlice S1x256 ![2, 0] · slices_S3x256_S1x256_2_0) : (⟨S3x256, .f32⟩ : BufTy).Contents (Elt F) → (⟨S1x256, .f32⟩ : BufTy).Contents (Elt F)),
    StableHlo.reshape main_v344 main_v345 rfl shapeCasts_S1x256_S256,
    StableHlo.unary main_v345 main_v346 (broadcastInDim S1x256 ![1] bcast_S256_S1x256_1 : (⟨S256, .f32⟩ : BufTy).Contents (Elt F) → (⟨S1x256, .f32⟩ : BufTy).Contents (Elt F)),
    StableHlo.unary main_v346 main_v347 (broadcastInDim S50000x256 ![0, 1] bcast_S1x256_S50000x256_0_1 : (⟨S1x256, .f32⟩ : BufTy).Contents (Elt F) → (⟨S50000x256, .f32⟩ : BufTy).Contents (Elt F)),
    StableHlo.binary main_v343 main_v347 main_v348 (mulf : (⟨S50000x256, .f32⟩ : BufTy).Contents (Elt F) → (⟨S50000x256, .f32⟩ : BufTy).Contents (Elt F) → (⟨S50000x256, .f32⟩ : BufTy).Contents (Elt F)),
    StableHlo.unary main_arg9 main_v349 ((extractStridedSlice S1x256 ![2, 0] · slices_S3x256_S1x256_2_0) : (⟨S3x256, .f32⟩ : BufTy).Contents (Elt F) → (⟨S1x256, .f32⟩ : BufTy).Contents (Elt F)),
    StableHlo.reshape main_v349 main_v350 rfl shapeCasts_S1x256_S256,
    StableHlo.unary main_v350 main_v351 (broadcastInDim S1x256 ![1] bcast_S256_S1x256_1 : (⟨S256, .f32⟩ : BufTy).Contents (Elt F) → (⟨S1x256, .f32⟩ : BufTy).Contents (Elt F)),
    StableHlo.unary main_v351 main_v352 (broadcastInDim S50000x256 ![0, 1] bcast_S1x256_S50000x256_0_1 : (⟨S1x256, .f32⟩ : BufTy).Contents (Elt F) → (⟨S50000x256, .f32⟩ : BufTy).Contents (Elt F)),
    StableHlo.binary main_v348 main_v352 main_v353 (addf : (⟨S50000x256, .f32⟩ : BufTy).Contents (Elt F) → (⟨S50000x256, .f32⟩ : BufTy).Contents (Elt F) → (⟨S50000x256, .f32⟩ : BufTy).Contents (Elt F)) ]

set_option maxRecDepth 4096 in
/-- The window's text is the list run in order: the helper functions' definitions opened at the call, the sequencing reassociated. -/
theorem part6_eq (c : Dev nD) : main_part6 (F := F) c = seq ops6 := by
  simp only [main_part6, fn_var.body, fn_where.body, seq, bind_assoc, pure_bind] <;> rfl

theorem ops6_sub : (ops6 : List (HloOp τ sig (Elt F))).Forall fun op => op.bufs ⊆ tcRefs τ sig :=
  ⟨unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The window writes the buffers at places 412 … 482, one per operation, in order. -/
theorem ops6_chain : KeyChain 412 (ops6 : List (HloOp τ sig (Elt F))) :=
  ⟨key_single main_v309 rfl rfl,
   key_single main_v310 rfl rfl,
   key_single main_v311 rfl rfl,
   key_single main_v312 rfl rfl,
   key_single main_v313 rfl rfl,
   key_single main_v314 rfl rfl,
   key_single main_v315 rfl rfl,
   key_single main_v316 rfl rfl,
   key_single main_v317 rfl rfl,
   key_single main_v318 rfl rfl,
   key_single main_v319 rfl rfl,
   key_single main_v320 rfl rfl,
   key_single main_cst_49 rfl rfl,
   key_single main_v321 rfl rfl,
   key_single main_v322 rfl rfl,
   key_single main_v323 rfl rfl,
   key_single main_v324 rfl rfl,
   key_single main_v325 rfl rfl,
   key_single main_v326 rfl rfl,
   key_single main_v327 rfl rfl,
   key_single main_v328 rfl rfl,
   key_single main_v329 rfl rfl,
   key_single main_v330 rfl rfl,
   key_single main_cst_50 rfl rfl,
   key_single main_v331 rfl rfl,
   key_single main_cst_51 rfl rfl,
   key_single main_v332 rfl rfl,
   key_single main_v333 rfl rfl,
   key_single main_c_52 rfl rfl,
   key_single main_call2_cst rfl rfl,
   key_single main_call2_v0 rfl rfl,
   key_single main_call2_v1 rfl rfl,
   key_single main_call2_cst_0 rfl rfl,
   key_single main_call2_v2 rfl rfl,
   key_single main_call2_v3 rfl rfl,
   key_single main_call2_v4 rfl rfl,
   key_single main_call2_v5 rfl rfl,
   key_single main_call2_v6 rfl rfl,
   key_single main_call2_v7 rfl rfl,
   key_single main_call2_cst_1 rfl rfl,
   key_single main_call2_v8 rfl rfl,
   key_single main_call2_cst_2 rfl rfl,
   key_single main_call2_v9 rfl rfl,
   key_single main_call2_v10 rfl rfl,
   key_single main_call2_v11 rfl rfl,
   key_single main_call2_cst_3 rfl rfl,
   key_single main_call2_v12 rfl rfl,
   key_single main_call2_cst_4 rfl rfl,
   key_single main_call2_call0_v0 rfl rfl,
   key_single main_call2_call0_v1 rfl rfl,
   key_single main_v334 rfl rfl,
   key_single main_v335 rfl rfl,
   key_single main_v336 rfl rfl,
   key_single main_v337 rfl rfl,
   key_single main_cst_53 rfl rfl,
   key_single main_v338 rfl rfl,
   key_single main_v339 rfl rfl,
   key_single main_v340 rfl rfl,
   key_single main_v341 rfl rfl,
   key_single main_v342 rfl rfl,
   key_single main_v343 rfl rfl,
   key_single main_v344 rfl rfl,
   key_single main_v345 rfl rfl,
   key_single main_v346 rfl rfl,
   key_single main_v347 rfl rfl,
   key_single main_v348 rfl rfl,
   key_single main_v349 rfl rfl,
   key_single main_v350 rfl rfl,
   key_single main_v351 rfl rfl,
   key_single main_v352 rfl rfl,
   key_single main_v353 rfl rfl,
   trivial⟩

theorem ops6_length : (ops6 : List (HloOp τ sig (Elt F))).length = 71 := rfl

end Cert.ReferenceIdeal.Hand

end
-- ==== Proof.RefRun.lean ====
/- The run of the reference network. Its program text is seven windows of host operations run one after the other; each
   window is the sequencing of its list of operations, so the whole program is the sequencing of the concatenation of the
   seven lists. A straight line of host operations, from any memory with all counters at zero, terminates on every
   weakly fair execution with every buffer of the core holding the fold of the operations over the launch contents.
   The operations write the table's buffers at places 10, 11, …, 482 in order, one each, so the ten argument arrays
   (places 0 … 9) are never written and end as launched. -/
import proofs.«162580_j71794673320191_1_alg».proof.Proof.RefOps0
import proofs.«162580_j71794673320191_1_alg».proof.Proof.RefOps1
import proofs.«162580_j71794673320191_1_alg».proof.Proof.RefOps2
import proofs.«162580_j71794673320191_1_alg».proof.Proof.RefOps3
import proofs.«162580_j71794673320191_1_alg».proof.Proof.RefOps4
import proofs.«162580_j71794673320191_1_alg».proof.Proof.RefOps5
import proofs.«162580_j71794673320191_1_alg».proof.Proof.RefOps6

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- All 473 host operations of the reference, in program order: the seven windows' lists one after the other. -/
abbrev ops : List (HloOp τ sig (Elt F)) := ops0 ++ (ops1 ++ (ops2 ++ (ops3 ++ (ops4 ++ (ops5 ++ ops6)))))

/-- The program is the list run in order: each window is its list run in order, and lists run one after the other are
    their concatenation run as one. -/
theorem main_eq (c : Dev nD) : main (F := F) c = seq ops := by
  simp only [main, ops, seq_append, part0_eq, part1_eq, part2_eq, part3_eq, part4_eq, part5_eq, part6_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops0_sub <| forall_append ops1_sub <| forall_append ops2_sub <| forall_append ops3_sub <|
    forall_append ops4_sub <| forall_append ops5_sub ops6_sub

theorem ops_fresh : (ops : List (HloOp τ sig (Elt F))).Forall fun op => op.fresh = ∅ :=
  forall_append ops0_fresh <| forall_append ops1_fresh <| forall_append ops2_fresh <| forall_append ops3_fresh <|
    forall_append ops4_fresh <| forall_append ops5_fresh ops6_fresh

/-- The whole line writes the buffers at places 10 … 482, one per operation, in order. -/
theorem ops_chain : KeyChain 10 (ops : List (HloOp τ sig (Elt F))) := by
  refine KeyChain.append ops0_chain ?_; rw [ops0_length]
  refine KeyChain.append ops1_chain ?_; rw [ops1_length]
  refine KeyChain.append ops2_chain ?_; rw [ops2_length]
  refine KeyChain.append ops3_chain ?_; rw [ops3_length]
  refine KeyChain.append ops4_chain ?_; rw [ops4_length]
  refine KeyChain.append ops5_chain ?_; rw [ops5_length]
  exact ops6_chain

theorem ops_length : (ops : List (HloOp τ sig (Elt F))).length = 473 := by
  simp only [ops, List.length_append, ops0_length, ops1_length, ops2_length, ops3_length, ops4_length, ops5_length, ops6_length]

/-- On every device, from any memory with zero counters: every weakly fair execution of the reference terminates, and
    every buffer of the core ends at the fold of the 473 operations over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (fun b => m (c, b)) (Proc.devRef .tc b) :=
  run_seq scopedRefs_eq scopedSems_eq defs main (fun _ => ops) main_eq (fun _ => ops_sub) m ρ
    (fun _ => List.forall_iff_forall_mem.1 ops_fresh)

/-- An argument array (a buffer at a place below 10) holds after the line what it held before. -/
theorem keep (V : Valuation τ sig (Elt F)) (r : Ref sig .tc) (hr : key (Proc.devRef (τ := τ) .tc r) < 10) :
    after ops V (Proc.devRef .tc r) = V (Proc.devRef .tc r) :=
  after_below ops V _ ops_chain hr

/-- The run with the result array stated as the fold at its buffer and the ten argument arrays as launched. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v353) = after ops (fun b => m (c, b)) (Proc.devRef .tc main_v353)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v353,
      (h c main_arg0).trans (keep _ main_arg0 (by decide)), (h c main_arg1).trans (keep _ main_arg1 (by decide)),
      (h c main_arg2).trans (keep _ main_arg2 (by decide)), (h c main_arg3).trans (keep _ main_arg3 (by decide)),
      (h c main_arg4).trans (keep _ main_arg4 (by decide)), (h c main_arg5).trans (keep _ main_arg5 (by decide)),
      (h c main_arg6).trans (keep _ main_arg6 (by decide)), (h c main_arg7).trans (keep _ main_arg7 (by decide)),
      (h c main_arg8).trans (keep _ main_arg8 (by decide)), (h c main_arg9).trans (keep _ main_arg9 (by decide))⟩)
    (run_fold m ρ)

end Cert.ReferenceIdeal.Hand

end
-- ==== Proof.RefFrame.lean ====
/- The reference network runs to its end and leaves its ten argument arrays as launched: the run of its straight line
   of host operations, which writes none of them. -/
import proofs.«162580_j71794673320191_1_alg».proof.Defs
import proofs.«162580_j71794673320191_1_alg».proof.Proof.RefRun

noncomputable section

namespace Cert.ReferenceIdeal.Hand

open Idealize.ShloMosaic Idealize.SL.Sem

/-- The reference runs and its argument arrays end unchanged (any memory; the precondition is not needed). -/
theorem frame [hReferenceIdeal : Cert.ReferenceIdeal.Facts] [hPre_finite_inputs : Cert.Pre_finite_inputs.Facts] :
    Cert.frame_ReferenceIdeal := fun m ρ _ =>
  (θ_run (Cert.ReferenceIdeal.defs (F := Ideal)) _ _).mono (fun _ h c => (h c).2) (run (F := Ideal) m ρ)

end Cert.ReferenceIdeal.Hand

end
-- ==== Proof.KPersist.lean ====
/-
  A buffer keeps its contents from the boundary where it was written to the boundaries where it is read: no later host stretch writes it, and a region only reads it.
-/
import proofs.«162580_j71794673320191_1_alg».proof.Proof.Bounds

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem ps_src0 (c : Dev nD) : W2 m ρ c (Proc.devRef .tc main_v1) = W1 m ρ c (Proc.devRef .tc main_v1) :=
  (W2_of_ne m ρ c main_v1 (by decide))
theorem ps_dst0 (c : Dev nD) : W2 m ρ c (Proc.devRef .tc main_v3) = W1 m ρ c (Proc.devRef .tc main_v3) :=
  (W2_of_ne m ρ c main_v3 (by decide))
theorem ps_arg4_0 (c : Dev nD) : W2 m ρ c (Proc.devRef .tc main_arg4) = m ((c : Thread nD τ).loc main_arg4) :=
  ((W2_of_ne m ρ c main_arg4 (by decide)).trans <|
    (W1_of m ρ c main_arg4 (by decide))).trans rfl
theorem ps_arg5_0 (c : Dev nD) : W2 m ρ c (Proc.devRef .tc main_arg5) = m ((c : Thread nD τ).loc main_arg5) :=
  ((W2_of_ne m ρ c main_arg5 (by decide)).trans <|
    (W1_of m ρ c main_arg5 (by decide))).trans rfl
theorem ps_arg6_0 (c : Dev nD) : W2 m ρ c (Proc.devRef .tc main_arg6) = m ((c : Thread nD τ).loc main_arg6) :=
  ((W2_of_ne m ρ c main_arg6 (by decide)).trans <|
    (W1_of m ρ c main_arg6 (by decide))).trans rfl
theorem ps_arg7_0 (c : Dev nD) : W2 m ρ c (Proc.devRef .tc main_arg7) = m ((c : Thread nD τ).loc main_arg7) :=
  ((W2_of_ne m ρ c main_arg7 (by decide)).trans <|
    (W1_of m ρ c main_arg7 (by decide))).trans rfl
theorem ps_g0 (c : Dev nD) : W3 m ρ c (Proc.devRef .tc main_v5) = W2 m ρ c (Proc.devRef .tc main_v5) :=
  (W3_of m ρ c main_v5 (by decide))
theorem ps_src1 (c : Dev nD) : W4 m ρ c (Proc.devRef .tc main_v1) = W1 m ρ c (Proc.devRef .tc main_v1) :=
  (W4_of_ne m ρ c main_v1 (by decide)).trans <|
    (W3_of m ρ c main_v1 (by decide)).trans <|
    (W2_of_ne m ρ c main_v1 (by decide))
theorem ps_dst1 (c : Dev nD) : W4 m ρ c (Proc.devRef .tc main_v3) = W1 m ρ c (Proc.devRef .tc main_v3) :=
  (W4_of_ne m ρ c main_v3 (by decide)).trans <|
    (W3_of m ρ c main_v3 (by decide)).trans <|
    (W2_of_ne m ρ c main_v3 (by decide))
theorem ps_arg4_1 (c : Dev nD) : W4 m ρ c (Proc.devRef .tc main_arg4) = m ((c : Thread nD τ).loc main_arg4) :=
  ((W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_1 (c : Dev nD) : W4 m ρ c (Proc.devRef .tc main_arg5) = m ((c : Thread nD τ).loc main_arg5) :=
  ((W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_1 (c : Dev nD) : W4 m ρ c (Proc.devRef .tc main_arg6) = m ((c : Thread nD τ).loc main_arg6) :=
  ((W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_1 (c : Dev nD) : W4 m ρ c (Proc.devRef .tc main_arg7) = m ((c : Thread nD τ).loc main_arg7) :=
  ((W4_of_ne m ρ c main_arg7 (by decide)).trans <|
    (W3_of m ρ c main_arg7 (by decide)).trans <|
    (W2_of_ne m ρ c main_arg7 (by decide)).trans <|
    (W1_of m ρ c main_arg7 (by decide))).trans rfl
theorem ps_g1 (c : Dev nD) : W5 m ρ c (Proc.devRef .tc main_v26) = W4 m ρ c (Proc.devRef .tc main_v26) :=
  (W5_of m ρ c main_v26 (by decide))
theorem ps_src2 (c : Dev nD) : W6 m ρ c (Proc.devRef .tc main_v1) = W1 m ρ c (Proc.devRef .tc main_v1) :=
  (W6_of_ne m ρ c main_v1 (by decide)).trans <|
    (W5_of m ρ c main_v1 (by decide)).trans <|
    (W4_of_ne m ρ c main_v1 (by decide)).trans <|
    (W3_of m ρ c main_v1 (by decide)).trans <|
    (W2_of_ne m ρ c main_v1 (by decide))
theorem ps_dst2 (c : Dev nD) : W6 m ρ c (Proc.devRef .tc main_v3) = W1 m ρ c (Proc.devRef .tc main_v3) :=
  (W6_of_ne m ρ c main_v3 (by decide)).trans <|
    (W5_of m ρ c main_v3 (by decide)).trans <|
    (W4_of_ne m ρ c main_v3 (by decide)).trans <|
    (W3_of m ρ c main_v3 (by decide)).trans <|
    (W2_of_ne m ρ c main_v3 (by decide))
theorem ps_arg4_2 (c : Dev nD) : W6 m ρ c (Proc.devRef .tc main_arg4) = m ((c : Thread nD τ).loc main_arg4) :=
  ((W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_2 (c : Dev nD) : W6 m ρ c (Proc.devRef .tc main_arg5) = m ((c : Thread nD τ).loc main_arg5) :=
  ((W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_2 (c : Dev nD) : W6 m ρ c (Proc.devRef .tc main_arg6) = m ((c : Thread nD τ).loc main_arg6) :=
  ((W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_2 (c : Dev nD) : W6 m ρ c (Proc.devRef .tc main_arg7) = m ((c : Thread nD τ).loc main_arg7) :=
  ((W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <|
    (W1_of m ρ c main_arg7 (by decide))).trans rfl
theorem ps_g2 (c : Dev nD) : W7 m ρ c (Proc.devRef .tc main_v47) = W6 m ρ c (Proc.devRef .tc main_v47) :=
  (W7_of m ρ c main_v47 (by decide))
theorem ps_src3 (c : Dev nD) : W11 m ρ c (Proc.devRef .tc main_v1) = W1 m ρ c (Proc.devRef .tc main_v1) :=
  (W11_of_ne m ρ c main_v1 (by decide)).trans <|
    (W10_of m ρ c main_v1 (by decide)).trans <|
    (W9_of_ne m ρ c main_v1 (by decide)).trans <|
    (W8_of_ne m ρ c main_v1 (by decide)).trans <|
    (W7_of m ρ c main_v1 (by decide)).trans <|
    (W6_of_ne m ρ c main_v1 (by decide)).trans <|
    (W5_of m ρ c main_v1 (by decide)).trans <|
    (W4_of_ne m ρ c main_v1 (by decide)).trans <|
    (W3_of m ρ c main_v1 (by decide)).trans <|
    (W2_of_ne m ρ c main_v1 (by decide))
theorem ps_dst3 (c : Dev nD) : W11 m ρ c (Proc.devRef .tc main_v3) = W1 m ρ c (Proc.devRef .tc main_v3) :=
  (W11_of_ne m ρ c main_v3 (by decide)).trans <|
    (W10_of m ρ c main_v3 (by decide)).trans <|
    (W9_of_ne m ρ c main_v3 (by decide)).trans <|
    (W8_of_ne m ρ c main_v3 (by decide)).trans <|
    (W7_of m ρ c main_v3 (by decide)).trans <|
    (W6_of_ne m ρ c main_v3 (by decide)).trans <|
    (W5_of m ρ c main_v3 (by decide)).trans <|
    (W4_of_ne m ρ c main_v3 (by decide)).trans <|
    (W3_of m ρ c main_v3 (by decide)).trans <|
    (W2_of_ne m ρ c main_v3 (by decide))
theorem ps_arg4_3 (c : Dev nD) : W11 m ρ c (Proc.devRef .tc main_arg4) = m ((c : Thread nD τ).loc main_arg4) :=
  ((W11_of_ne m ρ c main_arg4 (by decide)).trans <|
    (W10_of m ρ c main_arg4 (by decide)).trans <|
    (W9_of_ne m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_3 (c : Dev nD) : W11 m ρ c (Proc.devRef .tc main_arg5) = m ((c : Thread nD τ).loc main_arg5) :=
  ((W11_of_ne m ρ c main_arg5 (by decide)).trans <|
    (W10_of m ρ c main_arg5 (by decide)).trans <|
    (W9_of_ne m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_3 (c : Dev nD) : W11 m ρ c (Proc.devRef .tc main_arg6) = m ((c : Thread nD τ).loc main_arg6) :=
  ((W11_of_ne m ρ c main_arg6 (by decide)).trans <|
    (W10_of m ρ c main_arg6 (by decide)).trans <|
    (W9_of_ne m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_3 (c : Dev nD) : W11 m ρ c (Proc.devRef .tc main_arg7) = m ((c : Thread nD τ).loc main_arg7) :=
  ((W11_of_ne m ρ c main_arg7 (by decide)).trans <|
    (W10_of m ρ c main_arg7 (by decide)).trans <|
    (W9_of_ne m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <|
    (W1_of m ρ c main_arg7 (by decide))).trans rfl
theorem ps_g3 (c : Dev nD) : W12 m ρ c (Proc.devRef .tc main_v85) = W11 m ρ c (Proc.devRef .tc main_v85) :=
  (W12_of m ρ c main_v85 (by decide))
theorem ps_src4 (c : Dev nD) : W13 m ρ c (Proc.devRef .tc main_v1) = W1 m ρ c (Proc.devRef .tc main_v1) :=
  (W13_of_ne m ρ c main_v1 (by decide)).trans <|
    (W12_of m ρ c main_v1 (by decide)).trans <|
    (W11_of_ne m ρ c main_v1 (by decide)).trans <|
    (W10_of m ρ c main_v1 (by decide)).trans <|
    (W9_of_ne m ρ c main_v1 (by decide)).trans <|
    (W8_of_ne m ρ c main_v1 (by decide)).trans <|
    (W7_of m ρ c main_v1 (by decide)).trans <|
    (W6_of_ne m ρ c main_v1 (by decide)).trans <|
    (W5_of m ρ c main_v1 (by decide)).trans <|
    (W4_of_ne m ρ c main_v1 (by decide)).trans <|
    (W3_of m ρ c main_v1 (by decide)).trans <|
    (W2_of_ne m ρ c main_v1 (by decide))
theorem ps_dst4 (c : Dev nD) : W13 m ρ c (Proc.devRef .tc main_v3) = W1 m ρ c (Proc.devRef .tc main_v3) :=
  (W13_of_ne m ρ c main_v3 (by decide)).trans <|
    (W12_of m ρ c main_v3 (by decide)).trans <|
    (W11_of_ne m ρ c main_v3 (by decide)).trans <|
    (W10_of m ρ c main_v3 (by decide)).trans <|
    (W9_of_ne m ρ c main_v3 (by decide)).trans <|
    (W8_of_ne m ρ c main_v3 (by decide)).trans <|
    (W7_of m ρ c main_v3 (by decide)).trans <|
    (W6_of_ne m ρ c main_v3 (by decide)).trans <|
    (W5_of m ρ c main_v3 (by decide)).trans <|
    (W4_of_ne m ρ c main_v3 (by decide)).trans <|
    (W3_of m ρ c main_v3 (by decide)).trans <|
    (W2_of_ne m ρ c main_v3 (by decide))
theorem ps_arg4_4 (c : Dev nD) : W13 m ρ c (Proc.devRef .tc main_arg4) = m ((c : Thread nD τ).loc main_arg4) :=
  ((W13_of_ne m ρ c main_arg4 (by decide)).trans <|
    (W12_of m ρ c main_arg4 (by decide)).trans <|
    (W11_of_ne m ρ c main_arg4 (by decide)).trans <|
    (W10_of m ρ c main_arg4 (by decide)).trans <|
    (W9_of_ne m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_4 (c : Dev nD) : W13 m ρ c (Proc.devRef .tc main_arg5) = m ((c : Thread nD τ).loc main_arg5) :=
  ((W13_of_ne m ρ c main_arg5 (by decide)).trans <|
    (W12_of m ρ c main_arg5 (by decide)).trans <|
    (W11_of_ne m ρ c main_arg5 (by decide)).trans <|
    (W10_of m ρ c main_arg5 (by decide)).trans <|
    (W9_of_ne m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_4 (c : Dev nD) : W13 m ρ c (Proc.devRef .tc main_arg6) = m ((c : Thread nD τ).loc main_arg6) :=
  ((W13_of_ne m ρ c main_arg6 (by decide)).trans <|
    (W12_of m ρ c main_arg6 (by decide)).trans <|
    (W11_of_ne m ρ c main_arg6 (by decide)).trans <|
    (W10_of m ρ c main_arg6 (by decide)).trans <|
    (W9_of_ne m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_4 (c : Dev nD) : W13 m ρ c (Proc.devRef .tc main_arg7) = m ((c : Thread nD τ).loc main_arg7) :=
  ((W13_of_ne m ρ c main_arg7 (by decide)).trans <|
    (W12_of m ρ c main_arg7 (by decide)).trans <|
    (W11_of_ne m ρ c main_arg7 (by decide)).trans <|
    (W10_of m ρ c main_arg7 (by decide)).trans <|
    (W9_of_ne m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <|
    (W1_of m ρ c main_arg7 (by decide))).trans rfl
theorem ps_g4 (c : Dev nD) : W14 m ρ c (Proc.devRef .tc main_v106) = W13 m ρ c (Proc.devRef .tc main_v106) :=
  (W14_of m ρ c main_v106 (by decide))
theorem ps_src5 (c : Dev nD) : W15 m ρ c (Proc.devRef .tc main_v1) = W1 m ρ c (Proc.devRef .tc main_v1) :=
  (W15_of_ne m ρ c main_v1 (by decide)).trans <|
    (W14_of m ρ c main_v1 (by decide)).trans <|
    (W13_of_ne m ρ c main_v1 (by decide)).trans <|
    (W12_of m ρ c main_v1 (by decide)).trans <|
    (W11_of_ne m ρ c main_v1 (by decide)).trans <|
    (W10_of m ρ c main_v1 (by decide)).trans <|
    (W9_of_ne m ρ c main_v1 (by decide)).trans <|
    (W8_of_ne m ρ c main_v1 (by decide)).trans <|
    (W7_of m ρ c main_v1 (by decide)).trans <|
    (W6_of_ne m ρ c main_v1 (by decide)).trans <|
    (W5_of m ρ c main_v1 (by decide)).trans <|
    (W4_of_ne m ρ c main_v1 (by decide)).trans <|
    (W3_of m ρ c main_v1 (by decide)).trans <|
    (W2_of_ne m ρ c main_v1 (by decide))
theorem ps_dst5 (c : Dev nD) : W15 m ρ c (Proc.devRef .tc main_v3) = W1 m ρ c (Proc.devRef .tc main_v3) :=
  (W15_of_ne m ρ c main_v3 (by decide)).trans <|
    (W14_of m ρ c main_v3 (by decide)).trans <|
    (W13_of_ne m ρ c main_v3 (by decide)).trans <|
    (W12_of m ρ c main_v3 (by decide)).trans <|
    (W11_of_ne m ρ c main_v3 (by decide)).trans <|
    (W10_of m ρ c main_v3 (by decide)).trans <|
    (W9_of_ne m ρ c main_v3 (by decide)).trans <|
    (W8_of_ne m ρ c main_v3 (by decide)).trans <|
    (W7_of m ρ c main_v3 (by decide)).trans <|
    (W6_of_ne m ρ c main_v3 (by decide)).trans <|
    (W5_of m ρ c main_v3 (by decide)).trans <|
    (W4_of_ne m ρ c main_v3 (by decide)).trans <|
    (W3_of m ρ c main_v3 (by decide)).trans <|
    (W2_of_ne m ρ c main_v3 (by decide))
theorem ps_arg4_5 (c : Dev nD) : W15 m ρ c (Proc.devRef .tc main_arg4) = m ((c : Thread nD τ).loc main_arg4) :=
  ((W15_of_ne m ρ c main_arg4 (by decide)).trans <|
    (W14_of m ρ c main_arg4 (by decide)).trans <|
    (W13_of_ne m ρ c main_arg4 (by decide)).trans <|
    (W12_of m ρ c main_arg4 (by decide)).trans <|
    (W11_of_ne m ρ c main_arg4 (by decide)).trans <|
    (W10_of m ρ c main_arg4 (by decide)).trans <|
    (W9_of_ne m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_5 (c : Dev nD) : W15 m ρ c (Proc.devRef .tc main_arg5) = m ((c : Thread nD τ).loc main_arg5) :=
  ((W15_of_ne m ρ c main_arg5 (by decide)).trans <|
    (W14_of m ρ c main_arg5 (by decide)).trans <|
    (W13_of_ne m ρ c main_arg5 (by decide)).trans <|
    (W12_of m ρ c main_arg5 (by decide)).trans <|
    (W11_of_ne m ρ c main_arg5 (by decide)).trans <|
    (W10_of m ρ c main_arg5 (by decide)).trans <|
    (W9_of_ne m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_5 (c : Dev nD) : W15 m ρ c (Proc.devRef .tc main_arg6) = m ((c : Thread nD τ).loc main_arg6) :=
  ((W15_of_ne m ρ c main_arg6 (by decide)).trans <|
    (W14_of m ρ c main_arg6 (by decide)).trans <|
    (W13_of_ne m ρ c main_arg6 (by decide)).trans <|
    (W12_of m ρ c main_arg6 (by decide)).trans <|
    (W11_of_ne m ρ c main_arg6 (by decide)).trans <|
    (W10_of m ρ c main_arg6 (by decide)).trans <|
    (W9_of_ne m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_5 (c : Dev nD) : W15 m ρ c (Proc.devRef .tc main_arg7) = m ((c : Thread nD τ).loc main_arg7) :=
  ((W15_of_ne m ρ c main_arg7 (by decide)).trans <|
    (W14_of m ρ c main_arg7 (by decide)).trans <|
    (W13_of_ne m ρ c main_arg7 (by decide)).trans <|
    (W12_of m ρ c main_arg7 (by decide)).trans <|
    (W11_of_ne m ρ c main_arg7 (by decide)).trans <|
    (W10_of m ρ c main_arg7 (by decide)).trans <|
    (W9_of_ne m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <|
    (W1_of m ρ c main_arg7 (by decide))).trans rfl
theorem ps_g5 (c : Dev nD) : W16 m ρ c (Proc.devRef .tc main_v127) = W15 m ρ c (Proc.devRef .tc main_v127) :=
  (W16_of m ρ c main_v127 (by decide))
theorem ps_src6 (c : Dev nD) : W20 m ρ c (Proc.devRef .tc main_v1) = W1 m ρ c (Proc.devRef .tc main_v1) :=
  (W20_of_ne m ρ c main_v1 (by decide)).trans <|
    (W19_of m ρ c main_v1 (by decide)).trans <|
    (W18_of_ne m ρ c main_v1 (by decide)).trans <|
    (W17_of_ne m ρ c main_v1 (by decide)).trans <|
    (W16_of m ρ c main_v1 (by decide)).trans <|
    (W15_of_ne m ρ c main_v1 (by decide)).trans <|
    (W14_of m ρ c main_v1 (by decide)).trans <|
    (W13_of_ne m ρ c main_v1 (by decide)).trans <|
    (W12_of m ρ c main_v1 (by decide)).trans <|
    (W11_of_ne m ρ c main_v1 (by decide)).trans <|
    (W10_of m ρ c main_v1 (by decide)).trans <|
    (W9_of_ne m ρ c main_v1 (by decide)).trans <|
    (W8_of_ne m ρ c main_v1 (by decide)).trans <|
    (W7_of m ρ c main_v1 (by decide)).trans <|
    (W6_of_ne m ρ c main_v1 (by decide)).trans <|
    (W5_of m ρ c main_v1 (by decide)).trans <|
    (W4_of_ne m ρ c main_v1 (by decide)).trans <|
    (W3_of m ρ c main_v1 (by decide)).trans <|
    (W2_of_ne m ρ c main_v1 (by decide))
theorem ps_dst6 (c : Dev nD) : W20 m ρ c (Proc.devRef .tc main_v3) = W1 m ρ c (Proc.devRef .tc main_v3) :=
  (W20_of_ne m ρ c main_v3 (by decide)).trans <|
    (W19_of m ρ c main_v3 (by decide)).trans <|
    (W18_of_ne m ρ c main_v3 (by decide)).trans <|
    (W17_of_ne m ρ c main_v3 (by decide)).trans <|
    (W16_of m ρ c main_v3 (by decide)).trans <|
    (W15_of_ne m ρ c main_v3 (by decide)).trans <|
    (W14_of m ρ c main_v3 (by decide)).trans <|
    (W13_of_ne m ρ c main_v3 (by decide)).trans <|
    (W12_of m ρ c main_v3 (by decide)).trans <|
    (W11_of_ne m ρ c main_v3 (by decide)).trans <|
    (W10_of m ρ c main_v3 (by decide)).trans <|
    (W9_of_ne m ρ c main_v3 (by decide)).trans <|
    (W8_of_ne m ρ c main_v3 (by decide)).trans <|
    (W7_of m ρ c main_v3 (by decide)).trans <|
    (W6_of_ne m ρ c main_v3 (by decide)).trans <|
    (W5_of m ρ c main_v3 (by decide)).trans <|
    (W4_of_ne m ρ c main_v3 (by decide)).trans <|
    (W3_of m ρ c main_v3 (by decide)).trans <|
    (W2_of_ne m ρ c main_v3 (by decide))
theorem ps_arg4_6 (c : Dev nD) : W20 m ρ c (Proc.devRef .tc main_arg4) = m ((c : Thread nD τ).loc main_arg4) :=
  ((W20_of_ne m ρ c main_arg4 (by decide)).trans <|
    (W19_of m ρ c main_arg4 (by decide)).trans <|
    (W18_of_ne m ρ c main_arg4 (by decide)).trans <|
    (W17_of_ne m ρ c main_arg4 (by decide)).trans <|
    (W16_of m ρ c main_arg4 (by decide)).trans <|
    (W15_of_ne m ρ c main_arg4 (by decide)).trans <|
    (W14_of m ρ c main_arg4 (by decide)).trans <|
    (W13_of_ne m ρ c main_arg4 (by decide)).trans <|
    (W12_of m ρ c main_arg4 (by decide)).trans <|
    (W11_of_ne m ρ c main_arg4 (by decide)).trans <|
    (W10_of m ρ c main_arg4 (by decide)).trans <|
    (W9_of_ne m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_6 (c : Dev nD) : W20 m ρ c (Proc.devRef .tc main_arg5) = m ((c : Thread nD τ).loc main_arg5) :=
  ((W20_of_ne m ρ c main_arg5 (by decide)).trans <|
    (W19_of m ρ c main_arg5 (by decide)).trans <|
    (W18_of_ne m ρ c main_arg5 (by decide)).trans <|
    (W17_of_ne m ρ c main_arg5 (by decide)).trans <|
    (W16_of m ρ c main_arg5 (by decide)).trans <|
    (W15_of_ne m ρ c main_arg5 (by decide)).trans <|
    (W14_of m ρ c main_arg5 (by decide)).trans <|
    (W13_of_ne m ρ c main_arg5 (by decide)).trans <|
    (W12_of m ρ c main_arg5 (by decide)).trans <|
    (W11_of_ne m ρ c main_arg5 (by decide)).trans <|
    (W10_of m ρ c main_arg5 (by decide)).trans <|
    (W9_of_ne m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_6 (c : Dev nD) : W20 m ρ c (Proc.devRef .tc main_arg6) = m ((c : Thread nD τ).loc main_arg6) :=
  ((W20_of_ne m ρ c main_arg6 (by decide)).trans <|
    (W19_of m ρ c main_arg6 (by decide)).trans <|
    (W18_of_ne m ρ c main_arg6 (by decide)).trans <|
    (W17_of_ne m ρ c main_arg6 (by decide)).trans <|
    (W16_of m ρ c main_arg6 (by decide)).trans <|
    (W15_of_ne m ρ c main_arg6 (by decide)).trans <|
    (W14_of m ρ c main_arg6 (by decide)).trans <|
    (W13_of_ne m ρ c main_arg6 (by decide)).trans <|
    (W12_of m ρ c main_arg6 (by decide)).trans <|
    (W11_of_ne m ρ c main_arg6 (by decide)).trans <|
    (W10_of m ρ c main_arg6 (by decide)).trans <|
    (W9_of_ne m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_6 (c : Dev nD) : W20 m ρ c (Proc.devRef .tc main_arg7) = m ((c : Thread nD τ).loc main_arg7) :=
  ((W20_of_ne m ρ c main_arg7 (by decide)).trans <|
    (W19_of m ρ c main_arg7 (by decide)).trans <|
    (W18_of_ne m ρ c main_arg7 (by decide)).trans <|
    (W17_of_ne m ρ c main_arg7 (by decide)).trans <|
    (W16_of m ρ c main_arg7 (by decide)).trans <|
    (W15_of_ne m ρ c main_arg7 (by decide)).trans <|
    (W14_of m ρ c main_arg7 (by decide)).trans <|
    (W13_of_ne m ρ c main_arg7 (by decide)).trans <|
    (W12_of m ρ c main_arg7 (by decide)).trans <|
    (W11_of_ne m ρ c main_arg7 (by decide)).trans <|
    (W10_of m ρ c main_arg7 (by decide)).trans <|
    (W9_of_ne m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <|
    (W1_of m ρ c main_arg7 (by decide))).trans rfl
theorem ps_g6 (c : Dev nD) : W21 m ρ c (Proc.devRef .tc main_v165) = W20 m ρ c (Proc.devRef .tc main_v165) :=
  (W21_of m ρ c main_v165 (by decide))
theorem ps_src7 (c : Dev nD) : W22 m ρ c (Proc.devRef .tc main_v1) = W1 m ρ c (Proc.devRef .tc main_v1) :=
  (W22_of_ne m ρ c main_v1 (by decide)).trans <|
    (W21_of m ρ c main_v1 (by decide)).trans <|
    (W20_of_ne m ρ c main_v1 (by decide)).trans <|
    (W19_of m ρ c main_v1 (by decide)).trans <|
    (W18_of_ne m ρ c main_v1 (by decide)).trans <|
    (W17_of_ne m ρ c main_v1 (by decide)).trans <|
    (W16_of m ρ c main_v1 (by decide)).trans <|
    (W15_of_ne m ρ c main_v1 (by decide)).trans <|
    (W14_of m ρ c main_v1 (by decide)).trans <|
    (W13_of_ne m ρ c main_v1 (by decide)).trans <|
    (W12_of m ρ c main_v1 (by decide)).trans <|
    (W11_of_ne m ρ c main_v1 (by decide)).trans <|
    (W10_of m ρ c main_v1 (by decide)).trans <|
    (W9_of_ne m ρ c main_v1 (by decide)).trans <|
    (W8_of_ne m ρ c main_v1 (by decide)).trans <|
    (W7_of m ρ c main_v1 (by decide)).trans <|
    (W6_of_ne m ρ c main_v1 (by decide)).trans <|
    (W5_of m ρ c main_v1 (by decide)).trans <|
    (W4_of_ne m ρ c main_v1 (by decide)).trans <|
    (W3_of m ρ c main_v1 (by decide)).trans <|
    (W2_of_ne m ρ c main_v1 (by decide))
theorem ps_dst7 (c : Dev nD) : W22 m ρ c (Proc.devRef .tc main_v3) = W1 m ρ c (Proc.devRef .tc main_v3) :=
  (W22_of_ne m ρ c main_v3 (by decide)).trans <|
    (W21_of m ρ c main_v3 (by decide)).trans <|
    (W20_of_ne m ρ c main_v3 (by decide)).trans <|
    (W19_of m ρ c main_v3 (by decide)).trans <|
    (W18_of_ne m ρ c main_v3 (by decide)).trans <|
    (W17_of_ne m ρ c main_v3 (by decide)).trans <|
    (W16_of m ρ c main_v3 (by decide)).trans <|
    (W15_of_ne m ρ c main_v3 (by decide)).trans <|
    (W14_of m ρ c main_v3 (by decide)).trans <|
    (W13_of_ne m ρ c main_v3 (by decide)).trans <|
    (W12_of m ρ c main_v3 (by decide)).trans <|
    (W11_of_ne m ρ c main_v3 (by decide)).trans <|
    (W10_of m ρ c main_v3 (by decide)).trans <|
    (W9_of_ne m ρ c main_v3 (by decide)).trans <|
    (W8_of_ne m ρ c main_v3 (by decide)).trans <|
    (W7_of m ρ c main_v3 (by decide)).trans <|
    (W6_of_ne m ρ c main_v3 (by decide)).trans <|
    (W5_of m ρ c main_v3 (by decide)).trans <|
    (W4_of_ne m ρ c main_v3 (by decide)).trans <|
    (W3_of m ρ c main_v3 (by decide)).trans <|
    (W2_of_ne m ρ c main_v3 (by decide))
theorem ps_arg4_7 (c : Dev nD) : W22 m ρ c (Proc.devRef .tc main_arg4) = m ((c : Thread nD τ).loc main_arg4) :=
  ((W22_of_ne m ρ c main_arg4 (by decide)).trans <|
    (W21_of m ρ c main_arg4 (by decide)).trans <|
    (W20_of_ne m ρ c main_arg4 (by decide)).trans <|
    (W19_of m ρ c main_arg4 (by decide)).trans <|
    (W18_of_ne m ρ c main_arg4 (by decide)).trans <|
    (W17_of_ne m ρ c main_arg4 (by decide)).trans <|
    (W16_of m ρ c main_arg4 (by decide)).trans <|
    (W15_of_ne m ρ c main_arg4 (by decide)).trans <|
    (W14_of m ρ c main_arg4 (by decide)).trans <|
    (W13_of_ne m ρ c main_arg4 (by decide)).trans <|
    (W12_of m ρ c main_arg4 (by decide)).trans <|
    (W11_of_ne m ρ c main_arg4 (by decide)).trans <|
    (W10_of m ρ c main_arg4 (by decide)).trans <|
    (W9_of_ne m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_7 (c : Dev nD) : W22 m ρ c (Proc.devRef .tc main_arg5) = m ((c : Thread nD τ).loc main_arg5) :=
  ((W22_of_ne m ρ c main_arg5 (by decide)).trans <|
    (W21_of m ρ c main_arg5 (by decide)).trans <|
    (W20_of_ne m ρ c main_arg5 (by decide)).trans <|
    (W19_of m ρ c main_arg5 (by decide)).trans <|
    (W18_of_ne m ρ c main_arg5 (by decide)).trans <|
    (W17_of_ne m ρ c main_arg5 (by decide)).trans <|
    (W16_of m ρ c main_arg5 (by decide)).trans <|
    (W15_of_ne m ρ c main_arg5 (by decide)).trans <|
    (W14_of m ρ c main_arg5 (by decide)).trans <|
    (W13_of_ne m ρ c main_arg5 (by decide)).trans <|
    (W12_of m ρ c main_arg5 (by decide)).trans <|
    (W11_of_ne m ρ c main_arg5 (by decide)).trans <|
    (W10_of m ρ c main_arg5 (by decide)).trans <|
    (W9_of_ne m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_7 (c : Dev nD) : W22 m ρ c (Proc.devRef .tc main_arg6) = m ((c : Thread nD τ).loc main_arg6) :=
  ((W22_of_ne m ρ c main_arg6 (by decide)).trans <|
    (W21_of m ρ c main_arg6 (by decide)).trans <|
    (W20_of_ne m ρ c main_arg6 (by decide)).trans <|
    (W19_of m ρ c main_arg6 (by decide)).trans <|
    (W18_of_ne m ρ c main_arg6 (by decide)).trans <|
    (W17_of_ne m ρ c main_arg6 (by decide)).trans <|
    (W16_of m ρ c main_arg6 (by decide)).trans <|
    (W15_of_ne m ρ c main_arg6 (by decide)).trans <|
    (W14_of m ρ c main_arg6 (by decide)).trans <|
    (W13_of_ne m ρ c main_arg6 (by decide)).trans <|
    (W12_of m ρ c main_arg6 (by decide)).trans <|
    (W11_of_ne m ρ c main_arg6 (by decide)).trans <|
    (W10_of m ρ c main_arg6 (by decide)).trans <|
    (W9_of_ne m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_7 (c : Dev nD) : W22 m ρ c (Proc.devRef .tc main_arg7) = m ((c : Thread nD τ).loc main_arg7) :=
  ((W22_of_ne m ρ c main_arg7 (by decide)).trans <|
    (W21_of m ρ c main_arg7 (by decide)).trans <|
    (W20_of_ne m ρ c main_arg7 (by decide)).trans <|
    (W19_of m ρ c main_arg7 (by decide)).trans <|
    (W18_of_ne m ρ c main_arg7 (by decide)).trans <|
    (W17_of_ne m ρ c main_arg7 (by decide)).trans <|
    (W16_of m ρ c main_arg7 (by decide)).trans <|
    (W15_of_ne m ρ c main_arg7 (by decide)).trans <|
    (W14_of m ρ c main_arg7 (by decide)).trans <|
    (W13_of_ne m ρ c main_arg7 (by decide)).trans <|
    (W12_of m ρ c main_arg7 (by decide)).trans <|
    (W11_of_ne m ρ c main_arg7 (by decide)).trans <|
    (W10_of m ρ c main_arg7 (by decide)).trans <|
    (W9_of_ne m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <|
    (W1_of m ρ c main_arg7 (by decide))).trans rfl
theorem ps_g7 (c : Dev nD) : W23 m ρ c (Proc.devRef .tc main_v186) = W22 m ρ c (Proc.devRef .tc main_v186) :=
  (W23_of m ρ c main_v186 (by decide))
theorem ps_src8 (c : Dev nD) : W24 m ρ c (Proc.devRef .tc main_v1) = W1 m ρ c (Proc.devRef .tc main_v1) :=
  (W24_of_ne m ρ c main_v1 (by decide)).trans <|
    (W23_of m ρ c main_v1 (by decide)).trans <|
    (W22_of_ne m ρ c main_v1 (by decide)).trans <|
    (W21_of m ρ c main_v1 (by decide)).trans <|
    (W20_of_ne m ρ c main_v1 (by decide)).trans <|
    (W19_of m ρ c main_v1 (by decide)).trans <|
    (W18_of_ne m ρ c main_v1 (by decide)).trans <|
    (W17_of_ne m ρ c main_v1 (by decide)).trans <|
    (W16_of m ρ c main_v1 (by decide)).trans <|
    (W15_of_ne m ρ c main_v1 (by decide)).trans <|
    (W14_of m ρ c main_v1 (by decide)).trans <|
    (W13_of_ne m ρ c main_v1 (by decide)).trans <|
    (W12_of m ρ c main_v1 (by decide)).trans <|
    (W11_of_ne m ρ c main_v1 (by decide)).trans <|
    (W10_of m ρ c main_v1 (by decide)).trans <|
    (W9_of_ne m ρ c main_v1 (by decide)).trans <|
    (W8_of_ne m ρ c main_v1 (by decide)).trans <|
    (W7_of m ρ c main_v1 (by decide)).trans <|
    (W6_of_ne m ρ c main_v1 (by decide)).trans <|
    (W5_of m ρ c main_v1 (by decide)).trans <|
    (W4_of_ne m ρ c main_v1 (by decide)).trans <|
    (W3_of m ρ c main_v1 (by decide)).trans <|
    (W2_of_ne m ρ c main_v1 (by decide))
theorem ps_dst8 (c : Dev nD) : W24 m ρ c (Proc.devRef .tc main_v3) = W1 m ρ c (Proc.devRef .tc main_v3) :=
  (W24_of_ne m ρ c main_v3 (by decide)).trans <|
    (W23_of m ρ c main_v3 (by decide)).trans <|
    (W22_of_ne m ρ c main_v3 (by decide)).trans <|
    (W21_of m ρ c main_v3 (by decide)).trans <|
    (W20_of_ne m ρ c main_v3 (by decide)).trans <|
    (W19_of m ρ c main_v3 (by decide)).trans <|
    (W18_of_ne m ρ c main_v3 (by decide)).trans <|
    (W17_of_ne m ρ c main_v3 (by decide)).trans <|
    (W16_of m ρ c main_v3 (by decide)).trans <|
    (W15_of_ne m ρ c main_v3 (by decide)).trans <|
    (W14_of m ρ c main_v3 (by decide)).trans <|
    (W13_of_ne m ρ c main_v3 (by decide)).trans <|
    (W12_of m ρ c main_v3 (by decide)).trans <|
    (W11_of_ne m ρ c main_v3 (by decide)).trans <|
    (W10_of m ρ c main_v3 (by decide)).trans <|
    (W9_of_ne m ρ c main_v3 (by decide)).trans <|
    (W8_of_ne m ρ c main_v3 (by decide)).trans <|
    (W7_of m ρ c main_v3 (by decide)).trans <|
    (W6_of_ne m ρ c main_v3 (by decide)).trans <|
    (W5_of m ρ c main_v3 (by decide)).trans <|
    (W4_of_ne m ρ c main_v3 (by decide)).trans <|
    (W3_of m ρ c main_v3 (by decide)).trans <|
    (W2_of_ne m ρ c main_v3 (by decide))
theorem ps_arg4_8 (c : Dev nD) : W24 m ρ c (Proc.devRef .tc main_arg4) = m ((c : Thread nD τ).loc main_arg4) :=
  ((W24_of_ne m ρ c main_arg4 (by decide)).trans <|
    (W23_of m ρ c main_arg4 (by decide)).trans <|
    (W22_of_ne m ρ c main_arg4 (by decide)).trans <|
    (W21_of m ρ c main_arg4 (by decide)).trans <|
    (W20_of_ne m ρ c main_arg4 (by decide)).trans <|
    (W19_of m ρ c main_arg4 (by decide)).trans <|
    (W18_of_ne m ρ c main_arg4 (by decide)).trans <|
    (W17_of_ne m ρ c main_arg4 (by decide)).trans <|
    (W16_of m ρ c main_arg4 (by decide)).trans <|
    (W15_of_ne m ρ c main_arg4 (by decide)).trans <|
    (W14_of m ρ c main_arg4 (by decide)).trans <|
    (W13_of_ne m ρ c main_arg4 (by decide)).trans <|
    (W12_of m ρ c main_arg4 (by decide)).trans <|
    (W11_of_ne m ρ c main_arg4 (by decide)).trans <|
    (W10_of m ρ c main_arg4 (by decide)).trans <|
    (W9_of_ne m ρ c main_arg4 (by decide)).trans <|
    (W8_of_ne m ρ c main_arg4 (by decide)).trans <|
    (W7_of m ρ c main_arg4 (by decide)).trans <|
    (W6_of_ne m ρ c main_arg4 (by decide)).trans <|
    (W5_of m ρ c main_arg4 (by decide)).trans <|
    (W4_of_ne m ρ c main_arg4 (by decide)).trans <|
    (W3_of m ρ c main_arg4 (by decide)).trans <|
    (W2_of_ne m ρ c main_arg4 (by decide)).trans <|
    (W1_of m ρ c main_arg4 (by decide))).trans rfl
theorem ps_arg5_8 (c : Dev nD) : W24 m ρ c (Proc.devRef .tc main_arg5) = m ((c : Thread nD τ).loc main_arg5) :=
  ((W24_of_ne m ρ c main_arg5 (by decide)).trans <|
    (W23_of m ρ c main_arg5 (by decide)).trans <|
    (W22_of_ne m ρ c main_arg5 (by decide)).trans <|
    (W21_of m ρ c main_arg5 (by decide)).trans <|
    (W20_of_ne m ρ c main_arg5 (by decide)).trans <|
    (W19_of m ρ c main_arg5 (by decide)).trans <|
    (W18_of_ne m ρ c main_arg5 (by decide)).trans <|
    (W17_of_ne m ρ c main_arg5 (by decide)).trans <|
    (W16_of m ρ c main_arg5 (by decide)).trans <|
    (W15_of_ne m ρ c main_arg5 (by decide)).trans <|
    (W14_of m ρ c main_arg5 (by decide)).trans <|
    (W13_of_ne m ρ c main_arg5 (by decide)).trans <|
    (W12_of m ρ c main_arg5 (by decide)).trans <|
    (W11_of_ne m ρ c main_arg5 (by decide)).trans <|
    (W10_of m ρ c main_arg5 (by decide)).trans <|
    (W9_of_ne m ρ c main_arg5 (by decide)).trans <|
    (W8_of_ne m ρ c main_arg5 (by decide)).trans <|
    (W7_of m ρ c main_arg5 (by decide)).trans <|
    (W6_of_ne m ρ c main_arg5 (by decide)).trans <|
    (W5_of m ρ c main_arg5 (by decide)).trans <|
    (W4_of_ne m ρ c main_arg5 (by decide)).trans <|
    (W3_of m ρ c main_arg5 (by decide)).trans <|
    (W2_of_ne m ρ c main_arg5 (by decide)).trans <|
    (W1_of m ρ c main_arg5 (by decide))).trans rfl
theorem ps_arg6_8 (c : Dev nD) : W24 m ρ c (Proc.devRef .tc main_arg6) = m ((c : Thread nD τ).loc main_arg6) :=
  ((W24_of_ne m ρ c main_arg6 (by decide)).trans <|
    (W23_of m ρ c main_arg6 (by decide)).trans <|
    (W22_of_ne m ρ c main_arg6 (by decide)).trans <|
    (W21_of m ρ c main_arg6 (by decide)).trans <|
    (W20_of_ne m ρ c main_arg6 (by decide)).trans <|
    (W19_of m ρ c main_arg6 (by decide)).trans <|
    (W18_of_ne m ρ c main_arg6 (by decide)).trans <|
    (W17_of_ne m ρ c main_arg6 (by decide)).trans <|
    (W16_of m ρ c main_arg6 (by decide)).trans <|
    (W15_of_ne m ρ c main_arg6 (by decide)).trans <|
    (W14_of m ρ c main_arg6 (by decide)).trans <|
    (W13_of_ne m ρ c main_arg6 (by decide)).trans <|
    (W12_of m ρ c main_arg6 (by decide)).trans <|
    (W11_of_ne m ρ c main_arg6 (by decide)).trans <|
    (W10_of m ρ c main_arg6 (by decide)).trans <|
    (W9_of_ne m ρ c main_arg6 (by decide)).trans <|
    (W8_of_ne m ρ c main_arg6 (by decide)).trans <|
    (W7_of m ρ c main_arg6 (by decide)).trans <|
    (W6_of_ne m ρ c main_arg6 (by decide)).trans <|
    (W5_of m ρ c main_arg6 (by decide)).trans <|
    (W4_of_ne m ρ c main_arg6 (by decide)).trans <|
    (W3_of m ρ c main_arg6 (by decide)).trans <|
    (W2_of_ne m ρ c main_arg6 (by decide)).trans <|
    (W1_of m ρ c main_arg6 (by decide))).trans rfl
theorem ps_arg7_8 (c : Dev nD) : W24 m ρ c (Proc.devRef .tc main_arg7) = m ((c : Thread nD τ).loc main_arg7) :=
  ((W24_of_ne m ρ c main_arg7 (by decide)).trans <|
    (W23_of m ρ c main_arg7 (by decide)).trans <|
    (W22_of_ne m ρ c main_arg7 (by decide)).trans <|
    (W21_of m ρ c main_arg7 (by decide)).trans <|
    (W20_of_ne m ρ c main_arg7 (by decide)).trans <|
    (W19_of m ρ c main_arg7 (by decide)).trans <|
    (W18_of_ne m ρ c main_arg7 (by decide)).trans <|
    (W17_of_ne m ρ c main_arg7 (by decide)).trans <|
    (W16_of m ρ c main_arg7 (by decide)).trans <|
    (W15_of_ne m ρ c main_arg7 (by decide)).trans <|
    (W14_of m ρ c main_arg7 (by decide)).trans <|
    (W13_of_ne m ρ c main_arg7 (by decide)).trans <|
    (W12_of m ρ c main_arg7 (by decide)).trans <|
    (W11_of_ne m ρ c main_arg7 (by decide)).trans <|
    (W10_of m ρ c main_arg7 (by decide)).trans <|
    (W9_of_ne m ρ c main_arg7 (by decide)).trans <|
    (W8_of_ne m ρ c main_arg7 (by decide)).trans <|
    (W7_of m ρ c main_arg7 (by decide)).trans <|
    (W6_of_ne m ρ c main_arg7 (by decide)).trans <|
    (W5_of m ρ c main_arg7 (by decide)).trans <|
    (W4_of_ne m ρ c main_arg7 (by decide)).trans <|
    (W3_of m ρ c main_arg7 (by decide)).trans <|
    (W2_of_ne m ρ c main_arg7 (by decide)).trans <|
    (W1_of m ρ c main_arg7 (by decide))).trans rfl
theorem ps_g8 (c : Dev nD) : W25 m ρ c (Proc.devRef .tc main_v207) = W24 m ρ c (Proc.devRef .tc main_v207) :=
  (W25_of m ρ c main_v207 (by decide))
theorem ps_arg8_n0 (c : Dev nD) : W9 m ρ c (Proc.devRef .tc main_arg8) = m ((c : Thread nD τ).loc main_arg8) :=
  ((W9_of_ne m ρ c main_arg8 (by decide)).trans <|
    (W8_of_ne m ρ c main_arg8 (by decide)).trans <|
    (W7_of m ρ c main_arg8 (by decide)).trans <|
    (W6_of_ne m ρ c main_arg8 (by decide)).trans <|
    (W5_of m ρ c main_arg8 (by decide)).trans <|
    (W4_of_ne m ρ c main_arg8 (by decide)).trans <|
    (W3_of m ρ c main_arg8 (by decide)).trans <|
    (W2_of_ne m ρ c main_arg8 (by decide)).trans <|
    (W1_of m ρ c main_arg8 (by decide))).trans rfl
theorem ps_arg9_n0 (c : Dev nD) : W9 m ρ c (Proc.devRef .tc main_arg9) = m ((c : Thread nD τ).loc main_arg9) :=
  ((W9_of_ne m ρ c main_arg9 (by decide)).trans <|
    (W8_of_ne m ρ c main_arg9 (by decide)).trans <|
    (W7_of m ρ c main_arg9 (by decide)).trans <|
    (W6_of_ne m ρ c main_arg9 (by decide)).trans <|
    (W5_of m ρ c main_arg9 (by decide)).trans <|
    (W4_of_ne m ρ c main_arg9 (by decide)).trans <|
    (W3_of m ρ c main_arg9 (by decide)).trans <|
    (W2_of_ne m ρ c main_arg9 (by decide)).trans <|
    (W1_of m ρ c main_arg9 (by decide))).trans rfl
theorem ps_gn0 (c : Dev nD) : W10 m ρ c (Proc.devRef .tc main_v68) = W8 m ρ c (Proc.devRef .tc main_v68) :=
  (W10_of m ρ c main_v68 (by decide)).trans <|
    ((W9_arr m ρ c 0).trans (((R4.dat (V8 m ρ) c).arrAt_in 0 rfl _).trans (R4.dat_A (V8 m ρ) c 0)))
theorem ps_arg8_n1 (c : Dev nD) : W18 m ρ c (Proc.devRef .tc main_arg8) = m ((c : Thread nD τ).loc main_arg8) :=
  ((W18_of_ne m ρ c main_arg8 (by decide)).trans <|
    (W17_of_ne m ρ c main_arg8 (by decide)).trans <|
    (W16_of m ρ c main_arg8 (by decide)).trans <|
    (W15_of_ne m ρ c main_arg8 (by decide)).trans <|
    (W14_of m ρ c main_arg8 (by decide)).trans <|
    (W13_of_ne m ρ c main_arg8 (by decide)).trans <|
    (W12_of m ρ c main_arg8 (by decide)).trans <|
    (W11_of_ne m ρ c main_arg8 (by decide)).trans <|
    (W10_of m ρ c main_arg8 (by decide)).trans <|
    (W9_of_ne m ρ c main_arg8 (by decide)).trans <|
    (W8_of_ne m ρ c main_arg8 (by decide)).trans <|
    (W7_of m ρ c main_arg8 (by decide)).trans <|
    (W6_of_ne m ρ c main_arg8 (by decide)).trans <|
    (W5_of m ρ c main_arg8 (by decide)).trans <|
    (W4_of_ne m ρ c main_arg8 (by decide)).trans <|
    (W3_of m ρ c main_arg8 (by decide)).trans <|
    (W2_of_ne m ρ c main_arg8 (by decide)).trans <|
    (W1_of m ρ c main_arg8 (by decide))).trans rfl
theorem ps_arg9_n1 (c : Dev nD) : W18 m ρ c (Proc.devRef .tc main_arg9) = m ((c : Thread nD τ).loc main_arg9) :=
  ((W18_of_ne m ρ c main_arg9 (by decide)).trans <|
    (W17_of_ne m ρ c main_arg9 (by decide)).trans <|
    (W16_of m ρ c main_arg9 (by decide)).trans <|
    (W15_of_ne m ρ c main_arg9 (by decide)).trans <|
    (W14_of m ρ c main_arg9 (by decide)).trans <|
    (W13_of_ne m ρ c main_arg9 (by decide)).trans <|
    (W12_of m ρ c main_arg9 (by decide)).trans <|
    (W11_of_ne m ρ c main_arg9 (by decide)).trans <|
    (W10_of m ρ c main_arg9 (by decide)).trans <|
    (W9_of_ne m ρ c main_arg9 (by decide)).trans <|
    (W8_of_ne m ρ c main_arg9 (by decide)).trans <|
    (W7_of m ρ c main_arg9 (by decide)).trans <|
    (W6_of_ne m ρ c main_arg9 (by decide)).trans <|
    (W5_of m ρ c main_arg9 (by decide)).trans <|
    (W4_of_ne m ρ c main_arg9 (by decide)).trans <|
    (W3_of m ρ c main_arg9 (by decide)).trans <|
    (W2_of_ne m ρ c main_arg9 (by decide)).trans <|
    (W1_of m ρ c main_arg9 (by decide))).trans rfl
theorem ps_gn1 (c : Dev nD) : W19 m ρ c (Proc.devRef .tc main_v148) = W17 m ρ c (Proc.devRef .tc main_v148) :=
  (W19_of m ρ c main_v148 (by decide)).trans <|
    ((W18_arr m ρ c 0).trans (((R9.dat (V17 m ρ) c).arrAt_in 0 rfl _).trans (R9.dat_A (V17 m ρ) c 0)))
theorem ps_arg8_n2 (c : Dev nD) : W27 m ρ c (Proc.devRef .tc main_arg8) = m ((c : Thread nD τ).loc main_arg8) :=
  ((W27_of_ne m ρ c main_arg8 (by decide)).trans <|
    (W26_of_ne m ρ c main_arg8 (by decide)).trans <|
    (W25_of m ρ c main_arg8 (by decide)).trans <|
    (W24_of_ne m ρ c main_arg8 (by decide)).trans <|
    (W23_of m ρ c main_arg8 (by decide)).trans <|
    (W22_of_ne m ρ c main_arg8 (by decide)).trans <|
    (W21_of m ρ c main_arg8 (by decide)).trans <|
    (W20_of_ne m ρ c main_arg8 (by decide)).trans <|
    (W19_of m ρ c main_arg8 (by decide)).trans <|
    (W18_of_ne m ρ c main_arg8 (by decide)).trans <|
    (W17_of_ne m ρ c main_arg8 (by decide)).trans <|
    (W16_of m ρ c main_arg8 (by decide)).trans <|
    (W15_of_ne m ρ c main_arg8 (by decide)).trans <|
    (W14_of m ρ c main_arg8 (by decide)).trans <|
    (W13_of_ne m ρ c main_arg8 (by decide)).trans <|
    (W12_of m ρ c main_arg8 (by decide)).trans <|
    (W11_of_ne m ρ c main_arg8 (by decide)).trans <|
    (W10_of m ρ c main_arg8 (by decide)).trans <|
    (W9_of_ne m ρ c main_arg8 (by decide)).trans <|
    (W8_of_ne m ρ c main_arg8 (by decide)).trans <|
    (W7_of m ρ c main_arg8 (by decide)).trans <|
    (W6_of_ne m ρ c main_arg8 (by decide)).trans <|
    (W5_of m ρ c main_arg8 (by decide)).trans <|
    (W4_of_ne m ρ c main_arg8 (by decide)).trans <|
    (W3_of m ρ c main_arg8 (by decide)).trans <|
    (W2_of_ne m ρ c main_arg8 (by decide)).trans <|
    (W1_of m ρ c main_arg8 (by decide))).trans rfl
theorem ps_arg9_n2 (c : Dev nD) : W27 m ρ c (Proc.devRef .tc main_arg9) = m ((c : Thread nD τ).loc main_arg9) :=
  ((W27_of_ne m ρ c main_arg9 (by decide)).trans <|
    (W26_of_ne m ρ c main_arg9 (by decide)).trans <|
    (W25_of m ρ c main_arg9 (by decide)).trans <|
    (W24_of_ne m ρ c main_arg9 (by decide)).trans <|
    (W23_of m ρ c main_arg9 (by decide)).trans <|
    (W22_of_ne m ρ c main_arg9 (by decide)).trans <|
    (W21_of m ρ c main_arg9 (by decide)).trans <|
    (W20_of_ne m ρ c main_arg9 (by decide)).trans <|
    (W19_of m ρ c main_arg9 (by decide)).trans <|
    (W18_of_ne m ρ c main_arg9 (by decide)).trans <|
    (W17_of_ne m ρ c main_arg9 (by decide)).trans <|
    (W16_of m ρ c main_arg9 (by decide)).trans <|
    (W15_of_ne m ρ c main_arg9 (by decide)).trans <|
    (W14_of m ρ c main_arg9 (by decide)).trans <|
    (W13_of_ne m ρ c main_arg9 (by decide)).trans <|
    (W12_of m ρ c main_arg9 (by decide)).trans <|
    (W11_of_ne m ρ c main_arg9 (by decide)).trans <|
    (W10_of m ρ c main_arg9 (by decide)).trans <|
    (W9_of_ne m ρ c main_arg9 (by decide)).trans <|
    (W8_of_ne m ρ c main_arg9 (by decide)).trans <|
    (W7_of m ρ c main_arg9 (by decide)).trans <|
    (W6_of_ne m ρ c main_arg9 (by decide)).trans <|
    (W5_of m ρ c main_arg9 (by decide)).trans <|
    (W4_of_ne m ρ c main_arg9 (by decide)).trans <|
    (W3_of m ρ c main_arg9 (by decide)).trans <|
    (W2_of_ne m ρ c main_arg9 (by decide)).trans <|
    (W1_of m ρ c main_arg9 (by decide))).trans rfl
theorem ps_gn2 (c : Dev nD) : W28 m ρ c (Proc.devRef .tc main_v228) = W26 m ρ c (Proc.devRef .tc main_v228) :=
  (W28_of m ρ c main_v228 (by decide)).trans <|
    ((W27_arr m ρ c 0).trans (((R14.dat (V26 m ρ) c).arrAt_in 0 rfl _).trans (R14.dat_A (V26 m ρ) c 0)))
theorem ps_arg0 (c : Dev nD) : W1 m ρ c (Proc.devRef .tc main_arg0) = m ((c : Thread nD τ).loc main_arg0) := ((W1_of m ρ c main_arg0 (by decide))).trans rfl
theorem ps_arg2 (c : Dev nD) : W1 m ρ c (Proc.devRef .tc main_arg2) = m ((c : Thread nD τ).loc main_arg2) := ((W1_of m ρ c main_arg2 (by decide))).trans rfl

end Cert.KernelIdeal.Run

end
-- ==== Proof.Shared.lean ====
/-
  The pieces of the network as functions of arrays, in the reference program's own spelling: the edge rows, the
  neighbour sum, the encoder, one round's two dense layers (with and without the final clipping at zero), the column
  means, the variance as the mean of centred squares, the normalisation (with and without the final clipping), and
  each round's weights and biases and each layer's scale and shift cut out of the stacked parameters.
-/
import proofs.«162580_j71794673320191_1_alg».proof.ReferenceIdeal
import proofs.«162580_j71794673320191_1_alg».proof.Proof.Gen.ReferenceIdeal
import Idealize.ShloMosaic.PureOps.Ideal

noncomputable section

namespace Cert.Shared

open Idealize.ShloMosaic Idealize.SL.Sem Cert.ReferenceIdeal Cert.ReferenceIdeal.Gen

variable {F : FTy → Type} [FloatOps F]

/-- The edges' sources and targets: rows 0 and 1 of the 2 x 300000 edge list. -/
def srcOf (ei : (⟨S2x300000, .i32⟩ : BufTy).Contents (Elt F)) : (⟨S300000, .i32⟩ : BufTy).Contents (Elt F) := (shapeCast S300000 (((extractStridedSlice S1x300000 ![0, 0] · slices_S2x300000_S1x300000_0_0) : (⟨S2x300000, .i32⟩ : BufTy).Contents (Elt F) → (⟨S1x300000, .i32⟩ : BufTy).Contents (Elt F)) ei) shapeCasts_S1x300000_S300000)
def dstOf (ei : (⟨S2x300000, .i32⟩ : BufTy).Contents (Elt F)) : (⟨S300000, .i32⟩ : BufTy).Contents (Elt F) := (shapeCast S300000 (((extractStridedSlice S1x300000 ![1, 0] · slices_S2x300000_S1x300000_1_0) : (⟨S2x300000, .i32⟩ : BufTy).Contents (Elt F) → (⟨S1x300000, .i32⟩ : BufTy).Contents (Elt F)) ei) shapeCasts_S1x300000_S300000)

/-- The neighbour sum: gather the source rows (a negative index counted from the end), add each into its target row, from zero. -/
def aggOf (g : (⟨S50000x256, .f32⟩ : BufTy).Contents (Elt F)) (s d : (⟨S300000, .i32⟩ : BufTy).Contents (Elt F)) : (⟨S50000x256, .f32⟩ : BufTy).Contents (Elt F) := (((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32)) ((broadcastInDim S300000x1 ![0] bcast_S300000_S300000x1_0 : (⟨S300000, .i32⟩ : BufTy).Contents (Elt F) → (⟨S300000x1, .i32⟩ : BufTy).Contents (Elt F)) d) (((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F)) g ((broadcastInDim S300000x1 ![0] bcast_S300000_S300000x1_0 : (⟨S300000, .i32⟩ : BufTy).Contents (Elt F) → (⟨S300000x1, .i32⟩ : BufTy).Contents (Elt F)) ((select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) ((cmpi .slt : (⟨S300000, .i32⟩ : BufTy).Contents (Elt F) → (⟨S300000, .i32⟩ : BufTy).Contents (Elt F) → (⟨S300000, .i1⟩ : BufTy).Contents (Elt F)) s ((broadcastInDim S300000 ![] bcast_S_S300000 : (⟨S_, .i32⟩ : BufTy).Contents (Elt F) → (⟨S300000, .i32⟩ : BufTy).Contents (Elt F)) (constantI S_ 32 0#32))) ((addi : (⟨S300000, .i32⟩ : BufTy).Contents (Elt F) → (⟨S300000, .i32⟩ : BufTy).Contents (Elt F) → (⟨S300000, .i32⟩ : BufTy).Contents (Elt F)) s ((broadcastInDim S300000 ![] bcast_S_S300000 : (⟨S_, .i32⟩ : BufTy).Contents (Elt F) → (⟨S300000, .i32⟩ : BufTy).Contents (Elt F)) (constantI S_ 32 50000#32))) s))))

/-- The encoder: x · W + b, the bias repeated down the rows. -/
def encOf (x : (⟨S50000x64, .f32⟩ : BufTy).Contents (Elt F)) (w : (⟨S64x256, .f32⟩ : BufTy).Contents (Elt F)) (b : (⟨S256, .f32⟩ : BufTy).Contents (Elt F)) : (⟨S50000x256, .f32⟩ : BufTy).Contents (Elt F) := ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)) x w) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) b)))

/-- One round's update of rows g with neighbour sums a: two dense layers, zero-clipped between, and (first form) zero-clipped after. -/
def mlpRelu (g a : (⟨S50000x256, .f32⟩ : BufTy).Contents (Elt F)) (w1 : (⟨S256x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F)) : (⟨S50000x256, .f32⟩ : BufTy).Contents (Elt F) := ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) g a) w1) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) b1))) ((broadcastInDim S50000x256 ![] bcast_S_S50000x256 : (⟨S_, .f32⟩ : BufTy).Contents (Elt F) → (⟨S50000x256, .f32⟩ : BufTy).Contents (Elt F)) (constant S_ .f32 0x00000000#32))) w2) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) b2))) ((broadcastInDim S50000x256 ![] bcast_S_S50000x256 : (⟨S_, .f32⟩ : BufTy).Contents (Elt F) → (⟨S50000x256, .f32⟩ : BufTy).Contents (Elt F)) (constant S_ .f32 0x00000000#32)))
def mlpLin (g a : (⟨S50000x256, .f32⟩ : BufTy).Contents (Elt F)) (w1 : (⟨S256x256, .f32⟩ : BufTy).Contents (Elt F)) (b1 : (⟨S256, .f32⟩ : BufTy).Contents (Elt F)) (w2 : (⟨S256x256, .f32⟩ : BufTy).Contents (Elt F)) (b2 : (⟨S256, .f32⟩ : BufTy).Contents (Elt F)) : (⟨S50000x256, .f32⟩ : BufTy).Contents (Elt F) := ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) g a) w1) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) b1))) ((broadcastInDim S50000x256 ![] bcast_S_S50000x256 : (⟨S_, .f32⟩ : BufTy).Contents (Elt F) → (⟨S50000x256, .f32⟩ : BufTy).Contents (Elt F)) (constant S_ .f32 0x00000000#32))) w2) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) b2)))

/-- The column means and the variance as the mean of the centred squares (guarded by the count being positive). -/
def meanOf (g : (⟨S50000x256, .f32⟩ : BufTy).Contents (Elt F)) : (⟨S256, .f32⟩ : BufTy).Contents (Elt F) := ((Host.divf : (⟨S256, .f32⟩ : BufTy).Contents (Elt F) → (⟨S256, .f32⟩ : BufTy).Contents (Elt F) → (⟨S256, .f32⟩ : BufTy).Contents (Elt F)) (((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) g (constant S_ .f32 0x00000000#32)) ((broadcastInDim S256 ![] bcast_S_S256 : (⟨S_, .f32⟩ : BufTy).Contents (Elt F) → (⟨S256, .f32⟩ : BufTy).Contents (Elt F)) (constant S_ .f32 0x47435000#32)))
def varOf (g : (⟨S50000x256, .f32⟩ : BufTy).Contents (Elt F)) : (⟨S256, .f32⟩ : BufTy).Contents (Elt F) := ((fun p a b => select (broadcastInDim S256 ![] bcast_S_S256 p) a b) (cmpf .ogt (subf (constant (F := F) S_ .f32 0x47435000#32) (sitofp (F := F) .f32 (constantI S_ 32 0#32))) (constant (F := F) S_ .f32 0x00000000#32)) (Host.divf ((fun x v => Host.reduceAdd x v reducesTo_S50000x256_S256_d0 h_S_) (mulf (subf g (broadcastInDim S50000x256 ![0, 1] bcast_S1x256_S50000x256_0_1 (Host.divf (broadcastInDim S1x256 ![1] bcast_S256_S1x256_1 ((fun x v => Host.reduceAdd x v reducesTo_S50000x256_S256_d0 h_S_) g (constant (F := F) S_ .f32 0x00000000#32))) (broadcastInDim S1x256 ![] bcast_S_S1x256 (constant (F := F) S_ .f32 0x47435000#32))))) (subf g (broadcastInDim S50000x256 ![0, 1] bcast_S1x256_S50000x256_0_1 (Host.divf (broadcastInDim S1x256 ![1] bcast_S256_S1x256_1 ((fun x v => Host.reduceAdd x v reducesTo_S50000x256_S256_d0 h_S_) g (constant (F := F) S_ .f32 0x00000000#32))) (broadcastInDim S1x256 ![] bcast_S_S1x256 (constant (F := F) S_ .f32 0x47435000#32)))))) (constant (F := F) S_ .f32 0x00000000#32)) (broadcastInDim S256 ![] bcast_S_S256 (subf (constant (F := F) S_ .f32 0x47435000#32) (sitofp (F := F) .f32 (constantI S_ 32 0#32))))) (broadcastInDim S256 ![] bcast_S_S256 (id (constant (F := F) S_ .f32 0x7FC00000#32))))

/-- Normalisation of the rows: (g - mean) · rsqrt(var + 1e-5) · gamma + beta, then (first form) zero-clipped. -/
def normRelu (g : (⟨S50000x256, .f32⟩ : BufTy).Contents (Elt F)) (ga be : (⟨S256, .f32⟩ : BufTy).Contents (Elt F)) : (⟨S50000x256, .f32⟩ : BufTy).Contents (Elt F) := ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) g ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (meanOf g)))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (varOf g) ((broadcastInDim S256 ![] bcast_S_S256 : (⟨S_, .f32⟩ : BufTy).Contents (Elt F) → (⟨S256, .f32⟩ : BufTy).Contents (Elt F)) (constant S_ .f32 0x3727C5AC#32))))))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ga))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) be))) ((broadcastInDim S50000x256 ![] bcast_S_S50000x256 : (⟨S_, .f32⟩ : BufTy).Contents (Elt F) → (⟨S50000x256, .f32⟩ : BufTy).Contents (Elt F)) (constant S_ .f32 0x00000000#32)))
def normLin (g : (⟨S50000x256, .f32⟩ : BufTy).Contents (Elt F)) (ga be : (⟨S256, .f32⟩ : BufTy).Contents (Elt F)) : (⟨S50000x256, .f32⟩ : BufTy).Contents (Elt F) := ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) g ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (meanOf g)))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (varOf g) ((broadcastInDim S256 ![] bcast_S_S256 : (⟨S_, .f32⟩ : BufTy).Contents (Elt F) → (⟨S256, .f32⟩ : BufTy).Contents (Elt F)) (constant S_ .f32 0x3727C5AC#32))))))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ga))) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) be)))

/-- Round 0's weights and biases out of the stacked parameters. -/
def w1_0 (a : (⟨S3x3x256x256, .f32⟩ : BufTy).Contents (Elt F)) : (⟨S256x256, .f32⟩ : BufTy).Contents (Elt F) := (shapeCast S256x256 (((extractStridedSlice S1x1x256x256 ![0, 0, 0, 0] · slices_S3x3x256x256_S1x1x256x256_0_0_0_0) : (⟨S3x3x256x256, .f32⟩ : BufTy).Contents (Elt F) → (⟨S1x1x256x256, .f32⟩ : BufTy).Contents (Elt F)) a) shapeCasts_S1x1x256x256_S256x256)
def b1_0 (a : (⟨S3x3x256, .f32⟩ : BufTy).Contents (Elt F)) : (⟨S256, .f32⟩ : BufTy).Contents (Elt F) := (shapeCast S256 (((extractStridedSlice S1x1x256 ![0, 0, 0] · slices_S3x3x256_S1x1x256_0_0_0) : (⟨S3x3x256, .f32⟩ : BufTy).Contents (Elt F) → (⟨S1x1x256, .f32⟩ : BufTy).Contents (Elt F)) a) shapeCasts_S1x1x256_S256)
def w2_0 (a : (⟨S3x3x256x256, .f32⟩ : BufTy).Contents (Elt F)) : (⟨S256x256, .f32⟩ : BufTy).Contents (Elt F) := (shapeCast S256x256 (((extractStridedSlice S1x1x256x256 ![0, 0, 0, 0] · slices_S3x3x256x256_S1x1x256x256_0_0_0_0) : (⟨S3x3x256x256, .f32⟩ : BufTy).Contents (Elt F) → (⟨S1x1x256x256, .f32⟩ : BufTy).Contents (Elt F)) a) shapeCasts_S1x1x256x256_S256x256)
def b2_0 (a : (⟨S3x3x256, .f32⟩ : BufTy).Contents (Elt F)) : (⟨S256, .f32⟩ : BufTy).Contents (Elt F) := (shapeCast S256 (((extractStridedSlice S1x1x256 ![0, 0, 0] · slices_S3x3x256_S1x1x256_0_0_0) : (⟨S3x3x256, .f32⟩ : BufTy).Contents (Elt F) → (⟨S1x1x256, .f32⟩ : BufTy).Contents (Elt F)) a) shapeCasts_S1x1x256_S256)
/-- Round 1's weights and biases out of the stacked parameters. -/
def w1_1 (a : (⟨S3x3x256x256, .f32⟩ : BufTy).Contents (Elt F)) : (⟨S256x256, .f32⟩ : BufTy).Contents (Elt F) := (shapeCast S256x256 (((extractStridedSlice S1x1x256x256 ![0, 1, 0, 0] · slices_S3x3x256x256_S1x1x256x256_0_1_0_0) : (⟨S3x3x256x256, .f32⟩ : BufTy).Contents (Elt F) → (⟨S1x1x256x256, .f32⟩ : BufTy).Contents (Elt F)) a) shapeCasts_S1x1x256x256_S256x256)
def b1_1 (a : (⟨S3x3x256, .f32⟩ : BufTy).Contents (Elt F)) : (⟨S256, .f32⟩ : BufTy).Contents (Elt F) := (shapeCast S256 (((extractStridedSlice S1x1x256 ![0, 1, 0] · slices_S3x3x256_S1x1x256_0_1_0) : (⟨S3x3x256, .f32⟩ : BufTy).Contents (Elt F) → (⟨S1x1x256, .f32⟩ : BufTy).Contents (Elt F)) a) shapeCasts_S1x1x256_S256)
def w2_1 (a : (⟨S3x3x256x256, .f32⟩ : BufTy).Contents (Elt F)) : (⟨S256x256, .f32⟩ : BufTy).Contents (Elt F) := (shapeCast S256x256 (((extractStridedSlice S1x1x256x256 ![0, 1, 0, 0] · slices_S3x3x256x256_S1x1x256x256_0_1_0_0) : (⟨S3x3x256x256, .f32⟩ : BufTy).Contents (Elt F) → (⟨S1x1x256x256, .f32⟩ : BufTy).Contents (Elt F)) a) shapeCasts_S1x1x256x256_S256x256)
def b2_1 (a : (⟨S3x3x256, .f32⟩ : BufTy).Contents (Elt F)) : (⟨S256, .f32⟩ : BufTy).Contents (Elt F) := (shapeCast S256 (((extractStridedSlice S1x1x256 ![0, 1, 0] · slices_S3x3x256_S1x1x256_0_1_0) : (⟨S3x3x256, .f32⟩ : BufTy).Contents (Elt F) → (⟨S1x1x256, .f32⟩ : BufTy).Contents (Elt F)) a) shapeCasts_S1x1x256_S256)
/-- Round 2's weights and biases out of the stacked parameters. -/
def w1_2 (a : (⟨S3x3x256x256, .f32⟩ : BufTy).Contents (Elt F)) : (⟨S256x256, .f32⟩ : BufTy).Contents (Elt F) := (shapeCast S256x256 (((extractStridedSlice S1x1x256x256 ![0, 2, 0, 0] · slices_S3x3x256x256_S1x1x256x256_0_2_0_0) : (⟨S3x3x256x256, .f32⟩ : BufTy).Contents (Elt F) → (⟨S1x1x256x256, .f32⟩ : BufTy).Contents (Elt F)) a) shapeCasts_S1x1x256x256_S256x256)
def b1_2 (a : (⟨S3x3x256, .f32⟩ : BufTy).Contents (Elt F)) : (⟨S256, .f32⟩ : BufTy).Contents (Elt F) := (shapeCast S256 (((extractStridedSlice S1x1x256 ![0, 2, 0] · slices_S3x3x256_S1x1x256_0_2_0) : (⟨S3x3x256, .f32⟩ : BufTy).Contents (Elt F) → (⟨S1x1x256, .f32⟩ : BufTy).Contents (Elt F)) a) shapeCasts_S1x1x256_S256)
def w2_2 (a : (⟨S3x3x256x256, .f32⟩ : BufTy).Contents (Elt F)) : (⟨S256x256, .f32⟩ : BufTy).Contents (Elt F) := (shapeCast S256x256 (((extractStridedSlice S1x1x256x256 ![0, 2, 0, 0] · slices_S3x3x256x256_S1x1x256x256_0_2_0_0) : (⟨S3x3x256x256, .f32⟩ : BufTy).Contents (Elt F) → (⟨S1x1x256x256, .f32⟩ : BufTy).Contents (Elt F)) a) shapeCasts_S1x1x256x256_S256x256)
def b2_2 (a : (⟨S3x3x256, .f32⟩ : BufTy).Contents (Elt F)) : (⟨S256, .f32⟩ : BufTy).Contents (Elt F) := (shapeCast S256 (((extractStridedSlice S1x1x256 ![0, 2, 0] · slices_S3x3x256_S1x1x256_0_2_0) : (⟨S3x3x256, .f32⟩ : BufTy).Contents (Elt F) → (⟨S1x1x256, .f32⟩ : BufTy).Contents (Elt F)) a) shapeCasts_S1x1x256_S256)
/-- Round 3's weights and biases out of the stacked parameters. -/
def w1_3 (a : (⟨S3x3x256x256, .f32⟩ : BufTy).Contents (Elt F)) : (⟨S256x256, .f32⟩ : BufTy).Contents (Elt F) := (shapeCast S256x256 (((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F)) a) shapeCasts_S1x1x256x256_S256x256)
def b1_3 (a : (⟨S3x3x256, .f32⟩ : BufTy).Contents (Elt F)) : (⟨S256, .f32⟩ : BufTy).Contents (Elt F) := (shapeCast S256 (((extractStridedSlice S1x1x256 ![1, 0, 0] · slices_S3x3x256_S1x1x256_1_0_0) : (⟨S3x3x256, .f32⟩ : BufTy).Contents (Elt F) → (⟨S1x1x256, .f32⟩ : BufTy).Contents (Elt F)) a) shapeCasts_S1x1x256_S256)
def w2_3 (a : (⟨S3x3x256x256, .f32⟩ : BufTy).Contents (Elt F)) : (⟨S256x256, .f32⟩ : BufTy).Contents (Elt F) := (shapeCast S256x256 (((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F)) a) shapeCasts_S1x1x256x256_S256x256)
def b2_3 (a : (⟨S3x3x256, .f32⟩ : BufTy).Contents (Elt F)) : (⟨S256, .f32⟩ : BufTy).Contents (Elt F) := (shapeCast S256 (((extractStridedSlice S1x1x256 ![1, 0, 0] · slices_S3x3x256_S1x1x256_1_0_0) : (⟨S3x3x256, .f32⟩ : BufTy).Contents (Elt F) → (⟨S1x1x256, .f32⟩ : BufTy).Contents (Elt F)) a) shapeCasts_S1x1x256_S256)
/-- Round 4's weights and biases out of the stacked parameters. -/
def w1_4 (a : (⟨S3x3x256x256, .f32⟩ : BufTy).Contents (Elt F)) : (⟨S256x256, .f32⟩ : BufTy).Contents (Elt F) := (shapeCast S256x256 (((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F)) a) shapeCasts_S1x1x256x256_S256x256)
def b1_4 (a : (⟨S3x3x256, .f32⟩ : BufTy).Contents (Elt F)) : (⟨S256, .f32⟩ : BufTy).Contents (Elt F) := (shapeCast S256 (((extractStridedSlice S1x1x256 ![1, 1, 0] · slices_S3x3x256_S1x1x256_1_1_0) : (⟨S3x3x256, .f32⟩ : BufTy).Contents (Elt F) → (⟨S1x1x256, .f32⟩ : BufTy).Contents (Elt F)) a) shapeCasts_S1x1x256_S256)
def w2_4 (a : (⟨S3x3x256x256, .f32⟩ : BufTy).Contents (Elt F)) : (⟨S256x256, .f32⟩ : BufTy).Contents (Elt F) := (shapeCast S256x256 (((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F)) a) shapeCasts_S1x1x256x256_S256x256)
def b2_4 (a : (⟨S3x3x256, .f32⟩ : BufTy).Contents (Elt F)) : (⟨S256, .f32⟩ : BufTy).Contents (Elt F) := (shapeCast S256 (((extractStridedSlice S1x1x256 ![1, 1, 0] · slices_S3x3x256_S1x1x256_1_1_0) : (⟨S3x3x256, .f32⟩ : BufTy).Contents (Elt F) → (⟨S1x1x256, .f32⟩ : BufTy).Contents (Elt F)) a) shapeCasts_S1x1x256_S256)
/-- Round 5's weights and biases out of the stacked parameters. -/
def w1_5 (a : (⟨S3x3x256x256, .f32⟩ : BufTy).Contents (Elt F)) : (⟨S256x256, .f32⟩ : BufTy).Contents (Elt F) := (shapeCast S256x256 (((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F)) a) shapeCasts_S1x1x256x256_S256x256)
def b1_5 (a : (⟨S3x3x256, .f32⟩ : BufTy).Contents (Elt F)) : (⟨S256, .f32⟩ : BufTy).Contents (Elt F) := (shapeCast S256 (((extractStridedSlice S1x1x256 ![1, 2, 0] · slices_S3x3x256_S1x1x256_1_2_0) : (⟨S3x3x256, .f32⟩ : BufTy).Contents (Elt F) → (⟨S1x1x256, .f32⟩ : BufTy).Contents (Elt F)) a) shapeCasts_S1x1x256_S256)
def w2_5 (a : (⟨S3x3x256x256, .f32⟩ : BufTy).Contents (Elt F)) : (⟨S256x256, .f32⟩ : BufTy).Contents (Elt F) := (shapeCast S256x256 (((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F)) a) shapeCasts_S1x1x256x256_S256x256)
def b2_5 (a : (⟨S3x3x256, .f32⟩ : BufTy).Contents (Elt F)) : (⟨S256, .f32⟩ : BufTy).Contents (Elt F) := (shapeCast S256 (((extractStridedSlice S1x1x256 ![1, 2, 0] · slices_S3x3x256_S1x1x256_1_2_0) : (⟨S3x3x256, .f32⟩ : BufTy).Contents (Elt F) → (⟨S1x1x256, .f32⟩ : BufTy).Contents (Elt F)) a) shapeCasts_S1x1x256_S256)
/-- Round 6's weights and biases out of the stacked parameters. -/
def w1_6 (a : (⟨S3x3x256x256, .f32⟩ : BufTy).Contents (Elt F)) : (⟨S256x256, .f32⟩ : BufTy).Contents (Elt F) := (shapeCast S256x256 (((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F)) a) shapeCasts_S1x1x256x256_S256x256)
def b1_6 (a : (⟨S3x3x256, .f32⟩ : BufTy).Contents (Elt F)) : (⟨S256, .f32⟩ : BufTy).Contents (Elt F) := (shapeCast S256 (((extractStridedSlice S1x1x256 ![2, 0, 0] · slices_S3x3x256_S1x1x256_2_0_0) : (⟨S3x3x256, .f32⟩ : BufTy).Contents (Elt F) → (⟨S1x1x256, .f32⟩ : BufTy).Contents (Elt F)) a) shapeCasts_S1x1x256_S256)
def w2_6 (a : (⟨S3x3x256x256, .f32⟩ : BufTy).Contents (Elt F)) : (⟨S256x256, .f32⟩ : BufTy).Contents (Elt F) := (shapeCast S256x256 (((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F)) a) shapeCasts_S1x1x256x256_S256x256)
def b2_6 (a : (⟨S3x3x256, .f32⟩ : BufTy).Contents (Elt F)) : (⟨S256, .f32⟩ : BufTy).Contents (Elt F) := (shapeCast S256 (((extractStridedSlice S1x1x256 ![2, 0, 0] · slices_S3x3x256_S1x1x256_2_0_0) : (⟨S3x3x256, .f32⟩ : BufTy).Contents (Elt F) → (⟨S1x1x256, .f32⟩ : BufTy).Contents (Elt F)) a) shapeCasts_S1x1x256_S256)
/-- Round 7's weights and biases out of the stacked parameters. -/
def w1_7 (a : (⟨S3x3x256x256, .f32⟩ : BufTy).Contents (Elt F)) : (⟨S256x256, .f32⟩ : BufTy).Contents (Elt F) := (shapeCast S256x256 (((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F)) a) shapeCasts_S1x1x256x256_S256x256)
def b1_7 (a : (⟨S3x3x256, .f32⟩ : BufTy).Contents (Elt F)) : (⟨S256, .f32⟩ : BufTy).Contents (Elt F) := (shapeCast S256 (((extractStridedSlice S1x1x256 ![2, 1, 0] · slices_S3x3x256_S1x1x256_2_1_0) : (⟨S3x3x256, .f32⟩ : BufTy).Contents (Elt F) → (⟨S1x1x256, .f32⟩ : BufTy).Contents (Elt F)) a) shapeCasts_S1x1x256_S256)
def w2_7 (a : (⟨S3x3x256x256, .f32⟩ : BufTy).Contents (Elt F)) : (⟨S256x256, .f32⟩ : BufTy).Contents (Elt F) := (shapeCast S256x256 (((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F)) a) shapeCasts_S1x1x256x256_S256x256)
def b2_7 (a : (⟨S3x3x256, .f32⟩ : BufTy).Contents (Elt F)) : (⟨S256, .f32⟩ : BufTy).Contents (Elt F) := (shapeCast S256 (((extractStridedSlice S1x1x256 ![2, 1, 0] · slices_S3x3x256_S1x1x256_2_1_0) : (⟨S3x3x256, .f32⟩ : BufTy).Contents (Elt F) → (⟨S1x1x256, .f32⟩ : BufTy).Contents (Elt F)) a) shapeCasts_S1x1x256_S256)
/-- Round 8's weights and biases out of the stacked parameters. -/
def w1_8 (a : (⟨S3x3x256x256, .f32⟩ : BufTy).Contents (Elt F)) : (⟨S256x256, .f32⟩ : BufTy).Contents (Elt F) := (shapeCast S256x256 (((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F)) a) shapeCasts_S1x1x256x256_S256x256)
def b1_8 (a : (⟨S3x3x256, .f32⟩ : BufTy).Contents (Elt F)) : (⟨S256, .f32⟩ : BufTy).Contents (Elt F) := (shapeCast S256 (((extractStridedSlice S1x1x256 ![2, 2, 0] · slices_S3x3x256_S1x1x256_2_2_0) : (⟨S3x3x256, .f32⟩ : BufTy).Contents (Elt F) → (⟨S1x1x256, .f32⟩ : BufTy).Contents (Elt F)) a) shapeCasts_S1x1x256_S256)
def w2_8 (a : (⟨S3x3x256x256, .f32⟩ : BufTy).Contents (Elt F)) : (⟨S256x256, .f32⟩ : BufTy).Contents (Elt F) := (shapeCast S256x256 (((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F)) a) shapeCasts_S1x1x256x256_S256x256)
def b2_8 (a : (⟨S3x3x256, .f32⟩ : BufTy).Contents (Elt F)) : (⟨S256, .f32⟩ : BufTy).Contents (Elt F) := (shapeCast S256 (((extractStridedSlice S1x1x256 ![2, 2, 0] · slices_S3x3x256_S1x1x256_2_2_0) : (⟨S3x3x256, .f32⟩ : BufTy).Contents (Elt F) → (⟨S1x1x256, .f32⟩ : BufTy).Contents (Elt F)) a) shapeCasts_S1x1x256_S256)
/-- Layer 0's scale and shift. -/
def ga_0 (a : (⟨S3x256, .f32⟩ : BufTy).Contents (Elt F)) : (⟨S256, .f32⟩ : BufTy).Contents (Elt F) := (shapeCast S256 (((extractStridedSlice S1x256 ![0, 0] · slices_S3x256_S1x256_0_0) : (⟨S3x256, .f32⟩ : BufTy).Contents (Elt F) → (⟨S1x256, .f32⟩ : BufTy).Contents (Elt F)) a) shapeCasts_S1x256_S256)
def be_0 (a : (⟨S3x256, .f32⟩ : BufTy).Contents (Elt F)) : (⟨S256, .f32⟩ : BufTy).Contents (Elt F) := (shapeCast S256 (((extractStridedSlice S1x256 ![0, 0] · slices_S3x256_S1x256_0_0) : (⟨S3x256, .f32⟩ : BufTy).Contents (Elt F) → (⟨S1x256, .f32⟩ : BufTy).Contents (Elt F)) a) shapeCasts_S1x256_S256)
/-- Layer 1's scale and shift. -/
def ga_1 (a : (⟨S3x256, .f32⟩ : BufTy).Contents (Elt F)) : (⟨S256, .f32⟩ : BufTy).Contents (Elt F) := (shapeCast S256 (((extractStridedSlice S1x256 ![1, 0] · slices_S3x256_S1x256_1_0) : (⟨S3x256, .f32⟩ : BufTy).Contents (Elt F) → (⟨S1x256, .f32⟩ : BufTy).Contents (Elt F)) a) shapeCasts_S1x256_S256)
def be_1 (a : (⟨S3x256, .f32⟩ : BufTy).Contents (Elt F)) : (⟨S256, .f32⟩ : BufTy).Contents (Elt F) := (shapeCast S256 (((extractStridedSlice S1x256 ![1, 0] · slices_S3x256_S1x256_1_0) : (⟨S3x256, .f32⟩ : BufTy).Contents (Elt F) → (⟨S1x256, .f32⟩ : BufTy).Contents (Elt F)) a) shapeCasts_S1x256_S256)
/-- Layer 2's scale and shift. -/
def ga_2 (a : (⟨S3x256, .f32⟩ : BufTy).Contents (Elt F)) : (⟨S256, .f32⟩ : BufTy).Contents (Elt F) := (shapeCast S256 (((extractStridedSlice S1x256 ![2, 0] · slices_S3x256_S1x256_2_0) : (⟨S3x256, .f32⟩ : BufTy).Contents (Elt F) → (⟨S1x256, .f32⟩ : BufTy).Contents (Elt F)) a) shapeCasts_S1x256_S256)
def be_2 (a : (⟨S3x256, .f32⟩ : BufTy).Contents (Elt F)) : (⟨S256, .f32⟩ : BufTy).Contents (Elt F) := (shapeCast S256 (((extractStridedSlice S1x256 ![2, 0] · slices_S3x256_S1x256_2_0) : (⟨S3x256, .f32⟩ : BufTy).Contents (Elt F) → (⟨S1x256, .f32⟩ : BufTy).Contents (Elt F)) a) shapeCasts_S1x256_S256)

end Cert.Shared

end
-- ==== Proof.SharedK.lean ====
/-
  The kernel side's own host arithmetic between its column-sum region and its normalisation region, as functions of
  the two 1 x 256 rows of sums: the mean row S/50000, and the inverse standard deviation row
  rsqrt(Q/50000 - mean·mean + 1e-5); and a 256-vector laid out as a 1 x 256 row.
-/
import proofs.«162580_j71794673320191_1_alg».proof.KernelIdeal
import proofs.«162580_j71794673320191_1_alg».proof.Proof.Gen.KernelIdeal
import Idealize.ShloMosaic.PureOps.Ideal

noncomputable section

namespace Cert.SharedK

open Idealize.ShloMosaic Idealize.SL.Sem Cert.KernelIdeal Cert.KernelIdeal.Gen

variable {F : FTy → Type} [FloatOps F]

/-- The mean row from the row of column sums. -/
def kMeanOf (S : (⟨S1x256, .f32⟩ : BufTy).Contents (Elt F)) : (⟨S1x256, .f32⟩ : BufTy).Contents (Elt F) := ((Host.divf : (⟨S1x256, .f32⟩ : BufTy).Contents (Elt F) → (⟨S1x256, .f32⟩ : BufTy).Contents (Elt F) → (⟨S1x256, .f32⟩ : BufTy).Contents (Elt F)) S ((broadcastInDim S1x256 ![] bcast_S_S1x256 : (⟨S_, .f32⟩ : BufTy).Contents (Elt F) → (⟨S1x256, .f32⟩ : BufTy).Contents (Elt F)) (constant S_ .f32 0x47435000#32)))

/-- The inverse standard deviation row from the rows of column sums and of column sums of squares. -/
def kInvOf (S Q : (⟨S1x256, .f32⟩ : BufTy).Contents (Elt F)) : (⟨S1x256, .f32⟩ : BufTy).Contents (Elt F) := ((Host.rsqrt : (⟨S1x256, .f32⟩ : BufTy).Contents (Elt F) → (⟨S1x256, .f32⟩ : BufTy).Contents (Elt F)) ((addf : (⟨S1x256, .f32⟩ : BufTy).Contents (Elt F) → (⟨S1x256, .f32⟩ : BufTy).Contents (Elt F) → (⟨S1x256, .f32⟩ : BufTy).Contents (Elt F)) ((subf : (⟨S1x256, .f32⟩ : BufTy).Contents (Elt F) → (⟨S1x256, .f32⟩ : BufTy).Contents (Elt F) → (⟨S1x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) Q ((broadcastInDim S1x256 ![] bcast_S_S1x256 : (⟨S_, .f32⟩ : BufTy).Contents (Elt F) → (⟨S1x256, .f32⟩ : BufTy).Contents (Elt F)) (constant S_ .f32 0x47435000#32))) ((mulf : (⟨S1x256, .f32⟩ : BufTy).Contents (Elt F) → (⟨S1x256, .f32⟩ : BufTy).Contents (Elt F) → (⟨S1x256, .f32⟩ : BufTy).Contents (Elt F)) ((Host.divf : (⟨S1x256, .f32⟩ : BufTy).Contents (Elt F) → (⟨S1x256, .f32⟩ : BufTy).Contents (Elt F) → (⟨S1x256, .f32⟩ : BufTy).Contents (Elt F)) S ((broadcastInDim S1x256 ![] bcast_S_S1x256 : (⟨S_, .f32⟩ : BufTy).Contents (Elt F) → (⟨S1x256, .f32⟩ : BufTy).Contents (Elt F)) (constant S_ .f32 0x47435000#32))) ((Host.divf : (⟨S1x256, .f32⟩ : BufTy).Contents (Elt F) → (⟨S1x256, .f32⟩ : BufTy).Contents (Elt F) → (⟨S1x256, .f32⟩ : BufTy).Contents (Elt F)) S ((broadcastInDim S1x256 ![] bcast_S_S1x256 : (⟨S_, .f32⟩ : BufTy).Contents (Elt F) → (⟨S1x256, .f32⟩ : BufTy).Contents (Elt F)) (constant S_ .f32 0x47435000#32))))) ((broadcastInDim S1x256 ![] bcast_S_S1x256 : (⟨S_, .f32⟩ : BufTy).Contents (Elt F) → (⟨S1x256, .f32⟩ : BufTy).Contents (Elt F)) (constant S_ .f32 0x3727C5AC#32))))

/-- A 256-vector as a 1 x 256 row. -/
def rowOf (v : (⟨S256, .f32⟩ : BufTy).Contents (Elt F)) : (⟨S1x256, .f32⟩ : BufTy).Contents (Elt F) := shapeCast S1x256 v shapeCasts_S256_S1x256

end Cert.SharedK

end
-- ==== Proof.KRead1.lean ====
/-
  What the host stretch ending at boundary 1 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_src (c : Dev nD) : W1 m ρ c (Proc.devRef .tc main_v1) = Cert.Shared.srcOf (W0 m ρ c (Proc.devRef .tc main_arg1)) := by
  unfold W1 Cert.Shared.srcOf; after_results; rfl
theorem rd_dst (c : Dev nD) : W1 m ρ c (Proc.devRef .tc main_v3) = Cert.Shared.dstOf (W0 m ρ c (Proc.devRef .tc main_arg1)) := by
  unfold W1 Cert.Shared.dstOf; after_results; rfl
theorem rd_bencrow (c : Dev nD) : W1 m ρ c (Proc.devRef .tc main_v4) = Cert.SharedK.rowOf (W0 m ρ c (Proc.devRef .tc main_arg3)) := by
  unfold W1 Cert.SharedK.rowOf; after_results; rfl

end Cert.KernelIdeal.Run

end
-- ==== Proof.KRead3.lean ====
/-
  What the host stretch ending at boundary 3 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_agg0 (c : Dev nD) : W3 m ρ c (Proc.devRef .tc main_v15) = Cert.Shared.aggOf (W2 m ρ c (Proc.devRef .tc main_v5)) (W2 m ρ c (Proc.devRef .tc main_v1)) (W2 m ρ c (Proc.devRef .tc main_v3)) := by
  unfold W3 Cert.Shared.aggOf; after_results; rfl
theorem rd_w1_0 (c : Dev nD) : W3 m ρ c (Proc.devRef .tc main_v17) = Cert.Shared.w1_0 (W2 m ρ c (Proc.devRef .tc main_arg4)) := by
  unfold W3 Cert.Shared.w1_0; after_results; rfl
theorem rd_b1_0 (c : Dev nD) : W3 m ρ c (Proc.devRef .tc main_v20) = Cert.SharedK.rowOf (Cert.Shared.b1_0 (W2 m ρ c (Proc.devRef .tc main_arg5))) := by
  unfold W3 Cert.SharedK.rowOf Cert.Shared.b1_0; after_results; rfl
theorem rd_w2_0 (c : Dev nD) : W3 m ρ c (Proc.devRef .tc main_v22) = Cert.Shared.w2_0 (W2 m ρ c (Proc.devRef .tc main_arg6)) := by
  unfold W3 Cert.Shared.w2_0; after_results; rfl
theorem rd_b2_0 (c : Dev nD) : W3 m ρ c (Proc.devRef .tc main_v25) = Cert.SharedK.rowOf (Cert.Shared.b2_0 (W2 m ρ c (Proc.devRef .tc main_arg7))) := by
  unfold W3 Cert.SharedK.rowOf Cert.Shared.b2_0; after_results; rfl

end Cert.KernelIdeal.Run

end
-- ==== Proof.KRead5.lean ====
/-
  What the host stretch ending at boundary 5 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_agg1 (c : Dev nD) : W5 m ρ c (Proc.devRef .tc main_v36) = Cert.Shared.aggOf (W4 m ρ c (Proc.devRef .tc main_v26)) (W4 m ρ c (Proc.devRef .tc main_v1)) (W4 m ρ c (Proc.devRef .tc main_v3)) := by
  unfold W5 Cert.Shared.aggOf; after_results; rfl
theorem rd_w1_1 (c : Dev nD) : W5 m ρ c (Proc.devRef .tc main_v38) = Cert.Shared.w1_1 (W4 m ρ c (Proc.devRef .tc main_arg4)) := by
  unfold W5 Cert.Shared.w1_1; after_results; rfl
theorem rd_b1_1 (c : Dev nD) : W5 m ρ c (Proc.devRef .tc main_v41) = Cert.SharedK.rowOf (Cert.Shared.b1_1 (W4 m ρ c (Proc.devRef .tc main_arg5))) := by
  unfold W5 Cert.SharedK.rowOf Cert.Shared.b1_1; after_results; rfl
theorem rd_w2_1 (c : Dev nD) : W5 m ρ c (Proc.devRef .tc main_v43) = Cert.Shared.w2_1 (W4 m ρ c (Proc.devRef .tc main_arg6)) := by
  unfold W5 Cert.Shared.w2_1; after_results; rfl
theorem rd_b2_1 (c : Dev nD) : W5 m ρ c (Proc.devRef .tc main_v46) = Cert.SharedK.rowOf (Cert.Shared.b2_1 (W4 m ρ c (Proc.devRef .tc main_arg7))) := by
  unfold W5 Cert.SharedK.rowOf Cert.Shared.b2_1; after_results; rfl

end Cert.KernelIdeal.Run

end
-- ==== Proof.KRead7.lean ====
/-
  What the host stretch ending at boundary 7 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_agg2 (c : Dev nD) : W7 m ρ c (Proc.devRef .tc main_v57) = Cert.Shared.aggOf (W6 m ρ c (Proc.devRef .tc main_v47)) (W6 m ρ c (Proc.devRef .tc main_v1)) (W6 m ρ c (Proc.devRef .tc main_v3)) := by
  unfold W7 Cert.Shared.aggOf; after_results; rfl
theorem rd_w1_2 (c : Dev nD) : W7 m ρ c (Proc.devRef .tc main_v59) = Cert.Shared.w1_2 (W6 m ρ c (Proc.devRef .tc main_arg4)) := by
  unfold W7 Cert.Shared.w1_2; after_results; rfl
theorem rd_b1_2 (c : Dev nD) : W7 m ρ c (Proc.devRef .tc main_v62) = Cert.SharedK.rowOf (Cert.Shared.b1_2 (W6 m ρ c (Proc.devRef .tc main_arg5))) := by
  unfold W7 Cert.SharedK.rowOf Cert.Shared.b1_2; after_results; rfl
theorem rd_w2_2 (c : Dev nD) : W7 m ρ c (Proc.devRef .tc main_v64) = Cert.Shared.w2_2 (W6 m ρ c (Proc.devRef .tc main_arg6)) := by
  unfold W7 Cert.Shared.w2_2; after_results; rfl
theorem rd_b2_2 (c : Dev nD) : W7 m ρ c (Proc.devRef .tc main_v67) = Cert.SharedK.rowOf (Cert.Shared.b2_2 (W6 m ρ c (Proc.devRef .tc main_arg7))) := by
  unfold W7 Cert.SharedK.rowOf Cert.Shared.b2_2; after_results; rfl

end Cert.KernelIdeal.Run

end
-- ==== Proof.KRead10.lean ====
/-
  What the host stretch ending at boundary 10 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

set_option maxHeartbeats 2000000 in
theorem rd_mean0 (c : Dev nD) : W10 m ρ c (Proc.devRef .tc main_v71) = Cert.SharedK.kMeanOf (W9 m ρ c (Proc.devRef .tc main_v69_0)) := by
  unfold W10 Cert.SharedK.kMeanOf; after_results <;> rfl
set_option maxHeartbeats 2000000 in
theorem rd_inv0 (c : Dev nD) : W10 m ρ c (Proc.devRef .tc main_v78) = Cert.SharedK.kInvOf (W9 m ρ c (Proc.devRef .tc main_v69_0)) (W9 m ρ c (Proc.devRef .tc main_v69_1)) := by
  unfold W10 Cert.SharedK.kInvOf; after_results <;> rfl
set_option maxHeartbeats 2000000 in
theorem rd_ga0 (c : Dev nD) : W10 m ρ c (Proc.devRef .tc main_v81) = Cert.SharedK.rowOf (Cert.Shared.ga_0 (W9 m ρ c (Proc.devRef .tc main_arg8))) := by
  unfold W10 Cert.SharedK.rowOf Cert.Shared.ga_0; after_results <;> rfl
set_option maxHeartbeats 2000000 in
theorem rd_be0 (c : Dev nD) : W10 m ρ c (Proc.devRef .tc main_v84) = Cert.SharedK.rowOf (Cert.Shared.be_0 (W9 m ρ c (Proc.devRef .tc main_arg9))) := by
  unfold W10 Cert.SharedK.rowOf Cert.Shared.be_0; after_results <;> rfl

end Cert.KernelIdeal.Run

end
-- ==== Proof.KRead12.lean ====
/-
  What the host stretch ending at boundary 12 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

set_option maxHeartbeats 2000000 in
theorem rd_agg3 (c : Dev nD) : W12 m ρ c (Proc.devRef .tc main_v95) = Cert.Shared.aggOf (W11 m ρ c (Proc.devRef .tc main_v85)) (W11 m ρ c (Proc.devRef .tc main_v1)) (W11 m ρ c (Proc.devRef .tc main_v3)) := by
  unfold W12 Cert.Shared.aggOf; after_results <;> rfl
set_option maxHeartbeats 2000000 in
theorem rd_w1_3 (c : Dev nD) : W12 m ρ c (Proc.devRef .tc main_v97) = Cert.Shared.w1_3 (W11 m ρ c (Proc.devRef .tc main_arg4)) := by
  unfold W12 Cert.Shared.w1_3; after_results <;> rfl
set_option maxHeartbeats 2000000 in
theorem rd_b1_3 (c : Dev nD) : W12 m ρ c (Proc.devRef .tc main_v100) = Cert.SharedK.rowOf (Cert.Shared.b1_3 (W11 m ρ c (Proc.devRef .tc main_arg5))) := by
  unfold W12 Cert.SharedK.rowOf Cert.Shared.b1_3; after_results <;> rfl
set_option maxHeartbeats 2000000 in
theorem rd_w2_3 (c : Dev nD) : W12 m ρ c (Proc.devRef .tc main_v102) = Cert.Shared.w2_3 (W11 m ρ c (Proc.devRef .tc main_arg6)) := by
  unfold W12 Cert.Shared.w2_3; after_results <;> rfl
set_option maxHeartbeats 2000000 in
theorem rd_b2_3 (c : Dev nD) : W12 m ρ c (Proc.devRef .tc main_v105) = Cert.SharedK.rowOf (Cert.Shared.b2_3 (W11 m ρ c (Proc.devRef .tc main_arg7))) := by
  unfold W12 Cert.SharedK.rowOf Cert.Shared.b2_3; after_results <;> rfl

end Cert.KernelIdeal.Run

end
-- ==== Proof.KRead14.lean ====
/-
  What the host stretch ending at boundary 14 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_agg4 (c : Dev nD) : W14 m ρ c (Proc.devRef .tc main_v116) = Cert.Shared.aggOf (W13 m ρ c (Proc.devRef .tc main_v106)) (W13 m ρ c (Proc.devRef .tc main_v1)) (W13 m ρ c (Proc.devRef .tc main_v3)) := by
  unfold W14 Cert.Shared.aggOf; after_results; rfl
theorem rd_w1_4 (c : Dev nD) : W14 m ρ c (Proc.devRef .tc main_v118) = Cert.Shared.w1_4 (W13 m ρ c (Proc.devRef .tc main_arg4)) := by
  unfold W14 Cert.Shared.w1_4; after_results; rfl
theorem rd_b1_4 (c : Dev nD) : W14 m ρ c (Proc.devRef .tc main_v121) = Cert.SharedK.rowOf (Cert.Shared.b1_4 (W13 m ρ c (Proc.devRef .tc main_arg5))) := by
  unfold W14 Cert.SharedK.rowOf Cert.Shared.b1_4; after_results; rfl
theorem rd_w2_4 (c : Dev nD) : W14 m ρ c (Proc.devRef .tc main_v123) = Cert.Shared.w2_4 (W13 m ρ c (Proc.devRef .tc main_arg6)) := by
  unfold W14 Cert.Shared.w2_4; after_results; rfl
theorem rd_b2_4 (c : Dev nD) : W14 m ρ c (Proc.devRef .tc main_v126) = Cert.SharedK.rowOf (Cert.Shared.b2_4 (W13 m ρ c (Proc.devRef .tc main_arg7))) := by
  unfold W14 Cert.SharedK.rowOf Cert.Shared.b2_4; after_results; rfl

end Cert.KernelIdeal.Run

end
-- ==== Proof.KRead16.lean ====
/-
  What the host stretch ending at boundary 16 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_agg5 (c : Dev nD) : W16 m ρ c (Proc.devRef .tc main_v137) = Cert.Shared.aggOf (W15 m ρ c (Proc.devRef .tc main_v127)) (W15 m ρ c (Proc.devRef .tc main_v1)) (W15 m ρ c (Proc.devRef .tc main_v3)) := by
  unfold W16 Cert.Shared.aggOf; after_results; rfl
theorem rd_w1_5 (c : Dev nD) : W16 m ρ c (Proc.devRef .tc main_v139) = Cert.Shared.w1_5 (W15 m ρ c (Proc.devRef .tc main_arg4)) := by
  unfold W16 Cert.Shared.w1_5; after_results; rfl
theorem rd_b1_5 (c : Dev nD) : W16 m ρ c (Proc.devRef .tc main_v142) = Cert.SharedK.rowOf (Cert.Shared.b1_5 (W15 m ρ c (Proc.devRef .tc main_arg5))) := by
  unfold W16 Cert.SharedK.rowOf Cert.Shared.b1_5; after_results; rfl
theorem rd_w2_5 (c : Dev nD) : W16 m ρ c (Proc.devRef .tc main_v144) = Cert.Shared.w2_5 (W15 m ρ c (Proc.devRef .tc main_arg6)) := by
  unfold W16 Cert.Shared.w2_5; after_results; rfl
theorem rd_b2_5 (c : Dev nD) : W16 m ρ c (Proc.devRef .tc main_v147) = Cert.SharedK.rowOf (Cert.Shared.b2_5 (W15 m ρ c (Proc.devRef .tc main_arg7))) := by
  unfold W16 Cert.SharedK.rowOf Cert.Shared.b2_5; after_results; rfl

end Cert.KernelIdeal.Run

end
-- ==== Proof.KRead19.lean ====
/-
  What the host stretch ending at boundary 19 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

set_option maxHeartbeats 2000000 in
theorem rd_mean1 (c : Dev nD) : W19 m ρ c (Proc.devRef .tc main_v151) = Cert.SharedK.kMeanOf (W18 m ρ c (Proc.devRef .tc main_v149_0)) := by
  unfold W19 Cert.SharedK.kMeanOf; after_results <;> rfl
set_option maxHeartbeats 2000000 in
theorem rd_inv1 (c : Dev nD) : W19 m ρ c (Proc.devRef .tc main_v158) = Cert.SharedK.kInvOf (W18 m ρ c (Proc.devRef .tc main_v149_0)) (W18 m ρ c (Proc.devRef .tc main_v149_1)) := by
  unfold W19 Cert.SharedK.kInvOf; after_results <;> rfl
set_option maxHeartbeats 2000000 in
theorem rd_ga1 (c : Dev nD) : W19 m ρ c (Proc.devRef .tc main_v161) = Cert.SharedK.rowOf (Cert.Shared.ga_1 (W18 m ρ c (Proc.devRef .tc main_arg8))) := by
  unfold W19 Cert.SharedK.rowOf Cert.Shared.ga_1; after_results <;> rfl
set_option maxHeartbeats 2000000 in
theorem rd_be1 (c : Dev nD) : W19 m ρ c (Proc.devRef .tc main_v164) = Cert.SharedK.rowOf (Cert.Shared.be_1 (W18 m ρ c (Proc.devRef .tc main_arg9))) := by
  unfold W19 Cert.SharedK.rowOf Cert.Shared.be_1; after_results <;> rfl

end Cert.KernelIdeal.Run

end
-- ==== Proof.KRead21.lean ====
/-
  What the host stretch ending at boundary 21 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_agg6 (c : Dev nD) : W21 m ρ c (Proc.devRef .tc main_v175) = Cert.Shared.aggOf (W20 m ρ c (Proc.devRef .tc main_v165)) (W20 m ρ c (Proc.devRef .tc main_v1)) (W20 m ρ c (Proc.devRef .tc main_v3)) := by
  unfold W21 Cert.Shared.aggOf; after_results; rfl
theorem rd_w1_6 (c : Dev nD) : W21 m ρ c (Proc.devRef .tc main_v177) = Cert.Shared.w1_6 (W20 m ρ c (Proc.devRef .tc main_arg4)) := by
  unfold W21 Cert.Shared.w1_6; after_results; rfl
theorem rd_b1_6 (c : Dev nD) : W21 m ρ c (Proc.devRef .tc main_v180) = Cert.SharedK.rowOf (Cert.Shared.b1_6 (W20 m ρ c (Proc.devRef .tc main_arg5))) := by
  unfold W21 Cert.SharedK.rowOf Cert.Shared.b1_6; after_results; rfl
theorem rd_w2_6 (c : Dev nD) : W21 m ρ c (Proc.devRef .tc main_v182) = Cert.Shared.w2_6 (W20 m ρ c (Proc.devRef .tc main_arg6)) := by
  unfold W21 Cert.Shared.w2_6; after_results; rfl
theorem rd_b2_6 (c : Dev nD) : W21 m ρ c (Proc.devRef .tc main_v185) = Cert.SharedK.rowOf (Cert.Shared.b2_6 (W20 m ρ c (Proc.devRef .tc main_arg7))) := by
  unfold W21 Cert.SharedK.rowOf Cert.Shared.b2_6; after_results; rfl

end Cert.KernelIdeal.Run

end
-- ==== Proof.KRead23.lean ====
/-
  What the host stretch ending at boundary 23 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

set_option maxHeartbeats 2000000 in
theorem rd_agg7 (c : Dev nD) : W23 m ρ c (Proc.devRef .tc main_v196) = Cert.Shared.aggOf (W22 m ρ c (Proc.devRef .tc main_v186)) (W22 m ρ c (Proc.devRef .tc main_v1)) (W22 m ρ c (Proc.devRef .tc main_v3)) := by
  unfold W23 Cert.Shared.aggOf; after_results <;> rfl
set_option maxHeartbeats 2000000 in
theorem rd_w1_7 (c : Dev nD) : W23 m ρ c (Proc.devRef .tc main_v198) = Cert.Shared.w1_7 (W22 m ρ c (Proc.devRef .tc main_arg4)) := by
  unfold W23 Cert.Shared.w1_7; after_results <;> rfl
set_option maxHeartbeats 2000000 in
theorem rd_b1_7 (c : Dev nD) : W23 m ρ c (Proc.devRef .tc main_v201) = Cert.SharedK.rowOf (Cert.Shared.b1_7 (W22 m ρ c (Proc.devRef .tc main_arg5))) := by
  unfold W23 Cert.SharedK.rowOf Cert.Shared.b1_7; after_results <;> rfl
set_option maxHeartbeats 2000000 in
theorem rd_w2_7 (c : Dev nD) : W23 m ρ c (Proc.devRef .tc main_v203) = Cert.Shared.w2_7 (W22 m ρ c (Proc.devRef .tc main_arg6)) := by
  unfold W23 Cert.Shared.w2_7; after_results <;> rfl
set_option maxHeartbeats 2000000 in
theorem rd_b2_7 (c : Dev nD) : W23 m ρ c (Proc.devRef .tc main_v206) = Cert.SharedK.rowOf (Cert.Shared.b2_7 (W22 m ρ c (Proc.devRef .tc main_arg7))) := by
  unfold W23 Cert.SharedK.rowOf Cert.Shared.b2_7; after_results <;> rfl

end Cert.KernelIdeal.Run

end
-- ==== Proof.KRead25.lean ====
/-
  What the host stretch ending at boundary 25 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem rd_agg8 (c : Dev nD) : W25 m ρ c (Proc.devRef .tc main_v217) = Cert.Shared.aggOf (W24 m ρ c (Proc.devRef .tc main_v207)) (W24 m ρ c (Proc.devRef .tc main_v1)) (W24 m ρ c (Proc.devRef .tc main_v3)) := by
  unfold W25 Cert.Shared.aggOf; after_results; rfl
theorem rd_w1_8 (c : Dev nD) : W25 m ρ c (Proc.devRef .tc main_v219) = Cert.Shared.w1_8 (W24 m ρ c (Proc.devRef .tc main_arg4)) := by
  unfold W25 Cert.Shared.w1_8; after_results; rfl
theorem rd_b1_8 (c : Dev nD) : W25 m ρ c (Proc.devRef .tc main_v222) = Cert.SharedK.rowOf (Cert.Shared.b1_8 (W24 m ρ c (Proc.devRef .tc main_arg5))) := by
  unfold W25 Cert.SharedK.rowOf Cert.Shared.b1_8; after_results; rfl
theorem rd_w2_8 (c : Dev nD) : W25 m ρ c (Proc.devRef .tc main_v224) = Cert.Shared.w2_8 (W24 m ρ c (Proc.devRef .tc main_arg6)) := by
  unfold W25 Cert.Shared.w2_8; after_results; rfl
theorem rd_b2_8 (c : Dev nD) : W25 m ρ c (Proc.devRef .tc main_v227) = Cert.SharedK.rowOf (Cert.Shared.b2_8 (W24 m ρ c (Proc.devRef .tc main_arg7))) := by
  unfold W25 Cert.SharedK.rowOf Cert.Shared.b2_8; after_results; rfl

end Cert.KernelIdeal.Run

end
-- ==== Proof.KRead28.lean ====
/-
  What the host stretch ending at boundary 28 computes on the kernel side, read against the network's shared pieces.
-/
import proofs.«162580_j71794673320191_1_alg».proof.Proof.Bounds
import proofs.«162580_j71794673320191_1_alg».proof.Proof.Shared
import proofs.«162580_j71794673320191_1_alg».proof.Proof.SharedK

set_option maxRecDepth 16384

noncomputable section

namespace Cert.KernelIdeal.Run

open Idealize.ShloMosaic Idealize.ShloMosaic.TcCoe Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

set_option maxHeartbeats 2000000 in
theorem rd_mean2 (c : Dev nD) : W28 m ρ c (Proc.devRef .tc main_v231) = Cert.SharedK.kMeanOf (W27 m ρ c (Proc.devRef .tc main_v229_0)) := by
  unfold W28 Cert.SharedK.kMeanOf; after_results <;> rfl
set_option maxHeartbeats 2000000 in
theorem rd_inv2 (c : Dev nD) : W28 m ρ c (Proc.devRef .tc main_v238) = Cert.SharedK.kInvOf (W27 m ρ c (Proc.devRef .tc main_v229_0)) (W27 m ρ c (Proc.devRef .tc main_v229_1)) := by
  unfold W28 Cert.SharedK.kInvOf; after_results <;> rfl
set_option maxHeartbeats 2000000 in
theorem rd_ga2 (c : Dev nD) : W28 m ρ c (Proc.devRef .tc main_v241) = Cert.SharedK.rowOf (Cert.Shared.ga_2 (W27 m ρ c (Proc.devRef .tc main_arg8))) := by
  unfold W28 Cert.SharedK.rowOf Cert.Shared.ga_2; after_results <;> rfl
set_option maxHeartbeats 2000000 in
theorem rd_be2 (c : Dev nD) : W28 m ρ c (Proc.devRef .tc main_v244) = Cert.SharedK.rowOf (Cert.Shared.be_2 (W27 m ρ c (Proc.devRef .tc main_arg9))) := by
  unfold W28 Cert.SharedK.rowOf Cert.Shared.be_2; after_results <;> rfl

end Cert.KernelIdeal.Run

end
-- ==== Proof.Net.lean ====
/-
  The network as a chain of thirteen stages, each a function of the ten argument arrays: the encoder's output, the
  nine rounds' outputs (each from the stage before it, its neighbour sum, and that round's weights and biases), and
  after every third round the normalised rows (with that layer's scale and shift).
-/
import proofs.«162580_j71794673320191_1_alg».proof.Proof.Shared

noncomputable section

namespace Cert.Shared

open Idealize.ShloMosaic Idealize.SL.Sem Cert.ReferenceIdeal Cert.ReferenceIdeal.Gen

variable {F : FTy → Type} [FloatOps F]

/-- The ten argument arrays. -/
structure Args (F : FTy → Type) [FloatOps F] where
  x : (⟨S50000x64, .f32⟩ : BufTy).Contents (Elt F)
  ei : (⟨S2x300000, .i32⟩ : BufTy).Contents (Elt F)
  wenc : (⟨S64x256, .f32⟩ : BufTy).Contents (Elt F)
  benc : (⟨S256, .f32⟩ : BufTy).Contents (Elt F)
  a4 : (⟨S3x3x256x256, .f32⟩ : BufTy).Contents (Elt F)
  a5 : (⟨S3x3x256, .f32⟩ : BufTy).Contents (Elt F)
  a6 : (⟨S3x3x256x256, .f32⟩ : BufTy).Contents (Elt F)
  a7 : (⟨S3x3x256, .f32⟩ : BufTy).Contents (Elt F)
  a8 : (⟨S3x256, .f32⟩ : BufTy).Contents (Elt F)
  a9 : (⟨S3x256, .f32⟩ : BufTy).Contents (Elt F)

/-- Stage 0: the encoder's output. -/
def st0 (A : Args F) : (⟨S50000x256, .f32⟩ : BufTy).Contents (Elt F) := encOf A.x A.wenc A.benc
/-- Stage 1: round 0's output. -/
def st1 (A : Args F) : (⟨S50000x256, .f32⟩ : BufTy).Contents (Elt F) :=
  mlpRelu (st0 A) (aggOf (st0 A) (srcOf A.ei) (dstOf A.ei)) (w1_0 A.a4) (b1_0 A.a5) (w2_0 A.a6) (b2_0 A.a7)
/-- Stage 2: round 1's output. -/
def st2 (A : Args F) : (⟨S50000x256, .f32⟩ : BufTy).Contents (Elt F) :=
  mlpRelu (st1 A) (aggOf (st1 A) (srcOf A.ei) (dstOf A.ei)) (w1_1 A.a4) (b1_1 A.a5) (w2_1 A.a6) (b2_1 A.a7)
/-- Stage 3: round 2's output. -/
def st3 (A : Args F) : (⟨S50000x256, .f32⟩ : BufTy).Contents (Elt F) :=
  mlpLin (st2 A) (aggOf (st2 A) (srcOf A.ei) (dstOf A.ei)) (w1_2 A.a4) (b1_2 A.a5) (w2_2 A.a6) (b2_2 A.a7)
/-- Stage 4: layer 0's normalised rows. -/
def st4 (A : Args F) : (⟨S50000x256, .f32⟩ : BufTy).Contents (Elt F) := normRelu (st3 A) (ga_0 A.a8) (be_0 A.a9)
/-- Stage 5: round 3's output. -/
def st5 (A : Args F) : (⟨S50000x256, .f32⟩ : BufTy).Contents (Elt F) :=
  mlpRelu (st4 A) (aggOf (st4 A) (srcOf A.ei) (dstOf A.ei)) (w1_3 A.a4) (b1_3 A.a5) (w2_3 A.a6) (b2_3 A.a7)
/-- Stage 6: round 4's output. -/
def st6 (A : Args F) : (⟨S50000x256, .f32⟩ : BufTy).Contents (Elt F) :=
  mlpRelu (st5 A) (aggOf (st5 A) (srcOf A.ei) (dstOf A.ei)) (w1_4 A.a4) (b1_4 A.a5) (w2_4 A.a6) (b2_4 A.a7)
/-- Stage 7: round 5's output. -/
def st7 (A : Args F) : (⟨S50000x256, .f32⟩ : BufTy).Contents (Elt F) :=
  mlpLin (st6 A) (aggOf (st6 A) (srcOf A.ei) (dstOf A.ei)) (w1_5 A.a4) (b1_5 A.a5) (w2_5 A.a6) (b2_5 A.a7)
/-- Stage 8: layer 1's normalised rows. -/
def st8 (A : Args F) : (⟨S50000x256, .f32⟩ : BufTy).Contents (Elt F) := normRelu (st7 A) (ga_1 A.a8) (be_1 A.a9)
/-- Stage 9: round 6's output. -/
def st9 (A : Args F) : (⟨S50000x256, .f32⟩ : BufTy).Contents (Elt F) :=
  mlpRelu (st8 A) (aggOf (st8 A) (srcOf A.ei) (dstOf A.ei)) (w1_6 A.a4) (b1_6 A.a5) (w2_6 A.a6) (b2_6 A.a7)
/-- Stage 10: round 7's output. -/
def st10 (A : Args F) : (⟨S50000x256, .f32⟩ : BufTy).Contents (Elt F) :=
  mlpRelu (st9 A) (aggOf (st9 A) (srcOf A.ei) (dstOf A.ei)) (w1_7 A.a4) (b1_7 A.a5) (w2_7 A.a6) (b2_7 A.a7)
/-- Stage 11: round 8's output. -/
def st11 (A : Args F) : (⟨S50000x256, .f32⟩ : BufTy).Contents (Elt F) :=
  mlpLin (st10 A) (aggOf (st10 A) (srcOf A.ei) (dstOf A.ei)) (w1_8 A.a4) (b1_8 A.a5) (w2_8 A.a6) (b2_8 A.a7)
/-- Stage 12: layer 2's normalised rows. -/
def st12 (A : Args F) : (⟨S50000x256, .f32⟩ : BufTy).Contents (Elt F) := normLin (st11 A) (ga_2 A.a8) (be_2 A.a9)

end Cert.Shared

end
-- ==== Proof.Value0.lean ====
/-
  From blocks to the array, for region 0. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region0
import Idealize.ShloMosaic.Lib.Pipeline.Value
import Idealize.ShloMosaic.Lib.ValueIdx

set_option maxRecDepth 16384

noncomputable section

namespace Cert.KernelIdeal.R0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 64 columns, as one block. -/
def rows64 (A : S50000x64.Idx → Elt F .f32) (t : Fin 25) : S2000x64.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x64.Idx → Elt F .f32) (a1 : S64x256.Idx → Elt F .f32) (a2 : S1x256.Idx → Elt F .f32) : S50000x256.Idx → Elt F .f32 := fun i =>
  k0_pay1 (rows64 a0 ⟨(i 0).val / 2000, by have h : (i 0).val < 50000 := (i 0).isLt; omega⟩) a1 a2
    (ix2 (⟨(i 0).val % 2000, Nat.mod_lt _ (by norm_num)⟩ : Fin 2000) (i 1))

/-- At row 2000·t + p it is the body's arithmetic on block t, read at row p of the block. -/
theorem G_at (a0 : S50000x64.Idx → Elt F .f32) (a1 : S64x256.Idx → Elt F .f32) (a2 : S1x256.Idx → Elt F .f32) (t : Fin 25) (p : Fin 2000) (q : Fin 256) :
    G a0 a1 a2 (ix2 (⟨2000 * t.val + p.val, by have := p.isLt; have := t.isLt; omega⟩ : Fin 50000) q)
      = k0_pay1 (rows64 a0 t) a1 a2 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k0_pay1 (rows64 a0 ⟨(2000 * t.val + p.val) / 2000, _⟩) a1 a2 (ix2 (⟨(2000 * t.val + p.val) % 2000, _⟩ : Fin 2000) q) = _
  rw [e1, e2]

/-- The printed index maps over the grid: row-blocked windows move with the point, the others stay at block 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

variable (V : (c : Dev nD) → (b : Ref sig .tc) → Buf (Elt F) ((c : Thread nD τ).loc b))

/-- The block of window 0 at point t is rows 2000·t … of its array. -/
theorem blk0_eq (c : Dev nD) (t : Fin cfg0.N) (ht : t.val < 25) :
    blk V c 0 t = rows64 (V c main_arg0) ⟨t.val, ht⟩ := by
  obtain ⟨e00, e01, e10, e11, e20, e21, e30, e31⟩ := idx_facts t
  funext j
  show V c main_arg0 (((cfg0.win 0).blk t).view.emb j) = V c main_arg0 (ix2 (⟨2000 * t.val + (j 0).val, _⟩ : Fin 50000) (j 1))
  refine congrArg (V c main_arg0) ?_
  funext a; apply Fin.ext
  match a with
  | ⟨0, _⟩ => show win0_0.index t (0 : Fin 2) * 2000 + 1 * (j 0).val = 2000 * t.val + (j 0).val; omega
  | ⟨1, _⟩ => show win0_0.index t (1 : Fin 2) * 64 + 1 * (j 1).val = (j 1).val; omega

/-- Window 1's one block is its whole array. -/
theorem blk1_eq (c : Dev nD) (t : Fin cfg0.N) : blk V c 1 t = V c main_arg2 := by
  obtain ⟨e00, e01, e10, e11, e20, e21, e30, e31⟩ := idx_facts t
  funext j
  show V c main_arg2 (((cfg0.win 1).blk t).view.emb j) = V c main_arg2 j
  refine congrArg (V c main_arg2) ?_
  funext a; apply Fin.ext
  match a with
  | ⟨0, _⟩ => show win0_1.index t (0 : Fin 2) * 64 + 1 * (j 0).val = (j 0).val; omega
  | ⟨1, _⟩ => show win0_1.index t (1 : Fin 2) * 256 + 1 * (j 1).val = (j 1).val; omega

/-- Window 2's one block is its whole array. -/
theorem blk2_eq (c : Dev nD) (t : Fin cfg0.N) : blk V c 2 t = V c main_v4 := by
  obtain ⟨e00, e01, e10, e11, e20, e21, e30, e31⟩ := idx_facts t
  funext j
  show V c main_v4 (((cfg0.win 2).blk t).view.emb j) = V c main_v4 j
  refine congrArg (V c main_v4) ?_
  funext a; apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

/-- What point t writes back is block t of `G` of the input arrays as the region finds them. -/
theorem flushed_eq (c : Dev nD) (t : Fin cfg0.N) :
    (dat V c).flushed 3 t = ((cfg0.win 3).blk t).view.read (Elt F) (G (V c main_arg0) (V c main_arg2) (V c main_v4)) := by
  have ht : t.val < 25 := by have := t.isLt; have hN : cfg0.N = 25 := N_0; omega
  show (cfg0.win 3).cut (grid0.coords t) ((dat V c).after 3 t) = _
  rw [after3]
  unfold out
  rw [View.canon_unit_zero hz]
  simp only [View.ld_unit_zero (S := S2000x64) hz, View.ld_unit_zero (S := S64x256) hz, View.ld_unit_zero (S := S1x256) hz]
  rw [blk0_eq V c t ht, blk1_eq V c t, blk2_eq V c t]
  obtain ⟨e00, e01, e10, e11, e20, e21, e30, e31⟩ := idx_facts t
  funext j
  have hj1 : (j 1).val < 256 := (j 1).isLt
  have hemb : ((cfg0.win 3).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win0_3.index t (0 : Fin 2) * 2000 + 1 * (j 0).val = 2000 * t.val + (j 0).val; omega
    | ⟨1, _⟩ => show win0_3.index t (1 : Fin 2) * 256 + 1 * (j 1).val = (j 1).val; omega
  show _ = G (V c main_arg0) (V c main_arg2) (V c main_v4) (((cfg0.win 3).blk t).view.emb j)
  rw [hemb, G_at]
  exact congrArg _ (eq_ix2 j)

/-- An index is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v5).slice (win0_3.rect t)).set ↔ _
  rw [View.set_slice_whole, Rect.mem_set_unit]
  exact Iff.rfl

/-- Every row lies in the block of the point r / 2000, and every point writes back. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by omega⟩, flush0_3 _, ?_⟩
  obtain ⟨e00, e01, e10, e11, e20, e21, e30, e31⟩ := idx_facts ⟨(i 0).val / 2000, by omega⟩
  rw [mem_blk]
  intro a
  match a with
  | ⟨0, _⟩ => show win0_3.index _ (0 : Fin 2) * 2000 ≤ (i 0).val ∧ (i 0).val < win0_3.index _ (0 : Fin 2) * 2000 + 2000; simp only [e30]; omega
  | ⟨1, _⟩ => show win0_3.index _ (1 : Fin 2) * 256 ≤ (i 1).val ∧ (i 1).val < win0_3.index _ (1 : Fin 2) * 256 + 256; simp only [e31]; omega

/-- The output array after the region. -/
theorem final (c : Dev nD) : (dat V c).arrAt 3 cfg0.N = G (V c main_arg0) (V c main_arg2) (V c main_v4) :=
  (dat V c).arrAt_eq_of_cover 3 (G (V c main_arg0) (V c main_arg2) (V c main_v4)) (fun t _ => flushed_eq V c t) (covered)

end Cert.KernelIdeal.R0

end
-- ==== Proof.Value1.lean ====
/-
  From blocks to the array, for region 1. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region1
import Idealize.ShloMosaic.Lib.Pipeline.Value
import Idealize.ShloMosaic.Lib.ValueIdx

set_option maxRecDepth 16384

noncomputable section

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k1_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k1_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k1_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

variable (V : (c : Dev nD) → (b : Ref sig .tc) → Buf (Elt F) ((c : Thread nD τ).loc b))

/-- The block of window 0 at point t is rows 2000·t … of its array. -/
theorem blk0_eq (c : Dev nD) (t : Fin cfg1.N) (ht : t.val < 25) :
    blk V c 0 t = rows256 (V c main_v5) ⟨t.val, ht⟩ := by
  obtain ⟨e00, e01, e10, e11, e20, e21, e30, e31, e40, e41, e50, e51, e60, e61⟩ := idx_facts t
  funext j
  show V c main_v5 (((cfg1.win 0).blk t).view.emb j) = V c main_v5 (ix2 (⟨2000 * t.val + (j 0).val, _⟩ : Fin 50000) (j 1))
  refine congrArg (V c main_v5) ?_
  funext a; apply Fin.ext
  match a with
  | ⟨0, _⟩ => show win1_0.index t (0 : Fin 2) * 2000 + 1 * (j 0).val = 2000 * t.val + (j 0).val; omega
  | ⟨1, _⟩ => show win1_0.index t (1 : Fin 2) * 256 + 1 * (j 1).val = (j 1).val; omega

/-- The block of window 1 at point t is rows 2000·t … of its array. -/
theorem blk1_eq (c : Dev nD) (t : Fin cfg1.N) (ht : t.val < 25) :
    blk V c 1 t = rows256 (V c main_v15) ⟨t.val, ht⟩ := by
  obtain ⟨e00, e01, e10, e11, e20, e21, e30, e31, e40, e41, e50, e51, e60, e61⟩ := idx_facts t
  funext j
  show V c main_v15 (((cfg1.win 1).blk t).view.emb j) = V c main_v15 (ix2 (⟨2000 * t.val + (j 0).val, _⟩ : Fin 50000) (j 1))
  refine congrArg (V c main_v15) ?_
  funext a; apply Fin.ext
  match a with
  | ⟨0, _⟩ => show win1_1.index t (0 : Fin 2) * 2000 + 1 * (j 0).val = 2000 * t.val + (j 0).val; omega
  | ⟨1, _⟩ => show win1_1.index t (1 : Fin 2) * 256 + 1 * (j 1).val = (j 1).val; omega

/-- Window 2's one block is its whole array. -/
theorem blk2_eq (c : Dev nD) (t : Fin cfg1.N) : blk V c 2 t = V c main_v17 := by
  obtain ⟨e00, e01, e10, e11, e20, e21, e30, e31, e40, e41, e50, e51, e60, e61⟩ := idx_facts t
  funext j
  show V c main_v17 (((cfg1.win 2).blk t).view.emb j) = V c main_v17 j
  refine congrArg (V c main_v17) ?_
  funext a; apply Fin.ext
  match a with
  | ⟨0, _⟩ => show win1_2.index t (0 : Fin 2) * 256 + 1 * (j 0).val = (j 0).val; omega
  | ⟨1, _⟩ => show win1_2.index t (1 : Fin 2) * 256 + 1 * (j 1).val = (j 1).val; omega

/-- Window 3's one block is its whole array. -/
theorem blk3_eq (c : Dev nD) (t : Fin cfg1.N) : blk V c 3 t = V c main_v20 := by
  obtain ⟨e00, e01, e10, e11, e20, e21, e30, e31, e40, e41, e50, e51, e60, e61⟩ := idx_facts t
  funext j
  show V c main_v20 (((cfg1.win 3).blk t).view.emb j) = V c main_v20 j
  refine congrArg (V c main_v20) ?_
  funext a; apply Fin.ext
  match a with
  | ⟨0, _⟩ => show win1_3.index t (0 : Fin 2) * 1 + 1 * (j 0).val = (j 0).val; omega
  | ⟨1, _⟩ => show win1_3.index t (1 : Fin 2) * 256 + 1 * (j 1).val = (j 1).val; omega

/-- Window 4's one block is its whole array. -/
theorem blk4_eq (c : Dev nD) (t : Fin cfg1.N) : blk V c 4 t = V c main_v22 := by
  obtain ⟨e00, e01, e10, e11, e20, e21, e30, e31, e40, e41, e50, e51, e60, e61⟩ := idx_facts t
  funext j
  show V c main_v22 (((cfg1.win 4).blk t).view.emb j) = V c main_v22 j
  refine congrArg (V c main_v22) ?_
  funext a; apply Fin.ext
  match a with
  | ⟨0, _⟩ => show win1_4.index t (0 : Fin 2) * 256 + 1 * (j 0).val = (j 0).val; omega
  | ⟨1, _⟩ => show win1_4.index t (1 : Fin 2) * 256 + 1 * (j 1).val = (j 1).val; omega

/-- Window 5's one block is its whole array. -/
theorem blk5_eq (c : Dev nD) (t : Fin cfg1.N) : blk V c 5 t = V c main_v25 := by
  obtain ⟨e00, e01, e10, e11, e20, e21, e30, e31, e40, e41, e50, e51, e60, e61⟩ := idx_facts t
  funext j
  show V c main_v25 (((cfg1.win 5).blk t).view.emb j) = V c main_v25 j
  refine congrArg (V c main_v25) ?_
  funext a; apply Fin.ext
  match a with
  | ⟨0, _⟩ => show win1_5.index t (0 : Fin 2) * 1 + 1 * (j 0).val = (j 0).val; omega
  | ⟨1, _⟩ => show win1_5.index t (1 : Fin 2) * 256 + 1 * (j 1).val = (j 1).val; omega

/-- What point t writes back is block t of `G` of the input arrays as the region finds them. -/
theorem flushed_eq (c : Dev nD) (t : Fin cfg1.N) :
    (dat V c).flushed 6 t = ((cfg1.win 6).blk t).view.read (Elt F) (G (V c main_v5) (V c main_v15) (V c main_v17) (V c main_v20) (V c main_v22) (V c main_v25)) := by
  have ht : t.val < 25 := by have := t.isLt; have hN : cfg1.N = 25 := N_1; omega
  show (cfg1.win 6).cut (grid1.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg1.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win1_6.index t (0 : Fin 2) * 2000 + 1 * (j 0).val = 2000 * t.val + (j 0).val; omega
    | ⟨1, _⟩ => show win1_6.index t (1 : Fin 2) * 256 + 1 * (j 1).val = (j 1).val; omega
  show _ = G (V c main_v5) (V c main_v15) (V c main_v17) (V c main_v20) (V c main_v22) (V c main_v25) (((cfg1.win 6).blk t).view.emb j)
  rw [hemb, G_at]
  exact congrArg _ (eq_ix2 j)

/-- An index is in point t's block iff each coordinate is in the block's range on its axis. -/
theorem mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v26).slice (win1_6.rect t)).set ↔ _
  rw [View.set_slice_whole, Rect.mem_set_unit]
  exact Iff.rfl

/-- Every row lies in the block of the point r / 2000, and every point writes back. -/
theorem covered (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : cfg1.N = 25 := N_1
  refine ⟨⟨(i 0).val / 2000, by omega⟩, flush1_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win1_6.index _ (0 : Fin 2) * 2000 ≤ (i 0).val ∧ (i 0).val < win1_6.index _ (0 : Fin 2) * 2000 + 2000; simp only [e60]; omega
  | ⟨1, _⟩ => show win1_6.index _ (1 : Fin 2) * 256 ≤ (i 1).val ∧ (i 1).val < win1_6.index _ (1 : Fin 2) * 256 + 256; simp only [e61]; omega

/-- The output array after the region. -/
theorem final (c : Dev nD) : (dat V c).arrAt 6 cfg1.N = G (V c main_v5) (V c main_v15) (V c main_v17) (V c main_v20) (V c main_v22) (V c main_v25) :=
  (dat V c).arrAt_eq_of_cover 6 (G (V c main_v5) (V c main_v15) (V c main_v17) (V c main_v20) (V c main_v22) (V c main_v25)) (fun t _ => flushed_eq V c t) (covered)

end Cert.KernelIdeal.R1

end
-- ==== Proof.Value2.lean ====
/-
  From blocks to the array, for region 2. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region2
import Idealize.ShloMosaic.Lib.Pipeline.Value
import Idealize.ShloMosaic.Lib.ValueIdx

set_option maxRecDepth 16384

noncomputable section

namespace Cert.KernelIdeal.R2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k2_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k2_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k2_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

variable (V : (c : Dev nD) → (b : Ref sig .tc) → Buf (Elt F) ((c : Thread nD τ).loc b))

/-- The block of window 0 at point t is rows 2000·t … of its array. -/
theorem blk0_eq (c : Dev nD) (t : Fin cfg2.N) (ht : t.val < 25) :
    blk V c 0 t = rows256 (V c main_v26) ⟨t.val, ht⟩ := by
  obtain ⟨e00, e01, e10, e11, e20, e21, e30, e31, e40, e41, e50, e51, e60, e61⟩ := idx_facts t
  funext j
  show V c main_v26 (((cfg2.win 0).blk t).view.emb j) = V c main_v26 (ix2 (⟨2000 * t.val + (j 0).val, _⟩ : Fin 50000) (j 1))
  refine congrArg (V c main_v26) ?_
  funext a; apply Fin.ext
  match a with
  | ⟨0, _⟩ => show win2_0.index t (0 : Fin 2) * 2000 + 1 * (j 0).val = 2000 * t.val + (j 0).val; omega
  | ⟨1, _⟩ => show win2_0.index t (1 : Fin 2) * 256 + 1 * (j 1).val = (j 1).val; omega

/-- The block of window 1 at point t is rows 2000·t … of its array. -/
theorem blk1_eq (c : Dev nD) (t : Fin cfg2.N) (ht : t.val < 25) :
    blk V c 1 t = rows256 (V c main_v36) ⟨t.val, ht⟩ := by
  obtain ⟨e00, e01, e10, e11, e20, e21, e30, e31, e40, e41, e50, e51, e60, e61⟩ := idx_facts t
  funext j
  show V c main_v36 (((cfg2.win 1).blk t).view.emb j) = V c main_v36 (ix2 (⟨2000 * t.val + (j 0).val, _⟩ : Fin 50000) (j 1))
  refine congrArg (V c main_v36) ?_
  funext a; apply Fin.ext
  match a with
  | ⟨0, _⟩ => show win2_1.index t (0 : Fin 2) * 2000 + 1 * (j 0).val = 2000 * t.val + (j 0).val; omega
  | ⟨1, _⟩ => show win2_1.index t (1 : Fin 2) * 256 + 1 * (j 1).val = (j 1).val; omega

/-- Window 2's one block is its whole array. -/
theorem blk2_eq (c : Dev nD) (t : Fin cfg2.N) : blk V c 2 t = V c main_v38 := by
  obtain ⟨e00, e01, e10, e11, e20, e21, e30, e31, e40, e41, e50, e51, e60, e61⟩ := idx_facts t
  funext j
  show V c main_v38 (((cfg2.win 2).blk t).view.emb j) = V c main_v38 j
  refine congrArg (V c main_v38) ?_
  funext a; apply Fin.ext
  match a with
  | ⟨0, _⟩ => show win2_2.index t (0 : Fin 2) * 256 + 1 * (j 0).val = (j 0).val; omega
  | ⟨1, _⟩ => show win2_2.index t (1 : Fin 2) * 256 + 1 * (j 1).val = (j 1).val; omega

/-- Window 3's one block is its whole array. -/
theorem blk3_eq (c : Dev nD) (t : Fin cfg2.N) : blk V c 3 t = V c main_v41 := by
  obtain ⟨e00, e01, e10, e11, e20, e21, e30, e31, e40, e41, e50, e51, e60, e61⟩ := idx_facts t
  funext j
  show V c main_v41 (((cfg2.win 3).blk t).view.emb j) = V c main_v41 j
  refine congrArg (V c main_v41) ?_
  funext a; apply Fin.ext
  match a with
  | ⟨0, _⟩ => show win2_3.index t (0 : Fin 2) * 1 + 1 * (j 0).val = (j 0).val; omega
  | ⟨1, _⟩ => show win2_3.index t (1 : Fin 2) * 256 + 1 * (j 1).val = (j 1).val; omega

/-- Window 4's one block is its whole array. -/
theorem blk4_eq (c : Dev nD) (t : Fin cfg2.N) : blk V c 4 t = V c main_v43 := by
  obtain ⟨e00, e01, e10, e11, e20, e21, e30, e31, e40, e41, e50, e51, e60, e61⟩ := idx_facts t
  funext j
  show V c main_v43 (((cfg2.win 4).blk t).view.emb j) = V c main_v43 j
  refine congrArg (V c main_v43) ?_
  funext a; apply Fin.ext
  match a with
  | ⟨0, _⟩ => show win2_4.index t (0 : Fin 2) * 256 + 1 * (j 0).val = (j 0).val; omega
  | ⟨1, _⟩ => show win2_4.index t (1 : Fin 2) * 256 + 1 * (j 1).val = (j 1).val; omega

/-- Window 5's one block is its whole array. -/
theorem blk5_eq (c : Dev nD) (t : Fin cfg2.N) : blk V c 5 t = V c main_v46 := by
  obtain ⟨e00, e01, e10, e11, e20, e21, e30, e31, e40, e41, e50, e51, e60, e61⟩ := idx_facts t
  funext j
  show V c main_v46 (((cfg2.win 5).blk t).view.emb j) = V c main_v46 j
  refine congrArg (V c main_v46) ?_
  funext a; apply Fin.ext
  match a with
  | ⟨0, _⟩ => show win2_5.index t (0 : Fin 2) * 1 + 1 * (j 0).val = (j 0).val; omega
  | ⟨1, _⟩ => show win2_5.index t (1 : Fin 2) * 256 + 1 * (j 1).val = (j 1).val; omega

/-- What point t writes back is block t of `G` of the input arrays as the region finds them. -/
theorem flushed_eq (c : Dev nD) (t : Fin cfg2.N) :
    (dat V c).flushed 6 t = ((cfg2.win 6).blk t).view.read (Elt F) (G (V c main_v26) (V c main_v36) (V c main_v38) (V c main_v41) (V c main_v43) (V c main_v46)) := by
  have ht : t.val < 25 := by have := t.isLt; have hN : cfg2.N = 25 := N_2; omega
  show (cfg2.win 6).cut (grid2.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg2.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win2_6.index t (0 : Fin 2) * 2000 + 1 * (j 0).val = 2000 * t.val + (j 0).val; omega
    | ⟨1, _⟩ => show win2_6.index t (1 : Fin 2) * 256 + 1 * (j 1).val = (j 1).val; omega
  show _ = G (V c main_v26) (V c main_v36) (V c main_v38) (V c main_v41) (V c main_v43) (V c main_v46) (((cfg2.win 6).blk t).view.emb j)
  rw [hemb, G_at]
  exact congrArg _ (eq_ix2 j)

/-- An index is in point t's block iff each coordinate is in the block's range on its axis. -/
theorem mem_blk (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v47).slice (win2_6.rect t)).set ↔ _
  rw [View.set_slice_whole, Rect.mem_set_unit]
  exact Iff.rfl

/-- Every row lies in the block of the point r / 2000, and every point writes back. -/
theorem covered (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 25 := N_2
  refine ⟨⟨(i 0).val / 2000, by omega⟩, flush2_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win2_6.index _ (0 : Fin 2) * 2000 ≤ (i 0).val ∧ (i 0).val < win2_6.index _ (0 : Fin 2) * 2000 + 2000; simp only [e60]; omega
  | ⟨1, _⟩ => show win2_6.index _ (1 : Fin 2) * 256 ≤ (i 1).val ∧ (i 1).val < win2_6.index _ (1 : Fin 2) * 256 + 256; simp only [e61]; omega

/-- The output array after the region. -/
theorem final (c : Dev nD) : (dat V c).arrAt 6 cfg2.N = G (V c main_v26) (V c main_v36) (V c main_v38) (V c main_v41) (V c main_v43) (V c main_v46) :=
  (dat V c).arrAt_eq_of_cover 6 (G (V c main_v26) (V c main_v36) (V c main_v38) (V c main_v41) (V c main_v43) (V c main_v46)) (fun t _ => flushed_eq V c t) (covered)

end Cert.KernelIdeal.R2

end
-- ==== Proof.Value3.lean ====
/-
  From blocks to the array, for region 3. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region3
import Idealize.ShloMosaic.Lib.Pipeline.Value
import Idealize.ShloMosaic.Lib.ValueIdx

set_option maxRecDepth 16384

noncomputable section

namespace Cert.KernelIdeal.R3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k3_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k3_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k3_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

variable (V : (c : Dev nD) → (b : Ref sig .tc) → Buf (Elt F) ((c : Thread nD τ).loc b))

/-- The block of window 0 at point t is rows 2000·t … of its array. -/
theorem blk0_eq (c : Dev nD) (t : Fin cfg3.N) (ht : t.val < 25) :
    blk V c 0 t = rows256 (V c main_v47) ⟨t.val, ht⟩ := by
  obtain ⟨e00, e01, e10, e11, e20, e21, e30, e31, e40, e41, e50, e51, e60, e61⟩ := idx_facts t
  funext j
  show V c main_v47 (((cfg3.win 0).blk t).view.emb j) = V c main_v47 (ix2 (⟨2000 * t.val + (j 0).val, _⟩ : Fin 50000) (j 1))
  refine congrArg (V c main_v47) ?_
  funext a; apply Fin.ext
  match a with
  | ⟨0, _⟩ => show win3_0.index t (0 : Fin 2) * 2000 + 1 * (j 0).val = 2000 * t.val + (j 0).val; omega
  | ⟨1, _⟩ => show win3_0.index t (1 : Fin 2) * 256 + 1 * (j 1).val = (j 1).val; omega

/-- The block of window 1 at point t is rows 2000·t … of its array. -/
theorem blk1_eq (c : Dev nD) (t : Fin cfg3.N) (ht : t.val < 25) :
    blk V c 1 t = rows256 (V c main_v57) ⟨t.val, ht⟩ := by
  obtain ⟨e00, e01, e10, e11, e20, e21, e30, e31, e40, e41, e50, e51, e60, e61⟩ := idx_facts t
  funext j
  show V c main_v57 (((cfg3.win 1).blk t).view.emb j) = V c main_v57 (ix2 (⟨2000 * t.val + (j 0).val, _⟩ : Fin 50000) (j 1))
  refine congrArg (V c main_v57) ?_
  funext a; apply Fin.ext
  match a with
  | ⟨0, _⟩ => show win3_1.index t (0 : Fin 2) * 2000 + 1 * (j 0).val = 2000 * t.val + (j 0).val; omega
  | ⟨1, _⟩ => show win3_1.index t (1 : Fin 2) * 256 + 1 * (j 1).val = (j 1).val; omega

/-- Window 2's one block is its whole array. -/
theorem blk2_eq (c : Dev nD) (t : Fin cfg3.N) : blk V c 2 t = V c main_v59 := by
  obtain ⟨e00, e01, e10, e11, e20, e21, e30, e31, e40, e41, e50, e51, e60, e61⟩ := idx_facts t
  funext j
  show V c main_v59 (((cfg3.win 2).blk t).view.emb j) = V c main_v59 j
  refine congrArg (V c main_v59) ?_
  funext a; apply Fin.ext
  match a with
  | ⟨0, _⟩ => show win3_2.index t (0 : Fin 2) * 256 + 1 * (j 0).val = (j 0).val; omega
  | ⟨1, _⟩ => show win3_2.index t (1 : Fin 2) * 256 + 1 * (j 1).val = (j 1).val; omega

/-- Window 3's one block is its whole array. -/
theorem blk3_eq (c : Dev nD) (t : Fin cfg3.N) : blk V c 3 t = V c main_v62 := by
  obtain ⟨e00, e01, e10, e11, e20, e21, e30, e31, e40, e41, e50, e51, e60, e61⟩ := idx_facts t
  funext j
  show V c main_v62 (((cfg3.win 3).blk t).view.emb j) = V c main_v62 j
  refine congrArg (V c main_v62) ?_
  funext a; apply Fin.ext
  match a with
  | ⟨0, _⟩ => show win3_3.index t (0 : Fin 2) * 1 + 1 * (j 0).val = (j 0).val; omega
  | ⟨1, _⟩ => show win3_3.index t (1 : Fin 2) * 256 + 1 * (j 1).val = (j 1).val; omega

/-- Window 4's one block is its whole array. -/
theorem blk4_eq (c : Dev nD) (t : Fin cfg3.N) : blk V c 4 t = V c main_v64 := by
  obtain ⟨e00, e01, e10, e11, e20, e21, e30, e31, e40, e41, e50, e51, e60, e61⟩ := idx_facts t
  funext j
  show V c main_v64 (((cfg3.win 4).blk t).view.emb j) = V c main_v64 j
  refine congrArg (V c main_v64) ?_
  funext a; apply Fin.ext
  match a with
  | ⟨0, _⟩ => show win3_4.index t (0 : Fin 2) * 256 + 1 * (j 0).val = (j 0).val; omega
  | ⟨1, _⟩ => show win3_4.index t (1 : Fin 2) * 256 + 1 * (j 1).val = (j 1).val; omega

/-- Window 5's one block is its whole array. -/
theorem blk5_eq (c : Dev nD) (t : Fin cfg3.N) : blk V c 5 t = V c main_v67 := by
  obtain ⟨e00, e01, e10, e11, e20, e21, e30, e31, e40, e41, e50, e51, e60, e61⟩ := idx_facts t
  funext j
  show V c main_v67 (((cfg3.win 5).blk t).view.emb j) = V c main_v67 j
  refine congrArg (V c main_v67) ?_
  funext a; apply Fin.ext
  match a with
  | ⟨0, _⟩ => show win3_5.index t (0 : Fin 2) * 1 + 1 * (j 0).val = (j 0).val; omega
  | ⟨1, _⟩ => show win3_5.index t (1 : Fin 2) * 256 + 1 * (j 1).val = (j 1).val; omega

/-- What point t writes back is block t of `G` of the input arrays as the region finds them. -/
theorem flushed_eq (c : Dev nD) (t : Fin cfg3.N) :
    (dat V c).flushed 6 t = ((cfg3.win 6).blk t).view.read (Elt F) (G (V c main_v47) (V c main_v57) (V c main_v59) (V c main_v62) (V c main_v64) (V c main_v67)) := by
  have ht : t.val < 25 := by have := t.isLt; have hN : cfg3.N = 25 := N_3; omega
  show (cfg3.win 6).cut (grid3.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg3.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win3_6.index t (0 : Fin 2) * 2000 + 1 * (j 0).val = 2000 * t.val + (j 0).val; omega
    | ⟨1, _⟩ => show win3_6.index t (1 : Fin 2) * 256 + 1 * (j 1).val = (j 1).val; omega
  show _ = G (V c main_v47) (V c main_v57) (V c main_v59) (V c main_v62) (V c main_v64) (V c main_v67) (((cfg3.win 6).blk t).view.emb j)
  rw [hemb, G_at]
  exact congrArg _ (eq_ix2 j)

/-- An index is in point t's block iff each coordinate is in the block's range on its axis. -/
theorem mem_blk (t : Fin cfg3.N) (i : S50000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v68).slice (win3_6.rect t)).set ↔ _
  rw [View.set_slice_whole, Rect.mem_set_unit]
  exact Iff.rfl

/-- Every row lies in the block of the point r / 2000, and every point writes back. -/
theorem covered (i : S50000x256.Idx) :
    ∃ t : Fin cfg3.N, (cfg3.win 6).flush t = true ∧ i ∈ ((cfg3.win 6).blk t).view.set := by
  have hi0 : (i 0).val < 50000 := (i 0).isLt
  have hi1 : (i 1).val < 256 := (i 1).isLt
  have hN : cfg3.N = 25 := N_3
  refine ⟨⟨(i 0).val / 2000, by omega⟩, flush3_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win3_6.index _ (0 : Fin 2) * 2000 ≤ (i 0).val ∧ (i 0).val < win3_6.index _ (0 : Fin 2) * 2000 + 2000; simp only [e60]; omega
  | ⟨1, _⟩ => show win3_6.index _ (1 : Fin 2) * 256 ≤ (i 1).val ∧ (i 1).val < win3_6.index _ (1 : Fin 2) * 256 + 256; simp only [e61]; omega

/-- The output array after the region. -/
theorem final (c : Dev nD) : (dat V c).arrAt 6 cfg3.N = G (V c main_v47) (V c main_v57) (V c main_v59) (V c main_v62) (V c main_v64) (V c main_v67) :=
  (dat V c).arrAt_eq_of_cover 6 (G (V c main_v47) (V c main_v57) (V c main_v59) (V c main_v62) (V c main_v64) (V c main_v67)) (fun t _ => flushed_eq V c t) (covered)

end Cert.KernelIdeal.R3

end
-- ==== Proof.Value5.lean ====
/-
  From blocks to the array, for region 5. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region5
import Idealize.ShloMosaic.Lib.Pipeline.Value
import Idealize.ShloMosaic.Lib.ValueIdx

set_option maxRecDepth 16384

noncomputable section

namespace Cert.KernelIdeal.R5

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S1x256.Idx → Elt F .f32) (a2 : S1x256.Idx → Elt F .f32) (a3 : S1x256.Idx → Elt F .f32) (a4 : S1x256.Idx → Elt F .f32) : S50000x256.Idx → Elt F .f32 := fun i =>
  k5_pay1 (rows256 a0 ⟨(i 0).val / 2000, by have h : (i 0).val < 50000 := (i 0).isLt; omega⟩) a1 a2 a3 a4
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S1x256.Idx → Elt F .f32) (a2 : S1x256.Idx → Elt F .f32) (a3 : S1x256.Idx → Elt F .f32) (a4 : S1x256.Idx → Elt F .f32) (t : Fin 25) (p : Fin 2000) (q : Fin 256) :
    G a0 a1 a2 a3 a4 (ix2 (⟨2000 * t.val + p.val, by have := p.isLt; have := t.isLt; omega⟩ : Fin 50000) q)
      = k5_pay1 (rows256 a0 t) a1 a2 a3 a4 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k5_pay1 (rows256 a0 ⟨(2000 * t.val + p.val) / 2000, _⟩) a1 a2 a3 a4 (ix2 (⟨(2000 * t.val + p.val) % 2000, _⟩ : Fin 2000) q) = _
  rw [e1, e2]

/-- The printed index maps over the grid: row-blocked windows move with the point, the others stay at block 0. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

variable (V : (c : Dev nD) → (b : Ref sig .tc) → Buf (Elt F) ((c : Thread nD τ).loc b))

/-- The block of window 0 at point t is rows 2000·t … of its array. -/
theorem blk0_eq (c : Dev nD) (t : Fin cfg5.N) (ht : t.val < 25) :
    blk V c 0 t = rows256 (V c main_v68) ⟨t.val, ht⟩ := by
  obtain ⟨e00, e01, e10, e11, e20, e21, e30, e31, e40, e41, e50, e51⟩ := idx_facts t
  funext j
  show V c main_v68 (((cfg5.win 0).blk t).view.emb j) = V c main_v68 (ix2 (⟨2000 * t.val + (j 0).val, _⟩ : Fin 50000) (j 1))
  refine congrArg (V c main_v68) ?_
  funext a; apply Fin.ext
  match a with
  | ⟨0, _⟩ => show win5_0.index t (0 : Fin 2) * 2000 + 1 * (j 0).val = 2000 * t.val + (j 0).val; omega
  | ⟨1, _⟩ => show win5_0.index t (1 : Fin 2) * 256 + 1 * (j 1).val = (j 1).val; omega

/-- Window 1's one block is its whole array. -/
theorem blk1_eq (c : Dev nD) (t : Fin cfg5.N) : blk V c 1 t = V c main_v71 := by
  obtain ⟨e00, e01, e10, e11, e20, e21, e30, e31, e40, e41, e50, e51⟩ := idx_facts t
  funext j
  show V c main_v71 (((cfg5.win 1).blk t).view.emb j) = V c main_v71 j
  refine congrArg (V c main_v71) ?_
  funext a; apply Fin.ext
  match a with
  | ⟨0, _⟩ => show win5_1.index t (0 : Fin 2) * 1 + 1 * (j 0).val = (j 0).val; omega
  | ⟨1, _⟩ => show win5_1.index t (1 : Fin 2) * 256 + 1 * (j 1).val = (j 1).val; omega

/-- Window 2's one block is its whole array. -/
theorem blk2_eq (c : Dev nD) (t : Fin cfg5.N) : blk V c 2 t = V c main_v78 := by
  obtain ⟨e00, e01, e10, e11, e20, e21, e30, e31, e40, e41, e50, e51⟩ := idx_facts t
  funext j
  show V c main_v78 (((cfg5.win 2).blk t).view.emb j) = V c main_v78 j
  refine congrArg (V c main_v78) ?_
  funext a; apply Fin.ext
  match a with
  | ⟨0, _⟩ => show win5_2.index t (0 : Fin 2) * 1 + 1 * (j 0).val = (j 0).val; omega
  | ⟨1, _⟩ => show win5_2.index t (1 : Fin 2) * 256 + 1 * (j 1).val = (j 1).val; omega

/-- Window 3's one block is its whole array. -/
theorem blk3_eq (c : Dev nD) (t : Fin cfg5.N) : blk V c 3 t = V c main_v81 := by
  obtain ⟨e00, e01, e10, e11, e20, e21, e30, e31, e40, e41, e50, e51⟩ := idx_facts t
  funext j
  show V c main_v81 (((cfg5.win 3).blk t).view.emb j) = V c main_v81 j
  refine congrArg (V c main_v81) ?_
  funext a; apply Fin.ext
  match a with
  | ⟨0, _⟩ => show win5_3.index t (0 : Fin 2) * 1 + 1 * (j 0).val = (j 0).val; omega
  | ⟨1, _⟩ => show win5_3.index t (1 : Fin 2) * 256 + 1 * (j 1).val = (j 1).val; omega

/-- Window 4's one block is its whole array. -/
theorem blk4_eq (c : Dev nD) (t : Fin cfg5.N) : blk V c 4 t = V c main_v84 := by
  obtain ⟨e00, e01, e10, e11, e20, e21, e30, e31, e40, e41, e50, e51⟩ := idx_facts t
  funext j
  show V c main_v84 (((cfg5.win 4).blk t).view.emb j) = V c main_v84 j
  refine congrArg (V c main_v84) ?_
  funext a; apply Fin.ext
  match a with
  | ⟨0, _⟩ => show win5_4.index t (0 : Fin 2) * 1 + 1 * (j 0).val = (j 0).val; omega
  | ⟨1, _⟩ => show win5_4.index t (1 : Fin 2) * 256 + 1 * (j 1).val = (j 1).val; omega

/-- What point t writes back is block t of `G` of the input arrays as the region finds them. -/
theorem flushed_eq (c : Dev nD) (t : Fin cfg5.N) :
    (dat V c).flushed 5 t = ((cfg5.win 5).blk t).view.read (Elt F) (G (V c main_v68) (V c main_v71) (V c main_v78) (V c main_v81) (V c main_v84)) := by
  have ht : t.val < 25 := by have := t.isLt; have hN : cfg5.N = 25 := N_5; omega
  show (cfg5.win 5).cut (grid5.coords t) ((dat V c).after 5 t) = _
  rw [after5]
  unfold out
  rw [View.canon_unit_zero hz]
  simp only [View.ld_unit_zero (S := S2000x256) hz, View.ld_unit_zero (S := S1x256) hz]
  rw [blk0_eq V c t ht, blk1_eq V c t, blk2_eq V c t, blk3_eq V c t, blk4_eq V c t]
  obtain ⟨e00, e01, e10, e11, e20, e21, e30, e31, e40, e41, e50, e51⟩ := idx_facts t
  funext j
  have hj1 : (j 1).val < 256 := (j 1).isLt
  have hemb : ((cfg5.win 5).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win5_5.index t (0 : Fin 2) * 2000 + 1 * (j 0).val = 2000 * t.val + (j 0).val; omega
    | ⟨1, _⟩ => show win5_5.index t (1 : Fin 2) * 256 + 1 * (j 1).val = (j 1).val; omega
  show _ = G (V c main_v68) (V c main_v71) (V c main_v78) (V c main_v81) (V c main_v84) (((cfg5.win 5).blk t).view.emb j)
  rw [hemb, G_at]
  exact congrArg _ (eq_ix2 j)

/-- An index is in point t's block iff each coordinate is in the block's range on its axis. -/
theorem mem_blk (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v85).slice (win5_5.rect t)).set ↔ _
  rw [View.set_slice_whole, Rect.mem_set_unit]
  exact Iff.rfl

/-- Every row lies in the block of the point r / 2000, and every point writes back. -/
theorem covered (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  have hN : cfg5.N = 25 := N_5
  refine ⟨⟨(i 0).val / 2000, by omega⟩, flush5_5 _, ?_⟩
  obtain ⟨e00, e01, e10, e11, e20, e21, e30, e31, e40, e41, e50, e51⟩ := idx_facts ⟨(i 0).val / 2000, by omega⟩
  rw [mem_blk]
  intro a
  match a with
  | ⟨0, _⟩ => show win5_5.index _ (0 : Fin 2) * 2000 ≤ (i 0).val ∧ (i 0).val < win5_5.index _ (0 : Fin 2) * 2000 + 2000; simp only [e50]; omega
  | ⟨1, _⟩ => show win5_5.index _ (1 : Fin 2) * 256 ≤ (i 1).val ∧ (i 1).val < win5_5.index _ (1 : Fin 2) * 256 + 256; simp only [e51]; omega

/-- The output array after the region. -/
theorem final (c : Dev nD) : (dat V c).arrAt 5 cfg5.N = G (V c main_v68) (V c main_v71) (V c main_v78) (V c main_v81) (V c main_v84) :=
  (dat V c).arrAt_eq_of_cover 5 (G (V c main_v68) (V c main_v71) (V c main_v78) (V c main_v81) (V c main_v84)) (fun t _ => flushed_eq V c t) (covered)

end Cert.KernelIdeal.R5

end
-- ==== Proof.Value6.lean ====
/-
  From blocks to the array, for region 6. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region6
import Idealize.ShloMosaic.Lib.Pipeline.Value
import Idealize.ShloMosaic.Lib.ValueIdx

set_option maxRecDepth 16384

noncomputable section

namespace Cert.KernelIdeal.R6

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k6_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k6_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k6_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = t.val
    ∧ win6_6.index t (1 : Fin 2) = 0 :=
  (by decide +kernel : ∀ t : Fin grid6.N, _)

variable (V : (c : Dev nD) → (b : Ref sig .tc) → Buf (Elt F) ((c : Thread nD τ).loc b))

/-- The block of window 0 at point t is rows 2000·t … of its array. -/
theorem blk0_eq (c : Dev nD) (t : Fin cfg6.N) (ht : t.val < 25) :
    blk V c 0 t = rows256 (V c main_v85) ⟨t.val, ht⟩ := by
  obtain ⟨e00, e01, e10, e11, e20, e21, e30, e31, e40, e41, e50, e51, e60, e61⟩ := idx_facts t
  funext j
  show V c main_v85 (((cfg6.win 0).blk t).view.emb j) = V c main_v85 (ix2 (⟨2000 * t.val + (j 0).val, _⟩ : Fin 50000) (j 1))
  refine congrArg (V c main_v85) ?_
  funext a; apply Fin.ext
  match a with
  | ⟨0, _⟩ => show win6_0.index t (0 : Fin 2) * 2000 + 1 * (j 0).val = 2000 * t.val + (j 0).val; omega
  | ⟨1, _⟩ => show win6_0.index t (1 : Fin 2) * 256 + 1 * (j 1).val = (j 1).val; omega

/-- The block of window 1 at point t is rows 2000·t … of its array. -/
theorem blk1_eq (c : Dev nD) (t : Fin cfg6.N) (ht : t.val < 25) :
    blk V c 1 t = rows256 (V c main_v95) ⟨t.val, ht⟩ := by
  obtain ⟨e00, e01, e10, e11, e20, e21, e30, e31, e40, e41, e50, e51, e60, e61⟩ := idx_facts t
  funext j
  show V c main_v95 (((cfg6.win 1).blk t).view.emb j) = V c main_v95 (ix2 (⟨2000 * t.val + (j 0).val, _⟩ : Fin 50000) (j 1))
  refine congrArg (V c main_v95) ?_
  funext a; apply Fin.ext
  match a with
  | ⟨0, _⟩ => show win6_1.index t (0 : Fin 2) * 2000 + 1 * (j 0).val = 2000 * t.val + (j 0).val; omega
  | ⟨1, _⟩ => show win6_1.index t (1 : Fin 2) * 256 + 1 * (j 1).val = (j 1).val; omega

/-- Window 2's one block is its whole array. -/
theorem blk2_eq (c : Dev nD) (t : Fin cfg6.N) : blk V c 2 t = V c main_v97 := by
  obtain ⟨e00, e01, e10, e11, e20, e21, e30, e31, e40, e41, e50, e51, e60, e61⟩ := idx_facts t
  funext j
  show V c main_v97 (((cfg6.win 2).blk t).view.emb j) = V c main_v97 j
  refine congrArg (V c main_v97) ?_
  funext a; apply Fin.ext
  match a with
  | ⟨0, _⟩ => show win6_2.index t (0 : Fin 2) * 256 + 1 * (j 0).val = (j 0).val; omega
  | ⟨1, _⟩ => show win6_2.index t (1 : Fin 2) * 256 + 1 * (j 1).val = (j 1).val; omega

/-- Window 3's one block is its whole array. -/
theorem blk3_eq (c : Dev nD) (t : Fin cfg6.N) : blk V c 3 t = V c main_v100 := by
  obtain ⟨e00, e01, e10, e11, e20, e21, e30, e31, e40, e41, e50, e51, e60, e61⟩ := idx_facts t
  funext j
  show V c main_v100 (((cfg6.win 3).blk t).view.emb j) = V c main_v100 j
  refine congrArg (V c main_v100) ?_
  funext a; apply Fin.ext
  match a with
  | ⟨0, _⟩ => show win6_3.index t (0 : Fin 2) * 1 + 1 * (j 0).val = (j 0).val; omega
  | ⟨1, _⟩ => show win6_3.index t (1 : Fin 2) * 256 + 1 * (j 1).val = (j 1).val; omega

/-- Window 4's one block is its whole array. -/
theorem blk4_eq (c : Dev nD) (t : Fin cfg6.N) : blk V c 4 t = V c main_v102 := by
  obtain ⟨e00, e01, e10, e11, e20, e21, e30, e31, e40, e41, e50, e51, e60, e61⟩ := idx_facts t
  funext j
  show V c main_v102 (((cfg6.win 4).blk t).view.emb j) = V c main_v102 j
  refine congrArg (V c main_v102) ?_
  funext a; apply Fin.ext
  match a with
  | ⟨0, _⟩ => show win6_4.index t (0 : Fin 2) * 256 + 1 * (j 0).val = (j 0).val; omega
  | ⟨1, _⟩ => show win6_4.index t (1 : Fin 2) * 256 + 1 * (j 1).val = (j 1).val; omega

/-- Window 5's one block is its whole array. -/
theorem blk5_eq (c : Dev nD) (t : Fin cfg6.N) : blk V c 5 t = V c main_v105 := by
  obtain ⟨e00, e01, e10, e11, e20, e21, e30, e31, e40, e41, e50, e51, e60, e61⟩ := idx_facts t
  funext j
  show V c main_v105 (((cfg6.win 5).blk t).view.emb j) = V c main_v105 j
  refine congrArg (V c main_v105) ?_
  funext a; apply Fin.ext
  match a with
  | ⟨0, _⟩ => show win6_5.index t (0 : Fin 2) * 1 + 1 * (j 0).val = (j 0).val; omega
  | ⟨1, _⟩ => show win6_5.index t (1 : Fin 2) * 256 + 1 * (j 1).val = (j 1).val; omega

/-- What point t writes back is block t of `G` of the input arrays as the region finds them. -/
theorem flushed_eq (c : Dev nD) (t : Fin cfg6.N) :
    (dat V c).flushed 6 t = ((cfg6.win 6).blk t).view.read (Elt F) (G (V c main_v85) (V c main_v95) (V c main_v97) (V c main_v100) (V c main_v102) (V c main_v105)) := by
  have ht : t.val < 25 := by have := t.isLt; have hN : cfg6.N = 25 := N_6; omega
  show (cfg6.win 6).cut (grid6.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg6.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win6_6.index t (0 : Fin 2) * 2000 + 1 * (j 0).val = 2000 * t.val + (j 0).val; omega
    | ⟨1, _⟩ => show win6_6.index t (1 : Fin 2) * 256 + 1 * (j 1).val = (j 1).val; omega
  show _ = G (V c main_v85) (V c main_v95) (V c main_v97) (V c main_v100) (V c main_v102) (V c main_v105) (((cfg6.win 6).blk t).view.emb j)
  rw [hemb, G_at]
  exact congrArg _ (eq_ix2 j)

/-- An index is in point t's block iff each coordinate is in the block's range on its axis. -/
theorem mem_blk (t : Fin cfg6.N) (i : S50000x256.Idx) :
    i ∈ ((cfg6.win 6).blk t).view.set ↔ ∀ a : Fin 2, win6_6.index t a * S2000x256.size a ≤ (i a).val ∧ (i a).val < win6_6.index t a * S2000x256.size a + S2000x256.size a := by
  show i ∈ ((View.whole main_v106).slice (win6_6.rect t)).set ↔ _
  rw [View.set_slice_whole, Rect.mem_set_unit]
  exact Iff.rfl

/-- Every row lies in the block of the point r / 2000, and every point writes back. -/
theorem covered (i : S50000x256.Idx) :
    ∃ t : Fin cfg6.N, (cfg6.win 6).flush t = true ∧ i ∈ ((cfg6.win 6).blk t).view.set := by
  have hi0 : (i 0).val < 50000 := (i 0).isLt
  have hi1 : (i 1).val < 256 := (i 1).isLt
  have hN : cfg6.N = 25 := N_6
  refine ⟨⟨(i 0).val / 2000, by omega⟩, flush6_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win6_6.index _ (0 : Fin 2) * 2000 ≤ (i 0).val ∧ (i 0).val < win6_6.index _ (0 : Fin 2) * 2000 + 2000; simp only [e60]; omega
  | ⟨1, _⟩ => show win6_6.index _ (1 : Fin 2) * 256 ≤ (i 1).val ∧ (i 1).val < win6_6.index _ (1 : Fin 2) * 256 + 256; simp only [e61]; omega

/-- The output array after the region. -/
theorem final (c : Dev nD) : (dat V c).arrAt 6 cfg6.N = G (V c main_v85) (V c main_v95) (V c main_v97) (V c main_v100) (V c main_v102) (V c main_v105) :=
  (dat V c).arrAt_eq_of_cover 6 (G (V c main_v85) (V c main_v95) (V c main_v97) (V c main_v100) (V c main_v102) (V c main_v105)) (fun t _ => flushed_eq V c t) (covered)

end Cert.KernelIdeal.R6

end
-- ==== Proof.Value7.lean ====
/-
  From blocks to the array, for region 7. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region7
import Idealize.ShloMosaic.Lib.Pipeline.Value
import Idealize.ShloMosaic.Lib.ValueIdx

set_option maxRecDepth 16384

noncomputable section

namespace Cert.KernelIdeal.R7

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k7_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k7_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k7_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = t.val
    ∧ win7_6.index t (1 : Fin 2) = 0 :=
  (by decide +kernel : ∀ t : Fin grid7.N, _)

variable (V : (c : Dev nD) → (b : Ref sig .tc) → Buf (Elt F) ((c : Thread nD τ).loc b))

/-- The block of window 0 at point t is rows 2000·t … of its array. -/
theorem blk0_eq (c : Dev nD) (t : Fin cfg7.N) (ht : t.val < 25) :
    blk V c 0 t = rows256 (V c main_v106) ⟨t.val, ht⟩ := by
  obtain ⟨e00, e01, e10, e11, e20, e21, e30, e31, e40, e41, e50, e51, e60, e61⟩ := idx_facts t
  funext j
  show V c main_v106 (((cfg7.win 0).blk t).view.emb j) = V c main_v106 (ix2 (⟨2000 * t.val + (j 0).val, _⟩ : Fin 50000) (j 1))
  refine congrArg (V c main_v106) ?_
  funext a; apply Fin.ext
  match a with
  | ⟨0, _⟩ => show win7_0.index t (0 : Fin 2) * 2000 + 1 * (j 0).val = 2000 * t.val + (j 0).val; omega
  | ⟨1, _⟩ => show win7_0.index t (1 : Fin 2) * 256 + 1 * (j 1).val = (j 1).val; omega

/-- The block of window 1 at point t is rows 2000·t … of its array. -/
theorem blk1_eq (c : Dev nD) (t : Fin cfg7.N) (ht : t.val < 25) :
    blk V c 1 t = rows256 (V c main_v116) ⟨t.val, ht⟩ := by
  obtain ⟨e00, e01, e10, e11, e20, e21, e30, e31, e40, e41, e50, e51, e60, e61⟩ := idx_facts t
  funext j
  show V c main_v116 (((cfg7.win 1).blk t).view.emb j) = V c main_v116 (ix2 (⟨2000 * t.val + (j 0).val, _⟩ : Fin 50000) (j 1))
  refine congrArg (V c main_v116) ?_
  funext a; apply Fin.ext
  match a with
  | ⟨0, _⟩ => show win7_1.index t (0 : Fin 2) * 2000 + 1 * (j 0).val = 2000 * t.val + (j 0).val; omega
  | ⟨1, _⟩ => show win7_1.index t (1 : Fin 2) * 256 + 1 * (j 1).val = (j 1).val; omega

/-- Window 2's one block is its whole array. -/
theorem blk2_eq (c : Dev nD) (t : Fin cfg7.N) : blk V c 2 t = V c main_v118 := by
  obtain ⟨e00, e01, e10, e11, e20, e21, e30, e31, e40, e41, e50, e51, e60, e61⟩ := idx_facts t
  funext j
  show V c main_v118 (((cfg7.win 2).blk t).view.emb j) = V c main_v118 j
  refine congrArg (V c main_v118) ?_
  funext a; apply Fin.ext
  match a with
  | ⟨0, _⟩ => show win7_2.index t (0 : Fin 2) * 256 + 1 * (j 0).val = (j 0).val; omega
  | ⟨1, _⟩ => show win7_2.index t (1 : Fin 2) * 256 + 1 * (j 1).val = (j 1).val; omega

/-- Window 3's one block is its whole array. -/
theorem blk3_eq (c : Dev nD) (t : Fin cfg7.N) : blk V c 3 t = V c main_v121 := by
  obtain ⟨e00, e01, e10, e11, e20, e21, e30, e31, e40, e41, e50, e51, e60, e61⟩ := idx_facts t
  funext j
  show V c main_v121 (((cfg7.win 3).blk t).view.emb j) = V c main_v121 j
  refine congrArg (V c main_v121) ?_
  funext a; apply Fin.ext
  match a with
  | ⟨0, _⟩ => show win7_3.index t (0 : Fin 2) * 1 + 1 * (j 0).val = (j 0).val; omega
  | ⟨1, _⟩ => show win7_3.index t (1 : Fin 2) * 256 + 1 * (j 1).val = (j 1).val; omega

/-- Window 4's one block is its whole array. -/
theorem blk4_eq (c : Dev nD) (t : Fin cfg7.N) : blk V c 4 t = V c main_v123 := by
  obtain ⟨e00, e01, e10, e11, e20, e21, e30, e31, e40, e41, e50, e51, e60, e61⟩ := idx_facts t
  funext j
  show V c main_v123 (((cfg7.win 4).blk t).view.emb j) = V c main_v123 j
  refine congrArg (V c main_v123) ?_
  funext a; apply Fin.ext
  match a with
  | ⟨0, _⟩ => show win7_4.index t (0 : Fin 2) * 256 + 1 * (j 0).val = (j 0).val; omega
  | ⟨1, _⟩ => show win7_4.index t (1 : Fin 2) * 256 + 1 * (j 1).val = (j 1).val; omega

/-- Window 5's one block is its whole array. -/
theorem blk5_eq (c : Dev nD) (t : Fin cfg7.N) : blk V c 5 t = V c main_v126 := by
  obtain ⟨e00, e01, e10, e11, e20, e21, e30, e31, e40, e41, e50, e51, e60, e61⟩ := idx_facts t
  funext j
  show V c main_v126 (((cfg7.win 5).blk t).view.emb j) = V c main_v126 j
  refine congrArg (V c main_v126) ?_
  funext a; apply Fin.ext
  match a with
  | ⟨0, _⟩ => show win7_5.index t (0 : Fin 2) * 1 + 1 * (j 0).val = (j 0).val; omega
  | ⟨1, _⟩ => show win7_5.index t (1 : Fin 2) * 256 + 1 * (j 1).val = (j 1).val; omega

/-- What point t writes back is block t of `G` of the input arrays as the region finds them. -/
theorem flushed_eq (c : Dev nD) (t : Fin cfg7.N) :
    (dat V c).flushed 6 t = ((cfg7.win 6).blk t).view.read (Elt F) (G (V c main_v106) (V c main_v116) (V c main_v118) (V c main_v121) (V c main_v123) (V c main_v126)) := by
  have ht : t.val < 25 := by have := t.isLt; have hN : cfg7.N = 25 := N_7; omega
  show (cfg7.win 6).cut (grid7.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg7.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win7_6.index t (0 : Fin 2) * 2000 + 1 * (j 0).val = 2000 * t.val + (j 0).val; omega
    | ⟨1, _⟩ => show win7_6.index t (1 : Fin 2) * 256 + 1 * (j 1).val = (j 1).val; omega
  show _ = G (V c main_v106) (V c main_v116) (V c main_v118) (V c main_v121) (V c main_v123) (V c main_v126) (((cfg7.win 6).blk t).view.emb j)
  rw [hemb, G_at]
  exact congrArg _ (eq_ix2 j)

/-- An index is in point t's block iff each coordinate is in the block's range on its axis. -/
theorem mem_blk (t : Fin cfg7.N) (i : S50000x256.Idx) :
    i ∈ ((cfg7.win 6).blk t).view.set ↔ ∀ a : Fin 2, win7_6.index t a * S2000x256.size a ≤ (i a).val ∧ (i a).val < win7_6.index t a * S2000x256.size a + S2000x256.size a := by
  show i ∈ ((View.whole main_v127).slice (win7_6.rect t)).set ↔ _
  rw [View.set_slice_whole, Rect.mem_set_unit]
  exact Iff.rfl

/-- Every row lies in the block of the point r / 2000, and every point writes back. -/
theorem covered (i : S50000x256.Idx) :
    ∃ t : Fin cfg7.N, (cfg7.win 6).flush t = true ∧ i ∈ ((cfg7.win 6).blk t).view.set := by
  have hi0 : (i 0).val < 50000 := (i 0).isLt
  have hi1 : (i 1).val < 256 := (i 1).isLt
  have hN : cfg7.N = 25 := N_7
  refine ⟨⟨(i 0).val / 2000, by omega⟩, flush7_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win7_6.index _ (0 : Fin 2) * 2000 ≤ (i 0).val ∧ (i 0).val < win7_6.index _ (0 : Fin 2) * 2000 + 2000; simp only [e60]; omega
  | ⟨1, _⟩ => show win7_6.index _ (1 : Fin 2) * 256 ≤ (i 1).val ∧ (i 1).val < win7_6.index _ (1 : Fin 2) * 256 + 256; simp only [e61]; omega

/-- The output array after the region. -/
theorem final (c : Dev nD) : (dat V c).arrAt 6 cfg7.N = G (V c main_v106) (V c main_v116) (V c main_v118) (V c main_v121) (V c main_v123) (V c main_v126) :=
  (dat V c).arrAt_eq_of_cover 6 (G (V c main_v106) (V c main_v116) (V c main_v118) (V c main_v121) (V c main_v123) (V c main_v126)) (fun t _ => flushed_eq V c t) (covered)

end Cert.KernelIdeal.R7

end
-- ==== Proof.Value8.lean ====
/-
  From blocks to the array, for region 8. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region8
import Idealize.ShloMosaic.Lib.Pipeline.Value
import Idealize.ShloMosaic.Lib.ValueIdx

set_option maxRecDepth 16384

noncomputable section

namespace Cert.KernelIdeal.R8

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k8_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k8_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k8_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = t.val
    ∧ win8_6.index t (1 : Fin 2) = 0 :=
  (by decide +kernel : ∀ t : Fin grid8.N, _)

variable (V : (c : Dev nD) → (b : Ref sig .tc) → Buf (Elt F) ((c : Thread nD τ).loc b))

/-- The block of window 0 at point t is rows 2000·t … of its array. -/
theorem blk0_eq (c : Dev nD) (t : Fin cfg8.N) (ht : t.val < 25) :
    blk V c 0 t = rows256 (V c main_v127) ⟨t.val, ht⟩ := by
  obtain ⟨e00, e01, e10, e11, e20, e21, e30, e31, e40, e41, e50, e51, e60, e61⟩ := idx_facts t
  funext j
  show V c main_v127 (((cfg8.win 0).blk t).view.emb j) = V c main_v127 (ix2 (⟨2000 * t.val + (j 0).val, _⟩ : Fin 50000) (j 1))
  refine congrArg (V c main_v127) ?_
  funext a; apply Fin.ext
  match a with
  | ⟨0, _⟩ => show win8_0.index t (0 : Fin 2) * 2000 + 1 * (j 0).val = 2000 * t.val + (j 0).val; omega
  | ⟨1, _⟩ => show win8_0.index t (1 : Fin 2) * 256 + 1 * (j 1).val = (j 1).val; omega

/-- The block of window 1 at point t is rows 2000·t … of its array. -/
theorem blk1_eq (c : Dev nD) (t : Fin cfg8.N) (ht : t.val < 25) :
    blk V c 1 t = rows256 (V c main_v137) ⟨t.val, ht⟩ := by
  obtain ⟨e00, e01, e10, e11, e20, e21, e30, e31, e40, e41, e50, e51, e60, e61⟩ := idx_facts t
  funext j
  show V c main_v137 (((cfg8.win 1).blk t).view.emb j) = V c main_v137 (ix2 (⟨2000 * t.val + (j 0).val, _⟩ : Fin 50000) (j 1))
  refine congrArg (V c main_v137) ?_
  funext a; apply Fin.ext
  match a with
  | ⟨0, _⟩ => show win8_1.index t (0 : Fin 2) * 2000 + 1 * (j 0).val = 2000 * t.val + (j 0).val; omega
  | ⟨1, _⟩ => show win8_1.index t (1 : Fin 2) * 256 + 1 * (j 1).val = (j 1).val; omega

/-- Window 2's one block is its whole array. -/
theorem blk2_eq (c : Dev nD) (t : Fin cfg8.N) : blk V c 2 t = V c main_v139 := by
  obtain ⟨e00, e01, e10, e11, e20, e21, e30, e31, e40, e41, e50, e51, e60, e61⟩ := idx_facts t
  funext j
  show V c main_v139 (((cfg8.win 2).blk t).view.emb j) = V c main_v139 j
  refine congrArg (V c main_v139) ?_
  funext a; apply Fin.ext
  match a with
  | ⟨0, _⟩ => show win8_2.index t (0 : Fin 2) * 256 + 1 * (j 0).val = (j 0).val; omega
  | ⟨1, _⟩ => show win8_2.index t (1 : Fin 2) * 256 + 1 * (j 1).val = (j 1).val; omega

/-- Window 3's one block is its whole array. -/
theorem blk3_eq (c : Dev nD) (t : Fin cfg8.N) : blk V c 3 t = V c main_v142 := by
  obtain ⟨e00, e01, e10, e11, e20, e21, e30, e31, e40, e41, e50, e51, e60, e61⟩ := idx_facts t
  funext j
  show V c main_v142 (((cfg8.win 3).blk t).view.emb j) = V c main_v142 j
  refine congrArg (V c main_v142) ?_
  funext a; apply Fin.ext
  match a with
  | ⟨0, _⟩ => show win8_3.index t (0 : Fin 2) * 1 + 1 * (j 0).val = (j 0).val; omega
  | ⟨1, _⟩ => show win8_3.index t (1 : Fin 2) * 256 + 1 * (j 1).val = (j 1).val; omega

/-- Window 4's one block is its whole array. -/
theorem blk4_eq (c : Dev nD) (t : Fin cfg8.N) : blk V c 4 t = V c main_v144 := by
  obtain ⟨e00, e01, e10, e11, e20, e21, e30, e31, e40, e41, e50, e51, e60, e61⟩ := idx_facts t
  funext j
  show V c main_v144 (((cfg8.win 4).blk t).view.emb j) = V c main_v144 j
  refine congrArg (V c main_v144) ?_
  funext a; apply Fin.ext
  match a with
  | ⟨0, _⟩ => show win8_4.index t (0 : Fin 2) * 256 + 1 * (j 0).val = (j 0).val; omega
  | ⟨1, _⟩ => show win8_4.index t (1 : Fin 2) * 256 + 1 * (j 1).val = (j 1).val; omega

/-- Window 5's one block is its whole array. -/
theorem blk5_eq (c : Dev nD) (t : Fin cfg8.N) : blk V c 5 t = V c main_v147 := by
  obtain ⟨e00, e01, e10, e11, e20, e21, e30, e31, e40, e41, e50, e51, e60, e61⟩ := idx_facts t
  funext j
  show V c main_v147 (((cfg8.win 5).blk t).view.emb j) = V c main_v147 j
  refine congrArg (V c main_v147) ?_
  funext a; apply Fin.ext
  match a with
  | ⟨0, _⟩ => show win8_5.index t (0 : Fin 2) * 1 + 1 * (j 0).val = (j 0).val; omega
  | ⟨1, _⟩ => show win8_5.index t (1 : Fin 2) * 256 + 1 * (j 1).val = (j 1).val; omega

/-- What point t writes back is block t of `G` of the input arrays as the region finds them. -/
theorem flushed_eq (c : Dev nD) (t : Fin cfg8.N) :
    (dat V c).flushed 6 t = ((cfg8.win 6).blk t).view.read (Elt F) (G (V c main_v127) (V c main_v137) (V c main_v139) (V c main_v142) (V c main_v144) (V c main_v147)) := by
  have ht : t.val < 25 := by have := t.isLt; have hN : cfg8.N = 25 := N_8; omega
  show (cfg8.win 6).cut (grid8.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg8.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win8_6.index t (0 : Fin 2) * 2000 + 1 * (j 0).val = 2000 * t.val + (j 0).val; omega
    | ⟨1, _⟩ => show win8_6.index t (1 : Fin 2) * 256 + 1 * (j 1).val = (j 1).val; omega
  show _ = G (V c main_v127) (V c main_v137) (V c main_v139) (V c main_v142) (V c main_v144) (V c main_v147) (((cfg8.win 6).blk t).view.emb j)
  rw [hemb, G_at]
  exact congrArg _ (eq_ix2 j)

/-- An index is in point t's block iff each coordinate is in the block's range on its axis. -/
theorem mem_blk (t : Fin cfg8.N) (i : S50000x256.Idx) :
    i ∈ ((cfg8.win 6).blk t).view.set ↔ ∀ a : Fin 2, win8_6.index t a * S2000x256.size a ≤ (i a).val ∧ (i a).val < win8_6.index t a * S2000x256.size a + S2000x256.size a := by
  show i ∈ ((View.whole main_v148).slice (win8_6.rect t)).set ↔ _
  rw [View.set_slice_whole, Rect.mem_set_unit]
  exact Iff.rfl

/-- Every row lies in the block of the point r / 2000, and every point writes back. -/
theorem covered (i : S50000x256.Idx) :
    ∃ t : Fin cfg8.N, (cfg8.win 6).flush t = true ∧ i ∈ ((cfg8.win 6).blk t).view.set := by
  have hi0 : (i 0).val < 50000 := (i 0).isLt
  have hi1 : (i 1).val < 256 := (i 1).isLt
  have hN : cfg8.N = 25 := N_8
  refine ⟨⟨(i 0).val / 2000, by omega⟩, flush8_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win8_6.index _ (0 : Fin 2) * 2000 ≤ (i 0).val ∧ (i 0).val < win8_6.index _ (0 : Fin 2) * 2000 + 2000; simp only [e60]; omega
  | ⟨1, _⟩ => show win8_6.index _ (1 : Fin 2) * 256 ≤ (i 1).val ∧ (i 1).val < win8_6.index _ (1 : Fin 2) * 256 + 256; simp only [e61]; omega

/-- The output array after the region. -/
theorem final (c : Dev nD) : (dat V c).arrAt 6 cfg8.N = G (V c main_v127) (V c main_v137) (V c main_v139) (V c main_v142) (V c main_v144) (V c main_v147) :=
  (dat V c).arrAt_eq_of_cover 6 (G (V c main_v127) (V c main_v137) (V c main_v139) (V c main_v142) (V c main_v144) (V c main_v147)) (fun t _ => flushed_eq V c t) (covered)

end Cert.KernelIdeal.R8

end
-- ==== Proof.Value10.lean ====
/-
  From blocks to the array, for region 10. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region10
import Idealize.ShloMosaic.Lib.Pipeline.Value
import Idealize.ShloMosaic.Lib.ValueIdx

set_option maxRecDepth 16384

noncomputable section

namespace Cert.KernelIdeal.R10

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S1x256.Idx → Elt F .f32) (a2 : S1x256.Idx → Elt F .f32) (a3 : S1x256.Idx → Elt F .f32) (a4 : S1x256.Idx → Elt F .f32) : S50000x256.Idx → Elt F .f32 := fun i =>
  k10_pay1 (rows256 a0 ⟨(i 0).val / 2000, by have h : (i 0).val < 50000 := (i 0).isLt; omega⟩) a1 a2 a3 a4
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S1x256.Idx → Elt F .f32) (a2 : S1x256.Idx → Elt F .f32) (a3 : S1x256.Idx → Elt F .f32) (a4 : S1x256.Idx → Elt F .f32) (t : Fin 25) (p : Fin 2000) (q : Fin 256) :
    G a0 a1 a2 a3 a4 (ix2 (⟨2000 * t.val + p.val, by have := p.isLt; have := t.isLt; omega⟩ : Fin 50000) q)
      = k10_pay1 (rows256 a0 t) a1 a2 a3 a4 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k10_pay1 (rows256 a0 ⟨(2000 * t.val + p.val) / 2000, _⟩) a1 a2 a3 a4 (ix2 (⟨(2000 * t.val + p.val) % 2000, _⟩ : Fin 2000) q) = _
  rw [e1, e2]

/-- The printed index maps over the grid: row-blocked windows move with the point, the others stay at block 0. -/
theorem idx_facts : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = t.val
    ∧ win10_5.index t (1 : Fin 2) = 0 :=
  (by decide +kernel : ∀ t : Fin grid10.N, _)

variable (V : (c : Dev nD) → (b : Ref sig .tc) → Buf (Elt F) ((c : Thread nD τ).loc b))

/-- The block of window 0 at point t is rows 2000·t … of its array. -/
theorem blk0_eq (c : Dev nD) (t : Fin cfg10.N) (ht : t.val < 25) :
    blk V c 0 t = rows256 (V c main_v148) ⟨t.val, ht⟩ := by
  obtain ⟨e00, e01, e10, e11, e20, e21, e30, e31, e40, e41, e50, e51⟩ := idx_facts t
  funext j
  show V c main_v148 (((cfg10.win 0).blk t).view.emb j) = V c main_v148 (ix2 (⟨2000 * t.val + (j 0).val, _⟩ : Fin 50000) (j 1))
  refine congrArg (V c main_v148) ?_
  funext a; apply Fin.ext
  match a with
  | ⟨0, _⟩ => show win10_0.index t (0 : Fin 2) * 2000 + 1 * (j 0).val = 2000 * t.val + (j 0).val; omega
  | ⟨1, _⟩ => show win10_0.index t (1 : Fin 2) * 256 + 1 * (j 1).val = (j 1).val; omega

/-- Window 1's one block is its whole array. -/
theorem blk1_eq (c : Dev nD) (t : Fin cfg10.N) : blk V c 1 t = V c main_v151 := by
  obtain ⟨e00, e01, e10, e11, e20, e21, e30, e31, e40, e41, e50, e51⟩ := idx_facts t
  funext j
  show V c main_v151 (((cfg10.win 1).blk t).view.emb j) = V c main_v151 j
  refine congrArg (V c main_v151) ?_
  funext a; apply Fin.ext
  match a with
  | ⟨0, _⟩ => show win10_1.index t (0 : Fin 2) * 1 + 1 * (j 0).val = (j 0).val; omega
  | ⟨1, _⟩ => show win10_1.index t (1 : Fin 2) * 256 + 1 * (j 1).val = (j 1).val; omega

/-- Window 2's one block is its whole array. -/
theorem blk2_eq (c : Dev nD) (t : Fin cfg10.N) : blk V c 2 t = V c main_v158 := by
  obtain ⟨e00, e01, e10, e11, e20, e21, e30, e31, e40, e41, e50, e51⟩ := idx_facts t
  funext j
  show V c main_v158 (((cfg10.win 2).blk t).view.emb j) = V c main_v158 j
  refine congrArg (V c main_v158) ?_
  funext a; apply Fin.ext
  match a with
  | ⟨0, _⟩ => show win10_2.index t (0 : Fin 2) * 1 + 1 * (j 0).val = (j 0).val; omega
  | ⟨1, _⟩ => show win10_2.index t (1 : Fin 2) * 256 + 1 * (j 1).val = (j 1).val; omega

/-- Window 3's one block is its whole array. -/
theorem blk3_eq (c : Dev nD) (t : Fin cfg10.N) : blk V c 3 t = V c main_v161 := by
  obtain ⟨e00, e01, e10, e11, e20, e21, e30, e31, e40, e41, e50, e51⟩ := idx_facts t
  funext j
  show V c main_v161 (((cfg10.win 3).blk t).view.emb j) = V c main_v161 j
  refine congrArg (V c main_v161) ?_
  funext a; apply Fin.ext
  match a with
  | ⟨0, _⟩ => show win10_3.index t (0 : Fin 2) * 1 + 1 * (j 0).val = (j 0).val; omega
  | ⟨1, _⟩ => show win10_3.index t (1 : Fin 2) * 256 + 1 * (j 1).val = (j 1).val; omega

/-- Window 4's one block is its whole array. -/
theorem blk4_eq (c : Dev nD) (t : Fin cfg10.N) : blk V c 4 t = V c main_v164 := by
  obtain ⟨e00, e01, e10, e11, e20, e21, e30, e31, e40, e41, e50, e51⟩ := idx_facts t
  funext j
  show V c main_v164 (((cfg10.win 4).blk t).view.emb j) = V c main_v164 j
  refine congrArg (V c main_v164) ?_
  funext a; apply Fin.ext
  match a with
  | ⟨0, _⟩ => show win10_4.index t (0 : Fin 2) * 1 + 1 * (j 0).val = (j 0).val; omega
  | ⟨1, _⟩ => show win10_4.index t (1 : Fin 2) * 256 + 1 * (j 1).val = (j 1).val; omega

/-- What point t writes back is block t of `G` of the input arrays as the region finds them. -/
theorem flushed_eq (c : Dev nD) (t : Fin cfg10.N) :
    (dat V c).flushed 5 t = ((cfg10.win 5).blk t).view.read (Elt F) (G (V c main_v148) (V c main_v151) (V c main_v158) (V c main_v161) (V c main_v164)) := by
  have ht : t.val < 25 := by have := t.isLt; have hN : cfg10.N = 25 := N_10; omega
  show (cfg10.win 5).cut (grid10.coords t) ((dat V c).after 5 t) = _
  rw [after5]
  unfold out
  rw [View.canon_unit_zero hz]
  simp only [View.ld_unit_zero (S := S2000x256) hz, View.ld_unit_zero (S := S1x256) hz]
  rw [blk0_eq V c t ht, blk1_eq V c t, blk2_eq V c t, blk3_eq V c t, blk4_eq V c t]
  obtain ⟨e00, e01, e10, e11, e20, e21, e30, e31, e40, e41, e50, e51⟩ := idx_facts t
  funext j
  have hj1 : (j 1).val < 256 := (j 1).isLt
  have hemb : ((cfg10.win 5).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win10_5.index t (0 : Fin 2) * 2000 + 1 * (j 0).val = 2000 * t.val + (j 0).val; omega
    | ⟨1, _⟩ => show win10_5.index t (1 : Fin 2) * 256 + 1 * (j 1).val = (j 1).val; omega
  show _ = G (V c main_v148) (V c main_v151) (V c main_v158) (V c main_v161) (V c main_v164) (((cfg10.win 5).blk t).view.emb j)
  rw [hemb, G_at]
  exact congrArg _ (eq_ix2 j)

/-- An index is in point t's block iff each coordinate is in the block's range on its axis. -/
theorem mem_blk (t : Fin cfg10.N) (i : S50000x256.Idx) :
    i ∈ ((cfg10.win 5).blk t).view.set ↔ ∀ a : Fin 2, win10_5.index t a * S2000x256.size a ≤ (i a).val ∧ (i a).val < win10_5.index t a * S2000x256.size a + S2000x256.size a := by
  show i ∈ ((View.whole main_v165).slice (win10_5.rect t)).set ↔ _
  rw [View.set_slice_whole, Rect.mem_set_unit]
  exact Iff.rfl

/-- Every row lies in the block of the point r / 2000, and every point writes back. -/
theorem covered (i : S50000x256.Idx) :
    ∃ t : Fin cfg10.N, (cfg10.win 5).flush t = true ∧ i ∈ ((cfg10.win 5).blk t).view.set := by
  have hi0 : (i 0).val < 50000 := (i 0).isLt
  have hi1 : (i 1).val < 256 := (i 1).isLt
  have hN : cfg10.N = 25 := N_10
  refine ⟨⟨(i 0).val / 2000, by omega⟩, flush10_5 _, ?_⟩
  obtain ⟨e00, e01, e10, e11, e20, e21, e30, e31, e40, e41, e50, e51⟩ := idx_facts ⟨(i 0).val / 2000, by omega⟩
  rw [mem_blk]
  intro a
  match a with
  | ⟨0, _⟩ => show win10_5.index _ (0 : Fin 2) * 2000 ≤ (i 0).val ∧ (i 0).val < win10_5.index _ (0 : Fin 2) * 2000 + 2000; simp only [e50]; omega
  | ⟨1, _⟩ => show win10_5.index _ (1 : Fin 2) * 256 ≤ (i 1).val ∧ (i 1).val < win10_5.index _ (1 : Fin 2) * 256 + 256; simp only [e51]; omega

/-- The output array after the region. -/
theorem final (c : Dev nD) : (dat V c).arrAt 5 cfg10.N = G (V c main_v148) (V c main_v151) (V c main_v158) (V c main_v161) (V c main_v164) :=
  (dat V c).arrAt_eq_of_cover 5 (G (V c main_v148) (V c main_v151) (V c main_v158) (V c main_v161) (V c main_v164)) (fun t _ => flushed_eq V c t) (covered)

end Cert.KernelIdeal.R10

end
-- ==== Proof.Value11.lean ====
/-
  From blocks to the array, for region 11. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region11
import Idealize.ShloMosaic.Lib.Pipeline.Value
import Idealize.ShloMosaic.Lib.ValueIdx

set_option maxRecDepth 16384

noncomputable section

namespace Cert.KernelIdeal.R11

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k11_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k11_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k11_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg11.N, win11_0.index t (0 : Fin 2) = t.val
    ∧ win11_0.index t (1 : Fin 2) = 0
    ∧ win11_1.index t (0 : Fin 2) = t.val
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = 0
    ∧ win11_5.index t (1 : Fin 2) = 0
    ∧ win11_6.index t (0 : Fin 2) = t.val
    ∧ win11_6.index t (1 : Fin 2) = 0 :=
  (by decide +kernel : ∀ t : Fin grid11.N, _)

variable (V : (c : Dev nD) → (b : Ref sig .tc) → Buf (Elt F) ((c : Thread nD τ).loc b))

/-- The block of window 0 at point t is rows 2000·t … of its array. -/
theorem blk0_eq (c : Dev nD) (t : Fin cfg11.N) (ht : t.val < 25) :
    blk V c 0 t = rows256 (V c main_v165) ⟨t.val, ht⟩ := by
  obtain ⟨e00, e01, e10, e11, e20, e21, e30, e31, e40, e41, e50, e51, e60, e61⟩ := idx_facts t
  funext j
  show V c main_v165 (((cfg11.win 0).blk t).view.emb j) = V c main_v165 (ix2 (⟨2000 * t.val + (j 0).val, _⟩ : Fin 50000) (j 1))
  refine congrArg (V c main_v165) ?_
  funext a; apply Fin.ext
  match a with
  | ⟨0, _⟩ => show win11_0.index t (0 : Fin 2) * 2000 + 1 * (j 0).val = 2000 * t.val + (j 0).val; omega
  | ⟨1, _⟩ => show win11_0.index t (1 : Fin 2) * 256 + 1 * (j 1).val = (j 1).val; omega

/-- The block of window 1 at point t is rows 2000·t … of its array. -/
theorem blk1_eq (c : Dev nD) (t : Fin cfg11.N) (ht : t.val < 25) :
    blk V c 1 t = rows256 (V c main_v175) ⟨t.val, ht⟩ := by
  obtain ⟨e00, e01, e10, e11, e20, e21, e30, e31, e40, e41, e50, e51, e60, e61⟩ := idx_facts t
  funext j
  show V c main_v175 (((cfg11.win 1).blk t).view.emb j) = V c main_v175 (ix2 (⟨2000 * t.val + (j 0).val, _⟩ : Fin 50000) (j 1))
  refine congrArg (V c main_v175) ?_
  funext a; apply Fin.ext
  match a with
  | ⟨0, _⟩ => show win11_1.index t (0 : Fin 2) * 2000 + 1 * (j 0).val = 2000 * t.val + (j 0).val; omega
  | ⟨1, _⟩ => show win11_1.index t (1 : Fin 2) * 256 + 1 * (j 1).val = (j 1).val; omega

/-- Window 2's one block is its whole array. -/
theorem blk2_eq (c : Dev nD) (t : Fin cfg11.N) : blk V c 2 t = V c main_v177 := by
  obtain ⟨e00, e01, e10, e11, e20, e21, e30, e31, e40, e41, e50, e51, e60, e61⟩ := idx_facts t
  funext j
  show V c main_v177 (((cfg11.win 2).blk t).view.emb j) = V c main_v177 j
  refine congrArg (V c main_v177) ?_
  funext a; apply Fin.ext
  match a with
  | ⟨0, _⟩ => show win11_2.index t (0 : Fin 2) * 256 + 1 * (j 0).val = (j 0).val; omega
  | ⟨1, _⟩ => show win11_2.index t (1 : Fin 2) * 256 + 1 * (j 1).val = (j 1).val; omega

/-- Window 3's one block is its whole array. -/
theorem blk3_eq (c : Dev nD) (t : Fin cfg11.N) : blk V c 3 t = V c main_v180 := by
  obtain ⟨e00, e01, e10, e11, e20, e21, e30, e31, e40, e41, e50, e51, e60, e61⟩ := idx_facts t
  funext j
  show V c main_v180 (((cfg11.win 3).blk t).view.emb j) = V c main_v180 j
  refine congrArg (V c main_v180) ?_
  funext a; apply Fin.ext
  match a with
  | ⟨0, _⟩ => show win11_3.index t (0 : Fin 2) * 1 + 1 * (j 0).val = (j 0).val; omega
  | ⟨1, _⟩ => show win11_3.index t (1 : Fin 2) * 256 + 1 * (j 1).val = (j 1).val; omega

/-- Window 4's one block is its whole array. -/
theorem blk4_eq (c : Dev nD) (t : Fin cfg11.N) : blk V c 4 t = V c main_v182 := by
  obtain ⟨e00, e01, e10, e11, e20, e21, e30, e31, e40, e41, e50, e51, e60, e61⟩ := idx_facts t
  funext j
  show V c main_v182 (((cfg11.win 4).blk t).view.emb j) = V c main_v182 j
  refine congrArg (V c main_v182) ?_
  funext a; apply Fin.ext
  match a with
  | ⟨0, _⟩ => show win11_4.index t (0 : Fin 2) * 256 + 1 * (j 0).val = (j 0).val; omega
  | ⟨1, _⟩ => show win11_4.index t (1 : Fin 2) * 256 + 1 * (j 1).val = (j 1).val; omega

/-- Window 5's one block is its whole array. -/
theorem blk5_eq (c : Dev nD) (t : Fin cfg11.N) : blk V c 5 t = V c main_v185 := by
  obtain ⟨e00, e01, e10, e11, e20, e21, e30, e31, e40, e41, e50, e51, e60, e61⟩ := idx_facts t
  funext j
  show V c main_v185 (((cfg11.win 5).blk t).view.emb j) = V c main_v185 j
  refine congrArg (V c main_v185) ?_
  funext a; apply Fin.ext
  match a with
  | ⟨0, _⟩ => show win11_5.index t (0 : Fin 2) * 1 + 1 * (j 0).val = (j 0).val; omega
  | ⟨1, _⟩ => show win11_5.index t (1 : Fin 2) * 256 + 1 * (j 1).val = (j 1).val; omega

/-- What point t writes back is block t of `G` of the input arrays as the region finds them. -/
theorem flushed_eq (c : Dev nD) (t : Fin cfg11.N) :
    (dat V c).flushed 6 t = ((cfg11.win 6).blk t).view.read (Elt F) (G (V c main_v165) (V c main_v175) (V c main_v177) (V c main_v180) (V c main_v182) (V c main_v185)) := by
  have ht : t.val < 25 := by have := t.isLt; have hN : cfg11.N = 25 := N_11; omega
  show (cfg11.win 6).cut (grid11.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg11.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win11_6.index t (0 : Fin 2) * 2000 + 1 * (j 0).val = 2000 * t.val + (j 0).val; omega
    | ⟨1, _⟩ => show win11_6.index t (1 : Fin 2) * 256 + 1 * (j 1).val = (j 1).val; omega
  show _ = G (V c main_v165) (V c main_v175) (V c main_v177) (V c main_v180) (V c main_v182) (V c main_v185) (((cfg11.win 6).blk t).view.emb j)
  rw [hemb, G_at]
  exact congrArg _ (eq_ix2 j)

/-- An index is in point t's block iff each coordinate is in the block's range on its axis. -/
theorem mem_blk (t : Fin cfg11.N) (i : S50000x256.Idx) :
    i ∈ ((cfg11.win 6).blk t).view.set ↔ ∀ a : Fin 2, win11_6.index t a * S2000x256.size a ≤ (i a).val ∧ (i a).val < win11_6.index t a * S2000x256.size a + S2000x256.size a := by
  show i ∈ ((View.whole main_v186).slice (win11_6.rect t)).set ↔ _
  rw [View.set_slice_whole, Rect.mem_set_unit]
  exact Iff.rfl

/-- Every row lies in the block of the point r / 2000, and every point writes back. -/
theorem covered (i : S50000x256.Idx) :
    ∃ t : Fin cfg11.N, (cfg11.win 6).flush t = true ∧ i ∈ ((cfg11.win 6).blk t).view.set := by
  have hi0 : (i 0).val < 50000 := (i 0).isLt
  have hi1 : (i 1).val < 256 := (i 1).isLt
  have hN : cfg11.N = 25 := N_11
  refine ⟨⟨(i 0).val / 2000, by omega⟩, flush11_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win11_6.index _ (0 : Fin 2) * 2000 ≤ (i 0).val ∧ (i 0).val < win11_6.index _ (0 : Fin 2) * 2000 + 2000; simp only [e60]; omega
  | ⟨1, _⟩ => show win11_6.index _ (1 : Fin 2) * 256 ≤ (i 1).val ∧ (i 1).val < win11_6.index _ (1 : Fin 2) * 256 + 256; simp only [e61]; omega

/-- The output array after the region. -/
theorem final (c : Dev nD) : (dat V c).arrAt 6 cfg11.N = G (V c main_v165) (V c main_v175) (V c main_v177) (V c main_v180) (V c main_v182) (V c main_v185) :=
  (dat V c).arrAt_eq_of_cover 6 (G (V c main_v165) (V c main_v175) (V c main_v177) (V c main_v180) (V c main_v182) (V c main_v185)) (fun t _ => flushed_eq V c t) (covered)

end Cert.KernelIdeal.R11

end
-- ==== Proof.Value12.lean ====
/-
  From blocks to the array, for region 12. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region12
import Idealize.ShloMosaic.Lib.Pipeline.Value
import Idealize.ShloMosaic.Lib.ValueIdx

set_option maxRecDepth 16384

noncomputable section

namespace Cert.KernelIdeal.R12

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k12_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k12_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k12_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg12.N, win12_0.index t (0 : Fin 2) = t.val
    ∧ win12_0.index t (1 : Fin 2) = 0
    ∧ win12_1.index t (0 : Fin 2) = t.val
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (0 : Fin 2) = 0
    ∧ win12_5.index t (1 : Fin 2) = 0
    ∧ win12_6.index t (0 : Fin 2) = t.val
    ∧ win12_6.index t (1 : Fin 2) = 0 :=
  (by decide +kernel : ∀ t : Fin grid12.N, _)

variable (V : (c : Dev nD) → (b : Ref sig .tc) → Buf (Elt F) ((c : Thread nD τ).loc b))

/-- The block of window 0 at point t is rows 2000·t … of its array. -/
theorem blk0_eq (c : Dev nD) (t : Fin cfg12.N) (ht : t.val < 25) :
    blk V c 0 t = rows256 (V c main_v186) ⟨t.val, ht⟩ := by
  obtain ⟨e00, e01, e10, e11, e20, e21, e30, e31, e40, e41, e50, e51, e60, e61⟩ := idx_facts t
  funext j
  show V c main_v186 (((cfg12.win 0).blk t).view.emb j) = V c main_v186 (ix2 (⟨2000 * t.val + (j 0).val, _⟩ : Fin 50000) (j 1))
  refine congrArg (V c main_v186) ?_
  funext a; apply Fin.ext
  match a with
  | ⟨0, _⟩ => show win12_0.index t (0 : Fin 2) * 2000 + 1 * (j 0).val = 2000 * t.val + (j 0).val; omega
  | ⟨1, _⟩ => show win12_0.index t (1 : Fin 2) * 256 + 1 * (j 1).val = (j 1).val; omega

/-- The block of window 1 at point t is rows 2000·t … of its array. -/
theorem blk1_eq (c : Dev nD) (t : Fin cfg12.N) (ht : t.val < 25) :
    blk V c 1 t = rows256 (V c main_v196) ⟨t.val, ht⟩ := by
  obtain ⟨e00, e01, e10, e11, e20, e21, e30, e31, e40, e41, e50, e51, e60, e61⟩ := idx_facts t
  funext j
  show V c main_v196 (((cfg12.win 1).blk t).view.emb j) = V c main_v196 (ix2 (⟨2000 * t.val + (j 0).val, _⟩ : Fin 50000) (j 1))
  refine congrArg (V c main_v196) ?_
  funext a; apply Fin.ext
  match a with
  | ⟨0, _⟩ => show win12_1.index t (0 : Fin 2) * 2000 + 1 * (j 0).val = 2000 * t.val + (j 0).val; omega
  | ⟨1, _⟩ => show win12_1.index t (1 : Fin 2) * 256 + 1 * (j 1).val = (j 1).val; omega

/-- Window 2's one block is its whole array. -/
theorem blk2_eq (c : Dev nD) (t : Fin cfg12.N) : blk V c 2 t = V c main_v198 := by
  obtain ⟨e00, e01, e10, e11, e20, e21, e30, e31, e40, e41, e50, e51, e60, e61⟩ := idx_facts t
  funext j
  show V c main_v198 (((cfg12.win 2).blk t).view.emb j) = V c main_v198 j
  refine congrArg (V c main_v198) ?_
  funext a; apply Fin.ext
  match a with
  | ⟨0, _⟩ => show win12_2.index t (0 : Fin 2) * 256 + 1 * (j 0).val = (j 0).val; omega
  | ⟨1, _⟩ => show win12_2.index t (1 : Fin 2) * 256 + 1 * (j 1).val = (j 1).val; omega

/-- Window 3's one block is its whole array. -/
theorem blk3_eq (c : Dev nD) (t : Fin cfg12.N) : blk V c 3 t = V c main_v201 := by
  obtain ⟨e00, e01, e10, e11, e20, e21, e30, e31, e40, e41, e50, e51, e60, e61⟩ := idx_facts t
  funext j
  show V c main_v201 (((cfg12.win 3).blk t).view.emb j) = V c main_v201 j
  refine congrArg (V c main_v201) ?_
  funext a; apply Fin.ext
  match a with
  | ⟨0, _⟩ => show win12_3.index t (0 : Fin 2) * 1 + 1 * (j 0).val = (j 0).val; omega
  | ⟨1, _⟩ => show win12_3.index t (1 : Fin 2) * 256 + 1 * (j 1).val = (j 1).val; omega

/-- Window 4's one block is its whole array. -/
theorem blk4_eq (c : Dev nD) (t : Fin cfg12.N) : blk V c 4 t = V c main_v203 := by
  obtain ⟨e00, e01, e10, e11, e20, e21, e30, e31, e40, e41, e50, e51, e60, e61⟩ := idx_facts t
  funext j
  show V c main_v203 (((cfg12.win 4).blk t).view.emb j) = V c main_v203 j
  refine congrArg (V c main_v203) ?_
  funext a; apply Fin.ext
  match a with
  | ⟨0, _⟩ => show win12_4.index t (0 : Fin 2) * 256 + 1 * (j 0).val = (j 0).val; omega
  | ⟨1, _⟩ => show win12_4.index t (1 : Fin 2) * 256 + 1 * (j 1).val = (j 1).val; omega

/-- Window 5's one block is its whole array. -/
theorem blk5_eq (c : Dev nD) (t : Fin cfg12.N) : blk V c 5 t = V c main_v206 := by
  obtain ⟨e00, e01, e10, e11, e20, e21, e30, e31, e40, e41, e50, e51, e60, e61⟩ := idx_facts t
  funext j
  show V c main_v206 (((cfg12.win 5).blk t).view.emb j) = V c main_v206 j
  refine congrArg (V c main_v206) ?_
  funext a; apply Fin.ext
  match a with
  | ⟨0, _⟩ => show win12_5.index t (0 : Fin 2) * 1 + 1 * (j 0).val = (j 0).val; omega
  | ⟨1, _⟩ => show win12_5.index t (1 : Fin 2) * 256 + 1 * (j 1).val = (j 1).val; omega

/-- What point t writes back is block t of `G` of the input arrays as the region finds them. -/
theorem flushed_eq (c : Dev nD) (t : Fin cfg12.N) :
    (dat V c).flushed 6 t = ((cfg12.win 6).blk t).view.read (Elt F) (G (V c main_v186) (V c main_v196) (V c main_v198) (V c main_v201) (V c main_v203) (V c main_v206)) := by
  have ht : t.val < 25 := by have := t.isLt; have hN : cfg12.N = 25 := N_12; omega
  show (cfg12.win 6).cut (grid12.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg12.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win12_6.index t (0 : Fin 2) * 2000 + 1 * (j 0).val = 2000 * t.val + (j 0).val; omega
    | ⟨1, _⟩ => show win12_6.index t (1 : Fin 2) * 256 + 1 * (j 1).val = (j 1).val; omega
  show _ = G (V c main_v186) (V c main_v196) (V c main_v198) (V c main_v201) (V c main_v203) (V c main_v206) (((cfg12.win 6).blk t).view.emb j)
  rw [hemb, G_at]
  exact congrArg _ (eq_ix2 j)

/-- An index is in point t's block iff each coordinate is in the block's range on its axis. -/
theorem mem_blk (t : Fin cfg12.N) (i : S50000x256.Idx) :
    i ∈ ((cfg12.win 6).blk t).view.set ↔ ∀ a : Fin 2, win12_6.index t a * S2000x256.size a ≤ (i a).val ∧ (i a).val < win12_6.index t a * S2000x256.size a + S2000x256.size a := by
  show i ∈ ((View.whole main_v207).slice (win12_6.rect t)).set ↔ _
  rw [View.set_slice_whole, Rect.mem_set_unit]
  exact Iff.rfl

/-- Every row lies in the block of the point r / 2000, and every point writes back. -/
theorem covered (i : S50000x256.Idx) :
    ∃ t : Fin cfg12.N, (cfg12.win 6).flush t = true ∧ i ∈ ((cfg12.win 6).blk t).view.set := by
  have hi0 : (i 0).val < 50000 := (i 0).isLt
  have hi1 : (i 1).val < 256 := (i 1).isLt
  have hN : cfg12.N = 25 := N_12
  refine ⟨⟨(i 0).val / 2000, by omega⟩, flush12_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win12_6.index _ (0 : Fin 2) * 2000 ≤ (i 0).val ∧ (i 0).val < win12_6.index _ (0 : Fin 2) * 2000 + 2000; simp only [e60]; omega
  | ⟨1, _⟩ => show win12_6.index _ (1 : Fin 2) * 256 ≤ (i 1).val ∧ (i 1).val < win12_6.index _ (1 : Fin 2) * 256 + 256; simp only [e61]; omega

/-- The output array after the region. -/
theorem final (c : Dev nD) : (dat V c).arrAt 6 cfg12.N = G (V c main_v186) (V c main_v196) (V c main_v198) (V c main_v201) (V c main_v203) (V c main_v206) :=
  (dat V c).arrAt_eq_of_cover 6 (G (V c main_v186) (V c main_v196) (V c main_v198) (V c main_v201) (V c main_v203) (V c main_v206)) (fun t _ => flushed_eq V c t) (covered)

end Cert.KernelIdeal.R12

end
-- ==== Proof.Value13.lean ====
/-
  From blocks to the array, for region 13. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region13
import Idealize.ShloMosaic.Lib.Pipeline.Value
import Idealize.ShloMosaic.Lib.ValueIdx

set_option maxRecDepth 16384

noncomputable section

namespace Cert.KernelIdeal.R13

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) : S50000x256.Idx → Elt F .f32 := fun i =>
  k13_pay1 (rows256 a0 ⟨(i 0).val / 2000, by have h : (i 0).val < 50000 := (i 0).isLt; omega⟩) (rows256 a1 ⟨(i 0).val / 2000, by have h : (i 0).val < 50000 := (i 0).isLt; omega⟩) a2 a3 a4 a5
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S50000x256.Idx → Elt F .f32) (a2 : S256x256.Idx → Elt F .f32) (a3 : S1x256.Idx → Elt F .f32) (a4 : S256x256.Idx → Elt F .f32) (a5 : S1x256.Idx → Elt F .f32) (t : Fin 25) (p : Fin 2000) (q : Fin 256) :
    G a0 a1 a2 a3 a4 a5 (ix2 (⟨2000 * t.val + p.val, by have := p.isLt; have := t.isLt; omega⟩ : Fin 50000) q)
      = k13_pay1 (rows256 a0 t) (rows256 a1 t) a2 a3 a4 a5 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k13_pay1 (rows256 a0 ⟨(2000 * t.val + p.val) / 2000, _⟩) (rows256 a1 ⟨(2000 * t.val + p.val) / 2000, _⟩) a2 a3 a4 a5 (ix2 (⟨(2000 * t.val + p.val) % 2000, _⟩ : Fin 2000) q) = _
  rw [e1, e2]

/-- The printed index maps over the grid: row-blocked windows move with the point, the others stay at block 0. -/
theorem idx_facts : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = 0
    ∧ win13_5.index t (1 : Fin 2) = 0
    ∧ win13_6.index t (0 : Fin 2) = t.val
    ∧ win13_6.index t (1 : Fin 2) = 0 :=
  (by decide +kernel : ∀ t : Fin grid13.N, _)

variable (V : (c : Dev nD) → (b : Ref sig .tc) → Buf (Elt F) ((c : Thread nD τ).loc b))

/-- The block of window 0 at point t is rows 2000·t … of its array. -/
theorem blk0_eq (c : Dev nD) (t : Fin cfg13.N) (ht : t.val < 25) :
    blk V c 0 t = rows256 (V c main_v207) ⟨t.val, ht⟩ := by
  obtain ⟨e00, e01, e10, e11, e20, e21, e30, e31, e40, e41, e50, e51, e60, e61⟩ := idx_facts t
  funext j
  show V c main_v207 (((cfg13.win 0).blk t).view.emb j) = V c main_v207 (ix2 (⟨2000 * t.val + (j 0).val, _⟩ : Fin 50000) (j 1))
  refine congrArg (V c main_v207) ?_
  funext a; apply Fin.ext
  match a with
  | ⟨0, _⟩ => show win13_0.index t (0 : Fin 2) * 2000 + 1 * (j 0).val = 2000 * t.val + (j 0).val; omega
  | ⟨1, _⟩ => show win13_0.index t (1 : Fin 2) * 256 + 1 * (j 1).val = (j 1).val; omega

/-- The block of window 1 at point t is rows 2000·t … of its array. -/
theorem blk1_eq (c : Dev nD) (t : Fin cfg13.N) (ht : t.val < 25) :
    blk V c 1 t = rows256 (V c main_v217) ⟨t.val, ht⟩ := by
  obtain ⟨e00, e01, e10, e11, e20, e21, e30, e31, e40, e41, e50, e51, e60, e61⟩ := idx_facts t
  funext j
  show V c main_v217 (((cfg13.win 1).blk t).view.emb j) = V c main_v217 (ix2 (⟨2000 * t.val + (j 0).val, _⟩ : Fin 50000) (j 1))
  refine congrArg (V c main_v217) ?_
  funext a; apply Fin.ext
  match a with
  | ⟨0, _⟩ => show win13_1.index t (0 : Fin 2) * 2000 + 1 * (j 0).val = 2000 * t.val + (j 0).val; omega
  | ⟨1, _⟩ => show win13_1.index t (1 : Fin 2) * 256 + 1 * (j 1).val = (j 1).val; omega

/-- Window 2's one block is its whole array. -/
theorem blk2_eq (c : Dev nD) (t : Fin cfg13.N) : blk V c 2 t = V c main_v219 := by
  obtain ⟨e00, e01, e10, e11, e20, e21, e30, e31, e40, e41, e50, e51, e60, e61⟩ := idx_facts t
  funext j
  show V c main_v219 (((cfg13.win 2).blk t).view.emb j) = V c main_v219 j
  refine congrArg (V c main_v219) ?_
  funext a; apply Fin.ext
  match a with
  | ⟨0, _⟩ => show win13_2.index t (0 : Fin 2) * 256 + 1 * (j 0).val = (j 0).val; omega
  | ⟨1, _⟩ => show win13_2.index t (1 : Fin 2) * 256 + 1 * (j 1).val = (j 1).val; omega

/-- Window 3's one block is its whole array. -/
theorem blk3_eq (c : Dev nD) (t : Fin cfg13.N) : blk V c 3 t = V c main_v222 := by
  obtain ⟨e00, e01, e10, e11, e20, e21, e30, e31, e40, e41, e50, e51, e60, e61⟩ := idx_facts t
  funext j
  show V c main_v222 (((cfg13.win 3).blk t).view.emb j) = V c main_v222 j
  refine congrArg (V c main_v222) ?_
  funext a; apply Fin.ext
  match a with
  | ⟨0, _⟩ => show win13_3.index t (0 : Fin 2) * 1 + 1 * (j 0).val = (j 0).val; omega
  | ⟨1, _⟩ => show win13_3.index t (1 : Fin 2) * 256 + 1 * (j 1).val = (j 1).val; omega

/-- Window 4's one block is its whole array. -/
theorem blk4_eq (c : Dev nD) (t : Fin cfg13.N) : blk V c 4 t = V c main_v224 := by
  obtain ⟨e00, e01, e10, e11, e20, e21, e30, e31, e40, e41, e50, e51, e60, e61⟩ := idx_facts t
  funext j
  show V c main_v224 (((cfg13.win 4).blk t).view.emb j) = V c main_v224 j
  refine congrArg (V c main_v224) ?_
  funext a; apply Fin.ext
  match a with
  | ⟨0, _⟩ => show win13_4.index t (0 : Fin 2) * 256 + 1 * (j 0).val = (j 0).val; omega
  | ⟨1, _⟩ => show win13_4.index t (1 : Fin 2) * 256 + 1 * (j 1).val = (j 1).val; omega

/-- Window 5's one block is its whole array. -/
theorem blk5_eq (c : Dev nD) (t : Fin cfg13.N) : blk V c 5 t = V c main_v227 := by
  obtain ⟨e00, e01, e10, e11, e20, e21, e30, e31, e40, e41, e50, e51, e60, e61⟩ := idx_facts t
  funext j
  show V c main_v227 (((cfg13.win 5).blk t).view.emb j) = V c main_v227 j
  refine congrArg (V c main_v227) ?_
  funext a; apply Fin.ext
  match a with
  | ⟨0, _⟩ => show win13_5.index t (0 : Fin 2) * 1 + 1 * (j 0).val = (j 0).val; omega
  | ⟨1, _⟩ => show win13_5.index t (1 : Fin 2) * 256 + 1 * (j 1).val = (j 1).val; omega

/-- What point t writes back is block t of `G` of the input arrays as the region finds them. -/
theorem flushed_eq (c : Dev nD) (t : Fin cfg13.N) :
    (dat V c).flushed 6 t = ((cfg13.win 6).blk t).view.read (Elt F) (G (V c main_v207) (V c main_v217) (V c main_v219) (V c main_v222) (V c main_v224) (V c main_v227)) := by
  have ht : t.val < 25 := by have := t.isLt; have hN : cfg13.N = 25 := N_13; omega
  show (cfg13.win 6).cut (grid13.coords t) ((dat V c).after 6 t) = _
  rw [after6]
  unfold out
  rw [View.canon_unit_zero hz]
  simp only [View.ld_unit_zero (S := S2000x256) hz, View.ld_unit_zero (S := S256x256) hz, View.ld_unit_zero (S := S1x256) hz]
  rw [blk0_eq V c t ht, blk1_eq V c t ht, blk2_eq V c t, blk3_eq V c t, blk4_eq V c t, blk5_eq V c t]
  obtain ⟨e00, e01, e10, e11, e20, e21, e30, e31, e40, e41, e50, e51, e60, e61⟩ := idx_facts t
  funext j
  have hj1 : (j 1).val < 256 := (j 1).isLt
  have hemb : ((cfg13.win 6).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win13_6.index t (0 : Fin 2) * 2000 + 1 * (j 0).val = 2000 * t.val + (j 0).val; omega
    | ⟨1, _⟩ => show win13_6.index t (1 : Fin 2) * 256 + 1 * (j 1).val = (j 1).val; omega
  show _ = G (V c main_v207) (V c main_v217) (V c main_v219) (V c main_v222) (V c main_v224) (V c main_v227) (((cfg13.win 6).blk t).view.emb j)
  rw [hemb, G_at]
  exact congrArg _ (eq_ix2 j)

/-- An index is in point t's block iff each coordinate is in the block's range on its axis. -/
theorem mem_blk (t : Fin cfg13.N) (i : S50000x256.Idx) :
    i ∈ ((cfg13.win 6).blk t).view.set ↔ ∀ a : Fin 2, win13_6.index t a * S2000x256.size a ≤ (i a).val ∧ (i a).val < win13_6.index t a * S2000x256.size a + S2000x256.size a := by
  show i ∈ ((View.whole main_v228).slice (win13_6.rect t)).set ↔ _
  rw [View.set_slice_whole, Rect.mem_set_unit]
  exact Iff.rfl

/-- Every row lies in the block of the point r / 2000, and every point writes back. -/
theorem covered (i : S50000x256.Idx) :
    ∃ t : Fin cfg13.N, (cfg13.win 6).flush t = true ∧ i ∈ ((cfg13.win 6).blk t).view.set := by
  have hi0 : (i 0).val < 50000 := (i 0).isLt
  have hi1 : (i 1).val < 256 := (i 1).isLt
  have hN : cfg13.N = 25 := N_13
  refine ⟨⟨(i 0).val / 2000, by omega⟩, flush13_6 _, ?_⟩
  obtain ⟨e00, e01, e10, e11, e20, e21, e30, e31, e40, e41, e50, e51, e60, e61⟩ := idx_facts ⟨(i 0).val / 2000, by omega⟩
  rw [mem_blk]
  intro a
  match a with
  | ⟨0, _⟩ => show win13_6.index _ (0 : Fin 2) * 2000 ≤ (i 0).val ∧ (i 0).val < win13_6.index _ (0 : Fin 2) * 2000 + 2000; simp only [e60]; omega
  | ⟨1, _⟩ => show win13_6.index _ (1 : Fin 2) * 256 ≤ (i 1).val ∧ (i 1).val < win13_6.index _ (1 : Fin 2) * 256 + 256; simp only [e61]; omega

/-- The output array after the region. -/
theorem final (c : Dev nD) : (dat V c).arrAt 6 cfg13.N = G (V c main_v207) (V c main_v217) (V c main_v219) (V c main_v222) (V c main_v224) (V c main_v227) :=
  (dat V c).arrAt_eq_of_cover 6 (G (V c main_v207) (V c main_v217) (V c main_v219) (V c main_v222) (V c main_v224) (V c main_v227)) (fun t _ => flushed_eq V c t) (covered)

end Cert.KernelIdeal.R13

end
-- ==== Proof.Value15.lean ====
/-
  From blocks to the array, for region 15. Point t writes back rows 2000·t … 2000·t+1999 of the output array, and
  the 25 points' blocks tile it; the row-blocked inputs' blocks are the same rows of their arrays and every other
  input's one block is its whole array. So after the region the output array is ONE function of the input arrays:
  at row r, the body's arithmetic on the block of rows holding r, read at r's place in that block.
-/
import proofs.«162580_j71794673320191_1_alg».proof.Proof.Region15
import Idealize.ShloMosaic.Lib.Pipeline.Value
import Idealize.ShloMosaic.Lib.ValueIdx

set_option maxRecDepth 16384

noncomputable section

namespace Cert.KernelIdeal.R15

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

theorem hz : (![0, 0] : Fin 2 → Nat) = fun _ => 0 := funext fun a => by fin_cases a <;> rfl

/-- Rows 2000·t … 2000·t+1999 of a 50000-row array with 256 columns, as one block. -/
def rows256 (A : S50000x256.Idx → Elt F .f32) (t : Fin 25) : S2000x256.Idx → Elt F .f32 := fun j =>
  A (ix2 (⟨2000 * t.val + (j 0).val, by have h : (j 0).val < 2000 := (j 0).isLt; have := t.isLt; omega⟩ : Fin 50000) (j 1))

/-- The output array as one function of the input arrays. -/
def G (a0 : S50000x256.Idx → Elt F .f32) (a1 : S1x256.Idx → Elt F .f32) (a2 : S1x256.Idx → Elt F .f32) (a3 : S1x256.Idx → Elt F .f32) (a4 : S1x256.Idx → Elt F .f32) : S50000x256.Idx → Elt F .f32 := fun i =>
  k15_pay1 (rows256 a0 ⟨(i 0).val / 2000, by have h : (i 0).val < 50000 := (i 0).isLt; omega⟩) a1 a2 a3 a4
    (ix2 (⟨(i 0).val % 2000, Nat.mod_lt _ (by norm_num)⟩ : Fin 2000) (i 1))

/-- At row 2000·t + p it is the body's arithmetic on block t, read at row p of the block. -/
theorem G_at (a0 : S50000x256.Idx → Elt F .f32) (a1 : S1x256.Idx → Elt F .f32) (a2 : S1x256.Idx → Elt F .f32) (a3 : S1x256.Idx → Elt F .f32) (a4 : S1x256.Idx → Elt F .f32) (t : Fin 25) (p : Fin 2000) (q : Fin 256) :
    G a0 a1 a2 a3 a4 (ix2 (⟨2000 * t.val + p.val, by have := p.isLt; have := t.isLt; omega⟩ : Fin 50000) q)
      = k15_pay1 (rows256 a0 t) a1 a2 a3 a4 (ix2 p q) := by
  have hq : (2000 * t.val + p.val) / 2000 = t.val := by have := p.isLt; omega
  have hr : (2000 * t.val + p.val) % 2000 = p.val := by have := p.isLt; omega
  have e1 : (⟨(2000 * t.val + p.val) / 2000, by have := p.isLt; have := t.isLt; omega⟩ : Fin 25) = t := Fin.ext hq
  have e2 : (⟨(2000 * t.val + p.val) % 2000, Nat.mod_lt _ (by norm_num)⟩ : Fin 2000) = p := Fin.ext hr
  show k15_pay1 (rows256 a0 ⟨(2000 * t.val + p.val) / 2000, _⟩) a1 a2 a3 a4 (ix2 (⟨(2000 * t.val + p.val) % 2000, _⟩ : Fin 2000) q) = _
  rw [e1, e2]

/-- The printed index maps over the grid: row-blocked windows move with the point, the others stay at block 0. -/
theorem idx_facts : ∀ t : Fin cfg15.N, win15_0.index t (0 : Fin 2) = t.val
    ∧ win15_0.index t (1 : Fin 2) = 0
    ∧ win15_1.index t (0 : Fin 2) = 0
    ∧ win15_1.index t (1 : Fin 2) = 0
    ∧ win15_2.index t (0 : Fin 2) = 0
    ∧ win15_2.index t (1 : Fin 2) = 0
    ∧ win15_3.index t (0 : Fin 2) = 0
    ∧ win15_3.index t (1 : Fin 2) = 0
    ∧ win15_4.index t (0 : Fin 2) = 0
    ∧ win15_4.index t (1 : Fin 2) = 0
    ∧ win15_5.index t (0 : Fin 2) = t.val
    ∧ win15_5.index t (1 : Fin 2) = 0 :=
  (by decide +kernel : ∀ t : Fin grid15.N, _)

variable (V : (c : Dev nD) → (b : Ref sig .tc) → Buf (Elt F) ((c : Thread nD τ).loc b))

/-- The block of window 0 at point t is rows 2000·t … of its array. -/
theorem blk0_eq (c : Dev nD) (t : Fin cfg15.N) (ht : t.val < 25) :
    blk V c 0 t = rows256 (V c main_v228) ⟨t.val, ht⟩ := by
  obtain ⟨e00, e01, e10, e11, e20, e21, e30, e31, e40, e41, e50, e51⟩ := idx_facts t
  funext j
  show V c main_v228 (((cfg15.win 0).blk t).view.emb j) = V c main_v228 (ix2 (⟨2000 * t.val + (j 0).val, _⟩ : Fin 50000) (j 1))
  refine congrArg (V c main_v228) ?_
  funext a; apply Fin.ext
  match a with
  | ⟨0, _⟩ => show win15_0.index t (0 : Fin 2) * 2000 + 1 * (j 0).val = 2000 * t.val + (j 0).val; omega
  | ⟨1, _⟩ => show win15_0.index t (1 : Fin 2) * 256 + 1 * (j 1).val = (j 1).val; omega

/-- Window 1's one block is its whole array. -/
theorem blk1_eq (c : Dev nD) (t : Fin cfg15.N) : blk V c 1 t = V c main_v231 := by
  obtain ⟨e00, e01, e10, e11, e20, e21, e30, e31, e40, e41, e50, e51⟩ := idx_facts t
  funext j
  show V c main_v231 (((cfg15.win 1).blk t).view.emb j) = V c main_v231 j
  refine congrArg (V c main_v231) ?_
  funext a; apply Fin.ext
  match a with
  | ⟨0, _⟩ => show win15_1.index t (0 : Fin 2) * 1 + 1 * (j 0).val = (j 0).val; omega
  | ⟨1, _⟩ => show win15_1.index t (1 : Fin 2) * 256 + 1 * (j 1).val = (j 1).val; omega

/-- Window 2's one block is its whole array. -/
theorem blk2_eq (c : Dev nD) (t : Fin cfg15.N) : blk V c 2 t = V c main_v238 := by
  obtain ⟨e00, e01, e10, e11, e20, e21, e30, e31, e40, e41, e50, e51⟩ := idx_facts t
  funext j
  show V c main_v238 (((cfg15.win 2).blk t).view.emb j) = V c main_v238 j
  refine congrArg (V c main_v238) ?_
  funext a; apply Fin.ext
  match a with
  | ⟨0, _⟩ => show win15_2.index t (0 : Fin 2) * 1 + 1 * (j 0).val = (j 0).val; omega
  | ⟨1, _⟩ => show win15_2.index t (1 : Fin 2) * 256 + 1 * (j 1).val = (j 1).val; omega

/-- Window 3's one block is its whole array. -/
theorem blk3_eq (c : Dev nD) (t : Fin cfg15.N) : blk V c 3 t = V c main_v241 := by
  obtain ⟨e00, e01, e10, e11, e20, e21, e30, e31, e40, e41, e50, e51⟩ := idx_facts t
  funext j
  show V c main_v241 (((cfg15.win 3).blk t).view.emb j) = V c main_v241 j
  refine congrArg (V c main_v241) ?_
  funext a; apply Fin.ext
  match a with
  | ⟨0, _⟩ => show win15_3.index t (0 : Fin 2) * 1 + 1 * (j 0).val = (j 0).val; omega
  | ⟨1, _⟩ => show win15_3.index t (1 : Fin 2) * 256 + 1 * (j 1).val = (j 1).val; omega

/-- Window 4's one block is its whole array. -/
theorem blk4_eq (c : Dev nD) (t : Fin cfg15.N) : blk V c 4 t = V c main_v244 := by
  obtain ⟨e00, e01, e10, e11, e20, e21, e30, e31, e40, e41, e50, e51⟩ := idx_facts t
  funext j
  show V c main_v244 (((cfg15.win 4).blk t).view.emb j) = V c main_v244 j
  refine congrArg (V c main_v244) ?_
  funext a; apply Fin.ext
  match a with
  | ⟨0, _⟩ => show win15_4.index t (0 : Fin 2) * 1 + 1 * (j 0).val = (j 0).val; omega
  | ⟨1, _⟩ => show win15_4.index t (1 : Fin 2) * 256 + 1 * (j 1).val = (j 1).val; omega

/-- What point t writes back is block t of `G` of the input arrays as the region finds them. -/
theorem flushed_eq (c : Dev nD) (t : Fin cfg15.N) :
    (dat V c).flushed 5 t = ((cfg15.win 5).blk t).view.read (Elt F) (G (V c main_v228) (V c main_v231) (V c main_v238) (V c main_v241) (V c main_v244)) := by
  have ht : t.val < 25 := by have := t.isLt; have hN : cfg15.N = 25 := N_15; omega
  show (cfg15.win 5).cut (grid15.coords t) ((dat V c).after 5 t) = _
  rw [after5]
  unfold out
  rw [View.canon_unit_zero hz]
  simp only [View.ld_unit_zero (S := S2000x256) hz, View.ld_unit_zero (S := S1x256) hz]
  rw [blk0_eq V c t ht, blk1_eq V c t, blk2_eq V c t, blk3_eq V c t, blk4_eq V c t]
  obtain ⟨e00, e01, e10, e11, e20, e21, e30, e31, e40, e41, e50, e51⟩ := idx_facts t
  funext j
  have hj1 : (j 1).val < 256 := (j 1).isLt
  have hemb : ((cfg15.win 5).blk t).view.emb j
      = ix2 (⟨2000 * (⟨t.val, ht⟩ : Fin 25).val + (⟨(j 0).val, (j 0).isLt⟩ : Fin 2000).val, by have h : (j 0).val < 2000 := (j 0).isLt; omega⟩ : Fin 50000) (⟨(j 1).val, hj1⟩ : Fin 256) := by
    funext a; apply Fin.ext
    match a with
    | ⟨0, _⟩ => show win15_5.index t (0 : Fin 2) * 2000 + 1 * (j 0).val = 2000 * t.val + (j 0).val; omega
    | ⟨1, _⟩ => show win15_5.index t (1 : Fin 2) * 256 + 1 * (j 1).val = (j 1).val; omega
  show _ = G (V c main_v228) (V c main_v231) (V c main_v238) (V c main_v241) (V c main_v244) (((cfg15.win 5).blk t).view.emb j)
  rw [hemb, G_at]
  exact congrArg _ (eq_ix2 j)

/-- An index is in point t's block iff each coordinate is in the block's range on its axis. -/
theorem mem_blk (t : Fin cfg15.N) (i : S50000x256.Idx) :
    i ∈ ((cfg15.win 5).blk t).view.set ↔ ∀ a : Fin 2, win15_5.index t a * S2000x256.size a ≤ (i a).val ∧ (i a).val < win15_5.index t a * S2000x256.size a + S2000x256.size a := by
  show i ∈ ((View.whole main_v245).slice (win15_5.rect t)).set ↔ _
  rw [View.set_slice_whole, Rect.mem_set_unit]
  exact Iff.rfl

/-- Every row lies in the block of the point r / 2000, and every point writes back. -/
theorem covered (i : S50000x256.Idx) :
    ∃ t : Fin cfg15.N, (cfg15.win 5).flush t = true ∧ i ∈ ((cfg15.win 5).blk t).view.set := by
  have hi0 : (i 0).val < 50000 := (i 0).isLt
  have hi1 : (i 1).val < 256 := (i 1).isLt
  have hN : cfg15.N = 25 := N_15
  refine ⟨⟨(i 0).val / 2000, by omega⟩, flush15_5 _, ?_⟩
  obtain ⟨e00, e01, e10, e11, e20, e21, e30, e31, e40, e41, e50, e51⟩ := idx_facts ⟨(i 0).val / 2000, by omega⟩
  rw [mem_blk]
  intro a
  match a with
  | ⟨0, _⟩ => show win15_5.index _ (0 : Fin 2) * 2000 ≤ (i 0).val ∧ (i 0).val < win15_5.index _ (0 : Fin 2) * 2000 + 2000; simp only [e50]; omega
  | ⟨1, _⟩ => show win15_5.index _ (1 : Fin 2) * 256 ≤ (i 1).val ∧ (i 1).val < win15_5.index _ (1 : Fin 2) * 256 + 256; simp only [e51]; omega

/-- The output array after the region. -/
theorem final (c : Dev nD) : (dat V c).arrAt 5 cfg15.N = G (V c main_v228) (V c main_v231) (V c main_v238) (V c main_v241) (V c main_v244) :=
  (dat V c).arrAt_eq_of_cover 5 (G (V c main_v228) (V c main_v231) (V c main_v238) (V c main_v241) (V c main_v244)) (fun t _ => flushed_eq V c t) (covered)

end Cert.KernelIdeal.R15

end
-- ==== Proof.ValueR4.lean ====
/-
  From blocks to the arrays, for the column-sum region 4: each of the two output rows is written back exactly once,
  at the last point, whole; so after the region it holds the running sum after all 25 blocks.
-/
import proofs.«162580_j71794673320191_1_alg».proof.Proof.Reduce4Region
import Idealize.ShloMosaic.Lib.Pipeline.Value
import Idealize.ShloMosaic.Lib.ValueIdx

set_option maxRecDepth 16384

noncomputable section

namespace Cert.KernelIdeal.R4

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The printed index maps over the grid: the input moves with the point, both outputs stay at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

variable (V : (c : Dev nD) → (b : Ref sig .tc) → Buf (Elt F) ((c : Thread nD τ).loc b))

/-- An index of the 1 x 256 row is in point t's block of output 1 iff each coordinate is in the block's range. -/
theorem mem_blk1 (t : Fin cfg4.N) (i : S1x256.Idx) :
    i ∈ ((cfg4.win 1).blk t).view.set ↔ ∀ a : Fin 2, win4_1.index t a * S1x256.size a ≤ (i a).val ∧ (i a).val < win4_1.index t a * S1x256.size a + S1x256.size a := by
  show i ∈ ((View.whole main_v69_0).slice (win4_1.rect t)).set ↔ _
  rw [View.set_slice_whole, Rect.mem_set_unit]
  exact Iff.rfl

/-- The one write-back of output 1, at the last point, is the column sum over all 25 blocks. -/
theorem flushed1_eq (c : Dev nD) (t : Fin cfg4.N) (hf : (cfg4.win 1).flush t = true) :
    (dat V c).flushed 1 t = ((cfg4.win 1).blk t).view.read (Elt F) (sumTo V c 25) := by
  have ht : t.val + 1 = 25 := by
    have h := (flush4_1 t).mp hf; have := t.isLt; have hN : cfg4.N = 25 := N_4; omega
  obtain ⟨e00, e01, e10, e11, e20, e21⟩ := idx_facts t
  show (cfg4.win 1).cut (grid4.coords t) ((dat V c).after 1 t) = _
  rw [after1, ht]
  funext j
  have hemb : ((cfg4.win 1).blk t).view.emb j = j := by
    funext a; apply Fin.ext
    match a with
    | ⟨0, _⟩ => show win4_1.index t (0 : Fin 2) * 1 + 1 * (j 0).val = (j 0).val; omega
    | ⟨1, _⟩ => show win4_1.index t (1 : Fin 2) * 256 + 1 * (j 1).val = (j 1).val; omega
  show _ = sumTo V c 25 (((cfg4.win 1).blk t).view.emb j)
  rw [hemb]

theorem covered1 (i : S1x256.Idx) :
    ∃ t : Fin cfg4.N, (cfg4.win 1).flush t = true ∧ i ∈ ((cfg4.win 1).blk t).view.set := by
  have hi0 : (i 0).val < 1 := (i 0).isLt
  have hi1 : (i 1).val < 256 := (i 1).isLt
  have hN : cfg4.N = 25 := N_4
  refine ⟨⟨24, by omega⟩, (flush4_1 _).mpr (by rfl), ?_⟩
  obtain ⟨e00, e01, e10, e11, e20, e21⟩ := idx_facts ⟨24, by omega⟩
  rw [mem_blk1]
  intro a
  match a with
  | ⟨0, _⟩ => show win4_1.index _ (0 : Fin 2) * 1 ≤ (i 0).val ∧ (i 0).val < win4_1.index _ (0 : Fin 2) * 1 + 1; simp only [e10]; omega
  | ⟨1, _⟩ => show win4_1.index _ (1 : Fin 2) * 256 ≤ (i 1).val ∧ (i 1).val < win4_1.index _ (1 : Fin 2) * 256 + 256; simp only [e11]; omega

/-- Output 1 after the region: the column sum over all 50000 rows, block by block. -/
theorem final1 (c : Dev nD) : (dat V c).arrAt 1 cfg4.N = sumTo V c 25 :=
  (dat V c).arrAt_eq_of_cover 1 (sumTo V c 25) (fun t hf => flushed1_eq V c t hf) (covered1)

/-- An index of the 1 x 256 row is in point t's block of output 2 iff each coordinate is in the block's range. -/
theorem mem_blk2 (t : Fin cfg4.N) (i : S1x256.Idx) :
    i ∈ ((cfg4.win 2).blk t).view.set ↔ ∀ a : Fin 2, win4_2.index t a * S1x256.size a ≤ (i a).val ∧ (i a).val < win4_2.index t a * S1x256.size a + S1x256.size a := by
  show i ∈ ((View.whole main_v69_1).slice (win4_2.rect t)).set ↔ _
  rw [View.set_slice_whole, Rect.mem_set_unit]
  exact Iff.rfl

/-- The one write-back of output 2, at the last point, is the column sum of squares over all 25 blocks. -/
theorem flushed2_eq (c : Dev nD) (t : Fin cfg4.N) (hf : (cfg4.win 2).flush t = true) :
    (dat V c).flushed 2 t = ((cfg4.win 2).blk t).view.read (Elt F) (sqTo V c 25) := by
  have ht : t.val + 1 = 25 := by
    have h := (flush4_2 t).mp hf; have := t.isLt; have hN : cfg4.N = 25 := N_4; omega
  obtain ⟨e00, e01, e10, e11, e20, e21⟩ := idx_facts t
  show (cfg4.win 2).cut (grid4.coords t) ((dat V c).after 2 t) = _
  rw [after2, ht]
  funext j
  have hemb : ((cfg4.win 2).blk t).view.emb j = j := by
    funext a; apply Fin.ext
    match a with
    | ⟨0, _⟩ => show win4_2.index t (0 : Fin 2) * 1 + 1 * (j 0).val = (j 0).val; omega
    | ⟨1, _⟩ => show win4_2.index t (1 : Fin 2) * 256 + 1 * (j 1).val = (j 1).val; omega
  show _ = sqTo V c 25 (((cfg4.win 2).blk t).view.emb j)
  rw [hemb]

theorem covered2 (i : S1x256.Idx) :
    ∃ t : Fin cfg4.N, (cfg4.win 2).flush t = true ∧ i ∈ ((cfg4.win 2).blk t).view.set := by
  have hi0 : (i 0).val < 1 := (i 0).isLt
  have hi1 : (i 1).val < 256 := (i 1).isLt
  have hN : cfg4.N = 25 := N_4
  refine ⟨⟨24, by omega⟩, (flush4_2 _).mpr (by rfl), ?_⟩
  obtain ⟨e00, e01, e10, e11, e20, e21⟩ := idx_facts ⟨24, by omega⟩
  rw [mem_blk2]
  intro a
  match a with
  | ⟨0, _⟩ => show win4_2.index _ (0 : Fin 2) * 1 ≤ (i 0).val ∧ (i 0).val < win4_2.index _ (0 : Fin 2) * 1 + 1; simp only [e20]; omega
  | ⟨1, _⟩ => show win4_2.index _ (1 : Fin 2) * 256 ≤ (i 1).val ∧ (i 1).val < win4_2.index _ (1 : Fin 2) * 256 + 256; simp only [e21]; omega

/-- Output 2 after the region: the column sum of squares over all 50000 rows, block by block. -/
theorem final2 (c : Dev nD) : (dat V c).arrAt 2 cfg4.N = sqTo V c 25 :=
  (dat V c).arrAt_eq_of_cover 2 (sqTo V c 25) (fun t hf => flushed2_eq V c t hf) (covered2)

end Cert.KernelIdeal.R4

end
-- ==== Proof.ValueR9.lean ====
/-
  From blocks to the arrays, for the column-sum region 9: each of the two output rows is written back exactly once,
  at the last point, whole; so after the region it holds the running sum after all 25 blocks.
-/
import proofs.«162580_j71794673320191_1_alg».proof.Proof.Reduce9Region
import Idealize.ShloMosaic.Lib.Pipeline.Value
import Idealize.ShloMosaic.Lib.ValueIdx

set_option maxRecDepth 16384

noncomputable section

namespace Cert.KernelIdeal.R9

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The printed index maps over the grid: the input moves with the point, both outputs stay at block 0. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0 :=
  (by decide +kernel : ∀ t : Fin grid9.N, _)

variable (V : (c : Dev nD) → (b : Ref sig .tc) → Buf (Elt F) ((c : Thread nD τ).loc b))

/-- An index of the 1 x 256 row is in point t's block of output 1 iff each coordinate is in the block's range. -/
theorem mem_blk1 (t : Fin cfg9.N) (i : S1x256.Idx) :
    i ∈ ((cfg9.win 1).blk t).view.set ↔ ∀ a : Fin 2, win9_1.index t a * S1x256.size a ≤ (i a).val ∧ (i a).val < win9_1.index t a * S1x256.size a + S1x256.size a := by
  show i ∈ ((View.whole main_v149_0).slice (win9_1.rect t)).set ↔ _
  rw [View.set_slice_whole, Rect.mem_set_unit]
  exact Iff.rfl

/-- The one write-back of output 1, at the last point, is the column sum over all 25 blocks. -/
theorem flushed1_eq (c : Dev nD) (t : Fin cfg9.N) (hf : (cfg9.win 1).flush t = true) :
    (dat V c).flushed 1 t = ((cfg9.win 1).blk t).view.read (Elt F) (sumTo V c 25) := by
  have ht : t.val + 1 = 25 := by
    have h := (flush9_1 t).mp hf; have := t.isLt; have hN : cfg9.N = 25 := N_9; omega
  obtain ⟨e00, e01, e10, e11, e20, e21⟩ := idx_facts t
  show (cfg9.win 1).cut (grid9.coords t) ((dat V c).after 1 t) = _
  rw [after1, ht]
  funext j
  have hemb : ((cfg9.win 1).blk t).view.emb j = j := by
    funext a; apply Fin.ext
    match a with
    | ⟨0, _⟩ => show win9_1.index t (0 : Fin 2) * 1 + 1 * (j 0).val = (j 0).val; omega
    | ⟨1, _⟩ => show win9_1.index t (1 : Fin 2) * 256 + 1 * (j 1).val = (j 1).val; omega
  show _ = sumTo V c 25 (((cfg9.win 1).blk t).view.emb j)
  rw [hemb]

theorem covered1 (i : S1x256.Idx) :
    ∃ t : Fin cfg9.N, (cfg9.win 1).flush t = true ∧ i ∈ ((cfg9.win 1).blk t).view.set := by
  have hi0 : (i 0).val < 1 := (i 0).isLt
  have hi1 : (i 1).val < 256 := (i 1).isLt
  have hN : cfg9.N = 25 := N_9
  refine ⟨⟨24, by omega⟩, (flush9_1 _).mpr (by rfl), ?_⟩
  obtain ⟨e00, e01, e10, e11, e20, e21⟩ := idx_facts ⟨24, by omega⟩
  rw [mem_blk1]
  intro a
  match a with
  | ⟨0, _⟩ => show win9_1.index _ (0 : Fin 2) * 1 ≤ (i 0).val ∧ (i 0).val < win9_1.index _ (0 : Fin 2) * 1 + 1; simp only [e10]; omega
  | ⟨1, _⟩ => show win9_1.index _ (1 : Fin 2) * 256 ≤ (i 1).val ∧ (i 1).val < win9_1.index _ (1 : Fin 2) * 256 + 256; simp only [e11]; omega

/-- Output 1 after the region: the column sum over all 50000 rows, block by block. -/
theorem final1 (c : Dev nD) : (dat V c).arrAt 1 cfg9.N = sumTo V c 25 :=
  (dat V c).arrAt_eq_of_cover 1 (sumTo V c 25) (fun t hf => flushed1_eq V c t hf) (covered1)

/-- An index of the 1 x 256 row is in point t's block of output 2 iff each coordinate is in the block's range. -/
theorem mem_blk2 (t : Fin cfg9.N) (i : S1x256.Idx) :
    i ∈ ((cfg9.win 2).blk t).view.set ↔ ∀ a : Fin 2, win9_2.index t a * S1x256.size a ≤ (i a).val ∧ (i a).val < win9_2.index t a * S1x256.size a + S1x256.size a := by
  show i ∈ ((View.whole main_v149_1).slice (win9_2.rect t)).set ↔ _
  rw [View.set_slice_whole, Rect.mem_set_unit]
  exact Iff.rfl

/-- The one write-back of output 2, at the last point, is the column sum of squares over all 25 blocks. -/
theorem flushed2_eq (c : Dev nD) (t : Fin cfg9.N) (hf : (cfg9.win 2).flush t = true) :
    (dat V c).flushed 2 t = ((cfg9.win 2).blk t).view.read (Elt F) (sqTo V c 25) := by
  have ht : t.val + 1 = 25 := by
    have h := (flush9_2 t).mp hf; have := t.isLt; have hN : cfg9.N = 25 := N_9; omega
  obtain ⟨e00, e01, e10, e11, e20, e21⟩ := idx_facts t
  show (cfg9.win 2).cut (grid9.coords t) ((dat V c).after 2 t) = _
  rw [after2, ht]
  funext j
  have hemb : ((cfg9.win 2).blk t).view.emb j = j := by
    funext a; apply Fin.ext
    match a with
    | ⟨0, _⟩ => show win9_2.index t (0 : Fin 2) * 1 + 1 * (j 0).val = (j 0).val; omega
    | ⟨1, _⟩ => show win9_2.index t (1 : Fin 2) * 256 + 1 * (j 1).val = (j 1).val; omega
  show _ = sqTo V c 25 (((cfg9.win 2).blk t).view.emb j)
  rw [hemb]

theorem covered2 (i : S1x256.Idx) :
    ∃ t : Fin cfg9.N, (cfg9.win 2).flush t = true ∧ i ∈ ((cfg9.win 2).blk t).view.set := by
  have hi0 : (i 0).val < 1 := (i 0).isLt
  have hi1 : (i 1).val < 256 := (i 1).isLt
  have hN : cfg9.N = 25 := N_9
  refine ⟨⟨24, by omega⟩, (flush9_2 _).mpr (by rfl), ?_⟩
  obtain ⟨e00, e01, e10, e11, e20, e21⟩ := idx_facts ⟨24, by omega⟩
  rw [mem_blk2]
  intro a
  match a with
  | ⟨0, _⟩ => show win9_2.index _ (0 : Fin 2) * 1 ≤ (i 0).val ∧ (i 0).val < win9_2.index _ (0 : Fin 2) * 1 + 1; simp only [e20]; omega
  | ⟨1, _⟩ => show win9_2.index _ (1 : Fin 2) * 256 ≤ (i 1).val ∧ (i 1).val < win9_2.index _ (1 : Fin 2) * 256 + 256; simp only [e21]; omega

/-- Output 2 after the region: the column sum of squares over all 50000 rows, block by block. -/
theorem final2 (c : Dev nD) : (dat V c).arrAt 2 cfg9.N = sqTo V c 25 :=
  (dat V c).arrAt_eq_of_cover 2 (sqTo V c 25) (fun t hf => flushed2_eq V c t hf) (covered2)

end Cert.KernelIdeal.R9

end
-- ==== Proof.ValueR14.lean ====
/-
  From blocks to the arrays, for the column-sum region 14: each of the two output rows is written back exactly once,
  at the last point, whole; so after the region it holds the running sum after all 25 blocks.
-/
import proofs.«162580_j71794673320191_1_alg».proof.Proof.Reduce14Region
import Idealize.ShloMosaic.Lib.Pipeline.Value
import Idealize.ShloMosaic.Lib.ValueIdx

set_option maxRecDepth 16384

noncomputable section

namespace Cert.KernelIdeal.R14

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The printed index maps over the grid: the input moves with the point, both outputs stay at block 0. -/
theorem idx_facts : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0 :=
  (by decide +kernel : ∀ t : Fin grid14.N, _)

variable (V : (c : Dev nD) → (b : Ref sig .tc) → Buf (Elt F) ((c : Thread nD τ).loc b))

/-- An index of the 1 x 256 row is in point t's block of output 1 iff each coordinate is in the block's range. -/
theorem mem_blk1 (t : Fin cfg14.N) (i : S1x256.Idx) :
    i ∈ ((cfg14.win 1).blk t).view.set ↔ ∀ a : Fin 2, win14_1.index t a * S1x256.size a ≤ (i a).val ∧ (i a).val < win14_1.index t a * S1x256.size a + S1x256.size a := by
  show i ∈ ((View.whole main_v229_0).slice (win14_1.rect t)).set ↔ _
  rw [View.set_slice_whole, Rect.mem_set_unit]
  exact Iff.rfl

/-- The one write-back of output 1, at the last point, is the column sum over all 25 blocks. -/
theorem flushed1_eq (c : Dev nD) (t : Fin cfg14.N) (hf : (cfg14.win 1).flush t = true) :
    (dat V c).flushed 1 t = ((cfg14.win 1).blk t).view.read (Elt F) (sumTo V c 25) := by
  have ht : t.val + 1 = 25 := by
    have h := (flush14_1 t).mp hf; have := t.isLt; have hN : cfg14.N = 25 := N_14; omega
  obtain ⟨e00, e01, e10, e11, e20, e21⟩ := idx_facts t
  show (cfg14.win 1).cut (grid14.coords t) ((dat V c).after 1 t) = _
  rw [after1, ht]
  funext j
  have hemb : ((cfg14.win 1).blk t).view.emb j = j := by
    funext a; apply Fin.ext
    match a with
    | ⟨0, _⟩ => show win14_1.index t (0 : Fin 2) * 1 + 1 * (j 0).val = (j 0).val; omega
    | ⟨1, _⟩ => show win14_1.index t (1 : Fin 2) * 256 + 1 * (j 1).val = (j 1).val; omega
  show _ = sumTo V c 25 (((cfg14.win 1).blk t).view.emb j)
  rw [hemb]

theorem covered1 (i : S1x256.Idx) :
    ∃ t : Fin cfg14.N, (cfg14.win 1).flush t = true ∧ i ∈ ((cfg14.win 1).blk t).view.set := by
  have hi0 : (i 0).val < 1 := (i 0).isLt
  have hi1 : (i 1).val < 256 := (i 1).isLt
  have hN : cfg14.N = 25 := N_14
  refine ⟨⟨24, by omega⟩, (flush14_1 _).mpr (by rfl), ?_⟩
  obtain ⟨e00, e01, e10, e11, e20, e21⟩ := idx_facts ⟨24, by omega⟩
  rw [mem_blk1]
  intro a
  match a with
  | ⟨0, _⟩ => show win14_1.index _ (0 : Fin 2) * 1 ≤ (i 0).val ∧ (i 0).val < win14_1.index _ (0 : Fin 2) * 1 + 1; simp only [e10]; omega
  | ⟨1, _⟩ => show win14_1.index _ (1 : Fin 2) * 256 ≤ (i 1).val ∧ (i 1).val < win14_1.index _ (1 : Fin 2) * 256 + 256; simp only [e11]; omega

/-- Output 1 after the region: the column sum over all 50000 rows, block by block. -/
theorem final1 (c : Dev nD) : (dat V c).arrAt 1 cfg14.N = sumTo V c 25 :=
  (dat V c).arrAt_eq_of_cover 1 (sumTo V c 25) (fun t hf => flushed1_eq V c t hf) (covered1)

/-- An index of the 1 x 256 row is in point t's block of output 2 iff each coordinate is in the block's range. -/
theorem mem_blk2 (t : Fin cfg14.N) (i : S1x256.Idx) :
    i ∈ ((cfg14.win 2).blk t).view.set ↔ ∀ a : Fin 2, win14_2.index t a * S1x256.size a ≤ (i a).val ∧ (i a).val < win14_2.index t a * S1x256.size a + S1x256.size a := by
  show i ∈ ((View.whole main_v229_1).slice (win14_2.rect t)).set ↔ _
  rw [View.set_slice_whole, Rect.mem_set_unit]
  exact Iff.rfl

/-- The one write-back of output 2, at the last point, is the column sum of squares over all 25 blocks. -/
theorem flushed2_eq (c : Dev nD) (t : Fin cfg14.N) (hf : (cfg14.win 2).flush t = true) :
    (dat V c).flushed 2 t = ((cfg14.win 2).blk t).view.read (Elt F) (sqTo V c 25) := by
  have ht : t.val + 1 = 25 := by
    have h := (flush14_2 t).mp hf; have := t.isLt; have hN : cfg14.N = 25 := N_14; omega
  obtain ⟨e00, e01, e10, e11, e20, e21⟩ := idx_facts t
  show (cfg14.win 2).cut (grid14.coords t) ((dat V c).after 2 t) = _
  rw [after2, ht]
  funext j
  have hemb : ((cfg14.win 2).blk t).view.emb j = j := by
    funext a; apply Fin.ext
    match a with
    | ⟨0, _⟩ => show win14_2.index t (0 : Fin 2) * 1 + 1 * (j 0).val = (j 0).val; omega
    | ⟨1, _⟩ => show win14_2.index t (1 : Fin 2) * 256 + 1 * (j 1).val = (j 1).val; omega
  show _ = sqTo V c 25 (((cfg14.win 2).blk t).view.emb j)
  rw [hemb]

theorem covered2 (i : S1x256.Idx) :
    ∃ t : Fin cfg14.N, (cfg14.win 2).flush t = true ∧ i ∈ ((cfg14.win 2).blk t).view.set := by
  have hi0 : (i 0).val < 1 := (i 0).isLt
  have hi1 : (i 1).val < 256 := (i 1).isLt
  have hN : cfg14.N = 25 := N_14
  refine ⟨⟨24, by omega⟩, (flush14_2 _).mpr (by rfl), ?_⟩
  obtain ⟨e00, e01, e10, e11, e20, e21⟩ := idx_facts ⟨24, by omega⟩
  rw [mem_blk2]
  intro a
  match a with
  | ⟨0, _⟩ => show win14_2.index _ (0 : Fin 2) * 1 ≤ (i 0).val ∧ (i 0).val < win14_2.index _ (0 : Fin 2) * 1 + 1; simp only [e20]; omega
  | ⟨1, _⟩ => show win14_2.index _ (1 : Fin 2) * 256 ≤ (i 1).val ∧ (i 1).val < win14_2.index _ (1 : Fin 2) * 256 + 256; simp only [e21]; omega

/-- Output 2 after the region: the column sum of squares over all 50000 rows, block by block. -/
theorem final2 (c : Dev nD) : (dat V c).arrAt 2 cfg14.N = sqTo V c 25 :=
  (dat V c).arrAt_eq_of_cover 2 (sqTo V c 25) (fun t hf => flushed2_eq V c t hf) (covered2)

end Cert.KernelIdeal.R14

end
-- ==== Proof.LibLinearRow.lean ====
/-
  One row of a linear layer at the ideal values (extended reals, exact operations).

  A layer computes, at row `p` and column `q`, an activation of  (∑ k, x p k * w k q) + b q.
  This file reads that value at an index for the two spellings a program can give it:
  the vector spelling (a matrix product into a zero accumulator, a one-row bias broadcast
  down the rows, a pointwise activation written with splats) and the whole-array spelling
  (a `dot_general`, a bias vector broadcast to one row and then down the rows, an
  activation written with scalars broadcast to the array). Both read as the same
  expression, so two programs that feed them the same rows agree entry by entry.

  Contents:
  * `DotDims`: on a free axis that is the only one, an operand index reads the result index
    (`lhsIdx_val_of_free_single`, `rhsIdx_val_of_free_single`); for plain "rows × columns"
    dimension numbers the contraction sum is the sum over the shared extent (`sum_contr_plain`).
  * the product at an index (`matmul_plain_apply`, `dotGeneral_plain_apply`);
  * the bias at an index (`biasRow_apply`, `biasVec_apply`), a bias row made from a vector (`reshapeRow_apply`,
    `zeroRow_apply`), and the affine part of a layer in both spellings (`affine_vec_apply`, `affine_host_apply`);
  * the activations `leaky`, `relu` and their two spellings at an index.
-/
import Idealize.ShloMosaic.PureOps.Ideal.Laws
import Idealize.ShloMosaic.Lib.ValueLayout
import Idealize.ShloMosaic.Lib.KernelVsHost
import Idealize.ShloMosaic.Lib.IdealHost

noncomputable section

open scoped BigOperators

namespace Cert.LinearRow

open Idealize.ShloMosaic Idealize.ShloMosaic.ValueIdx

/-! ## Dimension numbers with one free axis per operand -/

section Dims
variable {sl sr so : Shape} (d : DotDims sl sr so)

/-- With no batch axis and one free left axis `a`, the left operand's index on `a` is the
    result index's first coordinate. -/
theorem lhsIdx_val_of_free_single {a : Fin sl.rank} (hb : d.lhsBatch = []) (hn : d.lhsNonContracting = [a])
    (j : so.Idx) (k : d.contr.Idx) :
    (d.lhsIdx j k a).val = (j ⟨0, by rw [d.rank_out, hb, hn]; exact Nat.one_pos.trans_le (Nat.le_add_right _ _)⟩).val := by
  have hmem : a ∈ d.lhsNonContracting := by rw [hn]; exact List.mem_singleton.mpr rfl
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free left axis and one free right axis `c`, the right operand's index
    on `c` is the result index's second coordinate. -/
theorem rhsIdx_val_of_free_single {a : Fin sl.rank} {c : Fin sr.rank} (hb : d.lhsBatch = []) (hb' : d.rhsBatch = [])
    (hn : d.lhsNonContracting = [a]) (hn' : d.rhsNonContracting = [c]) (j : so.Idx) (k : d.contr.Idx) :
    (d.rhsIdx j k c).val = (j ⟨1, by rw [d.rank_out, hb, hn, hn']; exact Nat.lt_succ_self 1⟩).val := by
  have hmem : c ∈ d.rhsNonContracting := by rw [hn']; exact List.mem_singleton.mpr rfl
  have hnb : c ∉ d.rhsBatch := by rw [hb']; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Dims

/-! ## Plain dimension numbers: rows × columns -/

section Plain
variable {m K n : Nat}

/-- Dimension numbers of a plain product `[m, K] × [K, n] → [m, n]`: contract the left operand's
    axis 1 with the right operand's axis 0, keep the other two, no batch axis. -/
structure IsPlain (D : DotDims ⟨2, ![m, K]⟩ ⟨2, ![K, n]⟩ ⟨2, ![m, n]⟩) : Prop where
  lhsC : D.lhsContracting = [1]
  rhsC : D.rhsContracting = [0]
  lhsN : D.lhsNonContracting = [0]
  rhsN : D.rhsNonContracting = [1]
  lhsB : D.lhsBatch = []
  rhsB : D.rhsBatch = []

variable {D : DotDims ⟨2, ![m, K]⟩ ⟨2, ![K, n]⟩ ⟨2, ![m, n]⟩}

/-- For plain dimension numbers a sum over the contraction index at result index `(p, q)` is the sum
    over `k` of the left operand's `(p, k)` and the right operand's `(k, q)`. -/
theorem sum_contr_plain {M : Type*} [AddCommMonoid M] (hD : IsPlain D) (hr : D.contr.rank = 1)
    (hs : D.contr.size ⟨0, by omega⟩ = K)
    (g : (⟨2, ![m, K]⟩ : Shape).Idx → (⟨2, ![K, n]⟩ : Shape).Idx → M) (p : Fin m) (q : Fin n) :
    ∑ kk : D.contr.Idx, g (D.lhsIdx (ix2 p q) kk) (D.rhsIdx (ix2 p q) kk) = ∑ k : Fin K, g (ix2 p k) (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_of_free_single D hD.lhsB hD.lhsN _ _
    | ⟨1, _⟩ => exact (D.lhsIdx_val_of_single hD.lhsC _ _).trans hk)
  have er : D.rhsIdx (ix2 p q) ((contrEquiv1 D K hr hs).symm k) = ix2 k q := funext fun a => Fin.ext (by
    match a with
    | ⟨0, _⟩ => exact (D.rhsIdx_val_of_single hD.rhsC _ _).trans hk
    | ⟨1, _⟩ => exact rhsIdx_val_of_free_single D hD.lhsB hD.rhsB hD.lhsN hD.rhsN _ _)
  rw [el, er]

/-- A matrix product into the zero accumulator, read at `(p, q)`: the sum over `k` of the products. -/
theorem matmul_plain_apply {φ₁ φ₂ : FTy} (hD : IsPlain D) (hr : D.contr.rank = 1) (hs : D.contr.size ⟨0, by omega⟩ = K)
    (prec : Option ContractPrecision) (lhs : FVec Ideal ⟨2, ![m, K]⟩ φ₁) (rhs : FVec Ideal ⟨2, ![K, n]⟩ φ₂)
    (p : Fin m) (q : Fin n) :
    matmul D prec lhs rhs (constant ⟨2, ![m, n]⟩ .f32 0x00000000#32) (ix2 p q) = ∑ k : Fin K, lhs (ix2 p k) * rhs (ix2 k q) :=
  (Ideal.matmul_constant_zero_apply D prec lhs rhs (ix2 p q)).trans
    (sum_contr_plain hD hr hs (fun i j => lhs i * rhs j) p q)

/-- The whole-array product read at `(p, q)`: the same sum. -/
theorem dotGeneral_plain_apply {φ₁ φ₂ : FTy} (hD : IsPlain D) (hr : D.contr.rank = 1) (hs : D.contr.size ⟨0, by omega⟩ = K)
    (prec : Option ContractPrecision) (lhs : FVec Ideal ⟨2, ![m, K]⟩ φ₁) (rhs : FVec Ideal ⟨2, ![K, n]⟩ φ₂)
    (p : Fin m) (q : Fin n) :
    Host.dotGeneral D prec lhs rhs (ix2 p q) = ∑ k : Fin K, lhs (ix2 p k) * rhs (ix2 k q) :=
  (Ideal.dotGeneral_apply D prec .single lhs rhs (ix2 p q)).trans
    (sum_contr_plain hD hr hs (fun i j => lhs i * rhs j) p q)

end Plain

/-! ## The bias at an index -/

section Bias
variable {α : Type} {m n : Nat}

/-- A one-row bias `[1, n]`, cast to its own shape and broadcast down `m` rows, reads at `(p, q)` the
    row's entry `q`. -/
theorem biasRow_apply (b : (⟨2, ![1, n]⟩ : Shape).Idx → α) (hc : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix2 (0 : Fin 1) q) := by
  rw [shapeCast_self]
  exact broadcastTo_1b_ab_apply b hb p q

/-- A bias vector `[n]` broadcast to one row `[1, n]` and then down `m` rows reads at `(r, q)` the
    vector's entry `q`. -/
theorem biasVec_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split
    · have := q.isLt; omega
    · rfl

end Bias

/-! ## The activations -/

/-- Leaky rectification on the extended reals with slope the f32 word `s`: `v` where `v ≥ 0`, else
    `v` times the slope. Spelt with the ideal instance's comparison and select, as programs spell it. -/
def leaky (s : BitVec 32) (v : EReal) : EReal :=
  Scalar.select (FloatOps.cmpf (F := Ideal) (φ := .f32) .oge v (Ideal.ofBits .f32 0x00000000#32)) v
    (v * Ideal.ofBits .f32 s)

/-- Rectification on the extended reals: the maximum with (the f32 word) zero. -/
def relu (v : EReal) : EReal := max v (Ideal.ofBits .f32 0x00000000#32)

section Act
variable {T : Shape}

/-- The vector spelling of `leaky`: compare with a zero splat, multiply by a slope splat, select. -/
theorem leaky_vec_apply (s : BitVec 32) (v : FVec Ideal T .f32) (i : T.Idx) :
    select (cmpf .oge v (broadcast T (Scalar.ofBits (F := Ideal) .f32 0x00000000#32))) v
        (mulf v (broadcast T (Scalar.ofBits (F := Ideal) .f32 s))) i = leaky s (v i) := rfl

/-- The whole-array spelling of `leaky`: compare with a broadcast scalar zero, multiply the broadcast scalar
    slope (converted to its own format) by the array, select. -/
theorem leaky_host_apply (s : BitVec 32) (h : (⟨0, ![]⟩ : Shape).BroadcastsInDim T ![]) (x : FVec Ideal T .f32) (i : T.Idx) :
    select (cmpf .oge x (broadcastInDim T ![] h (constant (F := Ideal) ⟨0, ![]⟩ .f32 0x00000000#32))) x
        (mulf (broadcastInDim T ![] h (id (constant (F := Ideal) ⟨0, ![]⟩ .f32 s))) x) i = leaky s (x i) := by
  rw [select_apply, cmpf_apply, mulf_apply, broadcastInDim_scalar_apply, broadcastInDim_scalar_apply]
  show Scalar.select (FloatOps.cmpf .oge (x i) (Ideal.ofBits .f32 0x00000000#32)) (x i) (Ideal.ofBits .f32 s * x i) = _
  rw [mul_comm]
  rfl

/-- The vector spelling of `relu`: the maximum with a zero splat. -/
theorem relu_vec_apply (v : FVec Ideal T .f32) (i : T.Idx) :
    maximumf v (broadcast T (Scalar.ofBits (F := Ideal) .f32 0x00000000#32)) i = relu (v i) := rfl

/-- The whole-array spelling of `relu`: the maximum with a broadcast scalar zero. -/
theorem relu_host_apply (h : (⟨0, ![]⟩ : Shape).BroadcastsInDim T ![]) (x : FVec Ideal T .f32) (i : T.Idx) :
    maximumf x (broadcastInDim T ![] h (constant (F := Ideal) ⟨0, ![]⟩ .f32 0x00000000#32)) i = relu (x i) := by
  rw [maximumf_apply, broadcastInDim_scalar_apply]
  rfl

end Act

/-! ## The affine part of a layer at an index -/

section Affine
variable {m K n : Nat} {D : DotDims ⟨2, ![m, K]⟩ ⟨2, ![K, n]⟩ ⟨2, ![m, n]⟩}

/-- The vector spelling: both operands cast to their own shapes and narrowed (the identity on extended
    reals), multiplied into a zero accumulator, plus the one-row bias broadcast down the rows. At `(p, q)`
    it is `(∑ k, x p k * w k q) + b 0 q`. -/
theorem affine_vec_apply {ψ : FTy} (hD : IsPlain D) (hr : D.contr.rank = 1) (hs : D.contr.size ⟨0, by omega⟩ = K)
    (prec : Option ContractPrecision)
    (x : FVec Ideal ⟨2, ![m, K]⟩ .f32) (w : FVec Ideal ⟨2, ![K, n]⟩ .f32) (b : FVec Ideal ⟨2, ![1, n]⟩ .f32)
    (hx : (⟨2, ![m, K]⟩ : Shape).ShapeCasts ⟨2, ![m, K]⟩) (hw : (⟨2, ![K, n]⟩ : Shape).ShapeCasts ⟨2, ![K, n]⟩)
    (hc : (⟨2, ![1, n]⟩ : Shape).ShapeCasts ⟨2, ![1, n]⟩) (hb : (⟨2, ![1, n]⟩ : Shape).Broadcasts ⟨2, ![m, n]⟩)
    (hlt : ψ.bits < FTy.f32.bits) (p : Fin m) (q : Fin n) :
    addf (matmul D prec (truncf ψ (shapeCast ⟨2, ![m, K]⟩ x hx) hlt) (truncf ψ (shapeCast ⟨2, ![K, n]⟩ w hw) hlt)
        (constant ⟨2, ![m, n]⟩ .f32 0x00000000#32)) (broadcastTo ⟨2, ![m, n]⟩ (shapeCast ⟨2, ![1, n]⟩ b hc) hb) (ix2 p q)
      = (∑ k : Fin K, x (ix2 p k) * w (ix2 k q)) + b (ix2 (0 : Fin 1) q) := by
  refine (addf_apply _ _ (ix2 p q)).trans (congrArg₂ (· + ·) ?_ (biasRow_apply b hc hb p q))
  refine (matmul_plain_apply hD hr hs prec _ _ p q).trans ?_
  simp only [truncf_apply, shapeCast_self]

/-- The whole-array spelling: the product plus the bias vector broadcast to one row and down the rows. At
    `(r, q)` it is `(∑ k, X r k * W k q) + bias q`. -/
theorem affine_host_apply (hD : IsPlain D) (hr : D.contr.rank = 1) (hs : D.contr.size ⟨0, by omega⟩ = K)
    (prec : Option ContractPrecision)
    (X : FVec Ideal ⟨2, ![m, K]⟩ .f32) (W : FVec Ideal ⟨2, ![K, n]⟩ .f32) (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    addf (Host.dotGeneral D prec X W) (broadcastInDim ⟨2, ![m, n]⟩ ![0, 1] h2 (broadcastInDim ⟨2, ![1, n]⟩ ![1] h1 bias)) (ix2 r q)
      = (∑ k : Fin K, X (ix2 r k) * W (ix2 k q)) + bias (ix1 q) :=
  (addf_apply _ _ (ix2 r q)).trans
    (congrArg₂ (· + ·) (dotGeneral_plain_apply hD hr hs prec X W r q) (biasVec_apply bias h1 h2 r q))

end Affine

/-! ## A bias row made from a vector -/

section Row
variable {α : Type} {n : Nat}

/-- A vector `[n]` reshaped to one row `[1, n]` reads at `(0, q)` the vector's entry `q`. -/
theorem reshapeRow_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]; show q.val = 0 * n + q.val; omega)

/-- The zero scalar broadcast to a vector `[n]` and reshaped to one row `[1, n]` is zero at every entry. -/
theorem zeroRow_apply (h0 : (⟨0, ![]⟩ : Shape).BroadcastsInDim ⟨1, ![n]⟩ ![])
    (h : (⟨1, ![n]⟩ : Shape).ShapeCasts ⟨2, ![1, n]⟩) (q : Fin n) :
    shapeCast ⟨2, ![1, n]⟩ (broadcastInDim ⟨1, ![n]⟩ ![] h0 (constant (F := Ideal) ⟨0, ![]⟩ .f32 0x00000000#32)) h
        (ix2 (0 : Fin 1) q) = (0 : EReal) := by
  rw [reshapeRow_apply, broadcastInDim_scalar_apply]
  exact Ideal.ofBits_zero_f32

end Row

end Cert.LinearRow

end
-- ==== Proof.PayEncode.lean ====
/-
  The encoder body's stored value read at an index, at the ideal values (extended reals, exact
  operations): one entry of a linear layer. Narrowing to bf16 is the identity there, the matrix product
  into a zero accumulator is the sum over the shared extent, and the one-row bias broadcast down the
  rows reads the row's entry. So at row `p` and column `q` the value is (∑ k, x p k * w k q) + b 0 q.
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- The encoder's product contracts the left operand's columns with the right operand's rows. -/
theorem plain_encode : Cert.LinearRow.IsPlain dot_S2000x64_S64x256_S2000x256_1_0_0_1_n_n :=
  ⟨rfl, rfl, rfl, rfl, rfl, rfl⟩

/-- The encoder body's stored value at `(p, q)`. -/
theorem pay_encode (x : Vec Ideal S2000x64 .f32) (w : Vec Ideal S64x256 .f32) (b : Vec Ideal S1x256 .f32)
    (p : Fin 2000) (q : Fin 256) :
    k0_pay1 (F := Ideal) x w b (ix2 p q) = (∑ k : Fin 64, x (ix2 p k) * w (ix2 k q)) + b (ix2 0 q) := by
  unfold k0_pay1
  refine (addf_apply _ _ (ix2 p q)).trans (congrArg₂ (· + ·) ?_ (Cert.LinearRow.biasRow_apply b _ _ p q))
  exact Cert.LinearRow.matmul_plain_apply plain_encode rfl rfl none _ _ p q

end Cert.KernelIdeal.Pay

end
-- ==== Proof.BridgeHost.lean ====
/-
  The reference's whole-array expressions read at an index, at the ideal values (extended reals, exact
  operations), and the row split every comparison with the blockwise side uses.
  A row number below 50000 is 2000·t + p. The encoder at (r, q) is (∑ k, x r k * w k q) + b q. One round's
  update at (r, q) is two linear layers, one after the other, rectified between and (first form) after:
  act ((∑ k', relu ((∑ k, (g r k + a r k) * w1 k k') + b1 k') * w2 k' q) + b2 q).
  A vector laid out as one row reads, at column q, the vector's entry q.
-/
import proofs.«162580_j71794673320191_1_alg».proof.Proof.Shared
import proofs.«162580_j71794673320191_1_alg».proof.Proof.SharedK
import proofs.«162580_j71794673320191_1_alg».proof.Proof.LibLinearRow

noncomputable section

open scoped BigOperators

namespace Cert.Bridge

open Idealize.ShloMosaic Idealize.ShloMosaic.ValueIdx Cert.KernelIdeal

/-- A row number below 50000 is 2000·t + p for a block number t below 25 and a place p below 2000. -/
theorem row_split (r : Fin 50000) :
    ∃ (t : Fin 25) (p : Fin 2000) (h : 2000 * t.val + p.val < 50000), r = ⟨2000 * t.val + p.val, h⟩ := by
  have hr := r.isLt
  exact ⟨⟨r.val / 2000, by omega⟩, ⟨r.val % 2000, Nat.mod_lt _ (by norm_num)⟩, by show 2000 * (r.val / 2000) + r.val % 2000 < 50000; omega,
    Fin.ext (by show r.val = 2000 * (r.val / 2000) + r.val % 2000; omega)⟩

/-- The reference's encoder product contracts the left operand's columns with the right operand's rows. -/
theorem plain_enc_ref : Cert.LinearRow.IsPlain Cert.ReferenceIdeal.dot_S50000x64_S64x256_S50000x256_1_0_0_1_n_n :=
  ⟨rfl, rfl, rfl, rfl, rfl, rfl⟩

/-- So do the reference's two products of a round. -/
theorem plain_mlp_ref : Cert.LinearRow.IsPlain Cert.ReferenceIdeal.dot_S50000x256_S256x256_S50000x256_1_0_0_1_n_n :=
  ⟨rfl, rfl, rfl, rfl, rfl, rfl⟩

/-- A vector laid out as one row, at column `q`. -/
theorem rowOf_apply (b : Vec Ideal S256 .f32) (q : Fin 256) :
    Cert.SharedK.rowOf (F := Ideal) b (ix2 0 q) = b (ix1 q) := by
  unfold Cert.SharedK.rowOf
  exact Cert.LinearRow.reshapeRow_apply b _ q

/-- The reference's encoder at `(r, q)`. -/
theorem encOf_apply (x : Vec Ideal S50000x64 .f32) (w : Vec Ideal S64x256 .f32) (b : Vec Ideal S256 .f32)
    (r : Fin 50000) (q : Fin 256) :
    Cert.Shared.encOf (F := Ideal) x w b (ix2 r q) = (∑ k : Fin 64, x (ix2 r k) * w (ix2 k q)) + b (ix1 q) := by
  unfold Cert.Shared.encOf
  exact Cert.LinearRow.affine_host_apply plain_enc_ref rfl rfl none x w b _ _ r q

/-- The reference's round update without the final rectification, at `(r, q)`. -/
theorem mlpLin_apply (g a : Vec Ideal S50000x256 .f32) (w1 : Vec Ideal S256x256 .f32) (b1 : Vec Ideal S256 .f32)
    (w2 : Vec Ideal S256x256 .f32) (b2 : Vec Ideal S256 .f32) (r : Fin 50000) (q : Fin 256) :
    Cert.Shared.mlpLin (F := Ideal) g a w1 b1 w2 b2 (ix2 r q)
      = (∑ k' : Fin 256,
          Cert.LinearRow.relu ((∑ k : Fin 256, (g (ix2 r k) + a (ix2 r k)) * w1 (ix2 k k')) + b1 (ix1 k'))
            * w2 (ix2 k' q)) + b2 (ix1 q) := by
  unfold Cert.Shared.mlpLin
  refine (Cert.LinearRow.affine_host_apply plain_mlp_ref rfl rfl none _ w2 b2 _ _ r q).trans ?_
  refine congrArg₂ (· + ·) (Finset.sum_congr rfl fun k' _ => congrArg₂ (· * ·) ?_ rfl) rfl
  refine (Cert.LinearRow.relu_host_apply _ _ (ix2 r k')).trans (congrArg Cert.LinearRow.relu ?_)
  exact Cert.LinearRow.affine_host_apply plain_mlp_ref rfl rfl none _ w1 b1 _ _ r k'

/-- The reference's round update with the final rectification, at `(r, q)`. -/
theorem mlpRelu_apply (g a : Vec Ideal S50000x256 .f32) (w1 : Vec Ideal S256x256 .f32) (b1 : Vec Ideal S256 .f32)
    (w2 : Vec Ideal S256x256 .f32) (b2 : Vec Ideal S256 .f32) (r : Fin 50000) (q : Fin 256) :
    Cert.Shared.mlpRelu (F := Ideal) g a w1 b1 w2 b2 (ix2 r q)
      = Cert.LinearRow.relu ((∑ k' : Fin 256,
          Cert.LinearRow.relu ((∑ k : Fin 256, (g (ix2 r k) + a (ix2 r k)) * w1 (ix2 k k')) + b1 (ix1 k'))
            * w2 (ix2 k' q)) + b2 (ix1 q)) := by
  unfold Cert.Shared.mlpRelu
  refine (Cert.LinearRow.relu_host_apply _ _ (ix2 r q)).trans (congrArg Cert.LinearRow.relu ?_)
  exact mlpLin_apply g a w1 b1 w2 b2 r q

end Cert.Bridge

end
-- ==== Proof.Bridge0.lean ====
/-
  The encoder, blocks against the whole array, at the ideal values (extended reals, exact operations).
  The kernel side computes the output array 2000 rows at a time: at row 2000·t + p it is the encoder
  body's arithmetic on block t of the input rows, read at row p. The reference computes the whole
  array at once: x · W plus the bias vector repeated down the rows. Both are, at row r and column q,
  (∑ k, x r k * w k q) + b q, so the two arrays are equal.
-/
import proofs.«162580_j71794673320191_1_alg».proof.Proof.Value0
import proofs.«162580_j71794673320191_1_alg».proof.Proof.PayEncode
import proofs.«162580_j71794673320191_1_alg».proof.Proof.BridgeHost

noncomputable section

open scoped BigOperators

namespace Cert.Bridge

open Idealize.ShloMosaic Idealize.ShloMosaic.ValueIdx Cert.KernelIdeal

/-- The encoder's output array: the kernel side's blockwise function of its inputs (the bias laid out as a
    row) is the reference's whole-array expression. -/
theorem enc_eq (x : Vec Ideal S50000x64 .f32) (w : Vec Ideal S64x256 .f32) (b : Vec Ideal S256 .f32) :
    Cert.KernelIdeal.R0.G (F := Ideal) x w (Cert.SharedK.rowOf b) = Cert.Shared.encOf x w b := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R0.G_at x w (Cert.SharedK.rowOf b) t p q).trans ?_
  refine (Cert.KernelIdeal.Pay.pay_encode _ w _ p q).trans ?_
  refine Eq.trans ?_ (encOf_apply x w b ⟨2000 * t.val + p.val, h⟩ q).symm
  exact congrArg₂ (· + ·) rfl (rowOf_apply b q)

end Cert.Bridge

end
-- ==== Proof.PayMlp1.lean ====
/-
  The graph-convolution update body 1 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  relu ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp1 : Cert.LinearRow.IsPlain dot_S2000x256_S256x256_S2000x256_1_0_0_1_n_n :=
  ⟨rfl, rfl, rfl, rfl, rfl, rfl⟩

/-- The body's stored value at `(p, q)`. -/
theorem pay_mlp1 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k1_pay1 (F := Ideal) g a w1 b1 w2 b2 (ix2 p q)
      = Cert.LinearRow.relu ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k1_pay1
  refine (Cert.LinearRow.relu_vec_apply _ (ix2 p q)).trans (congrArg Cert.LinearRow.relu ?_)
  refine (addf_apply _ _ (ix2 p q)).trans (congrArg₂ (· + ·) ?_ (Cert.LinearRow.biasRow_apply b2 _ _ p q))
  refine (Cert.LinearRow.matmul_plain_apply plain_mlp1 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp1 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge1.lean ====
/-
  The graph-convolution update of region 1, blocks against the whole array, at the ideal values
  (extended reals, exact operations). The kernel side computes the output array 2000 rows at a time:
  at row 2000·t + p it is the body's arithmetic on block t of the two row-blocked inputs, read at row
  p. The reference computes the whole array at once. Both are, at row r and column q,
  relu ((∑ k', relu ((∑ k, (g r k + a r k) * w1 k k') + b1 k') * w2 k' q) + b2 q), so the two arrays are equal.
-/
import proofs.«162580_j71794673320191_1_alg».proof.Proof.Value1
import proofs.«162580_j71794673320191_1_alg».proof.Proof.PayMlp1
import proofs.«162580_j71794673320191_1_alg».proof.Proof.BridgeHost

noncomputable section

open scoped BigOperators

namespace Cert.Bridge

open Idealize.ShloMosaic Idealize.ShloMosaic.ValueIdx Cert.KernelIdeal

/-- Region 1's output array: the kernel side's blockwise function of its inputs (the two biases laid out
    as rows) is the reference's whole-array expression. -/
theorem mlp_eq1 (g a : Vec Ideal S50000x256 .f32) (w1 : Vec Ideal S256x256 .f32) (b1 : Vec Ideal S256 .f32)
    (w2 : Vec Ideal S256x256 .f32) (b2 : Vec Ideal S256 .f32) :
    Cert.KernelIdeal.R1.G (F := Ideal) g a w1 (Cert.SharedK.rowOf b1) w2 (Cert.SharedK.rowOf b2)
      = Cert.Shared.mlpRelu g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R1.G_at g a w1 (Cert.SharedK.rowOf b1) w2 (Cert.SharedK.rowOf b2) t p q).trans ?_
  refine (Cert.KernelIdeal.Pay.pay_mlp1 _ _ w1 _ w2 _ p q).trans ?_
  refine Eq.trans ?_ (mlpRelu_apply g a w1 b1 w2 b2 ⟨2000 * t.val + p.val, h⟩ q).symm
  refine congrArg Cert.LinearRow.relu ?_
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp2.lean ====
/-
  The graph-convolution update body 2 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  relu ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp2 : Cert.LinearRow.IsPlain dot_S2000x256_S256x256_S2000x256_1_0_0_1_n_n :=
  ⟨rfl, rfl, rfl, rfl, rfl, rfl⟩

/-- The body's stored value at `(p, q)`. -/
theorem pay_mlp2 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k2_pay1 (F := Ideal) g a w1 b1 w2 b2 (ix2 p q)
      = Cert.LinearRow.relu ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k2_pay1
  refine (Cert.LinearRow.relu_vec_apply _ (ix2 p q)).trans (congrArg Cert.LinearRow.relu ?_)
  refine (addf_apply _ _ (ix2 p q)).trans (congrArg₂ (· + ·) ?_ (Cert.LinearRow.biasRow_apply b2 _ _ p q))
  refine (Cert.LinearRow.matmul_plain_apply plain_mlp2 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp2 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge2.lean ====
/-
  The graph-convolution update of region 2, blocks against the whole array, at the ideal values
  (extended reals, exact operations). The kernel side computes the output array 2000 rows at a time:
  at row 2000·t + p it is the body's arithmetic on block t of the two row-blocked inputs, read at row
  p. The reference computes the whole array at once. Both are, at row r and column q,
  relu ((∑ k', relu ((∑ k, (g r k + a r k) * w1 k k') + b1 k') * w2 k' q) + b2 q), so the two arrays are equal.
-/
import proofs.«162580_j71794673320191_1_alg».proof.Proof.Value2
import proofs.«162580_j71794673320191_1_alg».proof.Proof.PayMlp2
import proofs.«162580_j71794673320191_1_alg».proof.Proof.BridgeHost

noncomputable section

open scoped BigOperators

namespace Cert.Bridge

open Idealize.ShloMosaic Idealize.ShloMosaic.ValueIdx Cert.KernelIdeal

/-- Region 2's output array: the kernel side's blockwise function of its inputs (the two biases laid out
    as rows) is the reference's whole-array expression. -/
theorem mlp_eq2 (g a : Vec Ideal S50000x256 .f32) (w1 : Vec Ideal S256x256 .f32) (b1 : Vec Ideal S256 .f32)
    (w2 : Vec Ideal S256x256 .f32) (b2 : Vec Ideal S256 .f32) :
    Cert.KernelIdeal.R2.G (F := Ideal) g a w1 (Cert.SharedK.rowOf b1) w2 (Cert.SharedK.rowOf b2)
      = Cert.Shared.mlpRelu g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R2.G_at g a w1 (Cert.SharedK.rowOf b1) w2 (Cert.SharedK.rowOf b2) t p q).trans ?_
  refine (Cert.KernelIdeal.Pay.pay_mlp2 _ _ w1 _ w2 _ p q).trans ?_
  refine Eq.trans ?_ (mlpRelu_apply g a w1 b1 w2 b2 ⟨2000 * t.val + p.val, h⟩ q).symm
  refine congrArg Cert.LinearRow.relu ?_
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp3.lean ====
/-
  The graph-convolution update body 3 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp3 : Cert.LinearRow.IsPlain dot_S2000x256_S256x256_S2000x256_1_0_0_1_n_n :=
  ⟨rfl, rfl, rfl, rfl, rfl, rfl⟩

/-- The body's stored value at `(p, q)`. -/
theorem pay_mlp3 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k3_pay1 (F := Ideal) g a w1 b1 w2 b2 (ix2 p q)
      = ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k3_pay1
  refine (addf_apply _ _ (ix2 p q)).trans (congrArg₂ (· + ·) ?_ (Cert.LinearRow.biasRow_apply b2 _ _ p q))
  refine (Cert.LinearRow.matmul_plain_apply plain_mlp3 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp3 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge3.lean ====
/-
  The graph-convolution update of region 3, blocks against the whole array, at the ideal values
  (extended reals, exact operations). The kernel side computes the output array 2000 rows at a time:
  at row 2000·t + p it is the body's arithmetic on block t of the two row-blocked inputs, read at row
  p. The reference computes the whole array at once. Both are, at row r and column q,
  ((∑ k', relu ((∑ k, (g r k + a r k) * w1 k k') + b1 k') * w2 k' q) + b2 q), so the two arrays are equal.
-/
import proofs.«162580_j71794673320191_1_alg».proof.Proof.Value3
import proofs.«162580_j71794673320191_1_alg».proof.Proof.PayMlp3
import proofs.«162580_j71794673320191_1_alg».proof.Proof.BridgeHost

noncomputable section

open scoped BigOperators

namespace Cert.Bridge

open Idealize.ShloMosaic Idealize.ShloMosaic.ValueIdx Cert.KernelIdeal

/-- Region 3's output array: the kernel side's blockwise function of its inputs (the two biases laid out
    as rows) is the reference's whole-array expression. -/
theorem mlp_eq3 (g a : Vec Ideal S50000x256 .f32) (w1 : Vec Ideal S256x256 .f32) (b1 : Vec Ideal S256 .f32)
    (w2 : Vec Ideal S256x256 .f32) (b2 : Vec Ideal S256 .f32) :
    Cert.KernelIdeal.R3.G (F := Ideal) g a w1 (Cert.SharedK.rowOf b1) w2 (Cert.SharedK.rowOf b2)
      = Cert.Shared.mlpLin g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R3.G_at g a w1 (Cert.SharedK.rowOf b1) w2 (Cert.SharedK.rowOf b2) t p q).trans ?_
  refine (Cert.KernelIdeal.Pay.pay_mlp3 _ _ w1 _ w2 _ p q).trans ?_
  refine Eq.trans ?_ (mlpLin_apply g a w1 b1 w2 b2 ⟨2000 * t.val + p.val, h⟩ q).symm
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp6.lean ====
/-
  The graph-convolution update body 6 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  relu ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp6 : Cert.LinearRow.IsPlain dot_S2000x256_S256x256_S2000x256_1_0_0_1_n_n :=
  ⟨rfl, rfl, rfl, rfl, rfl, rfl⟩

/-- The body's stored value at `(p, q)`. -/
theorem pay_mlp6 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k6_pay1 (F := Ideal) g a w1 b1 w2 b2 (ix2 p q)
      = Cert.LinearRow.relu ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k6_pay1
  refine (Cert.LinearRow.relu_vec_apply _ (ix2 p q)).trans (congrArg Cert.LinearRow.relu ?_)
  refine (addf_apply _ _ (ix2 p q)).trans (congrArg₂ (· + ·) ?_ (Cert.LinearRow.biasRow_apply b2 _ _ p q))
  refine (Cert.LinearRow.matmul_plain_apply plain_mlp6 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp6 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge6.lean ====
/-
  The graph-convolution update of region 6, blocks against the whole array, at the ideal values
  (extended reals, exact operations). The kernel side computes the output array 2000 rows at a time:
  at row 2000·t + p it is the body's arithmetic on block t of the two row-blocked inputs, read at row
  p. The reference computes the whole array at once. Both are, at row r and column q,
  relu ((∑ k', relu ((∑ k, (g r k + a r k) * w1 k k') + b1 k') * w2 k' q) + b2 q), so the two arrays are equal.
-/
import proofs.«162580_j71794673320191_1_alg».proof.Proof.Value6
import proofs.«162580_j71794673320191_1_alg».proof.Proof.PayMlp6
import proofs.«162580_j71794673320191_1_alg».proof.Proof.BridgeHost

noncomputable section

open scoped BigOperators

namespace Cert.Bridge

open Idealize.ShloMosaic Idealize.ShloMosaic.ValueIdx Cert.KernelIdeal

/-- Region 6's output array: the kernel side's blockwise function of its inputs (the two biases laid out
    as rows) is the reference's whole-array expression. -/
theorem mlp_eq6 (g a : Vec Ideal S50000x256 .f32) (w1 : Vec Ideal S256x256 .f32) (b1 : Vec Ideal S256 .f32)
    (w2 : Vec Ideal S256x256 .f32) (b2 : Vec Ideal S256 .f32) :
    Cert.KernelIdeal.R6.G (F := Ideal) g a w1 (Cert.SharedK.rowOf b1) w2 (Cert.SharedK.rowOf b2)
      = Cert.Shared.mlpRelu g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R6.G_at g a w1 (Cert.SharedK.rowOf b1) w2 (Cert.SharedK.rowOf b2) t p q).trans ?_
  refine (Cert.KernelIdeal.Pay.pay_mlp6 _ _ w1 _ w2 _ p q).trans ?_
  refine Eq.trans ?_ (mlpRelu_apply g a w1 b1 w2 b2 ⟨2000 * t.val + p.val, h⟩ q).symm
  refine congrArg Cert.LinearRow.relu ?_
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp7.lean ====
/-
  The graph-convolution update body 7 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  relu ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp7 : Cert.LinearRow.IsPlain dot_S2000x256_S256x256_S2000x256_1_0_0_1_n_n :=
  ⟨rfl, rfl, rfl, rfl, rfl, rfl⟩

/-- The body's stored value at `(p, q)`. -/
theorem pay_mlp7 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k7_pay1 (F := Ideal) g a w1 b1 w2 b2 (ix2 p q)
      = Cert.LinearRow.relu ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k7_pay1
  refine (Cert.LinearRow.relu_vec_apply _ (ix2 p q)).trans (congrArg Cert.LinearRow.relu ?_)
  refine (addf_apply _ _ (ix2 p q)).trans (congrArg₂ (· + ·) ?_ (Cert.LinearRow.biasRow_apply b2 _ _ p q))
  refine (Cert.LinearRow.matmul_plain_apply plain_mlp7 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp7 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge7.lean ====
/-
  The graph-convolution update of region 7, blocks against the whole array, at the ideal values
  (extended reals, exact operations). The kernel side computes the output array 2000 rows at a time:
  at row 2000·t + p it is the body's arithmetic on block t of the two row-blocked inputs, read at row
  p. The reference computes the whole array at once. Both are, at row r and column q,
  relu ((∑ k', relu ((∑ k, (g r k + a r k) * w1 k k') + b1 k') * w2 k' q) + b2 q), so the two arrays are equal.
-/
import proofs.«162580_j71794673320191_1_alg».proof.Proof.Value7
import proofs.«162580_j71794673320191_1_alg».proof.Proof.PayMlp7
import proofs.«162580_j71794673320191_1_alg».proof.Proof.BridgeHost

noncomputable section

open scoped BigOperators

namespace Cert.Bridge

open Idealize.ShloMosaic Idealize.ShloMosaic.ValueIdx Cert.KernelIdeal

/-- Region 7's output array: the kernel side's blockwise function of its inputs (the two biases laid out
    as rows) is the reference's whole-array expression. -/
theorem mlp_eq7 (g a : Vec Ideal S50000x256 .f32) (w1 : Vec Ideal S256x256 .f32) (b1 : Vec Ideal S256 .f32)
    (w2 : Vec Ideal S256x256 .f32) (b2 : Vec Ideal S256 .f32) :
    Cert.KernelIdeal.R7.G (F := Ideal) g a w1 (Cert.SharedK.rowOf b1) w2 (Cert.SharedK.rowOf b2)
      = Cert.Shared.mlpRelu g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R7.G_at g a w1 (Cert.SharedK.rowOf b1) w2 (Cert.SharedK.rowOf b2) t p q).trans ?_
  refine (Cert.KernelIdeal.Pay.pay_mlp7 _ _ w1 _ w2 _ p q).trans ?_
  refine Eq.trans ?_ (mlpRelu_apply g a w1 b1 w2 b2 ⟨2000 * t.val + p.val, h⟩ q).symm
  refine congrArg Cert.LinearRow.relu ?_
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp8.lean ====
/-
  The graph-convolution update body 8 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp8 : Cert.LinearRow.IsPlain dot_S2000x256_S256x256_S2000x256_1_0_0_1_n_n :=
  ⟨rfl, rfl, rfl, rfl, rfl, rfl⟩

/-- The body's stored value at `(p, q)`. -/
theorem pay_mlp8 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k8_pay1 (F := Ideal) g a w1 b1 w2 b2 (ix2 p q)
      = ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k8_pay1
  refine (addf_apply _ _ (ix2 p q)).trans (congrArg₂ (· + ·) ?_ (Cert.LinearRow.biasRow_apply b2 _ _ p q))
  refine (Cert.LinearRow.matmul_plain_apply plain_mlp8 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp8 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge8.lean ====
/-
  The graph-convolution update of region 8, blocks against the whole array, at the ideal values
  (extended reals, exact operations). The kernel side computes the output array 2000 rows at a time:
  at row 2000·t + p it is the body's arithmetic on block t of the two row-blocked inputs, read at row
  p. The reference computes the whole array at once. Both are, at row r and column q,
  ((∑ k', relu ((∑ k, (g r k + a r k) * w1 k k') + b1 k') * w2 k' q) + b2 q), so the two arrays are equal.
-/
import proofs.«162580_j71794673320191_1_alg».proof.Proof.Value8
import proofs.«162580_j71794673320191_1_alg».proof.Proof.PayMlp8
import proofs.«162580_j71794673320191_1_alg».proof.Proof.BridgeHost

noncomputable section

open scoped BigOperators

namespace Cert.Bridge

open Idealize.ShloMosaic Idealize.ShloMosaic.ValueIdx Cert.KernelIdeal

/-- Region 8's output array: the kernel side's blockwise function of its inputs (the two biases laid out
    as rows) is the reference's whole-array expression. -/
theorem mlp_eq8 (g a : Vec Ideal S50000x256 .f32) (w1 : Vec Ideal S256x256 .f32) (b1 : Vec Ideal S256 .f32)
    (w2 : Vec Ideal S256x256 .f32) (b2 : Vec Ideal S256 .f32) :
    Cert.KernelIdeal.R8.G (F := Ideal) g a w1 (Cert.SharedK.rowOf b1) w2 (Cert.SharedK.rowOf b2)
      = Cert.Shared.mlpLin g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R8.G_at g a w1 (Cert.SharedK.rowOf b1) w2 (Cert.SharedK.rowOf b2) t p q).trans ?_
  refine (Cert.KernelIdeal.Pay.pay_mlp8 _ _ w1 _ w2 _ p q).trans ?_
  refine Eq.trans ?_ (mlpLin_apply g a w1 b1 w2 b2 ⟨2000 * t.val + p.val, h⟩ q).symm
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp11.lean ====
/-
  The graph-convolution update body 11 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  relu ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp11 : Cert.LinearRow.IsPlain dot_S2000x256_S256x256_S2000x256_1_0_0_1_n_n :=
  ⟨rfl, rfl, rfl, rfl, rfl, rfl⟩

/-- The body's stored value at `(p, q)`. -/
theorem pay_mlp11 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k11_pay1 (F := Ideal) g a w1 b1 w2 b2 (ix2 p q)
      = Cert.LinearRow.relu ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k11_pay1
  refine (Cert.LinearRow.relu_vec_apply _ (ix2 p q)).trans (congrArg Cert.LinearRow.relu ?_)
  refine (addf_apply _ _ (ix2 p q)).trans (congrArg₂ (· + ·) ?_ (Cert.LinearRow.biasRow_apply b2 _ _ p q))
  refine (Cert.LinearRow.matmul_plain_apply plain_mlp11 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp11 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge11.lean ====
/-
  The graph-convolution update of region 11, blocks against the whole array, at the ideal values
  (extended reals, exact operations). The kernel side computes the output array 2000 rows at a time:
  at row 2000·t + p it is the body's arithmetic on block t of the two row-blocked inputs, read at row
  p. The reference computes the whole array at once. Both are, at row r and column q,
  relu ((∑ k', relu ((∑ k, (g r k + a r k) * w1 k k') + b1 k') * w2 k' q) + b2 q), so the two arrays are equal.
-/
import proofs.«162580_j71794673320191_1_alg».proof.Proof.Value11
import proofs.«162580_j71794673320191_1_alg».proof.Proof.PayMlp11
import proofs.«162580_j71794673320191_1_alg».proof.Proof.BridgeHost

noncomputable section

open scoped BigOperators

namespace Cert.Bridge

open Idealize.ShloMosaic Idealize.ShloMosaic.ValueIdx Cert.KernelIdeal

/-- Region 11's output array: the kernel side's blockwise function of its inputs (the two biases laid out
    as rows) is the reference's whole-array expression. -/
theorem mlp_eq11 (g a : Vec Ideal S50000x256 .f32) (w1 : Vec Ideal S256x256 .f32) (b1 : Vec Ideal S256 .f32)
    (w2 : Vec Ideal S256x256 .f32) (b2 : Vec Ideal S256 .f32) :
    Cert.KernelIdeal.R11.G (F := Ideal) g a w1 (Cert.SharedK.rowOf b1) w2 (Cert.SharedK.rowOf b2)
      = Cert.Shared.mlpRelu g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R11.G_at g a w1 (Cert.SharedK.rowOf b1) w2 (Cert.SharedK.rowOf b2) t p q).trans ?_
  refine (Cert.KernelIdeal.Pay.pay_mlp11 _ _ w1 _ w2 _ p q).trans ?_
  refine Eq.trans ?_ (mlpRelu_apply g a w1 b1 w2 b2 ⟨2000 * t.val + p.val, h⟩ q).symm
  refine congrArg Cert.LinearRow.relu ?_
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp12.lean ====
/-
  The graph-convolution update body 12 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  relu ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp12 : Cert.LinearRow.IsPlain dot_S2000x256_S256x256_S2000x256_1_0_0_1_n_n :=
  ⟨rfl, rfl, rfl, rfl, rfl, rfl⟩

/-- The body's stored value at `(p, q)`. -/
theorem pay_mlp12 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k12_pay1 (F := Ideal) g a w1 b1 w2 b2 (ix2 p q)
      = Cert.LinearRow.relu ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k12_pay1
  refine (Cert.LinearRow.relu_vec_apply _ (ix2 p q)).trans (congrArg Cert.LinearRow.relu ?_)
  refine (addf_apply _ _ (ix2 p q)).trans (congrArg₂ (· + ·) ?_ (Cert.LinearRow.biasRow_apply b2 _ _ p q))
  refine (Cert.LinearRow.matmul_plain_apply plain_mlp12 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp12 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge12.lean ====
/-
  The graph-convolution update of region 12, blocks against the whole array, at the ideal values
  (extended reals, exact operations). The kernel side computes the output array 2000 rows at a time:
  at row 2000·t + p it is the body's arithmetic on block t of the two row-blocked inputs, read at row
  p. The reference computes the whole array at once. Both are, at row r and column q,
  relu ((∑ k', relu ((∑ k, (g r k + a r k) * w1 k k') + b1 k') * w2 k' q) + b2 q), so the two arrays are equal.
-/
import proofs.«162580_j71794673320191_1_alg».proof.Proof.Value12
import proofs.«162580_j71794673320191_1_alg».proof.Proof.PayMlp12
import proofs.«162580_j71794673320191_1_alg».proof.Proof.BridgeHost

noncomputable section

open scoped BigOperators

namespace Cert.Bridge

open Idealize.ShloMosaic Idealize.ShloMosaic.ValueIdx Cert.KernelIdeal

/-- Region 12's output array: the kernel side's blockwise function of its inputs (the two biases laid out
    as rows) is the reference's whole-array expression. -/
theorem mlp_eq12 (g a : Vec Ideal S50000x256 .f32) (w1 : Vec Ideal S256x256 .f32) (b1 : Vec Ideal S256 .f32)
    (w2 : Vec Ideal S256x256 .f32) (b2 : Vec Ideal S256 .f32) :
    Cert.KernelIdeal.R12.G (F := Ideal) g a w1 (Cert.SharedK.rowOf b1) w2 (Cert.SharedK.rowOf b2)
      = Cert.Shared.mlpRelu g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R12.G_at g a w1 (Cert.SharedK.rowOf b1) w2 (Cert.SharedK.rowOf b2) t p q).trans ?_
  refine (Cert.KernelIdeal.Pay.pay_mlp12 _ _ w1 _ w2 _ p q).trans ?_
  refine Eq.trans ?_ (mlpRelu_apply g a w1 b1 w2 b2 ⟨2000 * t.val + p.val, h⟩ q).symm
  refine congrArg Cert.LinearRow.relu ?_
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.PayMlp13.lean ====
/-
  The graph-convolution update body 13 read at an index, at the ideal values (extended reals, exact
  operations): two linear layers, one after the other. Narrowing to bf16 and a cast to the same shape
  are the identity there; a matrix product into a zero accumulator is the sum over the shared extent; a
  one-row bias broadcast down the rows reads the row's entry; the maximum with a zero splat is the
  rectification. So at row `p` and column `q` the stored value is
  ((∑ k', relu ((∑ k, (g p k + a p k) * w1 k k') + b1 0 k') * w2 k' q) + b2 0 q).
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- Both products of the body contract the left operand's columns with the right operand's rows. -/
theorem plain_mlp13 : Cert.LinearRow.IsPlain dot_S2000x256_S256x256_S2000x256_1_0_0_1_n_n :=
  ⟨rfl, rfl, rfl, rfl, rfl, rfl⟩

/-- The body's stored value at `(p, q)`. -/
theorem pay_mlp13 (g a : Vec Ideal S2000x256 .f32) (w1 : Vec Ideal S256x256 .f32) (b1 : Vec Ideal S1x256 .f32)
    (w2 : Vec Ideal S256x256 .f32) (b2 : Vec Ideal S1x256 .f32) (p : Fin 2000) (q : Fin 256) :
    k13_pay1 (F := Ideal) g a w1 b1 w2 b2 (ix2 p q)
      = ((∑ k' : Fin 256,
          Cert.LinearRow.relu ((∑ k : Fin 256, (g (ix2 p k) + a (ix2 p k)) * w1 (ix2 k k')) + b1 (ix2 0 k'))
            * w2 (ix2 k' q)) + b2 (ix2 0 q)) := by
  unfold k13_pay1
  refine (addf_apply _ _ (ix2 p q)).trans (congrArg₂ (· + ·) ?_ (Cert.LinearRow.biasRow_apply b2 _ _ p q))
  refine (Cert.LinearRow.matmul_plain_apply plain_mlp13 rfl rfl none _ _ p q).trans ?_
  refine Finset.sum_congr rfl fun k' _ => congrArg₂ (· * ·) ?_ (congrFun (shapeCast_self w2 _) (ix2 k' q))
  -- the hidden layer's entry (p, k')
  refine (Cert.LinearRow.relu_vec_apply _ (ix2 p k')).trans (congrArg Cert.LinearRow.relu ?_)
  refine (addf_apply _ _ (ix2 p k')).trans (congrArg₂ (· + ·) ?_ (Cert.LinearRow.biasRow_apply b1 _ _ p k'))
  refine (Cert.LinearRow.matmul_plain_apply plain_mlp13 rfl rfl none _ _ p k').trans ?_
  refine Finset.sum_congr rfl fun k _ => congrArg₂ (· * ·) ?_ (congrFun (shapeCast_self w1 _) (ix2 k k'))
  exact congrArg₂ (· + ·) (congrFun (shapeCast_self g _) (ix2 p k)) (congrFun (shapeCast_self a _) (ix2 p k))

end Cert.KernelIdeal.Pay

end
-- ==== Proof.Bridge13.lean ====
/-
  The graph-convolution update of region 13, blocks against the whole array, at the ideal values
  (extended reals, exact operations). The kernel side computes the output array 2000 rows at a time:
  at row 2000·t + p it is the body's arithmetic on block t of the two row-blocked inputs, read at row
  p. The reference computes the whole array at once. Both are, at row r and column q,
  ((∑ k', relu ((∑ k, (g r k + a r k) * w1 k k') + b1 k') * w2 k' q) + b2 q), so the two arrays are equal.
-/
import proofs.«162580_j71794673320191_1_alg».proof.Proof.Value13
import proofs.«162580_j71794673320191_1_alg».proof.Proof.PayMlp13
import proofs.«162580_j71794673320191_1_alg».proof.Proof.BridgeHost

noncomputable section

open scoped BigOperators

namespace Cert.Bridge

open Idealize.ShloMosaic Idealize.ShloMosaic.ValueIdx Cert.KernelIdeal

/-- Region 13's output array: the kernel side's blockwise function of its inputs (the two biases laid out
    as rows) is the reference's whole-array expression. -/
theorem mlp_eq13 (g a : Vec Ideal S50000x256 .f32) (w1 : Vec Ideal S256x256 .f32) (b1 : Vec Ideal S256 .f32)
    (w2 : Vec Ideal S256x256 .f32) (b2 : Vec Ideal S256 .f32) :
    Cert.KernelIdeal.R13.G (F := Ideal) g a w1 (Cert.SharedK.rowOf b1) w2 (Cert.SharedK.rowOf b2)
      = Cert.Shared.mlpLin g a w1 b1 w2 b2 := by
  funext i
  obtain ⟨r, q, rfl⟩ : ∃ (r : Fin 50000) (q : Fin 256), i = ix2 r q := ⟨i 0, i 1, eq_ix2 i⟩
  obtain ⟨t, p, h, rfl⟩ := row_split r
  refine (Cert.KernelIdeal.R13.G_at g a w1 (Cert.SharedK.rowOf b1) w2 (Cert.SharedK.rowOf b2) t p q).trans ?_
  refine (Cert.KernelIdeal.Pay.pay_mlp13 _ _ w1 _ w2 _ p q).trans ?_
  refine Eq.trans ?_ (mlpLin_apply g a w1 b1 w2 b2 ⟨2000 * t.val + p.val, h⟩ q).symm
  refine congrArg₂ (· + ·) (Finset.sum_congr rfl fun k' _ => congrArg₂ (· * ·) ?_ rfl) (rowOf_apply b2 q)
  exact congrArg Cert.LinearRow.relu (congrArg₂ (· + ·) rfl (rowOf_apply b1 k'))

end Cert.Bridge

end
-- ==== Proof.LibVariance.lean ====
import Idealize.ShloMosaic.PureOps.Ideal
import Mathlib.Tactic

/-!
# The two formulas for the (biased) variance agree

For a finite family of REAL numbers x i, i : ι, with n = card ι ≠ 0, the "mean of squares
minus square of the mean" and the "mean of squared deviations" are the same real number, and that
number is ≥ 0. The same statement is then given over the extended reals, in the exact operations
+, -, * of EReal and the quotient Ideal.div, for a family every entry of which is (the
coercion of) a real: over the extended reals the identity is FALSE in general (one infinite entry
makes both sides junk values that differ), so the finiteness hypothesis is needed.
-/

namespace Cert.Lib

open Idealize.ShloMosaic
open scoped BigOperators

/-- Coercion of reals into the extended reals commutes with finite sums. -/
theorem coe_sum_ereal {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor nonzero, computed by Ideal.div on their coercions, is
the coercion of the real quotient. -/
theorem ideal_div_coe (a n : ℝ) (hn : n ≠ 0) :
    Ideal.div (a : EReal) (n : EReal) = ((a / n : ℝ) : EReal) := by
  have h0 : (n : EReal) ≠ 0 := by
    intro h; exact hn (by exact_mod_cast h)
  rw [Ideal.div, if_neg h0, ← EReal.coe_inv, ← EReal.coe_mul, div_eq_mul_inv]

/-- **Variance identity over the reals.** With n = card ι ≠ 0:
(∑ xᵢ²)/n − ((∑ xᵢ)/n)² = (∑ (xᵢ − (∑ x)/n)²)/n. -/
theorem real_variance_identity {ι : Type*} [Fintype ι] (x : ι → ℝ) (n : ℝ) (hn : n ≠ 0)
    (hcard : n = (Fintype.card ι : ℝ)) :
    (∑ i, x i * x i) / n - ((∑ i, x i) / n) * ((∑ i, x i) / n)
      = (∑ i, (x i - (∑ j, x j) / n) * (x i - (∑ j, x j) / n)) / n := by
  set S : ℝ := ∑ i, x i with hS
  have hexp : ∑ i, (x i - S / n) * (x i - S / n)
      = (∑ i, x i * x i) - 2 * (S / n) * S + n * ((S / n) * (S / n)) := by
    have : ∀ i, (x i - S / n) * (x i - S / n)
        = x i * x i - 2 * (S / n) * x i + (S / n) * (S / n) := fun i => by ring
    simp only [this, Finset.sum_add_distrib, Finset.sum_sub_distrib, ← Finset.mul_sum,
      Finset.sum_const, Finset.card_univ, nsmul_eq_mul, ← hcard, ← hS]
    ring
  rw [hexp]
  field_simp
  ring

/-- The mean of squared deviations of a real family is nonnegative when n > 0. -/
theorem real_variance_nonneg {ι : Type*} [Fintype ι] (x : ι → ℝ) (m n : ℝ) (hn : 0 < n) :
    0 ≤ (∑ i, (x i - m) * (x i - m)) / n :=
  div_nonneg (Finset.sum_nonneg fun i _ => mul_self_nonneg _) hn.le

/-- **Variance identity over the extended reals**, in the operations +, -, * of EReal
and the quotient Ideal.div. For a family x of extended reals each of which is a real, with
n = card ι ≠ 0 and M := Ideal.div (∑ x) n the mean: there is a real v ≥ 0 with

* Ideal.div (∑ xᵢ·xᵢ) n − M·M = v (mean of squares minus square of mean) and
* Ideal.div (∑ (xᵢ − M)·(xᵢ − M)) n = v (mean of squared deviations). -/
theorem ereal_variance_identity {ι : Type*} [Fintype ι] (x : ι → EReal)
    (hx : ∀ i, ∃ r : ℝ, x i = (r : EReal)) (n : ℝ) (hn : n ≠ 0)
    (hcard : n = (Fintype.card ι : ℝ)) :
    ∃ v : ℝ, 0 ≤ v ∧
      Ideal.div (∑ i, x i * x i) (n : EReal)
          - Ideal.div (∑ i, x i) (n : EReal) * Ideal.div (∑ i, x i) (n : EReal) = (v : EReal) ∧
      Ideal.div (∑ i, (x i - Ideal.div (∑ j, x j) (n : EReal))
          * (x i - Ideal.div (∑ j, x j) (n : EReal))) (n : EReal) = (v : EReal) := by
  choose r hr using hx
  have hx' : x = fun i => (r i : EReal) := funext hr
  subst hx'
  have hnpos : 0 < n := by
    rcases lt_or_gt_of_ne hn with h | h
    · exfalso; rw [hcard] at h; exact absurd h (not_lt.mpr (Nat.cast_nonneg _))
    · exact h
  have hsum : (∑ i, (r i : EReal)) = ((∑ i, r i : ℝ) : EReal) := (coe_sum_ereal _ _).symm
  have hsq : (∑ i, (r i : EReal) * (r i : EReal)) = ((∑ i, r i * r i : ℝ) : EReal) := by
    rw [coe_sum_ereal]; exact Finset.sum_congr rfl fun i _ => (EReal.coe_mul _ _).symm
  have hM : Ideal.div (∑ i, (r i : EReal)) (n : EReal) = (((∑ i, r i) / n : ℝ) : EReal) := by
    rw [hsum, ideal_div_coe _ _ hn]
  have hdev : (∑ i, ((r i : EReal) - (((∑ j, r j) / n : ℝ) : EReal))
        * ((r i : EReal) - (((∑ j, r j) / n : ℝ) : EReal)))
      = ((∑ i, (r i - (∑ j, r j) / n) * (r i - (∑ j, r j) / n) : ℝ) : EReal) := by
    rw [coe_sum_ereal]
    exact Finset.sum_congr rfl fun i _ => by rw [← EReal.coe_sub, ← EReal.coe_mul]
  refine ⟨(∑ i, (r i - (∑ j, r j) / n) * (r i - (∑ j, r j) / n)) / n,
    real_variance_nonneg _ _ _ hnpos, ?_, ?_⟩
  · rw [hM, hsq, ideal_div_coe _ _ hn, ← EReal.coe_mul, ← EReal.coe_sub,
      real_variance_identity r n hn hcard]
  · rw [hM, hdev, ideal_div_coe _ _ hn]

/-- The two variance formulas over the extended reals are equal (the existential of
ereal_variance_identity eliminated). -/
theorem ereal_variance_eq {ι : Type*} [Fintype ι] (x : ι → EReal)
    (hx : ∀ i, ∃ r : ℝ, x i = (r : EReal)) (n : ℝ) (hn : n ≠ 0)
    (hcard : n = (Fintype.card ι : ℝ)) :
    Ideal.div (∑ i, x i * x i) (n : EReal)
        - Ideal.div (∑ i, x i) (n : EReal) * Ideal.div (∑ i, x i) (n : EReal)
      = Ideal.div (∑ i, (x i - Ideal.div (∑ j, x j) (n : EReal))
          * (x i - Ideal.div (∑ j, x j) (n : EReal))) (n : EReal) := by
  obtain ⟨v, _, h1, h2⟩ := ereal_variance_identity x hx n hn hcard
  rw [h1, h2]

/-- Subtracting the extended real zero from a real changes nothing: the divisor n − 0 of a
variance with zero "degrees of freedom" correction is n. -/
theorem coe_sub_zero_ereal (n : ℝ) : (n : EReal) - (0 : EReal) = (n : EReal) := by
  rw [← EReal.coe_zero, ← EReal.coe_sub, sub_zero]

/-- ereal_variance_identity with the second divisor written n − 0. -/
theorem ereal_variance_identity_sub_zero {ι : Type*} [Fintype ι] (x : ι → EReal)
    (hx : ∀ i, ∃ r : ℝ, x i = (r : EReal)) (n : ℝ) (hn : n ≠ 0)
    (hcard : n = (Fintype.card ι : ℝ)) :
    ∃ v : ℝ, 0 ≤ v ∧
      Ideal.div (∑ i, x i * x i) (n : EReal)
          - Ideal.div (∑ i, x i) (n : EReal) * Ideal.div (∑ i, x i) (n : EReal) = (v : EReal) ∧
      Ideal.div (∑ i, (x i - Ideal.div (∑ j, x j) (n : EReal))
          * (x i - Ideal.div (∑ j, x j) (n : EReal))) ((n : EReal) - (0 : EReal)) = (v : EReal) := by
  rw [coe_sub_zero_ereal]
  exact ereal_variance_identity x hx n hn hcard

/-- The literal instance: 50000 rows. -/
theorem ereal_variance_identity_50000 (x : Fin 50000 → EReal)
    (hx : ∀ i, ∃ r : ℝ, x i = (r : EReal)) :
    ∃ v : ℝ, 0 ≤ v ∧
      Ideal.div (∑ i, x i * x i) ((50000 : ℝ) : EReal)
          - Ideal.div (∑ i, x i) ((50000 : ℝ) : EReal) * Ideal.div (∑ i, x i) ((50000 : ℝ) : EReal)
        = (v : EReal) ∧
      Ideal.div (∑ i, (x i - Ideal.div (∑ j, x j) ((50000 : ℝ) : EReal))
          * (x i - Ideal.div (∑ j, x j) ((50000 : ℝ) : EReal)))
          (((50000 : ℝ) : EReal) - (0 : EReal)) = (v : EReal) :=
  ereal_variance_identity_sub_zero x hx 50000 (by norm_num) (by simp)

end Cert.Lib
-- ==== Proof.LibRealClosed.lean ====
import Idealize.ShloMosaic.Lib.IdealHost
import Mathlib.Tactic

/-!
# Extended reals that are real numbers, and operations that keep them so

An extended real is REAL when it is the coercion of a real number, equivalently when it is neither
of the two infinities. Sums, differences, products, quotients by a nonzero real, finite sums, maxima
and minima of reals are real; the reciprocal square root of a positive real is a positive real. The
same is then said of ARRAYS (functions from an index type to the extended reals) every entry of which
is real: the pointwise operations, a matrix product (a finite sum of products), a sum along axes (a
finite sum, plus the initial value on the host), a gather (a re-indexing) and an accumulating scatter
(each entry plus a finite sum of updates) of all-real arrays are all-real, and an accumulating scatter
of nonnegative arrays is nonnegative. Last, the four f32 bit patterns 0.0, 1.0, 50000.0 and 1e-5 are
read as extended reals: 0, 1, 50000 exactly, and a positive real.
-/

namespace Cert.Lib

open Idealize.ShloMosaic
open scoped BigOperators

/-! ## One extended real -/

/-- An extended real is REAL when it is the coercion of a real number. -/
def IsReal (x : EReal) : Prop := ∃ r : ℝ, x = (r : EReal)

/-- The coercion of a real number is real. -/
theorem isReal_coe (r : ℝ) : IsReal (r : EReal) := ⟨r, rfl⟩

/-- A real extended real is not the top element. -/
theorem IsReal.ne_top {x : EReal} (h : IsReal x) : x ≠ ⊤ := by
  obtain ⟨r, rfl⟩ := h; exact EReal.coe_ne_top r

/-- A real extended real is not the bottom element. -/
theorem IsReal.ne_bot {x : EReal} (h : IsReal x) : x ≠ ⊥ := by
  obtain ⟨r, rfl⟩ := h; exact EReal.coe_ne_bot r

/-- Real means: neither infinity. -/
theorem isReal_iff_ne (x : EReal) : IsReal x ↔ x ≠ ⊤ ∧ x ≠ ⊥ :=
  ⟨fun h => ⟨h.ne_top, h.ne_bot⟩, fun ⟨ht, hb⟩ => ⟨x.toReal, (EReal.coe_toReal ht hb).symm⟩⟩

/-- A real extended real is the coercion of its real part. -/
theorem IsReal.coe_toReal {x : EReal} (h : IsReal x) : ((x.toReal : ℝ) : EReal) = x :=
  EReal.coe_toReal h.ne_top h.ne_bot

/-- Zero is real. -/
theorem isReal_zero : IsReal (0 : EReal) := ⟨0, EReal.coe_zero.symm⟩
/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The maximum of two reals is real: it is one of them. -/
theorem IsReal.max {x y : EReal} (hx : IsReal x) (hy : IsReal y) : IsReal (max x y) := by
  rcases max_choice x y with h | h <;> rw [h] <;> assumption

/-- The minimum of two reals is real: it is one of them. -/
theorem IsReal.min {x y : EReal} (hx : IsReal x) (hy : IsReal y) : IsReal (min x y) := by
  rcases min_choice x y with h | h <;> rw [h] <;> assumption

/-- The quotient of two reals, the divisor nonzero, is the real quotient. -/
theorem div_coe_coe (a n : ℝ) (hn : n ≠ 0) :
    Ideal.div (a : EReal) (n : EReal) = ((a / n : ℝ) : EReal) := by
  have h0 : (n : EReal) ≠ 0 := by
    intro h; exact hn (by exact_mod_cast h)
  rw [Ideal.div, if_neg h0, ← EReal.coe_inv, ← EReal.coe_mul, div_eq_mul_inv]

/-- The quotient of a real by a nonzero real number is real. -/
theorem IsReal.div_coe {x : EReal} (hx : IsReal x) {n : ℝ} (hn : n ≠ 0) :
    IsReal (Ideal.div x (n : EReal)) := by
  obtain ⟨a, rfl⟩ := hx; exact ⟨a / n, div_coe_coe a n hn⟩

/-- The quotient of a real by a real extended real other than zero is real. -/
theorem IsReal.div {x y : EReal} (hx : IsReal x) (hy : IsReal y) (hy0 : y ≠ 0) :
    IsReal (Ideal.div x y) := by
  obtain ⟨b, rfl⟩ := hy
  exact hx.div_coe (fun h => hy0 (by rw [h, EReal.coe_zero]))

/-- A finite sum of reals is real. -/
theorem isReal_sum {ι : Type*} (s : Finset ι) (f : ι → EReal) (h : ∀ i ∈ s, IsReal (f i)) :
    IsReal (∑ i ∈ s, f i) :=
  Finset.sum_induction f IsReal (fun _ _ => IsReal.add) isReal_zero h

/-- Coercion of reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real: the real (√r)⁻¹, which is positive. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal of the square root of a positive real number is positive. -/
theorem inv_sqrt_pos {r : ℝ} (hr : 0 < r) : 0 < (Real.sqrt r)⁻¹ :=
  inv_pos.mpr (Real.sqrt_pos.mpr hr)

/-- The reciprocal square root of a positive real extended real is a positive real. -/
theorem IsReal.rsqrt_pos {x : EReal} (hx : IsReal x) (hpos : 0 < x) :
    ∃ r : ℝ, 0 < r ∧ Ideal.rsqrt x = (r : EReal) := by
  obtain ⟨a, rfl⟩ := hx
  have ha : 0 < a := EReal.coe_pos.mp hpos
  exact ⟨(Real.sqrt a)⁻¹, inv_sqrt_pos ha, rsqrt_coe_of_pos ha⟩

/-- The reciprocal square root of a positive real extended real is real. -/
theorem IsReal.rsqrt {x : EReal} (hx : IsReal x) (hpos : 0 < x) : IsReal (Ideal.rsqrt x) := by
  obtain ⟨r, _, h⟩ := hx.rsqrt_pos hpos; exact ⟨r, h⟩

/-- The reciprocal square root of a positive real extended real is positive. -/
theorem rsqrt_pos_of_isReal {x : EReal} (hx : IsReal x) (hpos : 0 < x) : 0 < Ideal.rsqrt x := by
  obtain ⟨r, hr, h⟩ := hx.rsqrt_pos hpos; rw [h]; exact EReal.coe_pos.mpr hr

/-- A nonnegative extended real plus one is positive (a degree count plus the self loop). -/
theorem pos_of_nonneg_add_one {x : EReal} (h : 0 ≤ x) : 0 < x + 1 :=
  lt_of_lt_of_le (by exact_mod_cast zero_lt_one) (le_add_of_nonneg_left h)

/-- A nonnegative real plus a positive real is positive, and the reciprocal square root of the sum
is a positive real (a variance plus the stabilising constant). -/
theorem rsqrt_add_pos {v e : ℝ} (hv : 0 ≤ v) (he : 0 < e) :
    Ideal.rsqrt ((v : EReal) + (e : EReal)) = (((Real.sqrt (v + e))⁻¹ : ℝ) : EReal)
      ∧ 0 < (Real.sqrt (v + e))⁻¹ := by
  have h : 0 < v + e := add_pos_of_nonneg_of_pos hv he
  rw [← EReal.coe_add]
  exact ⟨rsqrt_coe_of_pos h, inv_sqrt_pos h⟩

/-! ## Arrays -/

/-- Every entry of the array is real. -/
def AllReal {ι : Type*} (x : ι → EReal) : Prop := ∀ i, IsReal (x i)

/-- An all-real array is the coercion of an array of reals. -/
theorem AllReal.exists_real {ι : Type*} {x : ι → EReal} (h : AllReal x) :
    ∃ r : ι → ℝ, x = fun i => (r i : EReal) := by
  choose r hr using h; exact ⟨r, funext hr⟩

/-- Re-indexing (a gather, a broadcast, a reshape, a slice, a transpose) keeps an array all-real. -/
theorem AllReal.comp {ι κ : Type*} {x : ι → EReal} (h : AllReal x) (f : κ → ι) :
    AllReal (fun k => x (f k)) := fun k => h (f k)

/-- A constant array with a real value is all-real. -/
theorem allReal_const {ι : Type*} {c : EReal} (h : IsReal c) : AllReal (fun _ : ι => c) := fun _ => h

section Pointwise
variable {s : Shape} {φ : FTy}

/-- The pointwise sum of all-real arrays is all-real. -/
theorem allReal_addf {x y : FVec Ideal s φ} (hx : AllReal x) (hy : AllReal y) : AllReal (addf x y) :=
  fun i => show IsReal (x i + y i) from (hx i).add (hy i)

/-- The pointwise difference of all-real arrays is all-real. -/
theorem allReal_subf {x y : FVec Ideal s φ} (hx : AllReal x) (hy : AllReal y) : AllReal (subf x y) :=
  fun i => show IsReal (x i - y i) from (hx i).sub (hy i)

/-- The pointwise product of all-real arrays is all-real. -/
theorem allReal_mulf {x y : FVec Ideal s φ} (hx : AllReal x) (hy : AllReal y) : AllReal (mulf x y) :=
  fun i => show IsReal (x i * y i) from (hx i).mul (hy i)

/-- The pointwise maximum of all-real arrays is all-real. -/
theorem allReal_maximumf {x y : FVec Ideal s φ} (hx : AllReal x) (hy : AllReal y) :
    AllReal (maximumf x y) :=
  fun i => show IsReal (max (x i) (y i)) from (hx i).max (hy i)

/-- Pointwise quotient by an array of nonzero reals (the kernel's divf and the host's). -/
theorem allReal_divf {x y : FVec Ideal s φ} (hx : AllReal x) (hy : AllReal y) (hy0 : ∀ i, y i ≠ 0) :
    AllReal (divf x y) :=
  fun i => show IsReal (Ideal.div (x i) (y i)) from (hx i).div (hy i) (hy0 i)

/-- The same for the host's quotient. -/
theorem allReal_host_divf {x y : FVec Ideal s φ} (hx : AllReal x) (hy : AllReal y)
    (hy0 : ∀ i, y i ≠ 0) : AllReal (Host.divf x y) :=
  fun i => show IsReal (Ideal.div (x i) (y i)) from (hx i).div (hy i) (hy0 i)

/-- Pointwise reciprocal square root of an array of positive reals (the kernel's rsqrt). -/
theorem allReal_rsqrt {x : FVec Ideal s φ} (hx : AllReal x) (hpos : ∀ i, 0 < x i) :
    AllReal (rsqrt x) :=
  fun i => show IsReal (Ideal.rsqrt (x i)) from (hx i).rsqrt (hpos i)

/-- The same for the host's rsqrt. -/
theorem allReal_host_rsqrt {x : FVec Ideal s φ} (hx : AllReal x) (hpos : ∀ i, 0 < x i) :
    AllReal (Host.rsqrt x) :=
  fun i => show IsReal (Ideal.rsqrt (x i)) from (hx i).rsqrt (hpos i)

/-- The host's pointwise reciprocal square root of an array of positive reals is positive at every index. -/
theorem host_rsqrt_pos {x : FVec Ideal s φ} (hx : AllReal x) (hpos : ∀ i, 0 < x i) (i : s.Idx) :
    0 < Host.rsqrt x i :=
  show 0 < Ideal.rsqrt (x i) from rsqrt_pos_of_isReal (hx i) (hpos i)

/-- A splat of a bit pattern that denotes a real. -/
theorem allReal_constant {b : BitVec φ.bits} (h : IsReal (Ideal.ofBits φ b)) :
    AllReal (constant (F := Ideal) s φ b) := fun _ => h

end Pointwise

/-! ## Products and sums -/

section Contractions
variable {sl sr so : Shape} {φ₁ φ₂ : FTy}

/-- The host's matrix product of all-real arrays is all-real: each entry is a finite sum of
products. -/
theorem allReal_host_dotGeneral (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact isReal_sum _ _ fun k _ => (hl _).mul (hr _)

/-- A kernel's matrix product accumulated onto an all-real accumulator is all-real. -/
theorem allReal_matmul (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (matmul d prec lhs rhs acc) := fun j => by
  show IsReal (FloatOps.matmul d prec lhs rhs acc j)
  rw [Ideal.matmul_apply]
  exact (ha j).add (isReal_sum _ _ fun k _ => (hl _).mul (hr _))

/-- A kernel's matrix product onto the zero splat is all-real. -/
theorem allReal_matmul_zero (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) := fun j => by
  show IsReal (FloatOps.matmul d prec lhs rhs (constant so .f32 0x00000000#32) j)
  rw [Ideal.matmul_constant_zero_apply]
  exact isReal_sum _ _ fun k _ => (hl _).mul (hr _)

end Contractions

section Reductions
variable {s t u : Shape} {φ : FTy} {axes : List (Fin s.rank)}

/-- The host's sum along axes of an all-real array from a real initial value is all-real. -/
theorem allReal_host_reduceAdd {x : FVec Ideal s φ} {init : u.Idx → Ideal φ} (hx : AllReal x)
    (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (isReal_sum _ _ fun i _ => hx i)

/-- A kernel's add-reduction along axes of an all-real vector is all-real. -/
theorem allReal_multiReduction_add {src : FVec Ideal s φ} (hx : AllReal src) (acc : BitVec φ.bits)
    (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hx i

end Reductions

/-! ## Gather and accumulating scatter -/

section GatherScatter
variable {s si su t : Shape} {φ : FTy} {w : Nat}

/-- A gather only re-indexes its operand. -/
theorem allReal_host_gather (d : GatherDims s si t) {x : FVec Ideal s φ} (hx : AllReal x)
    (idx : IVec si w) : AllReal (Host.gather d x idx) := fun j => hx _

/-- What the host's accumulating scatter is at an index: the operand there plus the sum of the updates
that land there. -/
theorem host_scatterAdd_apply (d : ScatterDims s si su) (x : FVec Ideal s φ) (idx : IVec si w)
    (upd : FVec Ideal su φ) (i : s.Idx) :
    Host.scatterAdd d x idx upd i
      = x i + ∑ j ∈ Finset.univ.filter (fun j => d.resultIdx? j idx = some i), upd j := rfl

/-- An accumulating scatter of all-real updates into an all-real operand is all-real, whatever the
indices (an update that lands outside contributes nothing, one that lands inside adds a real). -/
theorem allReal_host_scatterAdd (d : ScatterDims s si su) {x : FVec Ideal s φ} (idx : IVec si w)
    {upd : FVec Ideal su φ} (hx : AllReal x) (hu : AllReal upd) :
    AllReal (Host.scatterAdd d x idx upd) := fun i => by
  rw [host_scatterAdd_apply]
  exact (hx i).add (isReal_sum _ _ fun j _ => hu j)

/-- An accumulating scatter of nonnegative updates into a nonnegative operand is nonnegative. -/
theorem host_scatterAdd_nonneg (d : ScatterDims s si su) {x : FVec Ideal s φ} (idx : IVec si w)
    {upd : FVec Ideal su φ} (hx : ∀ i, 0 ≤ x i) (hu : ∀ j, 0 ≤ upd j) (i : s.Idx) :
    0 ≤ Host.scatterAdd d x idx upd i := by
  rw [host_scatterAdd_apply]
  exact add_nonneg (hx i) (Finset.sum_nonneg fun j _ => hu j)

/-- It is also at least the operand: the updates only add. -/
theorem host_scatterAdd_ge (d : ScatterDims s si su) {x : FVec Ideal s φ} (idx : IVec si w)
    {upd : FVec Ideal su φ} (hu : ∀ j, 0 ≤ upd j) (i : s.Idx) :
    x i ≤ Host.scatterAdd d x idx upd i := by
  rw [host_scatterAdd_apply]
  exact le_add_of_nonneg_right (Finset.sum_nonneg fun j _ => hu j)

end GatherScatter

/-! ## Four f32 bit patterns -/

/-- 0.0 -/
theorem ofBits_f32_zero : Ideal.ofBits .f32 0x00000000#32 = 0 := Ideal.ofBits_zero_f32

/-- 1.0 -/
theorem ofBits_f32_one : Ideal.ofBits .f32 0x3F800000#32 = 1 := Ideal.ofBits_one_f32

/-- 50000.0: exponent field 142, fraction field 4411392, so (2^23 + 4411392) · 2^(142-127-23)
= 12800000 / 256 = 50000. -/
theorem ofBits_f32_50000 : Ideal.ofBits .f32 0x47435000#32 = ((50000 : ℝ) : EReal) := by
  simp [Ideal.ofBits, Ideal.ieee, -EReal.coe_mul]; norm_num

/-- The real the f32 nearest to 1e-5 denotes: exponent field 110, fraction field 2606508, so
(2^23 + 2606508) · 2^(110-127-23) = 10995116 / 2^40. -/
noncomputable def epsF32 : ℝ := 10995116 / 1099511627776

/-- That real is positive. -/
theorem epsF32_pos : 0 < epsF32 := by unfold epsF32; norm_num

/-- The f32 pattern 0x3727C5AC denotes that real. -/
theorem ofBits_f32_eps : Ideal.ofBits .f32 0x3727C5AC#32 = ((epsF32 : ℝ) : EReal) := by
  unfold epsF32
  simp [Ideal.ofBits, Ideal.ieee, -EReal.coe_mul]; norm_num

/-- The pattern of 0.0 denotes a real. -/
theorem isReal_ofBits_f32_zero : IsReal (Ideal.ofBits .f32 0x00000000#32) :=
  ofBits_f32_zero ▸ isReal_zero
/-- The pattern of 1.0 denotes a real. -/
theorem isReal_ofBits_f32_one : IsReal (Ideal.ofBits .f32 0x3F800000#32) :=
  ofBits_f32_one ▸ isReal_one
/-- The pattern of 50000.0 denotes a real. -/
theorem isReal_ofBits_f32_50000 : IsReal (Ideal.ofBits .f32 0x47435000#32) :=
  ⟨50000, ofBits_f32_50000⟩
/-- The pattern of the f32 nearest to 1e-5 denotes a real. -/
theorem isReal_ofBits_f32_eps : IsReal (Ideal.ofBits .f32 0x3727C5AC#32) :=
  ⟨epsF32, ofBits_f32_eps⟩

end Cert.Lib
-- ==== Proof.BridgeNormCore.lean ====
/-
  The batch normalisation of the 50000 rows, read at one entry, on both sides: the kernel side's mean row S/50000 and
  inverse deviation row rsqrt(Q/50000 - mean·mean + eps) from the rows of column sums S and column sums of squares Q,
  and the reference's column mean and variance (the mean of the centred squares, divided by 50000 - 0 behind a guard
  that the count is positive, which it is). When every entry of the array is a real number the two variances are the
  same real, so the normalised entry is the same expression on both sides.
-/
import proofs.«162580_j71794673320191_1_alg».proof.Proof.Shared
import proofs.«162580_j71794673320191_1_alg».proof.Proof.SharedK
import proofs.«162580_j71794673320191_1_alg».proof.Proof.LibLinearRow
import proofs.«162580_j71794673320191_1_alg».proof.Proof.LibVariance
import proofs.«162580_j71794673320191_1_alg».proof.Proof.LibRealClosed
import Idealize.ShloMosaic.Lib.IdealHost
import Idealize.ShloMosaic.Lib.ValueLayout
import Idealize.ShloMosaic.Lib.KernelVsHost

noncomputable section

open scoped BigOperators

namespace Cert.Bridge

open Idealize.ShloMosaic Idealize.ShloMosaic.ValueIdx Cert.KernelIdeal

/-- The stabilising constant as an extended real. -/
abbrev epsE : EReal := ((Cert.Lib.epsF32 : ℝ) : EReal)

/-- The row count as an extended real. -/
abbrev nE : EReal := ((50000 : ℝ) : EReal)

/-- The host's pointwise reciprocal square root at an index. -/
theorem hostRsqrt_apply {s : Shape} {φ : FTy} (x : FVec Ideal s φ) (i : s.Idx) :
    Host.rsqrt x i = Ideal.rsqrt (x i) := rfl

/-- A vector broadcast to one row reads at (0, q) the vector's entry q. -/
theorem rowBcast_apply {α : Type} {n : Nat} (b : (⟨1, ![n]⟩ : Shape).Idx → α)
    (h1 : (⟨1, ![n]⟩ : Shape).BroadcastsInDim ⟨2, ![1, n]⟩ ![1]) (q : Fin n) :
    broadcastInDim ⟨2, ![1, n]⟩ ![1] h1 b (ix2 (0 : Fin 1) q) = b (ix1 q) := by
  refine broadcastInDim_apply ![1] h1 b (ix2 (0 : Fin 1) q) (ix1 q) ?_
  intro a
  match a with
  | ⟨0, _⟩ =>
    show q.val = if n = 1 then 0 else q.val
    split
    · have := q.isLt; omega
    · rfl

/-- Every index of the 50000 x 256 array is row 2000·t + p, column q, for a block t and a row p of the block. -/
theorem idx_split (i : S50000x256.Idx) :
    ∃ (t : Fin 25) (p : Fin 2000) (q : Fin 256) (h : 2000 * t.val + p.val < 50000),
      i = ix2 (⟨2000 * t.val + p.val, h⟩ : Fin 50000) q := by
  have h0 : (i 0).val < 50000 := (i 0).isLt
  have h1 : (i 1).val < 256 := (i 1).isLt
  refine ⟨⟨(i 0).val / 2000, by omega⟩, ⟨(i 0).val % 2000, Nat.mod_lt _ (by norm_num)⟩, ⟨(i 1).val, h1⟩,
    by show 2000 * ((i 0).val / 2000) + (i 0).val % 2000 < 50000; omega, ?_⟩
  funext a; apply Fin.ext
  match a with
  | ⟨0, _⟩ => show (i 0).val = 2000 * ((i 0).val / 2000) + (i 0).val % 2000; omega
  | ⟨1, _⟩ => rfl

/-! ## The kernel side's two rows -/

/-- The mean row at column q: the column sum over 50000. -/
theorem kMean_at (S : FVec Ideal S1x256 .f32) (q : Fin 256) :
    Cert.SharedK.kMeanOf (F := Ideal) S (ix2 0 q) = Ideal.div (S (ix2 0 q)) nE := by
  unfold Cert.SharedK.kMeanOf
  rw [hostDivf_apply, broadcastInDim_scalar_apply, constant_apply, Cert.Lib.ofBits_f32_50000]

/-- The inverse deviation row at column q. -/
theorem kInv_at (S Q : FVec Ideal S1x256 .f32) (q : Fin 256) :
    Cert.SharedK.kInvOf (F := Ideal) S Q (ix2 0 q)
      = Ideal.rsqrt (Ideal.div (Q (ix2 0 q)) nE - Ideal.div (S (ix2 0 q)) nE * Ideal.div (S (ix2 0 q)) nE + epsE) := by
  unfold Cert.SharedK.kInvOf
  rw [hostRsqrt_apply, addf_apply, subf_apply, mulf_apply, hostDivf_apply, hostDivf_apply,
    broadcastInDim_scalar_apply, broadcastInDim_scalar_apply, constant_apply, constant_apply,
    Cert.Lib.ofBits_f32_50000, Cert.Lib.ofBits_f32_eps]

/-- A 256-vector laid out as a row reads at (0, q) its entry q. -/
theorem rowOf_at (v : FVec Ideal S256 .f32) (q : Fin 256) :
    Cert.SharedK.rowOf (F := Ideal) v (ix2 0 q) = v (ix1 q) := by
  unfold Cert.SharedK.rowOf
  exact Cert.LinearRow.reshapeRow_apply v _ q

/-! ## The reference's mean and variance -/

/-- The host's column sum from zero, at column q: the sum over the 50000 rows. -/
theorem colSum_host (g : FVec Ideal S50000x256 .f32) (h' : S50000x256.ReducesTo [0] S256) (hu : 0 < S_.numel)
    (q : Fin 256) :
    Host.reduceAdd g (constant (F := Ideal) S_ .f32 0x00000000#32) h' hu (ix1 q) = ∑ r : Fin 50000, g (ix2 r q) := by
  have h : S50000x256.Reduces [0] S256 := by decide
  rw [hostReduceAdd_apply, Ideal.hostReduceAdd_single h' h, constant_apply, Cert.Lib.ofBits_f32_zero, zero_add]
  refine Finset.sum_congr rfl fun r _ => congrArg g (funext fun a => Fin.ext ?_)
  match a with
  | ⟨0, _⟩ => rfl
  | ⟨1, _⟩ => rfl

/-- The column mean at column q. -/
theorem meanOf_at (g : FVec Ideal S50000x256 .f32) (q : Fin 256) :
    Cert.Shared.meanOf (F := Ideal) g (ix1 q) = Ideal.div (∑ r : Fin 50000, g (ix2 r q)) nE := by
  unfold Cert.Shared.meanOf
  beta_reduce
  rw [hostDivf_apply, colSum_host, broadcastInDim_scalar_apply, constant_apply, Cert.Lib.ofBits_f32_50000]

/-- The mean row, made again inside the variance and broadcast down the rows, at (r, q). -/
theorem meanBcast_at (g : FVec Ideal S50000x256 .f32) (h2 : S1x256.BroadcastsInDim S50000x256 ![0, 1])
    (h1 : S256.BroadcastsInDim S1x256 ![1]) (h0 : S_.BroadcastsInDim S1x256 ![])
    (h' : S50000x256.ReducesTo [0] S256) (hu : 0 < S_.numel) (r : Fin 50000) (q : Fin 256) :
    broadcastInDim S50000x256 ![0, 1] h2
        (Host.divf (broadcastInDim S1x256 ![1] h1 (Host.reduceAdd g (constant (F := Ideal) S_ .f32 0x00000000#32) h' hu))
          (broadcastInDim S1x256 ![] h0 (constant (F := Ideal) S_ .f32 0x47435000#32))) (ix2 r q)
      = Ideal.div (∑ j : Fin 50000, g (ix2 j q)) nE := by
  rw [broadcastInDim_oneRow_apply, hostDivf_apply, rowBcast_apply, colSum_host, broadcastInDim_scalar_apply,
    constant_apply, Cert.Lib.ofBits_f32_50000]

/-- The zero integer read as a float is zero. -/
theorem sitofp_zero : FloatOps.sitofp (F := Ideal) .f32 (0#32 : BitVec 32) = (0 : EReal) := by
  show (((0#32 : BitVec 32).toInt : ℝ) : EReal) = 0
  simp

/-- The count 50000 - 0 is positive, so the guard holds. -/
theorem guard_true :
    FloatOps.cmpf (F := Ideal) (φ := .f32) .ogt
        (Ideal.ofBits .f32 0x47435000#32 - FloatOps.sitofp (F := Ideal) .f32 (0#32 : BitVec 32))
        (Ideal.ofBits .f32 0x00000000#32) = 1#1 := by
  rw [Cert.Lib.ofBits_f32_50000, Cert.Lib.ofBits_f32_zero, sitofp_zero, Cert.Lib.coe_sub_zero_ereal]
  have hpos : (0 : EReal) < ((50000 : ℝ) : EReal) := by exact_mod_cast (by norm_num : (0 : ℝ) < 50000)
  show BitVec.ofBool (decide ((0 : EReal) < ((50000 : ℝ) : EReal))) = 1#1
  rw [decide_eq_true hpos]
  rfl

/-- The variance at column q: the sum of the centred squares over 50000 - 0. -/
theorem varOf_at (g : FVec Ideal S50000x256 .f32) (q : Fin 256) :
    Cert.Shared.varOf (F := Ideal) g (ix1 q)
      = Ideal.div (∑ r : Fin 50000, (g (ix2 r q) - Ideal.div (∑ j : Fin 50000, g (ix2 j q)) nE)
          * (g (ix2 r q) - Ideal.div (∑ j : Fin 50000, g (ix2 j q)) nE)) (nE - (0 : EReal)) := by
  unfold Cert.Shared.varOf
  beta_reduce
  rw [select_apply, broadcastInDim_scalar_apply, cmpf_apply, subf_apply, constant_apply, constant_apply, sitofp_apply,
    constantI_apply, guard_true, select_one]
  rw [hostDivf_apply, colSum_host, broadcastInDim_scalar_apply, subf_apply, constant_apply, sitofp_apply,
    constantI_apply, sitofp_zero, Cert.Lib.ofBits_f32_50000]
  refine congrArg (fun z => Ideal.div z (nE - (0 : EReal))) ?_
  refine Finset.sum_congr rfl fun r _ => ?_
  rw [mulf_apply, subf_apply, meanBcast_at]

/-! ## The reference's normalisation at an entry -/

/-- The normalisation with the final clipping, at (r, q). -/
theorem normRelu_at (g : FVec Ideal S50000x256 .f32) (ga be : FVec Ideal S256 .f32) (r : Fin 50000) (q : Fin 256) :
    Cert.Shared.normRelu (F := Ideal) g ga be (ix2 r q)
      = Cert.LinearRow.relu ((g (ix2 r q) - Cert.Shared.meanOf (F := Ideal) g (ix1 q))
          * Ideal.rsqrt (Cert.Shared.varOf (F := Ideal) g (ix1 q) + epsE) * ga (ix1 q) + be (ix1 q)) := by
  unfold Cert.Shared.normRelu
  rw [Cert.LinearRow.relu_host_apply, addf_apply, mulf_apply, mulf_apply, subf_apply,
    Cert.LinearRow.biasVec_apply, Cert.LinearRow.biasVec_apply, Cert.LinearRow.biasVec_apply,
    Cert.LinearRow.biasVec_apply, hostRsqrt_apply, addf_apply, broadcastInDim_scalar_apply, constant_apply,
    Cert.Lib.ofBits_f32_eps]

/-- The normalisation without the final clipping, at (r, q). -/
theorem normLin_at (g : FVec Ideal S50000x256 .f32) (ga be : FVec Ideal S256 .f32) (r : Fin 50000) (q : Fin 256) :
    Cert.Shared.normLin (F := Ideal) g ga be (ix2 r q)
      = (g (ix2 r q) - Cert.Shared.meanOf (F := Ideal) g (ix1 q))
          * Ideal.rsqrt (Cert.Shared.varOf (F := Ideal) g (ix1 q) + epsE) * ga (ix1 q) + be (ix1 q) := by
  unfold Cert.Shared.normLin
  rw [addf_apply, mulf_apply, mulf_apply, subf_apply,
    Cert.LinearRow.biasVec_apply, Cert.LinearRow.biasVec_apply, Cert.LinearRow.biasVec_apply,
    Cert.LinearRow.biasVec_apply, hostRsqrt_apply, addf_apply, broadcastInDim_scalar_apply, constant_apply,
    Cert.Lib.ofBits_f32_eps]

/-! ## The two sides agree -/

/-- The normalised entry before the activation: the kernel side's expression from the rows of sums is the reference's,
    when the sums are the column sums and every entry is real. -/
theorem norm_core (g : FVec Ideal S50000x256 .f32) (ga be : FVec Ideal S256 .f32) (S Q : FVec Ideal S1x256 .f32)
    (hS : ∀ q : Fin 256, S (ix2 0 q) = ∑ r : Fin 50000, g (ix2 r q))
    (hQ : ∀ q : Fin 256, Q (ix2 0 q) = ∑ r : Fin 50000, g (ix2 r q) * g (ix2 r q))
    (hg : ∀ i, ∃ x : ℝ, g i = (x : EReal)) (r : Fin 50000) (q : Fin 256) :
    (g (ix2 r q) - Cert.SharedK.kMeanOf (F := Ideal) S (ix2 0 q)) * Cert.SharedK.kInvOf (F := Ideal) S Q (ix2 0 q)
        * Cert.SharedK.rowOf (F := Ideal) ga (ix2 0 q) + Cert.SharedK.rowOf (F := Ideal) be (ix2 0 q)
      = (g (ix2 r q) - Cert.Shared.meanOf (F := Ideal) g (ix1 q))
          * Ideal.rsqrt (Cert.Shared.varOf (F := Ideal) g (ix1 q) + epsE) * ga (ix1 q) + be (ix1 q) := by
  obtain ⟨v, _, h1, h2⟩ := Cert.Lib.ereal_variance_identity_50000 (fun r => g (ix2 r q)) (fun r => hg _)
  have h1' : Ideal.div (∑ r : Fin 50000, g (ix2 r q) * g (ix2 r q)) nE
      - Ideal.div (∑ r : Fin 50000, g (ix2 r q)) nE * Ideal.div (∑ r : Fin 50000, g (ix2 r q)) nE = (v : EReal) := h1
  have h2' : Ideal.div (∑ r : Fin 50000, (g (ix2 r q) - Ideal.div (∑ j : Fin 50000, g (ix2 j q)) nE)
      * (g (ix2 r q) - Ideal.div (∑ j : Fin 50000, g (ix2 j q)) nE)) (nE - (0 : EReal)) = (v : EReal) := h2
  rw [kMean_at, kInv_at, rowOf_at, rowOf_at, hS q, hQ q, meanOf_at, varOf_at, h1', h2']

end Cert.Bridge

end
-- ==== Proof.PayNorm5.lean ====
/-
  The batch-norm apply body 5 read at an index, at the ideal values (extended reals, exact
  operations). The four one-row operands (mean, inverse deviation, scale, shift) are broadcast down
  the rows, so at row `p` and column `q` each reads its entry `q`; casts to the same shape are the
  identity; the maximum with a zero splat is the rectification. The stored value is
  relu (((g p q - mean q) * inv q) * scale q + shift q), the products associated as the body writes them.
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- The body's stored value at `(p, q)`. -/
theorem pay_norm5 (g : Vec Ideal S2000x256 .f32) (mu s ga be : Vec Ideal S1x256 .f32) (p : Fin 2000) (q : Fin 256) :
    k5_pay1 (F := Ideal) g mu s ga be (ix2 p q)
      = Cert.LinearRow.relu ((g (ix2 p q) - mu (ix2 0 q)) * s (ix2 0 q) * ga (ix2 0 q) + be (ix2 0 q)) := by
  unfold k5_pay1
  refine (Cert.LinearRow.relu_vec_apply _ (ix2 p q)).trans (congrArg Cert.LinearRow.relu ?_)
  refine (addf_apply _ _ (ix2 p q)).trans (congrArg₂ (· + ·) ?_ (Cert.LinearRow.biasRow_apply be _ _ p q))
  refine (mulf_apply _ _ (ix2 p q)).trans (congrArg₂ (· * ·) ?_ (Cert.LinearRow.biasRow_apply ga _ _ p q))
  refine (mulf_apply _ _ (ix2 p q)).trans (congrArg₂ (· * ·) ?_ (Cert.LinearRow.biasRow_apply s _ _ p q))
  exact (subf_apply _ _ (ix2 p q)).trans
    (congrArg₂ (· - ·) (congrFun (shapeCast_self g _) (ix2 p q)) (Cert.LinearRow.biasRow_apply mu _ _ p q))

end Cert.KernelIdeal.Pay

end
-- ==== Proof.BridgeNorm5.lean ====
/-
  Region 5 is the normalisation of the 50000 rows followed by the clipping at zero: given the rows of column sums S
  and column sums of squares Q of its input g, the region's output array from g, the mean row S/50000, the inverse
  deviation row rsqrt(Q/50000 - mean·mean + eps) and the scale and shift rows is the reference's normalisation of g,
  when every entry of g is a real number. Entry by entry: row 2000·t + p, column q of the output is the body's value at
  (p, q) of block t; the four one-row operands read their entry q; and over the reals the two variances agree.
-/
import proofs.«162580_j71794673320191_1_alg».proof.Proof.BridgeNormCore
import proofs.«162580_j71794673320191_1_alg».proof.Proof.Value5
import proofs.«162580_j71794673320191_1_alg».proof.Proof.PayNorm5

noncomputable section

open scoped BigOperators

namespace Cert.Bridge

open Idealize.ShloMosaic Idealize.ShloMosaic.ValueIdx Cert.KernelIdeal

/-- Region 5's output array is the reference's normalisation (clipped at zero) of its input. -/
theorem norm_eq5 (g : Vec Ideal S50000x256 .f32) (ga be : Vec Ideal S256 .f32) (S Q : Vec Ideal S1x256 .f32)
    (hS : ∀ q : Fin 256, S (ix2 0 q) = ∑ r : Fin 50000, g (ix2 r q))
    (hQ : ∀ q : Fin 256, Q (ix2 0 q) = ∑ r : Fin 50000, g (ix2 r q) * g (ix2 r q))
    (hg : ∀ i, ∃ x : ℝ, g i = (x : EReal)) :
    Cert.KernelIdeal.R5.G (F := Ideal) g (Cert.SharedK.kMeanOf S) (Cert.SharedK.kInvOf S Q) (Cert.SharedK.rowOf ga)
        (Cert.SharedK.rowOf be) = Cert.Shared.normRelu g ga be := by
  funext i
  obtain ⟨t, p, q, h, rfl⟩ := idx_split i
  refine (Cert.KernelIdeal.R5.G_at (F := Ideal) g _ _ _ _ t p q).trans ?_
  refine (Cert.KernelIdeal.Pay.pay_norm5 _ _ _ _ _ p q).trans ?_
  refine Eq.trans ?_ (normRelu_at g ga be ⟨2000 * t.val + p.val, h⟩ q).symm
  exact congrArg Cert.LinearRow.relu (norm_core g ga be S Q hS hQ hg ⟨2000 * t.val + p.val, h⟩ q)

end Cert.Bridge

end
-- ==== Proof.PayNorm10.lean ====
/-
  The batch-norm apply body 10 read at an index, at the ideal values (extended reals, exact
  operations). The four one-row operands (mean, inverse deviation, scale, shift) are broadcast down
  the rows, so at row `p` and column `q` each reads its entry `q`; casts to the same shape are the
  identity; the maximum with a zero splat is the rectification. The stored value is
  relu (((g p q - mean q) * inv q) * scale q + shift q), the products associated as the body writes them.
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- The body's stored value at `(p, q)`. -/
theorem pay_norm10 (g : Vec Ideal S2000x256 .f32) (mu s ga be : Vec Ideal S1x256 .f32) (p : Fin 2000) (q : Fin 256) :
    k10_pay1 (F := Ideal) g mu s ga be (ix2 p q)
      = Cert.LinearRow.relu ((g (ix2 p q) - mu (ix2 0 q)) * s (ix2 0 q) * ga (ix2 0 q) + be (ix2 0 q)) := by
  unfold k10_pay1
  refine (Cert.LinearRow.relu_vec_apply _ (ix2 p q)).trans (congrArg Cert.LinearRow.relu ?_)
  refine (addf_apply _ _ (ix2 p q)).trans (congrArg₂ (· + ·) ?_ (Cert.LinearRow.biasRow_apply be _ _ p q))
  refine (mulf_apply _ _ (ix2 p q)).trans (congrArg₂ (· * ·) ?_ (Cert.LinearRow.biasRow_apply ga _ _ p q))
  refine (mulf_apply _ _ (ix2 p q)).trans (congrArg₂ (· * ·) ?_ (Cert.LinearRow.biasRow_apply s _ _ p q))
  exact (subf_apply _ _ (ix2 p q)).trans
    (congrArg₂ (· - ·) (congrFun (shapeCast_self g _) (ix2 p q)) (Cert.LinearRow.biasRow_apply mu _ _ p q))

end Cert.KernelIdeal.Pay

end
-- ==== Proof.BridgeNorm10.lean ====
/-
  Region 10 is the normalisation of the 50000 rows followed by the clipping at zero: given the rows of column sums S
  and column sums of squares Q of its input g, the region's output array from g, the mean row S/50000, the inverse
  deviation row rsqrt(Q/50000 - mean·mean + eps) and the scale and shift rows is the reference's normalisation of g,
  when every entry of g is a real number. Entry by entry: row 2000·t + p, column q of the output is the body's value at
  (p, q) of block t; the four one-row operands read their entry q; and over the reals the two variances agree.
-/
import proofs.«162580_j71794673320191_1_alg».proof.Proof.BridgeNormCore
import proofs.«162580_j71794673320191_1_alg».proof.Proof.Value10
import proofs.«162580_j71794673320191_1_alg».proof.Proof.PayNorm10

noncomputable section

open scoped BigOperators

namespace Cert.Bridge

open Idealize.ShloMosaic Idealize.ShloMosaic.ValueIdx Cert.KernelIdeal

/-- Region 10's output array is the reference's normalisation (clipped at zero) of its input. -/
theorem norm_eq10 (g : Vec Ideal S50000x256 .f32) (ga be : Vec Ideal S256 .f32) (S Q : Vec Ideal S1x256 .f32)
    (hS : ∀ q : Fin 256, S (ix2 0 q) = ∑ r : Fin 50000, g (ix2 r q))
    (hQ : ∀ q : Fin 256, Q (ix2 0 q) = ∑ r : Fin 50000, g (ix2 r q) * g (ix2 r q))
    (hg : ∀ i, ∃ x : ℝ, g i = (x : EReal)) :
    Cert.KernelIdeal.R10.G (F := Ideal) g (Cert.SharedK.kMeanOf S) (Cert.SharedK.kInvOf S Q) (Cert.SharedK.rowOf ga)
        (Cert.SharedK.rowOf be) = Cert.Shared.normRelu g ga be := by
  funext i
  obtain ⟨t, p, q, h, rfl⟩ := idx_split i
  refine (Cert.KernelIdeal.R10.G_at (F := Ideal) g _ _ _ _ t p q).trans ?_
  refine (Cert.KernelIdeal.Pay.pay_norm10 _ _ _ _ _ p q).trans ?_
  refine Eq.trans ?_ (normRelu_at g ga be ⟨2000 * t.val + p.val, h⟩ q).symm
  exact congrArg Cert.LinearRow.relu (norm_core g ga be S Q hS hQ hg ⟨2000 * t.val + p.val, h⟩ q)

end Cert.Bridge

end
-- ==== Proof.PayNorm15.lean ====
/-
  The batch-norm apply body 15 read at an index, at the ideal values (extended reals, exact
  operations). The four one-row operands (mean, inverse deviation, scale, shift) are broadcast down
  the rows, so at row `p` and column `q` each reads its entry `q`; casts to the same shape are the
  identity. The stored value is
  (((g p q - mean q) * inv q) * scale q + shift q), the products associated as the body writes them.
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- The body's stored value at `(p, q)`. -/
theorem pay_norm15 (g : Vec Ideal S2000x256 .f32) (mu s ga be : Vec Ideal S1x256 .f32) (p : Fin 2000) (q : Fin 256) :
    k15_pay1 (F := Ideal) g mu s ga be (ix2 p q)
      = ((g (ix2 p q) - mu (ix2 0 q)) * s (ix2 0 q) * ga (ix2 0 q) + be (ix2 0 q)) := by
  unfold k15_pay1
  refine (addf_apply _ _ (ix2 p q)).trans (congrArg₂ (· + ·) ?_ (Cert.LinearRow.biasRow_apply be _ _ p q))
  refine (mulf_apply _ _ (ix2 p q)).trans (congrArg₂ (· * ·) ?_ (Cert.LinearRow.biasRow_apply ga _ _ p q))
  refine (mulf_apply _ _ (ix2 p q)).trans (congrArg₂ (· * ·) ?_ (Cert.LinearRow.biasRow_apply s _ _ p q))
  exact (subf_apply _ _ (ix2 p q)).trans
    (congrArg₂ (· - ·) (congrFun (shapeCast_self g _) (ix2 p q)) (Cert.LinearRow.biasRow_apply mu _ _ p q))

end Cert.KernelIdeal.Pay

end
-- ==== Proof.BridgeNorm15.lean ====
/-
  Region 15 is the normalisation of the 50000 rows: given the rows of column sums S
  and column sums of squares Q of its input g, the region's output array from g, the mean row S/50000, the inverse
  deviation row rsqrt(Q/50000 - mean·mean + eps) and the scale and shift rows is the reference's normalisation of g,
  when every entry of g is a real number. Entry by entry: row 2000·t + p, column q of the output is the body's value at
  (p, q) of block t; the four one-row operands read their entry q; and over the reals the two variances agree.
-/
import proofs.«162580_j71794673320191_1_alg».proof.Proof.BridgeNormCore
import proofs.«162580_j71794673320191_1_alg».proof.Proof.Value15
import proofs.«162580_j71794673320191_1_alg».proof.Proof.PayNorm15

noncomputable section

open scoped BigOperators

namespace Cert.Bridge

open Idealize.ShloMosaic Idealize.ShloMosaic.ValueIdx Cert.KernelIdeal

/-- Region 15's output array is the reference's normalisation of its input. -/
theorem norm_eq15 (g : Vec Ideal S50000x256 .f32) (ga be : Vec Ideal S256 .f32) (S Q : Vec Ideal S1x256 .f32)
    (hS : ∀ q : Fin 256, S (ix2 0 q) = ∑ r : Fin 50000, g (ix2 r q))
    (hQ : ∀ q : Fin 256, Q (ix2 0 q) = ∑ r : Fin 50000, g (ix2 r q) * g (ix2 r q))
    (hg : ∀ i, ∃ x : ℝ, g i = (x : EReal)) :
    Cert.KernelIdeal.R15.G (F := Ideal) g (Cert.SharedK.kMeanOf S) (Cert.SharedK.kInvOf S Q) (Cert.SharedK.rowOf ga)
        (Cert.SharedK.rowOf be) = Cert.Shared.normLin g ga be := by
  funext i
  obtain ⟨t, p, q, h, rfl⟩ := idx_split i
  refine (Cert.KernelIdeal.R15.G_at (F := Ideal) g _ _ _ _ t p q).trans ?_
  refine (Cert.KernelIdeal.Pay.pay_norm15 _ _ _ _ _ p q).trans ?_
  refine Eq.trans ?_ (normLin_at g ga be ⟨2000 * t.val + p.val, h⟩ q).symm
  exact (norm_core g ga be S Q hS hQ hg ⟨2000 * t.val + p.val, h⟩ q)

end Cert.Bridge

end
-- ==== Proof.PaySum4.lean ====
/-
  The batch-statistics body 4 read at an index, at the ideal values (extended reals, exact
  operations). The two accumulator rows start as zero rows. Each step adds to the running row, at
  column `q`, the column sum of the block (a sum over axis 0 from a zero accumulator, reshaped from a
  vector to one row), and to the second running row the column sum of the block's squares. Casts to
  the same shape are the identity.
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- The block's column sums, reshaped to one row, at column `q`: the sum of the block's column `q`. -/
theorem colSum4_apply (X : FVec Ideal S2000x256 .f32) (hr : S2000x256.Reduces [0] S256) (hφ : FKind.Formats .f32)
    (hacc : (0x00000000#32 : BitVec 32) = FKind.add.neutral .f32 hφ) (hc : S256.ShapeCasts S1x256) (q : Fin 256) :
    shapeCast S1x256 (multiReduction (F := Ideal) .add [0] S256 X 0x00000000#32 hr hφ hacc) hc (ix2 0 q)
      = ∑ r : Fin 2000, X (ix2 r q) := by
  refine (shapeCast_a_1a_apply _ hc 0 q).trans ?_
  refine (Ideal.multiReduction_add_single X 0x00000000#32 hr hφ hacc (ix1 q)).trans ?_
  refine Finset.sum_congr rfl fun r _ => congrArg X (funext fun a => Fin.ext ?_)
  match a with
  | ⟨0, _⟩ => rfl
  | ⟨1, _⟩ => rfl

/-- The first accumulator row's initial value: zero at every column. -/
theorem pay_zero4 (q : Fin 256) : k4_pay1 (F := Ideal) (ix2 0 q) = Ideal.ofBits .f32 0x00000000#32 := by
  unfold k4_pay1
  exact congrFun (shapeCast_self _ _) (ix2 0 q)

/-- The second accumulator row's initial value: zero at every column. -/
theorem pay_zero4' (q : Fin 256) : k4_pay2 (F := Ideal) (ix2 0 q) = Ideal.ofBits .f32 0x00000000#32 := by
  unfold k4_pay2
  exact congrFun (shapeCast_self _ _) (ix2 0 q)

/-- The running sum after a step, at column `q`: the row read plus the block's column sum. -/
theorem pay_sum4 (x : Vec Ideal S2000x256 .f32) (s : Vec Ideal S1x256 .f32) (q : Fin 256) :
    k4_pay4 (F := Ideal) x s (ix2 0 q) = s (ix2 0 q) + ∑ r : Fin 2000, x (ix2 r q) := by
  unfold k4_pay4 k4_pay3
  refine (congrFun (shapeCast_self _ _) (ix2 0 q)).trans ?_
  refine (addf_apply _ _ (ix2 0 q)).trans (congrArg (s (ix2 0 q) + ·) ?_)
  refine (colSum4_apply _ _ _ _ _ q).trans ?_
  exact Finset.sum_congr rfl fun r _ => congrFun (shapeCast_self x _) (ix2 r q)

/-- The running sum of squares after a step, at column `q`: the row read plus the column sum of the block's squares. -/
theorem pay_sq4 (x : Vec Ideal S2000x256 .f32) (s : Vec Ideal S1x256 .f32) (q : Fin 256) :
    k4_pay5 (F := Ideal) x s (ix2 0 q) = s (ix2 0 q) + ∑ r : Fin 2000, x (ix2 r q) * x (ix2 r q) := by
  unfold k4_pay5 k4_pay3
  refine (congrFun (shapeCast_self _ _) (ix2 0 q)).trans ?_
  refine (addf_apply _ _ (ix2 0 q)).trans (congrArg (s (ix2 0 q) + ·) ?_)
  refine (colSum4_apply _ _ _ _ _ q).trans ?_
  refine Finset.sum_congr rfl fun r _ => (mulf_apply _ _ (ix2 r q)).trans ?_
  exact congrArg₂ (· * ·) (congrFun (shapeCast_self x _) (ix2 r q)) (congrFun (shapeCast_self x _) (ix2 r q))

end Cert.KernelIdeal.Pay

end
-- ==== Proof.LibBlockSum.lean ====
import Mathlib.Algebra.BigOperators.Fin
import Mathlib.Tactic

/-!
# A sum over a*b rows, block by block

In any additive commutative monoid (no finiteness of the summands is needed: the extended reals are
one), a sum over the a*b rows 0, …, a*b-1 is the sum over the a blocks t = 0, …, a-1 of the sums over
the b rows t*b, …, t*b + b-1 of the block. And the block sums s 0, …, s (a-1), added one after the
other onto a zero, ((0 + s 0) + s 1) + … + s (a-1), give the sum of all the block sums; the partial
result after k blocks is the sum of the first k block sums. The instance a = 10, b = 5000 (50000 rows)
is stated with literal extents.
-/

namespace Cert.Lib

open scoped BigOperators

/-- Row r of block t, of a blocks of b rows, is one of the a*b rows. -/
theorem block_row_lt {a b : ℕ} (t : Fin a) (r : Fin b) : t.val * b + r.val < a * b :=
  calc t.val * b + r.val < t.val * b + b := Nat.add_lt_add_left r.isLt _
    _ = (t.val + 1) * b := by ring
    _ ≤ a * b := Nat.mul_le_mul_right b t.isLt

/-- The same with the block offset written b*t. -/
theorem block_row_lt' {a b : ℕ} (t : Fin a) (r : Fin b) : b * t.val + r.val < a * b := by
  rw [Nat.mul_comm b]; exact block_row_lt t r

/-- **Regrouping into blocks.** A sum over a*b rows is the sum over the a blocks of the sums over
each block's b rows, row r of block t being row t*b + r. -/
theorem sum_fin_mul_blocks {M : Type*} [AddCommMonoid M] (a b : ℕ) (f : Fin (a * b) → M) :
    ∑ i : Fin (a * b), f i = ∑ t : Fin a, ∑ r : Fin b, f ⟨t.val * b + r.val, block_row_lt t r⟩ := by
  rw [← Equiv.sum_comp finProdFinEquiv f, Fintype.sum_prod_type]
  refine Finset.sum_congr rfl fun t _ => Finset.sum_congr rfl fun r _ => congrArg f (Fin.ext ?_)
  show r.val + b * t.val = t.val * b + r.val
  ring

/-- The same with the block offset written b*t. -/
theorem sum_fin_mul_blocks' {M : Type*} [AddCommMonoid M] (a b : ℕ) (f : Fin (a * b) → M) :
    ∑ i : Fin (a * b), f i = ∑ t : Fin a, ∑ r : Fin b, f ⟨b * t.val + r.val, block_row_lt' t r⟩ := by
  rw [sum_fin_mul_blocks]
  exact Finset.sum_congr rfl fun t _ => Finset.sum_congr rfl fun r _ =>
    congrArg f (Fin.ext (by show t.val * b + r.val = b * t.val + r.val; ring))

/-- The literal instance: 50000 rows as 10 blocks of 5000. -/
theorem sum_fin_50000_blocks {M : Type*} [AddCommMonoid M] (f : Fin 50000 → M) :
    ∑ i : Fin 50000, f i
      = ∑ t : Fin 10, ∑ r : Fin 5000, f ⟨t.val * 5000 + r.val, by have := t.isLt; have := r.isLt; omega⟩ :=
  sum_fin_mul_blocks 10 5000 f

/-- The literal instance with the block offset written 5000*t. -/
theorem sum_fin_50000_blocks' {M : Type*} [AddCommMonoid M] (f : Fin 50000 → M) :
    ∑ i : Fin 50000, f i
      = ∑ t : Fin 10, ∑ r : Fin 5000, f ⟨5000 * t.val + r.val, by have := t.isLt; have := r.isLt; omega⟩ :=
  sum_fin_mul_blocks' 10 5000 f

/-! ## Adding the block sums one after the other -/

/-- The running total after k blocks: block sums s 0, …, s (k-1) added in this order onto zero,
(((0 + s 0) + s 1) + …) + s (k-1). Blocks past the last (k > a) add nothing. -/
def runningSum {M : Type*} [AddCommMonoid M] {a : ℕ} (s : Fin a → M) : ℕ → M
  | 0 => 0
  | k + 1 => runningSum s k + (if h : k < a then s ⟨k, h⟩ else 0)

/-- Before any block the running total is zero. -/
@[simp] theorem runningSum_zero {M : Type*} [AddCommMonoid M] {a : ℕ} (s : Fin a → M) :
    runningSum s 0 = 0 := rfl

/-- One more block adds its block sum to the running total. -/
theorem runningSum_succ {M : Type*} [AddCommMonoid M] {a : ℕ} (s : Fin a → M) (k : ℕ) (h : k < a) :
    runningSum s (k + 1) = runningSum s k + s ⟨k, h⟩ := by
  rw [runningSum, dif_pos h]

/-- The running total after k blocks is the sum of the block sums of the blocks before k. -/
theorem runningSum_eq_sum_filter {M : Type*} [AddCommMonoid M] {a : ℕ} (s : Fin a → M) (k : ℕ) :
    runningSum s k = ∑ t ∈ Finset.univ.filter (fun t : Fin a => t.val < k), s t := by
  induction k with
  | zero => simp
  | succ k ih =>
    rw [runningSum, ih]
    by_cases h : k < a
    · rw [dif_pos h]
      have hsplit : Finset.univ.filter (fun t : Fin a => t.val < k + 1)
          = insert (⟨k, h⟩ : Fin a) (Finset.univ.filter (fun t : Fin a => t.val < k)) := by
        ext t
        simp only [Finset.mem_filter, Finset.mem_univ, true_and, Finset.mem_insert, Fin.ext_iff]
        omega
      rw [hsplit, Finset.sum_insert (by simp), add_comm]
    · rw [dif_neg h, add_zero]
      refine Finset.sum_congr ?_ fun _ _ => rfl
      ext t
      simp only [Finset.mem_filter, Finset.mem_univ, true_and]
      have := t.isLt
      omega

/-- **After all a blocks the running total is the sum of all the block sums.** -/
theorem runningSum_all {M : Type*} [AddCommMonoid M] {a : ℕ} (s : Fin a → M) :
    runningSum s a = ∑ t : Fin a, s t := by
  rw [runningSum_eq_sum_filter]
  exact Finset.sum_congr (Finset.filter_true_of_mem fun t _ => t.isLt) fun _ _ => rfl

/-- The left fold of addition over the blocks in order, from zero, is the sum of the block sums. -/
theorem foldl_add_finRange {M : Type*} [AddCommMonoid M] {a : ℕ} (s : Fin a → M) :
    (List.finRange a).foldl (fun acc t => acc + s t) 0 = ∑ t : Fin a, s t := by
  have h : ∀ (l : List (Fin a)) (z : M), l.foldl (fun acc t => acc + s t) z = z + (l.map s).sum := by
    intro l
    induction l with
    | nil => intro z; simp
    | cons x l ih => intro z; rw [List.foldl_cons, ih, List.map_cons, List.sum_cons, add_assoc]
  rw [h, zero_add, ← List.ofFn_eq_map, List.sum_ofFn]

/-- The literal instance: ten block sums added one after the other onto zero. -/
theorem sum_ten_left_nested {M : Type*} [AddCommMonoid M] (s : Fin 10 → M) :
    0 + s 0 + s 1 + s 2 + s 3 + s 4 + s 5 + s 6 + s 7 + s 8 + s 9 = ∑ t : Fin 10, s t := by
  have h := runningSum_all s
  simp only [runningSum] at h
  rw [← h]
  simp

/-- **The unit's shape**: the sum over 50000 rows is the ten sums over the blocks of 5000 rows, added
one after the other onto zero. -/
theorem sum_fin_50000_left_nested {M : Type*} [AddCommMonoid M] (f : Fin 50000 → M) :
    ∑ i : Fin 50000, f i
      = runningSum (fun t : Fin 10 =>
          ∑ r : Fin 5000, f ⟨t.val * 5000 + r.val, by have := t.isLt; have := r.isLt; omega⟩) 10 := by
  rw [runningSum_all, sum_fin_50000_blocks]

end Cert.Lib
-- ==== Proof.BlockTotal.lean ====
/-
  Twenty-five block sums added one after the other onto zero give the sum over all 50000 rows.
  In any additive commutative monoid (the extended reals are one): if a running value starts at
  zero and block n (n = 0, …, 24) adds the sum of rows 2000·n, …, 2000·n + 1999, then after all 25
  blocks the running value is the sum over the 50000 rows.
-/
import proofs.«162580_j71794673320191_1_alg».proof.Proof.LibBlockSum

open scoped BigOperators

namespace Cert.Bridge

/-- Row p of block n, of 25 blocks of 2000 rows, is one of the 50000 rows. -/
theorem block_row_lt (n : ℕ) (h : n < 25) (p : Fin 2000) : 2000 * n + p.val < 50000 := by
  have := p.isLt; omega

/-- The running value after all 25 blocks is the sum over all 50000 rows. -/
theorem running_total {M : Type*} [AddCommMonoid M] (f : Fin 50000 → M) (s : ℕ → M) (h0 : s 0 = 0)
    (hs : ∀ (n : ℕ) (h : n < 25), s (n + 1) = s n + ∑ p : Fin 2000, f ⟨2000 * n + p.val, block_row_lt n h p⟩) :
    s 25 = ∑ r : Fin 50000, f r := by
  have key : ∀ n : ℕ, n ≤ 25 →
      s n = Cert.Lib.runningSum (fun t : Fin 25 => ∑ p : Fin 2000, f ⟨2000 * t.val + p.val, block_row_lt t.val t.isLt p⟩) n := by
    intro n
    induction n with
    | zero => intro _; rw [h0]; rfl
    | succ n ih =>
      intro hn
      have h : n < 25 := hn
      rw [hs n h, ih (Nat.le_of_lt h), Cert.Lib.runningSum_succ _ n h]
  rw [key 25 (Nat.le_refl 25), Cert.Lib.runningSum_all]
  exact (Cert.Lib.sum_fin_mul_blocks' 25 2000 f).symm

end Cert.Bridge
-- ==== Proof.ColSum4.lean ====
/-
  The column-sum region 4 against the whole array, at the ideal values (extended reals, exact
  operations). The region runs over 25 blocks of 2000 rows of its input array; the running row starts
  at zero and block n adds, at column q, the sum of the block's column q, and the second running row
  the sum of the squares. Block n's row p is row 2000·n + p of the array. So after all 25 blocks the
  rows hold, at column q, the sum over all 50000 rows of the array's column q, and of its squares.
-/
import proofs.«162580_j71794673320191_1_alg».proof.Proof.ValueR4
import proofs.«162580_j71794673320191_1_alg».proof.Proof.PaySum4
import proofs.«162580_j71794673320191_1_alg».proof.Proof.BlockTotal

set_option maxRecDepth 16384

noncomputable section

open scoped BigOperators

namespace Cert.Bridge

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The region's input array as the region finds it, as a function of row and column. -/
abbrev arr4 (c : Dev nD) : Vec Ideal S50000x256 .f32 := V c main_v68

/-- Row 2000·t + p, column q of the array is row p, column q of the input window's block at point t. -/
theorem blk4_apply (c : Dev nD) (X : Vec Ideal S50000x256 .f32) (hX : V c main_v68 = X) (t : Fin cfg4.N)
    (p : Fin 2000) (q : Fin 256) (h : 2000 * t.val + p.val < 50000) :
    X (ix2 (⟨2000 * t.val + p.val, h⟩ : Fin 50000) q) = Cert.KernelIdeal.R4.blk V c 0 t (ix2 p q) := by
  subst hX
  obtain ⟨e00, e01, -⟩ := Cert.KernelIdeal.R4.idx_facts t
  show V c main_v68 (ix2 (⟨2000 * t.val + p.val, h⟩ : Fin 50000) q) = V c main_v68 (((cfg4.win 0).blk t).view.emb (ix2 p q))
  refine congrArg (V c main_v68) ?_
  funext a; apply Fin.ext
  match a with
  | ⟨0, _⟩ => show 2000 * t.val + p.val = win4_0.index t (0 : Fin 2) * 2000 + 1 * p.val; omega
  | ⟨1, _⟩ => show q.val = win4_0.index t (1 : Fin 2) * 256 + 1 * q.val; omega

/-- After all 25 blocks the running row holds, at column q, the sum of the array's column q. -/
theorem colsum4_of (c : Dev nD) (X : Vec Ideal S50000x256 .f32) (hX : V c main_v68 = X) (q : Fin 256) :
    Cert.KernelIdeal.R4.sumTo (F := Ideal) V c 25 (ix2 0 q) = ∑ r : Fin 50000, X (ix2 r q) := by
  refine running_total (fun r : Fin 50000 => X (ix2 r q))
    (fun n => Cert.KernelIdeal.R4.sumTo (F := Ideal) V c n (ix2 0 q)) ?_ ?_
  · show k4_pay1 (F := Ideal) (ix2 0 q) = 0
    exact (Cert.KernelIdeal.Pay.pay_zero4 q).trans Ideal.ofBits_zero_f32
  · intro n h
    have hN : n < cfg4.N := by have e : cfg4.N = 25 := N_4; omega
    refine (congrFun (Cert.KernelIdeal.R4.sumTo_succ V c ⟨n, hN⟩) (ix2 0 q)).trans ?_
    refine (Cert.KernelIdeal.Pay.pay_sum4 _ _ q).trans ?_
    exact congrArg₂ (· + ·) rfl
      (Finset.sum_congr rfl fun p _ => (blk4_apply V c X hX ⟨n, hN⟩ p q (block_row_lt n h p)).symm)

/-- After all 25 blocks the second running row holds, at column q, the sum of the squares of the array's column q. -/
theorem colsq4_of (c : Dev nD) (X : Vec Ideal S50000x256 .f32) (hX : V c main_v68 = X) (q : Fin 256) :
    Cert.KernelIdeal.R4.sqTo (F := Ideal) V c 25 (ix2 0 q) = ∑ r : Fin 50000, X (ix2 r q) * X (ix2 r q) := by
  refine running_total (fun r : Fin 50000 => X (ix2 r q) * X (ix2 r q))
    (fun n => Cert.KernelIdeal.R4.sqTo (F := Ideal) V c n (ix2 0 q)) ?_ ?_
  · show k4_pay2 (F := Ideal) (ix2 0 q) = 0
    exact (Cert.KernelIdeal.Pay.pay_zero4' q).trans Ideal.ofBits_zero_f32
  · intro n h
    have hN : n < cfg4.N := by have e : cfg4.N = 25 := N_4; omega
    refine (congrFun (Cert.KernelIdeal.R4.sqTo_succ V c ⟨n, hN⟩) (ix2 0 q)).trans ?_
    refine (Cert.KernelIdeal.Pay.pay_sq4 _ _ q).trans ?_
    refine congrArg₂ (· + ·) rfl (Finset.sum_congr rfl fun p _ => ?_)
    have e := (blk4_apply V c X hX ⟨n, hN⟩ p q (block_row_lt n h p)).symm
    exact congrArg₂ (· * ·) e e

/-- The same two facts for the array itself. -/
theorem colsum4 (c : Dev nD) (q : Fin 256) :
    Cert.KernelIdeal.R4.sumTo (F := Ideal) V c 25 (ix2 0 q) = ∑ r : Fin 50000, arr4 V c (ix2 r q) :=
  colsum4_of V c (arr4 V c) rfl q

theorem colsq4 (c : Dev nD) (q : Fin 256) :
    Cert.KernelIdeal.R4.sqTo (F := Ideal) V c 25 (ix2 0 q)
      = ∑ r : Fin 50000, arr4 V c (ix2 r q) * arr4 V c (ix2 r q) :=
  colsq4_of V c (arr4 V c) rfl q

end Cert.Bridge

end
-- ==== Proof.PaySum9.lean ====
/-
  The batch-statistics body 9 read at an index, at the ideal values (extended reals, exact
  operations). The two accumulator rows start as zero rows. Each step adds to the running row, at
  column `q`, the column sum of the block (a sum over axis 0 from a zero accumulator, reshaped from a
  vector to one row), and to the second running row the column sum of the block's squares. Casts to
  the same shape are the identity.
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- The block's column sums, reshaped to one row, at column `q`: the sum of the block's column `q`. -/
theorem colSum9_apply (X : FVec Ideal S2000x256 .f32) (hr : S2000x256.Reduces [0] S256) (hφ : FKind.Formats .f32)
    (hacc : (0x00000000#32 : BitVec 32) = FKind.add.neutral .f32 hφ) (hc : S256.ShapeCasts S1x256) (q : Fin 256) :
    shapeCast S1x256 (multiReduction (F := Ideal) .add [0] S256 X 0x00000000#32 hr hφ hacc) hc (ix2 0 q)
      = ∑ r : Fin 2000, X (ix2 r q) := by
  refine (shapeCast_a_1a_apply _ hc 0 q).trans ?_
  refine (Ideal.multiReduction_add_single X 0x00000000#32 hr hφ hacc (ix1 q)).trans ?_
  refine Finset.sum_congr rfl fun r _ => congrArg X (funext fun a => Fin.ext ?_)
  match a with
  | ⟨0, _⟩ => rfl
  | ⟨1, _⟩ => rfl

/-- The first accumulator row's initial value: zero at every column. -/
theorem pay_zero9 (q : Fin 256) : k9_pay1 (F := Ideal) (ix2 0 q) = Ideal.ofBits .f32 0x00000000#32 := by
  unfold k9_pay1
  exact congrFun (shapeCast_self _ _) (ix2 0 q)

/-- The second accumulator row's initial value: zero at every column. -/
theorem pay_zero9' (q : Fin 256) : k9_pay2 (F := Ideal) (ix2 0 q) = Ideal.ofBits .f32 0x00000000#32 := by
  unfold k9_pay2
  exact congrFun (shapeCast_self _ _) (ix2 0 q)

/-- The running sum after a step, at column `q`: the row read plus the block's column sum. -/
theorem pay_sum9 (x : Vec Ideal S2000x256 .f32) (s : Vec Ideal S1x256 .f32) (q : Fin 256) :
    k9_pay4 (F := Ideal) x s (ix2 0 q) = s (ix2 0 q) + ∑ r : Fin 2000, x (ix2 r q) := by
  unfold k9_pay4 k9_pay3
  refine (congrFun (shapeCast_self _ _) (ix2 0 q)).trans ?_
  refine (addf_apply _ _ (ix2 0 q)).trans (congrArg (s (ix2 0 q) + ·) ?_)
  refine (colSum9_apply _ _ _ _ _ q).trans ?_
  exact Finset.sum_congr rfl fun r _ => congrFun (shapeCast_self x _) (ix2 r q)

/-- The running sum of squares after a step, at column `q`: the row read plus the column sum of the block's squares. -/
theorem pay_sq9 (x : Vec Ideal S2000x256 .f32) (s : Vec Ideal S1x256 .f32) (q : Fin 256) :
    k9_pay5 (F := Ideal) x s (ix2 0 q) = s (ix2 0 q) + ∑ r : Fin 2000, x (ix2 r q) * x (ix2 r q) := by
  unfold k9_pay5 k9_pay3
  refine (congrFun (shapeCast_self _ _) (ix2 0 q)).trans ?_
  refine (addf_apply _ _ (ix2 0 q)).trans (congrArg (s (ix2 0 q) + ·) ?_)
  refine (colSum9_apply _ _ _ _ _ q).trans ?_
  refine Finset.sum_congr rfl fun r _ => (mulf_apply _ _ (ix2 r q)).trans ?_
  exact congrArg₂ (· * ·) (congrFun (shapeCast_self x _) (ix2 r q)) (congrFun (shapeCast_self x _) (ix2 r q))

end Cert.KernelIdeal.Pay

end
-- ==== Proof.ColSum9.lean ====
/-
  The column-sum region 9 against the whole array, at the ideal values (extended reals, exact
  operations). The region runs over 25 blocks of 2000 rows of its input array; the running row starts
  at zero and block n adds, at column q, the sum of the block's column q, and the second running row
  the sum of the squares. Block n's row p is row 2000·n + p of the array. So after all 25 blocks the
  rows hold, at column q, the sum over all 50000 rows of the array's column q, and of its squares.
-/
import proofs.«162580_j71794673320191_1_alg».proof.Proof.ValueR9
import proofs.«162580_j71794673320191_1_alg».proof.Proof.PaySum9
import proofs.«162580_j71794673320191_1_alg».proof.Proof.BlockTotal

set_option maxRecDepth 16384

noncomputable section

open scoped BigOperators

namespace Cert.Bridge

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The region's input array as the region finds it, as a function of row and column. -/
abbrev arr9 (c : Dev nD) : Vec Ideal S50000x256 .f32 := V c main_v148

/-- Row 2000·t + p, column q of the array is row p, column q of the input window's block at point t. -/
theorem blk9_apply (c : Dev nD) (X : Vec Ideal S50000x256 .f32) (hX : V c main_v148 = X) (t : Fin cfg9.N)
    (p : Fin 2000) (q : Fin 256) (h : 2000 * t.val + p.val < 50000) :
    X (ix2 (⟨2000 * t.val + p.val, h⟩ : Fin 50000) q) = Cert.KernelIdeal.R9.blk V c 0 t (ix2 p q) := by
  subst hX
  obtain ⟨e00, e01, -⟩ := Cert.KernelIdeal.R9.idx_facts t
  show V c main_v148 (ix2 (⟨2000 * t.val + p.val, h⟩ : Fin 50000) q) = V c main_v148 (((cfg9.win 0).blk t).view.emb (ix2 p q))
  refine congrArg (V c main_v148) ?_
  funext a; apply Fin.ext
  match a with
  | ⟨0, _⟩ => show 2000 * t.val + p.val = win9_0.index t (0 : Fin 2) * 2000 + 1 * p.val; omega
  | ⟨1, _⟩ => show q.val = win9_0.index t (1 : Fin 2) * 256 + 1 * q.val; omega

/-- After all 25 blocks the running row holds, at column q, the sum of the array's column q. -/
theorem colsum9_of (c : Dev nD) (X : Vec Ideal S50000x256 .f32) (hX : V c main_v148 = X) (q : Fin 256) :
    Cert.KernelIdeal.R9.sumTo (F := Ideal) V c 25 (ix2 0 q) = ∑ r : Fin 50000, X (ix2 r q) := by
  refine running_total (fun r : Fin 50000 => X (ix2 r q))
    (fun n => Cert.KernelIdeal.R9.sumTo (F := Ideal) V c n (ix2 0 q)) ?_ ?_
  · show k9_pay1 (F := Ideal) (ix2 0 q) = 0
    exact (Cert.KernelIdeal.Pay.pay_zero9 q).trans Ideal.ofBits_zero_f32
  · intro n h
    have hN : n < cfg9.N := by have e : cfg9.N = 25 := N_9; omega
    refine (congrFun (Cert.KernelIdeal.R9.sumTo_succ V c ⟨n, hN⟩) (ix2 0 q)).trans ?_
    refine (Cert.KernelIdeal.Pay.pay_sum9 _ _ q).trans ?_
    exact congrArg₂ (· + ·) rfl
      (Finset.sum_congr rfl fun p _ => (blk9_apply V c X hX ⟨n, hN⟩ p q (block_row_lt n h p)).symm)

/-- After all 25 blocks the second running row holds, at column q, the sum of the squares of the array's column q. -/
theorem colsq9_of (c : Dev nD) (X : Vec Ideal S50000x256 .f32) (hX : V c main_v148 = X) (q : Fin 256) :
    Cert.KernelIdeal.R9.sqTo (F := Ideal) V c 25 (ix2 0 q) = ∑ r : Fin 50000, X (ix2 r q) * X (ix2 r q) := by
  refine running_total (fun r : Fin 50000 => X (ix2 r q) * X (ix2 r q))
    (fun n => Cert.KernelIdeal.R9.sqTo (F := Ideal) V c n (ix2 0 q)) ?_ ?_
  · show k9_pay2 (F := Ideal) (ix2 0 q) = 0
    exact (Cert.KernelIdeal.Pay.pay_zero9' q).trans Ideal.ofBits_zero_f32
  · intro n h
    have hN : n < cfg9.N := by have e : cfg9.N = 25 := N_9; omega
    refine (congrFun (Cert.KernelIdeal.R9.sqTo_succ V c ⟨n, hN⟩) (ix2 0 q)).trans ?_
    refine (Cert.KernelIdeal.Pay.pay_sq9 _ _ q).trans ?_
    refine congrArg₂ (· + ·) rfl (Finset.sum_congr rfl fun p _ => ?_)
    have e := (blk9_apply V c X hX ⟨n, hN⟩ p q (block_row_lt n h p)).symm
    exact congrArg₂ (· * ·) e e

/-- The same two facts for the array itself. -/
theorem colsum9 (c : Dev nD) (q : Fin 256) :
    Cert.KernelIdeal.R9.sumTo (F := Ideal) V c 25 (ix2 0 q) = ∑ r : Fin 50000, arr9 V c (ix2 r q) :=
  colsum9_of V c (arr9 V c) rfl q

theorem colsq9 (c : Dev nD) (q : Fin 256) :
    Cert.KernelIdeal.R9.sqTo (F := Ideal) V c 25 (ix2 0 q)
      = ∑ r : Fin 50000, arr9 V c (ix2 r q) * arr9 V c (ix2 r q) :=
  colsq9_of V c (arr9 V c) rfl q

end Cert.Bridge

end
-- ==== Proof.PaySum14.lean ====
/-
  The batch-statistics body 14 read at an index, at the ideal values (extended reals, exact
  operations). The two accumulator rows start as zero rows. Each step adds to the running row, at
  column `q`, the column sum of the block (a sum over axis 0 from a zero accumulator, reshaped from a
  vector to one row), and to the second running row the column sum of the block's squares. Casts to
  the same shape are the identity.
-/
import proofs.«162580_j71794673320191_1_alg».proof.Proof.Gen.KernelIdeal.Skeleton
import proofs.«162580_j71794673320191_1_alg».proof.Proof.LibLinearRow

noncomputable section

open scoped BigOperators

namespace Cert.KernelIdeal.Pay

open Idealize.ShloMosaic Idealize.ShloMosaic.ValueIdx Cert.KernelIdeal Cert.KernelIdeal.Gen

/-- The block's column sums, reshaped to one row, at column `q`: the sum of the block's column `q`. -/
theorem colSum14_apply (X : FVec Ideal S2000x256 .f32) (hr : S2000x256.Reduces [0] S256) (hφ : FKind.Formats .f32)
    (hacc : (0x00000000#32 : BitVec 32) = FKind.add.neutral .f32 hφ) (hc : S256.ShapeCasts S1x256) (q : Fin 256) :
    shapeCast S1x256 (multiReduction (F := Ideal) .add [0] S256 X 0x00000000#32 hr hφ hacc) hc (ix2 0 q)
      = ∑ r : Fin 2000, X (ix2 r q) := by
  refine (shapeCast_a_1a_apply _ hc 0 q).trans ?_
  refine (Ideal.multiReduction_add_single X 0x00000000#32 hr hφ hacc (ix1 q)).trans ?_
  refine Finset.sum_congr rfl fun r _ => congrArg X (funext fun a => Fin.ext ?_)
  match a with
  | ⟨0, _⟩ => rfl
  | ⟨1, _⟩ => rfl

/-- The first accumulator row's initial value: zero at every column. -/
theorem pay_zero14 (q : Fin 256) : k14_pay1 (F := Ideal) (ix2 0 q) = Ideal.ofBits .f32 0x00000000#32 := by
  unfold k14_pay1
  exact congrFun (shapeCast_self _ _) (ix2 0 q)

/-- The second accumulator row's initial value: zero at every column. -/
theorem pay_zero14' (q : Fin 256) : k14_pay2 (F := Ideal) (ix2 0 q) = Ideal.ofBits .f32 0x00000000#32 := by
  unfold k14_pay2
  exact congrFun (shapeCast_self _ _) (ix2 0 q)

/-- The running sum after a step, at column `q`: the row read plus the block's column sum. -/
theorem pay_sum14 (x : Vec Ideal S2000x256 .f32) (s : Vec Ideal S1x256 .f32) (q : Fin 256) :
    k14_pay4 (F := Ideal) x s (ix2 0 q) = s (ix2 0 q) + ∑ r : Fin 2000, x (ix2 r q) := by
  unfold k14_pay4 k14_pay3
  refine (congrFun (shapeCast_self _ _) (ix2 0 q)).trans ?_
  refine (addf_apply _ _ (ix2 0 q)).trans (congrArg (s (ix2 0 q) + ·) ?_)
  refine (colSum14_apply _ _ _ _ _ q).trans ?_
  exact Finset.sum_congr rfl fun r _ => congrFun (shapeCast_self x _) (ix2 r q)

/-- The running sum of squares after a step, at column `q`: the row read plus the column sum of the block's squares. -/
theorem pay_sq14 (x : Vec Ideal S2000x256 .f32) (s : Vec Ideal S1x256 .f32) (q : Fin 256) :
    k14_pay5 (F := Ideal) x s (ix2 0 q) = s (ix2 0 q) + ∑ r : Fin 2000, x (ix2 r q) * x (ix2 r q) := by
  unfold k14_pay5 k14_pay3
  refine (congrFun (shapeCast_self _ _) (ix2 0 q)).trans ?_
  refine (addf_apply _ _ (ix2 0 q)).trans (congrArg (s (ix2 0 q) + ·) ?_)
  refine (colSum14_apply _ _ _ _ _ q).trans ?_
  refine Finset.sum_congr rfl fun r _ => (mulf_apply _ _ (ix2 r q)).trans ?_
  exact congrArg₂ (· * ·) (congrFun (shapeCast_self x _) (ix2 r q)) (congrFun (shapeCast_self x _) (ix2 r q))

end Cert.KernelIdeal.Pay

end
-- ==== Proof.ColSum14.lean ====
/-
  The column-sum region 14 against the whole array, at the ideal values (extended reals, exact
  operations). The region runs over 25 blocks of 2000 rows of its input array; the running row starts
  at zero and block n adds, at column q, the sum of the block's column q, and the second running row
  the sum of the squares. Block n's row p is row 2000·n + p of the array. So after all 25 blocks the
  rows hold, at column q, the sum over all 50000 rows of the array's column q, and of its squares.
-/
import proofs.«162580_j71794673320191_1_alg».proof.Proof.ValueR14
import proofs.«162580_j71794673320191_1_alg».proof.Proof.PaySum14
import proofs.«162580_j71794673320191_1_alg».proof.Proof.BlockTotal

set_option maxRecDepth 16384

noncomputable section

open scoped BigOperators

namespace Cert.Bridge

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The region's input array as the region finds it, as a function of row and column. -/
abbrev arr14 (c : Dev nD) : Vec Ideal S50000x256 .f32 := V c main_v228

/-- Row 2000·t + p, column q of the array is row p, column q of the input window's block at point t. -/
theorem blk14_apply (c : Dev nD) (X : Vec Ideal S50000x256 .f32) (hX : V c main_v228 = X) (t : Fin cfg14.N)
    (p : Fin 2000) (q : Fin 256) (h : 2000 * t.val + p.val < 50000) :
    X (ix2 (⟨2000 * t.val + p.val, h⟩ : Fin 50000) q) = Cert.KernelIdeal.R14.blk V c 0 t (ix2 p q) := by
  subst hX
  obtain ⟨e00, e01, -⟩ := Cert.KernelIdeal.R14.idx_facts t
  show V c main_v228 (ix2 (⟨2000 * t.val + p.val, h⟩ : Fin 50000) q) = V c main_v228 (((cfg14.win 0).blk t).view.emb (ix2 p q))
  refine congrArg (V c main_v228) ?_
  funext a; apply Fin.ext
  match a with
  | ⟨0, _⟩ => show 2000 * t.val + p.val = win14_0.index t (0 : Fin 2) * 2000 + 1 * p.val; omega
  | ⟨1, _⟩ => show q.val = win14_0.index t (1 : Fin 2) * 256 + 1 * q.val; omega

/-- After all 25 blocks the running row holds, at column q, the sum of the array's column q. -/
theorem colsum14_of (c : Dev nD) (X : Vec Ideal S50000x256 .f32) (hX : V c main_v228 = X) (q : Fin 256) :
    Cert.KernelIdeal.R14.sumTo (F := Ideal) V c 25 (ix2 0 q) = ∑ r : Fin 50000, X (ix2 r q) := by
  refine running_total (fun r : Fin 50000 => X (ix2 r q))
    (fun n => Cert.KernelIdeal.R14.sumTo (F := Ideal) V c n (ix2 0 q)) ?_ ?_
  · show k14_pay1 (F := Ideal) (ix2 0 q) = 0
    exact (Cert.KernelIdeal.Pay.pay_zero14 q).trans Ideal.ofBits_zero_f32
  · intro n h
    have hN : n < cfg14.N := by have e : cfg14.N = 25 := N_14; omega
    refine (congrFun (Cert.KernelIdeal.R14.sumTo_succ V c ⟨n, hN⟩) (ix2 0 q)).trans ?_
    refine (Cert.KernelIdeal.Pay.pay_sum14 _ _ q).trans ?_
    exact congrArg₂ (· + ·) rfl
      (Finset.sum_congr rfl fun p _ => (blk14_apply V c X hX ⟨n, hN⟩ p q (block_row_lt n h p)).symm)

/-- After all 25 blocks the second running row holds, at column q, the sum of the squares of the array's column q. -/
theorem colsq14_of (c : Dev nD) (X : Vec Ideal S50000x256 .f32) (hX : V c main_v228 = X) (q : Fin 256) :
    Cert.KernelIdeal.R14.sqTo (F := Ideal) V c 25 (ix2 0 q) = ∑ r : Fin 50000, X (ix2 r q) * X (ix2 r q) := by
  refine running_total (fun r : Fin 50000 => X (ix2 r q) * X (ix2 r q))
    (fun n => Cert.KernelIdeal.R14.sqTo (F := Ideal) V c n (ix2 0 q)) ?_ ?_
  · show k14_pay2 (F := Ideal) (ix2 0 q) = 0
    exact (Cert.KernelIdeal.Pay.pay_zero14' q).trans Ideal.ofBits_zero_f32
  · intro n h
    have hN : n < cfg14.N := by have e : cfg14.N = 25 := N_14; omega
    refine (congrFun (Cert.KernelIdeal.R14.sqTo_succ V c ⟨n, hN⟩) (ix2 0 q)).trans ?_
    refine (Cert.KernelIdeal.Pay.pay_sq14 _ _ q).trans ?_
    refine congrArg₂ (· + ·) rfl (Finset.sum_congr rfl fun p _ => ?_)
    have e := (blk14_apply V c X hX ⟨n, hN⟩ p q (block_row_lt n h p)).symm
    exact congrArg₂ (· * ·) e e

/-- The same two facts for the array itself. -/
theorem colsum14 (c : Dev nD) (q : Fin 256) :
    Cert.KernelIdeal.R14.sumTo (F := Ideal) V c 25 (ix2 0 q) = ∑ r : Fin 50000, arr14 V c (ix2 r q) :=
  colsum14_of V c (arr14 V c) rfl q

theorem colsq14 (c : Dev nD) (q : Fin 256) :
    Cert.KernelIdeal.R14.sqTo (F := Ideal) V c 25 (ix2 0 q)
      = ∑ r : Fin 50000, arr14 V c (ix2 r q) * arr14 V c (ix2 r q) :=
  colsq14_of V c (arr14 V c) rfl q

end Cert.Bridge

end
-- ==== Proof.RealShared.lean ====
/-
  Realness of the network's pieces at the ideal instance: each piece of the network, applied to arrays every entry of
  which is a real number, gives an array every entry of which is a real number. The re-indexing operations (a slice, a
  reshape, a broadcast) only read entries of their operand; sums, products, maxima, matrix products, neighbour sums
  are finite sums and products of reals; the normalisation divides by the square root of a variance plus a positive
  constant, and the variance, a sum of squares of reals divided by 50000, is a nonnegative real.
-/
import proofs.«162580_j71794673320191_1_alg».proof.Proof.Shared
import proofs.«162580_j71794673320191_1_alg».proof.Proof.LibRealClosed
import Idealize.ShloMosaic.Lib.ValueIdx
import Idealize.ShloMosaic.Lib.IdealHost

namespace Cert.Real

open Idealize.ShloMosaic Idealize.SL.Sem Cert.ReferenceIdeal Cert.ReferenceIdeal.Gen Cert.Lib Cert.Shared
open scoped BigOperators

/-! ## Re-indexings -/

/-- A reshape only re-indexes. -/
theorem allReal_shapeCast {s t : Shape} {x : s.Idx → EReal} (hx : AllReal x) (h : s.ShapeCasts t) :
    AllReal (shapeCast t x h) := fun j => by unfold shapeCast; exact hx _

/-- A slice only re-indexes. -/
theorem allReal_extractStridedSlice {s t : Shape} {x : s.Idx → EReal} (hx : AllReal x) (off : Fin s.rank → Nat)
    (h : s.Slices off t) : AllReal (extractStridedSlice t off x h) := fun j => by
  unfold extractStridedSlice; exact hx _

/-- A broadcast only re-indexes. -/
theorem allReal_broadcastInDim {s t : Shape} {x : s.Idx → EReal} (hx : AllReal x) (dims : Fin s.rank → Fin t.rank)
    (h : s.BroadcastsInDim t dims) : AllReal (broadcastInDim t dims h x) := fun j => by
  unfold broadcastInDim; exact hx _

/-- The zero splat broadcast to any shape is all-real. -/
theorem allReal_zeros {s t : Shape} (dims : Fin s.rank → Fin t.rank) (h : s.BroadcastsInDim t dims) :
    AllReal (broadcastInDim t dims h (constant (F := Ideal) s .f32 0x00000000#32)) :=
  allReal_broadcastInDim (allReal_constant isReal_ofBits_f32_zero) dims h

/-! ## Encoder, neighbour sum, dense layers -/

/-- The encoder of all-real arrays is all-real. -/
theorem allReal_enc {x : (⟨S50000x64, .f32⟩ : BufTy).Contents (Elt Ideal)} {w : (⟨S64x256, .f32⟩ : BufTy).Contents (Elt Ideal)} {b : (⟨S256, .f32⟩ : BufTy).Contents (Elt Ideal)}
    (hx : AllReal x) (hw : AllReal w) (hb : AllReal b) : AllReal (encOf (F := Ideal) x w b) := by
  unfold encOf
  exact allReal_addf (allReal_host_dotGeneral _ _ hx hw)
    (allReal_broadcastInDim (allReal_broadcastInDim hb _ _) _ _)

/-- The neighbour sum of an all-real array is all-real, whatever the edges. -/
theorem allReal_agg {g : (⟨S50000x256, .f32⟩ : BufTy).Contents (Elt Ideal)} (hg : AllReal g)
    (s d : (⟨S300000, .i32⟩ : BufTy).Contents (Elt Ideal)) : AllReal (aggOf (F := Ideal) g s d) := by
  unfold aggOf
  exact allReal_host_scatterAdd (φ := .f32) _ _ (allReal_zeros _ _) (allReal_host_gather (φ := .f32) _ hg _)

/-- One round's update (zero-clipped after) of all-real arrays is all-real. -/
theorem allReal_mlpRelu {g a : (⟨S50000x256, .f32⟩ : BufTy).Contents (Elt Ideal)} {w1 : (⟨S256x256, .f32⟩ : BufTy).Contents (Elt Ideal)} {b1 : (⟨S256, .f32⟩ : BufTy).Contents (Elt Ideal)}
    {w2 : (⟨S256x256, .f32⟩ : BufTy).Contents (Elt Ideal)} {b2 : (⟨S256, .f32⟩ : BufTy).Contents (Elt Ideal)}
    (hg : AllReal g) (ha : AllReal a) (hw1 : AllReal w1) (hb1 : AllReal b1) (hw2 : AllReal w2) (hb2 : AllReal b2) :
    AllReal (mlpRelu (F := Ideal) g a w1 b1 w2 b2) := by
  unfold mlpRelu
  exact allReal_maximumf
    (allReal_addf
      (allReal_host_dotGeneral _ _
        (allReal_maximumf
          (allReal_addf (allReal_host_dotGeneral _ _ (allReal_addf hg ha) hw1)
            (allReal_broadcastInDim (allReal_broadcastInDim hb1 _ _) _ _))
          (allReal_zeros _ _))
        hw2)
      (allReal_broadcastInDim (allReal_broadcastInDim hb2 _ _) _ _))
    (allReal_zeros _ _)

/-- One round's update (not clipped after) of all-real arrays is all-real. -/
theorem allReal_mlpLin {g a : (⟨S50000x256, .f32⟩ : BufTy).Contents (Elt Ideal)} {w1 : (⟨S256x256, .f32⟩ : BufTy).Contents (Elt Ideal)} {b1 : (⟨S256, .f32⟩ : BufTy).Contents (Elt Ideal)}
    {w2 : (⟨S256x256, .f32⟩ : BufTy).Contents (Elt Ideal)} {b2 : (⟨S256, .f32⟩ : BufTy).Contents (Elt Ideal)}
    (hg : AllReal g) (ha : AllReal a) (hw1 : AllReal w1) (hb1 : AllReal b1) (hw2 : AllReal w2) (hb2 : AllReal b2) :
    AllReal (mlpLin (F := Ideal) g a w1 b1 w2 b2) := by
  unfold mlpLin
  exact allReal_addf
      (allReal_host_dotGeneral _ _
        (allReal_maximumf
          (allReal_addf (allReal_host_dotGeneral _ _ (allReal_addf hg ha) hw1)
            (allReal_broadcastInDim (allReal_broadcastInDim hb1 _ _) _ _))
          (allReal_zeros _ _))
        hw2)
      (allReal_broadcastInDim (allReal_broadcastInDim hb2 _ _) _ _)

/-! ## The slices of the stacked parameters -/

/-- The slice w1_0 of an all-real stacked parameter is all-real. -/
theorem allReal_w1_0 {a : (⟨S3x3x256x256, .f32⟩ : BufTy).Contents (Elt Ideal)} (ha : AllReal a) : AllReal (w1_0 (F := Ideal) a) := by
  unfold w1_0; exact allReal_shapeCast (allReal_extractStridedSlice ha _ _) _
/-- The slice b1_0 of an all-real stacked parameter is all-real. -/
theorem allReal_b1_0 {a : (⟨S3x3x256, .f32⟩ : BufTy).Contents (Elt Ideal)} (ha : AllReal a) : AllReal (b1_0 (F := Ideal) a) := by
  unfold b1_0; exact allReal_shapeCast (allReal_extractStridedSlice ha _ _) _
/-- The slice w2_0 of an all-real stacked parameter is all-real. -/
theorem allReal_w2_0 {a : (⟨S3x3x256x256, .f32⟩ : BufTy).Contents (Elt Ideal)} (ha : AllReal a) : AllReal (w2_0 (F := Ideal) a) := by
  unfold w2_0; exact allReal_shapeCast (allReal_extractStridedSlice ha _ _) _
/-- The slice b2_0 of an all-real stacked parameter is all-real. -/
theorem allReal_b2_0 {a : (⟨S3x3x256, .f32⟩ : BufTy).Contents (Elt Ideal)} (ha : AllReal a) : AllReal (b2_0 (F := Ideal) a) := by
  unfold b2_0; exact allReal_shapeCast (allReal_extractStridedSlice ha _ _) _
/-- The slice w1_1 of an all-real stacked parameter is all-real. -/
theorem allReal_w1_1 {a : (⟨S3x3x256x256, .f32⟩ : BufTy).Contents (Elt Ideal)} (ha : AllReal a) : AllReal (w1_1 (F := Ideal) a) := by
  unfold w1_1; exact allReal_shapeCast (allReal_extractStridedSlice ha _ _) _
/-- The slice b1_1 of an all-real stacked parameter is all-real. -/
theorem allReal_b1_1 {a : (⟨S3x3x256, .f32⟩ : BufTy).Contents (Elt Ideal)} (ha : AllReal a) : AllReal (b1_1 (F := Ideal) a) := by
  unfold b1_1; exact allReal_shapeCast (allReal_extractStridedSlice ha _ _) _
/-- The slice w2_1 of an all-real stacked parameter is all-real. -/
theorem allReal_w2_1 {a : (⟨S3x3x256x256, .f32⟩ : BufTy).Contents (Elt Ideal)} (ha : AllReal a) : AllReal (w2_1 (F := Ideal) a) := by
  unfold w2_1; exact allReal_shapeCast (allReal_extractStridedSlice ha _ _) _
/-- The slice b2_1 of an all-real stacked parameter is all-real. -/
theorem allReal_b2_1 {a : (⟨S3x3x256, .f32⟩ : BufTy).Contents (Elt Ideal)} (ha : AllReal a) : AllReal (b2_1 (F := Ideal) a) := by
  unfold b2_1; exact allReal_shapeCast (allReal_extractStridedSlice ha _ _) _
/-- The slice w1_2 of an all-real stacked parameter is all-real. -/
theorem allReal_w1_2 {a : (⟨S3x3x256x256, .f32⟩ : BufTy).Contents (Elt Ideal)} (ha : AllReal a) : AllReal (w1_2 (F := Ideal) a) := by
  unfold w1_2; exact allReal_shapeCast (allReal_extractStridedSlice ha _ _) _
/-- The slice b1_2 of an all-real stacked parameter is all-real. -/
theorem allReal_b1_2 {a : (⟨S3x3x256, .f32⟩ : BufTy).Contents (Elt Ideal)} (ha : AllReal a) : AllReal (b1_2 (F := Ideal) a) := by
  unfold b1_2; exact allReal_shapeCast (allReal_extractStridedSlice ha _ _) _
/-- The slice w2_2 of an all-real stacked parameter is all-real. -/
theorem allReal_w2_2 {a : (⟨S3x3x256x256, .f32⟩ : BufTy).Contents (Elt Ideal)} (ha : AllReal a) : AllReal (w2_2 (F := Ideal) a) := by
  unfold w2_2; exact allReal_shapeCast (allReal_extractStridedSlice ha _ _) _
/-- The slice b2_2 of an all-real stacked parameter is all-real. -/
theorem allReal_b2_2 {a : (⟨S3x3x256, .f32⟩ : BufTy).Contents (Elt Ideal)} (ha : AllReal a) : AllReal (b2_2 (F := Ideal) a) := by
  unfold b2_2; exact allReal_shapeCast (allReal_extractStridedSlice ha _ _) _
/-- The slice w1_3 of an all-real stacked parameter is all-real. -/
theorem allReal_w1_3 {a : (⟨S3x3x256x256, .f32⟩ : BufTy).Contents (Elt Ideal)} (ha : AllReal a) : AllReal (w1_3 (F := Ideal) a) := by
  unfold w1_3; exact allReal_shapeCast (allReal_extractStridedSlice ha _ _) _
/-- The slice b1_3 of an all-real stacked parameter is all-real. -/
theorem allReal_b1_3 {a : (⟨S3x3x256, .f32⟩ : BufTy).Contents (Elt Ideal)} (ha : AllReal a) : AllReal (b1_3 (F := Ideal) a) := by
  unfold b1_3; exact allReal_shapeCast (allReal_extractStridedSlice ha _ _) _
/-- The slice w2_3 of an all-real stacked parameter is all-real. -/
theorem allReal_w2_3 {a : (⟨S3x3x256x256, .f32⟩ : BufTy).Contents (Elt Ideal)} (ha : AllReal a) : AllReal (w2_3 (F := Ideal) a) := by
  unfold w2_3; exact allReal_shapeCast (allReal_extractStridedSlice ha _ _) _
/-- The slice b2_3 of an all-real stacked parameter is all-real. -/
theorem allReal_b2_3 {a : (⟨S3x3x256, .f32⟩ : BufTy).Contents (Elt Ideal)} (ha : AllReal a) : AllReal (b2_3 (F := Ideal) a) := by
  unfold b2_3; exact allReal_shapeCast (allReal_extractStridedSlice ha _ _) _
/-- The slice w1_4 of an all-real stacked parameter is all-real. -/
theorem allReal_w1_4 {a : (⟨S3x3x256x256, .f32⟩ : BufTy).Contents (Elt Ideal)} (ha : AllReal a) : AllReal (w1_4 (F := Ideal) a) := by
  unfold w1_4; exact allReal_shapeCast (allReal_extractStridedSlice ha _ _) _
/-- The slice b1_4 of an all-real stacked parameter is all-real. -/
theorem allReal_b1_4 {a : (⟨S3x3x256, .f32⟩ : BufTy).Contents (Elt Ideal)} (ha : AllReal a) : AllReal (b1_4 (F := Ideal) a) := by
  unfold b1_4; exact allReal_shapeCast (allReal_extractStridedSlice ha _ _) _
/-- The slice w2_4 of an all-real stacked parameter is all-real. -/
theorem allReal_w2_4 {a : (⟨S3x3x256x256, .f32⟩ : BufTy).Contents (Elt Ideal)} (ha : AllReal a) : AllReal (w2_4 (F := Ideal) a) := by
  unfold w2_4; exact allReal_shapeCast (allReal_extractStridedSlice ha _ _) _
/-- The slice b2_4 of an all-real stacked parameter is all-real. -/
theorem allReal_b2_4 {a : (⟨S3x3x256, .f32⟩ : BufTy).Contents (Elt Ideal)} (ha : AllReal a) : AllReal (b2_4 (F := Ideal) a) := by
  unfold b2_4; exact allReal_shapeCast (allReal_extractStridedSlice ha _ _) _
/-- The slice w1_5 of an all-real stacked parameter is all-real. -/
theorem allReal_w1_5 {a : (⟨S3x3x256x256, .f32⟩ : BufTy).Contents (Elt Ideal)} (ha : AllReal a) : AllReal (w1_5 (F := Ideal) a) := by
  unfold w1_5; exact allReal_shapeCast (allReal_extractStridedSlice ha _ _) _
/-- The slice b1_5 of an all-real stacked parameter is all-real. -/
theorem allReal_b1_5 {a : (⟨S3x3x256, .f32⟩ : BufTy).Contents (Elt Ideal)} (ha : AllReal a) : AllReal (b1_5 (F := Ideal) a) := by
  unfold b1_5; exact allReal_shapeCast (allReal_extractStridedSlice ha _ _) _
/-- The slice w2_5 of an all-real stacked parameter is all-real. -/
theorem allReal_w2_5 {a : (⟨S3x3x256x256, .f32⟩ : BufTy).Contents (Elt Ideal)} (ha : AllReal a) : AllReal (w2_5 (F := Ideal) a) := by
  unfold w2_5; exact allReal_shapeCast (allReal_extractStridedSlice ha _ _) _
/-- The slice b2_5 of an all-real stacked parameter is all-real. -/
theorem allReal_b2_5 {a : (⟨S3x3x256, .f32⟩ : BufTy).Contents (Elt Ideal)} (ha : AllReal a) : AllReal (b2_5 (F := Ideal) a) := by
  unfold b2_5; exact allReal_shapeCast (allReal_extractStridedSlice ha _ _) _
/-- The slice w1_6 of an all-real stacked parameter is all-real. -/
theorem allReal_w1_6 {a : (⟨S3x3x256x256, .f32⟩ : BufTy).Contents (Elt Ideal)} (ha : AllReal a) : AllReal (w1_6 (F := Ideal) a) := by
  unfold w1_6; exact allReal_shapeCast (allReal_extractStridedSlice ha _ _) _
/-- The slice b1_6 of an all-real stacked parameter is all-real. -/
theorem allReal_b1_6 {a : (⟨S3x3x256, .f32⟩ : BufTy).Contents (Elt Ideal)} (ha : AllReal a) : AllReal (b1_6 (F := Ideal) a) := by
  unfold b1_6; exact allReal_shapeCast (allReal_extractStridedSlice ha _ _) _
/-- The slice w2_6 of an all-real stacked parameter is all-real. -/
theorem allReal_w2_6 {a : (⟨S3x3x256x256, .f32⟩ : BufTy).Contents (Elt Ideal)} (ha : AllReal a) : AllReal (w2_6 (F := Ideal) a) := by
  unfold w2_6; exact allReal_shapeCast (allReal_extractStridedSlice ha _ _) _
/-- The slice b2_6 of an all-real stacked parameter is all-real. -/
theorem allReal_b2_6 {a : (⟨S3x3x256, .f32⟩ : BufTy).Contents (Elt Ideal)} (ha : AllReal a) : AllReal (b2_6 (F := Ideal) a) := by
  unfold b2_6; exact allReal_shapeCast (allReal_extractStridedSlice ha _ _) _
/-- The slice w1_7 of an all-real stacked parameter is all-real. -/
theorem allReal_w1_7 {a : (⟨S3x3x256x256, .f32⟩ : BufTy).Contents (Elt Ideal)} (ha : AllReal a) : AllReal (w1_7 (F := Ideal) a) := by
  unfold w1_7; exact allReal_shapeCast (allReal_extractStridedSlice ha _ _) _
/-- The slice b1_7 of an all-real stacked parameter is all-real. -/
theorem allReal_b1_7 {a : (⟨S3x3x256, .f32⟩ : BufTy).Contents (Elt Ideal)} (ha : AllReal a) : AllReal (b1_7 (F := Ideal) a) := by
  unfold b1_7; exact allReal_shapeCast (allReal_extractStridedSlice ha _ _) _
/-- The slice w2_7 of an all-real stacked parameter is all-real. -/
theorem allReal_w2_7 {a : (⟨S3x3x256x256, .f32⟩ : BufTy).Contents (Elt Ideal)} (ha : AllReal a) : AllReal (w2_7 (F := Ideal) a) := by
  unfold w2_7; exact allReal_shapeCast (allReal_extractStridedSlice ha _ _) _
/-- The slice b2_7 of an all-real stacked parameter is all-real. -/
theorem allReal_b2_7 {a : (⟨S3x3x256, .f32⟩ : BufTy).Contents (Elt Ideal)} (ha : AllReal a) : AllReal (b2_7 (F := Ideal) a) := by
  unfold b2_7; exact allReal_shapeCast (allReal_extractStridedSlice ha _ _) _
/-- The slice w1_8 of an all-real stacked parameter is all-real. -/
theorem allReal_w1_8 {a : (⟨S3x3x256x256, .f32⟩ : BufTy).Contents (Elt Ideal)} (ha : AllReal a) : AllReal (w1_8 (F := Ideal) a) := by
  unfold w1_8; exact allReal_shapeCast (allReal_extractStridedSlice ha _ _) _
/-- The slice b1_8 of an all-real stacked parameter is all-real. -/
theorem allReal_b1_8 {a : (⟨S3x3x256, .f32⟩ : BufTy).Contents (Elt Ideal)} (ha : AllReal a) : AllReal (b1_8 (F := Ideal) a) := by
  unfold b1_8; exact allReal_shapeCast (allReal_extractStridedSlice ha _ _) _
/-- The slice w2_8 of an all-real stacked parameter is all-real. -/
theorem allReal_w2_8 {a : (⟨S3x3x256x256, .f32⟩ : BufTy).Contents (Elt Ideal)} (ha : AllReal a) : AllReal (w2_8 (F := Ideal) a) := by
  unfold w2_8; exact allReal_shapeCast (allReal_extractStridedSlice ha _ _) _
/-- The slice b2_8 of an all-real stacked parameter is all-real. -/
theorem allReal_b2_8 {a : (⟨S3x3x256, .f32⟩ : BufTy).Contents (Elt Ideal)} (ha : AllReal a) : AllReal (b2_8 (F := Ideal) a) := by
  unfold b2_8; exact allReal_shapeCast (allReal_extractStridedSlice ha _ _) _
/-- The slice ga_0 of an all-real stacked parameter is all-real. -/
theorem allReal_ga_0 {a : (⟨S3x256, .f32⟩ : BufTy).Contents (Elt Ideal)} (ha : AllReal a) : AllReal (ga_0 (F := Ideal) a) := by
  unfold ga_0; exact allReal_shapeCast (allReal_extractStridedSlice ha _ _) _
/-- The slice be_0 of an all-real stacked parameter is all-real. -/
theorem allReal_be_0 {a : (⟨S3x256, .f32⟩ : BufTy).Contents (Elt Ideal)} (ha : AllReal a) : AllReal (be_0 (F := Ideal) a) := by
  unfold be_0; exact allReal_shapeCast (allReal_extractStridedSlice ha _ _) _
/-- The slice ga_1 of an all-real stacked parameter is all-real. -/
theorem allReal_ga_1 {a : (⟨S3x256, .f32⟩ : BufTy).Contents (Elt Ideal)} (ha : AllReal a) : AllReal (ga_1 (F := Ideal) a) := by
  unfold ga_1; exact allReal_shapeCast (allReal_extractStridedSlice ha _ _) _
/-- The slice be_1 of an all-real stacked parameter is all-real. -/
theorem allReal_be_1 {a : (⟨S3x256, .f32⟩ : BufTy).Contents (Elt Ideal)} (ha : AllReal a) : AllReal (be_1 (F := Ideal) a) := by
  unfold be_1; exact allReal_shapeCast (allReal_extractStridedSlice ha _ _) _
/-- The slice ga_2 of an all-real stacked parameter is all-real. -/
theorem allReal_ga_2 {a : (⟨S3x256, .f32⟩ : BufTy).Contents (Elt Ideal)} (ha : AllReal a) : AllReal (ga_2 (F := Ideal) a) := by
  unfold ga_2; exact allReal_shapeCast (allReal_extractStridedSlice ha _ _) _
/-- The slice be_2 of an all-real stacked parameter is all-real. -/
theorem allReal_be_2 {a : (⟨S3x256, .f32⟩ : BufTy).Contents (Elt Ideal)} (ha : AllReal a) : AllReal (be_2 (F := Ideal) a) := by
  unfold be_2; exact allReal_shapeCast (allReal_extractStridedSlice ha _ _) _

/-! ## Means, variances, normalisation -/

/-- A splat broadcast to any shape reads the splat's value everywhere. -/
theorem bcast_constant_apply {s t : Shape} (dims : Fin s.rank → Fin t.rank) (h : s.BroadcastsInDim t dims)
    (b : BitVec 32) (j : t.Idx) :
    broadcastInDim t dims h (constant (F := Ideal) s .f32 b) j = Ideal.ofBits .f32 b := rfl

/-- The real 50000, as an extended real, is not zero. -/
theorem coe_50000_ne_zero : ((50000 : ℝ) : EReal) ≠ 0 := by
  rw [ne_eq, EReal.coe_eq_zero]; norm_num

/-- The real 50000, as an extended real, is positive. -/
theorem coe_50000_pos : (0 : EReal) < ((50000 : ℝ) : EReal) := EReal.coe_pos.mpr (by norm_num)

/-- The 50000 splat broadcast to any shape is nowhere zero. -/
theorem bcast_50000_ne_zero {s t : Shape} (dims : Fin s.rank → Fin t.rank) (h : s.BroadcastsInDim t dims) (j : t.Idx) :
    broadcastInDim t dims h (constant (F := Ideal) s .f32 0x47435000#32) j ≠ 0 := by
  rw [bcast_constant_apply, ofBits_f32_50000]; exact coe_50000_ne_zero

/-- The column sums of an all-real array, from zero, are all-real. -/
theorem allReal_colSum {g : (⟨S50000x256, .f32⟩ : BufTy).Contents (Elt Ideal)} (hg : AllReal g) :
    AllReal (Host.reduceAdd g (constant (F := Ideal) S_ .f32 0x00000000#32) reducesTo_S50000x256_S256_d0 h_S_) :=
  allReal_host_reduceAdd hg (allReal_constant isReal_ofBits_f32_zero) _ _

/-- The column means of an all-real array are all-real. -/
theorem allReal_meanOf {g : (⟨S50000x256, .f32⟩ : BufTy).Contents (Elt Ideal)} (hg : AllReal g) : AllReal (meanOf (F := Ideal) g) := by
  unfold meanOf
  exact allReal_host_divf (allReal_colSum hg)
    (allReal_broadcastInDim (allReal_constant isReal_ofBits_f32_50000) _ _) (bcast_50000_ne_zero _ _)

/-- The count of rows the variance divides by, 50000 minus the float of the integer 0, is the real 50000. -/
theorem count_apply (i : S_.Idx) :
    subf (constant (F := Ideal) S_ .f32 0x47435000#32) (sitofp (F := Ideal) .f32 (constantI S_ 32 0#32)) i
      = ((50000 : ℝ) : EReal) := by
  show Ideal.ofBits .f32 0x47435000#32 - ((((0#32 : BitVec 32).toInt : ℤ) : ℝ) : EReal) = _
  rw [ofBits_f32_50000]
  simp

/-- The guard "the count is positive" is 1 everywhere. -/
theorem guard_apply (j : S256.Idx) :
    broadcastInDim S256 ![] bcast_S_S256
        (cmpf .ogt (subf (constant (F := Ideal) S_ .f32 0x47435000#32) (sitofp (F := Ideal) .f32 (constantI S_ 32 0#32)))
          (constant (F := Ideal) S_ .f32 0x00000000#32)) j = 1#1 := by
  unfold broadcastInDim
  rw [ValueIdx.cmpf_apply, Ideal.cmpf_def, count_apply, ValueIdx.constant_apply, ofBits_f32_zero]
  simp [Ideal.cmp, coe_50000_pos]

/-- The divisor of the variance, broadcast along the columns, is the real 50000 everywhere. -/
theorem denom_apply (j : S256.Idx) :
    broadcastInDim S256 ![] bcast_S_S256
        (subf (constant (F := Ideal) S_ .f32 0x47435000#32) (sitofp (F := Ideal) .f32 (constantI S_ 32 0#32))) j
      = ((50000 : ℝ) : EReal) := by
  unfold broadcastInDim
  exact count_apply _

/-- A sum along axes of nonnegative reals, from a nonnegative real, is a nonnegative real. -/
theorem exists_nonneg_host_reduceAdd {s t u : Shape} {φ : FTy} {axes : List (Fin s.rank)} {x : FVec Ideal s φ}
    {init : u.Idx → Ideal φ} (hx : AllReal x) (hx0 : ∀ i, 0 ≤ x i) (hi : AllReal init) (hi0 : ∀ k, 0 ≤ init k)
    (h : s.ReducesTo axes t) (hu : 0 < u.numel) (j : t.Idx) :
    ∃ a : ℝ, 0 ≤ a ∧ Host.reduceAdd x init h hu j = (a : EReal) := by
  obtain ⟨a, ha⟩ := allReal_host_reduceAdd hx hi h hu j
  refine ⟨a, ?_, ha⟩
  have h0 : (0 : EReal) ≤ Host.reduceAdd x init h hu j := by
    show 0 ≤ Ideal.hostReduceAdd h x (init (Shape.Idx.first hu)) j
    unfold Ideal.hostReduceAdd
    exact add_nonneg (hi0 _) (Finset.sum_nonneg fun i _ => hx0 i)
  rw [ha] at h0; exact EReal.coe_nonneg.mp h0

/-- The square of an all-real array is all-real and nonnegative. -/
theorem mulf_self_nonneg {s : Shape} {φ : FTy} {x : FVec Ideal s φ} (hx : AllReal x) (i : s.Idx) :
    0 ≤ mulf x x i := by
  obtain ⟨r, hr⟩ := hx i
  show 0 ≤ x i * x i
  rw [hr, ← EReal.coe_mul]; exact EReal.coe_nonneg.mpr (mul_self_nonneg r)

/-- The variance of an all-real array is, in every column, a nonnegative real: the guard holds, and the quotient is
a sum of squares of reals divided by 50000. -/
theorem varOf_nonneg_real {g : (⟨S50000x256, .f32⟩ : BufTy).Contents (Elt Ideal)} (hg : AllReal g) (j : S256.Idx) :
    ∃ v : ℝ, 0 ≤ v ∧ varOf (F := Ideal) g j = (v : EReal) := by
  have hD : AllReal (subf g (broadcastInDim S50000x256 ![0, 1] bcast_S1x256_S50000x256_0_1
      (Host.divf (broadcastInDim S1x256 ![1] bcast_S256_S1x256_1
          (Host.reduceAdd g (constant (F := Ideal) S_ .f32 0x00000000#32) reducesTo_S50000x256_S256_d0 h_S_))
        (broadcastInDim S1x256 ![] bcast_S_S1x256 (constant (F := Ideal) S_ .f32 0x47435000#32))))) :=
    allReal_subf hg (allReal_broadcastInDim
      (allReal_host_divf (allReal_broadcastInDim (allReal_colSum hg) _ _)
        (allReal_broadcastInDim (allReal_constant isReal_ofBits_f32_50000) _ _) (bcast_50000_ne_zero _ _)) _ _)
  obtain ⟨a, ha0, ha⟩ := exists_nonneg_host_reduceAdd (allReal_mulf hD hD) (mulf_self_nonneg hD)
    (allReal_constant (s := S_) isReal_ofBits_f32_zero)
    (fun k => le_of_eq (show (0 : EReal) = constant (F := Ideal) S_ .f32 0x00000000#32 k from ofBits_f32_zero.symm))
    reducesTo_S50000x256_S256_d0 h_S_ j
  refine ⟨a / 50000, div_nonneg ha0 (by norm_num), ?_⟩
  unfold varOf
  dsimp only
  rw [ValueIdx.select_apply, guard_apply, ValueIdx.select_one, ValueIdx.hostDivf_apply, denom_apply, ha]
  exact div_coe_coe a 50000 (by norm_num)

/-- The variance of an all-real array is all-real. -/
theorem allReal_varOf {g : (⟨S50000x256, .f32⟩ : BufTy).Contents (Elt Ideal)} (hg : AllReal g) : AllReal (varOf (F := Ideal) g) := fun j => by
  obtain ⟨v, _, hv⟩ := varOf_nonneg_real hg j; exact ⟨v, hv⟩

/-- The variance of an all-real array is nonnegative in every column. -/
theorem varOf_nonneg {g : (⟨S50000x256, .f32⟩ : BufTy).Contents (Elt Ideal)} (hg : AllReal g) (j : S256.Idx) : 0 ≤ varOf (F := Ideal) g j := by
  obtain ⟨v, hv0, hv⟩ := varOf_nonneg_real hg j; rw [hv]; exact EReal.coe_nonneg.mpr hv0

/-- The variance plus the stabilising constant is positive in every column. -/
theorem varOf_add_eps_pos {g : (⟨S50000x256, .f32⟩ : BufTy).Contents (Elt Ideal)} (hg : AllReal g) (j : S256.Idx) :
    0 < addf (varOf (F := Ideal) g) (broadcastInDim S256 ![] bcast_S_S256 (constant (F := Ideal) S_ .f32 0x3727C5AC#32)) j := by
  obtain ⟨v, hv0, hv⟩ := varOf_nonneg_real hg j
  show 0 < varOf (F := Ideal) g j + broadcastInDim S256 ![] bcast_S_S256 (constant (F := Ideal) S_ .f32 0x3727C5AC#32) j
  rw [hv, bcast_constant_apply, ofBits_f32_eps, ← EReal.coe_add]
  exact EReal.coe_pos.mpr (add_pos_of_nonneg_of_pos hv0 epsF32_pos)

/-- The variance plus the stabilising constant is all-real. -/
theorem allReal_varOf_add_eps {g : (⟨S50000x256, .f32⟩ : BufTy).Contents (Elt Ideal)} (hg : AllReal g) :
    AllReal (addf (varOf (F := Ideal) g) (broadcastInDim S256 ![] bcast_S_S256 (constant (F := Ideal) S_ .f32 0x3727C5AC#32))) :=
  allReal_addf (allReal_varOf hg) (allReal_broadcastInDim (allReal_constant isReal_ofBits_f32_eps) _ _)

/-- The reciprocal standard deviation of an all-real array is all-real. -/
theorem allReal_invStd {g : (⟨S50000x256, .f32⟩ : BufTy).Contents (Elt Ideal)} (hg : AllReal g) :
    AllReal (Host.rsqrt (addf (varOf (F := Ideal) g)
      (broadcastInDim S256 ![] bcast_S_S256 (constant (F := Ideal) S_ .f32 0x3727C5AC#32)))) :=
  allReal_host_rsqrt (allReal_varOf_add_eps hg) (varOf_add_eps_pos hg)

/-- The normalisation (not clipped after) of all-real arrays is all-real. -/
theorem allReal_normLin {g : (⟨S50000x256, .f32⟩ : BufTy).Contents (Elt Ideal)} {ga be : (⟨S256, .f32⟩ : BufTy).Contents (Elt Ideal)}
    (hg : AllReal g) (hga : AllReal ga) (hbe : AllReal be) : AllReal (normLin (F := Ideal) g ga be) := by
  unfold normLin
  exact allReal_addf
    (allReal_mulf
      (allReal_mulf
        (allReal_subf hg (allReal_broadcastInDim (allReal_broadcastInDim (allReal_meanOf hg) _ _) _ _))
        (allReal_broadcastInDim (allReal_broadcastInDim (allReal_invStd hg) _ _) _ _))
      (allReal_broadcastInDim (allReal_broadcastInDim hga _ _) _ _))
    (allReal_broadcastInDim (allReal_broadcastInDim hbe _ _) _ _)

/-- The normalisation (zero-clipped after) of all-real arrays is all-real. -/
theorem allReal_normRelu {g : (⟨S50000x256, .f32⟩ : BufTy).Contents (Elt Ideal)} {ga be : (⟨S256, .f32⟩ : BufTy).Contents (Elt Ideal)}
    (hg : AllReal g) (hga : AllReal ga) (hbe : AllReal be) : AllReal (normRelu (F := Ideal) g ga be) := by
  unfold normRelu
  exact allReal_maximumf
    (allReal_addf
      (allReal_mulf
        (allReal_mulf
          (allReal_subf hg (allReal_broadcastInDim (allReal_broadcastInDim (allReal_meanOf hg) _ _) _ _))
          (allReal_broadcastInDim (allReal_broadcastInDim (allReal_invStd hg) _ _) _ _))
        (allReal_broadcastInDim (allReal_broadcastInDim hga _ _) _ _))
      (allReal_broadcastInDim (allReal_broadcastInDim hbe _ _) _ _))
    (allReal_zeros _ _)

end Cert.Real
-- ==== Proof.LibFiniteInput.lean ====
import Idealize.ShloMosaic.Lib.ReduceAll
import Idealize.ShloMosaic.Lib.IdealHost
import Mathlib.Tactic

/-!
# "Every entry is finite", read back

A finiteness test of an array of extended reals compares the absolute value max x (-x) of each entry
with the f32 pattern of +infinity, which denotes the top element, and reduces the comparisons by
"and". If the reduction is 1 then every entry is strictly between the two infinities, that is, the
coercion of a real number.
-/

namespace Cert.Lib

open Idealize.ShloMosaic

/-- The f32 pattern 0x7F800000 (+infinity) denotes the top extended real. -/
theorem ofBits_f32_inf : Ideal.ofBits .f32 0x7F800000#32 = (⊤ : EReal) := by
  simp [Ideal.ofBits, Ideal.ieee]

/-- An extended real whose absolute value is below the top is a real. -/
theorem exists_real_of_abs_lt_top {x : EReal} (h : max x (-x) < ⊤) : ∃ r : ℝ, x = (r : EReal) := by
  induction x using EReal.rec with
  | bot => simp at h
  | top => simp at h
  | coe r => exact ⟨r, rfl⟩

/-- The comparison "absolute value < +infinity" being 1 says the entry is a real. -/
theorem exists_real_of_cmp_abs_olt_inf {x : EReal}
    (h : Ideal.cmp .olt (max x (-x)) (Ideal.ofBits .f32 0x7F800000#32) = 1#1) :
    ∃ r : ℝ, x = (r : EReal) := by
  rw [ofBits_f32_inf] at h
  apply exists_real_of_abs_lt_top
  by_contra hn
  simp [Ideal.cmp, hn] at h

/-- The array form: where the pointwise comparison of the host's absolute value with an array that is
+infinity everywhere is 1, the entry is a real. -/
theorem exists_real_of_cmpf_absf {s : Shape} (x c : FVec Ideal s .f32)
    (hc : ∀ i, c i = Ideal.ofBits .f32 0x7F800000#32) (i : s.Idx)
    (h : cmpf .olt (Host.absf x) c i = 1#1) : ∃ r : ℝ, x i = (r : EReal) := by
  apply exists_real_of_cmp_abs_olt_inf
  rw [← hc i]
  exact h

/-- **The whole test**: an "and"-reduction, into a result of one index, of the pointwise test
"absolute value < +infinity" that is 1 says every entry of the array is a real. -/
theorem forall_real_of_reduce_andi {s t u : Shape} {axes : List (Fin s.rank)} [Subsingleton t.Idx]
    (x c : FVec Ideal s .f32) (hc : ∀ i, c i = Ideal.ofBits .f32 0x7F800000#32)
    (init : u.Idx → BitVec 1) (h : s.ReducesTo axes t) (hu : 0 < u.numel) (j : t.Idx)
    (e : Host.reduce IntOp.andi (cmpf .olt (Host.absf x) c) init h hu j = 1#1) :
    ∀ i, ∃ r : ℝ, x i = (r : EReal) := fun i =>
  exists_real_of_cmpf_absf x c hc i (Host.reduce_andi_all _ init h hu j e i)

/-- A conjunction of two one-bit words that is 1 has both words 1 (a vector "and" read at an index). -/
theorem andi_apply_eq_one {s : Shape} (a b : IVec s 1) (i : s.Idx) (h : andi a b i = 1#1) :
    a i = 1#1 ∧ b i = 1#1 :=
  IntOp.andi_eq_one.1 h

end Cert.Lib
-- ==== Proof.RealPre.lean ====
/-
  From the precondition to real inputs. The precondition says that a printed test of the ten argument arrays is 1: for
  each float argument, "the absolute value of every entry is below +infinity", reduced by "and" over the whole array,
  and the conjunction of the nine tests. Read back: the conjunction being 1 makes each test 1, a test being 1 makes every
  comparison 1, and an extended real whose absolute value is below the top is a real number. So every float argument is
  an array of reals. (The edge list is an integer array and has no test.)
-/
import proofs.«162580_j71794673320191_1_alg».proof.Defs
import proofs.«162580_j71794673320191_1_alg».proof.Proof.LibRealClosed
import proofs.«162580_j71794673320191_1_alg».proof.Proof.LibFiniteInput

namespace Cert.Real

open Idealize.ShloMosaic Idealize.SL.Sem Cert.Lib Cert.Pre_finite_inputs

/-- A shape of rank zero has exactly one index. -/
instance subsingleton_S_Idx : Subsingleton S_.Idx := ⟨fun _ _ => funext fun d => d.elim0⟩

/-- One test that came out 1: every entry of the array is a real. -/
theorem allReal_of_test {s : Shape} {axes : List (Fin s.rank)} (x : FVec Ideal s .f32)
    (hb : S_.BroadcastsInDim s (![] : Fin 0 → Fin s.rank)) (h : s.ReducesTo axes S_) (hu : 0 < S_.numel)
    (e : Host.reduce IntOp.andi
        (cmpf .olt (Host.absf x) (broadcastInDim s ![] hb (constant (F := Ideal) S_ .f32 0x7F800000#32)))
        (constantI S_ 1 1#1) h hu ValueIdx.ix0 = 1#1) : AllReal x :=
  forall_real_of_reduce_andi x _ (fun _ => rfl) _ h hu ValueIdx.ix0 e

/-- The printed test of ten arrays being 1 everywhere makes each of the nine float arrays all-real. -/
theorem real_of_fn [Facts] (a0 : FVec Ideal S50000x64 .f32) (a1 : IVec S2x300000 32) (a2 : FVec Ideal S64x256 .f32)
    (a3 : FVec Ideal S256 .f32) (a4 : FVec Ideal S3x3x256x256 .f32) (a5 : FVec Ideal S3x3x256 .f32)
    (a6 : FVec Ideal S3x3x256x256 .f32) (a7 : FVec Ideal S3x3x256 .f32) (a8 a9 : FVec Ideal S3x256 .f32)
    (e : fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 ∧ AllReal a8
      ∧ AllReal a9 := by
  have e0 := congrFun e ValueIdx.ix0
  unfold fn fn_part1 fn_part2 at e0
  dsimp only at e0
  obtain ⟨e0, t9⟩ := andi_apply_eq_one _ _ _ e0
  obtain ⟨e0, t8⟩ := andi_apply_eq_one _ _ _ e0
  obtain ⟨e0, t7⟩ := andi_apply_eq_one _ _ _ e0
  obtain ⟨e0, t6⟩ := andi_apply_eq_one _ _ _ e0
  obtain ⟨e0, t5⟩ := andi_apply_eq_one _ _ _ e0
  obtain ⟨e0, t4⟩ := andi_apply_eq_one _ _ _ e0
  obtain ⟨e0, t3⟩ := andi_apply_eq_one _ _ _ e0
  obtain ⟨t0, t2⟩ := andi_apply_eq_one _ _ _ e0
  exact ⟨allReal_of_test a0 _ _ _ t0, allReal_of_test a2 _ _ _ t2, allReal_of_test a3 _ _ _ t3,
    allReal_of_test a4 _ _ _ t4, allReal_of_test a5 _ _ _ t5, allReal_of_test a6 _ _ _ t6,
    allReal_of_test a7 _ _ _ t7, allReal_of_test a8 _ _ _ t8, allReal_of_test a9 _ _ _ t9⟩

/-- Under the precondition every float argument of the kernel's program is, on every device, an array of reals. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : FVec Ideal S50000x64 .f32)
      ∧ AllReal (m ((c.tc : Thread Cert.KernelIdeal.nD Cert.KernelIdeal.τ).loc Cert.KernelIdeal.main_arg2) : FVec Ideal S64x256 .f32)
      ∧ AllReal (m ((c.tc : Thread Cert.KernelIdeal.nD Cert.KernelIdeal.τ).loc Cert.KernelIdeal.main_arg3) : FVec Ideal S256 .f32)
      ∧ AllReal (m ((c.tc : Thread Cert.KernelIdeal.nD Cert.KernelIdeal.τ).loc Cert.KernelIdeal.main_arg4) : FVec Ideal S3x3x256x256 .f32)
      ∧ AllReal (m ((c.tc : Thread Cert.KernelIdeal.nD Cert.KernelIdeal.τ).loc Cert.KernelIdeal.main_arg5) : FVec Ideal S3x3x256 .f32)
      ∧ AllReal (m ((c.tc : Thread Cert.KernelIdeal.nD Cert.KernelIdeal.τ).loc Cert.KernelIdeal.main_arg6) : FVec Ideal S3x3x256x256 .f32)
      ∧ AllReal (m ((c.tc : Thread Cert.KernelIdeal.nD Cert.KernelIdeal.τ).loc Cert.KernelIdeal.main_arg7) : FVec Ideal S3x3x256 .f32)
      ∧ AllReal (m ((c.tc : Thread Cert.KernelIdeal.nD Cert.KernelIdeal.τ).loc Cert.KernelIdeal.main_arg8) : FVec Ideal S3x256 .f32)
      ∧ AllReal (m ((c.tc : Thread Cert.KernelIdeal.nD Cert.KernelIdeal.τ).loc Cert.KernelIdeal.main_arg9) : FVec Ideal S3x256 .f32) :=
  real_of_fn _ _ _ _ _ _ _ _ _ _ (h c)

end Cert.Real
-- ==== Proof.KStage.lean ====
/-
  The kernel side, stage by stage: after each region the region's output array is the network's corresponding stage as
  a function of the ten argument arrays. A dense region's output is the body's arithmetic block by block, which is the
  reference's spelling of the same layers entry by entry; a normalisation's output uses the mean row S/50000 and the
  variance Q/50000 - mean², which over real data is the mean of the centred squares.
-/
import proofs.«162580_j71794673320191_1_alg».proof.Proof.Run
import proofs.«162580_j71794673320191_1_alg».proof.Proof.KPersist
import proofs.«162580_j71794673320191_1_alg».proof.Proof.KRead1
import proofs.«162580_j71794673320191_1_alg».proof.Proof.KRead3
import proofs.«162580_j71794673320191_1_alg».proof.Proof.KRead5
import proofs.«162580_j71794673320191_1_alg».proof.Proof.KRead7
import proofs.«162580_j71794673320191_1_alg».proof.Proof.KRead10
import proofs.«162580_j71794673320191_1_alg».proof.Proof.KRead12
import proofs.«162580_j71794673320191_1_alg».proof.Proof.KRead14
import proofs.«162580_j71794673320191_1_alg».proof.Proof.KRead16
import proofs.«162580_j71794673320191_1_alg».proof.Proof.KRead19
import proofs.«162580_j71794673320191_1_alg».proof.Proof.KRead21
import proofs.«162580_j71794673320191_1_alg».proof.Proof.KRead23
import proofs.«162580_j71794673320191_1_alg».proof.Proof.KRead25
import proofs.«162580_j71794673320191_1_alg».proof.Proof.KRead28
import proofs.«162580_j71794673320191_1_alg».proof.Proof.Net
import proofs.«162580_j71794673320191_1_alg».proof.Proof.Value0
import proofs.«162580_j71794673320191_1_alg».proof.Proof.Value1
import proofs.«162580_j71794673320191_1_alg».proof.Proof.Value2
import proofs.«162580_j71794673320191_1_alg».proof.Proof.Value3
import proofs.«162580_j71794673320191_1_alg».proof.Proof.Value5
import proofs.«162580_j71794673320191_1_alg».proof.Proof.Value6
import proofs.«162580_j71794673320191_1_alg».proof.Proof.Value7
import proofs.«162580_j71794673320191_1_alg».proof.Proof.Value8
import proofs.«162580_j71794673320191_1_alg».proof.Proof.Value10
import proofs.«162580_j71794673320191_1_alg».proof.Proof.Value11
import proofs.«162580_j71794673320191_1_alg».proof.Proof.Value12
import proofs.«162580_j71794673320191_1_alg».proof.Proof.Value13
import proofs.«162580_j71794673320191_1_alg».proof.Proof.Value15
import proofs.«162580_j71794673320191_1_alg».proof.Proof.ValueR4
import proofs.«162580_j71794673320191_1_alg».proof.Proof.ValueR9
import proofs.«162580_j71794673320191_1_alg».proof.Proof.ValueR14
import proofs.«162580_j71794673320191_1_alg».proof.Proof.Bridge0
import proofs.«162580_j71794673320191_1_alg».proof.Proof.Bridge1
import proofs.«162580_j71794673320191_1_alg».proof.Proof.Bridge2
import proofs.«162580_j71794673320191_1_alg».proof.Proof.Bridge3
import proofs.«162580_j71794673320191_1_alg».proof.Proof.Bridge6
import proofs.«162580_j71794673320191_1_alg».proof.Proof.Bridge7
import proofs.«162580_j71794673320191_1_alg».proof.Proof.Bridge8
import proofs.«162580_j71794673320191_1_alg».proof.Proof.Bridge11
import proofs.«162580_j71794673320191_1_alg».proof.Proof.Bridge12
import proofs.«162580_j71794673320191_1_alg».proof.Proof.Bridge13
import proofs.«162580_j71794673320191_1_alg».proof.Proof.BridgeNorm5
import proofs.«162580_j71794673320191_1_alg».proof.Proof.BridgeNorm10
import proofs.«162580_j71794673320191_1_alg».proof.Proof.BridgeNorm15
import proofs.«162580_j71794673320191_1_alg».proof.Proof.ColSum4
import proofs.«162580_j71794673320191_1_alg».proof.Proof.ColSum9
import proofs.«162580_j71794673320191_1_alg».proof.Proof.ColSum14
import proofs.«162580_j71794673320191_1_alg».proof.Proof.RealShared
import proofs.«162580_j71794673320191_1_alg».proof.Proof.RealPre

set_option maxRecDepth 16384

noncomputable section

namespace Cert.KernelIdeal.Run

open Idealize.ShloMosaic Idealize.ShloMosaic.TcCoe Idealize.ShloMosaic.ValueIdx Idealize.SL Idealize.SL.Sem
open Idealize.ShloMosaic.Pipeline (Dat)
open Cert.KernelIdeal Cert.KernelIdeal.Gen Cert.Lib

variable (m : (ℓ : Loc nD τ sig) → Buf (Elt Ideal) ℓ) (ρ : Dev nD → PrngReg)

/-- The ten argument arrays as the launch memory holds them on core c. -/
def kArgs (c : Dev nD) : Cert.Shared.Args Ideal :=
  ⟨(m ((c : Thread nD τ).loc main_arg0)), (m ((c : Thread nD τ).loc main_arg1)), (m ((c : Thread nD τ).loc main_arg2)), (m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9))⟩

/-- The arguments are arrays of reals. -/
theorem kArgs_real [Cert.Pre_finite_inputs.Facts] (hm : Cert.Pre_KernelIdeal m) (c : Dev nD) :
    AllReal (kArgs m c).x ∧ AllReal (kArgs m c).wenc ∧ AllReal (kArgs m c).benc ∧ AllReal (kArgs m c).a4 ∧ AllReal (kArgs m c).a5
      ∧ AllReal (kArgs m c).a6 ∧ AllReal (kArgs m c).a7 ∧ AllReal (kArgs m c).a8 ∧ AllReal (kArgs m c).a9 :=
  Cert.Real.args_real m hm c

section Real
variable [Cert.Pre_finite_inputs.Facts] (hm : Cert.Pre_KernelIdeal m)
include hm

theorem real_st0 (c : Dev nD) : AllReal (Cert.Shared.st0 (kArgs m c)) := by
  obtain ⟨hx, hw, hb, h4, h5, h6, h7, h8, h9⟩ := kArgs_real m hm c
  exact Cert.Real.allReal_enc hx hw hb
theorem real_st1 (c : Dev nD) : AllReal (Cert.Shared.st1 (kArgs m c)) := by
  obtain ⟨hx, hw, hb, h4, h5, h6, h7, h8, h9⟩ := kArgs_real m hm c
  exact Cert.Real.allReal_mlpRelu (real_st0 m hm c) (Cert.Real.allReal_agg (real_st0 m hm c) _ _) (Cert.Real.allReal_w1_0 h4) (Cert.Real.allReal_b1_0 h5) (Cert.Real.allReal_w2_0 h6) (Cert.Real.allReal_b2_0 h7)
theorem real_st2 (c : Dev nD) : AllReal (Cert.Shared.st2 (kArgs m c)) := by
  obtain ⟨hx, hw, hb, h4, h5, h6, h7, h8, h9⟩ := kArgs_real m hm c
  exact Cert.Real.allReal_mlpRelu (real_st1 m hm c) (Cert.Real.allReal_agg (real_st1 m hm c) _ _) (Cert.Real.allReal_w1_1 h4) (Cert.Real.allReal_b1_1 h5) (Cert.Real.allReal_w2_1 h6) (Cert.Real.allReal_b2_1 h7)
theorem real_st3 (c : Dev nD) : AllReal (Cert.Shared.st3 (kArgs m c)) := by
  obtain ⟨hx, hw, hb, h4, h5, h6, h7, h8, h9⟩ := kArgs_real m hm c
  exact Cert.Real.allReal_mlpLin (real_st2 m hm c) (Cert.Real.allReal_agg (real_st2 m hm c) _ _) (Cert.Real.allReal_w1_2 h4) (Cert.Real.allReal_b1_2 h5) (Cert.Real.allReal_w2_2 h6) (Cert.Real.allReal_b2_2 h7)
theorem real_st4 (c : Dev nD) : AllReal (Cert.Shared.st4 (kArgs m c)) := by
  obtain ⟨hx, hw, hb, h4, h5, h6, h7, h8, h9⟩ := kArgs_real m hm c
  exact Cert.Real.allReal_normRelu (real_st3 m hm c) (Cert.Real.allReal_ga_0 h8) (Cert.Real.allReal_be_0 h9)
theorem real_st5 (c : Dev nD) : AllReal (Cert.Shared.st5 (kArgs m c)) := by
  obtain ⟨hx, hw, hb, h4, h5, h6, h7, h8, h9⟩ := kArgs_real m hm c
  exact Cert.Real.allReal_mlpRelu (real_st4 m hm c) (Cert.Real.allReal_agg (real_st4 m hm c) _ _) (Cert.Real.allReal_w1_3 h4) (Cert.Real.allReal_b1_3 h5) (Cert.Real.allReal_w2_3 h6) (Cert.Real.allReal_b2_3 h7)
theorem real_st6 (c : Dev nD) : AllReal (Cert.Shared.st6 (kArgs m c)) := by
  obtain ⟨hx, hw, hb, h4, h5, h6, h7, h8, h9⟩ := kArgs_real m hm c
  exact Cert.Real.allReal_mlpRelu (real_st5 m hm c) (Cert.Real.allReal_agg (real_st5 m hm c) _ _) (Cert.Real.allReal_w1_4 h4) (Cert.Real.allReal_b1_4 h5) (Cert.Real.allReal_w2_4 h6) (Cert.Real.allReal_b2_4 h7)
theorem real_st7 (c : Dev nD) : AllReal (Cert.Shared.st7 (kArgs m c)) := by
  obtain ⟨hx, hw, hb, h4, h5, h6, h7, h8, h9⟩ := kArgs_real m hm c
  exact Cert.Real.allReal_mlpLin (real_st6 m hm c) (Cert.Real.allReal_agg (real_st6 m hm c) _ _) (Cert.Real.allReal_w1_5 h4) (Cert.Real.allReal_b1_5 h5) (Cert.Real.allReal_w2_5 h6) (Cert.Real.allReal_b2_5 h7)
theorem real_st8 (c : Dev nD) : AllReal (Cert.Shared.st8 (kArgs m c)) := by
  obtain ⟨hx, hw, hb, h4, h5, h6, h7, h8, h9⟩ := kArgs_real m hm c
  exact Cert.Real.allReal_normRelu (real_st7 m hm c) (Cert.Real.allReal_ga_1 h8) (Cert.Real.allReal_be_1 h9)
theorem real_st9 (c : Dev nD) : AllReal (Cert.Shared.st9 (kArgs m c)) := by
  obtain ⟨hx, hw, hb, h4, h5, h6, h7, h8, h9⟩ := kArgs_real m hm c
  exact Cert.Real.allReal_mlpRelu (real_st8 m hm c) (Cert.Real.allReal_agg (real_st8 m hm c) _ _) (Cert.Real.allReal_w1_6 h4) (Cert.Real.allReal_b1_6 h5) (Cert.Real.allReal_w2_6 h6) (Cert.Real.allReal_b2_6 h7)
theorem real_st10 (c : Dev nD) : AllReal (Cert.Shared.st10 (kArgs m c)) := by
  obtain ⟨hx, hw, hb, h4, h5, h6, h7, h8, h9⟩ := kArgs_real m hm c
  exact Cert.Real.allReal_mlpRelu (real_st9 m hm c) (Cert.Real.allReal_agg (real_st9 m hm c) _ _) (Cert.Real.allReal_w1_7 h4) (Cert.Real.allReal_b1_7 h5) (Cert.Real.allReal_w2_7 h6) (Cert.Real.allReal_b2_7 h7)
theorem real_st11 (c : Dev nD) : AllReal (Cert.Shared.st11 (kArgs m c)) := by
  obtain ⟨hx, hw, hb, h4, h5, h6, h7, h8, h9⟩ := kArgs_real m hm c
  exact Cert.Real.allReal_mlpLin (real_st10 m hm c) (Cert.Real.allReal_agg (real_st10 m hm c) _ _) (Cert.Real.allReal_w1_8 h4) (Cert.Real.allReal_b1_8 h5) (Cert.Real.allReal_w2_8 h6) (Cert.Real.allReal_b2_8 h7)
theorem real_st12 (c : Dev nD) : AllReal (Cert.Shared.st12 (kArgs m c)) := by
  obtain ⟨hx, hw, hb, h4, h5, h6, h7, h8, h9⟩ := kArgs_real m hm c
  exact Cert.Real.allReal_normLin (real_st11 m hm c) (Cert.Real.allReal_ga_2 h8) (Cert.Real.allReal_be_2 h9)

end Real

section Stages
variable [Cert.Pre_finite_inputs.Facts] (hm : Cert.Pre_KernelIdeal m)
include hm

/-- After the encoder's region. -/
theorem k_st0 (c : Dev nD) : W2 m ρ c (Proc.devRef .tc main_v5) = Cert.Shared.st0 (kArgs m c) := by
  refine (W2_arr m ρ c 3).trans ?_
  rw [R0.final]
  show R0.G (W1 m ρ c (Proc.devRef .tc main_arg0)) (W1 m ρ c (Proc.devRef .tc main_arg2)) (W1 m ρ c (Proc.devRef .tc main_v4)) = _
  rw [ps_arg0, ps_arg2, rd_bencrow]
  exact Cert.Bridge.enc_eq _ _ _

/-- After round 0's region. -/
theorem k_st1 (c : Dev nD) : W4 m ρ c (Proc.devRef .tc main_v26) = Cert.Shared.st1 (kArgs m c) := by
  refine (W4_arr m ρ c 6).trans ?_
  rw [R1.final]
  show R1.G (W3 m ρ c (Proc.devRef .tc main_v5)) (W3 m ρ c (Proc.devRef .tc main_v15)) (W3 m ρ c (Proc.devRef .tc main_v17)) (W3 m ρ c (Proc.devRef .tc main_v20)) (W3 m ρ c (Proc.devRef .tc main_v22)) (W3 m ρ c (Proc.devRef .tc main_v25)) = _
  rw [ps_g0, rd_agg0, rd_w1_0, rd_b1_0, rd_w2_0, rd_b2_0, ps_src0, ps_dst0, ps_arg4_0, ps_arg5_0, ps_arg6_0, ps_arg7_0, rd_src, rd_dst, k_st0 m ρ hm c]
  exact Cert.Bridge.mlp_eq1 _ _ _ _ _ _

/-- After round 1's region. -/
theorem k_st2 (c : Dev nD) : W6 m ρ c (Proc.devRef .tc main_v47) = Cert.Shared.st2 (kArgs m c) := by
  refine (W6_arr m ρ c 6).trans ?_
  rw [R2.final]
  show R2.G (W5 m ρ c (Proc.devRef .tc main_v26)) (W5 m ρ c (Proc.devRef .tc main_v36)) (W5 m ρ c (Proc.devRef .tc main_v38)) (W5 m ρ c (Proc.devRef .tc main_v41)) (W5 m ρ c (Proc.devRef .tc main_v43)) (W5 m ρ c (Proc.devRef .tc main_v46)) = _
  rw [ps_g1, rd_agg1, rd_w1_1, rd_b1_1, rd_w2_1, rd_b2_1, ps_src1, ps_dst1, ps_arg4_1, ps_arg5_1, ps_arg6_1, ps_arg7_1, rd_src, rd_dst, k_st1 m ρ hm c]
  exact Cert.Bridge.mlp_eq2 _ _ _ _ _ _

/-- After round 2's region. -/
theorem k_st3 (c : Dev nD) : W8 m ρ c (Proc.devRef .tc main_v68) = Cert.Shared.st3 (kArgs m c) := by
  refine (W8_arr m ρ c 6).trans ?_
  rw [R3.final]
  show R3.G (W7 m ρ c (Proc.devRef .tc main_v47)) (W7 m ρ c (Proc.devRef .tc main_v57)) (W7 m ρ c (Proc.devRef .tc main_v59)) (W7 m ρ c (Proc.devRef .tc main_v62)) (W7 m ρ c (Proc.devRef .tc main_v64)) (W7 m ρ c (Proc.devRef .tc main_v67)) = _
  rw [ps_g2, rd_agg2, rd_w1_2, rd_b1_2, rd_w2_2, rd_b2_2, ps_src2, ps_dst2, ps_arg4_2, ps_arg5_2, ps_arg6_2, ps_arg7_2, rd_src, rd_dst, k_st2 m ρ hm c]
  exact Cert.Bridge.mlp_eq3 _ _ _ _ _ _

/-- After layer 0's normalisation: the column sums over all rows, the kernel's mean and variance, and the variance identity over the real rows. -/
theorem k_st4 (c : Dev nD) : W11 m ρ c (Proc.devRef .tc main_v85) = Cert.Shared.st4 (kArgs m c) := by
  have hgv : (V8 m ρ c main_v68) = Cert.Shared.st3 (kArgs m c) := k_st3 m ρ hm c
  have hS : ∀ q : Fin 256, R4.sumTo (V8 m ρ) c 25 (ix2 0 q) = ∑ r : Fin 50000, Cert.Shared.st3 (kArgs m c) (ix2 r q) := fun q =>
    Cert.Bridge.colsum4_of (V8 m ρ) c _ hgv q
  have hQ : ∀ q : Fin 256, R4.sqTo (V8 m ρ) c 25 (ix2 0 q) = ∑ r : Fin 50000, Cert.Shared.st3 (kArgs m c) (ix2 r q) * Cert.Shared.st3 (kArgs m c) (ix2 r q) := fun q =>
    Cert.Bridge.colsq4_of (V8 m ρ) c _ hgv q
  refine (W11_arr m ρ c 5).trans ?_
  rw [R5.final]
  show R5.G (W10 m ρ c (Proc.devRef .tc main_v68)) (W10 m ρ c (Proc.devRef .tc main_v71)) (W10 m ρ c (Proc.devRef .tc main_v78)) (W10 m ρ c (Proc.devRef .tc main_v81)) (W10 m ρ c (Proc.devRef .tc main_v84)) = _
  rw [ps_gn0, rd_mean0, rd_inv0, rd_ga0, rd_be0, ps_arg8_n0, ps_arg9_n0,
    show W9 m ρ c (Proc.devRef .tc main_v69_0) = R4.sumTo (V8 m ρ) c 25 from (W9_arr m ρ c 1).trans (R4.final1 (V8 m ρ) c),
    show W9 m ρ c (Proc.devRef .tc main_v69_1) = R4.sqTo (V8 m ρ) c 25 from (W9_arr m ρ c 2).trans (R4.final2 (V8 m ρ) c),
    k_st3 m ρ hm c]
  exact Cert.Bridge.norm_eq5 _ _ _ _ _ hS hQ (fun i => real_st3 m hm c i)

/-- After round 3's region. -/
theorem k_st5 (c : Dev nD) : W13 m ρ c (Proc.devRef .tc main_v106) = Cert.Shared.st5 (kArgs m c) := by
  refine (W13_arr m ρ c 6).trans ?_
  rw [R6.final]
  show R6.G (W12 m ρ c (Proc.devRef .tc main_v85)) (W12 m ρ c (Proc.devRef .tc main_v95)) (W12 m ρ c (Proc.devRef .tc main_v97)) (W12 m ρ c (Proc.devRef .tc main_v100)) (W12 m ρ c (Proc.devRef .tc main_v102)) (W12 m ρ c (Proc.devRef .tc main_v105)) = _
  rw [ps_g3, rd_agg3, rd_w1_3, rd_b1_3, rd_w2_3, rd_b2_3, ps_src3, ps_dst3, ps_arg4_3, ps_arg5_3, ps_arg6_3, ps_arg7_3, rd_src, rd_dst, k_st4 m ρ hm c]
  exact Cert.Bridge.mlp_eq6 _ _ _ _ _ _

/-- After round 4's region. -/
theorem k_st6 (c : Dev nD) : W15 m ρ c (Proc.devRef .tc main_v127) = Cert.Shared.st6 (kArgs m c) := by
  refine (W15_arr m ρ c 6).trans ?_
  rw [R7.final]
  show R7.G (W14 m ρ c (Proc.devRef .tc main_v106)) (W14 m ρ c (Proc.devRef .tc main_v116)) (W14 m ρ c (Proc.devRef .tc main_v118)) (W14 m ρ c (Proc.devRef .tc main_v121)) (W14 m ρ c (Proc.devRef .tc main_v123)) (W14 m ρ c (Proc.devRef .tc main_v126)) = _
  rw [ps_g4, rd_agg4, rd_w1_4, rd_b1_4, rd_w2_4, rd_b2_4, ps_src4, ps_dst4, ps_arg4_4, ps_arg5_4, ps_arg6_4, ps_arg7_4, rd_src, rd_dst, k_st5 m ρ hm c]
  exact Cert.Bridge.mlp_eq7 _ _ _ _ _ _

/-- After round 5's region. -/
theorem k_st7 (c : Dev nD) : W17 m ρ c (Proc.devRef .tc main_v148) = Cert.Shared.st7 (kArgs m c) := by
  refine (W17_arr m ρ c 6).trans ?_
  rw [R8.final]
  show R8.G (W16 m ρ c (Proc.devRef .tc main_v127)) (W16 m ρ c (Proc.devRef .tc main_v137)) (W16 m ρ c (Proc.devRef .tc main_v139)) (W16 m ρ c (Proc.devRef .tc main_v142)) (W16 m ρ c (Proc.devRef .tc main_v144)) (W16 m ρ c (Proc.devRef .tc main_v147)) = _
  rw [ps_g5, rd_agg5, rd_w1_5, rd_b1_5, rd_w2_5, rd_b2_5, ps_src5, ps_dst5, ps_arg4_5, ps_arg5_5, ps_arg6_5, ps_arg7_5, rd_src, rd_dst, k_st6 m ρ hm c]
  exact Cert.Bridge.mlp_eq8 _ _ _ _ _ _

/-- After layer 1's normalisation: the column sums over all rows, the kernel's mean and variance, and the variance identity over the real rows. -/
theorem k_st8 (c : Dev nD) : W20 m ρ c (Proc.devRef .tc main_v165) = Cert.Shared.st8 (kArgs m c) := by
  have hgv : (V17 m ρ c main_v148) = Cert.Shared.st7 (kArgs m c) := k_st7 m ρ hm c
  have hS : ∀ q : Fin 256, R9.sumTo (V17 m ρ) c 25 (ix2 0 q) = ∑ r : Fin 50000, Cert.Shared.st7 (kArgs m c) (ix2 r q) := fun q =>
    Cert.Bridge.colsum9_of (V17 m ρ) c _ hgv q
  have hQ : ∀ q : Fin 256, R9.sqTo (V17 m ρ) c 25 (ix2 0 q) = ∑ r : Fin 50000, Cert.Shared.st7 (kArgs m c) (ix2 r q) * Cert.Shared.st7 (kArgs m c) (ix2 r q) := fun q =>
    Cert.Bridge.colsq9_of (V17 m ρ) c _ hgv q
  refine (W20_arr m ρ c 5).trans ?_
  rw [R10.final]
  show R10.G (W19 m ρ c (Proc.devRef .tc main_v148)) (W19 m ρ c (Proc.devRef .tc main_v151)) (W19 m ρ c (Proc.devRef .tc main_v158)) (W19 m ρ c (Proc.devRef .tc main_v161)) (W19 m ρ c (Proc.devRef .tc main_v164)) = _
  rw [ps_gn1, rd_mean1, rd_inv1, rd_ga1, rd_be1, ps_arg8_n1, ps_arg9_n1,
    show W18 m ρ c (Proc.devRef .tc main_v149_0) = R9.sumTo (V17 m ρ) c 25 from (W18_arr m ρ c 1).trans (R9.final1 (V17 m ρ) c),
    show W18 m ρ c (Proc.devRef .tc main_v149_1) = R9.sqTo (V17 m ρ) c 25 from (W18_arr m ρ c 2).trans (R9.final2 (V17 m ρ) c),
    k_st7 m ρ hm c]
  exact Cert.Bridge.norm_eq10 _ _ _ _ _ hS hQ (fun i => real_st7 m hm c i)

/-- After round 6's region. -/
theorem k_st9 (c : Dev nD) : W22 m ρ c (Proc.devRef .tc main_v186) = Cert.Shared.st9 (kArgs m c) := by
  refine (W22_arr m ρ c 6).trans ?_
  rw [R11.final]
  show R11.G (W21 m ρ c (Proc.devRef .tc main_v165)) (W21 m ρ c (Proc.devRef .tc main_v175)) (W21 m ρ c (Proc.devRef .tc main_v177)) (W21 m ρ c (Proc.devRef .tc main_v180)) (W21 m ρ c (Proc.devRef .tc main_v182)) (W21 m ρ c (Proc.devRef .tc main_v185)) = _
  rw [ps_g6, rd_agg6, rd_w1_6, rd_b1_6, rd_w2_6, rd_b2_6, ps_src6, ps_dst6, ps_arg4_6, ps_arg5_6, ps_arg6_6, ps_arg7_6, rd_src, rd_dst, k_st8 m ρ hm c]
  exact Cert.Bridge.mlp_eq11 _ _ _ _ _ _

/-- After round 7's region. -/
theorem k_st10 (c : Dev nD) : W24 m ρ c (Proc.devRef .tc main_v207) = Cert.Shared.st10 (kArgs m c) := by
  refine (W24_arr m ρ c 6).trans ?_
  rw [R12.final]
  show R12.G (W23 m ρ c (Proc.devRef .tc main_v186)) (W23 m ρ c (Proc.devRef .tc main_v196)) (W23 m ρ c (Proc.devRef .tc main_v198)) (W23 m ρ c (Proc.devRef .tc main_v201)) (W23 m ρ c (Proc.devRef .tc main_v203)) (W23 m ρ c (Proc.devRef .tc main_v206)) = _
  rw [ps_g7, rd_agg7, rd_w1_7, rd_b1_7, rd_w2_7, rd_b2_7, ps_src7, ps_dst7, ps_arg4_7, ps_arg5_7, ps_arg6_7, ps_arg7_7, rd_src, rd_dst, k_st9 m ρ hm c]
  exact Cert.Bridge.mlp_eq12 _ _ _ _ _ _

/-- After round 8's region. -/
theorem k_st11 (c : Dev nD) : W26 m ρ c (Proc.devRef .tc main_v228) = Cert.Shared.st11 (kArgs m c) := by
  refine (W26_arr m ρ c 6).trans ?_
  rw [R13.final]
  show R13.G (W25 m ρ c (Proc.devRef .tc main_v207)) (W25 m ρ c (Proc.devRef .tc main_v217)) (W25 m ρ c (Proc.devRef .tc main_v219)) (W25 m ρ c (Proc.devRef .tc main_v222)) (W25 m ρ c (Proc.devRef .tc main_v224)) (W25 m ρ c (Proc.devRef .tc main_v227)) = _
  rw [ps_g8, rd_agg8, rd_w1_8, rd_b1_8, rd_w2_8, rd_b2_8, ps_src8, ps_dst8, ps_arg4_8, ps_arg5_8, ps_arg6_8, ps_arg7_8, rd_src, rd_dst, k_st10 m ρ hm c]
  exact Cert.Bridge.mlp_eq13 _ _ _ _ _ _

/-- After layer 2's normalisation: the column sums over all rows, the kernel's mean and variance, and the variance identity over the real rows. -/
theorem k_st12 (c : Dev nD) : W29 m ρ c (Proc.devRef .tc main_v245) = Cert.Shared.st12 (kArgs m c) := by
  have hgv : (V26 m ρ c main_v228) = Cert.Shared.st11 (kArgs m c) := k_st11 m ρ hm c
  have hS : ∀ q : Fin 256, R14.sumTo (V26 m ρ) c 25 (ix2 0 q) = ∑ r : Fin 50000, Cert.Shared.st11 (kArgs m c) (ix2 r q) := fun q =>
    Cert.Bridge.colsum14_of (V26 m ρ) c _ hgv q
  have hQ : ∀ q : Fin 256, R14.sqTo (V26 m ρ) c 25 (ix2 0 q) = ∑ r : Fin 50000, Cert.Shared.st11 (kArgs m c) (ix2 r q) * Cert.Shared.st11 (kArgs m c) (ix2 r q) := fun q =>
    Cert.Bridge.colsq14_of (V26 m ρ) c _ hgv q
  refine (W29_arr m ρ c 5).trans ?_
  rw [R15.final]
  show R15.G (W28 m ρ c (Proc.devRef .tc main_v228)) (W28 m ρ c (Proc.devRef .tc main_v231)) (W28 m ρ c (Proc.devRef .tc main_v238)) (W28 m ρ c (Proc.devRef .tc main_v241)) (W28 m ρ c (Proc.devRef .tc main_v244)) = _
  rw [ps_gn2, rd_mean2, rd_inv2, rd_ga2, rd_be2, ps_arg8_n2, ps_arg9_n2,
    show W27 m ρ c (Proc.devRef .tc main_v229_0) = R14.sumTo (V26 m ρ) c 25 from (W27_arr m ρ c 1).trans (R14.final1 (V26 m ρ) c),
    show W27 m ρ c (Proc.devRef .tc main_v229_1) = R14.sqTo (V26 m ρ) c 25 from (W27_arr m ρ c 2).trans (R14.final2 (V26 m ρ) c),
    k_st11 m ρ hm c]
  exact Cert.Bridge.norm_eq15 _ _ _ _ _ hS hQ (fun i => real_st11 m hm c i)

end Stages

end Cert.KernelIdeal.Run

end
-- ==== Proof.RefAt.lean ====
/- The reference network, one operation at a time. The 473 host operations are in single-assignment order and write
   the table's buffers at places 10 … 482 in order, so after the whole line each buffer holds what its own operation computed
   from the contents, after the whole line, of its operands (the operands are written earlier and nothing written later
   touches them or the result). One equation per buffer: the buffer's final contents as the operation's function — the
   function printed in the program, applied — of its operands' final contents; the ten argument arrays hold what they held
   at the start. The operations of the variance helper and of the selection helper are read at the buffers of each of the
   three calls. -/
import proofs.«162580_j71794673320191_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem lt_length {p : Nat} (h : p < 473) : p < (ops : List (HloOp τ sig (Elt F))).length := by rw [ops_length]; exact h

section
variable (V : Valuation τ sig (Elt F))
set_option quotPrecheck false in
local notation:max "𝐑 " b:max => after ops V (Proc.devRef Proc.tc b)

theorem at_main_arg0 : (𝐑 main_arg0 : (⟨S50000x64, .f32⟩ : BufTy).Contents (Elt F)) = V (Proc.devRef Proc.tc main_arg0) := keep V main_arg0 (by decide)
theorem at_main_arg1 : (𝐑 main_arg1 : (⟨S2x300000, .i32⟩ : BufTy).Contents (Elt F)) = V (Proc.devRef Proc.tc main_arg1) := keep V main_arg1 (by decide)
theorem at_main_arg2 : (𝐑 main_arg2 : (⟨S64x256, .f32⟩ : BufTy).Contents (Elt F)) = V (Proc.devRef Proc.tc main_arg2) := keep V main_arg2 (by decide)
theorem at_main_arg3 : (𝐑 main_arg3 : (⟨S256, .f32⟩ : BufTy).Contents (Elt F)) = V (Proc.devRef Proc.tc main_arg3) := keep V main_arg3 (by decide)
theorem at_main_arg4 : (𝐑 main_arg4 : (⟨S3x3x256x256, .f32⟩ : BufTy).Contents (Elt F)) = V (Proc.devRef Proc.tc main_arg4) := keep V main_arg4 (by decide)
theorem at_main_arg5 : (𝐑 main_arg5 : (⟨S3x3x256, .f32⟩ : BufTy).Contents (Elt F)) = V (Proc.devRef Proc.tc main_arg5) := keep V main_arg5 (by decide)
theorem at_main_arg6 : (𝐑 main_arg6 : (⟨S3x3x256x256, .f32⟩ : BufTy).Contents (Elt F)) = V (Proc.devRef Proc.tc main_arg6) := keep V main_arg6 (by decide)
theorem at_main_arg7 : (𝐑 main_arg7 : (⟨S3x3x256, .f32⟩ : BufTy).Contents (Elt F)) = V (Proc.devRef Proc.tc main_arg7) := keep V main_arg7 (by decide)
theorem at_main_arg8 : (𝐑 main_arg8 : (⟨S3x256, .f32⟩ : BufTy).Contents (Elt F)) = V (Proc.devRef Proc.tc main_arg8) := keep V main_arg8 (by decide)
theorem at_main_arg9 : (𝐑 main_arg9 : (⟨S3x256, .f32⟩ : BufTy).Contents (Elt F)) = V (Proc.devRef Proc.tc main_arg9) := keep V main_arg9 (by decide)

theorem at_main_v0 : (𝐑 main_v0 : (⟨S1x300000, .i32⟩ : BufTy).Contents (Elt F)) = extractStridedSlice S1x300000 ![0, 0] (𝐑 main_arg1 : (⟨S2x300000, .i32⟩ : BufTy).Contents (Elt F)) slices_S2x300000_S1x300000_0_0 :=
  unary_read ops_chain 0 (lt_length (by decide)) main_arg1 main_v0 (f := ((extractStridedSlice S1x300000 ![0, 0] · slices_S2x300000_S1x300000_0_0) : (⟨S2x300000, .i32⟩ : BufTy).Contents (Elt F) → (⟨S1x300000, .i32⟩ : BufTy).Contents (Elt F))) (hop := rfl) (hkx := by decide) (V := V)

theorem at_main_v1 : (𝐑 main_v1 : (⟨S300000, .i32⟩ : BufTy).Contents (Elt F)) = shapeCast S300000 (𝐑 main_v0 : (⟨S1x300000, .i32⟩ : BufTy).Contents (Elt F)) shapeCasts_S1x300000_S300000 :=
  (reshape_read ops_chain 1 (lt_length (by decide)) main_v0 main_v1 shapeCasts_S1x300000_S300000 (hop := rfl) (hkx := by decide) (V := V)).trans rfl

theorem at_main_v2 : (𝐑 main_v2 : (⟨S1x300000, .i32⟩ : BufTy).Contents (Elt F)) = extractStridedSlice S1x300000 ![1, 0] (𝐑 main_arg1 : (⟨S2x300000, .i32⟩ : BufTy).Contents (Elt F)) slices_S2x300000_S1x300000_1_0 :=
  unary_read ops_chain 2 (lt_length (by decide)) main_arg1 main_v2 (f := ((extractStridedSlice S1x300000 ![1, 0] · slices_S2x300000_S1x300000_1_0) : (⟨S2x300000, .i32⟩ : BufTy).Contents (Elt F) → (⟨S1x300000, .i32⟩ : BufTy).Contents (Elt F))) (hop := rfl) (hkx := by decide) (V := V)

theorem at_main_v3 : (𝐑 main_v3 : (⟨S300000, .i32⟩ : BufTy).Contents (Elt F)) = shapeCast S300000 (𝐑 main_v2 : (⟨S1x300000, .i32⟩ : BufTy).Contents (Elt F)) shapeCasts_S1x300000_S300000 :=
  (reshape_read ops_chain 3 (lt_length (by decide)) main_v2 main_v3 shapeCasts_S1x300000_S300000 (hop := rfl) (hkx := by decide) (V := V)).trans rfl

theorem at_main_v4 : (𝐑 main_v4 : (⟨S50000x256, .f32⟩ : BufTy).Contents (Elt F)) = Host.dotGeneral dot_S50000x64_S64x256_S50000x256_1_0_0_1_n_n none (𝐑 main_arg0 : (⟨S50000x64, .f32⟩ : BufTy).Contents (Elt F)) (𝐑 main_arg2 : (⟨S64x256, .f32⟩ : BufTy).Contents (Elt F)) :=
  binary_read ops_chain 4 (lt_length (by decide)) main_arg0 main_arg2 main_v4 (f := ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F))) (hop := rfl) (hka := by decide) (hkb := by decide) (V := V)

theorem at_main_v5 : (𝐑 main_v5 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_arg3 : (⟨S256, .f32⟩ : BufTy).Contents (Elt F)) :=
  unary_read ops_chain 5 (lt_length (by decide)) main_arg3 main_v5 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v6 : (𝐑 main_v6 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v5 : (⟨S1x256, .f32⟩ : BufTy).Contents (Elt F)) :=
  unary_read ops_chain 6 (lt_length (by decide)) main_v5 main_v6 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v7 : (𝐑 main_v7 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v4 : (⟨S50000x256, .f32⟩ : BufTy).Contents (Elt F)) (𝐑 main_v6 : (⟨S50000x256, .f32⟩ : BufTy).Contents (Elt F)) :=
  binary_read ops_chain 7 (lt_length (by decide)) main_v4 main_v6 main_v7 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c : (𝐑 main_c : (⟨S_, .i32⟩ : BufTy).Contents (Elt F)) = (constantI S_ 32 0#32) :=
  nullary_read ops_chain 8 (lt_length (by decide)) main_c (hop := rfl) (V := V)

theorem at_main_v8 : (𝐑 main_v8 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c : (⟨S_, .i32⟩ : BufTy).Contents (Elt F)) :=
  unary_read ops_chain 9 (lt_length (by decide)) main_c main_v8 (f := (broadcastInDim S300000 ![] bcast_S_S300000 : (⟨S_, .i32⟩ : BufTy).Contents (Elt F) → (⟨S300000, .i32⟩ : BufTy).Contents (Elt F))) (hop := rfl) (hkx := by decide) (V := V)

theorem at_main_v9 : (𝐑 main_v9 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v8 : (⟨S300000, .i32⟩ : BufTy).Contents (Elt F)) :=
  binary_read ops_chain 10 (lt_length (by decide)) main_v1 main_v8 main_v9 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_0 : (𝐑 main_c_0 : (⟨S_, .i32⟩ : BufTy).Contents (Elt F)) = (constantI S_ 32 50000#32) :=
  nullary_read ops_chain 11 (lt_length (by decide)) main_c_0 (hop := rfl) (V := V)

theorem at_main_v10 : (𝐑 main_v10 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_0 : (⟨S_, .i32⟩ : BufTy).Contents (Elt F)) :=
  unary_read ops_chain 12 (lt_length (by decide)) main_c_0 main_v10 (f := (broadcastInDim S300000 ![] bcast_S_S300000 : (⟨S_, .i32⟩ : BufTy).Contents (Elt F) → (⟨S300000, .i32⟩ : BufTy).Contents (Elt F))) (hop := rfl) (hkx := by decide) (V := V)

theorem at_main_v11 : (𝐑 main_v11 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v10 : (⟨S300000, .i32⟩ : BufTy).Contents (Elt F)) :=
  binary_read ops_chain 13 (lt_length (by decide)) main_v1 main_v10 main_v11 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v12 : (𝐑 main_v12 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v9 : (⟨S300000, .i1⟩ : BufTy).Contents (Elt F)) (𝐑 main_v11 : (⟨S300000, .i32⟩ : BufTy).Contents (Elt F)) (𝐑 main_v1 : (⟨S300000, .i32⟩ : BufTy).Contents (Elt F)) :=
  ternary_read ops_chain 14 (lt_length (by decide)) main_v9 main_v11 main_v1 main_v12 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v13 : (𝐑 main_v13 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v12 : (⟨S300000, .i32⟩ : BufTy).Contents (Elt F)) :=
  unary_read ops_chain 15 (lt_length (by decide)) main_v12 main_v13 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v14 : (𝐑 main_v14 : (⟨S300000x256, .f32⟩ : BufTy).Contents (Elt F)) = Host.gather gather_S50000x256_S300000x1_S300000x256_1_0_n_n_0_1_1256 (𝐑 main_v7 : (⟨S50000x256, .f32⟩ : BufTy).Contents (Elt F)) (𝐑 main_v13 : (⟨S300000x1, .i32⟩ : BufTy).Contents (Elt F)) :=
  binary_read ops_chain 16 (lt_length (by decide)) main_v7 main_v13 main_v14 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst : (𝐑 main_cst : (⟨S_, .f32⟩ : BufTy).Contents (Elt F)) = (constant S_ .f32 0x00000000#32) :=
  nullary_read ops_chain 17 (lt_length (by decide)) main_cst (hop := rfl) (V := V)

theorem at_main_v15 : (𝐑 main_v15 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst : (⟨S_, .f32⟩ : BufTy).Contents (Elt F)) :=
  unary_read ops_chain 18 (lt_length (by decide)) main_cst main_v15 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v16 : (𝐑 main_v16 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 19 (lt_length (by decide)) main_v3 main_v16 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v17 : (𝐑 main_v17 : (⟨S50000x256, .f32⟩ : BufTy).Contents (Elt F)) = Host.scatterAdd scatter_S50000x256_S300000x1_S300000x256_1_0_0_1 (𝐑 main_v15 : (⟨S50000x256, .f32⟩ : BufTy).Contents (Elt F)) (𝐑 main_v16 : (⟨S300000x1, .i32⟩ : BufTy).Contents (Elt F)) (𝐑 main_v14 : (⟨S300000x256, .f32⟩ : BufTy).Contents (Elt F)) :=
  ternary_read ops_chain 20 (lt_length (by decide)) main_v15 main_v16 main_v14 main_v17 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v18 : (𝐑 main_v18 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v7 : (⟨S50000x256, .f32⟩ : BufTy).Contents (Elt F)) (𝐑 main_v17 : (⟨S50000x256, .f32⟩ : BufTy).Contents (Elt F)) :=
  binary_read ops_chain 21 (lt_length (by decide)) main_v7 main_v17 main_v18 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v19 : (𝐑 main_v19 : (⟨S1x1x256x256, .f32⟩ : BufTy).Contents (Elt F)) = extractStridedSlice S1x1x256x256 ![0, 0, 0, 0] (𝐑 main_arg4 : (⟨S3x3x256x256, .f32⟩ : BufTy).Contents (Elt F)) slices_S3x3x256x256_S1x1x256x256_0_0_0_0 :=
  unary_read ops_chain 22 (lt_length (by decide)) main_arg4 main_v19 (f := ((extractStridedSlice S1x1x256x256 ![0, 0, 0, 0] · slices_S3x3x256x256_S1x1x256x256_0_0_0_0) : (⟨S3x3x256x256, .f32⟩ : BufTy).Contents (Elt F) → (⟨S1x1x256x256, .f32⟩ : BufTy).Contents (Elt F))) (hop := rfl) (hkx := by decide) (V := V)

theorem at_main_v20 : (𝐑 main_v20 : (⟨S256x256, .f32⟩ : BufTy).Contents (Elt F)) = shapeCast S256x256 (𝐑 main_v19 : (⟨S1x1x256x256, .f32⟩ : BufTy).Contents (Elt F)) shapeCasts_S1x1x256x256_S256x256 :=
  (reshape_read ops_chain 23 (lt_length (by decide)) main_v19 main_v20 shapeCasts_S1x1x256x256_S256x256 (hop := rfl) (hkx := by decide) (V := V)).trans rfl

theorem at_main_v21 : (𝐑 main_v21 : (⟨S50000x256, .f32⟩ : BufTy).Contents (Elt F)) = Host.dotGeneral dot_S50000x256_S256x256_S50000x256_1_0_0_1_n_n none (𝐑 main_v18 : (⟨S50000x256, .f32⟩ : BufTy).Contents (Elt F)) (𝐑 main_v20 : (⟨S256x256, .f32⟩ : BufTy).Contents (Elt F)) :=
  binary_read ops_chain 24 (lt_length (by decide)) main_v18 main_v20 main_v21 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v22 : (𝐑 main_v22 : (⟨S1x1x256, .f32⟩ : BufTy).Contents (Elt F)) = extractStridedSlice S1x1x256 ![0, 0, 0] (𝐑 main_arg5 : (⟨S3x3x256, .f32⟩ : BufTy).Contents (Elt F)) slices_S3x3x256_S1x1x256_0_0_0 :=
  unary_read ops_chain 25 (lt_length (by decide)) main_arg5 main_v22 (f := ((extractStridedSlice S1x1x256 ![0, 0, 0] · slices_S3x3x256_S1x1x256_0_0_0) : (⟨S3x3x256, .f32⟩ : BufTy).Contents (Elt F) → (⟨S1x1x256, .f32⟩ : BufTy).Contents (Elt F))) (hop := rfl) (hkx := by decide) (V := V)

theorem at_main_v23 : (𝐑 main_v23 : (⟨S256, .f32⟩ : BufTy).Contents (Elt F)) = shapeCast S256 (𝐑 main_v22 : (⟨S1x1x256, .f32⟩ : BufTy).Contents (Elt F)) shapeCasts_S1x1x256_S256 :=
  (reshape_read ops_chain 26 (lt_length (by decide)) main_v22 main_v23 shapeCasts_S1x1x256_S256 (hop := rfl) (hkx := by decide) (V := V)).trans rfl

theorem at_main_v24 : (𝐑 main_v24 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v23 : (⟨S256, .f32⟩ : BufTy).Contents (Elt F)) :=
  unary_read ops_chain 27 (lt_length (by decide)) main_v23 main_v24 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v25 : (𝐑 main_v25 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v24 : (⟨S1x256, .f32⟩ : BufTy).Contents (Elt F)) :=
  unary_read ops_chain 28 (lt_length (by decide)) main_v24 main_v25 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v26 : (𝐑 main_v26 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v21 : (⟨S50000x256, .f32⟩ : BufTy).Contents (Elt F)) (𝐑 main_v25 : (⟨S50000x256, .f32⟩ : BufTy).Contents (Elt F)) :=
  binary_read ops_chain 29 (lt_length (by decide)) main_v21 main_v25 main_v26 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_1 : (𝐑 main_cst_1 : (⟨S_, .f32⟩ : BufTy).Contents (Elt F)) = (constant S_ .f32 0x00000000#32) :=
  nullary_read ops_chain 30 (lt_length (by decide)) main_cst_1 (hop := rfl) (V := V)

theorem at_main_v27 : (𝐑 main_v27 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_1 : (⟨S_, .f32⟩ : BufTy).Contents (Elt F)) :=
  unary_read ops_chain 31 (lt_length (by decide)) main_cst_1 main_v27 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v28 : (𝐑 main_v28 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v26 : (⟨S50000x256, .f32⟩ : BufTy).Contents (Elt F)) (𝐑 main_v27 : (⟨S50000x256, .f32⟩ : BufTy).Contents (Elt F)) :=
  binary_read ops_chain 32 (lt_length (by decide)) main_v26 main_v27 main_v28 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v29 : (𝐑 main_v29 : (⟨S1x1x256x256, .f32⟩ : BufTy).Contents (Elt F)) = extractStridedSlice S1x1x256x256 ![0, 0, 0, 0] (𝐑 main_arg6 : (⟨S3x3x256x256, .f32⟩ : BufTy).Contents (Elt F)) slices_S3x3x256x256_S1x1x256x256_0_0_0_0 :=
  unary_read ops_chain 33 (lt_length (by decide)) main_arg6 main_v29 (f := ((extractStridedSlice S1x1x256x256 ![0, 0, 0, 0] · slices_S3x3x256x256_S1x1x256x256_0_0_0_0) : (⟨S3x3x256x256, .f32⟩ : BufTy).Contents (Elt F) → (⟨S1x1x256x256, .f32⟩ : BufTy).Contents (Elt F))) (hop := rfl) (hkx := by decide) (V := V)

theorem at_main_v30 : (𝐑 main_v30 : (⟨S256x256, .f32⟩ : BufTy).Contents (Elt F)) = shapeCast S256x256 (𝐑 main_v29 : (⟨S1x1x256x256, .f32⟩ : BufTy).Contents (Elt F)) shapeCasts_S1x1x256x256_S256x256 :=
  (reshape_read ops_chain 34 (lt_length (by decide)) main_v29 main_v30 shapeCasts_S1x1x256x256_S256x256 (hop := rfl) (hkx := by decide) (V := V)).trans rfl

theorem at_main_v31 : (𝐑 main_v31 : (⟨S50000x256, .f32⟩ : BufTy).Contents (Elt F)) = Host.dotGeneral dot_S50000x256_S256x256_S50000x256_1_0_0_1_n_n none (𝐑 main_v28 : (⟨S50000x256, .f32⟩ : BufTy).Contents (Elt F)) (𝐑 main_v30 : (⟨S256x256, .f32⟩ : BufTy).Contents (Elt F)) :=
  binary_read ops_chain 35 (lt_length (by decide)) main_v28 main_v30 main_v31 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v32 : (𝐑 main_v32 : (⟨S1x1x256, .f32⟩ : BufTy).Contents (Elt F)) = extractStridedSlice S1x1x256 ![0, 0, 0] (𝐑 main_arg7 : (⟨S3x3x256, .f32⟩ : BufTy).Contents (Elt F)) slices_S3x3x256_S1x1x256_0_0_0 :=
  unary_read ops_chain 36 (lt_length (by decide)) main_arg7 main_v32 (f := ((extractStridedSlice S1x1x256 ![0, 0, 0] · slices_S3x3x256_S1x1x256_0_0_0) : (⟨S3x3x256, .f32⟩ : BufTy).Contents (Elt F) → (⟨S1x1x256, .f32⟩ : BufTy).Contents (Elt F))) (hop := rfl) (hkx := by decide) (V := V)

theorem at_main_v33 : (𝐑 main_v33 : (⟨S256, .f32⟩ : BufTy).Contents (Elt F)) = shapeCast S256 (𝐑 main_v32 : (⟨S1x1x256, .f32⟩ : BufTy).Contents (Elt F)) shapeCasts_S1x1x256_S256 :=
  (reshape_read ops_chain 37 (lt_length (by decide)) main_v32 main_v33 shapeCasts_S1x1x256_S256 (hop := rfl) (hkx := by decide) (V := V)).trans rfl

theorem at_main_v34 : (𝐑 main_v34 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v33 : (⟨S256, .f32⟩ : BufTy).Contents (Elt F)) :=
  unary_read ops_chain 38 (lt_length (by decide)) main_v33 main_v34 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v35 : (𝐑 main_v35 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v34 : (⟨S1x256, .f32⟩ : BufTy).Contents (Elt F)) :=
  unary_read ops_chain 39 (lt_length (by decide)) main_v34 main_v35 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v36 : (𝐑 main_v36 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v31 : (⟨S50000x256, .f32⟩ : BufTy).Contents (Elt F)) (𝐑 main_v35 : (⟨S50000x256, .f32⟩ : BufTy).Contents (Elt F)) :=
  binary_read ops_chain 40 (lt_length (by decide)) main_v31 main_v35 main_v36 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_2 : (𝐑 main_cst_2 : (⟨S_, .f32⟩ : BufTy).Contents (Elt F)) = (constant S_ .f32 0x00000000#32) :=
  nullary_read ops_chain 41 (lt_length (by decide)) main_cst_2 (hop := rfl) (V := V)

theorem at_main_v37 : (𝐑 main_v37 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_2 : (⟨S_, .f32⟩ : BufTy).Contents (Elt F)) :=
  unary_read ops_chain 42 (lt_length (by decide)) main_cst_2 main_v37 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v38 : (𝐑 main_v38 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v36 : (⟨S50000x256, .f32⟩ : BufTy).Contents (Elt F)) (𝐑 main_v37 : (⟨S50000x256, .f32⟩ : BufTy).Contents (Elt F)) :=
  binary_read ops_chain 43 (lt_length (by decide)) main_v36 main_v37 main_v38 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_3 : (𝐑 main_c_3 : (⟨S_, .i32⟩ : BufTy).Contents (Elt F)) = (constantI S_ 32 0#32) :=
  nullary_read ops_chain 44 (lt_length (by decide)) main_c_3 (hop := rfl) (V := V)

theorem at_main_v39 : (𝐑 main_v39 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_3 : (⟨S_, .i32⟩ : BufTy).Contents (Elt F)) :=
  unary_read ops_chain 45 (lt_length (by decide)) main_c_3 main_v39 (f := (broadcastInDim S300000 ![] bcast_S_S300000 : (⟨S_, .i32⟩ : BufTy).Contents (Elt F) → (⟨S300000, .i32⟩ : BufTy).Contents (Elt F))) (hop := rfl) (hkx := by decide) (V := V)

theorem at_main_v40 : (𝐑 main_v40 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v39 : (⟨S300000, .i32⟩ : BufTy).Contents (Elt F)) :=
  binary_read ops_chain 46 (lt_length (by decide)) main_v1 main_v39 main_v40 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_4 : (𝐑 main_c_4 : (⟨S_, .i32⟩ : BufTy).Contents (Elt F)) = (constantI S_ 32 50000#32) :=
  nullary_read ops_chain 47 (lt_length (by decide)) main_c_4 (hop := rfl) (V := V)

theorem at_main_v41 : (𝐑 main_v41 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_4 : (⟨S_, .i32⟩ : BufTy).Contents (Elt F)) :=
  unary_read ops_chain 48 (lt_length (by decide)) main_c_4 main_v41 (f := (broadcastInDim S300000 ![] bcast_S_S300000 : (⟨S_, .i32⟩ : BufTy).Contents (Elt F) → (⟨S300000, .i32⟩ : BufTy).Contents (Elt F))) (hop := rfl) (hkx := by decide) (V := V)

theorem at_main_v42 : (𝐑 main_v42 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v41 : (⟨S300000, .i32⟩ : BufTy).Contents (Elt F)) :=
  binary_read ops_chain 49 (lt_length (by decide)) main_v1 main_v41 main_v42 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v43 : (𝐑 main_v43 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v40 : (⟨S300000, .i1⟩ : BufTy).Contents (Elt F)) (𝐑 main_v42 : (⟨S300000, .i32⟩ : BufTy).Contents (Elt F)) (𝐑 main_v1 : (⟨S300000, .i32⟩ : BufTy).Contents (Elt F)) :=
  ternary_read ops_chain 50 (lt_length (by decide)) main_v40 main_v42 main_v1 main_v43 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v44 : (𝐑 main_v44 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v43 : (⟨S300000, .i32⟩ : BufTy).Contents (Elt F)) :=
  unary_read ops_chain 51 (lt_length (by decide)) main_v43 main_v44 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v45 : (𝐑 main_v45 : (⟨S300000x256, .f32⟩ : BufTy).Contents (Elt F)) = Host.gather gather_S50000x256_S300000x1_S300000x256_1_0_n_n_0_1_1256 (𝐑 main_v38 : (⟨S50000x256, .f32⟩ : BufTy).Contents (Elt F)) (𝐑 main_v44 : (⟨S300000x1, .i32⟩ : BufTy).Contents (Elt F)) :=
  binary_read ops_chain 52 (lt_length (by decide)) main_v38 main_v44 main_v45 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_5 : (𝐑 main_cst_5 : (⟨S_, .f32⟩ : BufTy).Contents (Elt F)) = (constant S_ .f32 0x00000000#32) :=
  nullary_read ops_chain 53 (lt_length (by decide)) main_cst_5 (hop := rfl) (V := V)

theorem at_main_v46 : (𝐑 main_v46 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_5 : (⟨S_, .f32⟩ : BufTy).Contents (Elt F)) :=
  unary_read ops_chain 54 (lt_length (by decide)) main_cst_5 main_v46 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v47 : (𝐑 main_v47 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 55 (lt_length (by decide)) main_v3 main_v47 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v48 : (𝐑 main_v48 : (⟨S50000x256, .f32⟩ : BufTy).Contents (Elt F)) = Host.scatterAdd scatter_S50000x256_S300000x1_S300000x256_1_0_0_1 (𝐑 main_v46 : (⟨S50000x256, .f32⟩ : BufTy).Contents (Elt F)) (𝐑 main_v47 : (⟨S300000x1, .i32⟩ : BufTy).Contents (Elt F)) (𝐑 main_v45 : (⟨S300000x256, .f32⟩ : BufTy).Contents (Elt F)) :=
  ternary_read ops_chain 56 (lt_length (by decide)) main_v46 main_v47 main_v45 main_v48 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v49 : (𝐑 main_v49 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v38 : (⟨S50000x256, .f32⟩ : BufTy).Contents (Elt F)) (𝐑 main_v48 : (⟨S50000x256, .f32⟩ : BufTy).Contents (Elt F)) :=
  binary_read ops_chain 57 (lt_length (by decide)) main_v38 main_v48 main_v49 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v50 : (𝐑 main_v50 : (⟨S1x1x256x256, .f32⟩ : BufTy).Contents (Elt F)) = extractStridedSlice S1x1x256x256 ![0, 1, 0, 0] (𝐑 main_arg4 : (⟨S3x3x256x256, .f32⟩ : BufTy).Contents (Elt F)) slices_S3x3x256x256_S1x1x256x256_0_1_0_0 :=
  unary_read ops_chain 58 (lt_length (by decide)) main_arg4 main_v50 (f := ((extractStridedSlice S1x1x256x256 ![0, 1, 0, 0] · slices_S3x3x256x256_S1x1x256x256_0_1_0_0) : (⟨S3x3x256x256, .f32⟩ : BufTy).Contents (Elt F) → (⟨S1x1x256x256, .f32⟩ : BufTy).Contents (Elt F))) (hop := rfl) (hkx := by decide) (V := V)

theorem at_main_v51 : (𝐑 main_v51 : (⟨S256x256, .f32⟩ : BufTy).Contents (Elt F)) = shapeCast S256x256 (𝐑 main_v50 : (⟨S1x1x256x256, .f32⟩ : BufTy).Contents (Elt F)) shapeCasts_S1x1x256x256_S256x256 :=
  (reshape_read ops_chain 59 (lt_length (by decide)) main_v50 main_v51 shapeCasts_S1x1x256x256_S256x256 (hop := rfl) (hkx := by decide) (V := V)).trans rfl

theorem at_main_v52 : (𝐑 main_v52 : (⟨S50000x256, .f32⟩ : BufTy).Contents (Elt F)) = Host.dotGeneral dot_S50000x256_S256x256_S50000x256_1_0_0_1_n_n none (𝐑 main_v49 : (⟨S50000x256, .f32⟩ : BufTy).Contents (Elt F)) (𝐑 main_v51 : (⟨S256x256, .f32⟩ : BufTy).Contents (Elt F)) :=
  binary_read ops_chain 60 (lt_length (by decide)) main_v49 main_v51 main_v52 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v53 : (𝐑 main_v53 : (⟨S1x1x256, .f32⟩ : BufTy).Contents (Elt F)) = extractStridedSlice S1x1x256 ![0, 1, 0] (𝐑 main_arg5 : (⟨S3x3x256, .f32⟩ : BufTy).Contents (Elt F)) slices_S3x3x256_S1x1x256_0_1_0 :=
  unary_read ops_chain 61 (lt_length (by decide)) main_arg5 main_v53 (f := ((extractStridedSlice S1x1x256 ![0, 1, 0] · slices_S3x3x256_S1x1x256_0_1_0) : (⟨S3x3x256, .f32⟩ : BufTy).Contents (Elt F) → (⟨S1x1x256, .f32⟩ : BufTy).Contents (Elt F))) (hop := rfl) (hkx := by decide) (V := V)

theorem at_main_v54 : (𝐑 main_v54 : (⟨S256, .f32⟩ : BufTy).Contents (Elt F)) = shapeCast S256 (𝐑 main_v53 : (⟨S1x1x256, .f32⟩ : BufTy).Contents (Elt F)) shapeCasts_S1x1x256_S256 :=
  (reshape_read ops_chain 62 (lt_length (by decide)) main_v53 main_v54 shapeCasts_S1x1x256_S256 (hop := rfl) (hkx := by decide) (V := V)).trans rfl

theorem at_main_v55 : (𝐑 main_v55 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v54 : (⟨S256, .f32⟩ : BufTy).Contents (Elt F)) :=
  unary_read ops_chain 63 (lt_length (by decide)) main_v54 main_v55 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v56 : (𝐑 main_v56 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v55 : (⟨S1x256, .f32⟩ : BufTy).Contents (Elt F)) :=
  unary_read ops_chain 64 (lt_length (by decide)) main_v55 main_v56 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v57 : (𝐑 main_v57 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v52 : (⟨S50000x256, .f32⟩ : BufTy).Contents (Elt F)) (𝐑 main_v56 : (⟨S50000x256, .f32⟩ : BufTy).Contents (Elt F)) :=
  binary_read ops_chain 65 (lt_length (by decide)) main_v52 main_v56 main_v57 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_6 : (𝐑 main_cst_6 : (⟨S_, .f32⟩ : BufTy).Contents (Elt F)) = (constant S_ .f32 0x00000000#32) :=
  nullary_read ops_chain 66 (lt_length (by decide)) main_cst_6 (hop := rfl) (V := V)

theorem at_main_v58 : (𝐑 main_v58 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_6 : (⟨S_, .f32⟩ : BufTy).Contents (Elt F)) :=
  unary_read ops_chain 67 (lt_length (by decide)) main_cst_6 main_v58 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v59 : (𝐑 main_v59 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v57 : (⟨S50000x256, .f32⟩ : BufTy).Contents (Elt F)) (𝐑 main_v58 : (⟨S50000x256, .f32⟩ : BufTy).Contents (Elt F)) :=
  binary_read ops_chain 68 (lt_length (by decide)) main_v57 main_v58 main_v59 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v60 : (𝐑 main_v60 : (⟨S1x1x256x256, .f32⟩ : BufTy).Contents (Elt F)) = extractStridedSlice S1x1x256x256 ![0, 1, 0, 0] (𝐑 main_arg6 : (⟨S3x3x256x256, .f32⟩ : BufTy).Contents (Elt F)) slices_S3x3x256x256_S1x1x256x256_0_1_0_0 :=
  unary_read ops_chain 69 (lt_length (by decide)) main_arg6 main_v60 (f := ((extractStridedSlice S1x1x256x256 ![0, 1, 0, 0] · slices_S3x3x256x256_S1x1x256x256_0_1_0_0) : (⟨S3x3x256x256, .f32⟩ : BufTy).Contents (Elt F) → (⟨S1x1x256x256, .f32⟩ : BufTy).Contents (Elt F))) (hop := rfl) (hkx := by decide) (V := V)

theorem at_main_v61 : (𝐑 main_v61 : (⟨S256x256, .f32⟩ : BufTy).Contents (Elt F)) = shapeCast S256x256 (𝐑 main_v60 : (⟨S1x1x256x256, .f32⟩ : BufTy).Contents (Elt F)) shapeCasts_S1x1x256x256_S256x256 :=
  (reshape_read ops_chain 70 (lt_length (by decide)) main_v60 main_v61 shapeCasts_S1x1x256x256_S256x256 (hop := rfl) (hkx := by decide) (V := V)).trans rfl

theorem at_main_v62 : (𝐑 main_v62 : (⟨S50000x256, .f32⟩ : BufTy).Contents (Elt F)) = Host.dotGeneral dot_S50000x256_S256x256_S50000x256_1_0_0_1_n_n none (𝐑 main_v59 : (⟨S50000x256, .f32⟩ : BufTy).Contents (Elt F)) (𝐑 main_v61 : (⟨S256x256, .f32⟩ : BufTy).Contents (Elt F)) :=
  binary_read ops_chain 71 (lt_length (by decide)) main_v59 main_v61 main_v62 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v63 : (𝐑 main_v63 : (⟨S1x1x256, .f32⟩ : BufTy).Contents (Elt F)) = extractStridedSlice S1x1x256 ![0, 1, 0] (𝐑 main_arg7 : (⟨S3x3x256, .f32⟩ : BufTy).Contents (Elt F)) slices_S3x3x256_S1x1x256_0_1_0 :=
  unary_read ops_chain 72 (lt_length (by decide)) main_arg7 main_v63 (f := ((extractStridedSlice S1x1x256 ![0, 1, 0] · slices_S3x3x256_S1x1x256_0_1_0) : (⟨S3x3x256, .f32⟩ : BufTy).Contents (Elt F) → (⟨S1x1x256, .f32⟩ : BufTy).Contents (Elt F))) (hop := rfl) (hkx := by decide) (V := V)

theorem at_main_v64 : (𝐑 main_v64 : (⟨S256, .f32⟩ : BufTy).Contents (Elt F)) = shapeCast S256 (𝐑 main_v63 : (⟨S1x1x256, .f32⟩ : BufTy).Contents (Elt F)) shapeCasts_S1x1x256_S256 :=
  (reshape_read ops_chain 73 (lt_length (by decide)) main_v63 main_v64 shapeCasts_S1x1x256_S256 (hop := rfl) (hkx := by decide) (V := V)).trans rfl

theorem at_main_v65 : (𝐑 main_v65 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v64 : (⟨S256, .f32⟩ : BufTy).Contents (Elt F)) :=
  unary_read ops_chain 74 (lt_length (by decide)) main_v64 main_v65 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v66 : (𝐑 main_v66 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v65 : (⟨S1x256, .f32⟩ : BufTy).Contents (Elt F)) :=
  unary_read ops_chain 75 (lt_length (by decide)) main_v65 main_v66 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v67 : (𝐑 main_v67 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v62 : (⟨S50000x256, .f32⟩ : BufTy).Contents (Elt F)) (𝐑 main_v66 : (⟨S50000x256, .f32⟩ : BufTy).Contents (Elt F)) :=
  binary_read ops_chain 76 (lt_length (by decide)) main_v62 main_v66 main_v67 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_7 : (𝐑 main_cst_7 : (⟨S_, .f32⟩ : BufTy).Contents (Elt F)) = (constant S_ .f32 0x00000000#32) :=
  nullary_read ops_chain 77 (lt_length (by decide)) main_cst_7 (hop := rfl) (V := V)

theorem at_main_v68 : (𝐑 main_v68 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_7 : (⟨S_, .f32⟩ : BufTy).Contents (Elt F)) :=
  unary_read ops_chain 78 (lt_length (by decide)) main_cst_7 main_v68 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v69 : (𝐑 main_v69 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v67 : (⟨S50000x256, .f32⟩ : BufTy).Contents (Elt F)) (𝐑 main_v68 : (⟨S50000x256, .f32⟩ : BufTy).Contents (Elt F)) :=
  binary_read ops_chain 79 (lt_length (by decide)) main_v67 main_v68 main_v69 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_8 : (𝐑 main_c_8 : (⟨S_, .i32⟩ : BufTy).Contents (Elt F)) = (constantI S_ 32 0#32) :=
  nullary_read ops_chain 80 (lt_length (by decide)) main_c_8 (hop := rfl) (V := V)

theorem at_main_v70 : (𝐑 main_v70 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_8 : (⟨S_, .i32⟩ : BufTy).Contents (Elt F)) :=
  unary_read ops_chain 81 (lt_length (by decide)) main_c_8 main_v70 (f := (broadcastInDim S300000 ![] bcast_S_S300000 : (⟨S_, .i32⟩ : BufTy).Contents (Elt F) → (⟨S300000, .i32⟩ : BufTy).Contents (Elt F))) (hop := rfl) (hkx := by decide) (V := V)

theorem at_main_v71 : (𝐑 main_v71 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v70 : (⟨S300000, .i32⟩ : BufTy).Contents (Elt F)) :=
  binary_read ops_chain 82 (lt_length (by decide)) main_v1 main_v70 main_v71 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_9 : (𝐑 main_c_9 : (⟨S_, .i32⟩ : BufTy).Contents (Elt F)) = (constantI S_ 32 50000#32) :=
  nullary_read ops_chain 83 (lt_length (by decide)) main_c_9 (hop := rfl) (V := V)

theorem at_main_v72 : (𝐑 main_v72 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_9 : (⟨S_, .i32⟩ : BufTy).Contents (Elt F)) :=
  unary_read ops_chain 84 (lt_length (by decide)) main_c_9 main_v72 (f := (broadcastInDim S300000 ![] bcast_S_S300000 : (⟨S_, .i32⟩ : BufTy).Contents (Elt F) → (⟨S300000, .i32⟩ : BufTy).Contents (Elt F))) (hop := rfl) (hkx := by decide) (V := V)

theorem at_main_v73 : (𝐑 main_v73 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v72 : (⟨S300000, .i32⟩ : BufTy).Contents (Elt F)) :=
  binary_read ops_chain 85 (lt_length (by decide)) main_v1 main_v72 main_v73 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v74 : (𝐑 main_v74 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v71 : (⟨S300000, .i1⟩ : BufTy).Contents (Elt F)) (𝐑 main_v73 : (⟨S300000, .i32⟩ : BufTy).Contents (Elt F)) (𝐑 main_v1 : (⟨S300000, .i32⟩ : BufTy).Contents (Elt F)) :=
  ternary_read ops_chain 86 (lt_length (by decide)) main_v71 main_v73 main_v1 main_v74 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v75 : (𝐑 main_v75 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v74 : (⟨S300000, .i32⟩ : BufTy).Contents (Elt F)) :=
  unary_read ops_chain 87 (lt_length (by decide)) main_v74 main_v75 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v76 : (𝐑 main_v76 : (⟨S300000x256, .f32⟩ : BufTy).Contents (Elt F)) = Host.gather gather_S50000x256_S300000x1_S300000x256_1_0_n_n_0_1_1256 (𝐑 main_v69 : (⟨S50000x256, .f32⟩ : BufTy).Contents (Elt F)) (𝐑 main_v75 : (⟨S300000x1, .i32⟩ : BufTy).Contents (Elt F)) :=
  binary_read ops_chain 88 (lt_length (by decide)) main_v69 main_v75 main_v76 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_10 : (𝐑 main_cst_10 : (⟨S_, .f32⟩ : BufTy).Contents (Elt F)) = (constant S_ .f32 0x00000000#32) :=
  nullary_read ops_chain 89 (lt_length (by decide)) main_cst_10 (hop := rfl) (V := V)

theorem at_main_v77 : (𝐑 main_v77 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_10 : (⟨S_, .f32⟩ : BufTy).Contents (Elt F)) :=
  unary_read ops_chain 90 (lt_length (by decide)) main_cst_10 main_v77 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v78 : (𝐑 main_v78 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 91 (lt_length (by decide)) main_v3 main_v78 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v79 : (𝐑 main_v79 : (⟨S50000x256, .f32⟩ : BufTy).Contents (Elt F)) = Host.scatterAdd scatter_S50000x256_S300000x1_S300000x256_1_0_0_1 (𝐑 main_v77 : (⟨S50000x256, .f32⟩ : BufTy).Contents (Elt F)) (𝐑 main_v78 : (⟨S300000x1, .i32⟩ : BufTy).Contents (Elt F)) (𝐑 main_v76 : (⟨S300000x256, .f32⟩ : BufTy).Contents (Elt F)) :=
  ternary_read ops_chain 92 (lt_length (by decide)) main_v77 main_v78 main_v76 main_v79 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v80 : (𝐑 main_v80 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v69 : (⟨S50000x256, .f32⟩ : BufTy).Contents (Elt F)) (𝐑 main_v79 : (⟨S50000x256, .f32⟩ : BufTy).Contents (Elt F)) :=
  binary_read ops_chain 93 (lt_length (by decide)) main_v69 main_v79 main_v80 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v81 : (𝐑 main_v81 : (⟨S1x1x256x256, .f32⟩ : BufTy).Contents (Elt F)) = extractStridedSlice S1x1x256x256 ![0, 2, 0, 0] (𝐑 main_arg4 : (⟨S3x3x256x256, .f32⟩ : BufTy).Contents (Elt F)) slices_S3x3x256x256_S1x1x256x256_0_2_0_0 :=
  unary_read ops_chain 94 (lt_length (by decide)) main_arg4 main_v81 (f := ((extractStridedSlice S1x1x256x256 ![0, 2, 0, 0] · slices_S3x3x256x256_S1x1x256x256_0_2_0_0) : (⟨S3x3x256x256, .f32⟩ : BufTy).Contents (Elt F) → (⟨S1x1x256x256, .f32⟩ : BufTy).Contents (Elt F))) (hop := rfl) (hkx := by decide) (V := V)

theorem at_main_v82 : (𝐑 main_v82 : (⟨S256x256, .f32⟩ : BufTy).Contents (Elt F)) = shapeCast S256x256 (𝐑 main_v81 : (⟨S1x1x256x256, .f32⟩ : BufTy).Contents (Elt F)) shapeCasts_S1x1x256x256_S256x256 :=
  (reshape_read ops_chain 95 (lt_length (by decide)) main_v81 main_v82 shapeCasts_S1x1x256x256_S256x256 (hop := rfl) (hkx := by decide) (V := V)).trans rfl

theorem at_main_v83 : (𝐑 main_v83 : (⟨S50000x256, .f32⟩ : BufTy).Contents (Elt F)) = Host.dotGeneral dot_S50000x256_S256x256_S50000x256_1_0_0_1_n_n none (𝐑 main_v80 : (⟨S50000x256, .f32⟩ : BufTy).Contents (Elt F)) (𝐑 main_v82 : (⟨S256x256, .f32⟩ : BufTy).Contents (Elt F)) :=
  binary_read ops_chain 96 (lt_length (by decide)) main_v80 main_v82 main_v83 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v84 : (𝐑 main_v84 : (⟨S1x1x256, .f32⟩ : BufTy).Contents (Elt F)) = extractStridedSlice S1x1x256 ![0, 2, 0] (𝐑 main_arg5 : (⟨S3x3x256, .f32⟩ : BufTy).Contents (Elt F)) slices_S3x3x256_S1x1x256_0_2_0 :=
  unary_read ops_chain 97 (lt_length (by decide)) main_arg5 main_v84 (f := ((extractStridedSlice S1x1x256 ![0, 2, 0] · slices_S3x3x256_S1x1x256_0_2_0) : (⟨S3x3x256, .f32⟩ : BufTy).Contents (Elt F) → (⟨S1x1x256, .f32⟩ : BufTy).Contents (Elt F))) (hop := rfl) (hkx := by decide) (V := V)

theorem at_main_v85 : (𝐑 main_v85 : (⟨S256, .f32⟩ : BufTy).Contents (Elt F)) = shapeCast S256 (𝐑 main_v84 : (⟨S1x1x256, .f32⟩ : BufTy).Contents (Elt F)) shapeCasts_S1x1x256_S256 :=
  (reshape_read ops_chain 98 (lt_length (by decide)) main_v84 main_v85 shapeCasts_S1x1x256_S256 (hop := rfl) (hkx := by decide) (V := V)).trans rfl

theorem at_main_v86 : (𝐑 main_v86 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v85 : (⟨S256, .f32⟩ : BufTy).Contents (Elt F)) :=
  unary_read ops_chain 99 (lt_length (by decide)) main_v85 main_v86 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v87 : (𝐑 main_v87 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v86 : (⟨S1x256, .f32⟩ : BufTy).Contents (Elt F)) :=
  unary_read ops_chain 100 (lt_length (by decide)) main_v86 main_v87 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v88 : (𝐑 main_v88 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v83 : (⟨S50000x256, .f32⟩ : BufTy).Contents (Elt F)) (𝐑 main_v87 : (⟨S50000x256, .f32⟩ : BufTy).Contents (Elt F)) :=
  binary_read ops_chain 101 (lt_length (by decide)) main_v83 main_v87 main_v88 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_11 : (𝐑 main_cst_11 : (⟨S_, .f32⟩ : BufTy).Contents (Elt F)) = (constant S_ .f32 0x00000000#32) :=
  nullary_read ops_chain 102 (lt_length (by decide)) main_cst_11 (hop := rfl) (V := V)

theorem at_main_v89 : (𝐑 main_v89 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_11 : (⟨S_, .f32⟩ : BufTy).Contents (Elt F)) :=
  unary_read ops_chain 103 (lt_length (by decide)) main_cst_11 main_v89 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v90 : (𝐑 main_v90 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v88 : (⟨S50000x256, .f32⟩ : BufTy).Contents (Elt F)) (𝐑 main_v89 : (⟨S50000x256, .f32⟩ : BufTy).Contents (Elt F)) :=
  binary_read ops_chain 104 (lt_length (by decide)) main_v88 main_v89 main_v90 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v91 : (𝐑 main_v91 : (⟨S1x1x256x256, .f32⟩ : BufTy).Contents (Elt F)) = extractStridedSlice S1x1x256x256 ![0, 2, 0, 0] (𝐑 main_arg6 : (⟨S3x3x256x256, .f32⟩ : BufTy).Contents (Elt F)) slices_S3x3x256x256_S1x1x256x256_0_2_0_0 :=
  unary_read ops_chain 105 (lt_length (by decide)) main_arg6 main_v91 (f := ((extractStridedSlice S1x1x256x256 ![0, 2, 0, 0] · slices_S3x3x256x256_S1x1x256x256_0_2_0_0) : (⟨S3x3x256x256, .f32⟩ : BufTy).Contents (Elt F) → (⟨S1x1x256x256, .f32⟩ : BufTy).Contents (Elt F))) (hop := rfl) (hkx := by decide) (V := V)

theorem at_main_v92 : (𝐑 main_v92 : (⟨S256x256, .f32⟩ : BufTy).Contents (Elt F)) = shapeCast S256x256 (𝐑 main_v91 : (⟨S1x1x256x256, .f32⟩ : BufTy).Contents (Elt F)) shapeCasts_S1x1x256x256_S256x256 :=
  (reshape_read ops_chain 106 (lt_length (by decide)) main_v91 main_v92 shapeCasts_S1x1x256x256_S256x256 (hop := rfl) (hkx := by decide) (V := V)).trans rfl

theorem at_main_v93 : (𝐑 main_v93 : (⟨S50000x256, .f32⟩ : BufTy).Contents (Elt F)) = Host.dotGeneral dot_S50000x256_S256x256_S50000x256_1_0_0_1_n_n none (𝐑 main_v90 : (⟨S50000x256, .f32⟩ : BufTy).Contents (Elt F)) (𝐑 main_v92 : (⟨S256x256, .f32⟩ : BufTy).Contents (Elt F)) :=
  binary_read ops_chain 107 (lt_length (by decide)) main_v90 main_v92 main_v93 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v94 : (𝐑 main_v94 : (⟨S1x1x256, .f32⟩ : BufTy).Contents (Elt F)) = extractStridedSlice S1x1x256 ![0, 2, 0] (𝐑 main_arg7 : (⟨S3x3x256, .f32⟩ : BufTy).Contents (Elt F)) slices_S3x3x256_S1x1x256_0_2_0 :=
  unary_read ops_chain 108 (lt_length (by decide)) main_arg7 main_v94 (f := ((extractStridedSlice S1x1x256 ![0, 2, 0] · slices_S3x3x256_S1x1x256_0_2_0) : (⟨S3x3x256, .f32⟩ : BufTy).Contents (Elt F) → (⟨S1x1x256, .f32⟩ : BufTy).Contents (Elt F))) (hop := rfl) (hkx := by decide) (V := V)

theorem at_main_v95 : (𝐑 main_v95 : (⟨S256, .f32⟩ : BufTy).Contents (Elt F)) = shapeCast S256 (𝐑 main_v94 : (⟨S1x1x256, .f32⟩ : BufTy).Contents (Elt F)) shapeCasts_S1x1x256_S256 :=
  (reshape_read ops_chain 109 (lt_length (by decide)) main_v94 main_v95 shapeCasts_S1x1x256_S256 (hop := rfl) (hkx := by decide) (V := V)).trans rfl

theorem at_main_v96 : (𝐑 main_v96 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v95 : (⟨S256, .f32⟩ : BufTy).Contents (Elt F)) :=
  unary_read ops_chain 110 (lt_length (by decide)) main_v95 main_v96 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v97 : (𝐑 main_v97 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v96 : (⟨S1x256, .f32⟩ : BufTy).Contents (Elt F)) :=
  unary_read ops_chain 111 (lt_length (by decide)) main_v96 main_v97 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v98 : (𝐑 main_v98 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v93 : (⟨S50000x256, .f32⟩ : BufTy).Contents (Elt F)) (𝐑 main_v97 : (⟨S50000x256, .f32⟩ : BufTy).Contents (Elt F)) :=
  binary_read ops_chain 112 (lt_length (by decide)) main_v93 main_v97 main_v98 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_12 : (𝐑 main_cst_12 : (⟨S_, .f32⟩ : BufTy).Contents (Elt F)) = (constant S_ .f32 0x00000000#32) :=
  nullary_read ops_chain 113 (lt_length (by decide)) main_cst_12 (hop := rfl) (V := V)

theorem at_main_v99 : (𝐑 main_v99 : (⟨S256, .f32⟩ : BufTy).Contents (Elt F)) = Host.reduceAdd (𝐑 main_v98 : (⟨S50000x256, .f32⟩ : BufTy).Contents (Elt F)) (𝐑 main_cst_12 : (⟨S_, .f32⟩ : BufTy).Contents (Elt F)) reducesTo_S50000x256_S256_d0 h_S_ :=
  binary_read ops_chain 114 (lt_length (by decide)) main_v98 main_cst_12 main_v99 (f := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))) (hop := rfl) (hka := by decide) (hkb := by decide) (V := V)

theorem at_main_cst_13 : (𝐑 main_cst_13 : (⟨S_, .f32⟩ : BufTy).Contents (Elt F)) = (constant S_ .f32 0x47435000#32) :=
  nullary_read ops_chain 115 (lt_length (by decide)) main_cst_13 (hop := rfl) (V := V)

theorem at_main_v100 : (𝐑 main_v100 : (⟨S256, .f32⟩ : BufTy).Contents (Elt F)) = (broadcastInDim S256 ![] bcast_S_S256 : (⟨S_, .f32⟩ : BufTy).Contents (Elt F) → (⟨S256, .f32⟩ : BufTy).Contents (Elt F)) (𝐑 main_cst_13 : (⟨S_, .f32⟩ : BufTy).Contents (Elt F)) :=
  unary_read ops_chain 116 (lt_length (by decide)) main_cst_13 main_v100 (f := (broadcastInDim S256 ![] bcast_S_S256 : (⟨S_, .f32⟩ : BufTy).Contents (Elt F) → (⟨S256, .f32⟩ : BufTy).Contents (Elt F))) (hop := rfl) (hkx := by decide) (V := V)

theorem at_main_v101 : (𝐑 main_v101 : (⟨S256, .f32⟩ : BufTy).Contents (Elt F)) = (Host.divf : (⟨S256, .f32⟩ : BufTy).Contents (Elt F) → (⟨S256, .f32⟩ : BufTy).Contents (Elt F) → (⟨S256, .f32⟩ : BufTy).Contents (Elt F)) (𝐑 main_v99 : (⟨S256, .f32⟩ : BufTy).Contents (Elt F)) (𝐑 main_v100 : (⟨S256, .f32⟩ : BufTy).Contents (Elt F)) :=
  binary_read ops_chain 117 (lt_length (by decide)) main_v99 main_v100 main_v101 (f := (Host.divf : (⟨S256, .f32⟩ : BufTy).Contents (Elt F) → (⟨S256, .f32⟩ : BufTy).Contents (Elt F) → (⟨S256, .f32⟩ : BufTy).Contents (Elt F))) (hop := rfl) (hka := by decide) (hkb := by decide) (V := V)

theorem at_main_c_14 : (𝐑 main_c_14 : (⟨S_, .i32⟩ : BufTy).Contents (Elt F)) = (constantI S_ 32 0#32) :=
  nullary_read ops_chain 118 (lt_length (by decide)) main_c_14 (hop := rfl) (V := V)

theorem at_main_call0_cst : (𝐑 main_call0_cst : (⟨S_, .f32⟩ : BufTy).Contents (Elt F)) = (constant S_ .f32 0x00000000#32) :=
  (nullary_read ops_chain 119 (lt_length (by decide)) main_call0_cst (v := (main_call0.cst).toBuf (constant S_ .f32 0x00000000#32)) (hop := rfl)  (V := V)).trans rfl

theorem at_main_call0_v0 : (𝐑 main_call0_v0 : (⟨S256, .f32⟩ : BufTy).Contents (Elt F)) = Host.reduceAdd (𝐑 main_v98 : (⟨S50000x256, .f32⟩ : BufTy).Contents (Elt F)) (𝐑 main_call0_cst : (⟨S_, .f32⟩ : BufTy).Contents (Elt F)) reducesTo_S50000x256_S256_d0 h_S_ :=
  (binary_read ops_chain 120 (lt_length (by decide)) main_v98 main_call0_cst main_call0_v0 (f := fun u v => (main_call0.v0).toBuf ((fun x v => Host.reduceAdd x v reducesTo_S50000x256_S256_d0 h_S_) (((.of main_v98 : TRef sig ⟨S50000x256, .f32⟩)).ofBuf u) ((main_call0.cst).ofBuf v))) (hop := rfl) (hka := by decide) (hkb := by decide) (V := V)).trans rfl

theorem at_main_call0_v1 : (𝐑 main_call0_v1 : (⟨S1x256, .f32⟩ : BufTy).Contents (Elt F)) = (broadcastInDim S1x256 ![1] bcast_S256_S1x256_1) (𝐑 main_call0_v0 : (⟨S256, .f32⟩ : BufTy).Contents (Elt F)) :=
  (unary_read ops_chain 121 (lt_length (by decide)) main_call0_v0 main_call0_v1 (f := fun u => (main_call0.v1).toBuf ((broadcastInDim S1x256 ![1] bcast_S256_S1x256_1) ((main_call0.v0).ofBuf u))) (hop := rfl) (hkx := by decide) (V := V)).trans rfl

theorem at_main_call0_cst_0 : (𝐑 main_call0_cst_0 : (⟨S_, .f32⟩ : BufTy).Contents (Elt F)) = (constant S_ .f32 0x47435000#32) :=
  (nullary_read ops_chain 122 (lt_length (by decide)) main_call0_cst_0 (v := (main_call0.cst_0).toBuf (constant S_ .f32 0x47435000#32)) (hop := rfl)  (V := V)).trans rfl

theorem at_main_call0_v2 : (𝐑 main_call0_v2 : (⟨S1x256, .f32⟩ : BufTy).Contents (Elt F)) = (broadcastInDim S1x256 ![] bcast_S_S1x256) (𝐑 main_call0_cst_0 : (⟨S_, .f32⟩ : BufTy).Contents (Elt F)) :=
  (unary_read ops_chain 123 (lt_length (by decide)) main_call0_cst_0 main_call0_v2 (f := fun u => (main_call0.v2).toBuf ((broadcastInDim S1x256 ![] bcast_S_S1x256) ((main_call0.cst_0).ofBuf u))) (hop := rfl) (hkx := by decide) (V := V)).trans rfl

theorem at_main_call0_v3 : (𝐑 main_call0_v3 : (⟨S1x256, .f32⟩ : BufTy).Contents (Elt F)) = Host.divf (𝐑 main_call0_v1 : (⟨S1x256, .f32⟩ : BufTy).Contents (Elt F)) (𝐑 main_call0_v2 : (⟨S1x256, .f32⟩ : BufTy).Contents (Elt F)) :=
  (binary_read ops_chain 124 (lt_length (by decide)) main_call0_v1 main_call0_v2 main_call0_v3 (f := fun u v => (main_call0.v3).toBuf (Host.divf ((main_call0.v1).ofBuf u) ((main_call0.v2).ofBuf v))) (hop := rfl) (hka := by decide) (hkb := by decide) (V := V)).trans rfl

theorem at_main_call0_v4 : (𝐑 main_call0_v4 : (⟨S50000x256, .f32⟩ : BufTy).Contents (Elt F)) = (broadcastInDim S50000x256 ![0, 1] bcast_S1x256_S50000x256_0_1) (𝐑 main_call0_v3 : (⟨S1x256, .f32⟩ : BufTy).Contents (Elt F)) :=
  (unary_read ops_chain 125 (lt_length (by decide)) main_call0_v3 main_call0_v4 (f := fun u => (main_call0.v4).toBuf ((broadcastInDim S50000x256 ![0, 1] bcast_S1x256_S50000x256_0_1) ((main_call0.v3).ofBuf u))) (hop := rfl) (hkx := by decide) (V := V)).trans rfl

theorem at_main_call0_v5 : (𝐑 main_call0_v5 : (⟨S50000x256, .f32⟩ : BufTy).Contents (Elt F)) = subf (𝐑 main_v98 : (⟨S50000x256, .f32⟩ : BufTy).Contents (Elt F)) (𝐑 main_call0_v4 : (⟨S50000x256, .f32⟩ : BufTy).Contents (Elt F)) :=
  (binary_read ops_chain 126 (lt_length (by decide)) main_v98 main_call0_v4 main_call0_v5 (f := fun u v => (main_call0.v5).toBuf (subf (((.of main_v98 : TRef sig ⟨S50000x256, .f32⟩)).ofBuf u) ((main_call0.v4).ofBuf v))) (hop := rfl) (hka := by decide) (hkb := by decide) (V := V)).trans rfl

theorem at_main_call0_v6 : (𝐑 main_call0_v6 : (⟨S50000x256, .f32⟩ : BufTy).Contents (Elt F)) = mulf (𝐑 main_call0_v5 : (⟨S50000x256, .f32⟩ : BufTy).Contents (Elt F)) (𝐑 main_call0_v5 : (⟨S50000x256, .f32⟩ : BufTy).Contents (Elt F)) :=
  (binary_read ops_chain 127 (lt_length (by decide)) main_call0_v5 main_call0_v5 main_call0_v6 (f := fun u v => (main_call0.v6).toBuf (mulf ((main_call0.v5).ofBuf u) ((main_call0.v5).ofBuf v))) (hop := rfl) (hka := by decide) (hkb := by decide) (V := V)).trans rfl

theorem at_main_call0_v7 : (𝐑 main_call0_v7 : (⟨S_, .f32⟩ : BufTy).Contents (Elt F)) = (sitofp .f32) (𝐑 main_c_14 : (⟨S_, .i32⟩ : BufTy).Contents (Elt F)) :=
  (unary_read ops_chain 128 (lt_length (by decide)) main_c_14 main_call0_v7 (f := fun u => (main_call0.v7).toBuf ((sitofp .f32) (((.of main_c_14 : TRef sig ⟨S_, .i32⟩)).ofBuf u))) (hop := rfl) (hkx := by decide) (V := V)).trans rfl

theorem at_main_call0_cst_1 : (𝐑 main_call0_cst_1 : (⟨S_, .f32⟩ : BufTy).Contents (Elt F)) = (constant S_ .f32 0x47435000#32) :=
  (nullary_read ops_chain 129 (lt_length (by decide)) main_call0_cst_1 (v := (main_call0.cst_1).toBuf (constant S_ .f32 0x47435000#32)) (hop := rfl)  (V := V)).trans rfl

theorem at_main_call0_v8 : (𝐑 main_call0_v8 : (⟨S_, .f32⟩ : BufTy).Contents (Elt F)) = subf (𝐑 main_call0_cst_1 : (⟨S_, .f32⟩ : BufTy).Contents (Elt F)) (𝐑 main_call0_v7 : (⟨S_, .f32⟩ : BufTy).Contents (Elt F)) :=
  (binary_read ops_chain 130 (lt_length (by decide)) main_call0_cst_1 main_call0_v7 main_call0_v8 (f := fun u v => (main_call0.v8).toBuf (subf ((main_call0.cst_1).ofBuf u) ((main_call0.v7).ofBuf v))) (hop := rfl) (hka := by decide) (hkb := by decide) (V := V)).trans rfl

theorem at_main_call0_cst_2 : (𝐑 main_call0_cst_2 : (⟨S_, .f32⟩ : BufTy).Contents (Elt F)) = (constant S_ .f32 0x00000000#32) :=
  (nullary_read ops_chain 131 (lt_length (by decide)) main_call0_cst_2 (v := (main_call0.cst_2).toBuf (constant S_ .f32 0x00000000#32)) (hop := rfl)  (V := V)).trans rfl

theorem at_main_call0_v9 : (𝐑 main_call0_v9 : (⟨S256, .f32⟩ : BufTy).Contents (Elt F)) = Host.reduceAdd (𝐑 main_call0_v6 : (⟨S50000x256, .f32⟩ : BufTy).Contents (Elt F)) (𝐑 main_call0_cst_2 : (⟨S_, .f32⟩ : BufTy).Contents (Elt F)) reducesTo_S50000x256_S256_d0 h_S_ :=
  (binary_read ops_chain 132 (lt_length (by decide)) main_call0_v6 main_call0_cst_2 main_call0_v9 (f := fun u v => (main_call0.v9).toBuf ((fun x v => Host.reduceAdd x v reducesTo_S50000x256_S256_d0 h_S_) ((main_call0.v6).ofBuf u) ((main_call0.cst_2).ofBuf v))) (hop := rfl) (hka := by decide) (hkb := by decide) (V := V)).trans rfl

theorem at_main_call0_v10 : (𝐑 main_call0_v10 : (⟨S256, .f32⟩ : BufTy).Contents (Elt F)) = (broadcastInDim S256 ![] bcast_S_S256) (𝐑 main_call0_v8 : (⟨S_, .f32⟩ : BufTy).Contents (Elt F)) :=
  (unary_read ops_chain 133 (lt_length (by decide)) main_call0_v8 main_call0_v10 (f := fun u => (main_call0.v10).toBuf ((broadcastInDim S256 ![] bcast_S_S256) ((main_call0.v8).ofBuf u))) (hop := rfl) (hkx := by decide) (V := V)).trans rfl

theorem at_main_call0_v11 : (𝐑 main_call0_v11 : (⟨S256, .f32⟩ : BufTy).Contents (Elt F)) = Host.divf (𝐑 main_call0_v9 : (⟨S256, .f32⟩ : BufTy).Contents (Elt F)) (𝐑 main_call0_v10 : (⟨S256, .f32⟩ : BufTy).Contents (Elt F)) :=
  (binary_read ops_chain 134 (lt_length (by decide)) main_call0_v9 main_call0_v10 main_call0_v11 (f := fun u v => (main_call0.v11).toBuf (Host.divf ((main_call0.v9).ofBuf u) ((main_call0.v10).ofBuf v))) (hop := rfl) (hka := by decide) (hkb := by decide) (V := V)).trans rfl

theorem at_main_call0_cst_3 : (𝐑 main_call0_cst_3 : (⟨S_, .f32⟩ : BufTy).Contents (Elt F)) = (constant S_ .f32 0x00000000#32) :=
  (nullary_read ops_chain 135 (lt_length (by decide)) main_call0_cst_3 (v := (main_call0.cst_3).toBuf (constant S_ .f32 0x00000000#32)) (hop := rfl)  (V := V)).trans rfl

theorem at_main_call0_v12 : (𝐑 main_call0_v12 : (⟨S_, .i1⟩ : BufTy).Contents (Elt F)) = (cmpf .ogt) (𝐑 main_call0_v8 : (⟨S_, .f32⟩ : BufTy).Contents (Elt F)) (𝐑 main_call0_cst_3 : (⟨S_, .f32⟩ : BufTy).Contents (Elt F)) :=
  (binary_read ops_chain 136 (lt_length (by decide)) main_call0_v8 main_call0_cst_3 main_call0_v12 (f := fun u v => (main_call0.v12).toBuf ((cmpf .ogt) ((main_call0.v8).ofBuf u) ((main_call0.cst_3).ofBuf v))) (hop := rfl) (hka := by decide) (hkb := by decide) (V := V)).trans rfl

theorem at_main_call0_cst_4 : (𝐑 main_call0_cst_4 : (⟨S_, .f32⟩ : BufTy).Contents (Elt F)) = (constant S_ .f32 0x7FC00000#32) :=
  (nullary_read ops_chain 137 (lt_length (by decide)) main_call0_cst_4 (v := (main_call0.cst_4).toBuf (constant S_ .f32 0x7FC00000#32)) (hop := rfl)  (V := V)).trans rfl

theorem at_main_call0_call0_v0 : (𝐑 main_call0_call0_v0 : (⟨S_, .f32⟩ : BufTy).Contents (Elt F)) = (𝐑 main_call0_cst_4 : (⟨S_, .f32⟩ : BufTy).Contents (Elt F)) :=
  (unary_read ops_chain 138 (lt_length (by decide)) main_call0_cst_4 main_call0_call0_v0 (f := fun u => (main_call0.call0.v0).toBuf (id ((main_call0.cst_4).ofBuf u))) (hop := rfl) (hkx := by decide) (V := V)).trans rfl

theorem at_main_call0_call0_v1 : (𝐑 main_call0_call0_v1 : (⟨S256, .f32⟩ : BufTy).Contents (Elt F)) = (broadcastInDim S256 ![] bcast_S_S256) (𝐑 main_call0_call0_v0 : (⟨S_, .f32⟩ : BufTy).Contents (Elt F)) :=
  (unary_read ops_chain 139 (lt_length (by decide)) main_call0_call0_v0 main_call0_call0_v1 (f := fun u => (main_call0.call0.v1).toBuf ((broadcastInDim S256 ![] bcast_S_S256) ((main_call0.call0.v0).ofBuf u))) (hop := rfl) (hkx := by decide) (V := V)).trans rfl

theorem at_main_v102 : (𝐑 main_v102 : (⟨S256, .f32⟩ : BufTy).Contents (Elt F)) = select (broadcastInDim S256 ![] bcast_S_S256 (𝐑 main_call0_v12 : (⟨S_, .i1⟩ : BufTy).Contents (Elt F))) (𝐑 main_call0_v11 : (⟨S256, .f32⟩ : BufTy).Contents (Elt F)) (𝐑 main_call0_call0_v1 : (⟨S256, .f32⟩ : BufTy).Contents (Elt F)) :=
  (ternary_read ops_chain 140 (lt_length (by decide)) main_call0_v12 main_call0_v11 main_call0_call0_v1 main_v102 (f := fun w u v => (main_call0.call0.v2).toBuf ((fun p a b => select (broadcastInDim S256 ![] bcast_S_S256 p) a b) ((main_call0.v12).ofBuf w) ((main_call0.v11).ofBuf u) ((main_call0.call0.v1).ofBuf v))) (hop := rfl) (hkc := by decide) (hka := by decide) (hkb := by decide) (V := V)).trans rfl

theorem at_main_v103 : (𝐑 main_v103 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v101 : (⟨S256, .f32⟩ : BufTy).Contents (Elt F)) :=
  unary_read ops_chain 141 (lt_length (by decide)) main_v101 main_v103 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v104 : (𝐑 main_v104 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v103 : (⟨S1x256, .f32⟩ : BufTy).Contents (Elt F)) :=
  unary_read ops_chain 142 (lt_length (by decide)) main_v103 main_v104 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v105 : (𝐑 main_v105 : (⟨S50000x256, .f32⟩ : BufTy).Contents (Elt F)) = (subf : (⟨S50000x256, .f32⟩ : BufTy).Contents (Elt F) → (⟨S50000x256, .f32⟩ : BufTy).Contents (Elt F) → (⟨S50000x256, .f32⟩ : BufTy).Contents (Elt F)) (𝐑 main_v98 : (⟨S50000x256, .f32⟩ : BufTy).Contents (Elt F)) (𝐑 main_v104 : (⟨S50000x256, .f32⟩ : BufTy).Contents (Elt F)) :=
  binary_read ops_chain 143 (lt_length (by decide)) main_v98 main_v104 main_v105 (f := (subf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_15 : (𝐑 main_cst_15 : (⟨S_, .f32⟩ : BufTy).Contents (Elt F)) = (constant S_ .f32 0x3727C5AC#32) :=
  nullary_read ops_chain 144 (lt_length (by decide)) main_cst_15 (hop := rfl) (V := V)

theorem at_main_v106 : (𝐑 main_v106 : (⟨S256, .f32⟩ : BufTy).Contents (Elt F)) = (broadcastInDim S256 ![] bcast_S_S256 : (⟨S_, .f32⟩ : BufTy).Contents (Elt F) → (⟨S256, .f32⟩ : BufTy).Contents (Elt F)) (𝐑 main_cst_15 : (⟨S_, .f32⟩ : BufTy).Contents (Elt F)) :=
  unary_read ops_chain 145 (lt_length (by decide)) main_cst_15 main_v106 (f := (broadcastInDim S256 ![] bcast_S_S256 : (⟨S_, .f32⟩ : BufTy).Contents (Elt F) → (⟨S256, .f32⟩ : BufTy).Contents (Elt F))) (hop := rfl) (hkx := by decide) (V := V)

theorem at_main_v107 : (𝐑 main_v107 : (⟨S256, .f32⟩ : BufTy).Contents (Elt F)) = (addf : (⟨S256, .f32⟩ : BufTy).Contents (Elt F) → (⟨S256, .f32⟩ : BufTy).Contents (Elt F) → (⟨S256, .f32⟩ : BufTy).Contents (Elt F)) (𝐑 main_v102 : (⟨S256, .f32⟩ : BufTy).Contents (Elt F)) (𝐑 main_v106 : (⟨S256, .f32⟩ : BufTy).Contents (Elt F)) :=
  binary_read ops_chain 146 (lt_length (by decide)) main_v102 main_v106 main_v107 (f := (addf : (⟨S256, .f32⟩ : BufTy).Contents (Elt F) → (⟨S256, .f32⟩ : BufTy).Contents (Elt F) → (⟨S256, .f32⟩ : BufTy).Contents (Elt F))) (hop := rfl) (hka := by decide) (hkb := by decide) (V := V)

theorem at_main_v108 : (𝐑 main_v108 : (⟨S256, .f32⟩ : BufTy).Contents (Elt F)) = (Host.rsqrt : (⟨S256, .f32⟩ : BufTy).Contents (Elt F) → (⟨S256, .f32⟩ : BufTy).Contents (Elt F)) (𝐑 main_v107 : (⟨S256, .f32⟩ : BufTy).Contents (Elt F)) :=
  unary_read ops_chain 147 (lt_length (by decide)) main_v107 main_v108 (f := (Host.rsqrt : (⟨S256, .f32⟩ : BufTy).Contents (Elt F) → (⟨S256, .f32⟩ : BufTy).Contents (Elt F))) (hop := rfl) (hkx := by decide) (V := V)

theorem at_main_v109 : (𝐑 main_v109 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v108 : (⟨S256, .f32⟩ : BufTy).Contents (Elt F)) :=
  unary_read ops_chain 148 (lt_length (by decide)) main_v108 main_v109 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v110 : (𝐑 main_v110 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v109 : (⟨S1x256, .f32⟩ : BufTy).Contents (Elt F)) :=
  unary_read ops_chain 149 (lt_length (by decide)) main_v109 main_v110 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v111 : (𝐑 main_v111 : (⟨S50000x256, .f32⟩ : BufTy).Contents (Elt F)) = (mulf : (⟨S50000x256, .f32⟩ : BufTy).Contents (Elt F) → (⟨S50000x256, .f32⟩ : BufTy).Contents (Elt F) → (⟨S50000x256, .f32⟩ : BufTy).Contents (Elt F)) (𝐑 main_v105 : (⟨S50000x256, .f32⟩ : BufTy).Contents (Elt F)) (𝐑 main_v110 : (⟨S50000x256, .f32⟩ : BufTy).Contents (Elt F)) :=
  binary_read ops_chain 150 (lt_length (by decide)) main_v105 main_v110 main_v111 (f := (mulf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v112 : (𝐑 main_v112 : (⟨S1x256, .f32⟩ : BufTy).Contents (Elt F)) = extractStridedSlice S1x256 ![0, 0] (𝐑 main_arg8 : (⟨S3x256, .f32⟩ : BufTy).Contents (Elt F)) slices_S3x256_S1x256_0_0 :=
  unary_read ops_chain 151 (lt_length (by decide)) main_arg8 main_v112 (f := ((extractStridedSlice S1x256 ![0, 0] · slices_S3x256_S1x256_0_0) : (⟨S3x256, .f32⟩ : BufTy).Contents (Elt F) → (⟨S1x256, .f32⟩ : BufTy).Contents (Elt F))) (hop := rfl) (hkx := by decide) (V := V)

theorem at_main_v113 : (𝐑 main_v113 : (⟨S256, .f32⟩ : BufTy).Contents (Elt F)) = shapeCast S256 (𝐑 main_v112 : (⟨S1x256, .f32⟩ : BufTy).Contents (Elt F)) shapeCasts_S1x256_S256 :=
  (reshape_read ops_chain 152 (lt_length (by decide)) main_v112 main_v113 shapeCasts_S1x256_S256 (hop := rfl) (hkx := by decide) (V := V)).trans rfl

theorem at_main_v114 : (𝐑 main_v114 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v113 : (⟨S256, .f32⟩ : BufTy).Contents (Elt F)) :=
  unary_read ops_chain 153 (lt_length (by decide)) main_v113 main_v114 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v115 : (𝐑 main_v115 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v114 : (⟨S1x256, .f32⟩ : BufTy).Contents (Elt F)) :=
  unary_read ops_chain 154 (lt_length (by decide)) main_v114 main_v115 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v116 : (𝐑 main_v116 : (⟨S50000x256, .f32⟩ : BufTy).Contents (Elt F)) = (mulf : (⟨S50000x256, .f32⟩ : BufTy).Contents (Elt F) → (⟨S50000x256, .f32⟩ : BufTy).Contents (Elt F) → (⟨S50000x256, .f32⟩ : BufTy).Contents (Elt F)) (𝐑 main_v111 : (⟨S50000x256, .f32⟩ : BufTy).Contents (Elt F)) (𝐑 main_v115 : (⟨S50000x256, .f32⟩ : BufTy).Contents (Elt F)) :=
  binary_read ops_chain 155 (lt_length (by decide)) main_v111 main_v115 main_v116 (f := (mulf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v117 : (𝐑 main_v117 : (⟨S1x256, .f32⟩ : BufTy).Contents (Elt F)) = extractStridedSlice S1x256 ![0, 0] (𝐑 main_arg9 : (⟨S3x256, .f32⟩ : BufTy).Contents (Elt F)) slices_S3x256_S1x256_0_0 :=
  unary_read ops_chain 156 (lt_length (by decide)) main_arg9 main_v117 (f := ((extractStridedSlice S1x256 ![0, 0] · slices_S3x256_S1x256_0_0) : (⟨S3x256, .f32⟩ : BufTy).Contents (Elt F) → (⟨S1x256, .f32⟩ : BufTy).Contents (Elt F))) (hop := rfl) (hkx := by decide) (V := V)

theorem at_main_v118 : (𝐑 main_v118 : (⟨S256, .f32⟩ : BufTy).Contents (Elt F)) = shapeCast S256 (𝐑 main_v117 : (⟨S1x256, .f32⟩ : BufTy).Contents (Elt F)) shapeCasts_S1x256_S256 :=
  (reshape_read ops_chain 157 (lt_length (by decide)) main_v117 main_v118 shapeCasts_S1x256_S256 (hop := rfl) (hkx := by decide) (V := V)).trans rfl

theorem at_main_v119 : (𝐑 main_v119 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v118 : (⟨S256, .f32⟩ : BufTy).Contents (Elt F)) :=
  unary_read ops_chain 158 (lt_length (by decide)) main_v118 main_v119 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v120 : (𝐑 main_v120 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v119 : (⟨S1x256, .f32⟩ : BufTy).Contents (Elt F)) :=
  unary_read ops_chain 159 (lt_length (by decide)) main_v119 main_v120 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v121 : (𝐑 main_v121 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v116 : (⟨S50000x256, .f32⟩ : BufTy).Contents (Elt F)) (𝐑 main_v120 : (⟨S50000x256, .f32⟩ : BufTy).Contents (Elt F)) :=
  binary_read ops_chain 160 (lt_length (by decide)) main_v116 main_v120 main_v121 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_16 : (𝐑 main_cst_16 : (⟨S_, .f32⟩ : BufTy).Contents (Elt F)) = (constant S_ .f32 0x00000000#32) :=
  nullary_read ops_chain 161 (lt_length (by decide)) main_cst_16 (hop := rfl) (V := V)

theorem at_main_v122 : (𝐑 main_v122 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_16 : (⟨S_, .f32⟩ : BufTy).Contents (Elt F)) :=
  unary_read ops_chain 162 (lt_length (by decide)) main_cst_16 main_v122 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v123 : (𝐑 main_v123 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v121 : (⟨S50000x256, .f32⟩ : BufTy).Contents (Elt F)) (𝐑 main_v122 : (⟨S50000x256, .f32⟩ : BufTy).Contents (Elt F)) :=
  binary_read ops_chain 163 (lt_length (by decide)) main_v121 main_v122 main_v123 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_17 : (𝐑 main_c_17 : (⟨S_, .i32⟩ : BufTy).Contents (Elt F)) = (constantI S_ 32 0#32) :=
  nullary_read ops_chain 164 (lt_length (by decide)) main_c_17 (hop := rfl) (V := V)

theorem at_main_v124 : (𝐑 main_v124 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_17 : (⟨S_, .i32⟩ : BufTy).Contents (Elt F)) :=
  unary_read ops_chain 165 (lt_length (by decide)) main_c_17 main_v124 (f := (broadcastInDim S300000 ![] bcast_S_S300000 : (⟨S_, .i32⟩ : BufTy).Contents (Elt F) → (⟨S300000, .i32⟩ : BufTy).Contents (Elt F))) (hop := rfl) (hkx := by decide) (V := V)

theorem at_main_v125 : (𝐑 main_v125 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v124 : (⟨S300000, .i32⟩ : BufTy).Contents (Elt F)) :=
  binary_read ops_chain 166 (lt_length (by decide)) main_v1 main_v124 main_v125 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_18 : (𝐑 main_c_18 : (⟨S_, .i32⟩ : BufTy).Contents (Elt F)) = (constantI S_ 32 50000#32) :=
  nullary_read ops_chain 167 (lt_length (by decide)) main_c_18 (hop := rfl) (V := V)

theorem at_main_v126 : (𝐑 main_v126 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_18 : (⟨S_, .i32⟩ : BufTy).Contents (Elt F)) :=
  unary_read ops_chain 168 (lt_length (by decide)) main_c_18 main_v126 (f := (broadcastInDim S300000 ![] bcast_S_S300000 : (⟨S_, .i32⟩ : BufTy).Contents (Elt F) → (⟨S300000, .i32⟩ : BufTy).Contents (Elt F))) (hop := rfl) (hkx := by decide) (V := V)

theorem at_main_v127 : (𝐑 main_v127 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v126 : (⟨S300000, .i32⟩ : BufTy).Contents (Elt F)) :=
  binary_read ops_chain 169 (lt_length (by decide)) main_v1 main_v126 main_v127 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v128 : (𝐑 main_v128 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v125 : (⟨S300000, .i1⟩ : BufTy).Contents (Elt F)) (𝐑 main_v127 : (⟨S300000, .i32⟩ : BufTy).Contents (Elt F)) (𝐑 main_v1 : (⟨S300000, .i32⟩ : BufTy).Contents (Elt F)) :=
  ternary_read ops_chain 170 (lt_length (by decide)) main_v125 main_v127 main_v1 main_v128 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v129 : (𝐑 main_v129 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v128 : (⟨S300000, .i32⟩ : BufTy).Contents (Elt F)) :=
  unary_read ops_chain 171 (lt_length (by decide)) main_v128 main_v129 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v130 : (𝐑 main_v130 : (⟨S300000x256, .f32⟩ : BufTy).Contents (Elt F)) = Host.gather gather_S50000x256_S300000x1_S300000x256_1_0_n_n_0_1_1256 (𝐑 main_v123 : (⟨S50000x256, .f32⟩ : BufTy).Contents (Elt F)) (𝐑 main_v129 : (⟨S300000x1, .i32⟩ : BufTy).Contents (Elt F)) :=
  binary_read ops_chain 172 (lt_length (by decide)) main_v123 main_v129 main_v130 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_19 : (𝐑 main_cst_19 : (⟨S_, .f32⟩ : BufTy).Contents (Elt F)) = (constant S_ .f32 0x00000000#32) :=
  nullary_read ops_chain 173 (lt_length (by decide)) main_cst_19 (hop := rfl) (V := V)

theorem at_main_v131 : (𝐑 main_v131 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_19 : (⟨S_, .f32⟩ : BufTy).Contents (Elt F)) :=
  unary_read ops_chain 174 (lt_length (by decide)) main_cst_19 main_v131 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v132 : (𝐑 main_v132 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 175 (lt_length (by decide)) main_v3 main_v132 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v133 : (𝐑 main_v133 : (⟨S50000x256, .f32⟩ : BufTy).Contents (Elt F)) = Host.scatterAdd scatter_S50000x256_S300000x1_S300000x256_1_0_0_1 (𝐑 main_v131 : (⟨S50000x256, .f32⟩ : BufTy).Contents (Elt F)) (𝐑 main_v132 : (⟨S300000x1, .i32⟩ : BufTy).Contents (Elt F)) (𝐑 main_v130 : (⟨S300000x256, .f32⟩ : BufTy).Contents (Elt F)) :=
  ternary_read ops_chain 176 (lt_length (by decide)) main_v131 main_v132 main_v130 main_v133 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v134 : (𝐑 main_v134 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v123 : (⟨S50000x256, .f32⟩ : BufTy).Contents (Elt F)) (𝐑 main_v133 : (⟨S50000x256, .f32⟩ : BufTy).Contents (Elt F)) :=
  binary_read ops_chain 177 (lt_length (by decide)) main_v123 main_v133 main_v134 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v135 : (𝐑 main_v135 : (⟨S1x1x256x256, .f32⟩ : BufTy).Contents (Elt F)) = extractStridedSlice S1x1x256x256 ![1, 0, 0, 0] (𝐑 main_arg4 : (⟨S3x3x256x256, .f32⟩ : BufTy).Contents (Elt F)) slices_S3x3x256x256_S1x1x256x256_1_0_0_0 :=
  unary_read ops_chain 178 (lt_length (by decide)) main_arg4 main_v135 (f := ((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F))) (hop := rfl) (hkx := by decide) (V := V)

theorem at_main_v136 : (𝐑 main_v136 : (⟨S256x256, .f32⟩ : BufTy).Contents (Elt F)) = shapeCast S256x256 (𝐑 main_v135 : (⟨S1x1x256x256, .f32⟩ : BufTy).Contents (Elt F)) shapeCasts_S1x1x256x256_S256x256 :=
  (reshape_read ops_chain 179 (lt_length (by decide)) main_v135 main_v136 shapeCasts_S1x1x256x256_S256x256 (hop := rfl) (hkx := by decide) (V := V)).trans rfl

theorem at_main_v137 : (𝐑 main_v137 : (⟨S50000x256, .f32⟩ : BufTy).Contents (Elt F)) = Host.dotGeneral dot_S50000x256_S256x256_S50000x256_1_0_0_1_n_n none (𝐑 main_v134 : (⟨S50000x256, .f32⟩ : BufTy).Contents (Elt F)) (𝐑 main_v136 : (⟨S256x256, .f32⟩ : BufTy).Contents (Elt F)) :=
  binary_read ops_chain 180 (lt_length (by decide)) main_v134 main_v136 main_v137 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v138 : (𝐑 main_v138 : (⟨S1x1x256, .f32⟩ : BufTy).Contents (Elt F)) = extractStridedSlice S1x1x256 ![1, 0, 0] (𝐑 main_arg5 : (⟨S3x3x256, .f32⟩ : BufTy).Contents (Elt F)) slices_S3x3x256_S1x1x256_1_0_0 :=
  unary_read ops_chain 181 (lt_length (by decide)) main_arg5 main_v138 (f := ((extractStridedSlice S1x1x256 ![1, 0, 0] · slices_S3x3x256_S1x1x256_1_0_0) : (⟨S3x3x256, .f32⟩ : BufTy).Contents (Elt F) → (⟨S1x1x256, .f32⟩ : BufTy).Contents (Elt F))) (hop := rfl) (hkx := by decide) (V := V)

theorem at_main_v139 : (𝐑 main_v139 : (⟨S256, .f32⟩ : BufTy).Contents (Elt F)) = shapeCast S256 (𝐑 main_v138 : (⟨S1x1x256, .f32⟩ : BufTy).Contents (Elt F)) shapeCasts_S1x1x256_S256 :=
  (reshape_read ops_chain 182 (lt_length (by decide)) main_v138 main_v139 shapeCasts_S1x1x256_S256 (hop := rfl) (hkx := by decide) (V := V)).trans rfl

theorem at_main_v140 : (𝐑 main_v140 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v139 : (⟨S256, .f32⟩ : BufTy).Contents (Elt F)) :=
  unary_read ops_chain 183 (lt_length (by decide)) main_v139 main_v140 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v141 : (𝐑 main_v141 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v140 : (⟨S1x256, .f32⟩ : BufTy).Contents (Elt F)) :=
  unary_read ops_chain 184 (lt_length (by decide)) main_v140 main_v141 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v142 : (𝐑 main_v142 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v137 : (⟨S50000x256, .f32⟩ : BufTy).Contents (Elt F)) (𝐑 main_v141 : (⟨S50000x256, .f32⟩ : BufTy).Contents (Elt F)) :=
  binary_read ops_chain 185 (lt_length (by decide)) main_v137 main_v141 main_v142 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_20 : (𝐑 main_cst_20 : (⟨S_, .f32⟩ : BufTy).Contents (Elt F)) = (constant S_ .f32 0x00000000#32) :=
  nullary_read ops_chain 186 (lt_length (by decide)) main_cst_20 (hop := rfl) (V := V)

theorem at_main_v143 : (𝐑 main_v143 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_20 : (⟨S_, .f32⟩ : BufTy).Contents (Elt F)) :=
  unary_read ops_chain 187 (lt_length (by decide)) main_cst_20 main_v143 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v144 : (𝐑 main_v144 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v142 : (⟨S50000x256, .f32⟩ : BufTy).Contents (Elt F)) (𝐑 main_v143 : (⟨S50000x256, .f32⟩ : BufTy).Contents (Elt F)) :=
  binary_read ops_chain 188 (lt_length (by decide)) main_v142 main_v143 main_v144 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v145 : (𝐑 main_v145 : (⟨S1x1x256x256, .f32⟩ : BufTy).Contents (Elt F)) = extractStridedSlice S1x1x256x256 ![1, 0, 0, 0] (𝐑 main_arg6 : (⟨S3x3x256x256, .f32⟩ : BufTy).Contents (Elt F)) slices_S3x3x256x256_S1x1x256x256_1_0_0_0 :=
  unary_read ops_chain 189 (lt_length (by decide)) main_arg6 main_v145 (f := ((extractStridedSlice S1x1x256x256 ![1, 0, 0, 0] · slices_S3x3x256x256_S1x1x256x256_1_0_0_0) : (⟨S3x3x256x256, .f32⟩ : BufTy).Contents (Elt F) → (⟨S1x1x256x256, .f32⟩ : BufTy).Contents (Elt F))) (hop := rfl) (hkx := by decide) (V := V)

theorem at_main_v146 : (𝐑 main_v146 : (⟨S256x256, .f32⟩ : BufTy).Contents (Elt F)) = shapeCast S256x256 (𝐑 main_v145 : (⟨S1x1x256x256, .f32⟩ : BufTy).Contents (Elt F)) shapeCasts_S1x1x256x256_S256x256 :=
  (reshape_read ops_chain 190 (lt_length (by decide)) main_v145 main_v146 shapeCasts_S1x1x256x256_S256x256 (hop := rfl) (hkx := by decide) (V := V)).trans rfl

theorem at_main_v147 : (𝐑 main_v147 : (⟨S50000x256, .f32⟩ : BufTy).Contents (Elt F)) = Host.dotGeneral dot_S50000x256_S256x256_S50000x256_1_0_0_1_n_n none (𝐑 main_v144 : (⟨S50000x256, .f32⟩ : BufTy).Contents (Elt F)) (𝐑 main_v146 : (⟨S256x256, .f32⟩ : BufTy).Contents (Elt F)) :=
  binary_read ops_chain 191 (lt_length (by decide)) main_v144 main_v146 main_v147 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v148 : (𝐑 main_v148 : (⟨S1x1x256, .f32⟩ : BufTy).Contents (Elt F)) = extractStridedSlice S1x1x256 ![1, 0, 0] (𝐑 main_arg7 : (⟨S3x3x256, .f32⟩ : BufTy).Contents (Elt F)) slices_S3x3x256_S1x1x256_1_0_0 :=
  unary_read ops_chain 192 (lt_length (by decide)) main_arg7 main_v148 (f := ((extractStridedSlice S1x1x256 ![1, 0, 0] · slices_S3x3x256_S1x1x256_1_0_0) : (⟨S3x3x256, .f32⟩ : BufTy).Contents (Elt F) → (⟨S1x1x256, .f32⟩ : BufTy).Contents (Elt F))) (hop := rfl) (hkx := by decide) (V := V)

theorem at_main_v149 : (𝐑 main_v149 : (⟨S256, .f32⟩ : BufTy).Contents (Elt F)) = shapeCast S256 (𝐑 main_v148 : (⟨S1x1x256, .f32⟩ : BufTy).Contents (Elt F)) shapeCasts_S1x1x256_S256 :=
  (reshape_read ops_chain 193 (lt_length (by decide)) main_v148 main_v149 shapeCasts_S1x1x256_S256 (hop := rfl) (hkx := by decide) (V := V)).trans rfl

theorem at_main_v150 : (𝐑 main_v150 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v149 : (⟨S256, .f32⟩ : BufTy).Contents (Elt F)) :=
  unary_read ops_chain 194 (lt_length (by decide)) main_v149 main_v150 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v151 : (𝐑 main_v151 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v150 : (⟨S1x256, .f32⟩ : BufTy).Contents (Elt F)) :=
  unary_read ops_chain 195 (lt_length (by decide)) main_v150 main_v151 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v152 : (𝐑 main_v152 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v147 : (⟨S50000x256, .f32⟩ : BufTy).Contents (Elt F)) (𝐑 main_v151 : (⟨S50000x256, .f32⟩ : BufTy).Contents (Elt F)) :=
  binary_read ops_chain 196 (lt_length (by decide)) main_v147 main_v151 main_v152 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_21 : (𝐑 main_cst_21 : (⟨S_, .f32⟩ : BufTy).Contents (Elt F)) = (constant S_ .f32 0x00000000#32) :=
  nullary_read ops_chain 197 (lt_length (by decide)) main_cst_21 (hop := rfl) (V := V)

theorem at_main_v153 : (𝐑 main_v153 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_21 : (⟨S_, .f32⟩ : BufTy).Contents (Elt F)) :=
  unary_read ops_chain 198 (lt_length (by decide)) main_cst_21 main_v153 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v154 : (𝐑 main_v154 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v152 : (⟨S50000x256, .f32⟩ : BufTy).Contents (Elt F)) (𝐑 main_v153 : (⟨S50000x256, .f32⟩ : BufTy).Contents (Elt F)) :=
  binary_read ops_chain 199 (lt_length (by decide)) main_v152 main_v153 main_v154 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_22 : (𝐑 main_c_22 : (⟨S_, .i32⟩ : BufTy).Contents (Elt F)) = (constantI S_ 32 0#32) :=
  nullary_read ops_chain 200 (lt_length (by decide)) main_c_22 (hop := rfl) (V := V)

theorem at_main_v155 : (𝐑 main_v155 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_22 : (⟨S_, .i32⟩ : BufTy).Contents (Elt F)) :=
  unary_read ops_chain 201 (lt_length (by decide)) main_c_22 main_v155 (f := (broadcastInDim S300000 ![] bcast_S_S300000 : (⟨S_, .i32⟩ : BufTy).Contents (Elt F) → (⟨S300000, .i32⟩ : BufTy).Contents (Elt F))) (hop := rfl) (hkx := by decide) (V := V)

theorem at_main_v156 : (𝐑 main_v156 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v155 : (⟨S300000, .i32⟩ : BufTy).Contents (Elt F)) :=
  binary_read ops_chain 202 (lt_length (by decide)) main_v1 main_v155 main_v156 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_23 : (𝐑 main_c_23 : (⟨S_, .i32⟩ : BufTy).Contents (Elt F)) = (constantI S_ 32 50000#32) :=
  nullary_read ops_chain 203 (lt_length (by decide)) main_c_23 (hop := rfl) (V := V)

theorem at_main_v157 : (𝐑 main_v157 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_23 : (⟨S_, .i32⟩ : BufTy).Contents (Elt F)) :=
  unary_read ops_chain 204 (lt_length (by decide)) main_c_23 main_v157 (f := (broadcastInDim S300000 ![] bcast_S_S300000 : (⟨S_, .i32⟩ : BufTy).Contents (Elt F) → (⟨S300000, .i32⟩ : BufTy).Contents (Elt F))) (hop := rfl) (hkx := by decide) (V := V)

theorem at_main_v158 : (𝐑 main_v158 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v157 : (⟨S300000, .i32⟩ : BufTy).Contents (Elt F)) :=
  binary_read ops_chain 205 (lt_length (by decide)) main_v1 main_v157 main_v158 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v159 : (𝐑 main_v159 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v156 : (⟨S300000, .i1⟩ : BufTy).Contents (Elt F)) (𝐑 main_v158 : (⟨S300000, .i32⟩ : BufTy).Contents (Elt F)) (𝐑 main_v1 : (⟨S300000, .i32⟩ : BufTy).Contents (Elt F)) :=
  ternary_read ops_chain 206 (lt_length (by decide)) main_v156 main_v158 main_v1 main_v159 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v160 : (𝐑 main_v160 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v159 : (⟨S300000, .i32⟩ : BufTy).Contents (Elt F)) :=
  unary_read ops_chain 207 (lt_length (by decide)) main_v159 main_v160 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v161 : (𝐑 main_v161 : (⟨S300000x256, .f32⟩ : BufTy).Contents (Elt F)) = Host.gather gather_S50000x256_S300000x1_S300000x256_1_0_n_n_0_1_1256 (𝐑 main_v154 : (⟨S50000x256, .f32⟩ : BufTy).Contents (Elt F)) (𝐑 main_v160 : (⟨S300000x1, .i32⟩ : BufTy).Contents (Elt F)) :=
  binary_read ops_chain 208 (lt_length (by decide)) main_v154 main_v160 main_v161 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_24 : (𝐑 main_cst_24 : (⟨S_, .f32⟩ : BufTy).Contents (Elt F)) = (constant S_ .f32 0x00000000#32) :=
  nullary_read ops_chain 209 (lt_length (by decide)) main_cst_24 (hop := rfl) (V := V)

theorem at_main_v162 : (𝐑 main_v162 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_24 : (⟨S_, .f32⟩ : BufTy).Contents (Elt F)) :=
  unary_read ops_chain 210 (lt_length (by decide)) main_cst_24 main_v162 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v163 : (𝐑 main_v163 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 211 (lt_length (by decide)) main_v3 main_v163 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v164 : (𝐑 main_v164 : (⟨S50000x256, .f32⟩ : BufTy).Contents (Elt F)) = Host.scatterAdd scatter_S50000x256_S300000x1_S300000x256_1_0_0_1 (𝐑 main_v162 : (⟨S50000x256, .f32⟩ : BufTy).Contents (Elt F)) (𝐑 main_v163 : (⟨S300000x1, .i32⟩ : BufTy).Contents (Elt F)) (𝐑 main_v161 : (⟨S300000x256, .f32⟩ : BufTy).Contents (Elt F)) :=
  ternary_read ops_chain 212 (lt_length (by decide)) main_v162 main_v163 main_v161 main_v164 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v165 : (𝐑 main_v165 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v154 : (⟨S50000x256, .f32⟩ : BufTy).Contents (Elt F)) (𝐑 main_v164 : (⟨S50000x256, .f32⟩ : BufTy).Contents (Elt F)) :=
  binary_read ops_chain 213 (lt_length (by decide)) main_v154 main_v164 main_v165 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v166 : (𝐑 main_v166 : (⟨S1x1x256x256, .f32⟩ : BufTy).Contents (Elt F)) = extractStridedSlice S1x1x256x256 ![1, 1, 0, 0] (𝐑 main_arg4 : (⟨S3x3x256x256, .f32⟩ : BufTy).Contents (Elt F)) slices_S3x3x256x256_S1x1x256x256_1_1_0_0 :=
  unary_read ops_chain 214 (lt_length (by decide)) main_arg4 main_v166 (f := ((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F))) (hop := rfl) (hkx := by decide) (V := V)

theorem at_main_v167 : (𝐑 main_v167 : (⟨S256x256, .f32⟩ : BufTy).Contents (Elt F)) = shapeCast S256x256 (𝐑 main_v166 : (⟨S1x1x256x256, .f32⟩ : BufTy).Contents (Elt F)) shapeCasts_S1x1x256x256_S256x256 :=
  (reshape_read ops_chain 215 (lt_length (by decide)) main_v166 main_v167 shapeCasts_S1x1x256x256_S256x256 (hop := rfl) (hkx := by decide) (V := V)).trans rfl

theorem at_main_v168 : (𝐑 main_v168 : (⟨S50000x256, .f32⟩ : BufTy).Contents (Elt F)) = Host.dotGeneral dot_S50000x256_S256x256_S50000x256_1_0_0_1_n_n none (𝐑 main_v165 : (⟨S50000x256, .f32⟩ : BufTy).Contents (Elt F)) (𝐑 main_v167 : (⟨S256x256, .f32⟩ : BufTy).Contents (Elt F)) :=
  binary_read ops_chain 216 (lt_length (by decide)) main_v165 main_v167 main_v168 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v169 : (𝐑 main_v169 : (⟨S1x1x256, .f32⟩ : BufTy).Contents (Elt F)) = extractStridedSlice S1x1x256 ![1, 1, 0] (𝐑 main_arg5 : (⟨S3x3x256, .f32⟩ : BufTy).Contents (Elt F)) slices_S3x3x256_S1x1x256_1_1_0 :=
  unary_read ops_chain 217 (lt_length (by decide)) main_arg5 main_v169 (f := ((extractStridedSlice S1x1x256 ![1, 1, 0] · slices_S3x3x256_S1x1x256_1_1_0) : (⟨S3x3x256, .f32⟩ : BufTy).Contents (Elt F) → (⟨S1x1x256, .f32⟩ : BufTy).Contents (Elt F))) (hop := rfl) (hkx := by decide) (V := V)

theorem at_main_v170 : (𝐑 main_v170 : (⟨S256, .f32⟩ : BufTy).Contents (Elt F)) = shapeCast S256 (𝐑 main_v169 : (⟨S1x1x256, .f32⟩ : BufTy).Contents (Elt F)) shapeCasts_S1x1x256_S256 :=
  (reshape_read ops_chain 218 (lt_length (by decide)) main_v169 main_v170 shapeCasts_S1x1x256_S256 (hop := rfl) (hkx := by decide) (V := V)).trans rfl

theorem at_main_v171 : (𝐑 main_v171 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v170 : (⟨S256, .f32⟩ : BufTy).Contents (Elt F)) :=
  unary_read ops_chain 219 (lt_length (by decide)) main_v170 main_v171 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v172 : (𝐑 main_v172 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v171 : (⟨S1x256, .f32⟩ : BufTy).Contents (Elt F)) :=
  unary_read ops_chain 220 (lt_length (by decide)) main_v171 main_v172 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v173 : (𝐑 main_v173 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v168 : (⟨S50000x256, .f32⟩ : BufTy).Contents (Elt F)) (𝐑 main_v172 : (⟨S50000x256, .f32⟩ : BufTy).Contents (Elt F)) :=
  binary_read ops_chain 221 (lt_length (by decide)) main_v168 main_v172 main_v173 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_25 : (𝐑 main_cst_25 : (⟨S_, .f32⟩ : BufTy).Contents (Elt F)) = (constant S_ .f32 0x00000000#32) :=
  nullary_read ops_chain 222 (lt_length (by decide)) main_cst_25 (hop := rfl) (V := V)

theorem at_main_v174 : (𝐑 main_v174 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_25 : (⟨S_, .f32⟩ : BufTy).Contents (Elt F)) :=
  unary_read ops_chain 223 (lt_length (by decide)) main_cst_25 main_v174 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v175 : (𝐑 main_v175 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v173 : (⟨S50000x256, .f32⟩ : BufTy).Contents (Elt F)) (𝐑 main_v174 : (⟨S50000x256, .f32⟩ : BufTy).Contents (Elt F)) :=
  binary_read ops_chain 224 (lt_length (by decide)) main_v173 main_v174 main_v175 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v176 : (𝐑 main_v176 : (⟨S1x1x256x256, .f32⟩ : BufTy).Contents (Elt F)) = extractStridedSlice S1x1x256x256 ![1, 1, 0, 0] (𝐑 main_arg6 : (⟨S3x3x256x256, .f32⟩ : BufTy).Contents (Elt F)) slices_S3x3x256x256_S1x1x256x256_1_1_0_0 :=
  unary_read ops_chain 225 (lt_length (by decide)) main_arg6 main_v176 (f := ((extractStridedSlice S1x1x256x256 ![1, 1, 0, 0] · slices_S3x3x256x256_S1x1x256x256_1_1_0_0) : (⟨S3x3x256x256, .f32⟩ : BufTy).Contents (Elt F) → (⟨S1x1x256x256, .f32⟩ : BufTy).Contents (Elt F))) (hop := rfl) (hkx := by decide) (V := V)

theorem at_main_v177 : (𝐑 main_v177 : (⟨S256x256, .f32⟩ : BufTy).Contents (Elt F)) = shapeCast S256x256 (𝐑 main_v176 : (⟨S1x1x256x256, .f32⟩ : BufTy).Contents (Elt F)) shapeCasts_S1x1x256x256_S256x256 :=
  (reshape_read ops_chain 226 (lt_length (by decide)) main_v176 main_v177 shapeCasts_S1x1x256x256_S256x256 (hop := rfl) (hkx := by decide) (V := V)).trans rfl

theorem at_main_v178 : (𝐑 main_v178 : (⟨S50000x256, .f32⟩ : BufTy).Contents (Elt F)) = Host.dotGeneral dot_S50000x256_S256x256_S50000x256_1_0_0_1_n_n none (𝐑 main_v175 : (⟨S50000x256, .f32⟩ : BufTy).Contents (Elt F)) (𝐑 main_v177 : (⟨S256x256, .f32⟩ : BufTy).Contents (Elt F)) :=
  binary_read ops_chain 227 (lt_length (by decide)) main_v175 main_v177 main_v178 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v179 : (𝐑 main_v179 : (⟨S1x1x256, .f32⟩ : BufTy).Contents (Elt F)) = extractStridedSlice S1x1x256 ![1, 1, 0] (𝐑 main_arg7 : (⟨S3x3x256, .f32⟩ : BufTy).Contents (Elt F)) slices_S3x3x256_S1x1x256_1_1_0 :=
  unary_read ops_chain 228 (lt_length (by decide)) main_arg7 main_v179 (f := ((extractStridedSlice S1x1x256 ![1, 1, 0] · slices_S3x3x256_S1x1x256_1_1_0) : (⟨S3x3x256, .f32⟩ : BufTy).Contents (Elt F) → (⟨S1x1x256, .f32⟩ : BufTy).Contents (Elt F))) (hop := rfl) (hkx := by decide) (V := V)

theorem at_main_v180 : (𝐑 main_v180 : (⟨S256, .f32⟩ : BufTy).Contents (Elt F)) = shapeCast S256 (𝐑 main_v179 : (⟨S1x1x256, .f32⟩ : BufTy).Contents (Elt F)) shapeCasts_S1x1x256_S256 :=
  (reshape_read ops_chain 229 (lt_length (by decide)) main_v179 main_v180 shapeCasts_S1x1x256_S256 (hop := rfl) (hkx := by decide) (V := V)).trans rfl

theorem at_main_v181 : (𝐑 main_v181 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v180 : (⟨S256, .f32⟩ : BufTy).Contents (Elt F)) :=
  unary_read ops_chain 230 (lt_length (by decide)) main_v180 main_v181 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v182 : (𝐑 main_v182 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v181 : (⟨S1x256, .f32⟩ : BufTy).Contents (Elt F)) :=
  unary_read ops_chain 231 (lt_length (by decide)) main_v181 main_v182 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v183 : (𝐑 main_v183 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v178 : (⟨S50000x256, .f32⟩ : BufTy).Contents (Elt F)) (𝐑 main_v182 : (⟨S50000x256, .f32⟩ : BufTy).Contents (Elt F)) :=
  binary_read ops_chain 232 (lt_length (by decide)) main_v178 main_v182 main_v183 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_26 : (𝐑 main_cst_26 : (⟨S_, .f32⟩ : BufTy).Contents (Elt F)) = (constant S_ .f32 0x00000000#32) :=
  nullary_read ops_chain 233 (lt_length (by decide)) main_cst_26 (hop := rfl) (V := V)

theorem at_main_v184 : (𝐑 main_v184 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_26 : (⟨S_, .f32⟩ : BufTy).Contents (Elt F)) :=
  unary_read ops_chain 234 (lt_length (by decide)) main_cst_26 main_v184 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v185 : (𝐑 main_v185 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v183 : (⟨S50000x256, .f32⟩ : BufTy).Contents (Elt F)) (𝐑 main_v184 : (⟨S50000x256, .f32⟩ : BufTy).Contents (Elt F)) :=
  binary_read ops_chain 235 (lt_length (by decide)) main_v183 main_v184 main_v185 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_27 : (𝐑 main_c_27 : (⟨S_, .i32⟩ : BufTy).Contents (Elt F)) = (constantI S_ 32 0#32) :=
  nullary_read ops_chain 236 (lt_length (by decide)) main_c_27 (hop := rfl) (V := V)

theorem at_main_v186 : (𝐑 main_v186 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_27 : (⟨S_, .i32⟩ : BufTy).Contents (Elt F)) :=
  unary_read ops_chain 237 (lt_length (by decide)) main_c_27 main_v186 (f := (broadcastInDim S300000 ![] bcast_S_S300000 : (⟨S_, .i32⟩ : BufTy).Contents (Elt F) → (⟨S300000, .i32⟩ : BufTy).Contents (Elt F))) (hop := rfl) (hkx := by decide) (V := V)

theorem at_main_v187 : (𝐑 main_v187 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v186 : (⟨S300000, .i32⟩ : BufTy).Contents (Elt F)) :=
  binary_read ops_chain 238 (lt_length (by decide)) main_v1 main_v186 main_v187 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_28 : (𝐑 main_c_28 : (⟨S_, .i32⟩ : BufTy).Contents (Elt F)) = (constantI S_ 32 50000#32) :=
  nullary_read ops_chain 239 (lt_length (by decide)) main_c_28 (hop := rfl) (V := V)

theorem at_main_v188 : (𝐑 main_v188 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_28 : (⟨S_, .i32⟩ : BufTy).Contents (Elt F)) :=
  unary_read ops_chain 240 (lt_length (by decide)) main_c_28 main_v188 (f := (broadcastInDim S300000 ![] bcast_S_S300000 : (⟨S_, .i32⟩ : BufTy).Contents (Elt F) → (⟨S300000, .i32⟩ : BufTy).Contents (Elt F))) (hop := rfl) (hkx := by decide) (V := V)

theorem at_main_v189 : (𝐑 main_v189 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v188 : (⟨S300000, .i32⟩ : BufTy).Contents (Elt F)) :=
  binary_read ops_chain 241 (lt_length (by decide)) main_v1 main_v188 main_v189 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v190 : (𝐑 main_v190 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v187 : (⟨S300000, .i1⟩ : BufTy).Contents (Elt F)) (𝐑 main_v189 : (⟨S300000, .i32⟩ : BufTy).Contents (Elt F)) (𝐑 main_v1 : (⟨S300000, .i32⟩ : BufTy).Contents (Elt F)) :=
  ternary_read ops_chain 242 (lt_length (by decide)) main_v187 main_v189 main_v1 main_v190 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v191 : (𝐑 main_v191 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v190 : (⟨S300000, .i32⟩ : BufTy).Contents (Elt F)) :=
  unary_read ops_chain 243 (lt_length (by decide)) main_v190 main_v191 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v192 : (𝐑 main_v192 : (⟨S300000x256, .f32⟩ : BufTy).Contents (Elt F)) = Host.gather gather_S50000x256_S300000x1_S300000x256_1_0_n_n_0_1_1256 (𝐑 main_v185 : (⟨S50000x256, .f32⟩ : BufTy).Contents (Elt F)) (𝐑 main_v191 : (⟨S300000x1, .i32⟩ : BufTy).Contents (Elt F)) :=
  binary_read ops_chain 244 (lt_length (by decide)) main_v185 main_v191 main_v192 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_29 : (𝐑 main_cst_29 : (⟨S_, .f32⟩ : BufTy).Contents (Elt F)) = (constant S_ .f32 0x00000000#32) :=
  nullary_read ops_chain 245 (lt_length (by decide)) main_cst_29 (hop := rfl) (V := V)

theorem at_main_v193 : (𝐑 main_v193 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_29 : (⟨S_, .f32⟩ : BufTy).Contents (Elt F)) :=
  unary_read ops_chain 246 (lt_length (by decide)) main_cst_29 main_v193 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v194 : (𝐑 main_v194 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 247 (lt_length (by decide)) main_v3 main_v194 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v195 : (𝐑 main_v195 : (⟨S50000x256, .f32⟩ : BufTy).Contents (Elt F)) = Host.scatterAdd scatter_S50000x256_S300000x1_S300000x256_1_0_0_1 (𝐑 main_v193 : (⟨S50000x256, .f32⟩ : BufTy).Contents (Elt F)) (𝐑 main_v194 : (⟨S300000x1, .i32⟩ : BufTy).Contents (Elt F)) (𝐑 main_v192 : (⟨S300000x256, .f32⟩ : BufTy).Contents (Elt F)) :=
  ternary_read ops_chain 248 (lt_length (by decide)) main_v193 main_v194 main_v192 main_v195 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v196 : (𝐑 main_v196 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v185 : (⟨S50000x256, .f32⟩ : BufTy).Contents (Elt F)) (𝐑 main_v195 : (⟨S50000x256, .f32⟩ : BufTy).Contents (Elt F)) :=
  binary_read ops_chain 249 (lt_length (by decide)) main_v185 main_v195 main_v196 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v197 : (𝐑 main_v197 : (⟨S1x1x256x256, .f32⟩ : BufTy).Contents (Elt F)) = extractStridedSlice S1x1x256x256 ![1, 2, 0, 0] (𝐑 main_arg4 : (⟨S3x3x256x256, .f32⟩ : BufTy).Contents (Elt F)) slices_S3x3x256x256_S1x1x256x256_1_2_0_0 :=
  unary_read ops_chain 250 (lt_length (by decide)) main_arg4 main_v197 (f := ((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F))) (hop := rfl) (hkx := by decide) (V := V)

theorem at_main_v198 : (𝐑 main_v198 : (⟨S256x256, .f32⟩ : BufTy).Contents (Elt F)) = shapeCast S256x256 (𝐑 main_v197 : (⟨S1x1x256x256, .f32⟩ : BufTy).Contents (Elt F)) shapeCasts_S1x1x256x256_S256x256 :=
  (reshape_read ops_chain 251 (lt_length (by decide)) main_v197 main_v198 shapeCasts_S1x1x256x256_S256x256 (hop := rfl) (hkx := by decide) (V := V)).trans rfl

theorem at_main_v199 : (𝐑 main_v199 : (⟨S50000x256, .f32⟩ : BufTy).Contents (Elt F)) = Host.dotGeneral dot_S50000x256_S256x256_S50000x256_1_0_0_1_n_n none (𝐑 main_v196 : (⟨S50000x256, .f32⟩ : BufTy).Contents (Elt F)) (𝐑 main_v198 : (⟨S256x256, .f32⟩ : BufTy).Contents (Elt F)) :=
  binary_read ops_chain 252 (lt_length (by decide)) main_v196 main_v198 main_v199 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v200 : (𝐑 main_v200 : (⟨S1x1x256, .f32⟩ : BufTy).Contents (Elt F)) = extractStridedSlice S1x1x256 ![1, 2, 0] (𝐑 main_arg5 : (⟨S3x3x256, .f32⟩ : BufTy).Contents (Elt F)) slices_S3x3x256_S1x1x256_1_2_0 :=
  unary_read ops_chain 253 (lt_length (by decide)) main_arg5 main_v200 (f := ((extractStridedSlice S1x1x256 ![1, 2, 0] · slices_S3x3x256_S1x1x256_1_2_0) : (⟨S3x3x256, .f32⟩ : BufTy).Contents (Elt F) → (⟨S1x1x256, .f32⟩ : BufTy).Contents (Elt F))) (hop := rfl) (hkx := by decide) (V := V)

theorem at_main_v201 : (𝐑 main_v201 : (⟨S256, .f32⟩ : BufTy).Contents (Elt F)) = shapeCast S256 (𝐑 main_v200 : (⟨S1x1x256, .f32⟩ : BufTy).Contents (Elt F)) shapeCasts_S1x1x256_S256 :=
  (reshape_read ops_chain 254 (lt_length (by decide)) main_v200 main_v201 shapeCasts_S1x1x256_S256 (hop := rfl) (hkx := by decide) (V := V)).trans rfl

theorem at_main_v202 : (𝐑 main_v202 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v201 : (⟨S256, .f32⟩ : BufTy).Contents (Elt F)) :=
  unary_read ops_chain 255 (lt_length (by decide)) main_v201 main_v202 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v203 : (𝐑 main_v203 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v202 : (⟨S1x256, .f32⟩ : BufTy).Contents (Elt F)) :=
  unary_read ops_chain 256 (lt_length (by decide)) main_v202 main_v203 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v204 : (𝐑 main_v204 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v199 : (⟨S50000x256, .f32⟩ : BufTy).Contents (Elt F)) (𝐑 main_v203 : (⟨S50000x256, .f32⟩ : BufTy).Contents (Elt F)) :=
  binary_read ops_chain 257 (lt_length (by decide)) main_v199 main_v203 main_v204 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_30 : (𝐑 main_cst_30 : (⟨S_, .f32⟩ : BufTy).Contents (Elt F)) = (constant S_ .f32 0x00000000#32) :=
  nullary_read ops_chain 258 (lt_length (by decide)) main_cst_30 (hop := rfl) (V := V)

theorem at_main_v205 : (𝐑 main_v205 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_30 : (⟨S_, .f32⟩ : BufTy).Contents (Elt F)) :=
  unary_read ops_chain 259 (lt_length (by decide)) main_cst_30 main_v205 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v206 : (𝐑 main_v206 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v204 : (⟨S50000x256, .f32⟩ : BufTy).Contents (Elt F)) (𝐑 main_v205 : (⟨S50000x256, .f32⟩ : BufTy).Contents (Elt F)) :=
  binary_read ops_chain 260 (lt_length (by decide)) main_v204 main_v205 main_v206 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v207 : (𝐑 main_v207 : (⟨S1x1x256x256, .f32⟩ : BufTy).Contents (Elt F)) = extractStridedSlice S1x1x256x256 ![1, 2, 0, 0] (𝐑 main_arg6 : (⟨S3x3x256x256, .f32⟩ : BufTy).Contents (Elt F)) slices_S3x3x256x256_S1x1x256x256_1_2_0_0 :=
  unary_read ops_chain 261 (lt_length (by decide)) main_arg6 main_v207 (f := ((extractStridedSlice S1x1x256x256 ![1, 2, 0, 0] · slices_S3x3x256x256_S1x1x256x256_1_2_0_0) : (⟨S3x3x256x256, .f32⟩ : BufTy).Contents (Elt F) → (⟨S1x1x256x256, .f32⟩ : BufTy).Contents (Elt F))) (hop := rfl) (hkx := by decide) (V := V)

theorem at_main_v208 : (𝐑 main_v208 : (⟨S256x256, .f32⟩ : BufTy).Contents (Elt F)) = shapeCast S256x256 (𝐑 main_v207 : (⟨S1x1x256x256, .f32⟩ : BufTy).Contents (Elt F)) shapeCasts_S1x1x256x256_S256x256 :=
  (reshape_read ops_chain 262 (lt_length (by decide)) main_v207 main_v208 shapeCasts_S1x1x256x256_S256x256 (hop := rfl) (hkx := by decide) (V := V)).trans rfl

theorem at_main_v209 : (𝐑 main_v209 : (⟨S50000x256, .f32⟩ : BufTy).Contents (Elt F)) = Host.dotGeneral dot_S50000x256_S256x256_S50000x256_1_0_0_1_n_n none (𝐑 main_v206 : (⟨S50000x256, .f32⟩ : BufTy).Contents (Elt F)) (𝐑 main_v208 : (⟨S256x256, .f32⟩ : BufTy).Contents (Elt F)) :=
  binary_read ops_chain 263 (lt_length (by decide)) main_v206 main_v208 main_v209 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v210 : (𝐑 main_v210 : (⟨S1x1x256, .f32⟩ : BufTy).Contents (Elt F)) = extractStridedSlice S1x1x256 ![1, 2, 0] (𝐑 main_arg7 : (⟨S3x3x256, .f32⟩ : BufTy).Contents (Elt F)) slices_S3x3x256_S1x1x256_1_2_0 :=
  unary_read ops_chain 264 (lt_length (by decide)) main_arg7 main_v210 (f := ((extractStridedSlice S1x1x256 ![1, 2, 0] · slices_S3x3x256_S1x1x256_1_2_0) : (⟨S3x3x256, .f32⟩ : BufTy).Contents (Elt F) → (⟨S1x1x256, .f32⟩ : BufTy).Contents (Elt F))) (hop := rfl) (hkx := by decide) (V := V)

theorem at_main_v211 : (𝐑 main_v211 : (⟨S256, .f32⟩ : BufTy).Contents (Elt F)) = shapeCast S256 (𝐑 main_v210 : (⟨S1x1x256, .f32⟩ : BufTy).Contents (Elt F)) shapeCasts_S1x1x256_S256 :=
  (reshape_read ops_chain 265 (lt_length (by decide)) main_v210 main_v211 shapeCasts_S1x1x256_S256 (hop := rfl) (hkx := by decide) (V := V)).trans rfl

theorem at_main_v212 : (𝐑 main_v212 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v211 : (⟨S256, .f32⟩ : BufTy).Contents (Elt F)) :=
  unary_read ops_chain 266 (lt_length (by decide)) main_v211 main_v212 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v213 : (𝐑 main_v213 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v212 : (⟨S1x256, .f32⟩ : BufTy).Contents (Elt F)) :=
  unary_read ops_chain 267 (lt_length (by decide)) main_v212 main_v213 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v214 : (𝐑 main_v214 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v209 : (⟨S50000x256, .f32⟩ : BufTy).Contents (Elt F)) (𝐑 main_v213 : (⟨S50000x256, .f32⟩ : BufTy).Contents (Elt F)) :=
  binary_read ops_chain 268 (lt_length (by decide)) main_v209 main_v213 main_v214 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_31 : (𝐑 main_cst_31 : (⟨S_, .f32⟩ : BufTy).Contents (Elt F)) = (constant S_ .f32 0x00000000#32) :=
  nullary_read ops_chain 269 (lt_length (by decide)) main_cst_31 (hop := rfl) (V := V)

theorem at_main_v215 : (𝐑 main_v215 : (⟨S256, .f32⟩ : BufTy).Contents (Elt F)) = Host.reduceAdd (𝐑 main_v214 : (⟨S50000x256, .f32⟩ : BufTy).Contents (Elt F)) (𝐑 main_cst_31 : (⟨S_, .f32⟩ : BufTy).Contents (Elt F)) reducesTo_S50000x256_S256_d0 h_S_ :=
  binary_read ops_chain 270 (lt_length (by decide)) main_v214 main_cst_31 main_v215 (f := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))) (hop := rfl) (hka := by decide) (hkb := by decide) (V := V)

theorem at_main_cst_32 : (𝐑 main_cst_32 : (⟨S_, .f32⟩ : BufTy).Contents (Elt F)) = (constant S_ .f32 0x47435000#32) :=
  nullary_read ops_chain 271 (lt_length (by decide)) main_cst_32 (hop := rfl) (V := V)

theorem at_main_v216 : (𝐑 main_v216 : (⟨S256, .f32⟩ : BufTy).Contents (Elt F)) = (broadcastInDim S256 ![] bcast_S_S256 : (⟨S_, .f32⟩ : BufTy).Contents (Elt F) → (⟨S256, .f32⟩ : BufTy).Contents (Elt F)) (𝐑 main_cst_32 : (⟨S_, .f32⟩ : BufTy).Contents (Elt F)) :=
  unary_read ops_chain 272 (lt_length (by decide)) main_cst_32 main_v216 (f := (broadcastInDim S256 ![] bcast_S_S256 : (⟨S_, .f32⟩ : BufTy).Contents (Elt F) → (⟨S256, .f32⟩ : BufTy).Contents (Elt F))) (hop := rfl) (hkx := by decide) (V := V)

theorem at_main_v217 : (𝐑 main_v217 : (⟨S256, .f32⟩ : BufTy).Contents (Elt F)) = (Host.divf : (⟨S256, .f32⟩ : BufTy).Contents (Elt F) → (⟨S256, .f32⟩ : BufTy).Contents (Elt F) → (⟨S256, .f32⟩ : BufTy).Contents (Elt F)) (𝐑 main_v215 : (⟨S256, .f32⟩ : BufTy).Contents (Elt F)) (𝐑 main_v216 : (⟨S256, .f32⟩ : BufTy).Contents (Elt F)) :=
  binary_read ops_chain 273 (lt_length (by decide)) main_v215 main_v216 main_v217 (f := (Host.divf : (⟨S256, .f32⟩ : BufTy).Contents (Elt F) → (⟨S256, .f32⟩ : BufTy).Contents (Elt F) → (⟨S256, .f32⟩ : BufTy).Contents (Elt F))) (hop := rfl) (hka := by decide) (hkb := by decide) (V := V)

theorem at_main_c_33 : (𝐑 main_c_33 : (⟨S_, .i32⟩ : BufTy).Contents (Elt F)) = (constantI S_ 32 0#32) :=
  nullary_read ops_chain 274 (lt_length (by decide)) main_c_33 (hop := rfl) (V := V)

theorem at_main_call1_cst : (𝐑 main_call1_cst : (⟨S_, .f32⟩ : BufTy).Contents (Elt F)) = (constant S_ .f32 0x00000000#32) :=
  (nullary_read ops_chain 275 (lt_length (by decide)) main_call1_cst (v := (main_call1.cst).toBuf (constant S_ .f32 0x00000000#32)) (hop := rfl)  (V := V)).trans rfl

theorem at_main_call1_v0 : (𝐑 main_call1_v0 : (⟨S256, .f32⟩ : BufTy).Contents (Elt F)) = Host.reduceAdd (𝐑 main_v214 : (⟨S50000x256, .f32⟩ : BufTy).Contents (Elt F)) (𝐑 main_call1_cst : (⟨S_, .f32⟩ : BufTy).Contents (Elt F)) reducesTo_S50000x256_S256_d0 h_S_ :=
  (binary_read ops_chain 276 (lt_length (by decide)) main_v214 main_call1_cst main_call1_v0 (f := fun u v => (main_call1.v0).toBuf ((fun x v => Host.reduceAdd x v reducesTo_S50000x256_S256_d0 h_S_) (((.of main_v214 : TRef sig ⟨S50000x256, .f32⟩)).ofBuf u) ((main_call1.cst).ofBuf v))) (hop := rfl) (hka := by decide) (hkb := by decide) (V := V)).trans rfl

theorem at_main_call1_v1 : (𝐑 main_call1_v1 : (⟨S1x256, .f32⟩ : BufTy).Contents (Elt F)) = (broadcastInDim S1x256 ![1] bcast_S256_S1x256_1) (𝐑 main_call1_v0 : (⟨S256, .f32⟩ : BufTy).Contents (Elt F)) :=
  (unary_read ops_chain 277 (lt_length (by decide)) main_call1_v0 main_call1_v1 (f := fun u => (main_call1.v1).toBuf ((broadcastInDim S1x256 ![1] bcast_S256_S1x256_1) ((main_call1.v0).ofBuf u))) (hop := rfl) (hkx := by decide) (V := V)).trans rfl

theorem at_main_call1_cst_0 : (𝐑 main_call1_cst_0 : (⟨S_, .f32⟩ : BufTy).Contents (Elt F)) = (constant S_ .f32 0x47435000#32) :=
  (nullary_read ops_chain 278 (lt_length (by decide)) main_call1_cst_0 (v := (main_call1.cst_0).toBuf (constant S_ .f32 0x47435000#32)) (hop := rfl)  (V := V)).trans rfl

theorem at_main_call1_v2 : (𝐑 main_call1_v2 : (⟨S1x256, .f32⟩ : BufTy).Contents (Elt F)) = (broadcastInDim S1x256 ![] bcast_S_S1x256) (𝐑 main_call1_cst_0 : (⟨S_, .f32⟩ : BufTy).Contents (Elt F)) :=
  (unary_read ops_chain 279 (lt_length (by decide)) main_call1_cst_0 main_call1_v2 (f := fun u => (main_call1.v2).toBuf ((broadcastInDim S1x256 ![] bcast_S_S1x256) ((main_call1.cst_0).ofBuf u))) (hop := rfl) (hkx := by decide) (V := V)).trans rfl

theorem at_main_call1_v3 : (𝐑 main_call1_v3 : (⟨S1x256, .f32⟩ : BufTy).Contents (Elt F)) = Host.divf (𝐑 main_call1_v1 : (⟨S1x256, .f32⟩ : BufTy).Contents (Elt F)) (𝐑 main_call1_v2 : (⟨S1x256, .f32⟩ : BufTy).Contents (Elt F)) :=
  (binary_read ops_chain 280 (lt_length (by decide)) main_call1_v1 main_call1_v2 main_call1_v3 (f := fun u v => (main_call1.v3).toBuf (Host.divf ((main_call1.v1).ofBuf u) ((main_call1.v2).ofBuf v))) (hop := rfl) (hka := by decide) (hkb := by decide) (V := V)).trans rfl

theorem at_main_call1_v4 : (𝐑 main_call1_v4 : (⟨S50000x256, .f32⟩ : BufTy).Contents (Elt F)) = (broadcastInDim S50000x256 ![0, 1] bcast_S1x256_S50000x256_0_1) (𝐑 main_call1_v3 : (⟨S1x256, .f32⟩ : BufTy).Contents (Elt F)) :=
  (unary_read ops_chain 281 (lt_length (by decide)) main_call1_v3 main_call1_v4 (f := fun u => (main_call1.v4).toBuf ((broadcastInDim S50000x256 ![0, 1] bcast_S1x256_S50000x256_0_1) ((main_call1.v3).ofBuf u))) (hop := rfl) (hkx := by decide) (V := V)).trans rfl

theorem at_main_call1_v5 : (𝐑 main_call1_v5 : (⟨S50000x256, .f32⟩ : BufTy).Contents (Elt F)) = subf (𝐑 main_v214 : (⟨S50000x256, .f32⟩ : BufTy).Contents (Elt F)) (𝐑 main_call1_v4 : (⟨S50000x256, .f32⟩ : BufTy).Contents (Elt F)) :=
  (binary_read ops_chain 282 (lt_length (by decide)) main_v214 main_call1_v4 main_call1_v5 (f := fun u v => (main_call1.v5).toBuf (subf (((.of main_v214 : TRef sig ⟨S50000x256, .f32⟩)).ofBuf u) ((main_call1.v4).ofBuf v))) (hop := rfl) (hka := by decide) (hkb := by decide) (V := V)).trans rfl

theorem at_main_call1_v6 : (𝐑 main_call1_v6 : (⟨S50000x256, .f32⟩ : BufTy).Contents (Elt F)) = mulf (𝐑 main_call1_v5 : (⟨S50000x256, .f32⟩ : BufTy).Contents (Elt F)) (𝐑 main_call1_v5 : (⟨S50000x256, .f32⟩ : BufTy).Contents (Elt F)) :=
  (binary_read ops_chain 283 (lt_length (by decide)) main_call1_v5 main_call1_v5 main_call1_v6 (f := fun u v => (main_call1.v6).toBuf (mulf ((main_call1.v5).ofBuf u) ((main_call1.v5).ofBuf v))) (hop := rfl) (hka := by decide) (hkb := by decide) (V := V)).trans rfl

theorem at_main_call1_v7 : (𝐑 main_call1_v7 : (⟨S_, .f32⟩ : BufTy).Contents (Elt F)) = (sitofp .f32) (𝐑 main_c_33 : (⟨S_, .i32⟩ : BufTy).Contents (Elt F)) :=
  (unary_read ops_chain 284 (lt_length (by decide)) main_c_33 main_call1_v7 (f := fun u => (main_call1.v7).toBuf ((sitofp .f32) (((.of main_c_33 : TRef sig ⟨S_, .i32⟩)).ofBuf u))) (hop := rfl) (hkx := by decide) (V := V)).trans rfl

theorem at_main_call1_cst_1 : (𝐑 main_call1_cst_1 : (⟨S_, .f32⟩ : BufTy).Contents (Elt F)) = (constant S_ .f32 0x47435000#32) :=
  (nullary_read ops_chain 285 (lt_length (by decide)) main_call1_cst_1 (v := (main_call1.cst_1).toBuf (constant S_ .f32 0x47435000#32)) (hop := rfl)  (V := V)).trans rfl

theorem at_main_call1_v8 : (𝐑 main_call1_v8 : (⟨S_, .f32⟩ : BufTy).Contents (Elt F)) = subf (𝐑 main_call1_cst_1 : (⟨S_, .f32⟩ : BufTy).Contents (Elt F)) (𝐑 main_call1_v7 : (⟨S_, .f32⟩ : BufTy).Contents (Elt F)) :=
  (binary_read ops_chain 286 (lt_length (by decide)) main_call1_cst_1 main_call1_v7 main_call1_v8 (f := fun u v => (main_call1.v8).toBuf (subf ((main_call1.cst_1).ofBuf u) ((main_call1.v7).ofBuf v))) (hop := rfl) (hka := by decide) (hkb := by decide) (V := V)).trans rfl

theorem at_main_call1_cst_2 : (𝐑 main_call1_cst_2 : (⟨S_, .f32⟩ : BufTy).Contents (Elt F)) = (constant S_ .f32 0x00000000#32) :=
  (nullary_read ops_chain 287 (lt_length (by decide)) main_call1_cst_2 (v := (main_call1.cst_2).toBuf (constant S_ .f32 0x00000000#32)) (hop := rfl)  (V := V)).trans rfl

theorem at_main_call1_v9 : (𝐑 main_call1_v9 : (⟨S256, .f32⟩ : BufTy).Contents (Elt F)) = Host.reduceAdd (𝐑 main_call1_v6 : (⟨S50000x256, .f32⟩ : BufTy).Contents (Elt F)) (𝐑 main_call1_cst_2 : (⟨S_, .f32⟩ : BufTy).Contents (Elt F)) reducesTo_S50000x256_S256_d0 h_S_ :=
  (binary_read ops_chain 288 (lt_length (by decide)) main_call1_v6 main_call1_cst_2 main_call1_v9 (f := fun u v => (main_call1.v9).toBuf ((fun x v => Host.reduceAdd x v reducesTo_S50000x256_S256_d0 h_S_) ((main_call1.v6).ofBuf u) ((main_call1.cst_2).ofBuf v))) (hop := rfl) (hka := by decide) (hkb := by decide) (V := V)).trans rfl

theorem at_main_call1_v10 : (𝐑 main_call1_v10 : (⟨S256, .f32⟩ : BufTy).Contents (Elt F)) = (broadcastInDim S256 ![] bcast_S_S256) (𝐑 main_call1_v8 : (⟨S_, .f32⟩ : BufTy).Contents (Elt F)) :=
  (unary_read ops_chain 289 (lt_length (by decide)) main_call1_v8 main_call1_v10 (f := fun u => (main_call1.v10).toBuf ((broadcastInDim S256 ![] bcast_S_S256) ((main_call1.v8).ofBuf u))) (hop := rfl) (hkx := by decide) (V := V)).trans rfl

theorem at_main_call1_v11 : (𝐑 main_call1_v11 : (⟨S256, .f32⟩ : BufTy).Contents (Elt F)) = Host.divf (𝐑 main_call1_v9 : (⟨S256, .f32⟩ : BufTy).Contents (Elt F)) (𝐑 main_call1_v10 : (⟨S256, .f32⟩ : BufTy).Contents (Elt F)) :=
  (binary_read ops_chain 290 (lt_length (by decide)) main_call1_v9 main_call1_v10 main_call1_v11 (f := fun u v => (main_call1.v11).toBuf (Host.divf ((main_call1.v9).ofBuf u) ((main_call1.v10).ofBuf v))) (hop := rfl) (hka := by decide) (hkb := by decide) (V := V)).trans rfl

theorem at_main_call1_cst_3 : (𝐑 main_call1_cst_3 : (⟨S_, .f32⟩ : BufTy).Contents (Elt F)) = (constant S_ .f32 0x00000000#32) :=
  (nullary_read ops_chain 291 (lt_length (by decide)) main_call1_cst_3 (v := (main_call1.cst_3).toBuf (constant S_ .f32 0x00000000#32)) (hop := rfl)  (V := V)).trans rfl

theorem at_main_call1_v12 : (𝐑 main_call1_v12 : (⟨S_, .i1⟩ : BufTy).Contents (Elt F)) = (cmpf .ogt) (𝐑 main_call1_v8 : (⟨S_, .f32⟩ : BufTy).Contents (Elt F)) (𝐑 main_call1_cst_3 : (⟨S_, .f32⟩ : BufTy).Contents (Elt F)) :=
  (binary_read ops_chain 292 (lt_length (by decide)) main_call1_v8 main_call1_cst_3 main_call1_v12 (f := fun u v => (main_call1.v12).toBuf ((cmpf .ogt) ((main_call1.v8).ofBuf u) ((main_call1.cst_3).ofBuf v))) (hop := rfl) (hka := by decide) (hkb := by decide) (V := V)).trans rfl

theorem at_main_call1_cst_4 : (𝐑 main_call1_cst_4 : (⟨S_, .f32⟩ : BufTy).Contents (Elt F)) = (constant S_ .f32 0x7FC00000#32) :=
  (nullary_read ops_chain 293 (lt_length (by decide)) main_call1_cst_4 (v := (main_call1.cst_4).toBuf (constant S_ .f32 0x7FC00000#32)) (hop := rfl)  (V := V)).trans rfl

theorem at_main_call1_call0_v0 : (𝐑 main_call1_call0_v0 : (⟨S_, .f32⟩ : BufTy).Contents (Elt F)) = (𝐑 main_call1_cst_4 : (⟨S_, .f32⟩ : BufTy).Contents (Elt F)) :=
  (unary_read ops_chain 294 (lt_length (by decide)) main_call1_cst_4 main_call1_call0_v0 (f := fun u => (main_call1.call0.v0).toBuf (id ((main_call1.cst_4).ofBuf u))) (hop := rfl) (hkx := by decide) (V := V)).trans rfl

theorem at_main_call1_call0_v1 : (𝐑 main_call1_call0_v1 : (⟨S256, .f32⟩ : BufTy).Contents (Elt F)) = (broadcastInDim S256 ![] bcast_S_S256) (𝐑 main_call1_call0_v0 : (⟨S_, .f32⟩ : BufTy).Contents (Elt F)) :=
  (unary_read ops_chain 295 (lt_length (by decide)) main_call1_call0_v0 main_call1_call0_v1 (f := fun u => (main_call1.call0.v1).toBuf ((broadcastInDim S256 ![] bcast_S_S256) ((main_call1.call0.v0).ofBuf u))) (hop := rfl) (hkx := by decide) (V := V)).trans rfl

theorem at_main_v218 : (𝐑 main_v218 : (⟨S256, .f32⟩ : BufTy).Contents (Elt F)) = select (broadcastInDim S256 ![] bcast_S_S256 (𝐑 main_call1_v12 : (⟨S_, .i1⟩ : BufTy).Contents (Elt F))) (𝐑 main_call1_v11 : (⟨S256, .f32⟩ : BufTy).Contents (Elt F)) (𝐑 main_call1_call0_v1 : (⟨S256, .f32⟩ : BufTy).Contents (Elt F)) :=
  (ternary_read ops_chain 296 (lt_length (by decide)) main_call1_v12 main_call1_v11 main_call1_call0_v1 main_v218 (f := fun w u v => (main_call1.call0.v2).toBuf ((fun p a b => select (broadcastInDim S256 ![] bcast_S_S256 p) a b) ((main_call1.v12).ofBuf w) ((main_call1.v11).ofBuf u) ((main_call1.call0.v1).ofBuf v))) (hop := rfl) (hkc := by decide) (hka := by decide) (hkb := by decide) (V := V)).trans rfl

theorem at_main_v219 : (𝐑 main_v219 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v217 : (⟨S256, .f32⟩ : BufTy).Contents (Elt F)) :=
  unary_read ops_chain 297 (lt_length (by decide)) main_v217 main_v219 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v220 : (𝐑 main_v220 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v219 : (⟨S1x256, .f32⟩ : BufTy).Contents (Elt F)) :=
  unary_read ops_chain 298 (lt_length (by decide)) main_v219 main_v220 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v221 : (𝐑 main_v221 : (⟨S50000x256, .f32⟩ : BufTy).Contents (Elt F)) = (subf : (⟨S50000x256, .f32⟩ : BufTy).Contents (Elt F) → (⟨S50000x256, .f32⟩ : BufTy).Contents (Elt F) → (⟨S50000x256, .f32⟩ : BufTy).Contents (Elt F)) (𝐑 main_v214 : (⟨S50000x256, .f32⟩ : BufTy).Contents (Elt F)) (𝐑 main_v220 : (⟨S50000x256, .f32⟩ : BufTy).Contents (Elt F)) :=
  binary_read ops_chain 299 (lt_length (by decide)) main_v214 main_v220 main_v221 (f := (subf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_34 : (𝐑 main_cst_34 : (⟨S_, .f32⟩ : BufTy).Contents (Elt F)) = (constant S_ .f32 0x3727C5AC#32) :=
  nullary_read ops_chain 300 (lt_length (by decide)) main_cst_34 (hop := rfl) (V := V)

theorem at_main_v222 : (𝐑 main_v222 : (⟨S256, .f32⟩ : BufTy).Contents (Elt F)) = (broadcastInDim S256 ![] bcast_S_S256 : (⟨S_, .f32⟩ : BufTy).Contents (Elt F) → (⟨S256, .f32⟩ : BufTy).Contents (Elt F)) (𝐑 main_cst_34 : (⟨S_, .f32⟩ : BufTy).Contents (Elt F)) :=
  unary_read ops_chain 301 (lt_length (by decide)) main_cst_34 main_v222 (f := (broadcastInDim S256 ![] bcast_S_S256 : (⟨S_, .f32⟩ : BufTy).Contents (Elt F) → (⟨S256, .f32⟩ : BufTy).Contents (Elt F))) (hop := rfl) (hkx := by decide) (V := V)

theorem at_main_v223 : (𝐑 main_v223 : (⟨S256, .f32⟩ : BufTy).Contents (Elt F)) = (addf : (⟨S256, .f32⟩ : BufTy).Contents (Elt F) → (⟨S256, .f32⟩ : BufTy).Contents (Elt F) → (⟨S256, .f32⟩ : BufTy).Contents (Elt F)) (𝐑 main_v218 : (⟨S256, .f32⟩ : BufTy).Contents (Elt F)) (𝐑 main_v222 : (⟨S256, .f32⟩ : BufTy).Contents (Elt F)) :=
  binary_read ops_chain 302 (lt_length (by decide)) main_v218 main_v222 main_v223 (f := (addf : (⟨S256, .f32⟩ : BufTy).Contents (Elt F) → (⟨S256, .f32⟩ : BufTy).Contents (Elt F) → (⟨S256, .f32⟩ : BufTy).Contents (Elt F))) (hop := rfl) (hka := by decide) (hkb := by decide) (V := V)

theorem at_main_v224 : (𝐑 main_v224 : (⟨S256, .f32⟩ : BufTy).Contents (Elt F)) = (Host.rsqrt : (⟨S256, .f32⟩ : BufTy).Contents (Elt F) → (⟨S256, .f32⟩ : BufTy).Contents (Elt F)) (𝐑 main_v223 : (⟨S256, .f32⟩ : BufTy).Contents (Elt F)) :=
  unary_read ops_chain 303 (lt_length (by decide)) main_v223 main_v224 (f := (Host.rsqrt : (⟨S256, .f32⟩ : BufTy).Contents (Elt F) → (⟨S256, .f32⟩ : BufTy).Contents (Elt F))) (hop := rfl) (hkx := by decide) (V := V)

theorem at_main_v225 : (𝐑 main_v225 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v224 : (⟨S256, .f32⟩ : BufTy).Contents (Elt F)) :=
  unary_read ops_chain 304 (lt_length (by decide)) main_v224 main_v225 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v226 : (𝐑 main_v226 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v225 : (⟨S1x256, .f32⟩ : BufTy).Contents (Elt F)) :=
  unary_read ops_chain 305 (lt_length (by decide)) main_v225 main_v226 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v227 : (𝐑 main_v227 : (⟨S50000x256, .f32⟩ : BufTy).Contents (Elt F)) = (mulf : (⟨S50000x256, .f32⟩ : BufTy).Contents (Elt F) → (⟨S50000x256, .f32⟩ : BufTy).Contents (Elt F) → (⟨S50000x256, .f32⟩ : BufTy).Contents (Elt F)) (𝐑 main_v221 : (⟨S50000x256, .f32⟩ : BufTy).Contents (Elt F)) (𝐑 main_v226 : (⟨S50000x256, .f32⟩ : BufTy).Contents (Elt F)) :=
  binary_read ops_chain 306 (lt_length (by decide)) main_v221 main_v226 main_v227 (f := (mulf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v228 : (𝐑 main_v228 : (⟨S1x256, .f32⟩ : BufTy).Contents (Elt F)) = extractStridedSlice S1x256 ![1, 0] (𝐑 main_arg8 : (⟨S3x256, .f32⟩ : BufTy).Contents (Elt F)) slices_S3x256_S1x256_1_0 :=
  unary_read ops_chain 307 (lt_length (by decide)) main_arg8 main_v228 (f := ((extractStridedSlice S1x256 ![1, 0] · slices_S3x256_S1x256_1_0) : (⟨S3x256, .f32⟩ : BufTy).Contents (Elt F) → (⟨S1x256, .f32⟩ : BufTy).Contents (Elt F))) (hop := rfl) (hkx := by decide) (V := V)

theorem at_main_v229 : (𝐑 main_v229 : (⟨S256, .f32⟩ : BufTy).Contents (Elt F)) = shapeCast S256 (𝐑 main_v228 : (⟨S1x256, .f32⟩ : BufTy).Contents (Elt F)) shapeCasts_S1x256_S256 :=
  (reshape_read ops_chain 308 (lt_length (by decide)) main_v228 main_v229 shapeCasts_S1x256_S256 (hop := rfl) (hkx := by decide) (V := V)).trans rfl

theorem at_main_v230 : (𝐑 main_v230 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v229 : (⟨S256, .f32⟩ : BufTy).Contents (Elt F)) :=
  unary_read ops_chain 309 (lt_length (by decide)) main_v229 main_v230 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v231 : (𝐑 main_v231 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v230 : (⟨S1x256, .f32⟩ : BufTy).Contents (Elt F)) :=
  unary_read ops_chain 310 (lt_length (by decide)) main_v230 main_v231 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v232 : (𝐑 main_v232 : (⟨S50000x256, .f32⟩ : BufTy).Contents (Elt F)) = (mulf : (⟨S50000x256, .f32⟩ : BufTy).Contents (Elt F) → (⟨S50000x256, .f32⟩ : BufTy).Contents (Elt F) → (⟨S50000x256, .f32⟩ : BufTy).Contents (Elt F)) (𝐑 main_v227 : (⟨S50000x256, .f32⟩ : BufTy).Contents (Elt F)) (𝐑 main_v231 : (⟨S50000x256, .f32⟩ : BufTy).Contents (Elt F)) :=
  binary_read ops_chain 311 (lt_length (by decide)) main_v227 main_v231 main_v232 (f := (mulf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v233 : (𝐑 main_v233 : (⟨S1x256, .f32⟩ : BufTy).Contents (Elt F)) = extractStridedSlice S1x256 ![1, 0] (𝐑 main_arg9 : (⟨S3x256, .f32⟩ : BufTy).Contents (Elt F)) slices_S3x256_S1x256_1_0 :=
  unary_read ops_chain 312 (lt_length (by decide)) main_arg9 main_v233 (f := ((extractStridedSlice S1x256 ![1, 0] · slices_S3x256_S1x256_1_0) : (⟨S3x256, .f32⟩ : BufTy).Contents (Elt F) → (⟨S1x256, .f32⟩ : BufTy).Contents (Elt F))) (hop := rfl) (hkx := by decide) (V := V)

theorem at_main_v234 : (𝐑 main_v234 : (⟨S256, .f32⟩ : BufTy).Contents (Elt F)) = shapeCast S256 (𝐑 main_v233 : (⟨S1x256, .f32⟩ : BufTy).Contents (Elt F)) shapeCasts_S1x256_S256 :=
  (reshape_read ops_chain 313 (lt_length (by decide)) main_v233 main_v234 shapeCasts_S1x256_S256 (hop := rfl) (hkx := by decide) (V := V)).trans rfl

theorem at_main_v235 : (𝐑 main_v235 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v234 : (⟨S256, .f32⟩ : BufTy).Contents (Elt F)) :=
  unary_read ops_chain 314 (lt_length (by decide)) main_v234 main_v235 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v236 : (𝐑 main_v236 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v235 : (⟨S1x256, .f32⟩ : BufTy).Contents (Elt F)) :=
  unary_read ops_chain 315 (lt_length (by decide)) main_v235 main_v236 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v237 : (𝐑 main_v237 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v232 : (⟨S50000x256, .f32⟩ : BufTy).Contents (Elt F)) (𝐑 main_v236 : (⟨S50000x256, .f32⟩ : BufTy).Contents (Elt F)) :=
  binary_read ops_chain 316 (lt_length (by decide)) main_v232 main_v236 main_v237 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_35 : (𝐑 main_cst_35 : (⟨S_, .f32⟩ : BufTy).Contents (Elt F)) = (constant S_ .f32 0x00000000#32) :=
  nullary_read ops_chain 317 (lt_length (by decide)) main_cst_35 (hop := rfl) (V := V)

theorem at_main_v238 : (𝐑 main_v238 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_35 : (⟨S_, .f32⟩ : BufTy).Contents (Elt F)) :=
  unary_read ops_chain 318 (lt_length (by decide)) main_cst_35 main_v238 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v239 : (𝐑 main_v239 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v237 : (⟨S50000x256, .f32⟩ : BufTy).Contents (Elt F)) (𝐑 main_v238 : (⟨S50000x256, .f32⟩ : BufTy).Contents (Elt F)) :=
  binary_read ops_chain 319 (lt_length (by decide)) main_v237 main_v238 main_v239 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_36 : (𝐑 main_c_36 : (⟨S_, .i32⟩ : BufTy).Contents (Elt F)) = (constantI S_ 32 0#32) :=
  nullary_read ops_chain 320 (lt_length (by decide)) main_c_36 (hop := rfl) (V := V)

theorem at_main_v240 : (𝐑 main_v240 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_36 : (⟨S_, .i32⟩ : BufTy).Contents (Elt F)) :=
  unary_read ops_chain 321 (lt_length (by decide)) main_c_36 main_v240 (f := (broadcastInDim S300000 ![] bcast_S_S300000 : (⟨S_, .i32⟩ : BufTy).Contents (Elt F) → (⟨S300000, .i32⟩ : BufTy).Contents (Elt F))) (hop := rfl) (hkx := by decide) (V := V)

theorem at_main_v241 : (𝐑 main_v241 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v240 : (⟨S300000, .i32⟩ : BufTy).Contents (Elt F)) :=
  binary_read ops_chain 322 (lt_length (by decide)) main_v1 main_v240 main_v241 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_37 : (𝐑 main_c_37 : (⟨S_, .i32⟩ : BufTy).Contents (Elt F)) = (constantI S_ 32 50000#32) :=
  nullary_read ops_chain 323 (lt_length (by decide)) main_c_37 (hop := rfl) (V := V)

theorem at_main_v242 : (𝐑 main_v242 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_37 : (⟨S_, .i32⟩ : BufTy).Contents (Elt F)) :=
  unary_read ops_chain 324 (lt_length (by decide)) main_c_37 main_v242 (f := (broadcastInDim S300000 ![] bcast_S_S300000 : (⟨S_, .i32⟩ : BufTy).Contents (Elt F) → (⟨S300000, .i32⟩ : BufTy).Contents (Elt F))) (hop := rfl) (hkx := by decide) (V := V)

theorem at_main_v243 : (𝐑 main_v243 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v242 : (⟨S300000, .i32⟩ : BufTy).Contents (Elt F)) :=
  binary_read ops_chain 325 (lt_length (by decide)) main_v1 main_v242 main_v243 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v244 : (𝐑 main_v244 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v241 : (⟨S300000, .i1⟩ : BufTy).Contents (Elt F)) (𝐑 main_v243 : (⟨S300000, .i32⟩ : BufTy).Contents (Elt F)) (𝐑 main_v1 : (⟨S300000, .i32⟩ : BufTy).Contents (Elt F)) :=
  ternary_read ops_chain 326 (lt_length (by decide)) main_v241 main_v243 main_v1 main_v244 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v245 : (𝐑 main_v245 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v244 : (⟨S300000, .i32⟩ : BufTy).Contents (Elt F)) :=
  unary_read ops_chain 327 (lt_length (by decide)) main_v244 main_v245 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v246 : (𝐑 main_v246 : (⟨S300000x256, .f32⟩ : BufTy).Contents (Elt F)) = Host.gather gather_S50000x256_S300000x1_S300000x256_1_0_n_n_0_1_1256 (𝐑 main_v239 : (⟨S50000x256, .f32⟩ : BufTy).Contents (Elt F)) (𝐑 main_v245 : (⟨S300000x1, .i32⟩ : BufTy).Contents (Elt F)) :=
  binary_read ops_chain 328 (lt_length (by decide)) main_v239 main_v245 main_v246 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_38 : (𝐑 main_cst_38 : (⟨S_, .f32⟩ : BufTy).Contents (Elt F)) = (constant S_ .f32 0x00000000#32) :=
  nullary_read ops_chain 329 (lt_length (by decide)) main_cst_38 (hop := rfl) (V := V)

theorem at_main_v247 : (𝐑 main_v247 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_38 : (⟨S_, .f32⟩ : BufTy).Contents (Elt F)) :=
  unary_read ops_chain 330 (lt_length (by decide)) main_cst_38 main_v247 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v248 : (𝐑 main_v248 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 331 (lt_length (by decide)) main_v3 main_v248 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v249 : (𝐑 main_v249 : (⟨S50000x256, .f32⟩ : BufTy).Contents (Elt F)) = Host.scatterAdd scatter_S50000x256_S300000x1_S300000x256_1_0_0_1 (𝐑 main_v247 : (⟨S50000x256, .f32⟩ : BufTy).Contents (Elt F)) (𝐑 main_v248 : (⟨S300000x1, .i32⟩ : BufTy).Contents (Elt F)) (𝐑 main_v246 : (⟨S300000x256, .f32⟩ : BufTy).Contents (Elt F)) :=
  ternary_read ops_chain 332 (lt_length (by decide)) main_v247 main_v248 main_v246 main_v249 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v250 : (𝐑 main_v250 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v239 : (⟨S50000x256, .f32⟩ : BufTy).Contents (Elt F)) (𝐑 main_v249 : (⟨S50000x256, .f32⟩ : BufTy).Contents (Elt F)) :=
  binary_read ops_chain 333 (lt_length (by decide)) main_v239 main_v249 main_v250 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v251 : (𝐑 main_v251 : (⟨S1x1x256x256, .f32⟩ : BufTy).Contents (Elt F)) = extractStridedSlice S1x1x256x256 ![2, 0, 0, 0] (𝐑 main_arg4 : (⟨S3x3x256x256, .f32⟩ : BufTy).Contents (Elt F)) slices_S3x3x256x256_S1x1x256x256_2_0_0_0 :=
  unary_read ops_chain 334 (lt_length (by decide)) main_arg4 main_v251 (f := ((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F))) (hop := rfl) (hkx := by decide) (V := V)

theorem at_main_v252 : (𝐑 main_v252 : (⟨S256x256, .f32⟩ : BufTy).Contents (Elt F)) = shapeCast S256x256 (𝐑 main_v251 : (⟨S1x1x256x256, .f32⟩ : BufTy).Contents (Elt F)) shapeCasts_S1x1x256x256_S256x256 :=
  (reshape_read ops_chain 335 (lt_length (by decide)) main_v251 main_v252 shapeCasts_S1x1x256x256_S256x256 (hop := rfl) (hkx := by decide) (V := V)).trans rfl

theorem at_main_v253 : (𝐑 main_v253 : (⟨S50000x256, .f32⟩ : BufTy).Contents (Elt F)) = Host.dotGeneral dot_S50000x256_S256x256_S50000x256_1_0_0_1_n_n none (𝐑 main_v250 : (⟨S50000x256, .f32⟩ : BufTy).Contents (Elt F)) (𝐑 main_v252 : (⟨S256x256, .f32⟩ : BufTy).Contents (Elt F)) :=
  binary_read ops_chain 336 (lt_length (by decide)) main_v250 main_v252 main_v253 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v254 : (𝐑 main_v254 : (⟨S1x1x256, .f32⟩ : BufTy).Contents (Elt F)) = extractStridedSlice S1x1x256 ![2, 0, 0] (𝐑 main_arg5 : (⟨S3x3x256, .f32⟩ : BufTy).Contents (Elt F)) slices_S3x3x256_S1x1x256_2_0_0 :=
  unary_read ops_chain 337 (lt_length (by decide)) main_arg5 main_v254 (f := ((extractStridedSlice S1x1x256 ![2, 0, 0] · slices_S3x3x256_S1x1x256_2_0_0) : (⟨S3x3x256, .f32⟩ : BufTy).Contents (Elt F) → (⟨S1x1x256, .f32⟩ : BufTy).Contents (Elt F))) (hop := rfl) (hkx := by decide) (V := V)

theorem at_main_v255 : (𝐑 main_v255 : (⟨S256, .f32⟩ : BufTy).Contents (Elt F)) = shapeCast S256 (𝐑 main_v254 : (⟨S1x1x256, .f32⟩ : BufTy).Contents (Elt F)) shapeCasts_S1x1x256_S256 :=
  (reshape_read ops_chain 338 (lt_length (by decide)) main_v254 main_v255 shapeCasts_S1x1x256_S256 (hop := rfl) (hkx := by decide) (V := V)).trans rfl

theorem at_main_v256 : (𝐑 main_v256 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v255 : (⟨S256, .f32⟩ : BufTy).Contents (Elt F)) :=
  unary_read ops_chain 339 (lt_length (by decide)) main_v255 main_v256 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v257 : (𝐑 main_v257 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v256 : (⟨S1x256, .f32⟩ : BufTy).Contents (Elt F)) :=
  unary_read ops_chain 340 (lt_length (by decide)) main_v256 main_v257 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v258 : (𝐑 main_v258 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v253 : (⟨S50000x256, .f32⟩ : BufTy).Contents (Elt F)) (𝐑 main_v257 : (⟨S50000x256, .f32⟩ : BufTy).Contents (Elt F)) :=
  binary_read ops_chain 341 (lt_length (by decide)) main_v253 main_v257 main_v258 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_39 : (𝐑 main_cst_39 : (⟨S_, .f32⟩ : BufTy).Contents (Elt F)) = (constant S_ .f32 0x00000000#32) :=
  nullary_read ops_chain 342 (lt_length (by decide)) main_cst_39 (hop := rfl) (V := V)

theorem at_main_v259 : (𝐑 main_v259 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_39 : (⟨S_, .f32⟩ : BufTy).Contents (Elt F)) :=
  unary_read ops_chain 343 (lt_length (by decide)) main_cst_39 main_v259 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v260 : (𝐑 main_v260 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v258 : (⟨S50000x256, .f32⟩ : BufTy).Contents (Elt F)) (𝐑 main_v259 : (⟨S50000x256, .f32⟩ : BufTy).Contents (Elt F)) :=
  binary_read ops_chain 344 (lt_length (by decide)) main_v258 main_v259 main_v260 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v261 : (𝐑 main_v261 : (⟨S1x1x256x256, .f32⟩ : BufTy).Contents (Elt F)) = extractStridedSlice S1x1x256x256 ![2, 0, 0, 0] (𝐑 main_arg6 : (⟨S3x3x256x256, .f32⟩ : BufTy).Contents (Elt F)) slices_S3x3x256x256_S1x1x256x256_2_0_0_0 :=
  unary_read ops_chain 345 (lt_length (by decide)) main_arg6 main_v261 (f := ((extractStridedSlice S1x1x256x256 ![2, 0, 0, 0] · slices_S3x3x256x256_S1x1x256x256_2_0_0_0) : (⟨S3x3x256x256, .f32⟩ : BufTy).Contents (Elt F) → (⟨S1x1x256x256, .f32⟩ : BufTy).Contents (Elt F))) (hop := rfl) (hkx := by decide) (V := V)

theorem at_main_v262 : (𝐑 main_v262 : (⟨S256x256, .f32⟩ : BufTy).Contents (Elt F)) = shapeCast S256x256 (𝐑 main_v261 : (⟨S1x1x256x256, .f32⟩ : BufTy).Contents (Elt F)) shapeCasts_S1x1x256x256_S256x256 :=
  (reshape_read ops_chain 346 (lt_length (by decide)) main_v261 main_v262 shapeCasts_S1x1x256x256_S256x256 (hop := rfl) (hkx := by decide) (V := V)).trans rfl

theorem at_main_v263 : (𝐑 main_v263 : (⟨S50000x256, .f32⟩ : BufTy).Contents (Elt F)) = Host.dotGeneral dot_S50000x256_S256x256_S50000x256_1_0_0_1_n_n none (𝐑 main_v260 : (⟨S50000x256, .f32⟩ : BufTy).Contents (Elt F)) (𝐑 main_v262 : (⟨S256x256, .f32⟩ : BufTy).Contents (Elt F)) :=
  binary_read ops_chain 347 (lt_length (by decide)) main_v260 main_v262 main_v263 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v264 : (𝐑 main_v264 : (⟨S1x1x256, .f32⟩ : BufTy).Contents (Elt F)) = extractStridedSlice S1x1x256 ![2, 0, 0] (𝐑 main_arg7 : (⟨S3x3x256, .f32⟩ : BufTy).Contents (Elt F)) slices_S3x3x256_S1x1x256_2_0_0 :=
  unary_read ops_chain 348 (lt_length (by decide)) main_arg7 main_v264 (f := ((extractStridedSlice S1x1x256 ![2, 0, 0] · slices_S3x3x256_S1x1x256_2_0_0) : (⟨S3x3x256, .f32⟩ : BufTy).Contents (Elt F) → (⟨S1x1x256, .f32⟩ : BufTy).Contents (Elt F))) (hop := rfl) (hkx := by decide) (V := V)

theorem at_main_v265 : (𝐑 main_v265 : (⟨S256, .f32⟩ : BufTy).Contents (Elt F)) = shapeCast S256 (𝐑 main_v264 : (⟨S1x1x256, .f32⟩ : BufTy).Contents (Elt F)) shapeCasts_S1x1x256_S256 :=
  (reshape_read ops_chain 349 (lt_length (by decide)) main_v264 main_v265 shapeCasts_S1x1x256_S256 (hop := rfl) (hkx := by decide) (V := V)).trans rfl

theorem at_main_v266 : (𝐑 main_v266 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v265 : (⟨S256, .f32⟩ : BufTy).Contents (Elt F)) :=
  unary_read ops_chain 350 (lt_length (by decide)) main_v265 main_v266 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v267 : (𝐑 main_v267 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v266 : (⟨S1x256, .f32⟩ : BufTy).Contents (Elt F)) :=
  unary_read ops_chain 351 (lt_length (by decide)) main_v266 main_v267 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v268 : (𝐑 main_v268 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v263 : (⟨S50000x256, .f32⟩ : BufTy).Contents (Elt F)) (𝐑 main_v267 : (⟨S50000x256, .f32⟩ : BufTy).Contents (Elt F)) :=
  binary_read ops_chain 352 (lt_length (by decide)) main_v263 main_v267 main_v268 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_40 : (𝐑 main_cst_40 : (⟨S_, .f32⟩ : BufTy).Contents (Elt F)) = (constant S_ .f32 0x00000000#32) :=
  nullary_read ops_chain 353 (lt_length (by decide)) main_cst_40 (hop := rfl) (V := V)

theorem at_main_v269 : (𝐑 main_v269 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_40 : (⟨S_, .f32⟩ : BufTy).Contents (Elt F)) :=
  unary_read ops_chain 354 (lt_length (by decide)) main_cst_40 main_v269 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v270 : (𝐑 main_v270 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v268 : (⟨S50000x256, .f32⟩ : BufTy).Contents (Elt F)) (𝐑 main_v269 : (⟨S50000x256, .f32⟩ : BufTy).Contents (Elt F)) :=
  binary_read ops_chain 355 (lt_length (by decide)) main_v268 main_v269 main_v270 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_41 : (𝐑 main_c_41 : (⟨S_, .i32⟩ : BufTy).Contents (Elt F)) = (constantI S_ 32 0#32) :=
  nullary_read ops_chain 356 (lt_length (by decide)) main_c_41 (hop := rfl) (V := V)

theorem at_main_v271 : (𝐑 main_v271 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_41 : (⟨S_, .i32⟩ : BufTy).Contents (Elt F)) :=
  unary_read ops_chain 357 (lt_length (by decide)) main_c_41 main_v271 (f := (broadcastInDim S300000 ![] bcast_S_S300000 : (⟨S_, .i32⟩ : BufTy).Contents (Elt F) → (⟨S300000, .i32⟩ : BufTy).Contents (Elt F))) (hop := rfl) (hkx := by decide) (V := V)

theorem at_main_v272 : (𝐑 main_v272 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v271 : (⟨S300000, .i32⟩ : BufTy).Contents (Elt F)) :=
  binary_read ops_chain 358 (lt_length (by decide)) main_v1 main_v271 main_v272 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_42 : (𝐑 main_c_42 : (⟨S_, .i32⟩ : BufTy).Contents (Elt F)) = (constantI S_ 32 50000#32) :=
  nullary_read ops_chain 359 (lt_length (by decide)) main_c_42 (hop := rfl) (V := V)

theorem at_main_v273 : (𝐑 main_v273 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_42 : (⟨S_, .i32⟩ : BufTy).Contents (Elt F)) :=
  unary_read ops_chain 360 (lt_length (by decide)) main_c_42 main_v273 (f := (broadcastInDim S300000 ![] bcast_S_S300000 : (⟨S_, .i32⟩ : BufTy).Contents (Elt F) → (⟨S300000, .i32⟩ : BufTy).Contents (Elt F))) (hop := rfl) (hkx := by decide) (V := V)

theorem at_main_v274 : (𝐑 main_v274 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v273 : (⟨S300000, .i32⟩ : BufTy).Contents (Elt F)) :=
  binary_read ops_chain 361 (lt_length (by decide)) main_v1 main_v273 main_v274 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v275 : (𝐑 main_v275 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v272 : (⟨S300000, .i1⟩ : BufTy).Contents (Elt F)) (𝐑 main_v274 : (⟨S300000, .i32⟩ : BufTy).Contents (Elt F)) (𝐑 main_v1 : (⟨S300000, .i32⟩ : BufTy).Contents (Elt F)) :=
  ternary_read ops_chain 362 (lt_length (by decide)) main_v272 main_v274 main_v1 main_v275 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v276 : (𝐑 main_v276 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v275 : (⟨S300000, .i32⟩ : BufTy).Contents (Elt F)) :=
  unary_read ops_chain 363 (lt_length (by decide)) main_v275 main_v276 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v277 : (𝐑 main_v277 : (⟨S300000x256, .f32⟩ : BufTy).Contents (Elt F)) = Host.gather gather_S50000x256_S300000x1_S300000x256_1_0_n_n_0_1_1256 (𝐑 main_v270 : (⟨S50000x256, .f32⟩ : BufTy).Contents (Elt F)) (𝐑 main_v276 : (⟨S300000x1, .i32⟩ : BufTy).Contents (Elt F)) :=
  binary_read ops_chain 364 (lt_length (by decide)) main_v270 main_v276 main_v277 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_43 : (𝐑 main_cst_43 : (⟨S_, .f32⟩ : BufTy).Contents (Elt F)) = (constant S_ .f32 0x00000000#32) :=
  nullary_read ops_chain 365 (lt_length (by decide)) main_cst_43 (hop := rfl) (V := V)

theorem at_main_v278 : (𝐑 main_v278 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_43 : (⟨S_, .f32⟩ : BufTy).Contents (Elt F)) :=
  unary_read ops_chain 366 (lt_length (by decide)) main_cst_43 main_v278 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v279 : (𝐑 main_v279 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 367 (lt_length (by decide)) main_v3 main_v279 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v280 : (𝐑 main_v280 : (⟨S50000x256, .f32⟩ : BufTy).Contents (Elt F)) = Host.scatterAdd scatter_S50000x256_S300000x1_S300000x256_1_0_0_1 (𝐑 main_v278 : (⟨S50000x256, .f32⟩ : BufTy).Contents (Elt F)) (𝐑 main_v279 : (⟨S300000x1, .i32⟩ : BufTy).Contents (Elt F)) (𝐑 main_v277 : (⟨S300000x256, .f32⟩ : BufTy).Contents (Elt F)) :=
  ternary_read ops_chain 368 (lt_length (by decide)) main_v278 main_v279 main_v277 main_v280 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v281 : (𝐑 main_v281 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v270 : (⟨S50000x256, .f32⟩ : BufTy).Contents (Elt F)) (𝐑 main_v280 : (⟨S50000x256, .f32⟩ : BufTy).Contents (Elt F)) :=
  binary_read ops_chain 369 (lt_length (by decide)) main_v270 main_v280 main_v281 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v282 : (𝐑 main_v282 : (⟨S1x1x256x256, .f32⟩ : BufTy).Contents (Elt F)) = extractStridedSlice S1x1x256x256 ![2, 1, 0, 0] (𝐑 main_arg4 : (⟨S3x3x256x256, .f32⟩ : BufTy).Contents (Elt F)) slices_S3x3x256x256_S1x1x256x256_2_1_0_0 :=
  unary_read ops_chain 370 (lt_length (by decide)) main_arg4 main_v282 (f := ((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F))) (hop := rfl) (hkx := by decide) (V := V)

theorem at_main_v283 : (𝐑 main_v283 : (⟨S256x256, .f32⟩ : BufTy).Contents (Elt F)) = shapeCast S256x256 (𝐑 main_v282 : (⟨S1x1x256x256, .f32⟩ : BufTy).Contents (Elt F)) shapeCasts_S1x1x256x256_S256x256 :=
  (reshape_read ops_chain 371 (lt_length (by decide)) main_v282 main_v283 shapeCasts_S1x1x256x256_S256x256 (hop := rfl) (hkx := by decide) (V := V)).trans rfl

theorem at_main_v284 : (𝐑 main_v284 : (⟨S50000x256, .f32⟩ : BufTy).Contents (Elt F)) = Host.dotGeneral dot_S50000x256_S256x256_S50000x256_1_0_0_1_n_n none (𝐑 main_v281 : (⟨S50000x256, .f32⟩ : BufTy).Contents (Elt F)) (𝐑 main_v283 : (⟨S256x256, .f32⟩ : BufTy).Contents (Elt F)) :=
  binary_read ops_chain 372 (lt_length (by decide)) main_v281 main_v283 main_v284 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v285 : (𝐑 main_v285 : (⟨S1x1x256, .f32⟩ : BufTy).Contents (Elt F)) = extractStridedSlice S1x1x256 ![2, 1, 0] (𝐑 main_arg5 : (⟨S3x3x256, .f32⟩ : BufTy).Contents (Elt F)) slices_S3x3x256_S1x1x256_2_1_0 :=
  unary_read ops_chain 373 (lt_length (by decide)) main_arg5 main_v285 (f := ((extractStridedSlice S1x1x256 ![2, 1, 0] · slices_S3x3x256_S1x1x256_2_1_0) : (⟨S3x3x256, .f32⟩ : BufTy).Contents (Elt F) → (⟨S1x1x256, .f32⟩ : BufTy).Contents (Elt F))) (hop := rfl) (hkx := by decide) (V := V)

theorem at_main_v286 : (𝐑 main_v286 : (⟨S256, .f32⟩ : BufTy).Contents (Elt F)) = shapeCast S256 (𝐑 main_v285 : (⟨S1x1x256, .f32⟩ : BufTy).Contents (Elt F)) shapeCasts_S1x1x256_S256 :=
  (reshape_read ops_chain 374 (lt_length (by decide)) main_v285 main_v286 shapeCasts_S1x1x256_S256 (hop := rfl) (hkx := by decide) (V := V)).trans rfl

theorem at_main_v287 : (𝐑 main_v287 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v286 : (⟨S256, .f32⟩ : BufTy).Contents (Elt F)) :=
  unary_read ops_chain 375 (lt_length (by decide)) main_v286 main_v287 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v288 : (𝐑 main_v288 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v287 : (⟨S1x256, .f32⟩ : BufTy).Contents (Elt F)) :=
  unary_read ops_chain 376 (lt_length (by decide)) main_v287 main_v288 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v289 : (𝐑 main_v289 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v284 : (⟨S50000x256, .f32⟩ : BufTy).Contents (Elt F)) (𝐑 main_v288 : (⟨S50000x256, .f32⟩ : BufTy).Contents (Elt F)) :=
  binary_read ops_chain 377 (lt_length (by decide)) main_v284 main_v288 main_v289 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_44 : (𝐑 main_cst_44 : (⟨S_, .f32⟩ : BufTy).Contents (Elt F)) = (constant S_ .f32 0x00000000#32) :=
  nullary_read ops_chain 378 (lt_length (by decide)) main_cst_44 (hop := rfl) (V := V)

theorem at_main_v290 : (𝐑 main_v290 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_44 : (⟨S_, .f32⟩ : BufTy).Contents (Elt F)) :=
  unary_read ops_chain 379 (lt_length (by decide)) main_cst_44 main_v290 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v291 : (𝐑 main_v291 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v289 : (⟨S50000x256, .f32⟩ : BufTy).Contents (Elt F)) (𝐑 main_v290 : (⟨S50000x256, .f32⟩ : BufTy).Contents (Elt F)) :=
  binary_read ops_chain 380 (lt_length (by decide)) main_v289 main_v290 main_v291 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v292 : (𝐑 main_v292 : (⟨S1x1x256x256, .f32⟩ : BufTy).Contents (Elt F)) = extractStridedSlice S1x1x256x256 ![2, 1, 0, 0] (𝐑 main_arg6 : (⟨S3x3x256x256, .f32⟩ : BufTy).Contents (Elt F)) slices_S3x3x256x256_S1x1x256x256_2_1_0_0 :=
  unary_read ops_chain 381 (lt_length (by decide)) main_arg6 main_v292 (f := ((extractStridedSlice S1x1x256x256 ![2, 1, 0, 0] · slices_S3x3x256x256_S1x1x256x256_2_1_0_0) : (⟨S3x3x256x256, .f32⟩ : BufTy).Contents (Elt F) → (⟨S1x1x256x256, .f32⟩ : BufTy).Contents (Elt F))) (hop := rfl) (hkx := by decide) (V := V)

theorem at_main_v293 : (𝐑 main_v293 : (⟨S256x256, .f32⟩ : BufTy).Contents (Elt F)) = shapeCast S256x256 (𝐑 main_v292 : (⟨S1x1x256x256, .f32⟩ : BufTy).Contents (Elt F)) shapeCasts_S1x1x256x256_S256x256 :=
  (reshape_read ops_chain 382 (lt_length (by decide)) main_v292 main_v293 shapeCasts_S1x1x256x256_S256x256 (hop := rfl) (hkx := by decide) (V := V)).trans rfl

theorem at_main_v294 : (𝐑 main_v294 : (⟨S50000x256, .f32⟩ : BufTy).Contents (Elt F)) = Host.dotGeneral dot_S50000x256_S256x256_S50000x256_1_0_0_1_n_n none (𝐑 main_v291 : (⟨S50000x256, .f32⟩ : BufTy).Contents (Elt F)) (𝐑 main_v293 : (⟨S256x256, .f32⟩ : BufTy).Contents (Elt F)) :=
  binary_read ops_chain 383 (lt_length (by decide)) main_v291 main_v293 main_v294 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v295 : (𝐑 main_v295 : (⟨S1x1x256, .f32⟩ : BufTy).Contents (Elt F)) = extractStridedSlice S1x1x256 ![2, 1, 0] (𝐑 main_arg7 : (⟨S3x3x256, .f32⟩ : BufTy).Contents (Elt F)) slices_S3x3x256_S1x1x256_2_1_0 :=
  unary_read ops_chain 384 (lt_length (by decide)) main_arg7 main_v295 (f := ((extractStridedSlice S1x1x256 ![2, 1, 0] · slices_S3x3x256_S1x1x256_2_1_0) : (⟨S3x3x256, .f32⟩ : BufTy).Contents (Elt F) → (⟨S1x1x256, .f32⟩ : BufTy).Contents (Elt F))) (hop := rfl) (hkx := by decide) (V := V)

theorem at_main_v296 : (𝐑 main_v296 : (⟨S256, .f32⟩ : BufTy).Contents (Elt F)) = shapeCast S256 (𝐑 main_v295 : (⟨S1x1x256, .f32⟩ : BufTy).Contents (Elt F)) shapeCasts_S1x1x256_S256 :=
  (reshape_read ops_chain 385 (lt_length (by decide)) main_v295 main_v296 shapeCasts_S1x1x256_S256 (hop := rfl) (hkx := by decide) (V := V)).trans rfl

theorem at_main_v297 : (𝐑 main_v297 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v296 : (⟨S256, .f32⟩ : BufTy).Contents (Elt F)) :=
  unary_read ops_chain 386 (lt_length (by decide)) main_v296 main_v297 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v298 : (𝐑 main_v298 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v297 : (⟨S1x256, .f32⟩ : BufTy).Contents (Elt F)) :=
  unary_read ops_chain 387 (lt_length (by decide)) main_v297 main_v298 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v299 : (𝐑 main_v299 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v294 : (⟨S50000x256, .f32⟩ : BufTy).Contents (Elt F)) (𝐑 main_v298 : (⟨S50000x256, .f32⟩ : BufTy).Contents (Elt F)) :=
  binary_read ops_chain 388 (lt_length (by decide)) main_v294 main_v298 main_v299 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_45 : (𝐑 main_cst_45 : (⟨S_, .f32⟩ : BufTy).Contents (Elt F)) = (constant S_ .f32 0x00000000#32) :=
  nullary_read ops_chain 389 (lt_length (by decide)) main_cst_45 (hop := rfl) (V := V)

theorem at_main_v300 : (𝐑 main_v300 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_45 : (⟨S_, .f32⟩ : BufTy).Contents (Elt F)) :=
  unary_read ops_chain 390 (lt_length (by decide)) main_cst_45 main_v300 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v301 : (𝐑 main_v301 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v299 : (⟨S50000x256, .f32⟩ : BufTy).Contents (Elt F)) (𝐑 main_v300 : (⟨S50000x256, .f32⟩ : BufTy).Contents (Elt F)) :=
  binary_read ops_chain 391 (lt_length (by decide)) main_v299 main_v300 main_v301 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_c_46 : (𝐑 main_c_46 : (⟨S_, .i32⟩ : BufTy).Contents (Elt F)) = (constantI S_ 32 0#32) :=
  nullary_read ops_chain 392 (lt_length (by decide)) main_c_46 (hop := rfl) (V := V)

theorem at_main_v302 : (𝐑 main_v302 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_46 : (⟨S_, .i32⟩ : BufTy).Contents (Elt F)) :=
  unary_read ops_chain 393 (lt_length (by decide)) main_c_46 main_v302 (f := (broadcastInDim S300000 ![] bcast_S_S300000 : (⟨S_, .i32⟩ : BufTy).Contents (Elt F) → (⟨S300000, .i32⟩ : BufTy).Contents (Elt F))) (hop := rfl) (hkx := by decide) (V := V)

theorem at_main_v303 : (𝐑 main_v303 : (⟨S300000, .i1⟩ : BufTy).Contents (Elt F)) = (cmpi .slt : (⟨S300000, .i32⟩ : BufTy).Contents (Elt F) → (⟨S300000, .i32⟩ : BufTy).Contents (Elt F) → (⟨S300000, .i1⟩ : BufTy).Contents (Elt F)) (𝐑 main_v1 : (⟨S300000, .i32⟩ : BufTy).Contents (Elt F)) (𝐑 main_v302 : (⟨S300000, .i32⟩ : BufTy).Contents (Elt F)) :=
  binary_read ops_chain 394 (lt_length (by decide)) main_v1 main_v302 main_v303 (f := (cmpi .slt : (⟨S300000, .i32⟩ : BufTy).Contents (Elt F) → (⟨S300000, .i32⟩ : BufTy).Contents (Elt F) → (⟨S300000, .i1⟩ : BufTy).Contents (Elt F))) (hop := rfl) (hka := by decide) (hkb := by decide) (V := V)

theorem at_main_c_47 : (𝐑 main_c_47 : (⟨S_, .i32⟩ : BufTy).Contents (Elt F)) = (constantI S_ 32 50000#32) :=
  nullary_read ops_chain 395 (lt_length (by decide)) main_c_47 (hop := rfl) (V := V)

theorem at_main_v304 : (𝐑 main_v304 : (⟨S300000, .i32⟩ : BufTy).Contents (Elt F)) = (broadcastInDim S300000 ![] bcast_S_S300000 : (⟨S_, .i32⟩ : BufTy).Contents (Elt F) → (⟨S300000, .i32⟩ : BufTy).Contents (Elt F)) (𝐑 main_c_47 : (⟨S_, .i32⟩ : BufTy).Contents (Elt F)) :=
  unary_read ops_chain 396 (lt_length (by decide)) main_c_47 main_v304 (f := (broadcastInDim S300000 ![] bcast_S_S300000 : (⟨S_, .i32⟩ : BufTy).Contents (Elt F) → (⟨S300000, .i32⟩ : BufTy).Contents (Elt F))) (hop := rfl) (hkx := by decide) (V := V)

theorem at_main_v305 : (𝐑 main_v305 : (⟨S300000, .i32⟩ : BufTy).Contents (Elt F)) = (addi : (⟨S300000, .i32⟩ : BufTy).Contents (Elt F) → (⟨S300000, .i32⟩ : BufTy).Contents (Elt F) → (⟨S300000, .i32⟩ : BufTy).Contents (Elt F)) (𝐑 main_v1 : (⟨S300000, .i32⟩ : BufTy).Contents (Elt F)) (𝐑 main_v304 : (⟨S300000, .i32⟩ : BufTy).Contents (Elt F)) :=
  binary_read ops_chain 397 (lt_length (by decide)) main_v1 main_v304 main_v305 (f := (addi : (⟨S300000, .i32⟩ : BufTy).Contents (Elt F) → (⟨S300000, .i32⟩ : BufTy).Contents (Elt F) → (⟨S300000, .i32⟩ : BufTy).Contents (Elt F))) (hop := rfl) (hka := by decide) (hkb := by decide) (V := V)

theorem at_main_v306 : (𝐑 main_v306 : (⟨S300000, .i32⟩ : BufTy).Contents (Elt F)) = (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)) (𝐑 main_v303 : (⟨S300000, .i1⟩ : BufTy).Contents (Elt F)) (𝐑 main_v305 : (⟨S300000, .i32⟩ : BufTy).Contents (Elt F)) (𝐑 main_v1 : (⟨S300000, .i32⟩ : BufTy).Contents (Elt F)) :=
  ternary_read ops_chain 398 (lt_length (by decide)) main_v303 main_v305 main_v1 main_v306 (f := (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F))) (hop := rfl) (hkc := by decide) (hka := by decide) (hkb := by decide) (V := V)

theorem at_main_v307 : (𝐑 main_v307 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v306 : (⟨S300000, .i32⟩ : BufTy).Contents (Elt F)) :=
  unary_read ops_chain 399 (lt_length (by decide)) main_v306 main_v307 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v308 : (𝐑 main_v308 : (⟨S300000x256, .f32⟩ : BufTy).Contents (Elt F)) = Host.gather gather_S50000x256_S300000x1_S300000x256_1_0_n_n_0_1_1256 (𝐑 main_v301 : (⟨S50000x256, .f32⟩ : BufTy).Contents (Elt F)) (𝐑 main_v307 : (⟨S300000x1, .i32⟩ : BufTy).Contents (Elt F)) :=
  binary_read ops_chain 400 (lt_length (by decide)) main_v301 main_v307 main_v308 (f := ((fun x i => Host.gather gather_S50000x256_S300000x1_S300000x256_1_0_n_n_0_1_1256 x i) : (⟨S50000x256, .f32⟩ : BufTy).Contents (Elt F) → (⟨S300000x1, .i32⟩ : BufTy).Contents (Elt F) → (⟨S300000x256, .f32⟩ : BufTy).Contents (Elt F))) (hop := rfl) (hka := by decide) (hkb := by decide) (V := V)

theorem at_main_cst_48 : (𝐑 main_cst_48 : (⟨S_, .f32⟩ : BufTy).Contents (Elt F)) = (constant S_ .f32 0x00000000#32) :=
  nullary_read ops_chain 401 (lt_length (by decide)) main_cst_48 (hop := rfl) (V := V)

theorem at_main_v309 : (𝐑 main_v309 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_48 : (⟨S_, .f32⟩ : BufTy).Contents (Elt F)) :=
  unary_read ops_chain 402 (lt_length (by decide)) main_cst_48 main_v309 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v310 : (𝐑 main_v310 : (⟨S300000x1, .i32⟩ : BufTy).Contents (Elt F)) = (broadcastInDim S300000x1 ![0] bcast_S300000_S300000x1_0 : (⟨S300000, .i32⟩ : BufTy).Contents (Elt F) → (⟨S300000x1, .i32⟩ : BufTy).Contents (Elt F)) (𝐑 main_v3 : (⟨S300000, .i32⟩ : BufTy).Contents (Elt F)) :=
  unary_read ops_chain 403 (lt_length (by decide)) main_v3 main_v310 (f := (broadcastInDim S300000x1 ![0] bcast_S300000_S300000x1_0 : (⟨S300000, .i32⟩ : BufTy).Contents (Elt F) → (⟨S300000x1, .i32⟩ : BufTy).Contents (Elt F))) (hop := rfl) (hkx := by decide) (V := V)

theorem at_main_v311 : (𝐑 main_v311 : (⟨S50000x256, .f32⟩ : BufTy).Contents (Elt F)) = Host.scatterAdd scatter_S50000x256_S300000x1_S300000x256_1_0_0_1 (𝐑 main_v309 : (⟨S50000x256, .f32⟩ : BufTy).Contents (Elt F)) (𝐑 main_v310 : (⟨S300000x1, .i32⟩ : BufTy).Contents (Elt F)) (𝐑 main_v308 : (⟨S300000x256, .f32⟩ : BufTy).Contents (Elt F)) :=
  ternary_read ops_chain 404 (lt_length (by decide)) main_v309 main_v310 main_v308 main_v311 (f := ((fun x i u => Host.scatterAdd scatter_S50000x256_S300000x1_S300000x256_1_0_0_1 x i u) : (⟨S50000x256, .f32⟩ : BufTy).Contents (Elt F) → (⟨S300000x1, .i32⟩ : BufTy).Contents (Elt F) → (⟨S300000x256, .f32⟩ : BufTy).Contents (Elt F) → (⟨S50000x256, .f32⟩ : BufTy).Contents (Elt F))) (hop := rfl) (hkc := by decide) (hka := by decide) (hkb := by decide) (V := V)

theorem at_main_v312 : (𝐑 main_v312 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v301 : (⟨S50000x256, .f32⟩ : BufTy).Contents (Elt F)) (𝐑 main_v311 : (⟨S50000x256, .f32⟩ : BufTy).Contents (Elt F)) :=
  binary_read ops_chain 405 (lt_length (by decide)) main_v301 main_v311 main_v312 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v313 : (𝐑 main_v313 : (⟨S1x1x256x256, .f32⟩ : BufTy).Contents (Elt F)) = extractStridedSlice S1x1x256x256 ![2, 2, 0, 0] (𝐑 main_arg4 : (⟨S3x3x256x256, .f32⟩ : BufTy).Contents (Elt F)) slices_S3x3x256x256_S1x1x256x256_2_2_0_0 :=
  unary_read ops_chain 406 (lt_length (by decide)) main_arg4 main_v313 (f := ((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F))) (hop := rfl) (hkx := by decide) (V := V)

theorem at_main_v314 : (𝐑 main_v314 : (⟨S256x256, .f32⟩ : BufTy).Contents (Elt F)) = shapeCast S256x256 (𝐑 main_v313 : (⟨S1x1x256x256, .f32⟩ : BufTy).Contents (Elt F)) shapeCasts_S1x1x256x256_S256x256 :=
  (reshape_read ops_chain 407 (lt_length (by decide)) main_v313 main_v314 shapeCasts_S1x1x256x256_S256x256 (hop := rfl) (hkx := by decide) (V := V)).trans rfl

theorem at_main_v315 : (𝐑 main_v315 : (⟨S50000x256, .f32⟩ : BufTy).Contents (Elt F)) = Host.dotGeneral dot_S50000x256_S256x256_S50000x256_1_0_0_1_n_n none (𝐑 main_v312 : (⟨S50000x256, .f32⟩ : BufTy).Contents (Elt F)) (𝐑 main_v314 : (⟨S256x256, .f32⟩ : BufTy).Contents (Elt F)) :=
  binary_read ops_chain 408 (lt_length (by decide)) main_v312 main_v314 main_v315 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v316 : (𝐑 main_v316 : (⟨S1x1x256, .f32⟩ : BufTy).Contents (Elt F)) = extractStridedSlice S1x1x256 ![2, 2, 0] (𝐑 main_arg5 : (⟨S3x3x256, .f32⟩ : BufTy).Contents (Elt F)) slices_S3x3x256_S1x1x256_2_2_0 :=
  unary_read ops_chain 409 (lt_length (by decide)) main_arg5 main_v316 (f := ((extractStridedSlice S1x1x256 ![2, 2, 0] · slices_S3x3x256_S1x1x256_2_2_0) : (⟨S3x3x256, .f32⟩ : BufTy).Contents (Elt F) → (⟨S1x1x256, .f32⟩ : BufTy).Contents (Elt F))) (hop := rfl) (hkx := by decide) (V := V)

theorem at_main_v317 : (𝐑 main_v317 : (⟨S256, .f32⟩ : BufTy).Contents (Elt F)) = shapeCast S256 (𝐑 main_v316 : (⟨S1x1x256, .f32⟩ : BufTy).Contents (Elt F)) shapeCasts_S1x1x256_S256 :=
  (reshape_read ops_chain 410 (lt_length (by decide)) main_v316 main_v317 shapeCasts_S1x1x256_S256 (hop := rfl) (hkx := by decide) (V := V)).trans rfl

theorem at_main_v318 : (𝐑 main_v318 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v317 : (⟨S256, .f32⟩ : BufTy).Contents (Elt F)) :=
  unary_read ops_chain 411 (lt_length (by decide)) main_v317 main_v318 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v319 : (𝐑 main_v319 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v318 : (⟨S1x256, .f32⟩ : BufTy).Contents (Elt F)) :=
  unary_read ops_chain 412 (lt_length (by decide)) main_v318 main_v319 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v320 : (𝐑 main_v320 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v315 : (⟨S50000x256, .f32⟩ : BufTy).Contents (Elt F)) (𝐑 main_v319 : (⟨S50000x256, .f32⟩ : BufTy).Contents (Elt F)) :=
  binary_read ops_chain 413 (lt_length (by decide)) main_v315 main_v319 main_v320 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_49 : (𝐑 main_cst_49 : (⟨S_, .f32⟩ : BufTy).Contents (Elt F)) = (constant S_ .f32 0x00000000#32) :=
  nullary_read ops_chain 414 (lt_length (by decide)) main_cst_49 (hop := rfl) (V := V)

theorem at_main_v321 : (𝐑 main_v321 : (⟨S50000x256, .f32⟩ : BufTy).Contents (Elt F)) = (broadcastInDim S50000x256 ![] bcast_S_S50000x256 : (⟨S_, .f32⟩ : BufTy).Contents (Elt F) → (⟨S50000x256, .f32⟩ : BufTy).Contents (Elt F)) (𝐑 main_cst_49 : (⟨S_, .f32⟩ : BufTy).Contents (Elt F)) :=
  unary_read ops_chain 415 (lt_length (by decide)) main_cst_49 main_v321 (f := (broadcastInDim S50000x256 ![] bcast_S_S50000x256 : (⟨S_, .f32⟩ : BufTy).Contents (Elt F) → (⟨S50000x256, .f32⟩ : BufTy).Contents (Elt F))) (hop := rfl) (hkx := by decide) (V := V)

theorem at_main_v322 : (𝐑 main_v322 : (⟨S50000x256, .f32⟩ : BufTy).Contents (Elt F)) = (maximumf : (⟨S50000x256, .f32⟩ : BufTy).Contents (Elt F) → (⟨S50000x256, .f32⟩ : BufTy).Contents (Elt F) → (⟨S50000x256, .f32⟩ : BufTy).Contents (Elt F)) (𝐑 main_v320 : (⟨S50000x256, .f32⟩ : BufTy).Contents (Elt F)) (𝐑 main_v321 : (⟨S50000x256, .f32⟩ : BufTy).Contents (Elt F)) :=
  binary_read ops_chain 416 (lt_length (by decide)) main_v320 main_v321 main_v322 (f := (maximumf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v323 : (𝐑 main_v323 : (⟨S1x1x256x256, .f32⟩ : BufTy).Contents (Elt F)) = extractStridedSlice S1x1x256x256 ![2, 2, 0, 0] (𝐑 main_arg6 : (⟨S3x3x256x256, .f32⟩ : BufTy).Contents (Elt F)) slices_S3x3x256x256_S1x1x256x256_2_2_0_0 :=
  unary_read ops_chain 417 (lt_length (by decide)) main_arg6 main_v323 (f := ((extractStridedSlice S1x1x256x256 ![2, 2, 0, 0] · slices_S3x3x256x256_S1x1x256x256_2_2_0_0) : (⟨S3x3x256x256, .f32⟩ : BufTy).Contents (Elt F) → (⟨S1x1x256x256, .f32⟩ : BufTy).Contents (Elt F))) (hop := rfl) (hkx := by decide) (V := V)

theorem at_main_v324 : (𝐑 main_v324 : (⟨S256x256, .f32⟩ : BufTy).Contents (Elt F)) = shapeCast S256x256 (𝐑 main_v323 : (⟨S1x1x256x256, .f32⟩ : BufTy).Contents (Elt F)) shapeCasts_S1x1x256x256_S256x256 :=
  (reshape_read ops_chain 418 (lt_length (by decide)) main_v323 main_v324 shapeCasts_S1x1x256x256_S256x256 (hop := rfl) (hkx := by decide) (V := V)).trans rfl

theorem at_main_v325 : (𝐑 main_v325 : (⟨S50000x256, .f32⟩ : BufTy).Contents (Elt F)) = Host.dotGeneral dot_S50000x256_S256x256_S50000x256_1_0_0_1_n_n none (𝐑 main_v322 : (⟨S50000x256, .f32⟩ : BufTy).Contents (Elt F)) (𝐑 main_v324 : (⟨S256x256, .f32⟩ : BufTy).Contents (Elt F)) :=
  binary_read ops_chain 419 (lt_length (by decide)) main_v322 main_v324 main_v325 (f := ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))) (hop := rfl) (hka := by decide) (hkb := by decide) (V := V)

theorem at_main_v326 : (𝐑 main_v326 : (⟨S1x1x256, .f32⟩ : BufTy).Contents (Elt F)) = extractStridedSlice S1x1x256 ![2, 2, 0] (𝐑 main_arg7 : (⟨S3x3x256, .f32⟩ : BufTy).Contents (Elt F)) slices_S3x3x256_S1x1x256_2_2_0 :=
  unary_read ops_chain 420 (lt_length (by decide)) main_arg7 main_v326 (f := ((extractStridedSlice S1x1x256 ![2, 2, 0] · slices_S3x3x256_S1x1x256_2_2_0) : (⟨S3x3x256, .f32⟩ : BufTy).Contents (Elt F) → (⟨S1x1x256, .f32⟩ : BufTy).Contents (Elt F))) (hop := rfl) (hkx := by decide) (V := V)

theorem at_main_v327 : (𝐑 main_v327 : (⟨S256, .f32⟩ : BufTy).Contents (Elt F)) = shapeCast S256 (𝐑 main_v326 : (⟨S1x1x256, .f32⟩ : BufTy).Contents (Elt F)) shapeCasts_S1x1x256_S256 :=
  (reshape_read ops_chain 421 (lt_length (by decide)) main_v326 main_v327 shapeCasts_S1x1x256_S256 (hop := rfl) (hkx := by decide) (V := V)).trans rfl

theorem at_main_v328 : (𝐑 main_v328 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v327 : (⟨S256, .f32⟩ : BufTy).Contents (Elt F)) :=
  unary_read ops_chain 422 (lt_length (by decide)) main_v327 main_v328 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v329 : (𝐑 main_v329 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v328 : (⟨S1x256, .f32⟩ : BufTy).Contents (Elt F)) :=
  unary_read ops_chain 423 (lt_length (by decide)) main_v328 main_v329 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v330 : (𝐑 main_v330 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v325 : (⟨S50000x256, .f32⟩ : BufTy).Contents (Elt F)) (𝐑 main_v329 : (⟨S50000x256, .f32⟩ : BufTy).Contents (Elt F)) :=
  binary_read ops_chain 424 (lt_length (by decide)) main_v325 main_v329 main_v330 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_50 : (𝐑 main_cst_50 : (⟨S_, .f32⟩ : BufTy).Contents (Elt F)) = (constant S_ .f32 0x00000000#32) :=
  nullary_read ops_chain 425 (lt_length (by decide)) main_cst_50 (hop := rfl) (V := V)

theorem at_main_v331 : (𝐑 main_v331 : (⟨S256, .f32⟩ : BufTy).Contents (Elt F)) = Host.reduceAdd (𝐑 main_v330 : (⟨S50000x256, .f32⟩ : BufTy).Contents (Elt F)) (𝐑 main_cst_50 : (⟨S_, .f32⟩ : BufTy).Contents (Elt F)) reducesTo_S50000x256_S256_d0 h_S_ :=
  binary_read ops_chain 426 (lt_length (by decide)) main_v330 main_cst_50 main_v331 (f := ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F))) (hop := rfl) (hka := by decide) (hkb := by decide) (V := V)

theorem at_main_cst_51 : (𝐑 main_cst_51 : (⟨S_, .f32⟩ : BufTy).Contents (Elt F)) = (constant S_ .f32 0x47435000#32) :=
  nullary_read ops_chain 427 (lt_length (by decide)) main_cst_51 (hop := rfl) (V := V)

theorem at_main_v332 : (𝐑 main_v332 : (⟨S256, .f32⟩ : BufTy).Contents (Elt F)) = (broadcastInDim S256 ![] bcast_S_S256 : (⟨S_, .f32⟩ : BufTy).Contents (Elt F) → (⟨S256, .f32⟩ : BufTy).Contents (Elt F)) (𝐑 main_cst_51 : (⟨S_, .f32⟩ : BufTy).Contents (Elt F)) :=
  unary_read ops_chain 428 (lt_length (by decide)) main_cst_51 main_v332 (f := (broadcastInDim S256 ![] bcast_S_S256 : (⟨S_, .f32⟩ : BufTy).Contents (Elt F) → (⟨S256, .f32⟩ : BufTy).Contents (Elt F))) (hop := rfl) (hkx := by decide) (V := V)

theorem at_main_v333 : (𝐑 main_v333 : (⟨S256, .f32⟩ : BufTy).Contents (Elt F)) = (Host.divf : (⟨S256, .f32⟩ : BufTy).Contents (Elt F) → (⟨S256, .f32⟩ : BufTy).Contents (Elt F) → (⟨S256, .f32⟩ : BufTy).Contents (Elt F)) (𝐑 main_v331 : (⟨S256, .f32⟩ : BufTy).Contents (Elt F)) (𝐑 main_v332 : (⟨S256, .f32⟩ : BufTy).Contents (Elt F)) :=
  binary_read ops_chain 429 (lt_length (by decide)) main_v331 main_v332 main_v333 (f := (Host.divf : (⟨S256, .f32⟩ : BufTy).Contents (Elt F) → (⟨S256, .f32⟩ : BufTy).Contents (Elt F) → (⟨S256, .f32⟩ : BufTy).Contents (Elt F))) (hop := rfl) (hka := by decide) (hkb := by decide) (V := V)

theorem at_main_c_52 : (𝐑 main_c_52 : (⟨S_, .i32⟩ : BufTy).Contents (Elt F)) = (constantI S_ 32 0#32) :=
  nullary_read ops_chain 430 (lt_length (by decide)) main_c_52 (hop := rfl) (V := V)

theorem at_main_call2_cst : (𝐑 main_call2_cst : (⟨S_, .f32⟩ : BufTy).Contents (Elt F)) = (constant S_ .f32 0x00000000#32) :=
  (nullary_read ops_chain 431 (lt_length (by decide)) main_call2_cst (v := (main_call2.cst).toBuf (constant S_ .f32 0x00000000#32)) (hop := rfl)  (V := V)).trans rfl

theorem at_main_call2_v0 : (𝐑 main_call2_v0 : (⟨S256, .f32⟩ : BufTy).Contents (Elt F)) = Host.reduceAdd (𝐑 main_v330 : (⟨S50000x256, .f32⟩ : BufTy).Contents (Elt F)) (𝐑 main_call2_cst : (⟨S_, .f32⟩ : BufTy).Contents (Elt F)) reducesTo_S50000x256_S256_d0 h_S_ :=
  (binary_read ops_chain 432 (lt_length (by decide)) main_v330 main_call2_cst main_call2_v0 (f := fun u v => (main_call2.v0).toBuf ((fun x v => Host.reduceAdd x v reducesTo_S50000x256_S256_d0 h_S_) (((.of main_v330 : TRef sig ⟨S50000x256, .f32⟩)).ofBuf u) ((main_call2.cst).ofBuf v))) (hop := rfl) (hka := by decide) (hkb := by decide) (V := V)).trans rfl

theorem at_main_call2_v1 : (𝐑 main_call2_v1 : (⟨S1x256, .f32⟩ : BufTy).Contents (Elt F)) = (broadcastInDim S1x256 ![1] bcast_S256_S1x256_1) (𝐑 main_call2_v0 : (⟨S256, .f32⟩ : BufTy).Contents (Elt F)) :=
  (unary_read ops_chain 433 (lt_length (by decide)) main_call2_v0 main_call2_v1 (f := fun u => (main_call2.v1).toBuf ((broadcastInDim S1x256 ![1] bcast_S256_S1x256_1) ((main_call2.v0).ofBuf u))) (hop := rfl) (hkx := by decide) (V := V)).trans rfl

theorem at_main_call2_cst_0 : (𝐑 main_call2_cst_0 : (⟨S_, .f32⟩ : BufTy).Contents (Elt F)) = (constant S_ .f32 0x47435000#32) :=
  (nullary_read ops_chain 434 (lt_length (by decide)) main_call2_cst_0 (v := (main_call2.cst_0).toBuf (constant S_ .f32 0x47435000#32)) (hop := rfl)  (V := V)).trans rfl

theorem at_main_call2_v2 : (𝐑 main_call2_v2 : (⟨S1x256, .f32⟩ : BufTy).Contents (Elt F)) = (broadcastInDim S1x256 ![] bcast_S_S1x256) (𝐑 main_call2_cst_0 : (⟨S_, .f32⟩ : BufTy).Contents (Elt F)) :=
  (unary_read ops_chain 435 (lt_length (by decide)) main_call2_cst_0 main_call2_v2 (f := fun u => (main_call2.v2).toBuf ((broadcastInDim S1x256 ![] bcast_S_S1x256) ((main_call2.cst_0).ofBuf u))) (hop := rfl) (hkx := by decide) (V := V)).trans rfl

theorem at_main_call2_v3 : (𝐑 main_call2_v3 : (⟨S1x256, .f32⟩ : BufTy).Contents (Elt F)) = Host.divf (𝐑 main_call2_v1 : (⟨S1x256, .f32⟩ : BufTy).Contents (Elt F)) (𝐑 main_call2_v2 : (⟨S1x256, .f32⟩ : BufTy).Contents (Elt F)) :=
  (binary_read ops_chain 436 (lt_length (by decide)) main_call2_v1 main_call2_v2 main_call2_v3 (f := fun u v => (main_call2.v3).toBuf (Host.divf ((main_call2.v1).ofBuf u) ((main_call2.v2).ofBuf v))) (hop := rfl) (hka := by decide) (hkb := by decide) (V := V)).trans rfl

theorem at_main_call2_v4 : (𝐑 main_call2_v4 : (⟨S50000x256, .f32⟩ : BufTy).Contents (Elt F)) = (broadcastInDim S50000x256 ![0, 1] bcast_S1x256_S50000x256_0_1) (𝐑 main_call2_v3 : (⟨S1x256, .f32⟩ : BufTy).Contents (Elt F)) :=
  (unary_read ops_chain 437 (lt_length (by decide)) main_call2_v3 main_call2_v4 (f := fun u => (main_call2.v4).toBuf ((broadcastInDim S50000x256 ![0, 1] bcast_S1x256_S50000x256_0_1) ((main_call2.v3).ofBuf u))) (hop := rfl) (hkx := by decide) (V := V)).trans rfl

theorem at_main_call2_v5 : (𝐑 main_call2_v5 : (⟨S50000x256, .f32⟩ : BufTy).Contents (Elt F)) = subf (𝐑 main_v330 : (⟨S50000x256, .f32⟩ : BufTy).Contents (Elt F)) (𝐑 main_call2_v4 : (⟨S50000x256, .f32⟩ : BufTy).Contents (Elt F)) :=
  (binary_read ops_chain 438 (lt_length (by decide)) main_v330 main_call2_v4 main_call2_v5 (f := fun u v => (main_call2.v5).toBuf (subf (((.of main_v330 : TRef sig ⟨S50000x256, .f32⟩)).ofBuf u) ((main_call2.v4).ofBuf v))) (hop := rfl) (hka := by decide) (hkb := by decide) (V := V)).trans rfl

theorem at_main_call2_v6 : (𝐑 main_call2_v6 : (⟨S50000x256, .f32⟩ : BufTy).Contents (Elt F)) = mulf (𝐑 main_call2_v5 : (⟨S50000x256, .f32⟩ : BufTy).Contents (Elt F)) (𝐑 main_call2_v5 : (⟨S50000x256, .f32⟩ : BufTy).Contents (Elt F)) :=
  (binary_read ops_chain 439 (lt_length (by decide)) main_call2_v5 main_call2_v5 main_call2_v6 (f := fun u v => (main_call2.v6).toBuf (mulf ((main_call2.v5).ofBuf u) ((main_call2.v5).ofBuf v))) (hop := rfl) (hka := by decide) (hkb := by decide) (V := V)).trans rfl

theorem at_main_call2_v7 : (𝐑 main_call2_v7 : (⟨S_, .f32⟩ : BufTy).Contents (Elt F)) = (sitofp .f32) (𝐑 main_c_52 : (⟨S_, .i32⟩ : BufTy).Contents (Elt F)) :=
  (unary_read ops_chain 440 (lt_length (by decide)) main_c_52 main_call2_v7 (f := fun u => (main_call2.v7).toBuf ((sitofp .f32) (((.of main_c_52 : TRef sig ⟨S_, .i32⟩)).ofBuf u))) (hop := rfl) (hkx := by decide) (V := V)).trans rfl

theorem at_main_call2_cst_1 : (𝐑 main_call2_cst_1 : (⟨S_, .f32⟩ : BufTy).Contents (Elt F)) = (constant S_ .f32 0x47435000#32) :=
  (nullary_read ops_chain 441 (lt_length (by decide)) main_call2_cst_1 (v := (main_call2.cst_1).toBuf (constant S_ .f32 0x47435000#32)) (hop := rfl)  (V := V)).trans rfl

theorem at_main_call2_v8 : (𝐑 main_call2_v8 : (⟨S_, .f32⟩ : BufTy).Contents (Elt F)) = subf (𝐑 main_call2_cst_1 : (⟨S_, .f32⟩ : BufTy).Contents (Elt F)) (𝐑 main_call2_v7 : (⟨S_, .f32⟩ : BufTy).Contents (Elt F)) :=
  (binary_read ops_chain 442 (lt_length (by decide)) main_call2_cst_1 main_call2_v7 main_call2_v8 (f := fun u v => (main_call2.v8).toBuf (subf ((main_call2.cst_1).ofBuf u) ((main_call2.v7).ofBuf v))) (hop := rfl) (hka := by decide) (hkb := by decide) (V := V)).trans rfl

theorem at_main_call2_cst_2 : (𝐑 main_call2_cst_2 : (⟨S_, .f32⟩ : BufTy).Contents (Elt F)) = (constant S_ .f32 0x00000000#32) :=
  (nullary_read ops_chain 443 (lt_length (by decide)) main_call2_cst_2 (v := (main_call2.cst_2).toBuf (constant S_ .f32 0x00000000#32)) (hop := rfl)  (V := V)).trans rfl

theorem at_main_call2_v9 : (𝐑 main_call2_v9 : (⟨S256, .f32⟩ : BufTy).Contents (Elt F)) = Host.reduceAdd (𝐑 main_call2_v6 : (⟨S50000x256, .f32⟩ : BufTy).Contents (Elt F)) (𝐑 main_call2_cst_2 : (⟨S_, .f32⟩ : BufTy).Contents (Elt F)) reducesTo_S50000x256_S256_d0 h_S_ :=
  (binary_read ops_chain 444 (lt_length (by decide)) main_call2_v6 main_call2_cst_2 main_call2_v9 (f := fun u v => (main_call2.v9).toBuf ((fun x v => Host.reduceAdd x v reducesTo_S50000x256_S256_d0 h_S_) ((main_call2.v6).ofBuf u) ((main_call2.cst_2).ofBuf v))) (hop := rfl) (hka := by decide) (hkb := by decide) (V := V)).trans rfl

theorem at_main_call2_v10 : (𝐑 main_call2_v10 : (⟨S256, .f32⟩ : BufTy).Contents (Elt F)) = (broadcastInDim S256 ![] bcast_S_S256) (𝐑 main_call2_v8 : (⟨S_, .f32⟩ : BufTy).Contents (Elt F)) :=
  (unary_read ops_chain 445 (lt_length (by decide)) main_call2_v8 main_call2_v10 (f := fun u => (main_call2.v10).toBuf ((broadcastInDim S256 ![] bcast_S_S256) ((main_call2.v8).ofBuf u))) (hop := rfl) (hkx := by decide) (V := V)).trans rfl

theorem at_main_call2_v11 : (𝐑 main_call2_v11 : (⟨S256, .f32⟩ : BufTy).Contents (Elt F)) = Host.divf (𝐑 main_call2_v9 : (⟨S256, .f32⟩ : BufTy).Contents (Elt F)) (𝐑 main_call2_v10 : (⟨S256, .f32⟩ : BufTy).Contents (Elt F)) :=
  (binary_read ops_chain 446 (lt_length (by decide)) main_call2_v9 main_call2_v10 main_call2_v11 (f := fun u v => (main_call2.v11).toBuf (Host.divf ((main_call2.v9).ofBuf u) ((main_call2.v10).ofBuf v))) (hop := rfl) (hka := by decide) (hkb := by decide) (V := V)).trans rfl

theorem at_main_call2_cst_3 : (𝐑 main_call2_cst_3 : (⟨S_, .f32⟩ : BufTy).Contents (Elt F)) = (constant S_ .f32 0x00000000#32) :=
  (nullary_read ops_chain 447 (lt_length (by decide)) main_call2_cst_3 (v := (main_call2.cst_3).toBuf (constant S_ .f32 0x00000000#32)) (hop := rfl)  (V := V)).trans rfl

theorem at_main_call2_v12 : (𝐑 main_call2_v12 : (⟨S_, .i1⟩ : BufTy).Contents (Elt F)) = (cmpf .ogt) (𝐑 main_call2_v8 : (⟨S_, .f32⟩ : BufTy).Contents (Elt F)) (𝐑 main_call2_cst_3 : (⟨S_, .f32⟩ : BufTy).Contents (Elt F)) :=
  (binary_read ops_chain 448 (lt_length (by decide)) main_call2_v8 main_call2_cst_3 main_call2_v12 (f := fun u v => (main_call2.v12).toBuf ((cmpf .ogt) ((main_call2.v8).ofBuf u) ((main_call2.cst_3).ofBuf v))) (hop := rfl) (hka := by decide) (hkb := by decide) (V := V)).trans rfl

theorem at_main_call2_cst_4 : (𝐑 main_call2_cst_4 : (⟨S_, .f32⟩ : BufTy).Contents (Elt F)) = (constant S_ .f32 0x7FC00000#32) :=
  (nullary_read ops_chain 449 (lt_length (by decide)) main_call2_cst_4 (v := (main_call2.cst_4).toBuf (constant S_ .f32 0x7FC00000#32)) (hop := rfl)  (V := V)).trans rfl

theorem at_main_call2_call0_v0 : (𝐑 main_call2_call0_v0 : (⟨S_, .f32⟩ : BufTy).Contents (Elt F)) = (𝐑 main_call2_cst_4 : (⟨S_, .f32⟩ : BufTy).Contents (Elt F)) :=
  (unary_read ops_chain 450 (lt_length (by decide)) main_call2_cst_4 main_call2_call0_v0 (f := fun u => (main_call2.call0.v0).toBuf (id ((main_call2.cst_4).ofBuf u))) (hop := rfl) (hkx := by decide) (V := V)).trans rfl

theorem at_main_call2_call0_v1 : (𝐑 main_call2_call0_v1 : (⟨S256, .f32⟩ : BufTy).Contents (Elt F)) = (broadcastInDim S256 ![] bcast_S_S256) (𝐑 main_call2_call0_v0 : (⟨S_, .f32⟩ : BufTy).Contents (Elt F)) :=
  (unary_read ops_chain 451 (lt_length (by decide)) main_call2_call0_v0 main_call2_call0_v1 (f := fun u => (main_call2.call0.v1).toBuf ((broadcastInDim S256 ![] bcast_S_S256) ((main_call2.call0.v0).ofBuf u))) (hop := rfl) (hkx := by decide) (V := V)).trans rfl

theorem at_main_v334 : (𝐑 main_v334 : (⟨S256, .f32⟩ : BufTy).Contents (Elt F)) = select (broadcastInDim S256 ![] bcast_S_S256 (𝐑 main_call2_v12 : (⟨S_, .i1⟩ : BufTy).Contents (Elt F))) (𝐑 main_call2_v11 : (⟨S256, .f32⟩ : BufTy).Contents (Elt F)) (𝐑 main_call2_call0_v1 : (⟨S256, .f32⟩ : BufTy).Contents (Elt F)) :=
  (ternary_read ops_chain 452 (lt_length (by decide)) main_call2_v12 main_call2_v11 main_call2_call0_v1 main_v334 (f := fun w u v => (main_call2.call0.v2).toBuf ((fun p a b => select (broadcastInDim S256 ![] bcast_S_S256 p) a b) ((main_call2.v12).ofBuf w) ((main_call2.v11).ofBuf u) ((main_call2.call0.v1).ofBuf v))) (hop := rfl) (hkc := by decide) (hka := by decide) (hkb := by decide) (V := V)).trans rfl

theorem at_main_v335 : (𝐑 main_v335 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v333 : (⟨S256, .f32⟩ : BufTy).Contents (Elt F)) :=
  unary_read ops_chain 453 (lt_length (by decide)) main_v333 main_v335 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v336 : (𝐑 main_v336 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v335 : (⟨S1x256, .f32⟩ : BufTy).Contents (Elt F)) :=
  unary_read ops_chain 454 (lt_length (by decide)) main_v335 main_v336 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v337 : (𝐑 main_v337 : (⟨S50000x256, .f32⟩ : BufTy).Contents (Elt F)) = (subf : (⟨S50000x256, .f32⟩ : BufTy).Contents (Elt F) → (⟨S50000x256, .f32⟩ : BufTy).Contents (Elt F) → (⟨S50000x256, .f32⟩ : BufTy).Contents (Elt F)) (𝐑 main_v330 : (⟨S50000x256, .f32⟩ : BufTy).Contents (Elt F)) (𝐑 main_v336 : (⟨S50000x256, .f32⟩ : BufTy).Contents (Elt F)) :=
  binary_read ops_chain 455 (lt_length (by decide)) main_v330 main_v336 main_v337 (f := (subf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_cst_53 : (𝐑 main_cst_53 : (⟨S_, .f32⟩ : BufTy).Contents (Elt F)) = (constant S_ .f32 0x3727C5AC#32) :=
  nullary_read ops_chain 456 (lt_length (by decide)) main_cst_53 (hop := rfl) (V := V)

theorem at_main_v338 : (𝐑 main_v338 : (⟨S256, .f32⟩ : BufTy).Contents (Elt F)) = (broadcastInDim S256 ![] bcast_S_S256 : (⟨S_, .f32⟩ : BufTy).Contents (Elt F) → (⟨S256, .f32⟩ : BufTy).Contents (Elt F)) (𝐑 main_cst_53 : (⟨S_, .f32⟩ : BufTy).Contents (Elt F)) :=
  unary_read ops_chain 457 (lt_length (by decide)) main_cst_53 main_v338 (f := (broadcastInDim S256 ![] bcast_S_S256 : (⟨S_, .f32⟩ : BufTy).Contents (Elt F) → (⟨S256, .f32⟩ : BufTy).Contents (Elt F))) (hop := rfl) (hkx := by decide) (V := V)

theorem at_main_v339 : (𝐑 main_v339 : (⟨S256, .f32⟩ : BufTy).Contents (Elt F)) = (addf : (⟨S256, .f32⟩ : BufTy).Contents (Elt F) → (⟨S256, .f32⟩ : BufTy).Contents (Elt F) → (⟨S256, .f32⟩ : BufTy).Contents (Elt F)) (𝐑 main_v334 : (⟨S256, .f32⟩ : BufTy).Contents (Elt F)) (𝐑 main_v338 : (⟨S256, .f32⟩ : BufTy).Contents (Elt F)) :=
  binary_read ops_chain 458 (lt_length (by decide)) main_v334 main_v338 main_v339 (f := (addf : (⟨S256, .f32⟩ : BufTy).Contents (Elt F) → (⟨S256, .f32⟩ : BufTy).Contents (Elt F) → (⟨S256, .f32⟩ : BufTy).Contents (Elt F))) (hop := rfl) (hka := by decide) (hkb := by decide) (V := V)

theorem at_main_v340 : (𝐑 main_v340 : (⟨S256, .f32⟩ : BufTy).Contents (Elt F)) = (Host.rsqrt : (⟨S256, .f32⟩ : BufTy).Contents (Elt F) → (⟨S256, .f32⟩ : BufTy).Contents (Elt F)) (𝐑 main_v339 : (⟨S256, .f32⟩ : BufTy).Contents (Elt F)) :=
  unary_read ops_chain 459 (lt_length (by decide)) main_v339 main_v340 (f := (Host.rsqrt : (⟨S256, .f32⟩ : BufTy).Contents (Elt F) → (⟨S256, .f32⟩ : BufTy).Contents (Elt F))) (hop := rfl) (hkx := by decide) (V := V)

theorem at_main_v341 : (𝐑 main_v341 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v340 : (⟨S256, .f32⟩ : BufTy).Contents (Elt F)) :=
  unary_read ops_chain 460 (lt_length (by decide)) main_v340 main_v341 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v342 : (𝐑 main_v342 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v341 : (⟨S1x256, .f32⟩ : BufTy).Contents (Elt F)) :=
  unary_read ops_chain 461 (lt_length (by decide)) main_v341 main_v342 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v343 : (𝐑 main_v343 : (⟨S50000x256, .f32⟩ : BufTy).Contents (Elt F)) = (mulf : (⟨S50000x256, .f32⟩ : BufTy).Contents (Elt F) → (⟨S50000x256, .f32⟩ : BufTy).Contents (Elt F) → (⟨S50000x256, .f32⟩ : BufTy).Contents (Elt F)) (𝐑 main_v337 : (⟨S50000x256, .f32⟩ : BufTy).Contents (Elt F)) (𝐑 main_v342 : (⟨S50000x256, .f32⟩ : BufTy).Contents (Elt F)) :=
  binary_read ops_chain 462 (lt_length (by decide)) main_v337 main_v342 main_v343 (f := (mulf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v344 : (𝐑 main_v344 : (⟨S1x256, .f32⟩ : BufTy).Contents (Elt F)) = extractStridedSlice S1x256 ![2, 0] (𝐑 main_arg8 : (⟨S3x256, .f32⟩ : BufTy).Contents (Elt F)) slices_S3x256_S1x256_2_0 :=
  unary_read ops_chain 463 (lt_length (by decide)) main_arg8 main_v344 (f := ((extractStridedSlice S1x256 ![2, 0] · slices_S3x256_S1x256_2_0) : (⟨S3x256, .f32⟩ : BufTy).Contents (Elt F) → (⟨S1x256, .f32⟩ : BufTy).Contents (Elt F))) (hop := rfl) (hkx := by decide) (V := V)

theorem at_main_v345 : (𝐑 main_v345 : (⟨S256, .f32⟩ : BufTy).Contents (Elt F)) = shapeCast S256 (𝐑 main_v344 : (⟨S1x256, .f32⟩ : BufTy).Contents (Elt F)) shapeCasts_S1x256_S256 :=
  (reshape_read ops_chain 464 (lt_length (by decide)) main_v344 main_v345 shapeCasts_S1x256_S256 (hop := rfl) (hkx := by decide) (V := V)).trans rfl

theorem at_main_v346 : (𝐑 main_v346 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v345 : (⟨S256, .f32⟩ : BufTy).Contents (Elt F)) :=
  unary_read ops_chain 465 (lt_length (by decide)) main_v345 main_v346 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v347 : (𝐑 main_v347 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v346 : (⟨S1x256, .f32⟩ : BufTy).Contents (Elt F)) :=
  unary_read ops_chain 466 (lt_length (by decide)) main_v346 main_v347 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v348 : (𝐑 main_v348 : (⟨S50000x256, .f32⟩ : BufTy).Contents (Elt F)) = (mulf : (⟨S50000x256, .f32⟩ : BufTy).Contents (Elt F) → (⟨S50000x256, .f32⟩ : BufTy).Contents (Elt F) → (⟨S50000x256, .f32⟩ : BufTy).Contents (Elt F)) (𝐑 main_v343 : (⟨S50000x256, .f32⟩ : BufTy).Contents (Elt F)) (𝐑 main_v347 : (⟨S50000x256, .f32⟩ : BufTy).Contents (Elt F)) :=
  binary_read ops_chain 467 (lt_length (by decide)) main_v343 main_v347 main_v348 (f := (mulf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

theorem at_main_v349 : (𝐑 main_v349 : (⟨S1x256, .f32⟩ : BufTy).Contents (Elt F)) = extractStridedSlice S1x256 ![2, 0] (𝐑 main_arg9 : (⟨S3x256, .f32⟩ : BufTy).Contents (Elt F)) slices_S3x256_S1x256_2_0 :=
  unary_read ops_chain 468 (lt_length (by decide)) main_arg9 main_v349 (f := ((extractStridedSlice S1x256 ![2, 0] · slices_S3x256_S1x256_2_0) : (⟨S3x256, .f32⟩ : BufTy).Contents (Elt F) → (⟨S1x256, .f32⟩ : BufTy).Contents (Elt F))) (hop := rfl) (hkx := by decide) (V := V)

theorem at_main_v350 : (𝐑 main_v350 : (⟨S256, .f32⟩ : BufTy).Contents (Elt F)) = shapeCast S256 (𝐑 main_v349 : (⟨S1x256, .f32⟩ : BufTy).Contents (Elt F)) shapeCasts_S1x256_S256 :=
  (reshape_read ops_chain 469 (lt_length (by decide)) main_v349 main_v350 shapeCasts_S1x256_S256 (hop := rfl) (hkx := by decide) (V := V)).trans rfl

theorem at_main_v351 : (𝐑 main_v351 : (⟨S1x256, .f32⟩ : BufTy).Contents (Elt F)) = (broadcastInDim S1x256 ![1] bcast_S256_S1x256_1 : (⟨S256, .f32⟩ : BufTy).Contents (Elt F) → (⟨S1x256, .f32⟩ : BufTy).Contents (Elt F)) (𝐑 main_v350 : (⟨S256, .f32⟩ : BufTy).Contents (Elt F)) :=
  unary_read ops_chain 470 (lt_length (by decide)) main_v350 main_v351 (f := (broadcastInDim S1x256 ![1] bcast_S256_S1x256_1 : (⟨S256, .f32⟩ : BufTy).Contents (Elt F) → (⟨S1x256, .f32⟩ : BufTy).Contents (Elt F))) (hop := rfl) (hkx := by decide) (V := V)

theorem at_main_v352 : (𝐑 main_v352 : (⟨S50000x256, .f32⟩ : BufTy).Contents (Elt F)) = (broadcastInDim S50000x256 ![0, 1] bcast_S1x256_S50000x256_0_1 : (⟨S1x256, .f32⟩ : BufTy).Contents (Elt F) → (⟨S50000x256, .f32⟩ : BufTy).Contents (Elt F)) (𝐑 main_v351 : (⟨S1x256, .f32⟩ : BufTy).Contents (Elt F)) :=
  unary_read ops_chain 471 (lt_length (by decide)) main_v351 main_v352 (f := (broadcastInDim S50000x256 ![0, 1] bcast_S1x256_S50000x256_0_1 : (⟨S1x256, .f32⟩ : BufTy).Contents (Elt F) → (⟨S50000x256, .f32⟩ : BufTy).Contents (Elt F))) (hop := rfl) (hkx := by decide) (V := V)

theorem at_main_v353 : (𝐑 main_v353 : (⟨S50000x256, .f32⟩ : BufTy).Contents (Elt F)) = (addf : (⟨S50000x256, .f32⟩ : BufTy).Contents (Elt F) → (⟨S50000x256, .f32⟩ : BufTy).Contents (Elt F) → (⟨S50000x256, .f32⟩ : BufTy).Contents (Elt F)) (𝐑 main_v348 : (⟨S50000x256, .f32⟩ : BufTy).Contents (Elt F)) (𝐑 main_v352 : (⟨S50000x256, .f32⟩ : BufTy).Contents (Elt F)) :=
  binary_read ops_chain 472 (lt_length (by decide)) main_v348 main_v352 main_v353 (f := (addf : (⟨S50000x256, .f32⟩ : BufTy).Contents (Elt F) → (⟨S50000x256, .f32⟩ : BufTy).Contents (Elt F) → (⟨S50000x256, .f32⟩ : BufTy).Contents (Elt F))) (hop := rfl) (hka := by decide) (hkb := by decide) (V := V)

end

end Cert.ReferenceIdeal.Hand

end
-- ==== Proof.RefShared.lean ====
/-
  The reference's stages as the shared functions of earlier stages: the edge rows, the encoder's output, and for each
  of the nine rounds the neighbour sum, the weights and biases, and the round's output; for each of the three layers
  the column means, the variance, and the normalised output.
-/
import proofs.«162580_j71794673320191_1_alg».proof.Proof.RefAt
import proofs.«162580_j71794673320191_1_alg».proof.Proof.Shared

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

theorem sh_src : after ops V (Proc.devRef Proc.tc main_v1) = Cert.Shared.srcOf (V (Proc.devRef Proc.tc main_arg1)) := by
  unfold Cert.Shared.srcOf
  rw [at_main_v1 V, at_main_v0 V, at_main_arg1 V]
theorem sh_dst : after ops V (Proc.devRef Proc.tc main_v3) = Cert.Shared.dstOf (V (Proc.devRef Proc.tc main_arg1)) := by
  unfold Cert.Shared.dstOf
  rw [at_main_v3 V, at_main_v2 V, at_main_arg1 V]
theorem sh_enc : after ops V (Proc.devRef Proc.tc main_v7) = Cert.Shared.encOf (V (Proc.devRef Proc.tc main_arg0)) (V (Proc.devRef Proc.tc main_arg2)) (V (Proc.devRef Proc.tc main_arg3)) := by
  unfold Cert.Shared.encOf
  rw [at_main_v7 V, at_main_v6 V, at_main_v5 V, at_main_v4 V, at_main_arg0 V, at_main_arg2 V, at_main_arg3 V]
theorem sh_agg0 : after ops V (Proc.devRef Proc.tc main_v17) = Cert.Shared.aggOf (after ops V (Proc.devRef Proc.tc main_v7)) (after ops V (Proc.devRef Proc.tc main_v1)) (after ops V (Proc.devRef Proc.tc main_v3)) := by
  unfold Cert.Shared.aggOf
  rw [at_main_v17 V, at_main_v16 V, at_main_v15 V, at_main_cst V, at_main_v14 V, at_main_v13 V, at_main_v12 V, at_main_v11 V, at_main_v10 V, at_main_c_0 V, at_main_v9 V, at_main_v8 V, at_main_c V]
theorem sh_w1_0 : after ops V (Proc.devRef Proc.tc main_v20) = Cert.Shared.w1_0 (V (Proc.devRef Proc.tc main_arg4)) := by
  unfold Cert.Shared.w1_0
  rw [at_main_v20 V, at_main_v19 V, at_main_arg4 V]
theorem sh_b1_0 : after ops V (Proc.devRef Proc.tc main_v23) = Cert.Shared.b1_0 (V (Proc.devRef Proc.tc main_arg5)) := by
  unfold Cert.Shared.b1_0
  rw [at_main_v23 V, at_main_v22 V, at_main_arg5 V]
theorem sh_w2_0 : after ops V (Proc.devRef Proc.tc main_v30) = Cert.Shared.w2_0 (V (Proc.devRef Proc.tc main_arg6)) := by
  unfold Cert.Shared.w2_0
  rw [at_main_v30 V, at_main_v29 V, at_main_arg6 V]
theorem sh_b2_0 : after ops V (Proc.devRef Proc.tc main_v33) = Cert.Shared.b2_0 (V (Proc.devRef Proc.tc main_arg7)) := by
  unfold Cert.Shared.b2_0
  rw [at_main_v33 V, at_main_v32 V, at_main_arg7 V]
theorem sh_out0 : after ops V (Proc.devRef Proc.tc main_v38) = Cert.Shared.mlpRelu (after ops V (Proc.devRef Proc.tc main_v7)) (after ops V (Proc.devRef Proc.tc main_v17)) (after ops V (Proc.devRef Proc.tc main_v20)) (after ops V (Proc.devRef Proc.tc main_v23)) (after ops V (Proc.devRef Proc.tc main_v30)) (after ops V (Proc.devRef Proc.tc main_v33)) := by
  unfold Cert.Shared.mlpRelu
  rw [at_main_v38 V, at_main_v37 V, at_main_cst_2 V, at_main_v36 V, at_main_v35 V, at_main_v34 V, at_main_v31 V, at_main_v28 V, at_main_v27 V, at_main_cst_1 V, at_main_v26 V, at_main_v25 V, at_main_v24 V, at_main_v21 V, at_main_v18 V]
theorem sh_agg1 : after ops V (Proc.devRef Proc.tc main_v48) = Cert.Shared.aggOf (after ops V (Proc.devRef Proc.tc main_v38)) (after ops V (Proc.devRef Proc.tc main_v1)) (after ops V (Proc.devRef Proc.tc main_v3)) := by
  unfold Cert.Shared.aggOf
  rw [at_main_v48 V, at_main_v47 V, at_main_v46 V, at_main_cst_5 V, at_main_v45 V, at_main_v44 V, at_main_v43 V, at_main_v42 V, at_main_v41 V, at_main_c_4 V, at_main_v40 V, at_main_v39 V, at_main_c_3 V]
theorem sh_w1_1 : after ops V (Proc.devRef Proc.tc main_v51) = Cert.Shared.w1_1 (V (Proc.devRef Proc.tc main_arg4)) := by
  unfold Cert.Shared.w1_1
  rw [at_main_v51 V, at_main_v50 V, at_main_arg4 V]
theorem sh_b1_1 : after ops V (Proc.devRef Proc.tc main_v54) = Cert.Shared.b1_1 (V (Proc.devRef Proc.tc main_arg5)) := by
  unfold Cert.Shared.b1_1
  rw [at_main_v54 V, at_main_v53 V, at_main_arg5 V]
theorem sh_w2_1 : after ops V (Proc.devRef Proc.tc main_v61) = Cert.Shared.w2_1 (V (Proc.devRef Proc.tc main_arg6)) := by
  unfold Cert.Shared.w2_1
  rw [at_main_v61 V, at_main_v60 V, at_main_arg6 V]
theorem sh_b2_1 : after ops V (Proc.devRef Proc.tc main_v64) = Cert.Shared.b2_1 (V (Proc.devRef Proc.tc main_arg7)) := by
  unfold Cert.Shared.b2_1
  rw [at_main_v64 V, at_main_v63 V, at_main_arg7 V]
theorem sh_out1 : after ops V (Proc.devRef Proc.tc main_v69) = Cert.Shared.mlpRelu (after ops V (Proc.devRef Proc.tc main_v38)) (after ops V (Proc.devRef Proc.tc main_v48)) (after ops V (Proc.devRef Proc.tc main_v51)) (after ops V (Proc.devRef Proc.tc main_v54)) (after ops V (Proc.devRef Proc.tc main_v61)) (after ops V (Proc.devRef Proc.tc main_v64)) := by
  unfold Cert.Shared.mlpRelu
  rw [at_main_v69 V, at_main_v68 V, at_main_cst_7 V, at_main_v67 V, at_main_v66 V, at_main_v65 V, at_main_v62 V, at_main_v59 V, at_main_v58 V, at_main_cst_6 V, at_main_v57 V, at_main_v56 V, at_main_v55 V, at_main_v52 V, at_main_v49 V]
theorem sh_agg2 : after ops V (Proc.devRef Proc.tc main_v79) = Cert.Shared.aggOf (after ops V (Proc.devRef Proc.tc main_v69)) (after ops V (Proc.devRef Proc.tc main_v1)) (after ops V (Proc.devRef Proc.tc main_v3)) := by
  unfold Cert.Shared.aggOf
  rw [at_main_v79 V, at_main_v78 V, at_main_v77 V, at_main_cst_10 V, at_main_v76 V, at_main_v75 V, at_main_v74 V, at_main_v73 V, at_main_v72 V, at_main_c_9 V, at_main_v71 V, at_main_v70 V, at_main_c_8 V]
theorem sh_w1_2 : after ops V (Proc.devRef Proc.tc main_v82) = Cert.Shared.w1_2 (V (Proc.devRef Proc.tc main_arg4)) := by
  unfold Cert.Shared.w1_2
  rw [at_main_v82 V, at_main_v81 V, at_main_arg4 V]
theorem sh_b1_2 : after ops V (Proc.devRef Proc.tc main_v85) = Cert.Shared.b1_2 (V (Proc.devRef Proc.tc main_arg5)) := by
  unfold Cert.Shared.b1_2
  rw [at_main_v85 V, at_main_v84 V, at_main_arg5 V]
theorem sh_w2_2 : after ops V (Proc.devRef Proc.tc main_v92) = Cert.Shared.w2_2 (V (Proc.devRef Proc.tc main_arg6)) := by
  unfold Cert.Shared.w2_2
  rw [at_main_v92 V, at_main_v91 V, at_main_arg6 V]
theorem sh_b2_2 : after ops V (Proc.devRef Proc.tc main_v95) = Cert.Shared.b2_2 (V (Proc.devRef Proc.tc main_arg7)) := by
  unfold Cert.Shared.b2_2
  rw [at_main_v95 V, at_main_v94 V, at_main_arg7 V]
theorem sh_out2 : after ops V (Proc.devRef Proc.tc main_v98) = Cert.Shared.mlpLin (after ops V (Proc.devRef Proc.tc main_v69)) (after ops V (Proc.devRef Proc.tc main_v79)) (after ops V (Proc.devRef Proc.tc main_v82)) (after ops V (Proc.devRef Proc.tc main_v85)) (after ops V (Proc.devRef Proc.tc main_v92)) (after ops V (Proc.devRef Proc.tc main_v95)) := by
  unfold Cert.Shared.mlpLin
  rw [at_main_v98 V, at_main_v97 V, at_main_v96 V, at_main_v93 V, at_main_v90 V, at_main_v89 V, at_main_cst_11 V, at_main_v88 V, at_main_v87 V, at_main_v86 V, at_main_v83 V, at_main_v80 V]
theorem sh_agg3 : after ops V (Proc.devRef Proc.tc main_v133) = Cert.Shared.aggOf (after ops V (Proc.devRef Proc.tc main_v123)) (after ops V (Proc.devRef Proc.tc main_v1)) (after ops V (Proc.devRef Proc.tc main_v3)) := by
  unfold Cert.Shared.aggOf
  rw [at_main_v133 V, at_main_v132 V, at_main_v131 V, at_main_cst_19 V, at_main_v130 V, at_main_v129 V, at_main_v128 V, at_main_v127 V, at_main_v126 V, at_main_c_18 V, at_main_v125 V, at_main_v124 V, at_main_c_17 V]
theorem sh_w1_3 : after ops V (Proc.devRef Proc.tc main_v136) = Cert.Shared.w1_3 (V (Proc.devRef Proc.tc main_arg4)) := by
  unfold Cert.Shared.w1_3
  rw [at_main_v136 V, at_main_v135 V, at_main_arg4 V]
theorem sh_b1_3 : after ops V (Proc.devRef Proc.tc main_v139) = Cert.Shared.b1_3 (V (Proc.devRef Proc.tc main_arg5)) := by
  unfold Cert.Shared.b1_3
  rw [at_main_v139 V, at_main_v138 V, at_main_arg5 V]
theorem sh_w2_3 : after ops V (Proc.devRef Proc.tc main_v146) = Cert.Shared.w2_3 (V (Proc.devRef Proc.tc main_arg6)) := by
  unfold Cert.Shared.w2_3
  rw [at_main_v146 V, at_main_v145 V, at_main_arg6 V]
theorem sh_b2_3 : after ops V (Proc.devRef Proc.tc main_v149) = Cert.Shared.b2_3 (V (Proc.devRef Proc.tc main_arg7)) := by
  unfold Cert.Shared.b2_3
  rw [at_main_v149 V, at_main_v148 V, at_main_arg7 V]
theorem sh_out3 : after ops V (Proc.devRef Proc.tc main_v154) = Cert.Shared.mlpRelu (after ops V (Proc.devRef Proc.tc main_v123)) (after ops V (Proc.devRef Proc.tc main_v133)) (after ops V (Proc.devRef Proc.tc main_v136)) (after ops V (Proc.devRef Proc.tc main_v139)) (after ops V (Proc.devRef Proc.tc main_v146)) (after ops V (Proc.devRef Proc.tc main_v149)) := by
  unfold Cert.Shared.mlpRelu
  rw [at_main_v154 V, at_main_v153 V, at_main_cst_21 V, at_main_v152 V, at_main_v151 V, at_main_v150 V, at_main_v147 V, at_main_v144 V, at_main_v143 V, at_main_cst_20 V, at_main_v142 V, at_main_v141 V, at_main_v140 V, at_main_v137 V, at_main_v134 V]
theorem sh_agg4 : after ops V (Proc.devRef Proc.tc main_v164) = Cert.Shared.aggOf (after ops V (Proc.devRef Proc.tc main_v154)) (after ops V (Proc.devRef Proc.tc main_v1)) (after ops V (Proc.devRef Proc.tc main_v3)) := by
  unfold Cert.Shared.aggOf
  rw [at_main_v164 V, at_main_v163 V, at_main_v162 V, at_main_cst_24 V, at_main_v161 V, at_main_v160 V, at_main_v159 V, at_main_v158 V, at_main_v157 V, at_main_c_23 V, at_main_v156 V, at_main_v155 V, at_main_c_22 V]
theorem sh_w1_4 : after ops V (Proc.devRef Proc.tc main_v167) = Cert.Shared.w1_4 (V (Proc.devRef Proc.tc main_arg4)) := by
  unfold Cert.Shared.w1_4
  rw [at_main_v167 V, at_main_v166 V, at_main_arg4 V]
theorem sh_b1_4 : after ops V (Proc.devRef Proc.tc main_v170) = Cert.Shared.b1_4 (V (Proc.devRef Proc.tc main_arg5)) := by
  unfold Cert.Shared.b1_4
  rw [at_main_v170 V, at_main_v169 V, at_main_arg5 V]
theorem sh_w2_4 : after ops V (Proc.devRef Proc.tc main_v177) = Cert.Shared.w2_4 (V (Proc.devRef Proc.tc main_arg6)) := by
  unfold Cert.Shared.w2_4
  rw [at_main_v177 V, at_main_v176 V, at_main_arg6 V]
theorem sh_b2_4 : after ops V (Proc.devRef Proc.tc main_v180) = Cert.Shared.b2_4 (V (Proc.devRef Proc.tc main_arg7)) := by
  unfold Cert.Shared.b2_4
  rw [at_main_v180 V, at_main_v179 V, at_main_arg7 V]
theorem sh_out4 : after ops V (Proc.devRef Proc.tc main_v185) = Cert.Shared.mlpRelu (after ops V (Proc.devRef Proc.tc main_v154)) (after ops V (Proc.devRef Proc.tc main_v164)) (after ops V (Proc.devRef Proc.tc main_v167)) (after ops V (Proc.devRef Proc.tc main_v170)) (after ops V (Proc.devRef Proc.tc main_v177)) (after ops V (Proc.devRef Proc.tc main_v180)) := by
  unfold Cert.Shared.mlpRelu
  rw [at_main_v185 V, at_main_v184 V, at_main_cst_26 V, at_main_v183 V, at_main_v182 V, at_main_v181 V, at_main_v178 V, at_main_v175 V, at_main_v174 V, at_main_cst_25 V, at_main_v173 V, at_main_v172 V, at_main_v171 V, at_main_v168 V, at_main_v165 V]
theorem sh_agg5 : after ops V (Proc.devRef Proc.tc main_v195) = Cert.Shared.aggOf (after ops V (Proc.devRef Proc.tc main_v185)) (after ops V (Proc.devRef Proc.tc main_v1)) (after ops V (Proc.devRef Proc.tc main_v3)) := by
  unfold Cert.Shared.aggOf
  rw [at_main_v195 V, at_main_v194 V, at_main_v193 V, at_main_cst_29 V, at_main_v192 V, at_main_v191 V, at_main_v190 V, at_main_v189 V, at_main_v188 V, at_main_c_28 V, at_main_v187 V, at_main_v186 V, at_main_c_27 V]
theorem sh_w1_5 : after ops V (Proc.devRef Proc.tc main_v198) = Cert.Shared.w1_5 (V (Proc.devRef Proc.tc main_arg4)) := by
  unfold Cert.Shared.w1_5
  rw [at_main_v198 V, at_main_v197 V, at_main_arg4 V]
theorem sh_b1_5 : after ops V (Proc.devRef Proc.tc main_v201) = Cert.Shared.b1_5 (V (Proc.devRef Proc.tc main_arg5)) := by
  unfold Cert.Shared.b1_5
  rw [at_main_v201 V, at_main_v200 V, at_main_arg5 V]
theorem sh_w2_5 : after ops V (Proc.devRef Proc.tc main_v208) = Cert.Shared.w2_5 (V (Proc.devRef Proc.tc main_arg6)) := by
  unfold Cert.Shared.w2_5
  rw [at_main_v208 V, at_main_v207 V, at_main_arg6 V]
theorem sh_b2_5 : after ops V (Proc.devRef Proc.tc main_v211) = Cert.Shared.b2_5 (V (Proc.devRef Proc.tc main_arg7)) := by
  unfold Cert.Shared.b2_5
  rw [at_main_v211 V, at_main_v210 V, at_main_arg7 V]
theorem sh_out5 : after ops V (Proc.devRef Proc.tc main_v214) = Cert.Shared.mlpLin (after ops V (Proc.devRef Proc.tc main_v185)) (after ops V (Proc.devRef Proc.tc main_v195)) (after ops V (Proc.devRef Proc.tc main_v198)) (after ops V (Proc.devRef Proc.tc main_v201)) (after ops V (Proc.devRef Proc.tc main_v208)) (after ops V (Proc.devRef Proc.tc main_v211)) := by
  unfold Cert.Shared.mlpLin
  rw [at_main_v214 V, at_main_v213 V, at_main_v212 V, at_main_v209 V, at_main_v206 V, at_main_v205 V, at_main_cst_30 V, at_main_v204 V, at_main_v203 V, at_main_v202 V, at_main_v199 V, at_main_v196 V]
theorem sh_agg6 : after ops V (Proc.devRef Proc.tc main_v249) = Cert.Shared.aggOf (after ops V (Proc.devRef Proc.tc main_v239)) (after ops V (Proc.devRef Proc.tc main_v1)) (after ops V (Proc.devRef Proc.tc main_v3)) := by
  unfold Cert.Shared.aggOf
  rw [at_main_v249 V, at_main_v248 V, at_main_v247 V, at_main_cst_38 V, at_main_v246 V, at_main_v245 V, at_main_v244 V, at_main_v243 V, at_main_v242 V, at_main_c_37 V, at_main_v241 V, at_main_v240 V, at_main_c_36 V]
theorem sh_w1_6 : after ops V (Proc.devRef Proc.tc main_v252) = Cert.Shared.w1_6 (V (Proc.devRef Proc.tc main_arg4)) := by
  unfold Cert.Shared.w1_6
  rw [at_main_v252 V, at_main_v251 V, at_main_arg4 V]
theorem sh_b1_6 : after ops V (Proc.devRef Proc.tc main_v255) = Cert.Shared.b1_6 (V (Proc.devRef Proc.tc main_arg5)) := by
  unfold Cert.Shared.b1_6
  rw [at_main_v255 V, at_main_v254 V, at_main_arg5 V]
theorem sh_w2_6 : after ops V (Proc.devRef Proc.tc main_v262) = Cert.Shared.w2_6 (V (Proc.devRef Proc.tc main_arg6)) := by
  unfold Cert.Shared.w2_6
  rw [at_main_v262 V, at_main_v261 V, at_main_arg6 V]
theorem sh_b2_6 : after ops V (Proc.devRef Proc.tc main_v265) = Cert.Shared.b2_6 (V (Proc.devRef Proc.tc main_arg7)) := by
  unfold Cert.Shared.b2_6
  rw [at_main_v265 V, at_main_v264 V, at_main_arg7 V]
theorem sh_out6 : after ops V (Proc.devRef Proc.tc main_v270) = Cert.Shared.mlpRelu (after ops V (Proc.devRef Proc.tc main_v239)) (after ops V (Proc.devRef Proc.tc main_v249)) (after ops V (Proc.devRef Proc.tc main_v252)) (after ops V (Proc.devRef Proc.tc main_v255)) (after ops V (Proc.devRef Proc.tc main_v262)) (after ops V (Proc.devRef Proc.tc main_v265)) := by
  unfold Cert.Shared.mlpRelu
  rw [at_main_v270 V, at_main_v269 V, at_main_cst_40 V, at_main_v268 V, at_main_v267 V, at_main_v266 V, at_main_v263 V, at_main_v260 V, at_main_v259 V, at_main_cst_39 V, at_main_v258 V, at_main_v257 V, at_main_v256 V, at_main_v253 V, at_main_v250 V]
theorem sh_agg7 : after ops V (Proc.devRef Proc.tc main_v280) = Cert.Shared.aggOf (after ops V (Proc.devRef Proc.tc main_v270)) (after ops V (Proc.devRef Proc.tc main_v1)) (after ops V (Proc.devRef Proc.tc main_v3)) := by
  unfold Cert.Shared.aggOf
  rw [at_main_v280 V, at_main_v279 V, at_main_v278 V, at_main_cst_43 V, at_main_v277 V, at_main_v276 V, at_main_v275 V, at_main_v274 V, at_main_v273 V, at_main_c_42 V, at_main_v272 V, at_main_v271 V, at_main_c_41 V]
theorem sh_w1_7 : after ops V (Proc.devRef Proc.tc main_v283) = Cert.Shared.w1_7 (V (Proc.devRef Proc.tc main_arg4)) := by
  unfold Cert.Shared.w1_7
  rw [at_main_v283 V, at_main_v282 V, at_main_arg4 V]
theorem sh_b1_7 : after ops V (Proc.devRef Proc.tc main_v286) = Cert.Shared.b1_7 (V (Proc.devRef Proc.tc main_arg5)) := by
  unfold Cert.Shared.b1_7
  rw [at_main_v286 V, at_main_v285 V, at_main_arg5 V]
theorem sh_w2_7 : after ops V (Proc.devRef Proc.tc main_v293) = Cert.Shared.w2_7 (V (Proc.devRef Proc.tc main_arg6)) := by
  unfold Cert.Shared.w2_7
  rw [at_main_v293 V, at_main_v292 V, at_main_arg6 V]
theorem sh_b2_7 : after ops V (Proc.devRef Proc.tc main_v296) = Cert.Shared.b2_7 (V (Proc.devRef Proc.tc main_arg7)) := by
  unfold Cert.Shared.b2_7
  rw [at_main_v296 V, at_main_v295 V, at_main_arg7 V]
theorem sh_out7 : after ops V (Proc.devRef Proc.tc main_v301) = Cert.Shared.mlpRelu (after ops V (Proc.devRef Proc.tc main_v270)) (after ops V (Proc.devRef Proc.tc main_v280)) (after ops V (Proc.devRef Proc.tc main_v283)) (after ops V (Proc.devRef Proc.tc main_v286)) (after ops V (Proc.devRef Proc.tc main_v293)) (after ops V (Proc.devRef Proc.tc main_v296)) := by
  unfold Cert.Shared.mlpRelu
  rw [at_main_v301 V, at_main_v300 V, at_main_cst_45 V, at_main_v299 V, at_main_v298 V, at_main_v297 V, at_main_v294 V, at_main_v291 V, at_main_v290 V, at_main_cst_44 V, at_main_v289 V, at_main_v288 V, at_main_v287 V, at_main_v284 V, at_main_v281 V]
theorem sh_agg8 : after ops V (Proc.devRef Proc.tc main_v311) = Cert.Shared.aggOf (after ops V (Proc.devRef Proc.tc main_v301)) (after ops V (Proc.devRef Proc.tc main_v1)) (after ops V (Proc.devRef Proc.tc main_v3)) := by
  unfold Cert.Shared.aggOf
  rw [at_main_v311 V, at_main_v310 V, at_main_v309 V, at_main_cst_48 V, at_main_v308 V, at_main_v307 V, at_main_v306 V, at_main_v305 V, at_main_v304 V, at_main_c_47 V, at_main_v303 V, at_main_v302 V, at_main_c_46 V]
theorem sh_w1_8 : after ops V (Proc.devRef Proc.tc main_v314) = Cert.Shared.w1_8 (V (Proc.devRef Proc.tc main_arg4)) := by
  unfold Cert.Shared.w1_8
  rw [at_main_v314 V, at_main_v313 V, at_main_arg4 V]
theorem sh_b1_8 : after ops V (Proc.devRef Proc.tc main_v317) = Cert.Shared.b1_8 (V (Proc.devRef Proc.tc main_arg5)) := by
  unfold Cert.Shared.b1_8
  rw [at_main_v317 V, at_main_v316 V, at_main_arg5 V]
theorem sh_w2_8 : after ops V (Proc.devRef Proc.tc main_v324) = Cert.Shared.w2_8 (V (Proc.devRef Proc.tc main_arg6)) := by
  unfold Cert.Shared.w2_8
  rw [at_main_v324 V, at_main_v323 V, at_main_arg6 V]
theorem sh_b2_8 : after ops V (Proc.devRef Proc.tc main_v327) = Cert.Shared.b2_8 (V (Proc.devRef Proc.tc main_arg7)) := by
  unfold Cert.Shared.b2_8
  rw [at_main_v327 V, at_main_v326 V, at_main_arg7 V]
theorem sh_out8 : after ops V (Proc.devRef Proc.tc main_v330) = Cert.Shared.mlpLin (after ops V (Proc.devRef Proc.tc main_v301)) (after ops V (Proc.devRef Proc.tc main_v311)) (after ops V (Proc.devRef Proc.tc main_v314)) (after ops V (Proc.devRef Proc.tc main_v317)) (after ops V (Proc.devRef Proc.tc main_v324)) (after ops V (Proc.devRef Proc.tc main_v327)) := by
  unfold Cert.Shared.mlpLin
  rw [at_main_v330 V, at_main_v329 V, at_main_v328 V, at_main_v325 V, at_main_v322 V, at_main_v321 V, at_main_cst_49 V, at_main_v320 V, at_main_v319 V, at_main_v318 V, at_main_v315 V, at_main_v312 V]
theorem sh_ga0 : after ops V (Proc.devRef Proc.tc main_v113) = Cert.Shared.ga_0 (V (Proc.devRef Proc.tc main_arg8)) := by
  unfold Cert.Shared.ga_0
  rw [at_main_v113 V, at_main_v112 V, at_main_arg8 V]
theorem sh_be0 : after ops V (Proc.devRef Proc.tc main_v118) = Cert.Shared.be_0 (V (Proc.devRef Proc.tc main_arg9)) := by
  unfold Cert.Shared.be_0
  rw [at_main_v118 V, at_main_v117 V, at_main_arg9 V]
theorem sh_mean0 : after ops V (Proc.devRef Proc.tc main_v101) = Cert.Shared.meanOf (after ops V (Proc.devRef Proc.tc main_v98)) := by
  unfold Cert.Shared.meanOf
  rw [at_main_v101 V, at_main_v100 V, at_main_cst_13 V, at_main_v99 V, at_main_cst_12 V]
theorem sh_var0 : after ops V (Proc.devRef Proc.tc main_v102) = Cert.Shared.varOf (after ops V (Proc.devRef Proc.tc main_v98)) := by
  unfold Cert.Shared.varOf
  rw [id_eq]
  rw [at_main_v102 V, at_main_call0_call0_v1 V, at_main_call0_call0_v0 V, at_main_call0_cst_4 V, at_main_call0_v12 V, at_main_call0_cst_3 V, at_main_call0_v11 V, at_main_call0_v10 V, at_main_call0_v9 V, at_main_call0_cst_2 V, at_main_call0_v8 V, at_main_call0_cst_1 V, at_main_call0_v7 V, at_main_call0_v6 V, at_main_call0_v5 V, at_main_call0_v4 V, at_main_call0_v3 V, at_main_call0_v2 V, at_main_call0_cst_0 V, at_main_call0_v1 V, at_main_call0_v0 V, at_main_call0_cst V, at_main_c_14 V]
theorem sh_norm0 : after ops V (Proc.devRef Proc.tc main_v123) = Cert.Shared.normRelu (after ops V (Proc.devRef Proc.tc main_v98)) (after ops V (Proc.devRef Proc.tc main_v113)) (after ops V (Proc.devRef Proc.tc main_v118)) := by
  unfold Cert.Shared.normRelu
  rw [← sh_mean0 V, ← sh_var0 V]
  rw [at_main_v123 V, at_main_v122 V, at_main_cst_16 V, at_main_v121 V, at_main_v120 V, at_main_v119 V, at_main_v116 V, at_main_v115 V, at_main_v114 V, at_main_v111 V, at_main_v110 V, at_main_v109 V, at_main_v108 V, at_main_v107 V, at_main_v106 V, at_main_cst_15 V, at_main_v105 V, at_main_v104 V, at_main_v103 V]
theorem sh_ga1 : after ops V (Proc.devRef Proc.tc main_v229) = Cert.Shared.ga_1 (V (Proc.devRef Proc.tc main_arg8)) := by
  unfold Cert.Shared.ga_1
  rw [at_main_v229 V, at_main_v228 V, at_main_arg8 V]
theorem sh_be1 : after ops V (Proc.devRef Proc.tc main_v234) = Cert.Shared.be_1 (V (Proc.devRef Proc.tc main_arg9)) := by
  unfold Cert.Shared.be_1
  rw [at_main_v234 V, at_main_v233 V, at_main_arg9 V]
theorem sh_mean1 : after ops V (Proc.devRef Proc.tc main_v217) = Cert.Shared.meanOf (after ops V (Proc.devRef Proc.tc main_v214)) := by
  unfold Cert.Shared.meanOf
  rw [at_main_v217 V, at_main_v216 V, at_main_cst_32 V, at_main_v215 V, at_main_cst_31 V]
theorem sh_var1 : after ops V (Proc.devRef Proc.tc main_v218) = Cert.Shared.varOf (after ops V (Proc.devRef Proc.tc main_v214)) := by
  unfold Cert.Shared.varOf
  rw [id_eq]
  rw [at_main_v218 V, at_main_call1_call0_v1 V, at_main_call1_call0_v0 V, at_main_call1_cst_4 V, at_main_call1_v12 V, at_main_call1_cst_3 V, at_main_call1_v11 V, at_main_call1_v10 V, at_main_call1_v9 V, at_main_call1_cst_2 V, at_main_call1_v8 V, at_main_call1_cst_1 V, at_main_call1_v7 V, at_main_call1_v6 V, at_main_call1_v5 V, at_main_call1_v4 V, at_main_call1_v3 V, at_main_call1_v2 V, at_main_call1_cst_0 V, at_main_call1_v1 V, at_main_call1_v0 V, at_main_call1_cst V, at_main_c_33 V]
theorem sh_norm1 : after ops V (Proc.devRef Proc.tc main_v239) = Cert.Shared.normRelu (after ops V (Proc.devRef Proc.tc main_v214)) (after ops V (Proc.devRef Proc.tc main_v229)) (after ops V (Proc.devRef Proc.tc main_v234)) := by
  unfold Cert.Shared.normRelu
  rw [← sh_mean1 V, ← sh_var1 V]
  rw [at_main_v239 V, at_main_v238 V, at_main_cst_35 V, at_main_v237 V, at_main_v236 V, at_main_v235 V, at_main_v232 V, at_main_v231 V, at_main_v230 V, at_main_v227 V, at_main_v226 V, at_main_v225 V, at_main_v224 V, at_main_v223 V, at_main_v222 V, at_main_cst_34 V, at_main_v221 V, at_main_v220 V, at_main_v219 V]
theorem sh_ga2 : after ops V (Proc.devRef Proc.tc main_v345) = Cert.Shared.ga_2 (V (Proc.devRef Proc.tc main_arg8)) := by
  unfold Cert.Shared.ga_2
  rw [at_main_v345 V, at_main_v344 V, at_main_arg8 V]
theorem sh_be2 : after ops V (Proc.devRef Proc.tc main_v350) = Cert.Shared.be_2 (V (Proc.devRef Proc.tc main_arg9)) := by
  unfold Cert.Shared.be_2
  rw [at_main_v350 V, at_main_v349 V, at_main_arg9 V]
theorem sh_mean2 : after ops V (Proc.devRef Proc.tc main_v333) = Cert.Shared.meanOf (after ops V (Proc.devRef Proc.tc main_v330)) := by
  unfold Cert.Shared.meanOf
  rw [at_main_v333 V, at_main_v332 V, at_main_cst_51 V, at_main_v331 V, at_main_cst_50 V]
theorem sh_var2 : after ops V (Proc.devRef Proc.tc main_v334) = Cert.Shared.varOf (after ops V (Proc.devRef Proc.tc main_v330)) := by
  unfold Cert.Shared.varOf
  rw [id_eq]
  rw [at_main_v334 V, at_main_call2_call0_v1 V, at_main_call2_call0_v0 V, at_main_call2_cst_4 V, at_main_call2_v12 V, at_main_call2_cst_3 V, at_main_call2_v11 V, at_main_call2_v10 V, at_main_call2_v9 V, at_main_call2_cst_2 V, at_main_call2_v8 V, at_main_call2_cst_1 V, at_main_call2_v7 V, at_main_call2_v6 V, at_main_call2_v5 V, at_main_call2_v4 V, at_main_call2_v3 V, at_main_call2_v2 V, at_main_call2_cst_0 V, at_main_call2_v1 V, at_main_call2_v0 V, at_main_call2_cst V, at_main_c_52 V]
theorem sh_norm2 : after ops V (Proc.devRef Proc.tc main_v353) = Cert.Shared.normLin (after ops V (Proc.devRef Proc.tc main_v330)) (after ops V (Proc.devRef Proc.tc main_v345)) (after ops V (Proc.devRef Proc.tc main_v350)) := by
  unfold Cert.Shared.normLin
  rw [← sh_mean2 V, ← sh_var2 V]
  rw [at_main_v353 V, at_main_v352 V, at_main_v351 V, at_main_v348 V, at_main_v347 V, at_main_v346 V, at_main_v343 V, at_main_v342 V, at_main_v341 V, at_main_v340 V, at_main_v339 V, at_main_v338 V, at_main_cst_53 V, at_main_v337 V, at_main_v336 V, at_main_v335 V]

end Cert.ReferenceIdeal.Hand

end
-- ==== Proof.RefNet.lean ====
/-
  The reference, stage by stage: the encoder's output, each round's output and each layer's normalised rows are the
  network's stages as functions of the ten argument arrays.
-/
import proofs.«162580_j71794673320191_1_alg».proof.Proof.RefShared
import proofs.«162580_j71794673320191_1_alg».proof.Proof.Net

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

/-- The ten argument arrays as a valuation holds them. -/
def rArgs : Cert.Shared.Args F :=
  ⟨V (Proc.devRef Proc.tc main_arg0), V (Proc.devRef Proc.tc main_arg1), V (Proc.devRef Proc.tc main_arg2), V (Proc.devRef Proc.tc main_arg3), V (Proc.devRef Proc.tc main_arg4), V (Proc.devRef Proc.tc main_arg5), V (Proc.devRef Proc.tc main_arg6), V (Proc.devRef Proc.tc main_arg7), V (Proc.devRef Proc.tc main_arg8), V (Proc.devRef Proc.tc main_arg9)⟩

theorem r_st0 : after ops V (Proc.devRef Proc.tc main_v7) = Cert.Shared.st0 (rArgs V) := by
  rw [sh_enc V]; rfl
theorem r_st1 : after ops V (Proc.devRef Proc.tc main_v38) = Cert.Shared.st1 (rArgs V) := by
  rw [sh_out0 V, sh_agg0 V, r_st0 V, sh_src V, sh_dst V, sh_w1_0 V, sh_b1_0 V, sh_w2_0 V, sh_b2_0 V]; rfl
theorem r_st2 : after ops V (Proc.devRef Proc.tc main_v69) = Cert.Shared.st2 (rArgs V) := by
  rw [sh_out1 V, sh_agg1 V, r_st1 V, sh_src V, sh_dst V, sh_w1_1 V, sh_b1_1 V, sh_w2_1 V, sh_b2_1 V]; rfl
theorem r_st3 : after ops V (Proc.devRef Proc.tc main_v98) = Cert.Shared.st3 (rArgs V) := by
  rw [sh_out2 V, sh_agg2 V, r_st2 V, sh_src V, sh_dst V, sh_w1_2 V, sh_b1_2 V, sh_w2_2 V, sh_b2_2 V]; rfl
theorem r_st4 : after ops V (Proc.devRef Proc.tc main_v123) = Cert.Shared.st4 (rArgs V) := by
  rw [sh_norm0 V, r_st3 V, sh_ga0 V, sh_be0 V]; rfl
theorem r_st5 : after ops V (Proc.devRef Proc.tc main_v154) = Cert.Shared.st5 (rArgs V) := by
  rw [sh_out3 V, sh_agg3 V, r_st4 V, sh_src V, sh_dst V, sh_w1_3 V, sh_b1_3 V, sh_w2_3 V, sh_b2_3 V]; rfl
theorem r_st6 : after ops V (Proc.devRef Proc.tc main_v185) = Cert.Shared.st6 (rArgs V) := by
  rw [sh_out4 V, sh_agg4 V, r_st5 V, sh_src V, sh_dst V, sh_w1_4 V, sh_b1_4 V, sh_w2_4 V, sh_b2_4 V]; rfl
theorem r_st7 : after ops V (Proc.devRef Proc.tc main_v214) = Cert.Shared.st7 (rArgs V) := by
  rw [sh_out5 V, sh_agg5 V, r_st6 V, sh_src V, sh_dst V, sh_w1_5 V, sh_b1_5 V, sh_w2_5 V, sh_b2_5 V]; rfl
theorem r_st8 : after ops V (Proc.devRef Proc.tc main_v239) = Cert.Shared.st8 (rArgs V) := by
  rw [sh_norm1 V, r_st7 V, sh_ga1 V, sh_be1 V]; rfl
theorem r_st9 : after ops V (Proc.devRef Proc.tc main_v270) = Cert.Shared.st9 (rArgs V) := by
  rw [sh_out6 V, sh_agg6 V, r_st8 V, sh_src V, sh_dst V, sh_w1_6 V, sh_b1_6 V, sh_w2_6 V, sh_b2_6 V]; rfl
theorem r_st10 : after ops V (Proc.devRef Proc.tc main_v301) = Cert.Shared.st10 (rArgs V) := by
  rw [sh_out7 V, sh_agg7 V, r_st9 V, sh_src V, sh_dst V, sh_w1_7 V, sh_b1_7 V, sh_w2_7 V, sh_b2_7 V]; rfl
theorem r_st11 : after ops V (Proc.devRef Proc.tc main_v330) = Cert.Shared.st11 (rArgs V) := by
  rw [sh_out8 V, sh_agg8 V, r_st10 V, sh_src V, sh_dst V, sh_w1_8 V, sh_b1_8 V, sh_w2_8 V, sh_b2_8 V]; rfl
theorem r_st12 : after ops V (Proc.devRef Proc.tc main_v353) = Cert.Shared.st12 (rArgs V) := by
  rw [sh_norm2 V, r_st11 V, sh_ga2 V, sh_be2 V]; rfl

end Cert.ReferenceIdeal.Hand

end
-- ==== Proof.Algebraic.lean ====
/-
  The two idealised programs end with the same array. From memories that agree on the ten arguments, the kernel's
  last boundary holds the network's last stage of its arguments and so does the reference's last buffer; the stage is
  one function, and the arguments agree.
-/
import proofs.«162580_j71794673320191_1_alg».proof.Defs
import proofs.«162580_j71794673320191_1_alg».proof.Proof.Gen.KernelIdeal
import proofs.«162580_j71794673320191_1_alg».proof.Proof.Gen.ReferenceIdeal
import proofs.«162580_j71794673320191_1_alg».proof.Proof.Gen.Pre_finite_inputs
import proofs.«162580_j71794673320191_1_alg».proof.Proof.KStage
import proofs.«162580_j71794673320191_1_alg».proof.Proof.RefNet
import proofs.«162580_j71794673320191_1_alg».proof.Proof.RefRun

noncomputable section

namespace Cert.Proof

open Idealize.ShloMosaic Idealize.ShloMosaic.TcCoe Idealize.SL.Sem

theorem algebraic : Cert.algebraic_KernelIdeal_ReferenceIdeal := by
  intro m ρ m' ρ' hpre hagree
  refine ⟨fun c => Cert.KernelIdeal.Run.W29 m ρ c (Proc.devRef .tc Cert.KernelIdeal.main_v245), Cert.KernelIdeal.Run.run (F := Ideal) m ρ, ?_⟩
  refine (θ_run (Cert.ReferenceIdeal.defs (F := Ideal)) _ _).mono (fun r h c => ⟨(h c).1.trans ?_, (h c).2⟩)
    (Cert.ReferenceIdeal.Hand.run (F := Ideal) m' ρ')
  obtain ⟨h0, h1, h2, h3, h4, h5, h6, h7, h8, h9⟩ := hagree c
  rw [Cert.ReferenceIdeal.Hand.r_st12]
  refine Eq.trans ?_ (Cert.KernelIdeal.Run.k_st12 m ρ hpre c).symm
  refine congrArg Cert.Shared.st12 ?_
  show Cert.Shared.Args.mk _ _ _ _ _ _ _ _ _ _ = Cert.Shared.Args.mk _ _ _ _ _ _ _ _ _ _
  congr 1

end Cert.Proof

end
-- ==== Proof.lean ====
/- A three-layer graph network on 50000 nodes and 300000 edges: an encoder x·Wenc + benc; then three times
   (three rounds of: add to every node the sum of its in-neighbours' rows, apply two dense 256 x 256 layers with a
   ReLU between them, and a ReLU after all but the last round), followed by batch normalisation over the 50000 rows
   (a ReLU after all but the last). The kernel computes the dense layers and the normalisation block by block of 2000
   rows, takes the column sums and the column sums of squares by accumulating over the 25 blocks, and forms the
   variance as (sum of squares)/50000 - mean^2; the reference forms it as the mean of the centred squares. Over the
   reals the two variances agree, and with finite inputs every intermediate value is a real, so the two programs agree
   entry by entry at the extended reals. The neighbour sums are the same host gather and scatter-add on both sides.

   The three frames: each kernel region's body is run on one block of rows (Proof/Region*.lean; the column-sum regions
   with their two carried scratch rows in Proof/Reduce*Body.lean and Proof/Reduce*Region.lean), every region is one
   item of the program between the contents of two boundaries (Proof/Bounds.lean, Proof/Seg*.lean), and the program's
   29 items run in order (Proof/Run.lean; the same text at the word level in the B-prefixed modules); the reference is
   a straight line of host operations (Proof/RefRun.lean, Proof/RefFrame.lean).
   The value: each region's output array is one function of its input arrays (Proof/Value*.lean); the bodies'
   arithmetic read at an entry (Proof/Pay*.lean) is the reference's spelling of the same layers (Proof/Bridge*.lean),
   the column sums add up block by block (Proof/ColSum*.lean), and over real data the two variances agree
   (Proof/BridgeNorm*.lean, Proof/RealShared.lean, Proof/RealPre.lean); so both programs end at the network's last stage
   of the same arguments (Proof/Net.lean, Proof/KStage.lean, Proof/RefNet.lean, Proof/Algebraic.lean). -/
import proofs.«162580_j71794673320191_1_alg».proof.Defs
import proofs.«162580_j71794673320191_1_alg».proof.Proof.Gen.Kernel
import proofs.«162580_j71794673320191_1_alg».proof.Proof.Gen.Kernel.Skeleton
import proofs.«162580_j71794673320191_1_alg».proof.Proof.Gen.Kernel.Launch
import proofs.«162580_j71794673320191_1_alg».proof.Proof.Gen.Kernel.Regions
import proofs.«162580_j71794673320191_1_alg».proof.Proof.Gen.Kernel.Points
import proofs.«162580_j71794673320191_1_alg».proof.Proof.Gen.KernelIdeal
import proofs.«162580_j71794673320191_1_alg».proof.Proof.Gen.KernelIdeal.Skeleton
import proofs.«162580_j71794673320191_1_alg».proof.Proof.Gen.KernelIdeal.Launch
import proofs.«162580_j71794673320191_1_alg».proof.Proof.Gen.KernelIdeal.Regions
import proofs.«162580_j71794673320191_1_alg».proof.Proof.Gen.KernelIdeal.Points
import proofs.«162580_j71794673320191_1_alg».proof.Proof.Gen.ReferenceIdeal
import proofs.«162580_j71794673320191_1_alg».proof.Proof.Gen.Pre_finite_inputs
import proofs.«162580_j71794673320191_1_alg».proof.Proof.Run
import proofs.«162580_j71794673320191_1_alg».proof.Proof.BRun
import proofs.«162580_j71794673320191_1_alg».proof.Proof.RefFrame
import proofs.«162580_j71794673320191_1_alg».proof.Proof.Algebraic
import Idealize.ShloMosaic.Adequacy
import Idealize.ShloMosaic.Init

noncomputable section

namespace Cert.Proof

open Idealize.ShloMosaic Idealize.SL.Sem Cert.Kernel

/-- The idealisation changed no operation of the kernel, so there is nothing to restate. -/
theorem preserves : Cert.preserves_Kernel_KernelIdeal := trivial

/-- The word-level kernel runs through its sixteen regions and leaves its ten argument arrays as they were. -/
theorem frame_k : Cert.frame_Kernel := fun m ρ _ =>
  (θ_run (Cert.Kernel.defs (F := Bits)) _ _).mono (fun _ h c => (h c).2) (Cert.Kernel.Run.run (F := Bits) m ρ)

/-- The same at the extended reals. -/
theorem frame_ki : Cert.frame_KernelIdeal := fun m ρ _ =>
  (θ_run (Cert.KernelIdeal.defs (F := Ideal)) _ _).mono (fun _ h c => (h c).2) (Cert.KernelIdeal.Run.run (F := Ideal) m ρ)

theorem claim : Cert.Claim := ⟨Cert.Kernel.Gen.facts, Cert.KernelIdeal.Gen.facts, Cert.ReferenceIdeal.Gen.facts, Cert.Pre_finite_inputs.Gen.facts, by
  exact ⟨frame_k, frame_ki, Cert.ReferenceIdeal.Hand.frame, preserves, algebraic⟩⟩

end Cert.Proof

end
